-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S500000x8 : Shape := ⟨2, ![500000, 8]⟩
abbrev S2x800000 : Shape := ⟨2, ![2, 800000]⟩
abbrev S2x1000000 : Shape := ⟨2, ![2, 1000000]⟩
abbrev S2x500000 : Shape := ⟨2, ![2, 500000]⟩
abbrev S200000 : Shape := ⟨1, ![200000]⟩
abbrev S5x200x16 : Shape := ⟨3, ![5, 200, 16]⟩
abbrev S2000x16 : Shape := ⟨2, ![2000, 16]⟩
abbrev S10x4 : Shape := ⟨2, ![10, 4]⟩
abbrev S128x85 : Shape := ⟨2, ![128, 85]⟩
abbrev S128 : Shape := ⟨1, ![128]⟩
abbrev S128x26 : Shape := ⟨2, ![128, 26]⟩
abbrev S2x3x128x128 : Shape := ⟨4, ![2, 3, 128, 128]⟩
abbrev S2x3x128 : Shape := ⟨3, ![2, 3, 128]⟩
abbrev S1x128 : Shape := ⟨2, ![1, 128]⟩
abbrev S1 : Shape := ⟨1, ![1]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S500000x8 : S_.BroadcastsInDim S500000x8 (![] : Fin 0 → Fin S500000x8.rank)
  reducesTo_S500000x8_S_d0_1 : S500000x8.ReducesTo [0, 1] S_
  bcast_S_S5x200x16 : S_.BroadcastsInDim S5x200x16 (![] : Fin 0 → Fin S5x200x16.rank)
  reducesTo_S5x200x16_S_d0_1_2 : S5x200x16.ReducesTo [0, 1, 2] S_
  bcast_S_S2000x16 : S_.BroadcastsInDim S2000x16 (![] : Fin 0 → Fin S2000x16.rank)
  reducesTo_S2000x16_S_d0_1 : S2000x16.ReducesTo [0, 1] S_
  bcast_S_S10x4 : S_.BroadcastsInDim S10x4 (![] : Fin 0 → Fin S10x4.rank)
  reducesTo_S10x4_S_d0_1 : S10x4.ReducesTo [0, 1] S_
  bcast_S_S128x85 : S_.BroadcastsInDim S128x85 (![] : Fin 0 → Fin S128x85.rank)
  reducesTo_S128x85_S_d0_1 : S128x85.ReducesTo [0, 1] S_
  bcast_S_S128 : S_.BroadcastsInDim S128 (![] : Fin 0 → Fin S128.rank)
  reducesTo_S128_S_d0 : S128.ReducesTo [0] S_
  bcast_S_S128x26 : S_.BroadcastsInDim S128x26 (![] : Fin 0 → Fin S128x26.rank)
  reducesTo_S128x26_S_d0_1 : S128x26.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S2x3x128x128 .f32) (main_arg16 : FVec F S1x128 .f32) (main_arg17 : FVec F S1 .f32) (main_v48 : IVec S_ 1) (main_v49 : FVec F S2x3x128 .f32) (main_v50 : FVec F S2x3x128 .f32) : IVec S_ 1 :=
  let main_v51 : IVec S2x3x128 1 := cmpf .olt main_v49 main_v50
  let main_c_19 : IVec S_ 1 := constantI S_ 1 1#1
  let main_v52 : IVec S_ 1 := (fun x v => Host.reduce IntOp.andi x v reducesTo_S2x3x128_S_d0_1_2 h_S_) main_v51 main_c_19
  let main_v53 : IVec S_ 1 := andi main_v48 main_v52
  let main_v54 : FVec F S2x3x128x128 .f32 := Host.absf main_arg15
  let main_cst_20 : FVec F S_ .f32 := constant S_ .f32 0x7F800000#32
  let main_v55 : FVec F S2x3x128x128 .f32 := broadcastInDim S2x3x128x128 ![] bcast_S_S2x3x128x128 main_cst_20
  let main_v56 : IVec S2x3x128x128 1 := cmpf .olt main_v54 main_v55
  let main_c_21 : IVec S_ 1 := constantI S_ 1 1#1
  let main_v57 : IVec S_ 1 := (fun x v => Host.reduce IntOp.andi x v reducesTo_S2x3x128x128_S_d0_1_2_3 h_S_) main_v56 main_c_21
  let main_v58 : IVec S_ 1 := andi main_v53 main_v57
  let main_v59 : FVec F S1x128 .f32 := Host.absf main_arg16
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S128x26 .f32) (main_arg12 : FVec F S128 .f32) (main_arg13 : FVec F S2x3x128x128 .f32) (main_arg14 : FVec F S2x3x128 .f32) (main_arg15 : FVec F S2x3x128x128 .f32) (main_arg16 : FVec F S1x128 .f32) (main_arg17 : FVec F S1 .f32) (main_v33 : IVec S_ 1) : IVec S_ 1 :=
  let main_v34 : FVec F S128x26 .f32 := Host.absf main_arg11
  let main_cst_12 : FVec F S_ .f32 := constant S_ .f32 0x7F800000#32
  let main_v35 : FVec F S128x26 .f32 := broadcastInDim S128x26 ![] bcast_S_S128x26 main_cst_12
  let main_v36 : IVec S128x26 1 := cmpf .olt main_v34 main_v35
  let main_c_13 : IVec S_ 1 := constantI S_ 1 1#1
  let main_v37 : IVec S_ 1 := (fun x v => Host.reduce IntOp.andi x v reducesTo_S128x26_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x3x128x128 .f32 := Host.absf main_arg13
  let main_cst_16 : FVec F S_ .f32 := constant S_ .f32 0x7F800000#32
  let main_v45 : FVec F S2x3x128x128 .f32 := broadcastInDim S2x3x128x128 ![] bcast_S_S2x3x128x128 main_cst_16
  let main_v46 : IVec S2x3x128x128 1 := cmpf .olt main_v44 main_v45
  let main_c_17 : IVec S_ 1 := constantI S_ 1 1#1
  let main_v47 : IVec S_ 1 := (fun x v => Host.reduce IntOp.andi x v reducesTo_S2x3x128x128_S_d0_1_2_3 h_S_) main_v46 main_c_17
  let main_v48 : IVec S_ 1 := andi main_v43 main_v47
  let main_v49 : FVec F S2x3x128 .f32 := Host.absf main_arg14
  let main_cst_18 : FVec F S_ .f32 := constant S_ .f32 0x7F800000#32
  let main_v50 : FVec F S2x3x128 .f32 := broadcastInDim S2x3x128 ![] bcast_S_S2x3x128 main_cst_18
  fn_part3 (F := F) main_arg15 main_arg16 main_arg17 main_v48 main_v49 main_v50

def fn_part1 {F : FTy → Type} [FloatOps F] (main_arg8 : FVec F S10x4 .f32) (main_arg9 : FVec F S128x85 .f32) (main_arg10 : FVec F S128 .f32) (main_arg11 : FVec F S128x26 .f32) (main_arg12 : FVec F S128 .f32) (main_arg13 : FVec F S2x3x128x128 .f32) (main_arg14 : FVec F S2x3x128 .f32) (main_arg15 : FVec F S2x3x128x128 .f32) (main_arg16 : FVec F S1x128 .f32) (main_arg17 : FVec F S1 .f32) (main_v13 : IVec S_ 1) (main_v16 : IVec S2000x16 1) : IVec S_ 1 :=
  let main_c_5 : IVec S_ 1 := constantI S_ 1 1#1
  let main_v17 : IVec S_ 1 := (fun x v => Host.reduce IntOp.andi x v reducesTo_S2000x16_S_d0_1 h_S_) main_v16 main_c_5
  let main_v18 : IVec S_ 1 := andi main_v13 main_v17
  let main_v19 : FVec F S10x4 .f32 := Host.absf main_arg8
  let main_cst_6 : FVec F S_ .f32 := constant S_ .f32 0x7F800000#32
  let main_v20 : FVec F S10x4 .f32 := broadcastInDim S10x4 ![] bcast_S_S10x4 main_cst_6
  let main_v21 : IVec S10x4 1 := cmpf .olt main_v19 main_v20
  let main_c_7 : IVec S_ 1 := constantI S_ 1 1#1
  let main_v22 : IVec S_ 1 := (fun x v => Host.reduce IntOp.andi x v reducesTo_S10x4_S_d0_1 h_S_) main_v21 main_c_7
  let main_v23 : IVec S_ 1 := andi main_v18 main_v22
  let main_v24 : FVec F S128x85 .f32 := Host.absf main_arg9
  let main_cst_8 : FVec F S_ .f32 := constant S_ .f32 0x7F800000#32
  let main_v25 : FVec F S128x85 .f32 := broadcastInDim S128x85 ![] bcast_S_S128x85 main_cst_8
  let main_v26 : IVec S128x85 1 := cmpf .olt main_v24 main_v25
  let main_c_9 : IVec S_ 1 := constantI S_ 1 1#1
  let main_v27 : IVec S_ 1 := (fun x v => Host.reduce IntOp.andi x v reducesTo_S128x85_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S200000x10 .f32) (main_arg1 : FVec F S500000x8 .f32) (main_arg2 : IVec S2x800000 32) (main_arg3 : IVec S2x1000000 32) (main_arg4 : IVec S2x500000 32) (main_arg5 : IVec S200000 32) (main_arg6 : FVec F S5x200x16 .f32) (main_arg7 : FVec F S2000x16 .f32) (main_arg8 : FVec F S10x4 .f32) (main_arg9 : FVec F S128x85 .f32) (main_arg10 : FVec F S128 .f32) (main_arg11 : FVec F S128x26 .f32) (main_arg12 : FVec F S128 .f32) (main_arg13 : FVec F S2x3x128x128 .f32) (main_arg14 : FVec F S2x3x128 .f32) (main_arg15 : FVec F S2x3x128x128 .f32) (main_arg16 : FVec F S1x128 .f32) (main_arg17 : FVec F S1 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S500000x8 .f32 := Host.absf main_arg1
  let main_cst_0 : FVec F S_ .f32 := constant S_ .f32 0x7F800000#32
  let main_v5 : FVec F S500000x8 .f32 := broadcastInDim S500000x8 ![] bcast_S_S500000x8 main_cst_0
  let main_v6 : IVec S500000x8 1 := cmpf .olt main_v4 main_v5
  let main_c_1 : IVec S_ 1 := constantI S_ 1 1#1
  let main_v7 : IVec S_ 1 := (fun x v => Host.reduce IntOp.andi x v reducesTo_S500000x8_S_d0_1 h_S_) main_v6 main_c_1
  let main_v8 : IVec S_ 1 := andi main_v3 main_v7
  let main_v9 : FVec F S5x200x16 .f32 := Host.absf main_arg6
  let main_cst_2 : FVec F S_ .f32 := constant S_ .f32 0x7F800000#32
  let main_v10 : FVec F S5x200x16 .f32 := broadcastInDim S5x200x16 ![] bcast_S_S5x200x16 main_cst_2
  let main_v11 : IVec S5x200x16 1 := cmpf .olt main_v9 main_v10
  let main_c_3 : IVec S_ 1 := constantI S_ 1 1#1
  let main_v12 : IVec S_ 1 := (fun x v => Host.reduce IntOp.andi x v reducesTo_S5x200x16_S_d0_1_2 h_S_) main_v11 main_c_3
  let main_v13 : IVec S_ 1 := andi main_v8 main_v12
  let main_v14 : FVec F S2000x16 .f32 := Host.absf main_arg7
  let main_cst_4 : FVec F S_ .f32 := constant S_ .f32 0x7F800000#32
  let main_v15 : FVec F S2000x16 .f32 := broadcastInDim S2000x16 ![] bcast_S_S2000x16 main_cst_4
  let main_v16 : IVec S2000x16 1 := cmpf .olt main_v14 main_v15
  fn_part1 (F := F) main_arg8 main_arg9 main_arg10 main_arg11 main_arg12 main_arg13 main_arg14 main_arg15 main_arg16 main_arg17 main_v13 main_v16
-- ==== Kernel.lean ====
abbrev S200000x10 : Shape := ⟨2, ![200000, 10]⟩
abbrev S500000x8 : Shape := ⟨2, ![500000, 8]⟩
abbrev S2x800000 : Shape := ⟨2, ![2, 800000]⟩
abbrev S2x1000000 : Shape := ⟨2, ![2, 1000000]⟩
abbrev S2x500000 : Shape := ⟨2, ![2, 500000]⟩
abbrev S200000 : Shape := ⟨1, ![200000]⟩
abbrev S5x200x16 : Shape := ⟨3, ![5, 200, 16]⟩
abbrev S2000x16 : Shape := ⟨2, ![2000, 16]⟩
abbrev S10x4 : Shape := ⟨2, ![10, 4]⟩
abbrev S128x85 : Shape := ⟨2, ![128, 85]⟩
abbrev S128 : Shape := ⟨1, ![128]⟩
abbrev S128x26 : Shape := ⟨2, ![128, 26]⟩
abbrev S2x3x128x128 : Shape := ⟨4, ![2, 3, 128, 128]⟩
abbrev S2x3x128 : Shape := ⟨3, ![2, 3, 128]⟩
abbrev S1x128 : Shape := ⟨2, ![1, 128]⟩
abbrev S1 : Shape := ⟨1, ![1]⟩
abbrev S5 : Shape := ⟨1, ![5]⟩
abbrev S6 : Shape := ⟨1, ![6]⟩
abbrev S_ : Shape := ⟨0, ![]⟩
abbrev S5x1 : Shape := ⟨2, ![5, 1]⟩
abbrev S200000x5 : Shape := ⟨2, ![200000, 5]⟩
abbrev S1x200x16 : Shape := ⟨3, ![1, 200, 16]⟩
abbrev S200x16 : Shape := ⟨2, ![200, 16]⟩
abbrev S200000x1 : Shape := ⟨2, ![200000, 1]⟩
abbrev S200000x16 : Shape := ⟨2, ![200000, 16]⟩
abbrev S200000x85 : Shape := ⟨2, ![200000, 85]⟩
abbrev S200000x128 : Shape := ⟨2, ![200000, 128]⟩
abbrev S2000x85 : Shape := ⟨2, ![2000, 85]⟩
abbrev S2000x128 : Shape := ⟨2, ![2000, 128]⟩
abbrev S85x128 : Shape := ⟨2, ![85, 128]⟩
abbrev S6x1 : Shape := ⟨2, ![6, 1]⟩
abbrev S500000x6 : Shape := ⟨2, ![500000, 6]⟩
abbrev S500000x1 : Shape := ⟨2, ![500000, 1]⟩
abbrev S500000 : Shape := ⟨1, ![500000]⟩
abbrev S500000x16 : Shape := ⟨2, ![500000, 16]⟩
abbrev S500000x4 : Shape := ⟨2, ![500000, 4]⟩
abbrev S500000x26 : Shape := ⟨2, ![500000, 26]⟩
abbrev S500000x128 : Shape := ⟨2, ![500000, 128]⟩
abbrev S2000x26 : Shape := ⟨2, ![2000, 26]⟩
abbrev S26x128 : Shape := ⟨2, ![26, 128]⟩
abbrev S1x500000 : Shape := ⟨2, ![1, 500000]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S1x128x128 : Shape := ⟨3, ![1, 128, 128]⟩
abbrev S128x128 : Shape := ⟨2, ![128, 128]⟩
abbrev S20000x128 : Shape := ⟨2, ![20000, 128]⟩
abbrev S20000 : Shape := ⟨1, ![20000]⟩
abbrev S20000x1 : Shape := ⟨2, ![20000, 1]⟩
abbrev S128x1 : Shape := ⟨2, ![128, 1]⟩
abbrev S1x1 : Shape := ⟨2, ![1, 1]⟩

abbrev nBuf : Space → Nat
  | .hbm => 337
  | .vmem => 38
  | .smem => 0
  | _ => 0

abbrev hbmTy0_0 (i : Nat) : BufTy := match i % 128 with
  | 0 => ⟨S200000x10, .f32⟩
  | 1 => ⟨S500000x8, .f32⟩
  | 2 => ⟨S2x800000, .i32⟩
  | 3 => ⟨S2x1000000, .i32⟩
  | 4 => ⟨S2x500000, .i32⟩
  | 5 => ⟨S200000, .i32⟩
  | 6 => ⟨S5x200x16, .f32⟩
  | 7 => ⟨S2000x16, .f32⟩
  | 8 => ⟨S10x4, .f32⟩
  | 9 => ⟨S128x85, .f32⟩
  | 10 => ⟨S128, .f32⟩
  | 11 => ⟨S128x26, .f32⟩
  | 12 => ⟨S128, .f32⟩
  | 13 => ⟨S2x3x128x128, .f32⟩
  | 14 => ⟨S2x3x128, .f32⟩
  | 15 => ⟨S2x3x128x128, .f32⟩
  | 16 => ⟨S1x128, .f32⟩
  | 17 => ⟨S1, .f32⟩
  | 18 => ⟨S5, .i32⟩
  | 19 => ⟨S6, .i32⟩
  | 20 => ⟨S_, .i32⟩
  | 21 => ⟨S5, .i32⟩
  | 22 => ⟨S5, .i1⟩
  | 23 => ⟨S_, .i32⟩
  | 24 => ⟨S5, .i32⟩
  | 25 => ⟨S5, .i32⟩
  | 26 => ⟨S5, .i32⟩
  | 27 => ⟨S5x1, .i32⟩
  | 28 => ⟨S200000x5, .f32⟩
  | 29 => ⟨S200000x5, .f32⟩
  | 30 => ⟨S200000x5, .i32⟩
  | 31 => ⟨S_, .i32⟩
  | 32 => ⟨S_, .i32⟩
  | 33 => ⟨S_, .i32⟩
  | 34 => ⟨S200000x5, .i32⟩
  | 35 => ⟨S200000x5, .i32⟩
  | 36 => ⟨S_, .i32⟩
  | 37 => ⟨S200000x5, .i32⟩
  | 38 => ⟨S200000x5, .i32⟩
  | 39 => ⟨S1x200x16, .f32⟩
  | 40 => ⟨S200x16, .f32⟩
  | 41 => ⟨S200000x1, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x16, .f32⟩
  | 52 => ⟨S1x200x16, .f32⟩
  | 53 => ⟨S200x16, .f32⟩
  | 54 => ⟨S200000x1, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x16, .f32⟩
  | 65 => ⟨S1x200x16, .f32⟩
  | 66 => ⟨S200x16, .f32⟩
  | 67 => ⟨S200000x1, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x16, .f32⟩
  | 78 => ⟨S1x200x16, .f32⟩
  | 79 => ⟨S200x16, .f32⟩
  | 80 => ⟨S200000x1, .i32⟩
  | 81 => ⟨S200000, .i32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x16, .f32⟩
  | 91 => ⟨S1x200x16, .f32⟩
  | 92 => ⟨S200x16, .f32⟩
  | 93 => ⟨S200000x1, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x16, .f32⟩
  | 104 => ⟨S200000x85, .f32⟩
  | 105 => ⟨S200000x128, .f32⟩
  | 106 => ⟨S_, .i32⟩
  | 107 => ⟨S6, .i32⟩
  | 108 => ⟨S6, .i1⟩
  | 109 => ⟨S_, .i32⟩
  | 110 => ⟨S6, .i32⟩
  | 111 => ⟨S6, .i32⟩
  | 112 => ⟨S6, .i32⟩
  | 113 => ⟨S6x1, .i32⟩
  | 114 => ⟨S500000x6, .f32⟩
  | 115 => ⟨S500000x1, .f32⟩
  | 116 => ⟨S500000, .f32⟩
  | 117 => ⟨S500000, .i32⟩
  | 118 => ⟨S_, .i32⟩
  | 119 => ⟨S_, .i32⟩
  | 120 => ⟨S_, .i32⟩
  | 121 => ⟨S500000, .i32⟩
  | 122 => ⟨S500000, .i32⟩
  | 123 => ⟨S_, .i32⟩
  | 124 => ⟨S500000, .i32⟩
  | 125 => ⟨S500000, .i32⟩
  | 126 => ⟨S500000x1, .f32⟩
  | 127 => ⟨S500000, .f32⟩
  | _ => ⟨S200000x10, .f32⟩

abbrev hbmTy0_1 (i : Nat) : BufTy := match i % 128 with
  | 0 => ⟨S500000, .i32⟩
  | 1 => ⟨S_, .i32⟩
  | 2 => ⟨S_, .i32⟩
  | 3 => ⟨S_, .i32⟩
  | 4 => ⟨S500000, .i32⟩
  | 5 => ⟨S500000, .i32⟩
  | 6 => ⟨S_, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x16, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x4, .f32⟩
  | 27 => ⟨S500000x26, .f32⟩
  | 28 => ⟨S500000x128, .f32⟩
  | 29 => ⟨S1x500000, .i32⟩
  | 30 => ⟨S500000, .i32⟩
  | 31 => ⟨S1x500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S_, .f32⟩
  | 43 => ⟨S200000x128, .f32⟩
  | 44 => ⟨S500000x1, .i32⟩
  | 45 => ⟨S200000x128, .f32⟩
  | 46 => ⟨S_, .f32⟩
  | 47 => ⟨S500000, .f32⟩
  | 48 => ⟨S_, .f32⟩
  | 49 => ⟨S200000, .f32⟩
  | 50 => ⟨S500000x1, .i32⟩
  | 51 => ⟨S200000, .f32⟩
  | 52 => ⟨S_, .f32⟩
  | 53 => ⟨S200000, .f32⟩
  | 54 => ⟨S200000, .f32⟩
  | 55 => ⟨S200000x1, .f32⟩
  | 56 => ⟨S200000x128, .f32⟩
  | 57 => ⟨S200000x128, .f32⟩
  | 58 => ⟨S1x800000, .i32⟩
  | 59 => ⟨S800000, .i32⟩
  | 60 => ⟨S1x800000, .i32⟩
  | 61 => ⟨S800000, .i32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S200000x128, .f32⟩
  | 73 => ⟨S800000x1, .i32⟩
  | 74 => ⟨S200000x128, .f32⟩
  | 75 => ⟨S_, .f32⟩
  | 76 => ⟨S800000, .f32⟩
  | 77 => ⟨S_, .f32⟩
  | 78 => ⟨S200000, .f32⟩
  | 79 => ⟨S800000x1, .i32⟩
  | 80 => ⟨S200000, .f32⟩
  | 81 => ⟨S_, .f32⟩
  | 82 => ⟨S200000, .f32⟩
  | 83 => ⟨S200000, .f32⟩
  | 84 => ⟨S200000x1, .f32⟩
  | 85 => ⟨S200000x128, .f32⟩
  | 86 => ⟨S200000x128, .f32⟩
  | 87 => ⟨S1x1000000, .i32⟩
  | 88 => ⟨S1000000, .i32⟩
  | 89 => ⟨S1x1000000, .i32⟩
  | 90 => ⟨S1000000, .i32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x128, .f32⟩
  | 100 => ⟨S_, .f32⟩
  | 101 => ⟨S200000x128, .f32⟩
  | 102 => ⟨S1000000x1, .i32⟩
  | 103 => ⟨S200000x128, .f32⟩
  | 104 => ⟨S_, .f32⟩
  | 105 => ⟨S1000000, .f32⟩
  | 106 => ⟨S_, .f32⟩
  | 107 => ⟨S200000, .f32⟩
  | 108 => ⟨S1000000x1, .i32⟩
  | 109 => ⟨S200000, .f32⟩
  | 110 => ⟨S_, .f32⟩
  | 111 => ⟨S200000, .f32⟩
  | 112 => ⟨S200000, .f32⟩
  | 113 => ⟨S200000x1, .f32⟩
  | 114 => ⟨S200000x128, .f32⟩
  | 115 => ⟨S200000x128, .f32⟩
  | 116 => ⟨S1x3x128x128, .f32⟩
  | 117 => ⟨S3x128x128, .f32⟩
  | 118 => ⟨S1x3x128, .f32⟩
  | 119 => ⟨S3x128, .f32⟩
  | 120 => ⟨S1x3x128x128, .f32⟩
  | 121 => ⟨S3x128x128, .f32⟩
  | 122 => ⟨S200000x128, .f32⟩
  | 123 => ⟨S1x800000, .i32⟩
  | 124 => ⟨S800000, .i32⟩
  | 125 => ⟨S1x800000, .i32⟩
  | 126 => ⟨S800000, .i32⟩
  | 127 => ⟨S_, .i32⟩
  | _ => ⟨S200000x10, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S200000x128, .f32⟩
  | 10 => ⟨S800000x1, .i32⟩
  | 11 => ⟨S200000x128, .f32⟩
  | 12 => ⟨S_, .f32⟩
  | 13 => ⟨S800000, .f32⟩
  | 14 => ⟨S_, .f32⟩
  | 15 => ⟨S200000, .f32⟩
  | 16 => ⟨S800000x1, .i32⟩
  | 17 => ⟨S200000, .f32⟩
  | 18 => ⟨S_, .f32⟩
  | 19 => ⟨S200000, .f32⟩
  | 20 => ⟨S200000, .f32⟩
  | 21 => ⟨S200000x1, .f32⟩
  | 22 => ⟨S200000x128, .f32⟩
  | 23 => ⟨S200000x128, .f32⟩
  | 24 => ⟨S1x1000000, .i32⟩
  | 25 => ⟨S1000000, .i32⟩
  | 26 => ⟨S1x1000000, .i32⟩
  | 27 => ⟨S1000000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .f32⟩
  | 38 => ⟨S200000x128, .f32⟩
  | 39 => ⟨S1000000x1, .i32⟩
  | 40 => ⟨S200000x128, .f32⟩
  | 41 => ⟨S_, .f32⟩
  | 42 => ⟨S1000000, .f32⟩
  | 43 => ⟨S_, .f32⟩
  | 44 => ⟨S200000, .f32⟩
  | 45 => ⟨S1000000x1, .i32⟩
  | 46 => ⟨S200000, .f32⟩
  | 47 => ⟨S_, .f32⟩
  | 48 => ⟨S200000, .f32⟩
  | 49 => ⟨S200000, .f32⟩
  | 50 => ⟨S200000x1, .f32⟩
  | 51 => ⟨S200000x128, .f32⟩
  | 52 => ⟨S200000x128, .f32⟩
  | 53 => ⟨S1x3x128x128, .f32⟩
  | 54 => ⟨S3x128x128, .f32⟩
  | 55 => ⟨S1x3x128, .f32⟩
  | 56 => ⟨S3x128, .f32⟩
  | 57 => ⟨S1x3x128x128, .f32⟩
  | 58 => ⟨S3x128x128, .f32⟩
  | 59 => ⟨S200000x128, .f32⟩
  | 60 => ⟨S_, .f32⟩
  | 61 => ⟨S20000x128, .f32⟩
  | 62 => ⟨S200000x1, .i32⟩
  | 63 => ⟨S20000x128, .f32⟩
  | 64 => ⟨S_, .f32⟩
  | 65 => ⟨S200000, .f32⟩
  | 66 => ⟨S_, .f32⟩
  | 67 => ⟨S20000, .f32⟩
  | 68 => ⟨S200000x1, .i32⟩
  | 69 => ⟨S20000, .f32⟩
  | 70 => ⟨S_, .f32⟩
  | 71 => ⟨S20000, .f32⟩
  | 72 => ⟨S20000, .f32⟩
  | 73 => ⟨S20000x1, .f32⟩
  | 74 => ⟨S20000x128, .f32⟩
  | 75 => ⟨S20000x128, .f32⟩
  | 76 => ⟨S128x1, .f32⟩
  | 77 => ⟨S20000x1, .f32⟩
  | 78 => ⟨S1x1, .f32⟩
  | 79 => ⟨S20000x1, .f32⟩
  | 80 => ⟨S20000x1, .f32⟩
  | _ => ⟨S200000x10, .f32⟩

abbrev hbmTy (i : Nat) : BufTy := match i / 128 with
  | 0 => hbmTy0_0 i
  | 1 => hbmTy0_1 i
  | 2 => hbmTy0_2 i
  | _ => ⟨S200000x10, .f32⟩

abbrev bufTy : (tb : Table) → Fin (tcTables nBuf tb) → BufTy
  | .hbm, ⟨i, _⟩ => hbmTy i
  | .local _ .vmem, ⟨0, _⟩ => ⟨S2000x85, .f32⟩
  | .local _ .vmem, ⟨1, _⟩ => ⟨S2000x85, .f32⟩
  | .local _ .vmem, ⟨2, _⟩ => ⟨S128x85, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x26, .f32⟩
  | .local _ .vmem, ⟨7, _⟩ => ⟨S2000x26, .f32⟩
  | .local _ .vmem, ⟨8, _⟩ => ⟨S128x26, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S3x128x128, .f32⟩
  | .local _ .vmem, ⟨21, _⟩ => ⟨S3x128, .f32⟩
  | .local _ .vmem, ⟨22, _⟩ => ⟨S3x128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S3x128x128, .f32⟩
  | .local _ .vmem, ⟨34, _⟩ => ⟨S3x128, .f32⟩
  | .local _ .vmem, ⟨35, _⟩ => ⟨S3x128x128, .f32⟩
  | .local _ .vmem, ⟨36, _⟩ => ⟨S2000x128, .f32⟩
  | .local _ .vmem, ⟨37, _⟩ => ⟨S2000x128, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_c_1 : Ref sig .tc := ⟨.hbm, 20, rfl⟩
abbrev main_v0 : Ref sig .tc := ⟨.hbm, 21, rfl⟩
abbrev main_v1 : Ref sig .tc := ⟨.hbm, 22, rfl⟩
abbrev main_c_2 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_5 : Ref sig .tc := ⟨.hbm, 43, rfl⟩
abbrev main_v14 : Ref sig .tc := ⟨.hbm, 44, rfl⟩
abbrev main_v15 : Ref sig .tc := ⟨.hbm, 45, rfl⟩
abbrev main_c_6 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_9 : Ref sig .tc := ⟨.hbm, 69, rfl⟩
abbrev main_v36 : Ref sig .tc := ⟨.hbm, 70, rfl⟩
abbrev main_v37 : Ref sig .tc := ⟨.hbm, 71, rfl⟩
abbrev main_c_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_11 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_17 : Ref sig .tc := ⟨.hbm, 118, rfl⟩
abbrev main_c_18 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_19 : Ref sig .tc := ⟨.hbm, 129, rfl⟩
abbrev main_c_20 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v81 : Ref sig .tc := ⟨.hbm, 136, rfl⟩
abbrev main_c_21 : Ref sig .tc := ⟨.hbm, 137, rfl⟩
abbrev main_v82 : Ref sig .tc := ⟨.hbm, 138, rfl⟩
abbrev main_v83 : Ref sig .tc := ⟨.hbm, 139, rfl⟩
abbrev main_c_22 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_23 : Ref sig .tc := ⟨.hbm, 146, rfl⟩
abbrev main_v89 : Ref sig .tc := ⟨.hbm, 147, rfl⟩
abbrev main_v90 : Ref sig .tc := ⟨.hbm, 148, rfl⟩
abbrev main_c_24 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_c_25 : Ref sig .tc := ⟨.hbm, 161, rfl⟩
abbrev main_v102 : Ref sig .tc := ⟨.hbm, 162, rfl⟩
abbrev main_v103 : Ref sig .tc := ⟨.hbm, 163, rfl⟩
abbrev main_c_26 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_27 : Ref sig .tc := ⟨.hbm, 174, rfl⟩
abbrev main_v112 : Ref sig .tc := ⟨.hbm, 175, rfl⟩
abbrev main_cst_28 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_29 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_c_30 : Ref sig .tc := ⟨.hbm, 190, rfl⟩
abbrev main_v125 : Ref sig .tc := ⟨.hbm, 191, rfl⟩
abbrev main_v126 : Ref sig .tc := ⟨.hbm, 192, rfl⟩
abbrev main_c_31 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_32 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_33 : Ref sig .tc := ⟨.hbm, 203, rfl⟩
abbrev main_v135 : Ref sig .tc := ⟨.hbm, 204, rfl⟩
abbrev main_cst_34 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_35 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_c_36 : Ref sig .tc := ⟨.hbm, 219, rfl⟩
abbrev main_v148 : Ref sig .tc := ⟨.hbm, 220, rfl⟩
abbrev main_v149 : Ref sig .tc := ⟨.hbm, 221, rfl⟩
abbrev main_c_37 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_38 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_39 : Ref sig .tc := ⟨.hbm, 232, rfl⟩
abbrev main_v158 : Ref sig .tc := ⟨.hbm, 233, rfl⟩
abbrev main_cst_40 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_41 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_c_42 : Ref sig .tc := ⟨.hbm, 255, rfl⟩
abbrev main_v178 : Ref sig .tc := ⟨.hbm, 256, rfl⟩
abbrev main_v179 : Ref sig .tc := ⟨.hbm, 257, rfl⟩
abbrev main_c_43 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_cst_44 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_cst_45 : Ref sig .tc := ⟨.hbm, 268, rfl⟩
abbrev main_v188 : Ref sig .tc := ⟨.hbm, 269, rfl⟩
abbrev main_cst_46 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_cst_47 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_c_48 : Ref sig .tc := ⟨.hbm, 284, rfl⟩
abbrev main_v201 : Ref sig .tc := ⟨.hbm, 285, rfl⟩
abbrev main_v202 : Ref sig .tc := ⟨.hbm, 286, rfl⟩
abbrev main_c_49 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_50 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_cst_51 : Ref sig .tc := ⟨.hbm, 297, rfl⟩
abbrev main_v211 : Ref sig .tc := ⟨.hbm, 298, rfl⟩
abbrev main_cst_52 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_53 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_54 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_cst_55 : Ref sig .tc := ⟨.hbm, 320, rfl⟩
abbrev main_v230 : Ref sig .tc := ⟨.hbm, 321, rfl⟩
abbrev main_cst_56 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_cst_57 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x26 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x26 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S3x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S3x128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3x128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S5 : S_.BroadcastsInDim S5 (![] : Fin 0 → Fin S5.rank)
  bcast_S5_S5x1_0 : S5.BroadcastsInDim S5x1 (![0] : Fin 1 → Fin S5x1.rank)
  slices_S200000x10_S200000x5_0_1 : S200000x10.Slices ![0, 1] S200000x5
  bcast_S_S200000x5 : S_.BroadcastsInDim S200000x5 (![] : Fin 0 → Fin S200000x5.rank)
  slices_S5x200x16_S1x200x16_0_0_0 : S5x200x16.Slices ![0, 0, 0] S1x200x16
  shapeCasts_S1x200x16_S200x16 : S1x200x16.ShapeCasts S200x16
  slices_S200000x5_S200000x1_0_0 : S200000x5.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S5x200x16_S1x200x16_1_0_0 : S5x200x16.Slices ![1, 0, 0] S1x200x16
  slices_S200000x5_S200000x1_0_1 : S200000x5.Slices ![0, 1] S200000x1
  slices_S5x200x16_S1x200x16_2_0_0 : S5x200x16.Slices ![2, 0, 0] S1x200x16
  slices_S200000x5_S200000x1_0_2 : S200000x5.Slices ![0, 2] S200000x1
  slices_S5x200x16_S1x200x16_3_0_0 : S5x200x16.Slices ![3, 0, 0] S1x200x16
  slices_S200000x5_S200000x1_0_3 : S200000x5.Slices ![0, 3] S200000x1
  slices_S5x200x16_S1x200x16_4_0_0 : S5x200x16.Slices ![4, 0, 0] S1x200x16
  slices_S200000x5_S200000x1_0_4 : S200000x5.Slices ![0, 4] S200000x1
  concatenates_S200000x5_S200000x16_S200000x16_S200000x16_S200000x16_S200000x16_S200000x85_d1 : Shape.Concatenates [S200000x5, S200000x16, S200000x16, S200000x16, S200000x16, S200000x16] S200000x85 1
  inb_S2000x85_S2000x85_0_0 : ∀ a, (![0, 0] : Fin 2 → Nat) a + S2000x85.size a ≤ S2000x85.size a
  h_S2000x85 : 0 < S2000x85.numel
  shapeCasts_S2000x85_S2000x85 : S2000x85.ShapeCasts S2000x85
  bitsLt_bf16_f32 : FTy.bits .bf16 < FTy.bits .f32
  inb_S128x85_S128x85_0_0 : ∀ a, (![0, 0] : Fin 2 → Nat) a + S128x85.size a ≤ S128x85.size a
  h_S128x85 : 0 < S128x85.numel
  transposes_S128x85_p1_0_S85x128 : S128x85.Transposes [1, 0] S85x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S6 : S_.BroadcastsInDim S6 (![] : Fin 0 → Fin S6.rank)
  bcast_S6_S6x1_0 : S6.BroadcastsInDim S6x1 (![0] : Fin 1 → Fin S6x1.rank)
  slices_S500000x8_S500000x1_0_0 : S500000x8.Slices ![0, 0] S500000x1
  shapeCasts_S500000x1_S500000 : S500000x1.ShapeCasts S500000
  bcast_S_S500000 : S_.BroadcastsInDim S500000 (![] : Fin 0 → Fin S500000.rank)
  slices_S500000x8_S500000x1_0_3 : S500000x8.Slices ![0, 3] S500000x1
  bcast_S500000_S500000x1_0 : S500000.BroadcastsInDim S500000x1 (![0] : Fin 1 → Fin S500000x1.rank)
  concatenates_S500000x6_S500000x16_S500000x4_S500000x26_d1 : Shape.Concatenates [S500000x6, S500000x16, S500000x4] S500000x26 1
  inb_S2000x26_S2000x26_0_0 : ∀ a, (![0, 0] : Fin 2 → Nat) a + S2000x26.size a ≤ S2000x26.size a
  h_S2000x26 : 0 < S2000x26.numel
  shapeCasts_S2000x26_S2000x26 : S2000x26.ShapeCasts S2000x26
  inb_S128x26_S128x26_0_0 : ∀ a, (![0, 0] : Fin 2 → Nat) a + S128x26.size a ≤ S128x26.size a
  h_S128x26 : 0 < S128x26.numel
  transposes_S128x26_p1_0_S26x128 : S128x26.Transposes [1, 0] S26x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  shapeCasts_S2000x128_S2000x128 : S2000x128.ShapeCasts S2000x128
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S3x128x128_o0_0_0_S1x128x128 : S3x128x128.Slices ![0, 0, 0] S1x128x128
  shapeCasts_S1x128x128_S128x128 : S1x128x128.ShapeCasts S128x128
  transposes_S128x128_p1_0_S128x128 : S128x128.Transposes [1, 0] S128x128
  slices_S3x128_o0_0_S1x128 : S3x128.Slices ![0, 0] S1x128
  shapeCasts_S1x128_S128 : S1x128.ShapeCasts S128
  slices_S3x128x128_o1_0_0_S1x128x128 : S3x128x128.Slices ![1, 0, 0] S1x128x128
  slices_S3x128_o1_0_S1x128 : S3x128.Slices ![1, 0] S1x128
  slices_S3x128x128_o2_0_0_S1x128x128 : S3x128x128.Slices ![2, 0, 0] S1x128x128
  slices_S3x128_o2_0_S1x128 : S3x128.Slices ![2, 0] S1x128
  slices_S2x3x128x128_S1x3x128x128_1_0_0_0 : S2x3x128x128.Slices ![1, 0, 0, 0] S1x3x128x128
  slices_S2x3x128_S1x3x128_1_0_0 : S2x3x128.Slices ![1, 0, 0] S1x3x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S1x128_S128x1_1_0 : S1x128.Transposes [1, 0] S128x1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  gather_S200000x10_S5x1_S200000x5_0_1_n_n_1_1_2000001_wf : GatherDims.WF S200000x10 S5x1 S200000x5 [0] [1] [] [1] [] 1 ![200000, 1]
  gather_S200x16_S200000x1_S200000x16_1_0_n_n_0_1_116_wf : GatherDims.WF S200x16 S200000x1 S200000x16 [1] [0] [] [0] [] 1 ![1, 16]
  dot_S2000x85_S85x128_S2000x128_1_0_0_1_n_n_wf : DotDims.WF S2000x85 S85x128 S2000x128 [1] [0] [0] [1] [] []
  gather_S500000x8_S6x1_S500000x6_0_1_n_n_1_1_5000001_wf : GatherDims.WF S500000x8 S6x1 S500000x6 [0] [1] [] [1] [] 1 ![500000, 1]
  gather_S2000x16_S500000x1_S500000x16_1_0_n_n_0_1_116_wf : GatherDims.WF S2000x16 S500000x1 S500000x16 [1] [0] [] [0] [] 1 ![1, 16]
  gather_S10x4_S500000x1_S500000x4_1_0_n_n_0_1_14_wf : GatherDims.WF S10x4 S500000x1 S500000x4 [1] [0] [] [0] [] 1 ![1, 4]
  dot_S2000x26_S26x128_S2000x128_1_0_0_1_n_n_wf : DotDims.WF S2000x26 S26x128 S2000x128 [1] [0] [0] [1] [] []
  gather_S500000x128_S500000x1_S500000x128_1_0_n_n_0_1_1128_wf : GatherDims.WF S500000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S2000x128_S128x128_S2000x128_1_0_0_1_n_n_wf : DotDims.WF S2000x128 S128x128 S2000x128 [1] [0] [0] [1] [] []
  scatter_S20000x128_S200000x1_S200000x128_1_0_0_1_wf : ScatterDims.WF S20000x128 S200000x1 S200000x128 [1] [0] [0] 1
  scatter_S20000_S200000x1_S200000_n_0_0_1_wf : ScatterDims.WF S20000 S200000x1 S200000 [] [0] [0] 1
  dot_S20000x128_S128x1_S20000x1_1_0_0_1_n_n_wf : DotDims.WF S20000x128 S128x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x85.size a ≤ S200000x85.size a
  hwx0_0 : ∀ i : grid0.Coords, EltTy.bits .f32 = 32 ∨ (Rect.block (s := S200000x85) S2000x85.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x85.size a ≤ S128x85.size a
  hwx0_1 : ∀ i : grid0.Coords, EltTy.bits .f32 = 32 ∨ (Rect.block (s := S128x85) S128x85.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x26.size a ≤ S500000x26.size a
  hwx1_0 : ∀ i : grid1.Coords, EltTy.bits .f32 = 32 ∨ (Rect.block (s := S500000x26) S2000x26.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x26.size a ≤ S128x26.size a
  hwx1_1 : ∀ i : grid1.Coords, EltTy.bits .f32 = 32 ∨ (Rect.block (s := S128x26) S128x26.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S500000x128.size a
  hwx1_3 : ∀ i : grid1.Coords, EltTy.bits .f32 = 32 ∨ (Rect.block (s := S500000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S200000x128.size a
  hwx2_1 : ∀ i : grid2.Coords, EltTy.bits .f32 = 32 ∨ (Rect.block (s := S200000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x128x128.size a ≤ S3x128x128.size a
  hwx2_4 : ∀ i : grid2.Coords, EltTy.bits .f32 = 32 ∨ (Rect.block (s := S3x128x128) S3x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128.size a ≤ S3x128.size a
  hwx2_5 : ∀ i : grid2.Coords, EltTy.bits .f32 = 32 ∨ (Rect.block (s := S3x128) S3x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x128x128.size a ≤ S3x128x128.size a
  hwx2_6 : ∀ i : grid2.Coords, EltTy.bits .f32 = 32 ∨ (Rect.block (s := S3x128x128) S3x128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S200000x128.size a
  hwx2_7 : ∀ i : grid2.Coords, EltTy.bits .f32 = 32 ∨ (Rect.block (s := S200000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S200000x128.size a
  hwx3_1 : ∀ i : grid3.Coords, EltTy.bits .f32 = 32 ∨ (Rect.block (s := S200000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S200000x128.size a
  hwx3_2 : ∀ i : grid3.Coords, EltTy.bits .f32 = 32 ∨ (Rect.block (s := S200000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S200000x128.size a
  hwx3_3 : ∀ i : grid3.Coords, EltTy.bits .f32 = 32 ∨ (Rect.block (s := S200000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x128x128.size a ≤ S3x128x128.size a
  hwx3_4 : ∀ i : grid3.Coords, EltTy.bits .f32 = 32 ∨ (Rect.block (s := S3x128x128) S3x128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x128.size a ≤ S3x128.size a
  hwx3_5 : ∀ i : grid3.Coords, EltTy.bits .f32 = 32 ∨ (Rect.block (s := S3x128) S3x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3x128x128.size a ≤ S3x128x128.size a
  hwx3_6 : ∀ i : grid3.Coords, EltTy.bits .f32 = 32 ∨ (Rect.block (s := S3x128x128) S3x128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S200000x128.size a
  hwx3_7 : ∀ i : grid3.Coords, EltTy.bits .f32 = 32 ∨ (Rect.block (s := S200000x128) S2000x128.size (cc3_transform_7 i) (hinb3_7 i)).WholeWords (EltTy.packing .f32)

variable [Facts₀]

def gather_S200000x10_S5x1_S200000x5_0_1_n_n_1_1_2000001 : GatherDims S200000x10 S5x1 S200000x5 where
  offsetDims := [0]
  collapsedSliceDims := [1]
  operandBatchingDims := []
  startIndicesBatchingDims := []
  startIndexMap := [1]
  indexVectorDim := 1
  sliceSizes := ![200000, 1]
  wf := gather_S200000x10_S5x1_S200000x5_0_1_n_n_1_1_2000001_wf
def gather_S200x16_S200000x1_S200000x16_1_0_n_n_0_1_116 : GatherDims S200x16 S200000x1 S200000x16 where
  offsetDims := [1]
  collapsedSliceDims := [0]
  operandBatchingDims := []
  startIndicesBatchingDims := []
  startIndexMap := [0]
  indexVectorDim := 1
  sliceSizes := ![1, 16]
  wf := gather_S200x16_S200000x1_S200000x16_1_0_n_n_0_1_116_wf
def dot_S2000x85_S85x128_S2000x128_1_0_0_1_n_n : DotDims S2000x85 S85x128 S2000x128 where
  lhsContracting := [1]
  rhsContracting := [0]
  lhsNonContracting := [0]
  rhsNonContracting := [1]
  lhsBatch := []
  rhsBatch := []
  wf := dot_S2000x85_S85x128_S2000x128_1_0_0_1_n_n_wf
def gather_S500000x8_S6x1_S500000x6_0_1_n_n_1_1_5000001 : GatherDims S500000x8 S6x1 S500000x6 where
  offsetDims := [0]
  collapsedSliceDims := [1]
  operandBatchingDims := []
  startIndicesBatchingDims := []
  startIndexMap := [1]
  indexVectorDim := 1
  sliceSizes := ![500000, 1]
  wf := gather_S500000x8_S6x1_S500000x6_0_1_n_n_1_1_5000001_wf
def gather_S2000x16_S500000x1_S500000x16_1_0_n_n_0_1_116 : GatherDims S2000x16 S500000x1 S500000x16 where
  offsetDims := [1]
  collapsedSliceDims := [0]
  operandBatchingDims := []
  startIndicesBatchingDims := []
  startIndexMap := [0]
  indexVectorDim := 1
  sliceSizes := ![1, 16]
  wf := gather_S2000x16_S500000x1_S500000x16_1_0_n_n_0_1_116_wf
def gather_S10x4_S500000x1_S500000x4_1_0_n_n_0_1_14 : GatherDims S10x4 S500000x1 S500000x4 where
  offsetDims := [1]
  collapsedSliceDims := [0]
  operandBatchingDims := []
  startIndicesBatchingDims := []
  startIndexMap := [0]
  indexVectorDim := 1
  sliceSizes := ![1, 4]
  wf := gather_S10x4_S500000x1_S500000x4_1_0_n_n_0_1_14_wf
def dot_S2000x26_S26x128_S2000x128_1_0_0_1_n_n : DotDims S2000x26 S26x128 S2000x128 where
  lhsContracting := [1]
  rhsContracting := [0]
  lhsNonContracting := [0]
  rhsNonContracting := [1]
  lhsBatch := []
  rhsBatch := []
  wf := dot_S2000x26_S26x128_S2000x128_1_0_0_1_n_n_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

abbrev win0_0 : Pipeline.Window sig grid0 :=
  Pipeline.Window.ofSpec (Memref.whole main_v65) S2000x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x85.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v66) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v96) S2000x26.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x26.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v97) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v143) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v166) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v120) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v168) S3x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v170) S3x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v172) S3x128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v173) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v196) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v219) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v120) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v173) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v221) S3x128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v223) S3x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v225) S3x128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v226) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x10 : Shape := ⟨2, ![200000, 10]⟩
abbrev S500000x8 : Shape := ⟨2, ![500000, 8]⟩
abbrev S2x800000 : Shape := ⟨2, ![2, 800000]⟩
abbrev S2x1000000 : Shape := ⟨2, ![2, 1000000]⟩
abbrev S2x500000 : Shape := ⟨2, ![2, 500000]⟩
abbrev S200000 : Shape := ⟨1, ![200000]⟩
abbrev S5x200x16 : Shape := ⟨3, ![5, 200, 16]⟩
abbrev S2000x16 : Shape := ⟨2, ![2000, 16]⟩
abbrev S10x4 : Shape := ⟨2, ![10, 4]⟩
abbrev S128x85 : Shape := ⟨2, ![128, 85]⟩
abbrev S128 : Shape := ⟨1, ![128]⟩
abbrev S128x26 : Shape := ⟨2, ![128, 26]⟩
abbrev S2x3x128x128 : Shape := ⟨4, ![2, 3, 128, 128]⟩
abbrev S2x3x128 : Shape := ⟨3, ![2, 3, 128]⟩
abbrev S1x128 : Shape := ⟨2, ![1, 128]⟩
abbrev S1 : Shape := ⟨1, ![1]⟩
abbrev S5 : Shape := ⟨1, ![5]⟩
abbrev S6 : Shape := ⟨1, ![6]⟩
abbrev S_ : Shape := ⟨0, ![]⟩
abbrev S5x1 : Shape := ⟨2, ![5, 1]⟩
abbrev S200000x5 : Shape := ⟨2, ![200000, 5]⟩
abbrev S1x200x16 : Shape := ⟨3, ![1, 200, 16]⟩
abbrev S200x16 : Shape := ⟨2, ![200, 16]⟩
abbrev S200000x1 : Shape := ⟨2, ![200000, 1]⟩
abbrev S200000x16 : Shape := ⟨2, ![200000, 16]⟩
abbrev S200000x85 : Shape := ⟨2, ![200000, 85]⟩
abbrev S85x128 : Shape := ⟨2, ![85, 128]⟩
abbrev S200000x128 : Shape := ⟨2, ![200000, 128]⟩
abbrev S6x1 : Shape := ⟨2, ![6, 1]⟩
abbrev S500000x6 : Shape := ⟨2, ![500000, 6]⟩
abbrev S500000x1 : Shape := ⟨2, ![500000, 1]⟩
abbrev S500000 : Shape := ⟨1, ![500000]⟩
abbrev S500000x16 : Shape := ⟨2, ![500000, 16]⟩
abbrev S500000x4 : Shape := ⟨2, ![500000, 4]⟩
abbrev S500000x26 : Shape := ⟨2, ![500000, 26]⟩
abbrev S26x128 : Shape := ⟨2, ![26, 128]⟩
abbrev S500000x128 : Shape := ⟨2, ![500000, 128]⟩
abbrev S1x1x128x128 : Shape := ⟨4, ![1, 1, 128, 128]⟩
abbrev S128x128 : Shape := ⟨2, ![128, 128]⟩
abbrev S1x1x128 : Shape := ⟨3, ![1, 1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x500000 : Shape := ⟨2, ![1, 500000]⟩
abbrev S20000x128 : Shape := ⟨2, ![20000, 128]⟩
abbrev S20000 : Shape := ⟨1, ![20000]⟩
abbrev S20000x1 : Shape := ⟨2, ![20000, 1]⟩
abbrev S128x1 : Shape := ⟨2, ![128, 1]⟩
abbrev S1x1 : Shape := ⟨2, ![1, 1]⟩

abbrev nBuf : Space → Nat
  | .hbm => 489
  | .vmem => 0
  | .smem => 0
  | _ => 0

abbrev hbmTy0_0 (i : Nat) : BufTy := match i % 128 with
  | 0 => ⟨S200000x10, .f32⟩
  | 1 => ⟨S500000x8, .f32⟩
  | 2 => ⟨S2x800000, .i32⟩
  | 3 => ⟨S2x1000000, .i32⟩
  | 4 => ⟨S2x500000, .i32⟩
  | 5 => ⟨S200000, .i32⟩
  | 6 => ⟨S5x200x16, .f32⟩
  | 7 => ⟨S2000x16, .f32⟩
  | 8 => ⟨S10x4, .f32⟩
  | 9 => ⟨S128x85, .f32⟩
  | 10 => ⟨S128, .f32⟩
  | 11 => ⟨S128x26, .f32⟩
  | 12 => ⟨S128, .f32⟩
  | 13 => ⟨S2x3x128x128, .f32⟩
  | 14 => ⟨S2x3x128, .f32⟩
  | 15 => ⟨S2x3x128x128, .f32⟩
  | 16 => ⟨S1x128, .f32⟩
  | 17 => ⟨S1, .f32⟩
  | 18 => ⟨S5, .i32⟩
  | 19 => ⟨S6, .i32⟩
  | 20 => ⟨S_, .i32⟩
  | 21 => ⟨S5, .i32⟩
  | 22 => ⟨S5, .i1⟩
  | 23 => ⟨S_, .i32⟩
  | 24 => ⟨S5, .i32⟩
  | 25 => ⟨S5, .i32⟩
  | 26 => ⟨S5, .i32⟩
  | 27 => ⟨S5x1, .i32⟩
  | 28 => ⟨S200000x5, .f32⟩
  | 29 => ⟨S1x200x16, .f32⟩
  | 30 => ⟨S200x16, .f32⟩
  | 31 => ⟨S200000x1, .f32⟩
  | 32 => ⟨S200000, .f32⟩
  | 33 => ⟨S200000, .i32⟩
  | 34 => ⟨S_, .i32⟩
  | 35 => ⟨S_, .i32⟩
  | 36 => ⟨S_, .i32⟩
  | 37 => ⟨S200000, .i32⟩
  | 38 => ⟨S200000, .i32⟩
  | 39 => ⟨S_, .i32⟩
  | 40 => ⟨S200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x16, .f32⟩
  | 51 => ⟨S1x200x16, .f32⟩
  | 52 => ⟨S200x16, .f32⟩
  | 53 => ⟨S200000x1, .f32⟩
  | 54 => ⟨S200000, .f32⟩
  | 55 => ⟨S200000, .i32⟩
  | 56 => ⟨S_, .i32⟩
  | 57 => ⟨S_, .i32⟩
  | 58 => ⟨S_, .i32⟩
  | 59 => ⟨S200000, .i32⟩
  | 60 => ⟨S200000, .i32⟩
  | 61 => ⟨S_, .i32⟩
  | 62 => ⟨S200000, .i32⟩
  | 63 => ⟨S200000, .i32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x16, .f32⟩
  | 73 => ⟨S1x200x16, .f32⟩
  | 74 => ⟨S200x16, .f32⟩
  | 75 => ⟨S200000x1, .f32⟩
  | 76 => ⟨S200000, .f32⟩
  | 77 => ⟨S200000, .i32⟩
  | 78 => ⟨S_, .i32⟩
  | 79 => ⟨S_, .i32⟩
  | 80 => ⟨S_, .i32⟩
  | 81 => ⟨S200000, .i32⟩
  | 82 => ⟨S200000, .i32⟩
  | 83 => ⟨S_, .i32⟩
  | 84 => ⟨S200000, .i32⟩
  | 85 => ⟨S200000, .i32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x16, .f32⟩
  | 95 => ⟨S1x200x16, .f32⟩
  | 96 => ⟨S200x16, .f32⟩
  | 97 => ⟨S200000x1, .f32⟩
  | 98 => ⟨S200000, .f32⟩
  | 99 => ⟨S200000, .i32⟩
  | 100 => ⟨S_, .i32⟩
  | 101 => ⟨S_, .i32⟩
  | 102 => ⟨S_, .i32⟩
  | 103 => ⟨S200000, .i32⟩
  | 104 => ⟨S200000, .i32⟩
  | 105 => ⟨S_, .i32⟩
  | 106 => ⟨S200000, .i32⟩
  | 107 => ⟨S200000, .i32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000x16, .f32⟩
  | 117 => ⟨S1x200x16, .f32⟩
  | 118 => ⟨S200x16, .f32⟩
  | 119 => ⟨S200000x1, .f32⟩
  | 120 => ⟨S200000, .f32⟩
  | 121 => ⟨S200000, .i32⟩
  | 122 => ⟨S_, .i32⟩
  | 123 => ⟨S_, .i32⟩
  | 124 => ⟨S_, .i32⟩
  | 125 => ⟨S200000, .i32⟩
  | 126 => ⟨S200000, .i32⟩
  | 127 => ⟨S_, .i32⟩
  | _ => ⟨S200000x10, .f32⟩

abbrev hbmTy0_1 (i : Nat) : BufTy := match i % 128 with
  | 0 => ⟨S200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x16, .f32⟩
  | 11 => ⟨S200000x85, .f32⟩
  | 12 => ⟨S85x128, .f32⟩
  | 13 => ⟨S200000x128, .f32⟩
  | 14 => ⟨S1x128, .f32⟩
  | 15 => ⟨S200000x128, .f32⟩
  | 16 => ⟨S200000x128, .f32⟩
  | 17 => ⟨S_, .i32⟩
  | 18 => ⟨S6, .i32⟩
  | 19 => ⟨S6, .i1⟩
  | 20 => ⟨S_, .i32⟩
  | 21 => ⟨S6, .i32⟩
  | 22 => ⟨S6, .i32⟩
  | 23 => ⟨S6, .i32⟩
  | 24 => ⟨S6x1, .i32⟩
  | 25 => ⟨S500000x6, .f32⟩
  | 26 => ⟨S500000x1, .f32⟩
  | 27 => ⟨S500000, .f32⟩
  | 28 => ⟨S500000, .i32⟩
  | 29 => ⟨S_, .i32⟩
  | 30 => ⟨S_, .i32⟩
  | 31 => ⟨S_, .i32⟩
  | 32 => ⟨S500000, .i32⟩
  | 33 => ⟨S500000, .i32⟩
  | 34 => ⟨S_, .i32⟩
  | 35 => ⟨S500000, .i32⟩
  | 36 => ⟨S500000, .i32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x16, .f32⟩
  | 46 => ⟨S500000x1, .f32⟩
  | 47 => ⟨S500000, .f32⟩
  | 48 => ⟨S500000, .i32⟩
  | 49 => ⟨S_, .i32⟩
  | 50 => ⟨S_, .i32⟩
  | 51 => ⟨S_, .i32⟩
  | 52 => ⟨S500000, .i32⟩
  | 53 => ⟨S500000, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x4, .f32⟩
  | 66 => ⟨S500000x26, .f32⟩
  | 67 => ⟨S26x128, .f32⟩
  | 68 => ⟨S500000x128, .f32⟩
  | 69 => ⟨S1x128, .f32⟩
  | 70 => ⟨S500000x128, .f32⟩
  | 71 => ⟨S500000x128, .f32⟩
  | 72 => ⟨S1x1x128x128, .f32⟩
  | 73 => ⟨S128x128, .f32⟩
  | 74 => ⟨S1x1x128, .f32⟩
  | 75 => ⟨S128, .f32⟩
  | 76 => ⟨S1x1x128x128, .f32⟩
  | 77 => ⟨S128x128, .f32⟩
  | 78 => ⟨S1x800000, .i32⟩
  | 79 => ⟨S800000, .i32⟩
  | 80 => ⟨S1x800000, .i32⟩
  | 81 => ⟨S800000, .i32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S200000x128, .f32⟩
  | 93 => ⟨S800000x1, .i32⟩
  | 94 => ⟨S200000x128, .f32⟩
  | 95 => ⟨S_, .f32⟩
  | 96 => ⟨S800000, .f32⟩
  | 97 => ⟨S_, .f32⟩
  | 98 => ⟨S200000, .f32⟩
  | 99 => ⟨S800000x1, .i32⟩
  | 100 => ⟨S200000, .f32⟩
  | 101 => ⟨S_, .f32⟩
  | 102 => ⟨S200000, .f32⟩
  | 103 => ⟨S200000, .f32⟩
  | 104 => ⟨S200000x1, .f32⟩
  | 105 => ⟨S200000x128, .f32⟩
  | 106 => ⟨S200000x128, .f32⟩
  | 107 => ⟨S128x128, .f32⟩
  | 108 => ⟨S200000x128, .f32⟩
  | 109 => ⟨S1x128, .f32⟩
  | 110 => ⟨S200000x128, .f32⟩
  | 111 => ⟨S200000x128, .f32⟩
  | 112 => ⟨S128x128, .f32⟩
  | 113 => ⟨S200000x128, .f32⟩
  | 114 => ⟨S200000x128, .f32⟩
  | 115 => ⟨S1x1x128x128, .f32⟩
  | 116 => ⟨S128x128, .f32⟩
  | 117 => ⟨S1x1x128, .f32⟩
  | 118 => ⟨S128, .f32⟩
  | 119 => ⟨S1x1x128x128, .f32⟩
  | 120 => ⟨S128x128, .f32⟩
  | 121 => ⟨S1x1000000, .i32⟩
  | 122 => ⟨S1000000, .i32⟩
  | 123 => ⟨S1x1000000, .i32⟩
  | 124 => ⟨S1000000, .i32⟩
  | 125 => ⟨S_, .i32⟩
  | 126 => ⟨S1000000, .i32⟩
  | 127 => ⟨S1000000, .i1⟩
  | _ => ⟨S200000x10, .f32⟩

abbrev hbmTy0_2 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x128, .f32⟩
  | 6 => ⟨S_, .f32⟩
  | 7 => ⟨S200000x128, .f32⟩
  | 8 => ⟨S1000000x1, .i32⟩
  | 9 => ⟨S200000x128, .f32⟩
  | 10 => ⟨S_, .f32⟩
  | 11 => ⟨S1000000, .f32⟩
  | 12 => ⟨S_, .f32⟩
  | 13 => ⟨S200000, .f32⟩
  | 14 => ⟨S1000000x1, .i32⟩
  | 15 => ⟨S200000, .f32⟩
  | 16 => ⟨S_, .f32⟩
  | 17 => ⟨S200000, .f32⟩
  | 18 => ⟨S200000, .f32⟩
  | 19 => ⟨S200000x1, .f32⟩
  | 20 => ⟨S200000x128, .f32⟩
  | 21 => ⟨S200000x128, .f32⟩
  | 22 => ⟨S128x128, .f32⟩
  | 23 => ⟨S200000x128, .f32⟩
  | 24 => ⟨S1x128, .f32⟩
  | 25 => ⟨S200000x128, .f32⟩
  | 26 => ⟨S200000x128, .f32⟩
  | 27 => ⟨S128x128, .f32⟩
  | 28 => ⟨S200000x128, .f32⟩
  | 29 => ⟨S200000x128, .f32⟩
  | 30 => ⟨S200000x128, .f32⟩
  | 31 => ⟨S1x1x128x128, .f32⟩
  | 32 => ⟨S128x128, .f32⟩
  | 33 => ⟨S1x1x128, .f32⟩
  | 34 => ⟨S128, .f32⟩
  | 35 => ⟨S1x1x128x128, .f32⟩
  | 36 => ⟨S128x128, .f32⟩
  | 37 => ⟨S1x500000, .i32⟩
  | 38 => ⟨S500000, .i32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S_, .f32⟩
  | 51 => ⟨S200000x128, .f32⟩
  | 52 => ⟨S500000x1, .i32⟩
  | 53 => ⟨S200000x128, .f32⟩
  | 54 => ⟨S_, .f32⟩
  | 55 => ⟨S500000, .f32⟩
  | 56 => ⟨S_, .f32⟩
  | 57 => ⟨S200000, .f32⟩
  | 58 => ⟨S500000x1, .i32⟩
  | 59 => ⟨S200000, .f32⟩
  | 60 => ⟨S_, .f32⟩
  | 61 => ⟨S200000, .f32⟩
  | 62 => ⟨S200000, .f32⟩
  | 63 => ⟨S200000x1, .f32⟩
  | 64 => ⟨S200000x128, .f32⟩
  | 65 => ⟨S200000x128, .f32⟩
  | 66 => ⟨S128x128, .f32⟩
  | 67 => ⟨S200000x128, .f32⟩
  | 68 => ⟨S1x128, .f32⟩
  | 69 => ⟨S200000x128, .f32⟩
  | 70 => ⟨S200000x128, .f32⟩
  | 71 => ⟨S128x128, .f32⟩
  | 72 => ⟨S200000x128, .f32⟩
  | 73 => ⟨S200000x128, .f32⟩
  | 74 => ⟨S200000x128, .f32⟩
  | 75 => ⟨S_, .f32⟩
  | 76 => ⟨S200000x128, .f32⟩
  | 77 => ⟨S200000x128, .f32⟩
  | 78 => ⟨S1x1x128x128, .f32⟩
  | 79 => ⟨S128x128, .f32⟩
  | 80 => ⟨S1x1x128, .f32⟩
  | 81 => ⟨S128, .f32⟩
  | 82 => ⟨S1x1x128x128, .f32⟩
  | 83 => ⟨S128x128, .f32⟩
  | 84 => ⟨S1x800000, .i32⟩
  | 85 => ⟨S800000, .i32⟩
  | 86 => ⟨S1x800000, .i32⟩
  | 87 => ⟨S800000, .i32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S200000x128, .f32⟩
  | 99 => ⟨S800000x1, .i32⟩
  | 100 => ⟨S200000x128, .f32⟩
  | 101 => ⟨S_, .f32⟩
  | 102 => ⟨S800000, .f32⟩
  | 103 => ⟨S_, .f32⟩
  | 104 => ⟨S200000, .f32⟩
  | 105 => ⟨S800000x1, .i32⟩
  | 106 => ⟨S200000, .f32⟩
  | 107 => ⟨S_, .f32⟩
  | 108 => ⟨S200000, .f32⟩
  | 109 => ⟨S200000, .f32⟩
  | 110 => ⟨S200000x1, .f32⟩
  | 111 => ⟨S200000x128, .f32⟩
  | 112 => ⟨S200000x128, .f32⟩
  | 113 => ⟨S128x128, .f32⟩
  | 114 => ⟨S200000x128, .f32⟩
  | 115 => ⟨S1x128, .f32⟩
  | 116 => ⟨S200000x128, .f32⟩
  | 117 => ⟨S200000x128, .f32⟩
  | 118 => ⟨S128x128, .f32⟩
  | 119 => ⟨S200000x128, .f32⟩
  | 120 => ⟨S200000x128, .f32⟩
  | 121 => ⟨S1x1x128x128, .f32⟩
  | 122 => ⟨S128x128, .f32⟩
  | 123 => ⟨S1x1x128, .f32⟩
  | 124 => ⟨S128, .f32⟩
  | 125 => ⟨S1x1x128x128, .f32⟩
  | 126 => ⟨S128x128, .f32⟩
  | 127 => ⟨S1x1000000, .i32⟩
  | _ => ⟨S200000x10, .f32⟩

abbrev hbmTy0_3 (i : Nat) : BufTy := match i % 128 with
  | 0 => ⟨S1000000, .i32⟩
  | 1 => ⟨S1x1000000, .i32⟩
  | 2 => ⟨S1000000, .i32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x128, .f32⟩
  | 12 => ⟨S_, .f32⟩
  | 13 => ⟨S200000x128, .f32⟩
  | 14 => ⟨S1000000x1, .i32⟩
  | 15 => ⟨S200000x128, .f32⟩
  | 16 => ⟨S_, .f32⟩
  | 17 => ⟨S1000000, .f32⟩
  | 18 => ⟨S_, .f32⟩
  | 19 => ⟨S200000, .f32⟩
  | 20 => ⟨S1000000x1, .i32⟩
  | 21 => ⟨S200000, .f32⟩
  | 22 => ⟨S_, .f32⟩
  | 23 => ⟨S200000, .f32⟩
  | 24 => ⟨S200000, .f32⟩
  | 25 => ⟨S200000x1, .f32⟩
  | 26 => ⟨S200000x128, .f32⟩
  | 27 => ⟨S200000x128, .f32⟩
  | 28 => ⟨S128x128, .f32⟩
  | 29 => ⟨S200000x128, .f32⟩
  | 30 => ⟨S1x128, .f32⟩
  | 31 => ⟨S200000x128, .f32⟩
  | 32 => ⟨S200000x128, .f32⟩
  | 33 => ⟨S128x128, .f32⟩
  | 34 => ⟨S200000x128, .f32⟩
  | 35 => ⟨S200000x128, .f32⟩
  | 36 => ⟨S200000x128, .f32⟩
  | 37 => ⟨S1x1x128x128, .f32⟩
  | 38 => ⟨S128x128, .f32⟩
  | 39 => ⟨S1x1x128, .f32⟩
  | 40 => ⟨S128, .f32⟩
  | 41 => ⟨S1x1x128x128, .f32⟩
  | 42 => ⟨S128x128, .f32⟩
  | 43 => ⟨S1x500000, .i32⟩
  | 44 => ⟨S500000, .i32⟩
  | 45 => ⟨S1x500000, .i32⟩
  | 46 => ⟨S500000, .i32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .f32⟩
  | 57 => ⟨S200000x128, .f32⟩
  | 58 => ⟨S500000x1, .i32⟩
  | 59 => ⟨S200000x128, .f32⟩
  | 60 => ⟨S_, .f32⟩
  | 61 => ⟨S500000, .f32⟩
  | 62 => ⟨S_, .f32⟩
  | 63 => ⟨S200000, .f32⟩
  | 64 => ⟨S500000x1, .i32⟩
  | 65 => ⟨S200000, .f32⟩
  | 66 => ⟨S_, .f32⟩
  | 67 => ⟨S200000, .f32⟩
  | 68 => ⟨S200000, .f32⟩
  | 69 => ⟨S200000x1, .f32⟩
  | 70 => ⟨S200000x128, .f32⟩
  | 71 => ⟨S200000x128, .f32⟩
  | 72 => ⟨S128x128, .f32⟩
  | 73 => ⟨S200000x128, .f32⟩
  | 74 => ⟨S1x128, .f32⟩
  | 75 => ⟨S200000x128, .f32⟩
  | 76 => ⟨S200000x128, .f32⟩
  | 77 => ⟨S128x128, .f32⟩
  | 78 => ⟨S200000x128, .f32⟩
  | 79 => ⟨S200000x128, .f32⟩
  | 80 => ⟨S200000x128, .f32⟩
  | 81 => ⟨S_, .f32⟩
  | 82 => ⟨S200000x128, .f32⟩
  | 83 => ⟨S200000x128, .f32⟩
  | 84 => ⟨S_, .f32⟩
  | 85 => ⟨S20000x128, .f32⟩
  | 86 => ⟨S200000x1, .i32⟩
  | 87 => ⟨S20000x128, .f32⟩
  | 88 => ⟨S_, .f32⟩
  | 89 => ⟨S200000, .f32⟩
  | 90 => ⟨S_, .f32⟩
  | 91 => ⟨S20000, .f32⟩
  | 92 => ⟨S200000x1, .i32⟩
  | 93 => ⟨S20000, .f32⟩
  | 94 => ⟨S_, .f32⟩
  | 95 => ⟨S20000, .f32⟩
  | 96 => ⟨S20000, .f32⟩
  | 97 => ⟨S20000x1, .f32⟩
  | 98 => ⟨S20000x128, .f32⟩
  | 99 => ⟨S20000x128, .f32⟩
  | 100 => ⟨S128x1, .f32⟩
  | 101 => ⟨S20000x1, .f32⟩
  | 102 => ⟨S1x1, .f32⟩
  | 103 => ⟨S20000x1, .f32⟩
  | 104 => ⟨S20000x1, .f32⟩
  | _ => ⟨S200000x10, .f32⟩

abbrev hbmTy (i : Nat) : BufTy := match i / 128 with
  | 0 => hbmTy0_0 i
  | 1 => hbmTy0_1 i
  | 2 => hbmTy0_2 i
  | 3 => hbmTy0_3 i
  | _ => ⟨S200000x10, .f32⟩

abbrev bufTy : (tb : Table) → Fin (tcTables nBuf tb) → BufTy
  | .hbm, ⟨i, _⟩ => hbmTy i
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_c_1 : Ref sig .tc := ⟨.hbm, 20, rfl⟩
abbrev main_v0 : Ref sig .tc := ⟨.hbm, 21, rfl⟩
abbrev main_v1 : Ref sig .tc := ⟨.hbm, 22, rfl⟩
abbrev main_c_2 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v12 : Ref sig .tc := ⟨.hbm, 41, rfl⟩
abbrev main_c_5 : Ref sig .tc := ⟨.hbm, 42, rfl⟩
abbrev main_v13 : Ref sig .tc := ⟨.hbm, 43, rfl⟩
abbrev main_v14 : Ref sig .tc := ⟨.hbm, 44, rfl⟩
abbrev main_c_6 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_c_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v25 : Ref sig .tc := ⟨.hbm, 63, rfl⟩
abbrev main_c_9 : Ref sig .tc := ⟨.hbm, 64, rfl⟩
abbrev main_v26 : Ref sig .tc := ⟨.hbm, 65, rfl⟩
abbrev main_v27 : Ref sig .tc := ⟨.hbm, 66, rfl⟩
abbrev main_c_10 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_11 : Ref sig .tc := ⟨.hbm, 78, rfl⟩
abbrev main_c_12 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v38 : Ref sig .tc := ⟨.hbm, 85, rfl⟩
abbrev main_c_13 : Ref sig .tc := ⟨.hbm, 86, rfl⟩
abbrev main_v39 : Ref sig .tc := ⟨.hbm, 87, rfl⟩
abbrev main_v40 : Ref sig .tc := ⟨.hbm, 88, rfl⟩
abbrev main_c_14 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_15 : Ref sig .tc := ⟨.hbm, 100, rfl⟩
abbrev main_c_16 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v51 : Ref sig .tc := ⟨.hbm, 107, rfl⟩
abbrev main_c_17 : Ref sig .tc := ⟨.hbm, 108, rfl⟩
abbrev main_v52 : Ref sig .tc := ⟨.hbm, 109, rfl⟩
abbrev main_v53 : Ref sig .tc := ⟨.hbm, 110, rfl⟩
abbrev main_c_18 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_19 : Ref sig .tc := ⟨.hbm, 122, rfl⟩
abbrev main_c_20 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v64 : Ref sig .tc := ⟨.hbm, 129, rfl⟩
abbrev main_c_21 : Ref sig .tc := ⟨.hbm, 130, rfl⟩
abbrev main_v65 : Ref sig .tc := ⟨.hbm, 131, rfl⟩
abbrev main_v66 : Ref sig .tc := ⟨.hbm, 132, rfl⟩
abbrev main_c_22 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_c_23 : Ref sig .tc := ⟨.hbm, 145, rfl⟩
abbrev main_v78 : Ref sig .tc := ⟨.hbm, 146, rfl⟩
abbrev main_v79 : Ref sig .tc := ⟨.hbm, 147, rfl⟩
abbrev main_c_24 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_c_25 : Ref sig .tc := ⟨.hbm, 157, rfl⟩
abbrev main_c_26 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v88 : Ref sig .tc := ⟨.hbm, 164, rfl⟩
abbrev main_c_27 : Ref sig .tc := ⟨.hbm, 165, rfl⟩
abbrev main_v89 : Ref sig .tc := ⟨.hbm, 166, rfl⟩
abbrev main_v90 : Ref sig .tc := ⟨.hbm, 167, rfl⟩
abbrev main_c_28 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_c_29 : Ref sig .tc := ⟨.hbm, 177, rfl⟩
abbrev main_c_30 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v99 : Ref sig .tc := ⟨.hbm, 184, rfl⟩
abbrev main_c_31 : Ref sig .tc := ⟨.hbm, 185, rfl⟩
abbrev main_v100 : Ref sig .tc := ⟨.hbm, 186, rfl⟩
abbrev main_v101 : Ref sig .tc := ⟨.hbm, 187, rfl⟩
abbrev main_c_32 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_c_33 : Ref sig .tc := ⟨.hbm, 210, rfl⟩
abbrev main_v123 : Ref sig .tc := ⟨.hbm, 211, rfl⟩
abbrev main_v124 : Ref sig .tc := ⟨.hbm, 212, rfl⟩
abbrev main_c_34 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_cst : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_cst_35 : Ref sig .tc := ⟨.hbm, 223, rfl⟩
abbrev main_v133 : Ref sig .tc := ⟨.hbm, 224, rfl⟩
abbrev main_cst_36 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_37 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_c_38 : Ref sig .tc := ⟨.hbm, 253, rfl⟩
abbrev main_v160 : Ref sig .tc := ⟨.hbm, 254, rfl⟩
abbrev main_v161 : Ref sig .tc := ⟨.hbm, 255, rfl⟩
abbrev main_c_39 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_cst_40 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_cst_41 : Ref sig .tc := ⟨.hbm, 266, rfl⟩
abbrev main_v170 : Ref sig .tc := ⟨.hbm, 267, rfl⟩
abbrev main_cst_42 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_43 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_c_44 : Ref sig .tc := ⟨.hbm, 297, rfl⟩
abbrev main_v198 : Ref sig .tc := ⟨.hbm, 298, rfl⟩
abbrev main_v199 : Ref sig .tc := ⟨.hbm, 299, rfl⟩
abbrev main_c_45 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_cst_46 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_cst_47 : Ref sig .tc := ⟨.hbm, 310, rfl⟩
abbrev main_v208 : Ref sig .tc := ⟨.hbm, 311, rfl⟩
abbrev main_cst_48 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_cst_49 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_call7_cst : Ref sig .tc := ⟨.hbm, 331, rfl⟩
abbrev main_call7_v0 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_c_50 : Ref sig .tc := ⟨.hbm, 344, rfl⟩
abbrev main_v237 : Ref sig .tc := ⟨.hbm, 345, rfl⟩
abbrev main_v238 : Ref sig .tc := ⟨.hbm, 346, rfl⟩
abbrev main_c_51 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_cst_52 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_cst_53 : Ref sig .tc := ⟨.hbm, 357, rfl⟩
abbrev main_v247 : Ref sig .tc := ⟨.hbm, 358, rfl⟩
abbrev main_cst_54 : Ref sig .tc := ⟨.hbm, 359, rfl⟩
abbrev main_v248 : Ref sig .tc := ⟨.hbm, 360, rfl⟩
abbrev main_v249 : Ref sig .tc := ⟨.hbm, 361, rfl⟩
abbrev main_v250 : Ref sig .tc := ⟨.hbm, 362, rfl⟩
abbrev main_cst_55 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_c_56 : Ref sig .tc := ⟨.hbm, 387, rfl⟩
abbrev main_v274 : Ref sig .tc := ⟨.hbm, 388, rfl⟩
abbrev main_v275 : Ref sig .tc := ⟨.hbm, 389, rfl⟩
abbrev main_c_57 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_cst_58 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_cst_59 : Ref sig .tc := ⟨.hbm, 400, rfl⟩
abbrev main_v284 : Ref sig .tc := ⟨.hbm, 401, rfl⟩
abbrev main_cst_60 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_cst_61 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_v300 : Ref sig .tc := ⟨.hbm, 419, rfl⟩
abbrev main_v301 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_c_62 : Ref sig .tc := ⟨.hbm, 431, rfl⟩
abbrev main_v312 : Ref sig .tc := ⟨.hbm, 432, rfl⟩
abbrev main_v313 : Ref sig .tc := ⟨.hbm, 433, rfl⟩
abbrev main_c_63 : Ref sig .tc := ⟨.hbm, 434, rfl⟩
abbrev main_v314 : Ref sig .tc := ⟨.hbm, 435, rfl⟩
abbrev main_v315 : Ref sig .tc := ⟨.hbm, 436, rfl⟩
abbrev main_v316 : Ref sig .tc := ⟨.hbm, 437, rfl⟩
abbrev main_v317 : Ref sig .tc := ⟨.hbm, 438, rfl⟩
abbrev main_v318 : Ref sig .tc := ⟨.hbm, 439, rfl⟩
abbrev main_cst_64 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_cst_65 : Ref sig .tc := ⟨.hbm, 444, rfl⟩
abbrev main_v322 : Ref sig .tc := ⟨.hbm, 445, rfl⟩
abbrev main_cst_66 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_cst_67 : Ref sig .tc := ⟨.hbm, 450, rfl⟩
abbrev main_v326 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_v335 : Ref sig .tc := ⟨.hbm, 460, rfl⟩
abbrev main_v336 : Ref sig .tc := ⟨.hbm, 461, rfl⟩
abbrev main_v337 : Ref sig .tc := ⟨.hbm, 462, rfl⟩
abbrev main_v338 : Ref sig .tc := ⟨.hbm, 463, rfl⟩
abbrev main_v339 : Ref sig .tc := ⟨.hbm, 464, rfl⟩
abbrev main_call8_cst : Ref sig .tc := ⟨.hbm, 465, rfl⟩
abbrev main_call8_v0 : Ref sig .tc := ⟨.hbm, 466, rfl⟩
abbrev main_v340 : Ref sig .tc := ⟨.hbm, 467, rfl⟩
abbrev main_cst_68 : Ref sig .tc := ⟨.hbm, 468, rfl⟩
abbrev main_v341 : Ref sig .tc := ⟨.hbm, 469, rfl⟩
abbrev main_v342 : Ref sig .tc := ⟨.hbm, 470, rfl⟩
abbrev main_v343 : Ref sig .tc := ⟨.hbm, 471, rfl⟩
abbrev main_cst_69 : Ref sig .tc := ⟨.hbm, 472, rfl⟩
abbrev main_v344 : Ref sig .tc := ⟨.hbm, 473, rfl⟩
abbrev main_cst_70 : Ref sig .tc := ⟨.hbm, 474, rfl⟩
abbrev main_v345 : Ref sig .tc := ⟨.hbm, 475, rfl⟩
abbrev main_v346 : Ref sig .tc := ⟨.hbm, 476, rfl⟩
abbrev main_v347 : Ref sig .tc := ⟨.hbm, 477, rfl⟩
abbrev main_cst_71 : Ref sig .tc := ⟨.hbm, 478, rfl⟩
abbrev main_v348 : Ref sig .tc := ⟨.hbm, 479, rfl⟩
abbrev main_v349 : Ref sig .tc := ⟨.hbm, 480, rfl⟩
abbrev main_v350 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S5_S5x1_0 : S5.BroadcastsInDim S5x1 (![0] : Fin 1 → Fin S5x1.rank)
  slices_S5x200x16_S1x200x16_0_0_0 : S5x200x16.Slices ![0, 0, 0] S1x200x16
  shapeCasts_S1x200x16_S200x16 : S1x200x16.ShapeCasts S200x16
  slices_S200000x10_S200000x1_0_1 : S200000x10.Slices ![0, 1] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S5x200x16_S1x200x16_1_0_0 : S5x200x16.Slices ![1, 0, 0] S1x200x16
  slices_S200000x10_S200000x1_0_2 : S200000x10.Slices ![0, 2] S200000x1
  slices_S5x200x16_S1x200x16_2_0_0 : S5x200x16.Slices ![2, 0, 0] S1x200x16
  slices_S200000x10_S200000x1_0_3 : S200000x10.Slices ![0, 3] S200000x1
  slices_S5x200x16_S1x200x16_3_0_0 : S5x200x16.Slices ![3, 0, 0] S1x200x16
  slices_S200000x10_S200000x1_0_4 : S200000x10.Slices ![0, 4] S200000x1
  slices_S5x200x16_S1x200x16_4_0_0 : S5x200x16.Slices ![4, 0, 0] S1x200x16
  slices_S200000x10_S200000x1_0_5 : S200000x10.Slices ![0, 5] S200000x1
  concatenates_S200000x5_S200000x16_S200000x16_S200000x16_S200000x16_S200000x16_S200000x85_d1 : Shape.Concatenates [S200000x5, S200000x16, S200000x16, S200000x16, S200000x16, S200000x16] S200000x85 1
  transposes_S128x85_S85x128_1_0 : S128x85.Transposes [1, 0] S85x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S6 : S_.BroadcastsInDim S6 (![] : Fin 0 → Fin S6.rank)
  bcast_S6_S6x1_0 : S6.BroadcastsInDim S6x1 (![0] : Fin 1 → Fin S6x1.rank)
  slices_S500000x8_S500000x1_0_0 : S500000x8.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x8_S500000x1_0_3 : S500000x8.Slices ![0, 3] S500000x1
  concatenates_S500000x6_S500000x16_S500000x4_S500000x26_d1 : Shape.Concatenates [S500000x6, S500000x16, S500000x4] S500000x26 1
  transposes_S128x26_S26x128_1_0 : S128x26.Transposes [1, 0] S26x128
  bcast_S1x128_S500000x128_0_1 : S1x128.BroadcastsInDim S500000x128 (![0, 1] : Fin 2 → Fin S500000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  transposes_S128x128_S128x128_1_0 : S128x128.Transposes [1, 0] S128x128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S1x128_S128x1_1_0 : S1x128.Transposes [1, 0] S128x1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  gather_S200000x10_S5x1_S200000x5_0_1_n_n_1_1_2000001_wf : GatherDims.WF S200000x10 S5x1 S200000x5 [0] [1] [] [1] [] 1 ![200000, 1]
  gather_S200x16_S200000x1_S200000x16_1_0_n_n_0_1_116_wf : GatherDims.WF S200x16 S200000x1 S200000x16 [1] [0] [] [0] [] 1 ![1, 16]
  dot_S200000x85_S85x128_S200000x128_1_0_0_1_n_n_wf : DotDims.WF S200000x85 S85x128 S200000x128 [1] [0] [0] [1] [] []
  gather_S500000x8_S6x1_S500000x6_0_1_n_n_1_1_5000001_wf : GatherDims.WF S500000x8 S6x1 S500000x6 [0] [1] [] [1] [] 1 ![500000, 1]
  gather_S2000x16_S500000x1_S500000x16_1_0_n_n_0_1_116_wf : GatherDims.WF S2000x16 S500000x1 S500000x16 [1] [0] [] [0] [] 1 ![1, 16]
  gather_S10x4_S500000x1_S500000x4_1_0_n_n_0_1_14_wf : GatherDims.WF S10x4 S500000x1 S500000x4 [1] [0] [] [0] [] 1 ![1, 4]
  dot_S500000x26_S26x128_S500000x128_1_0_0_1_n_n_wf : DotDims.WF S500000x26 S26x128 S500000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  gather_S500000x128_S500000x1_S500000x128_1_0_n_n_0_1_1128_wf : GatherDims.WF S500000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  scatter_S20000x128_S200000x1_S200000x128_1_0_0_1_wf : ScatterDims.WF S20000x128 S200000x1 S200000x128 [1] [0] [0] 1
  scatter_S20000_S200000x1_S200000_n_0_0_1_wf : ScatterDims.WF S20000 S200000x1 S200000 [] [0] [0] 1
  dot_S20000x128_S128x1_S20000x1_1_0_0_1_n_n_wf : DotDims.WF S20000x128 S128x1 S20000x1 [1] [0] [0] [1] [] []

variable [Facts₀]

def gather_S200000x10_S5x1_S200000x5_0_1_n_n_1_1_2000001 : GatherDims S200000x10 S5x1 S200000x5 where
  offsetDims := [0]
  collapsedSliceDims := [1]
  operandBatchingDims := []
  startIndicesBatchingDims := []
  startIndexMap := [1]
  indexVectorDim := 1
  sliceSizes := ![200000, 1]
  wf := gather_S200000x10_S5x1_S200000x5_0_1_n_n_1_1_2000001_wf
def gather_S200x16_S200000x1_S200000x16_1_0_n_n_0_1_116 : GatherDims S200x16 S200000x1 S200000x16 where
  offsetDims := [1]
  collapsedSliceDims := [0]
  operandBatchingDims := []
  startIndicesBatchingDims := []
  startIndexMap := [0]
  indexVectorDim := 1
  sliceSizes := ![1, 16]
  wf := gather_S200x16_S200000x1_S200000x16_1_0_n_n_0_1_116_wf
def dot_S200000x85_S85x128_S200000x128_1_0_0_1_n_n : DotDims S200000x85 S85x128 S200000x128 where
  lhsContracting := [1]
  rhsContracting := [0]
  lhsNonContracting := [0]
  rhsNonContracting := [1]
  lhsBatch := []
  rhsBatch := []
  wf := dot_S200000x85_S85x128_S200000x128_1_0_0_1_n_n_wf
def gather_S500000x8_S6x1_S500000x6_0_1_n_n_1_1_5000001 : GatherDims S500000x8 S6x1 S500000x6 where
  offsetDims := [0]
  collapsedSliceDims := [1]
  operandBatchingDims := []
  startIndicesBatchingDims := []
  startIndexMap := [1]
  indexVectorDim := 1
  sliceSizes := ![500000, 1]
  wf := gather_S500000x8_S6x1_S500000x6_0_1_n_n_1_1_5000001_wf
def gather_S2000x16_S500000x1_S500000x16_1_0_n_n_0_1_116 : GatherDims S2000x16 S500000x1 S500000x16 where
  offsetDims := [1]
  collapsedSliceDims := [0]
  operandBatchingDims := []
  startIndicesBatchingDims := []
  startIndexMap := [0]
  indexVectorDim := 1
  sliceSizes := ![1, 16]
  wf := gather_S2000x16_S500000x1_S500000x16_1_0_n_n_0_1_116_wf
def gather_S10x4_S500000x1_S500000x4_1_0_n_n_0_1_14 : GatherDims S10x4 S500000x1 S500000x4 where
  offsetDims := [1]
  collapsedSliceDims := [0]
  operandBatchingDims := []
  startIndicesBatchingDims := []
  startIndexMap := [0]
  indexVectorDim := 1
  sliceSizes := ![1, 4]
  wf := gather_S10x4_S500000x1_S500000x4_1_0_n_n_0_1_14_wf
def dot_S500000x26_S26x128_S500000x128_1_0_0_1_n_n : DotDims S500000x26 S26x128 S500000x128 where
  lhsContracting := [1]
  rhsContracting := [0]
  lhsNonContracting := [0]
  rhsNonContracting := [1]
  lhsBatch := []
  rhsBatch := []
  wf := dot_S500000x26_S26x128_S500000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.K.Host.lean ====
/- The host stretches of @main between its four kernel regions, as lists of operations: for each stretch the
   references its operations write (every operation writes exactly its result buffer), that no operation
   allocates a buffer, and hence that a reference outside the written list keeps its contents through the
   stretch. No stretch writes an argument array. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write, in order. -/
abbrev main_part0_ops0_W : List (Ref sig .tc) := [main_c, main_c_0, main_c_1, main_v0, main_v1, main_c_2, main_v2, main_v3, main_v4, main_v5, main_v6, main_v7, main_v8, main_c_3, main_c_4]
/-- Each operation of `main_part0_ops0` writes its result buffer only, a member of `main_part0_ops0_W`. -/
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write, in order. -/
abbrev main_part0_ops1_W : List (Ref sig .tc) := [main_call0_v0, main_call0_v1, main_call0_v2, main_call0_v3, main_call0_v4, main_v9]
/-- Each operation of `main_part0_ops1` writes its result buffer only, a member of `main_part0_ops1_W`. -/
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part0_ops2` allocates a buffer. -/
theorem main_part0_ops2_fresh : (main_part0_ops2 : List (HloOp τ sig (Elt F))).Forall fun op => op.fresh = ∅ := by
  simp only [List.Forall]; repeat' constructor
/-- The references `main_part0_ops2`'s operations write, in order. -/
abbrev main_part0_ops2_W : List (Ref sig .tc) := [main_v10, main_v11, main_v12, main_v13, main_c_5, main_v14, main_v15, main_c_6, main_v16, main_v17, main_v18, main_v19, main_v20, main_v21, main_v22, main_v23, main_v24, main_c_7, main_v25, main_v26, main_c_8, main_v27, main_v28, main_v29, main_v30, main_v31, main_v32, main_v33, main_v34, main_v35, main_c_9, main_v36, main_v37, main_c_10, main_v38, main_v39, main_v40, main_v41, main_v42, main_v43, main_v44, main_v45, main_v46, main_c_11]
/-- Each operation of `main_part0_ops2` writes its result buffer only, a member of `main_part0_ops2_W`. -/
theorem main_part0_ops2_writes : (main_part0_ops2 : List (HloOp τ sig (Elt F))).Forall fun op => op.writes ⊆ (main_part0_ops2_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write, in order. -/
abbrev main_part1_ops0_W : List (Ref sig .tc) := [main_v47, main_v48, main_c_12, main_v49, main_v50, main_v51, main_v52, main_v53, main_v54, main_v55, main_v56, main_v57, main_c_13, main_v58, main_v59, main_c_14, main_v60, main_v61, main_v62, main_v63, main_v64, main_v65]
/-- Each operation of `main_part1_ops0` writes its result buffer only, a member of `main_part1_ops0_W`. -/
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops1` allocates a buffer. -/
theorem main_part1_ops1_fresh : (main_part1_ops1 : List (HloOp τ sig (Elt F))).Forall fun op => op.fresh = ∅ := by
  simp only [List.Forall]; repeat' constructor
/-- The references `main_part1_ops1`'s operations write, in order. -/
abbrev main_part1_ops1_W : List (Ref sig .tc) := [main_c_15, main_v67, main_v68, main_c_16, main_v69, main_v70, main_v71, main_v72, main_v73, main_v74, main_v75, main_v76, main_c_17, main_c_18]
/-- Each operation of `main_part1_ops1` writes its result buffer only, a member of `main_part1_ops1_W`. -/
theorem main_part1_ops1_writes : (main_part1_ops1 : List (HloOp τ sig (Elt F))).Forall fun op => op.writes ⊆ (main_part1_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops2` allocates a buffer. -/
theorem main_part1_ops2_fresh : (main_part1_ops2 : List (HloOp τ sig (Elt F))).Forall fun op => op.fresh = ∅ := by
  simp only [List.Forall]; repeat' constructor
/-- The references `main_part1_ops2`'s operations write, in order. -/
abbrev main_part1_ops2_W : List (Ref sig .tc) := [main_call1_v0, main_call1_v1, main_call1_v2, main_call1_v3, main_call1_v4, main_v77]
/-- Each operation of `main_part1_ops2` writes its result buffer only, a member of `main_part1_ops2_W`. -/
theorem main_part1_ops2_writes : (main_part1_ops2 : List (HloOp τ sig (Elt F))).Forall fun op => op.writes ⊆ (main_part1_ops2_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops3` allocates a buffer. -/
theorem main_part1_ops3_fresh : (main_part1_ops3 : List (HloOp τ sig (Elt F))).Forall fun op => op.fresh = ∅ := by
  simp only [List.Forall]; repeat' constructor
/-- The references `main_part1_ops3`'s operations write, in order. -/
abbrev main_part1_ops3_W : List (Ref sig .tc) := [main_v78, main_v79, main_v80, main_c_19, main_c_20]
/-- Each operation of `main_part1_ops3` writes its result buffer only, a member of `main_part1_ops3_W`. -/
theorem main_part1_ops3_writes : (main_part1_ops3 : List (HloOp τ sig (Elt F))).Forall fun op => op.writes ⊆ (main_part1_ops3_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops4` allocates a buffer. -/
theorem main_part1_ops4_fresh : (main_part1_ops4 : List (HloOp τ sig (Elt F))).Forall fun op => op.fresh = ∅ := by
  simp only [List.Forall]; repeat' constructor
/-- The references `main_part1_ops4`'s operations write, in order. -/
abbrev main_part1_ops4_W : List (Ref sig .tc) := [main_call2_v0, main_call2_v1, main_call2_v2, main_call2_v3, main_call2_v4, main_v81]
/-- Each operation of `main_part1_ops4` writes its result buffer only, a member of `main_part1_ops4_W`. -/
theorem main_part1_ops4_writes : (main_part1_ops4 : List (HloOp τ sig (Elt F))).Forall fun op => op.writes ⊆ (main_part1_ops4_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops5` allocates a buffer. -/
theorem main_part1_ops5_fresh : (main_part1_ops5 : List (HloOp τ sig (Elt F))).Forall fun op => op.fresh = ∅ := by
  simp only [List.Forall]; repeat' constructor
/-- The references `main_part1_ops5`'s operations write, in order. -/
abbrev main_part1_ops5_W : List (Ref sig .tc) := [main_c_21, main_v82, main_v83, main_c_22, main_v84, main_v85, main_v86, main_v87, main_v88, main_c_23, main_v89, main_v90, main_c_24, main_v91, main_v92, main_v93]
/-- Each operation of `main_part1_ops5` writes its result buffer only, a member of `main_part1_ops5_W`. -/
theorem main_part1_ops5_writes : (main_part1_ops5 : List (HloOp τ sig (Elt F))).Forall fun op => op.writes ⊆ (main_part1_ops5_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write, in order. -/
abbrev main_part2_ops0_W : List (Ref sig .tc) := [main_v94, main_v95, main_v96]
/-- Each operation of `main_part2_ops0` writes its result buffer only, a member of `main_part2_ops0_W`. -/
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part2_ops1` allocates a buffer. -/
theorem main_part2_ops1_fresh : (main_part2_ops1 : List (HloOp τ sig (Elt F))).Forall fun op => op.fresh = ∅ := by
  simp only [List.Forall]; repeat' constructor
/-- The references `main_part2_ops1`'s operations write, in order. -/
abbrev main_part2_ops1_W : List (Ref sig .tc) := [main_v98, main_v99, main_v100, main_v101, main_c_25, main_v102, main_v103, main_c_26, main_v104, main_v105, main_v106, main_v107, main_v108, main_cst, main_v109, main_v110, main_v111, main_cst_27, main_v112, main_cst_28, main_v113, main_v114, main_v115, main_cst_29, main_v116, main_v117, main_v118, main_v119, main_v120, main_v121, main_v122, main_v123, main_v124, main_c_30, main_v125, main_v126, main_c_31, main_v127, main_v128, main_v129, main_v130, main_v131, main_cst_32, main_v132, main_v133, main_v134, main_cst_33, main_v135, main_cst_34, main_v136, main_v137, main_v138, main_cst_35, main_v139, main_v140, main_v141]
/-- Each operation of `main_part2_ops1` writes its result buffer only, a member of `main_part2_ops1_W`. -/
theorem main_part2_ops1_writes : (main_part2_ops1 : List (HloOp τ sig (Elt F))).Forall fun op => op.writes ⊆ (main_part2_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write, in order. -/
abbrev main_part3_ops0_W : List (Ref sig .tc) := [main_v142, main_v143, main_v144, main_v145, main_v146, main_v147, main_c_36, main_v148, main_v149, main_c_37, main_v150, main_v151, main_v152, main_v153, main_v154, main_cst_38, main_v155, main_v156, main_v157, main_cst_39, main_v158, main_cst_40, main_v159, main_v160, main_v161, main_cst_41, main_v162, main_v163, main_v164, main_v165, main_v166, main_v167, main_v168, main_v169, main_v170, main_v171, main_v172]
/-- Each operation of `main_part3_ops0` writes its result buffer only, a member of `main_part3_ops0_W`. -/
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part3_ops1` allocates a buffer. -/
theorem main_part3_ops1_fresh : (main_part3_ops1 : List (HloOp τ sig (Elt F))).Forall fun op => op.fresh = ∅ := by
  simp only [List.Forall]; repeat' constructor
/-- The references `main_part3_ops1`'s operations write, in order. -/
abbrev main_part3_ops1_W : List (Ref sig .tc) := [main_v174, main_v175, main_v176, main_v177, main_c_42, main_v178, main_v179, main_c_43, main_v180, main_v181, main_v182, main_v183, main_v184, main_cst_44, main_v185, main_v186, main_v187, main_cst_45, main_v188, main_cst_46, main_v189, main_v190]
/-- Each operation of `main_part3_ops1` writes its result buffer only, a member of `main_part3_ops1_W`. -/
theorem main_part3_ops1_writes : (main_part3_ops1 : List (HloOp τ sig (Elt F))).Forall fun op => op.writes ⊆ (main_part3_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part4_ops0` allocates a buffer. -/
theorem main_part4_ops0_fresh : (main_part4_ops0 : List (HloOp τ sig (Elt F))).Forall fun op => op.fresh = ∅ := by
  simp only [List.Forall]; repeat' constructor
/-- The references `main_part4_ops0`'s operations write, in order. -/
abbrev main_part4_ops0_W : List (Ref sig .tc) := [main_v191, main_cst_47, main_v192, main_v193, main_v194, main_v195, main_v196, main_v197, main_v198, main_v199, main_v200, main_c_48, main_v201, main_v202, main_c_49, main_v203, main_v204, main_v205, main_v206, main_v207, main_cst_50, main_v208, main_v209, main_v210, main_cst_51, main_v211, main_cst_52, main_v212, main_v213, main_v214, main_cst_53, main_v215, main_v216, main_v217, main_v218, main_v219, main_v220, main_v221, main_v222, main_v223, main_v224, main_v225]
/-- Each operation of `main_part4_ops0` writes its result buffer only, a member of `main_part4_ops0_W`. -/
theorem main_part4_ops0_writes : (main_part4_ops0 : List (HloOp τ sig (Elt F))).Forall fun op => op.writes ⊆ (main_part4_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part4_ops1` allocates a buffer. -/
theorem main_part4_ops1_fresh : (main_part4_ops1 : List (HloOp τ sig (Elt F))).Forall fun op => op.fresh = ∅ := by
  simp only [List.Forall]; repeat' constructor
/-- The references `main_part4_ops1`'s operations write, in order. -/
abbrev main_part4_ops1_W : List (Ref sig .tc) := [main_cst_54, main_v227, main_v228, main_v229, main_cst_55, main_v230, main_cst_56, main_v231, main_v232, main_v233, main_cst_57, main_v234, main_v235, main_v236, main_v237, main_v238, main_v239]
/-- Each operation of `main_part4_ops1` writes its result buffer only, a member of `main_part4_ops1_W`. -/
theorem main_part4_ops1_writes : (main_part4_ops1 : List (HloOp τ sig (Elt F))).Forall fun op => op.writes ⊆ (main_part4_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part5_ops0` allocates a buffer. -/
theorem main_part5_ops0_fresh : (main_part5_ops0 : List (HloOp τ sig (Elt F))).Forall fun op => op.fresh = ∅ := by
  simp only [List.Forall]; repeat' constructor
/-- The references `main_part5_ops0`'s operations write, in order. -/
abbrev main_part5_ops0_W : List (Ref sig .tc) := [main_v240, main_v241, main_v242, main_v243]
/-- Each operation of `main_part5_ops0` writes its result buffer only, a member of `main_part5_ops0_W`. -/
theorem main_part5_ops0_writes : (main_part5_ops0 : List (HloOp τ sig (Elt F))).Forall fun op => op.writes ⊆ (main_part5_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.Hand

end
-- ==== Proof.K.Region0.lean ====
/- Region 0 of @main, the linear layer of one node type, at the buffer contents `V` the region is entered with.
   The grid walks the rows of the feature matrix in blocks of 2000. At a point the body reads the block `x` (2000×85),
   the whole weight `W` (128×85) and the whole bias `b` (128); it rounds `x` and `W` to bf16, multiplies `x` by the
   transpose of `W` accumulating in f32 from zero, adds `b` along the rows, and stores the 2000×128 result over the
   whole output block. The weight and the bias have a constant block index: they are transferred at the first point only,
   and at every later point their buffers still hold what was read there, because the body writes only the output's.
   Here: each window's block at a point (`iblk0`), what the body leaves in the output's buffer as a function of the
   three blocks read (`out0_3`), the body's triple (`sound_kernel0`), the pipeline's proof data (`dat0`) and the
   body obligation at every point (`body_obligation0`). Every statement is at any float model `F`. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, transferred there or not, for ANY proof data whose
    array is `V`'s (`hA`) and whose body leaves the block in place (`hafter`): where no transfer happens the block index
    has not moved since the last one, so the block is the same; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, transferred there or not, for ANY proof data whose
    array is `V`'s (`hA`) and whose body leaves the block in place (`hafter`): where no transfer happens the block index
    has not moved since the last one, so the block is the same; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, transferred there or not, for ANY proof data whose
    array is `V`'s (`hA`) and whose body leaves the block in place (`hafter`): where no transfer happens the block index
    has not moved since the last one, so the block is the same; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x85 := Rect.unit (s := S2000x85) ![0, 0] S2000x85.size inb_S2000x85_S2000x85_0_0
abbrev r0_1 : Rect S128x85 := Rect.unit (s := S128x85) ![0, 0] S128x85.size inb_S128x85_S128x85_0_0
abbrev r0_2 : Rect S128 := Rect.unit (s := S128) ![0] S128.size inb_S128_S128_0
abbrev r0_3 : Rect S2000x128 := Rect.unit (s := S2000x128) ![0, 0] S2000x128.size inb_S2000x128_S2000x128_0_0

/-! ## What the body leaves in the output window's buffer -/

/-- The output's buffer after the body, from the three blocks read: one store, of `x·Wᵀ + b` (bf16 operands, f32
    accumulation: the payload `k0_pay1`), over the whole buffer. What the buffer held before does not enter. -/
def out0_3 (x0 : Vec F S2000x85 .f32) (x1 : Vec F S128x85 .f32) (x2 : Vec F S128 .f32) : Vec F S2000x128 .f32 :=
  View.canon [⟨r0_3, k0_pay1 (View.ld x0 r0_0) (View.ld x1 r0_1) (View.ld x2 r0_2)⟩]

/-- The one store is of the whole buffer, so it covers every cell (the rectangle's extent is the buffer's, by evaluation). -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole buffers — the inputs' holding `x0`, `x1`, `x2`, the output's holding anything — runs to the
    continuation with the inputs' as they were and the output's at `out0_3 x0 x1 x2`. The body is its four loads (the
    fourth, of the output's buffer, is never used) and one store; the store overwrites every cell, so the buffer ends as
    the pieces' canonical reading. -/
theorem sound_kernel0 (c : Dev nD) (E : Set ℕ) (i : grid0.Coords) (arg1 : Memref sig .tc .vmem S2000x85 .f32) (harg1 : arg1.IsWhole) (arg2 : Memref sig .tc .vmem S128x85 .f32) (harg2 : arg2.IsWhole) (arg3 : Memref sig .tc .vmem S128 .f32) (harg3 : arg3.IsWhole) (arg4 : Memref sig .tc .vmem S2000x128 .f32) (harg4 : arg4.IsWhole)
    (x0 : Vec F S2000x85 .f32) (x1 : Vec F S128x85 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current buffer at what
    the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks (`before0_j`), so `sound_kernel0` applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main, the linear layer of one node type, at the buffer contents `V` the region is entered with.
   The grid walks the rows of the feature matrix in blocks of 2000. At a point the body reads the block `x` (2000×26),
   the whole weight `W` (128×26) and the whole bias `b` (128); it rounds `x` and `W` to bf16, multiplies `x` by the
   transpose of `W` accumulating in f32 from zero, adds `b` along the rows, and stores the 2000×128 result over the
   whole output block. The weight and the bias have a constant block index: they are transferred at the first point only,
   and at every later point their buffers still hold what was read there, because the body writes only the output's.
   Here: each window's block at a point (`iblk1`), what the body leaves in the output's buffer as a function of the
   three blocks read (`out1_3`), the body's triple (`sound_kernel1`), the pipeline's proof data (`dat1`) and the
   body obligation at every point (`body_obligation1`). Every statement is at any float model `F`. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, transferred there or not, for ANY proof data whose
    array is `V`'s (`hA`) and whose body leaves the block in place (`hafter`): where no transfer happens the block index
    has not moved since the last one, so the block is the same; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, transferred there or not, for ANY proof data whose
    array is `V`'s (`hA`) and whose body leaves the block in place (`hafter`): where no transfer happens the block index
    has not moved since the last one, so the block is the same; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, transferred there or not, for ANY proof data whose
    array is `V`'s (`hA`) and whose body leaves the block in place (`hafter`): where no transfer happens the block index
    has not moved since the last one, so the block is the same; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S2000x26 := Rect.unit (s := S2000x26) ![0, 0] S2000x26.size inb_S2000x26_S2000x26_0_0
abbrev r1_1 : Rect S128x26 := Rect.unit (s := S128x26) ![0, 0] S128x26.size inb_S128x26_S128x26_0_0
abbrev r1_2 : Rect S128 := Rect.unit (s := S128) ![0] S128.size inb_S128_S128_0
abbrev r1_3 : Rect S2000x128 := Rect.unit (s := S2000x128) ![0, 0] S2000x128.size inb_S2000x128_S2000x128_0_0

/-! ## What the body leaves in the output window's buffer -/

/-- The output's buffer after the body, from the three blocks read: one store, of `x·Wᵀ + b` (bf16 operands, f32
    accumulation: the payload `k1_pay1`), over the whole buffer. What the buffer held before does not enter. -/
def out1_3 (x0 : Vec F S2000x26 .f32) (x1 : Vec F S128x26 .f32) (x2 : Vec F S128 .f32) : Vec F S2000x128 .f32 :=
  View.canon [⟨r1_3, k1_pay1 (View.ld x0 r1_0) (View.ld x1 r1_1) (View.ld x2 r1_2)⟩]

/-- The one store is of the whole buffer, so it covers every cell (the rectangle's extent is the buffer's, by evaluation). -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole buffers — the inputs' holding `x0`, `x1`, `x2`, the output's holding anything — runs to the
    continuation with the inputs' as they were and the output's at `out1_3 x0 x1 x2`. The body is its four loads (the
    fourth, of the output's buffer, is never used) and one store; the store overwrites every cell, so the buffer ends as
    the pieces' canonical reading. -/
theorem sound_kernel1 (c : Dev nD) (E : Set ℕ) (i : grid1.Coords) (arg1 : Memref sig .tc .vmem S2000x26 .f32) (harg1 : arg1.IsWhole) (arg2 : Memref sig .tc .vmem S128x26 .f32) (harg2 : arg2.IsWhole) (arg3 : Memref sig .tc .vmem S128 .f32) (harg3 : arg3.IsWhole) (arg4 : Memref sig .tc .vmem S2000x128 .f32) (harg4 : arg4.IsWhole)
    (x0 : Vec F S2000x26 .f32) (x1 : Vec F S128x26 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the three input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current buffer holds its block at every point, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current buffer at what
    the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_j`), so `sound_kernel1` applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- Region 2 of the program (the pallas_call running `cc2__sage_combine_kernel`), its class-A half at a parameter `V`,
   the TensorCore's buffer contents when the region is entered. The body reads its seven input windows' staging
   buffers whole, computes, and overwrites the output window's staging buffer with ONE whole-block store; it keeps
   nothing from point to point. So what it leaves in the output buffer is a closed function of the seven input blocks
   at the point (`out2_7`: the store's payload laid over the block), and what it finds in an input buffer is that
   window's block at the point, whether the pipeline fetched it there or (the three windows whose block index is
   constant over the grid) only at the first point. From these: the body's triple on whole staging memrefs
   (`sound_kernel2`), the pipeline's proof data (`dat2`: the arrays as entered, each input's buffer left at its
   block, the output's at `out2_7` of the input blocks, the class's invariant, nothing owed, full shares) and the
   body obligation at every grid point (`body_obligation2`). Everything is generic in the float operations `F`. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved, and the buffer still holds the previous point's block, which is this point's; the window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the block index
    has not moved, and the buffer still holds the previous point's block, which is this point's; the window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the block index
    has not moved, and the buffer still holds the previous point's block, which is this point's; the window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the block index
    has not moved, and the buffer still holds the previous point's block, which is this point's; the window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the block index
    has not moved, and the buffer still holds the previous point's block, which is this point's; the window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): unfetched, the block index
    has not moved, and the buffer still holds the previous point's block, which is this point's; the window is uncut
    and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): unfetched, the block index
    has not moved, and the buffer still holds the previous point's block, which is this point's; the window is uncut
    and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S3x128x128 := Rect.unit (s := S3x128x128) ![0, 0, 0] S3x128x128.size inb_S3x128x128_S3x128x128_0_0_0
abbrev r2_2 : Rect S3x128 := Rect.unit (s := S3x128) ![0, 0] S3x128.size inb_S3x128_S3x128_0_0

/-! ## What the body leaves in the output window's buffer -/

/-- Window 7's staging buffer after the body, from the input windows' blocks: its one store as a piece, the payload
    the combination of the eight values the first part of the body hands on, each a function of the blocks it loads
    (window 5's block is loaded after window 6's). -/
def out2_7 (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) : Vec F S2000x128 .f32 :=
  View.canon [⟨r2_0, k2_pay1 (k2_pay2 (View.ld x2 r2_0)) (k2_pay3 (View.ld x3 r2_0)) (k2_pay4 (View.ld x4 r2_1)) (k2_pay5 (View.ld x6 r2_1)) (k2_pay6 (View.ld x5 r2_2))
    (k2_pay7 (View.ld x0 r2_0) (View.ld x3 r2_0) (View.ld x4 r2_1) (View.ld x6 r2_1) (View.ld x5 r2_2)) (k2_pay8 (View.ld x6 r2_1)) (k2_pay9 (View.ld x1 r2_0) (View.ld x4 r2_1))⟩]

/-- The one store is of the whole block (checked by evaluation), so it covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The kernel body on whole staging memrefs, the inputs' at read contents `xW` and the output's at anything, runs to
    the continuation holding the inputs' as they were and the output's at `out2_7` of the inputs': the printed
    functions are their skeletons, run load by load through the part call; the output buffer's one load before the
    store reads a value nothing uses, and the store then overwrites the whole buffer. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__sage_combine_kernel i arg0 harg0 arg1 harg1 arg2 harg2 arg3 harg3 arg4 harg4 arg5 harg5 arg6 harg6 arg7 harg7) K := by
  simp only [cc2__sage_combine_kernel_eq_skeleton]; unfold cc2__sage_combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them (`V`); after the body at point `t`
    each input's buffer at its block and the output's at `out2_7` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/- Region 3 of the program (the pallas_call running `cc3__sage_combine_kernel`), its class-A half at a parameter `V`,
   the TensorCore's buffer contents when the region is entered. The body reads its seven input windows' staging
   buffers whole, computes, and overwrites the output window's staging buffer with ONE whole-block store; it keeps
   nothing from point to point. So what it leaves in the output buffer is a closed function of the seven input blocks
   at the point (`out3_7`: the store's payload laid over the block), and what it finds in an input buffer is that
   window's block at the point, whether the pipeline fetched it there or (the three windows whose block index is
   constant over the grid) only at the first point. From these: the body's triple on whole staging memrefs
   (`sound_kernel3`), the pipeline's proof data (`dat3`: the arrays as entered, each input's buffer left at its
   block, the output's at `out3_7` of the input blocks, the class's invariant, nothing owed, full shares) and the
   body obligation at every grid point (`body_obligation3`). Everything is generic in the float operations `F`. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved, and the buffer still holds the previous point's block, which is this point's; the window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): unfetched, the block index
    has not moved, and the buffer still holds the previous point's block, which is this point's; the window is uncut
    and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): unfetched, the block index
    has not moved, and the buffer still holds the previous point's block, which is this point's; the window is uncut
    and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): unfetched, the block index
    has not moved, and the buffer still holds the previous point's block, which is this point's; the window is uncut
    and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): unfetched, the block index
    has not moved, and the buffer still holds the previous point's block, which is this point's; the window is uncut
    and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): unfetched, the block index
    has not moved, and the buffer still holds the previous point's block, which is this point's; the window is uncut
    and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): unfetched, the block index
    has not moved, and the buffer still holds the previous point's block, which is this point's; the window is uncut
    and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S3x128x128 := Rect.unit (s := S3x128x128) ![0, 0, 0] S3x128x128.size inb_S3x128x128_S3x128x128_0_0_0
abbrev r3_2 : Rect S3x128 := Rect.unit (s := S3x128) ![0, 0] S3x128.size inb_S3x128_S3x128_0_0

/-! ## What the body leaves in the output window's buffer -/

/-- Window 7's staging buffer after the body, from the input windows' blocks: its one store as a piece, the payload
    the combination of the eight values the first part of the body hands on, each a function of the blocks it loads
    (window 5's block is loaded after window 6's). -/
def out3_7 (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) : Vec F S2000x128 .f32 :=
  View.canon [⟨r3_0, k3_pay1 (k3_pay2 (View.ld x2 r3_0)) (k3_pay3 (View.ld x3 r3_0)) (k3_pay4 (View.ld x4 r3_1)) (k3_pay5 (View.ld x6 r3_1)) (k3_pay6 (View.ld x5 r3_2))
    (k3_pay7 (View.ld x0 r3_0) (View.ld x3 r3_0) (View.ld x4 r3_1) (View.ld x6 r3_1) (View.ld x5 r3_2)) (k3_pay8 (View.ld x6 r3_1)) (k3_pay9 (View.ld x1 r3_0) (View.ld x4 r3_1))⟩]

/-- The one store is of the whole block (checked by evaluation), so it covers the buffer. -/
theorem cover3_7 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 4000000 in
/-- The kernel body on whole staging memrefs, the inputs' at read contents `xW` and the output's at anything, runs to
    the continuation holding the inputs' as they were and the output's at `out3_7` of the inputs': the printed
    functions are their skeletons, run load by load through the part call; the output buffer's one load before the
    store reads a value nothing uses, and the store then overwrites the whole buffer. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__sage_combine_kernel i arg0 harg0 arg1 harg1 arg2 harg2 arg3 harg3 arg4 harg4 arg5 harg5 arg6 harg6 arg7 harg7) K := by
  simp only [cc3__sage_combine_kernel_eq_skeleton]; unfold cc3__sage_combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the class's (the
    scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Bounds.lean ====
/- The buffer contents of a TensorCore at each of the twenty-one boundaries of @main's twenty items (sixteen host
   stretches and four kernel regions), as a fold from the launch memory: a host stretch rewrites the buffers its
   operations write and leaves the rest; a region leaves each of its windows' arrays at what its pipeline's
   write-backs make of it (an input array as entered) and every other buffer as entered. For each item, the
   statement that a buffer it does not write holds after it what it held before; and, from these, that every
   argument array holds at the last boundary what the launch memory holds. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import proofs.«111184_j68341519614847_1_alg».proof.Proof.K.Host
import proofs.«111184_j68341519614847_1_alg».proof.Proof.K.Region0
import proofs.«111184_j68341519614847_1_alg».proof.Proof.K.Region1
import proofs.«111184_j68341519614847_1_alg».proof.Proof.K.Region2
import proofs.«111184_j68341519614847_1_alg».proof.Proof.K.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After item 0, the host stretch `main_part0_ops0`. -/
abbrev W1 : Dev nD → Valuation τ sig (Elt F) := fun c => StableHlo.after main_part0_ops0 (W0 m ρ c)
/-- The stretch leaves a buffer none of its operations writes as it found it. -/
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-- After item 1, the host stretch `main_part0_ops1`. -/
abbrev W2 : Dev nD → Valuation τ sig (Elt F) := fun c => StableHlo.after main_part0_ops1 (W1 m ρ c)
/-- The stretch leaves a buffer none of its operations writes as it found it. -/
theorem W2_of (c : Dev nD) (r : Ref sig .tc) (h : r ∉ main_part0_ops1_W) :
    W2 m ρ c (Proc.devRef .tc r) = W1 m ρ c (Proc.devRef .tc r) :=
  StableHlo.after_of_writes_sub main_part0_ops1 _ main_part0_ops1_writes h

/-- After item 2, the host stretch `main_part0_ops2`. -/
abbrev W3 : Dev nD → Valuation τ sig (Elt F) := fun c => StableHlo.after main_part0_ops2 (W2 m ρ c)
/-- The stretch leaves a buffer none of its operations writes as it found it. -/
theorem W3_of (c : Dev nD) (r : Ref sig .tc) (h : r ∉ main_part0_ops2_W) :
    W3 m ρ c (Proc.devRef .tc r) = W2 m ρ c (Proc.devRef .tc r) :=
  StableHlo.after_of_writes_sub main_part0_ops2 _ main_part0_ops2_writes h

/-- After item 3, the host stretch `main_part1_ops0`. -/
abbrev W4 : Dev nD → Valuation τ sig (Elt F) := fun c => StableHlo.after main_part1_ops0 (W3 m ρ c)
/-- The stretch leaves a buffer none of its operations writes as it found it. -/
theorem W4_of (c : Dev nD) (r : Ref sig .tc) (h : r ∉ main_part1_ops0_W) :
    W4 m ρ c (Proc.devRef .tc r) = W3 m ρ c (Proc.devRef .tc r) :=
  StableHlo.after_of_writes_sub main_part1_ops0 _ main_part1_ops0_writes h

/-- The contents region 0 is entered from, read at the TensorCore's references. -/
abbrev V4 : (c : Dev nD) → (b : Ref sig .tc) → Buf (Elt F) ((c : Thread nD τ).loc b) := fun c b => W4 m ρ c b
/-- After item 4, region 0: its arrays at what the pipeline leaves (an input as entered, the output's write-backs
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The arrays of region 0's windows, in window order. -/
abbrev region0_W : List (Ref sig .tc) := [main_v65, main_arg9, main_arg10, main_v66]
/-- The region leaves a buffer that is none of its windows' arrays as it found it. -/
theorem W5_of (c : Dev nD) (r : Ref sig .tc) (h : r ∉ region0_W) :
    W5 m ρ c (Proc.devRef .tc r) = W4 m ρ c (Proc.devRef .tc r) :=
  W5_of_ne m ρ c r (by
    intro w e; subst e; revert w; decide)
/-- An input window's array is left as entered. -/
theorem W5_in (c : Dev nD) (w : Fin cfg0.W) (hw : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hw _).trans (A_eq0 (V4 m ρ) c w))
/-- The contents region 0 is left at, read at the TensorCore's references. -/
abbrev V5 : (c : Dev nD) → (b : Ref sig .tc) → Buf (Elt F) ((c : Thread nD τ).loc b) := fun c b => W5 m ρ c b
/-- At region 0's exit each of its arrays holds what the pipeline leaves and every other buffer what it held at
    entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After item 5, the host stretch `main_part1_ops1`. -/
abbrev W6 : Dev nD → Valuation τ sig (Elt F) := fun c => StableHlo.after main_part1_ops1 (W5 m ρ c)
/-- The stretch leaves a buffer none of its operations writes as it found it. -/
theorem W6_of (c : Dev nD) (r : Ref sig .tc) (h : r ∉ main_part1_ops1_W) :
    W6 m ρ c (Proc.devRef .tc r) = W5 m ρ c (Proc.devRef .tc r) :=
  StableHlo.after_of_writes_sub main_part1_ops1 _ main_part1_ops1_writes h

/-- After item 6, the host stretch `main_part1_ops2`. -/
abbrev W7 : Dev nD → Valuation τ sig (Elt F) := fun c => StableHlo.after main_part1_ops2 (W6 m ρ c)
/-- The stretch leaves a buffer none of its operations writes as it found it. -/
theorem W7_of (c : Dev nD) (r : Ref sig .tc) (h : r ∉ main_part1_ops2_W) :
    W7 m ρ c (Proc.devRef .tc r) = W6 m ρ c (Proc.devRef .tc r) :=
  StableHlo.after_of_writes_sub main_part1_ops2 _ main_part1_ops2_writes h

/-- After item 7, the host stretch `main_part1_ops3`. -/
abbrev W8 : Dev nD → Valuation τ sig (Elt F) := fun c => StableHlo.after main_part1_ops3 (W7 m ρ c)
/-- The stretch leaves a buffer none of its operations writes as it found it. -/
theorem W8_of (c : Dev nD) (r : Ref sig .tc) (h : r ∉ main_part1_ops3_W) :
    W8 m ρ c (Proc.devRef .tc r) = W7 m ρ c (Proc.devRef .tc r) :=
  StableHlo.after_of_writes_sub main_part1_ops3 _ main_part1_ops3_writes h

/-- After item 8, the host stretch `main_part1_ops4`. -/
abbrev W9 : Dev nD → Valuation τ sig (Elt F) := fun c => StableHlo.after main_part1_ops4 (W8 m ρ c)
/-- The stretch leaves a buffer none of its operations writes as it found it. -/
theorem W9_of (c : Dev nD) (r : Ref sig .tc) (h : r ∉ main_part1_ops4_W) :
    W9 m ρ c (Proc.devRef .tc r) = W8 m ρ c (Proc.devRef .tc r) :=
  StableHlo.after_of_writes_sub main_part1_ops4 _ main_part1_ops4_writes h

/-- After item 9, the host stretch `main_part1_ops5`. -/
abbrev W10 : Dev nD → Valuation τ sig (Elt F) := fun c => StableHlo.after main_part1_ops5 (W9 m ρ c)
/-- The stretch leaves a buffer none of its operations writes as it found it. -/
theorem W10_of (c : Dev nD) (r : Ref sig .tc) (h : r ∉ main_part1_ops5_W) :
    W10 m ρ c (Proc.devRef .tc r) = W9 m ρ c (Proc.devRef .tc r) :=
  StableHlo.after_of_writes_sub main_part1_ops5 _ main_part1_ops5_writes h

/-- After item 10, the host stretch `main_part2_ops0`. -/
abbrev W11 : Dev nD → Valuation τ sig (Elt F) := fun c => StableHlo.after main_part2_ops0 (W10 m ρ c)
/-- The stretch leaves a buffer none of its operations writes as it found it. -/
theorem W11_of (c : Dev nD) (r : Ref sig .tc) (h : r ∉ main_part2_ops0_W) :
    W11 m ρ c (Proc.devRef .tc r) = W10 m ρ c (Proc.devRef .tc r) :=
  StableHlo.after_of_writes_sub main_part2_ops0 _ main_part2_ops0_writes h

/-- The contents region 1 is entered from, read at the TensorCore's references. -/
abbrev V11 : (c : Dev nD) → (b : Ref sig .tc) → Buf (Elt F) ((c : Thread nD τ).loc b) := fun c b => W11 m ρ c b
/-- After item 11, region 1: its arrays at what the pipeline leaves (an input as entered, the output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The arrays of region 1's windows, in window order. -/
abbrev region1_W : List (Ref sig .tc) := [main_v96, main_arg11, main_arg12, main_v97]
/-- The region leaves a buffer that is none of its windows' arrays as it found it. -/
theorem W12_of (c : Dev nD) (r : Ref sig .tc) (h : r ∉ region1_W) :
    W12 m ρ c (Proc.devRef .tc r) = W11 m ρ c (Proc.devRef .tc r) :=
  W12_of_ne m ρ c r (by
    intro w e; subst e; revert w; decide)
/-- An input window's array is left as entered. -/
theorem W12_in (c : Dev nD) (w : Fin cfg1.W) (hw : (cfg1.win w).isOut = false) :
    W12 m ρ c (Proc.devRef .tc (Pipeline.arrRef spec1 w)) = W11 m ρ c (Proc.devRef .tc (Pipeline.arrRef spec1 w)) :=
  (W12_arr m ρ c w).trans (((dat1 (V11 m ρ) c).arrAt_in w hw _).trans (A_eq1 (V11 m ρ) c w))
/-- The contents region 1 is left at, read at the TensorCore's references. -/
abbrev V12 : (c : Dev nD) → (b : Ref sig .tc) → Buf (Elt F) ((c : Thread nD τ).loc b) := fun c b => W12 m ρ c b
/-- At region 1's exit each of its arrays holds what the pipeline leaves and every other buffer what it held at
    entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After item 12, the host stretch `main_part2_ops1`. -/
abbrev W13 : Dev nD → Valuation τ sig (Elt F) := fun c => StableHlo.after main_part2_ops1 (W12 m ρ c)
/-- The stretch leaves a buffer none of its operations writes as it found it. -/
theorem W13_of (c : Dev nD) (r : Ref sig .tc) (h : r ∉ main_part2_ops1_W) :
    W13 m ρ c (Proc.devRef .tc r) = W12 m ρ c (Proc.devRef .tc r) :=
  StableHlo.after_of_writes_sub main_part2_ops1 _ main_part2_ops1_writes h

/-- After item 13, the host stretch `main_part3_ops0`. -/
abbrev W14 : Dev nD → Valuation τ sig (Elt F) := fun c => StableHlo.after main_part3_ops0 (W13 m ρ c)
/-- The stretch leaves a buffer none of its operations writes as it found it. -/
theorem W14_of (c : Dev nD) (r : Ref sig .tc) (h : r ∉ main_part3_ops0_W) :
    W14 m ρ c (Proc.devRef .tc r) = W13 m ρ c (Proc.devRef .tc r) :=
  StableHlo.after_of_writes_sub main_part3_ops0 _ main_part3_ops0_writes h

/-- The contents region 2 is entered from, read at the TensorCore's references. -/
abbrev V14 : (c : Dev nD) → (b : Ref sig .tc) → Buf (Elt F) ((c : Thread nD τ).loc b) := fun c b => W14 m ρ c b
/-- After item 14, region 2: its arrays at what the pipeline leaves (an input as entered, the output's write-backs
    folded), every other buffer as entered. -/
def W15 (c : Dev nD) : Valuation τ sig (Elt F) :=
  Pipeline.withArrays spec2 c (W14 m ρ c) fun w => (dat2 (V14 m ρ) c).arrAt w cfg2.N
theorem W15_arr (c : Dev nD) (w : Fin cfg2.W) :
    W15 m ρ c (Proc.devRef .tc (Pipeline.arrRef spec2 w)) = (dat2 (V14 m ρ) c).arrAt w cfg2.N := by
  unfold W15; exact Pipeline.withArrays_arr spec2 launch2.win.arr_inj c _ _ w
theorem W15_of_ne (c : Dev nD) (b : Ref sig .tc) (hb : ∀ w, Pipeline.arrRef spec2 w ≠ b) :
    W15 m ρ c (Proc.devRef .tc b) = W14 m ρ c (Proc.devRef .tc b) := by
  unfold W15; exact Pipeline.withArrays_of_ne spec2 c _ _ b hb
/-- The arrays of region 2's windows, in window order. -/
abbrev region2_W : List (Ref sig .tc) := [main_v143, main_v166, main_v120, main_v66, main_v168, main_v170, main_v172, main_v173]
/-- The region leaves a buffer that is none of its windows' arrays as it found it. -/
theorem W15_of (c : Dev nD) (r : Ref sig .tc) (h : r ∉ region2_W) :
    W15 m ρ c (Proc.devRef .tc r) = W14 m ρ c (Proc.devRef .tc r) :=
  W15_of_ne m ρ c r (by
    intro w e; subst e; revert w; decide)
/-- An input window's array is left as entered. -/
theorem W15_in (c : Dev nD) (w : Fin cfg2.W) (hw : (cfg2.win w).isOut = false) :
    W15 m ρ c (Proc.devRef .tc (Pipeline.arrRef spec2 w)) = W14 m ρ c (Proc.devRef .tc (Pipeline.arrRef spec2 w)) :=
  (W15_arr m ρ c w).trans (((dat2 (V14 m ρ) c).arrAt_in w hw _).trans (A_eq2 (V14 m ρ) c w))
/-- The contents region 2 is left at, read at the TensorCore's references. -/
abbrev V15 : (c : Dev nD) → (b : Ref sig .tc) → Buf (Elt F) ((c : Thread nD τ).loc b) := fun c b => W15 m ρ c b
/-- At region 2's exit each of its arrays holds what the pipeline leaves and every other buffer what it held at
    entry. -/
theorem hF2 (c : Dev nD) (w : Fin cfg2.W) : (dat2 (V14 m ρ) c).arrAt w cfg2.N = V15 m ρ c (Pipeline.arrRef spec2 w) :=
  (W15_arr m ρ c w).symm
theorem hrest2 (c : Dev nD) : ∀ b, b ∉ Finset.univ.image (Pipeline.arrRef spec2) → V15 m ρ c b = V14 m ρ c b :=
  fun b hb => W15_of_ne m ρ c b fun w e => hb (Finset.mem_image.mpr ⟨w, Finset.mem_univ _, e⟩)

/-- After item 15, the host stretch `main_part3_ops1`. -/
abbrev W16 : Dev nD → Valuation τ sig (Elt F) := fun c => StableHlo.after main_part3_ops1 (W15 m ρ c)
/-- The stretch leaves a buffer none of its operations writes as it found it. -/
theorem W16_of (c : Dev nD) (r : Ref sig .tc) (h : r ∉ main_part3_ops1_W) :
    W16 m ρ c (Proc.devRef .tc r) = W15 m ρ c (Proc.devRef .tc r) :=
  StableHlo.after_of_writes_sub main_part3_ops1 _ main_part3_ops1_writes h

/-- After item 16, the host stretch `main_part4_ops0`. -/
abbrev W17 : Dev nD → Valuation τ sig (Elt F) := fun c => StableHlo.after main_part4_ops0 (W16 m ρ c)
/-- The stretch leaves a buffer none of its operations writes as it found it. -/
theorem W17_of (c : Dev nD) (r : Ref sig .tc) (h : r ∉ main_part4_ops0_W) :
    W17 m ρ c (Proc.devRef .tc r) = W16 m ρ c (Proc.devRef .tc r) :=
  StableHlo.after_of_writes_sub main_part4_ops0 _ main_part4_ops0_writes h

/-- The contents region 3 is entered from, read at the TensorCore's references. -/
abbrev V17 : (c : Dev nD) → (b : Ref sig .tc) → Buf (Elt F) ((c : Thread nD τ).loc b) := fun c b => W17 m ρ c b
/-- After item 17, region 3: its arrays at what the pipeline leaves (an input as entered, the output's write-backs
    folded), every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- The arrays of region 3's windows, in window order. -/
abbrev region3_W : List (Ref sig .tc) := [main_v196, main_v219, main_v120, main_v173, main_v221, main_v223, main_v225, main_v226]
/-- The region leaves a buffer that is none of its windows' arrays as it found it. -/
theorem W18_of (c : Dev nD) (r : Ref sig .tc) (h : r ∉ region3_W) :
    W18 m ρ c (Proc.devRef .tc r) = W17 m ρ c (Proc.devRef .tc r) :=
  W18_of_ne m ρ c r (by
    intro w e; subst e; revert w; decide)
/-- An input window's array is left as entered. -/
theorem W18_in (c : Dev nD) (w : Fin cfg3.W) (hw : (cfg3.win w).isOut = false) :
    W18 m ρ c (Proc.devRef .tc (Pipeline.arrRef spec3 w)) = W17 m ρ c (Proc.devRef .tc (Pipeline.arrRef spec3 w)) :=
  (W18_arr m ρ c w).trans (((dat3 (V17 m ρ) c).arrAt_in w hw _).trans (A_eq3 (V17 m ρ) c w))
/-- The contents region 3 is left at, read at the TensorCore's references. -/
abbrev V18 : (c : Dev nD) → (b : Ref sig .tc) → Buf (Elt F) ((c : Thread nD τ).loc b) := fun c b => W18 m ρ c b
/-- At region 3's exit each of its arrays holds what the pipeline leaves and every other buffer what it held at
    entry. -/
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After item 18, the host stretch `main_part4_ops1`. -/
abbrev W19 : Dev nD → Valuation τ sig (Elt F) := fun c => StableHlo.after main_part4_ops1 (W18 m ρ c)
/-- The stretch leaves a buffer none of its operations writes as it found it. -/
theorem W19_of (c : Dev nD) (r : Ref sig .tc) (h : r ∉ main_part4_ops1_W) :
    W19 m ρ c (Proc.devRef .tc r) = W18 m ρ c (Proc.devRef .tc r) :=
  StableHlo.after_of_writes_sub main_part4_ops1 _ main_part4_ops1_writes h

/-- After item 19, the host stretch `main_part5_ops0`. -/
abbrev W20 : Dev nD → Valuation τ sig (Elt F) := fun c => StableHlo.after main_part5_ops0 (W19 m ρ c)
/-- The stretch leaves a buffer none of its operations writes as it found it. -/
theorem W20_of (c : Dev nD) (r : Ref sig .tc) (h : r ∉ main_part5_ops0_W) :
    W20 m ρ c (Proc.devRef .tc r) = W19 m ρ c (Proc.devRef .tc r) :=
  StableHlo.after_of_writes_sub main_part5_ops0 _ main_part5_ops0_writes h

/-! ## The arguments end as launched

No host operation writes an argument array; a region reads one through an input window or does not touch it. -/

theorem W20_main_arg0 (c : Dev nD) : W20 m ρ c (Proc.devRef .tc main_arg0) = m ((c : Thread nD τ).loc main_arg0) :=
  (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl

theorem W20_main_arg1 (c : Dev nD) : W20 m ρ c (Proc.devRef .tc main_arg1) = m ((c : Thread nD τ).loc main_arg1) :=
  (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl

theorem W20_main_arg2 (c : Dev nD) : W20 m ρ c (Proc.devRef .tc main_arg2) = m ((c : Thread nD τ).loc main_arg2) :=
  (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl

theorem W20_main_arg3 (c : Dev nD) : W20 m ρ c (Proc.devRef .tc main_arg3) = m ((c : Thread nD τ).loc main_arg3) :=
  (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl

theorem W20_main_arg4 (c : Dev nD) : W20 m ρ c (Proc.devRef .tc main_arg4) = m ((c : Thread nD τ).loc main_arg4) :=
  (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

theorem W20_main_arg5 (c : Dev nD) : W20 m ρ c (Proc.devRef .tc main_arg5) = m ((c : Thread nD τ).loc main_arg5) :=
  (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl

theorem W20_main_arg6 (c : Dev nD) : W20 m ρ c (Proc.devRef .tc main_arg6) = m ((c : Thread nD τ).loc main_arg6) :=
  (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl

theorem W20_main_arg7 (c : Dev nD) : W20 m ρ c (Proc.devRef .tc main_arg7) = m ((c : Thread nD τ).loc main_arg7) :=
  (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl

theorem W20_main_arg8 (c : Dev nD) : W20 m ρ c (Proc.devRef .tc main_arg8) = m ((c : Thread nD τ).loc main_arg8) :=
  (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl

theorem W20_main_arg9 (c : Dev nD) : W20 m ρ c (Proc.devRef .tc main_arg9) = m ((c : Thread nD τ).loc main_arg9) :=
  (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_in m ρ c 1 rfl).trans <| (W4_of m ρ c main_arg9 (by decide)).trans <| (W3_of m ρ c main_arg9 (by decide)).trans <| (W2_of m ρ c main_arg9 (by decide)).trans <| (W1_of m ρ c main_arg9 (by decide)).trans <| rfl

theorem W20_main_arg10 (c : Dev nD) : W20 m ρ c (Proc.devRef .tc main_arg10) = m ((c : Thread nD τ).loc main_arg10) :=
  (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_in m ρ c 2 rfl).trans <| (W4_of m ρ c main_arg10 (by decide)).trans <| (W3_of m ρ c main_arg10 (by decide)).trans <| (W2_of m ρ c main_arg10 (by decide)).trans <| (W1_of m ρ c main_arg10 (by decide)).trans <| rfl

theorem W20_main_arg11 (c : Dev nD) : W20 m ρ c (Proc.devRef .tc main_arg11) = m ((c : Thread nD τ).loc main_arg11) :=
  (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_in m ρ c 1 rfl).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl

theorem W20_main_arg12 (c : Dev nD) : W20 m ρ c (Proc.devRef .tc main_arg12) = m ((c : Thread nD τ).loc main_arg12) :=
  (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_in m ρ c 2 rfl).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl

theorem W20_main_arg13 (c : Dev nD) : W20 m ρ c (Proc.devRef .tc main_arg13) = m ((c : Thread nD τ).loc main_arg13) :=
  (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl

theorem W20_main_arg14 (c : Dev nD) : W20 m ρ c (Proc.devRef .tc main_arg14) = m ((c : Thread nD τ).loc main_arg14) :=
  (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl

theorem W20_main_arg15 (c : Dev nD) : W20 m ρ c (Proc.devRef .tc main_arg15) = m ((c : Thread nD τ).loc main_arg15) :=
  (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl

theorem W20_main_arg16 (c : Dev nD) : W20 m ρ c (Proc.devRef .tc main_arg16) = m ((c : Thread nD τ).loc main_arg16) :=
  (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl

theorem W20_main_arg17 (c : Dev nD) : W20 m ρ c (Proc.devRef .tc main_arg17) = m ((c : Thread nD τ).loc main_arg17) :=
  (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans <| rfl

end Cert.Kernel.Hand

end
-- ==== Proof.K.Run.lean ====
/- The run of @main from the launch to the return, as twenty segments: each host stretch a segment over the unscoped
   buffers from its boundary's contents, each kernel region a segment whose arrays are split out of the unscoped
   buffers at entry and put back at the exit contents. The thread state between two segments is "every unscoped
   buffer at the boundary's contents, the generator register at some state, nothing owed". From the launch theorem
   over these segments: every weakly fair execution terminates, nothing faulting, and every final state holds in
   every unscoped buffer what the fold of the twenty items from the launch memory holds there; hence the argument
   arrays end as launched, and the result buffer holds the fold's value. -/
import proofs.«111184_j68341519614847_1_alg».proof.Proof.Gen.Kernel.Launch
import proofs.«111184_j68341519614847_1_alg».proof.Proof.Gen.Kernel.Skeleton
import proofs.«111184_j68341519614847_1_alg».proof.Proof.Gen.Kernel.Points
import proofs.«111184_j68341519614847_1_alg».proof.Proof.K.Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
  | ⟨2, _⟩ => fun c => dat2 (V14 m ρ) c
  | ⟨3, _⟩ => fun c => dat3 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0 over the thread state: entered from every unscoped buffer at `W4`, left at `W5`. Its arrays split out
    of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays split out
    of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W14`, left at `W15`. Its arrays split out
    of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V14 m ρ) c).loose
  hwaits := Pipeline.hwaits_of_owed_zero _ _ _ _ L lv 2 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec2 c (V14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V14 m ρ c) (V15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W17`, left at `W18`. Its arrays split out
    of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 20 segments in order: a host segment per stretch from its boundary's contents, a region per pallas_call. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part1_ops2 main_part1_ops2_sub main_part1_ops2_fresh (W6 m ρ)),
    .host (hseg main_part1_ops3 main_part1_ops3_sub main_part1_ops3_fresh (W7 m ρ)),
    .host (hseg main_part1_ops4 main_part1_ops4_sub main_part1_ops4_fresh (W8 m ρ)),
    .host (hseg main_part1_ops5 main_part1_ops5_sub main_part1_ops5_fresh (W9 m ρ)),
    .host (hseg main_part2_ops0 main_part2_ops0_sub main_part2_ops0_fresh (W10 m ρ)),
    .region (reg1 m ρ),
    .host (hseg main_part2_ops1 main_part2_ops1_sub main_part2_ops1_fresh (W12 m ρ)),
    .host (hseg main_part3_ops0 main_part3_ops0_sub main_part3_ops0_fresh (W13 m ρ)),
    .region (reg2 m ρ),
    .host (hseg main_part3_ops1 main_part3_ops1_sub main_part3_ops1_fresh (W15 m ρ)),
    .host (hseg main_part4_ops0 main_part4_ops0_sub main_part4_ops0_fresh (W16 m ρ)),
    .region (reg3 m ρ),
    .host (hseg main_part4_ops1 main_part4_ops1_sub main_part4_ops1_fresh (W18 m ρ)),
    .host (hseg main_part5_ops0 main_part5_ops0_sub main_part5_ops0_fresh (W19 m ρ)) ]
/-- @main is the run of the segments: the chain of its items, and the segments' run against that chain. -/
theorem main_run (c : Dev nD) : main (F := F) c = Pipeline.Seg.run (segs m ρ) := (main_chain_windows c).trans (by chain_rfl)

set_option backward.isDefEq.respectTransparency.types false in
/-- THE RUN: at the compiled mesh, from any memory with zero counters, every weakly fair execution of @main on the
    TensorCores terminates, nothing faulting, and every final state holds in every unscoped buffer what the fold of
    the twenty items from the launch memory holds there (`W20`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- THE FRAME: every weakly fair execution of @main terminates, nothing faulting, and every final state has the
    argument arrays as launched: each is an unscoped buffer, and the fold leaves it at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  OrdCont.mono (θ_run defs (onTc (τ := τ) (main (F := F))) ⟨m, fun _ => 0, ρ⟩) (fun r h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c)⟩) (run_all m ρ)

/-- The same run read at the result buffer as well: the final state holds there what the fold holds, and the
    argument arrays are as launched. -/
theorem result_at : θ_run defs (onTc (τ := τ) (main (F := F))) ⟨m, fun _ => 0, ρ⟩ (fun r => ∀ c : Dev nD,
      r.2.mem ((c.tc : Thread nD τ).loc main_v243) = W20 m ρ c (Proc.devRef .tc main_v243)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  OrdCont.mono (θ_run defs (onTc (τ := τ) (main (F := F))) ⟨m, fun _ => 0, ρ⟩) (fun r h c =>
    ⟨h c _ (mem_uc main_v243 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c)⟩) (run_all m ρ)

end Cert.Kernel.Hand

end
-- ==== Proof.KI.Host.lean ====
/- The host stretches of @main between its four kernel regions, as lists of operations: for each stretch the
   references its operations write (every operation writes exactly its result buffer), that no operation
   allocates a buffer, and hence that a reference outside the written list keeps its contents through the
   stretch. No stretch writes an argument array. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write, in order. -/
abbrev main_part0_ops0_W : List (Ref sig .tc) := [main_c, main_c_0, main_c_1, main_v0, main_v1, main_c_2, main_v2, main_v3, main_v4, main_v5, main_v6, main_v7, main_v8, main_c_3, main_c_4]
/-- Each operation of `main_part0_ops0` writes its result buffer only, a member of `main_part0_ops0_W`. -/
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write, in order. -/
abbrev main_part0_ops1_W : List (Ref sig .tc) := [main_call0_v0, main_call0_v1, main_call0_v2, main_call0_v3, main_call0_v4, main_v9]
/-- Each operation of `main_part0_ops1` writes its result buffer only, a member of `main_part0_ops1_W`. -/
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part0_ops2` allocates a buffer. -/
theorem main_part0_ops2_fresh : (main_part0_ops2 : List (HloOp τ sig (Elt F))).Forall fun op => op.fresh = ∅ := by
  simp only [List.Forall]; repeat' constructor
/-- The references `main_part0_ops2`'s operations write, in order. -/
abbrev main_part0_ops2_W : List (Ref sig .tc) := [main_v10, main_v11, main_v12, main_v13, main_c_5, main_v14, main_v15, main_c_6, main_v16, main_v17, main_v18, main_v19, main_v20, main_v21, main_v22, main_v23, main_v24, main_c_7, main_v25, main_v26, main_c_8, main_v27, main_v28, main_v29, main_v30, main_v31, main_v32, main_v33, main_v34, main_v35, main_c_9, main_v36, main_v37, main_c_10, main_v38, main_v39, main_v40, main_v41, main_v42, main_v43, main_v44, main_v45, main_v46, main_c_11]
/-- Each operation of `main_part0_ops2` writes its result buffer only, a member of `main_part0_ops2_W`. -/
theorem main_part0_ops2_writes : (main_part0_ops2 : List (HloOp τ sig (Elt F))).Forall fun op => op.writes ⊆ (main_part0_ops2_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write, in order. -/
abbrev main_part1_ops0_W : List (Ref sig .tc) := [main_v47, main_v48, main_c_12, main_v49, main_v50, main_v51, main_v52, main_v53, main_v54, main_v55, main_v56, main_v57, main_c_13, main_v58, main_v59, main_c_14, main_v60, main_v61, main_v62, main_v63, main_v64, main_v65]
/-- Each operation of `main_part1_ops0` writes its result buffer only, a member of `main_part1_ops0_W`. -/
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops1` allocates a buffer. -/
theorem main_part1_ops1_fresh : (main_part1_ops1 : List (HloOp τ sig (Elt F))).Forall fun op => op.fresh = ∅ := by
  simp only [List.Forall]; repeat' constructor
/-- The references `main_part1_ops1`'s operations write, in order. -/
abbrev main_part1_ops1_W : List (Ref sig .tc) := [main_c_15, main_v67, main_v68, main_c_16, main_v69, main_v70, main_v71, main_v72, main_v73, main_v74, main_v75, main_v76, main_c_17, main_c_18]
/-- Each operation of `main_part1_ops1` writes its result buffer only, a member of `main_part1_ops1_W`. -/
theorem main_part1_ops1_writes : (main_part1_ops1 : List (HloOp τ sig (Elt F))).Forall fun op => op.writes ⊆ (main_part1_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops2` allocates a buffer. -/
theorem main_part1_ops2_fresh : (main_part1_ops2 : List (HloOp τ sig (Elt F))).Forall fun op => op.fresh = ∅ := by
  simp only [List.Forall]; repeat' constructor
/-- The references `main_part1_ops2`'s operations write, in order. -/
abbrev main_part1_ops2_W : List (Ref sig .tc) := [main_call1_v0, main_call1_v1, main_call1_v2, main_call1_v3, main_call1_v4, main_v77]
/-- Each operation of `main_part1_ops2` writes its result buffer only, a member of `main_part1_ops2_W`. -/
theorem main_part1_ops2_writes : (main_part1_ops2 : List (HloOp τ sig (Elt F))).Forall fun op => op.writes ⊆ (main_part1_ops2_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops3` allocates a buffer. -/
theorem main_part1_ops3_fresh : (main_part1_ops3 : List (HloOp τ sig (Elt F))).Forall fun op => op.fresh = ∅ := by
  simp only [List.Forall]; repeat' constructor
/-- The references `main_part1_ops3`'s operations write, in order. -/
abbrev main_part1_ops3_W : List (Ref sig .tc) := [main_v78, main_v79, main_v80, main_c_19, main_c_20]
/-- Each operation of `main_part1_ops3` writes its result buffer only, a member of `main_part1_ops3_W`. -/
theorem main_part1_ops3_writes : (main_part1_ops3 : List (HloOp τ sig (Elt F))).Forall fun op => op.writes ⊆ (main_part1_ops3_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops4` allocates a buffer. -/
theorem main_part1_ops4_fresh : (main_part1_ops4 : List (HloOp τ sig (Elt F))).Forall fun op => op.fresh = ∅ := by
  simp only [List.Forall]; repeat' constructor
/-- The references `main_part1_ops4`'s operations write, in order. -/
abbrev main_part1_ops4_W : List (Ref sig .tc) := [main_call2_v0, main_call2_v1, main_call2_v2, main_call2_v3, main_call2_v4, main_v81]
/-- Each operation of `main_part1_ops4` writes its result buffer only, a member of `main_part1_ops4_W`. -/
theorem main_part1_ops4_writes : (main_part1_ops4 : List (HloOp τ sig (Elt F))).Forall fun op => op.writes ⊆ (main_part1_ops4_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part1_ops5` allocates a buffer. -/
theorem main_part1_ops5_fresh : (main_part1_ops5 : List (HloOp τ sig (Elt F))).Forall fun op => op.fresh = ∅ := by
  simp only [List.Forall]; repeat' constructor
/-- The references `main_part1_ops5`'s operations write, in order. -/
abbrev main_part1_ops5_W : List (Ref sig .tc) := [main_c_21, main_v82, main_v83, main_c_22, main_v84, main_v85, main_v86, main_v87, main_v88, main_c_23, main_v89, main_v90, main_c_24, main_v91, main_v92, main_v93]
/-- Each operation of `main_part1_ops5` writes its result buffer only, a member of `main_part1_ops5_W`. -/
theorem main_part1_ops5_writes : (main_part1_ops5 : List (HloOp τ sig (Elt F))).Forall fun op => op.writes ⊆ (main_part1_ops5_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write, in order. -/
abbrev main_part2_ops0_W : List (Ref sig .tc) := [main_v94, main_v95, main_v96]
/-- Each operation of `main_part2_ops0` writes its result buffer only, a member of `main_part2_ops0_W`. -/
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part2_ops1` allocates a buffer. -/
theorem main_part2_ops1_fresh : (main_part2_ops1 : List (HloOp τ sig (Elt F))).Forall fun op => op.fresh = ∅ := by
  simp only [List.Forall]; repeat' constructor
/-- The references `main_part2_ops1`'s operations write, in order. -/
abbrev main_part2_ops1_W : List (Ref sig .tc) := [main_v98, main_v99, main_v100, main_v101, main_c_25, main_v102, main_v103, main_c_26, main_v104, main_v105, main_v106, main_v107, main_v108, main_cst, main_v109, main_v110, main_v111, main_cst_27, main_v112, main_cst_28, main_v113, main_v114, main_v115, main_cst_29, main_v116, main_v117, main_v118, main_v119, main_v120, main_v121, main_v122, main_v123, main_v124, main_c_30, main_v125, main_v126, main_c_31, main_v127, main_v128, main_v129, main_v130, main_v131, main_cst_32, main_v132, main_v133, main_v134, main_cst_33, main_v135, main_cst_34, main_v136, main_v137, main_v138, main_cst_35, main_v139, main_v140, main_v141]
/-- Each operation of `main_part2_ops1` writes its result buffer only, a member of `main_part2_ops1_W`. -/
theorem main_part2_ops1_writes : (main_part2_ops1 : List (HloOp τ sig (Elt F))).Forall fun op => op.writes ⊆ (main_part2_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write, in order. -/
abbrev main_part3_ops0_W : List (Ref sig .tc) := [main_v142, main_v143, main_v144, main_v145, main_v146, main_v147, main_c_36, main_v148, main_v149, main_c_37, main_v150, main_v151, main_v152, main_v153, main_v154, main_cst_38, main_v155, main_v156, main_v157, main_cst_39, main_v158, main_cst_40, main_v159, main_v160, main_v161, main_cst_41, main_v162, main_v163, main_v164, main_v165, main_v166, main_v167, main_v168, main_v169, main_v170, main_v171, main_v172]
/-- Each operation of `main_part3_ops0` writes its result buffer only, a member of `main_part3_ops0_W`. -/
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part3_ops1` allocates a buffer. -/
theorem main_part3_ops1_fresh : (main_part3_ops1 : List (HloOp τ sig (Elt F))).Forall fun op => op.fresh = ∅ := by
  simp only [List.Forall]; repeat' constructor
/-- The references `main_part3_ops1`'s operations write, in order. -/
abbrev main_part3_ops1_W : List (Ref sig .tc) := [main_v174, main_v175, main_v176, main_v177, main_c_42, main_v178, main_v179, main_c_43, main_v180, main_v181, main_v182, main_v183, main_v184, main_cst_44, main_v185, main_v186, main_v187, main_cst_45, main_v188, main_cst_46, main_v189, main_v190]
/-- Each operation of `main_part3_ops1` writes its result buffer only, a member of `main_part3_ops1_W`. -/
theorem main_part3_ops1_writes : (main_part3_ops1 : List (HloOp τ sig (Elt F))).Forall fun op => op.writes ⊆ (main_part3_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part4_ops0` allocates a buffer. -/
theorem main_part4_ops0_fresh : (main_part4_ops0 : List (HloOp τ sig (Elt F))).Forall fun op => op.fresh = ∅ := by
  simp only [List.Forall]; repeat' constructor
/-- The references `main_part4_ops0`'s operations write, in order. -/
abbrev main_part4_ops0_W : List (Ref sig .tc) := [main_v191, main_cst_47, main_v192, main_v193, main_v194, main_v195, main_v196, main_v197, main_v198, main_v199, main_v200, main_c_48, main_v201, main_v202, main_c_49, main_v203, main_v204, main_v205, main_v206, main_v207, main_cst_50, main_v208, main_v209, main_v210, main_cst_51, main_v211, main_cst_52, main_v212, main_v213, main_v214, main_cst_53, main_v215, main_v216, main_v217, main_v218, main_v219, main_v220, main_v221, main_v222, main_v223, main_v224, main_v225]
/-- Each operation of `main_part4_ops0` writes its result buffer only, a member of `main_part4_ops0_W`. -/
theorem main_part4_ops0_writes : (main_part4_ops0 : List (HloOp τ sig (Elt F))).Forall fun op => op.writes ⊆ (main_part4_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part4_ops1` allocates a buffer. -/
theorem main_part4_ops1_fresh : (main_part4_ops1 : List (HloOp τ sig (Elt F))).Forall fun op => op.fresh = ∅ := by
  simp only [List.Forall]; repeat' constructor
/-- The references `main_part4_ops1`'s operations write, in order. -/
abbrev main_part4_ops1_W : List (Ref sig .tc) := [main_cst_54, main_v227, main_v228, main_v229, main_cst_55, main_v230, main_cst_56, main_v231, main_v232, main_v233, main_cst_57, main_v234, main_v235, main_v236, main_v237, main_v238, main_v239]
/-- Each operation of `main_part4_ops1` writes its result buffer only, a member of `main_part4_ops1_W`. -/
theorem main_part4_ops1_writes : (main_part4_ops1 : List (HloOp τ sig (Elt F))).Forall fun op => op.writes ⊆ (main_part4_ops1_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `main_part5_ops0` allocates a buffer. -/
theorem main_part5_ops0_fresh : (main_part5_ops0 : List (HloOp τ sig (Elt F))).Forall fun op => op.fresh = ∅ := by
  simp only [List.Forall]; repeat' constructor
/-- The references `main_part5_ops0`'s operations write, in order. -/
abbrev main_part5_ops0_W : List (Ref sig .tc) := [main_v240, main_v241, main_v242, main_v243]
/-- Each operation of `main_part5_ops0` writes its result buffer only, a member of `main_part5_ops0_W`. -/
theorem main_part5_ops0_writes : (main_part5_ops0 : List (HloOp τ sig (Elt F))).Forall fun op => op.writes ⊆ (main_part5_ops0_W.map (Proc.devRef (τ := τ) .tc)).toFinset := by
  simp only [List.Forall]
  repeat' apply And.intro
  all_goals exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.Hand

end
-- ==== Proof.KI.Region0.lean ====
/- Region 0 of @main, the linear layer of one node type, at the buffer contents `V` the region is entered with.
   The grid walks the rows of the feature matrix in blocks of 2000. At a point the body reads the block `x` (2000×85),
   the whole weight `W` (128×85) and the whole bias `b` (128); it rounds `x` and `W` to bf16, multiplies `x` by the
   transpose of `W` accumulating in f32 from zero, adds `b` along the rows, and stores the 2000×128 result over the
   whole output block. The weight and the bias have a constant block index: they are transferred at the first point only,
   and at every later point their buffers still hold what was read there, because the body writes only the output's.
   Here: each window's block at a point (`iblk0`), what the body leaves in the output's buffer as a function of the
   three blocks read (`out0_3`), the body's triple (`sound_kernel0`), the pipeline's proof data (`dat0`) and the
   body obligation at every point (`body_obligation0`). Every statement is at any float model `F`. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, transferred there or not, for ANY proof data whose
    array is `V`'s (`hA`) and whose body leaves the block in place (`hafter`): where no transfer happens the block index
    has not moved since the last one, so the block is the same; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, transferred there or not, for ANY proof data whose
    array is `V`'s (`hA`) and whose body leaves the block in place (`hafter`): where no transfer happens the block index
    has not moved since the last one, so the block is the same; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, transferred there or not, for ANY proof data whose
    array is `V`'s (`hA`) and whose body leaves the block in place (`hafter`): where no transfer happens the block index
    has not moved since the last one, so the block is the same; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x85 := Rect.unit (s := S2000x85) ![0, 0] S2000x85.size inb_S2000x85_S2000x85_0_0
abbrev r0_1 : Rect S128x85 := Rect.unit (s := S128x85) ![0, 0] S128x85.size inb_S128x85_S128x85_0_0
abbrev r0_2 : Rect S128 := Rect.unit (s := S128) ![0] S128.size inb_S128_S128_0
abbrev r0_3 : Rect S2000x128 := Rect.unit (s := S2000x128) ![0, 0] S2000x128.size inb_S2000x128_S2000x128_0_0

/-! ## What the body leaves in the output window's buffer -/

/-- The output's buffer after the body, from the three blocks read: one store, of `x·Wᵀ + b` (bf16 operands, f32
    accumulation: the payload `k0_pay1`), over the whole buffer. What the buffer held before does not enter. -/
def out0_3 (x0 : Vec F S2000x85 .f32) (x1 : Vec F S128x85 .f32) (x2 : Vec F S128 .f32) : Vec F S2000x128 .f32 :=
  View.canon [⟨r0_3, k0_pay1 (View.ld x0 r0_0) (View.ld x1 r0_1) (View.ld x2 r0_2)⟩]

/-- The one store is of the whole buffer, so it covers every cell (the rectangle's extent is the buffer's, by evaluation). -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole buffers — the inputs' holding `x0`, `x1`, `x2`, the output's holding anything — runs to the
    continuation with the inputs' as they were and the output's at `out0_3 x0 x1 x2`. The body is its four loads (the
    fourth, of the output's buffer, is never used) and one store; the store overwrites every cell, so the buffer ends as
    the pieces' canonical reading. -/
theorem sound_kernel0 (c : Dev nD) (E : Set ℕ) (i : grid0.Coords) (arg1 : Memref sig .tc .vmem S2000x85 .f32) (harg1 : arg1.IsWhole) (arg2 : Memref sig .tc .vmem S128x85 .f32) (harg2 : arg2.IsWhole) (arg3 : Memref sig .tc .vmem S128 .f32) (harg3 : arg3.IsWhole) (arg4 : Memref sig .tc .vmem S2000x128 .f32) (harg4 : arg4.IsWhole)
    (x0 : Vec F S2000x85 .f32) (x1 : Vec F S128x85 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current buffer at what
    the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks (`before0_j`), so `sound_kernel0` applies; the
    invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main, the linear layer of one node type, at the buffer contents `V` the region is entered with.
   The grid walks the rows of the feature matrix in blocks of 2000. At a point the body reads the block `x` (2000×26),
   the whole weight `W` (128×26) and the whole bias `b` (128); it rounds `x` and `W` to bf16, multiplies `x` by the
   transpose of `W` accumulating in f32 from zero, adds `b` along the rows, and stores the 2000×128 result over the
   whole output block. The weight and the bias have a constant block index: they are transferred at the first point only,
   and at every later point their buffers still hold what was read there, because the body writes only the output's.
   Here: each window's block at a point (`iblk1`), what the body leaves in the output's buffer as a function of the
   three blocks read (`out1_3`), the body's triple (`sound_kernel1`), the pipeline's proof data (`dat1`) and the
   body obligation at every point (`body_obligation1`). Every statement is at any float model `F`. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, transferred there or not, for ANY proof data whose
    array is `V`'s (`hA`) and whose body leaves the block in place (`hafter`): where no transfer happens the block index
    has not moved since the last one, so the block is the same; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, transferred there or not, for ANY proof data whose
    array is `V`'s (`hA`) and whose body leaves the block in place (`hafter`): where no transfer happens the block index
    has not moved since the last one, so the block is the same; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, transferred there or not, for ANY proof data whose
    array is `V`'s (`hA`) and whose body leaves the block in place (`hafter`): where no transfer happens the block index
    has not moved since the last one, so the block is the same; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S2000x26 := Rect.unit (s := S2000x26) ![0, 0] S2000x26.size inb_S2000x26_S2000x26_0_0
abbrev r1_1 : Rect S128x26 := Rect.unit (s := S128x26) ![0, 0] S128x26.size inb_S128x26_S128x26_0_0
abbrev r1_2 : Rect S128 := Rect.unit (s := S128) ![0] S128.size inb_S128_S128_0
abbrev r1_3 : Rect S2000x128 := Rect.unit (s := S2000x128) ![0, 0] S2000x128.size inb_S2000x128_S2000x128_0_0

/-! ## What the body leaves in the output window's buffer -/

/-- The output's buffer after the body, from the three blocks read: one store, of `x·Wᵀ + b` (bf16 operands, f32
    accumulation: the payload `k1_pay1`), over the whole buffer. What the buffer held before does not enter. -/
def out1_3 (x0 : Vec F S2000x26 .f32) (x1 : Vec F S128x26 .f32) (x2 : Vec F S128 .f32) : Vec F S2000x128 .f32 :=
  View.canon [⟨r1_3, k1_pay1 (View.ld x0 r1_0) (View.ld x1 r1_1) (View.ld x2 r1_2)⟩]

/-- The one store is of the whole buffer, so it covers every cell (the rectangle's extent is the buffer's, by evaluation). -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole buffers — the inputs' holding `x0`, `x1`, `x2`, the output's holding anything — runs to the
    continuation with the inputs' as they were and the output's at `out1_3 x0 x1 x2`. The body is its four loads (the
    fourth, of the output's buffer, is never used) and one store; the store overwrites every cell, so the buffer ends as
    the pieces' canonical reading. -/
theorem sound_kernel1 (c : Dev nD) (E : Set ℕ) (i : grid1.Coords) (arg1 : Memref sig .tc .vmem S2000x26 .f32) (harg1 : arg1.IsWhole) (arg2 : Memref sig .tc .vmem S128x26 .f32) (harg2 : arg2.IsWhole) (arg3 : Memref sig .tc .vmem S128 .f32) (harg3 : arg3.IsWhole) (arg4 : Memref sig .tc .vmem S2000x128 .f32) (harg4 : arg4.IsWhole)
    (x0 : Vec F S2000x26 .f32) (x1 : Vec F S128x26 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the three input blocks; the invariant is the
    untouched rest of the core's state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current buffer holds its block at every point, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current buffer at what
    the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_j`), so `sound_kernel1` applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- Region 2 of the program (the pallas_call running `cc2__sage_combine_kernel`), its class-A half at a parameter `V`,
   the TensorCore's buffer contents when the region is entered. The body reads its seven input windows' staging
   buffers whole, computes, and overwrites the output window's staging buffer with ONE whole-block store; it keeps
   nothing from point to point. So what it leaves in the output buffer is a closed function of the seven input blocks
   at the point (`out2_7`: the store's payload laid over the block), and what it finds in an input buffer is that
   window's block at the point, whether the pipeline fetched it there or (the three windows whose block index is
   constant over the grid) only at the first point. From these: the body's triple on whole staging memrefs
   (`sound_kernel2`), the pipeline's proof data (`dat2`: the arrays as entered, each input's buffer left at its
   block, the output's at `out2_7` of the input blocks, the class's invariant, nothing owed, full shares) and the
   body obligation at every grid point (`body_obligation2`). Everything is generic in the float operations `F`. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block index
    has not moved, and the buffer still holds the previous point's block, which is this point's; the window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the block index
    has not moved, and the buffer still holds the previous point's block, which is this point's; the window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the block index
    has not moved, and the buffer still holds the previous point's block, which is this point's; the window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the block index
    has not moved, and the buffer still holds the previous point's block, which is this point's; the window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the block index
    has not moved, and the buffer still holds the previous point's block, which is this point's; the window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): unfetched, the block index
    has not moved, and the buffer still holds the previous point's block, which is this point's; the window is uncut
    and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): unfetched, the block index
    has not moved, and the buffer still holds the previous point's block, which is this point's; the window is uncut
    and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S3x128x128 := Rect.unit (s := S3x128x128) ![0, 0, 0] S3x128x128.size inb_S3x128x128_S3x128x128_0_0_0
abbrev r2_2 : Rect S3x128 := Rect.unit (s := S3x128) ![0, 0] S3x128.size inb_S3x128_S3x128_0_0

/-! ## What the body leaves in the output window's buffer -/

/-- Window 7's staging buffer after the body, from the input windows' blocks: its one store as a piece, the payload
    the combination of the eight values the first part of the body hands on, each a function of the blocks it loads
    (window 5's block is loaded after window 6's). -/
def out2_7 (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) : Vec F S2000x128 .f32 :=
  View.canon [⟨r2_0, k2_pay1 (k2_pay2 (View.ld x2 r2_0)) (k2_pay3 (View.ld x3 r2_0)) (k2_pay4 (View.ld x4 r2_1)) (k2_pay5 (View.ld x6 r2_1)) (k2_pay6 (View.ld x5 r2_2))
    (k2_pay7 (View.ld x0 r2_0) (View.ld x3 r2_0) (View.ld x4 r2_1) (View.ld x6 r2_1) (View.ld x5 r2_2)) (k2_pay8 (View.ld x6 r2_1)) (k2_pay9 (View.ld x1 r2_0) (View.ld x4 r2_1))⟩]

/-- The one store is of the whole block (checked by evaluation), so it covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The kernel body on whole staging memrefs, the inputs' at read contents `xW` and the output's at anything, runs to
    the continuation holding the inputs' as they were and the output's at `out2_7` of the inputs': the printed
    functions are their skeletons, run load by load through the part call; the output buffer's one load before the
    store reads a value nothing uses, and the store then overwrites the whole buffer. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__sage_combine_kernel i arg0 harg0 arg1 harg1 arg2 harg2 arg3 harg3 arg4 harg4 arg5 harg5 arg6 harg6 arg7 harg7) K := by
  simp only [cc2__sage_combine_kernel_eq_skeleton]; unfold cc2__sage_combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them (`V`); after the body at point `t`
    each input's buffer at its block and the output's at `out2_7` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/- Region 3 of the program (the pallas_call running `cc3__sage_combine_kernel`), its class-A half at a parameter `V`,
   the TensorCore's buffer contents when the region is entered. The body reads its seven input windows' staging
   buffers whole, computes, and overwrites the output window's staging buffer with ONE whole-block store; it keeps
   nothing from point to point. So what it leaves in the output buffer is a closed function of the seven input blocks
   at the point (`out3_7`: the store's payload laid over the block), and what it finds in an input buffer is that
   window's block at the point, whether the pipeline fetched it there or (the three windows whose block index is
   constant over the grid) only at the first point. From these: the body's triple on whole staging memrefs
   (`sound_kernel3`), the pipeline's proof data (`dat3`: the arrays as entered, each input's buffer left at its
   block, the output's at `out3_7` of the input blocks, the class's invariant, nothing owed, full shares) and the
   body obligation at every grid point (`body_obligation3`). Everything is generic in the float operations `F`. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved, and the buffer still holds the previous point's block, which is this point's; the window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): unfetched, the block index
    has not moved, and the buffer still holds the previous point's block, which is this point's; the window is uncut
    and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): unfetched, the block index
    has not moved, and the buffer still holds the previous point's block, which is this point's; the window is uncut
    and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): unfetched, the block index
    has not moved, and the buffer still holds the previous point's block, which is this point's; the window is uncut
    and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): unfetched, the block index
    has not moved, and the buffer still holds the previous point's block, which is this point's; the window is uncut
    and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): unfetched, the block index
    has not moved, and the buffer still holds the previous point's block, which is this point's; the window is uncut
    and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): unfetched, the block index
    has not moved, and the buffer still holds the previous point's block, which is this point's; the window is uncut
    and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S3x128x128 := Rect.unit (s := S3x128x128) ![0, 0, 0] S3x128x128.size inb_S3x128x128_S3x128x128_0_0_0
abbrev r3_2 : Rect S3x128 := Rect.unit (s := S3x128) ![0, 0] S3x128.size inb_S3x128_S3x128_0_0

/-! ## What the body leaves in the output window's buffer -/

/-- Window 7's staging buffer after the body, from the input windows' blocks: its one store as a piece, the payload
    the combination of the eight values the first part of the body hands on, each a function of the blocks it loads
    (window 5's block is loaded after window 6's). -/
def out3_7 (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) : Vec F S2000x128 .f32 :=
  View.canon [⟨r3_0, k3_pay1 (k3_pay2 (View.ld x2 r3_0)) (k3_pay3 (View.ld x3 r3_0)) (k3_pay4 (View.ld x4 r3_1)) (k3_pay5 (View.ld x6 r3_1)) (k3_pay6 (View.ld x5 r3_2))
    (k3_pay7 (View.ld x0 r3_0) (View.ld x3 r3_0) (View.ld x4 r3_1) (View.ld x6 r3_1) (View.ld x5 r3_2)) (k3_pay8 (View.ld x6 r3_1)) (k3_pay9 (View.ld x1 r3_0) (View.ld x4 r3_1))⟩]

/-- The one store is of the whole block (checked by evaluation), so it covers the buffer. -/
theorem cover3_7 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 4000000 in
/-- The kernel body on whole staging memrefs, the inputs' at read contents `xW` and the output's at anything, runs to
    the continuation holding the inputs' as they were and the output's at `out3_7` of the inputs': the printed
    functions are their skeletons, run load by load through the part call; the output buffer's one load before the
    store reads a value nothing uses, and the store then overwrites the whole buffer. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128x128 .f32) (harg6 : arg6.IsWhole) (arg7 : Memref sig .tc .vmem S2000x128 .f32) (harg7 : arg7.IsWhole)
    (x0 : Vec F S2000x128 .f32) (x1 : Vec F S2000x128 .f32) (x2 : Vec F S2000x128 .f32) (x3 : Vec F S2000x128 .f32) (x4 : Vec F S3x128x128 .f32) (x5 : Vec F S3x128 .f32) (x6 : Vec F S3x128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__sage_combine_kernel i arg0 harg0 arg1 harg1 arg2 harg2 arg3 harg3 arg4 harg4 arg5 harg5 arg6 harg6 arg7 harg7) K := by
  simp only [cc3__sage_combine_kernel_eq_skeleton]; unfold cc3__sage_combine_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the class's (the
    scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Bounds.lean ====
/- The buffer contents of a TensorCore at each of the twenty-one boundaries of @main's twenty items (sixteen host
   stretches and four kernel regions), as a fold from the launch memory: a host stretch rewrites the buffers its
   operations write and leaves the rest; a region leaves each of its windows' arrays at what its pipeline's
   write-backs make of it (an input array as entered) and every other buffer as entered. For each item, the
   statement that a buffer it does not write holds after it what it held before; and, from these, that every
   argument array holds at the last boundary what the launch memory holds. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import proofs.«111184_j68341519614847_1_alg».proof.Proof.KI.Host
import proofs.«111184_j68341519614847_1_alg».proof.Proof.KI.Region0
import proofs.«111184_j68341519614847_1_alg».proof.Proof.KI.Region1
import proofs.«111184_j68341519614847_1_alg».proof.Proof.KI.Region2
import proofs.«111184_j68341519614847_1_alg».proof.Proof.KI.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After item 0, the host stretch `main_part0_ops0`. -/
abbrev W1 : Dev nD → Valuation τ sig (Elt F) := fun c => StableHlo.after main_part0_ops0 (W0 m ρ c)
/-- The stretch leaves a buffer none of its operations writes as it found it. -/
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-- After item 1, the host stretch `main_part0_ops1`. -/
abbrev W2 : Dev nD → Valuation τ sig (Elt F) := fun c => StableHlo.after main_part0_ops1 (W1 m ρ c)
/-- The stretch leaves a buffer none of its operations writes as it found it. -/
theorem W2_of (c : Dev nD) (r : Ref sig .tc) (h : r ∉ main_part0_ops1_W) :
    W2 m ρ c (Proc.devRef .tc r) = W1 m ρ c (Proc.devRef .tc r) :=
  StableHlo.after_of_writes_sub main_part0_ops1 _ main_part0_ops1_writes h

/-- After item 2, the host stretch `main_part0_ops2`. -/
abbrev W3 : Dev nD → Valuation τ sig (Elt F) := fun c => StableHlo.after main_part0_ops2 (W2 m ρ c)
/-- The stretch leaves a buffer none of its operations writes as it found it. -/
theorem W3_of (c : Dev nD) (r : Ref sig .tc) (h : r ∉ main_part0_ops2_W) :
    W3 m ρ c (Proc.devRef .tc r) = W2 m ρ c (Proc.devRef .tc r) :=
  StableHlo.after_of_writes_sub main_part0_ops2 _ main_part0_ops2_writes h

/-- After item 3, the host stretch `main_part1_ops0`. -/
abbrev W4 : Dev nD → Valuation τ sig (Elt F) := fun c => StableHlo.after main_part1_ops0 (W3 m ρ c)
/-- The stretch leaves a buffer none of its operations writes as it found it. -/
theorem W4_of (c : Dev nD) (r : Ref sig .tc) (h : r ∉ main_part1_ops0_W) :
    W4 m ρ c (Proc.devRef .tc r) = W3 m ρ c (Proc.devRef .tc r) :=
  StableHlo.after_of_writes_sub main_part1_ops0 _ main_part1_ops0_writes h

/-- The contents region 0 is entered from, read at the TensorCore's references. -/
abbrev V4 : (c : Dev nD) → (b : Ref sig .tc) → Buf (Elt F) ((c : Thread nD τ).loc b) := fun c b => W4 m ρ c b
/-- After item 4, region 0: its arrays at what the pipeline leaves (an input as entered, the output's write-backs
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The arrays of region 0's windows, in window order. -/
abbrev region0_W : List (Ref sig .tc) := [main_v65, main_arg9, main_arg10, main_v66]
/-- The region leaves a buffer that is none of its windows' arrays as it found it. -/
theorem W5_of (c : Dev nD) (r : Ref sig .tc) (h : r ∉ region0_W) :
    W5 m ρ c (Proc.devRef .tc r) = W4 m ρ c (Proc.devRef .tc r) :=
  W5_of_ne m ρ c r (by
    intro w e; subst e; revert w; decide)
/-- An input window's array is left as entered. -/
theorem W5_in (c : Dev nD) (w : Fin cfg0.W) (hw : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hw _).trans (A_eq0 (V4 m ρ) c w))
/-- The contents region 0 is left at, read at the TensorCore's references. -/
abbrev V5 : (c : Dev nD) → (b : Ref sig .tc) → Buf (Elt F) ((c : Thread nD τ).loc b) := fun c b => W5 m ρ c b
/-- At region 0's exit each of its arrays holds what the pipeline leaves and every other buffer what it held at
    entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After item 5, the host stretch `main_part1_ops1`. -/
abbrev W6 : Dev nD → Valuation τ sig (Elt F) := fun c => StableHlo.after main_part1_ops1 (W5 m ρ c)
/-- The stretch leaves a buffer none of its operations writes as it found it. -/
theorem W6_of (c : Dev nD) (r : Ref sig .tc) (h : r ∉ main_part1_ops1_W) :
    W6 m ρ c (Proc.devRef .tc r) = W5 m ρ c (Proc.devRef .tc r) :=
  StableHlo.after_of_writes_sub main_part1_ops1 _ main_part1_ops1_writes h

/-- After item 6, the host stretch `main_part1_ops2`. -/
abbrev W7 : Dev nD → Valuation τ sig (Elt F) := fun c => StableHlo.after main_part1_ops2 (W6 m ρ c)
/-- The stretch leaves a buffer none of its operations writes as it found it. -/
theorem W7_of (c : Dev nD) (r : Ref sig .tc) (h : r ∉ main_part1_ops2_W) :
    W7 m ρ c (Proc.devRef .tc r) = W6 m ρ c (Proc.devRef .tc r) :=
  StableHlo.after_of_writes_sub main_part1_ops2 _ main_part1_ops2_writes h

/-- After item 7, the host stretch `main_part1_ops3`. -/
abbrev W8 : Dev nD → Valuation τ sig (Elt F) := fun c => StableHlo.after main_part1_ops3 (W7 m ρ c)
/-- The stretch leaves a buffer none of its operations writes as it found it. -/
theorem W8_of (c : Dev nD) (r : Ref sig .tc) (h : r ∉ main_part1_ops3_W) :
    W8 m ρ c (Proc.devRef .tc r) = W7 m ρ c (Proc.devRef .tc r) :=
  StableHlo.after_of_writes_sub main_part1_ops3 _ main_part1_ops3_writes h

/-- After item 8, the host stretch `main_part1_ops4`. -/
abbrev W9 : Dev nD → Valuation τ sig (Elt F) := fun c => StableHlo.after main_part1_ops4 (W8 m ρ c)
/-- The stretch leaves a buffer none of its operations writes as it found it. -/
theorem W9_of (c : Dev nD) (r : Ref sig .tc) (h : r ∉ main_part1_ops4_W) :
    W9 m ρ c (Proc.devRef .tc r) = W8 m ρ c (Proc.devRef .tc r) :=
  StableHlo.after_of_writes_sub main_part1_ops4 _ main_part1_ops4_writes h

/-- After item 9, the host stretch `main_part1_ops5`. -/
abbrev W10 : Dev nD → Valuation τ sig (Elt F) := fun c => StableHlo.after main_part1_ops5 (W9 m ρ c)
/-- The stretch leaves a buffer none of its operations writes as it found it. -/
theorem W10_of (c : Dev nD) (r : Ref sig .tc) (h : r ∉ main_part1_ops5_W) :
    W10 m ρ c (Proc.devRef .tc r) = W9 m ρ c (Proc.devRef .tc r) :=
  StableHlo.after_of_writes_sub main_part1_ops5 _ main_part1_ops5_writes h

/-- After item 10, the host stretch `main_part2_ops0`. -/
abbrev W11 : Dev nD → Valuation τ sig (Elt F) := fun c => StableHlo.after main_part2_ops0 (W10 m ρ c)
/-- The stretch leaves a buffer none of its operations writes as it found it. -/
theorem W11_of (c : Dev nD) (r : Ref sig .tc) (h : r ∉ main_part2_ops0_W) :
    W11 m ρ c (Proc.devRef .tc r) = W10 m ρ c (Proc.devRef .tc r) :=
  StableHlo.after_of_writes_sub main_part2_ops0 _ main_part2_ops0_writes h

/-- The contents region 1 is entered from, read at the TensorCore's references. -/
abbrev V11 : (c : Dev nD) → (b : Ref sig .tc) → Buf (Elt F) ((c : Thread nD τ).loc b) := fun c b => W11 m ρ c b
/-- After item 11, region 1: its arrays at what the pipeline leaves (an input as entered, the output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The arrays of region 1's windows, in window order. -/
abbrev region1_W : List (Ref sig .tc) := [main_v96, main_arg11, main_arg12, main_v97]
/-- The region leaves a buffer that is none of its windows' arrays as it found it. -/
theorem W12_of (c : Dev nD) (r : Ref sig .tc) (h : r ∉ region1_W) :
    W12 m ρ c (Proc.devRef .tc r) = W11 m ρ c (Proc.devRef .tc r) :=
  W12_of_ne m ρ c r (by
    intro w e; subst e; revert w; decide)
/-- An input window's array is left as entered. -/
theorem W12_in (c : Dev nD) (w : Fin cfg1.W) (hw : (cfg1.win w).isOut = false) :
    W12 m ρ c (Proc.devRef .tc (Pipeline.arrRef spec1 w)) = W11 m ρ c (Proc.devRef .tc (Pipeline.arrRef spec1 w)) :=
  (W12_arr m ρ c w).trans (((dat1 (V11 m ρ) c).arrAt_in w hw _).trans (A_eq1 (V11 m ρ) c w))
/-- The contents region 1 is left at, read at the TensorCore's references. -/
abbrev V12 : (c : Dev nD) → (b : Ref sig .tc) → Buf (Elt F) ((c : Thread nD τ).loc b) := fun c b => W12 m ρ c b
/-- At region 1's exit each of its arrays holds what the pipeline leaves and every other buffer what it held at
    entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After item 12, the host stretch `main_part2_ops1`. -/
abbrev W13 : Dev nD → Valuation τ sig (Elt F) := fun c => StableHlo.after main_part2_ops1 (W12 m ρ c)
/-- The stretch leaves a buffer none of its operations writes as it found it. -/
theorem W13_of (c : Dev nD) (r : Ref sig .tc) (h : r ∉ main_part2_ops1_W) :
    W13 m ρ c (Proc.devRef .tc r) = W12 m ρ c (Proc.devRef .tc r) :=
  StableHlo.after_of_writes_sub main_part2_ops1 _ main_part2_ops1_writes h

/-- After item 13, the host stretch `main_part3_ops0`. -/
abbrev W14 : Dev nD → Valuation τ sig (Elt F) := fun c => StableHlo.after main_part3_ops0 (W13 m ρ c)
/-- The stretch leaves a buffer none of its operations writes as it found it. -/
theorem W14_of (c : Dev nD) (r : Ref sig .tc) (h : r ∉ main_part3_ops0_W) :
    W14 m ρ c (Proc.devRef .tc r) = W13 m ρ c (Proc.devRef .tc r) :=
  StableHlo.after_of_writes_sub main_part3_ops0 _ main_part3_ops0_writes h

/-- The contents region 2 is entered from, read at the TensorCore's references. -/
abbrev V14 : (c : Dev nD) → (b : Ref sig .tc) → Buf (Elt F) ((c : Thread nD τ).loc b) := fun c b => W14 m ρ c b
/-- After item 14, region 2: its arrays at what the pipeline leaves (an input as entered, the output's write-backs
    folded), every other buffer as entered. -/
def W15 (c : Dev nD) : Valuation τ sig (Elt F) :=
  Pipeline.withArrays spec2 c (W14 m ρ c) fun w => (dat2 (V14 m ρ) c).arrAt w cfg2.N
theorem W15_arr (c : Dev nD) (w : Fin cfg2.W) :
    W15 m ρ c (Proc.devRef .tc (Pipeline.arrRef spec2 w)) = (dat2 (V14 m ρ) c).arrAt w cfg2.N := by
  unfold W15; exact Pipeline.withArrays_arr spec2 launch2.win.arr_inj c _ _ w
theorem W15_of_ne (c : Dev nD) (b : Ref sig .tc) (hb : ∀ w, Pipeline.arrRef spec2 w ≠ b) :
    W15 m ρ c (Proc.devRef .tc b) = W14 m ρ c (Proc.devRef .tc b) := by
  unfold W15; exact Pipeline.withArrays_of_ne spec2 c _ _ b hb
/-- The arrays of region 2's windows, in window order. -/
abbrev region2_W : List (Ref sig .tc) := [main_v143, main_v166, main_v120, main_v66, main_v168, main_v170, main_v172, main_v173]
/-- The region leaves a buffer that is none of its windows' arrays as it found it. -/
theorem W15_of (c : Dev nD) (r : Ref sig .tc) (h : r ∉ region2_W) :
    W15 m ρ c (Proc.devRef .tc r) = W14 m ρ c (Proc.devRef .tc r) :=
  W15_of_ne m ρ c r (by
    intro w e; subst e; revert w; decide)
/-- An input window's array is left as entered. -/
theorem W15_in (c : Dev nD) (w : Fin cfg2.W) (hw : (cfg2.win w).isOut = false) :
    W15 m ρ c (Proc.devRef .tc (Pipeline.arrRef spec2 w)) = W14 m ρ c (Proc.devRef .tc (Pipeline.arrRef spec2 w)) :=
  (W15_arr m ρ c w).trans (((dat2 (V14 m ρ) c).arrAt_in w hw _).trans (A_eq2 (V14 m ρ) c w))
/-- The contents region 2 is left at, read at the TensorCore's references. -/
abbrev V15 : (c : Dev nD) → (b : Ref sig .tc) → Buf (Elt F) ((c : Thread nD τ).loc b) := fun c b => W15 m ρ c b
/-- At region 2's exit each of its arrays holds what the pipeline leaves and every other buffer what it held at
    entry. -/
theorem hF2 (c : Dev nD) (w : Fin cfg2.W) : (dat2 (V14 m ρ) c).arrAt w cfg2.N = V15 m ρ c (Pipeline.arrRef spec2 w) :=
  (W15_arr m ρ c w).symm
theorem hrest2 (c : Dev nD) : ∀ b, b ∉ Finset.univ.image (Pipeline.arrRef spec2) → V15 m ρ c b = V14 m ρ c b :=
  fun b hb => W15_of_ne m ρ c b fun w e => hb (Finset.mem_image.mpr ⟨w, Finset.mem_univ _, e⟩)

/-- After item 15, the host stretch `main_part3_ops1`. -/
abbrev W16 : Dev nD → Valuation τ sig (Elt F) := fun c => StableHlo.after main_part3_ops1 (W15 m ρ c)
/-- The stretch leaves a buffer none of its operations writes as it found it. -/
theorem W16_of (c : Dev nD) (r : Ref sig .tc) (h : r ∉ main_part3_ops1_W) :
    W16 m ρ c (Proc.devRef .tc r) = W15 m ρ c (Proc.devRef .tc r) :=
  StableHlo.after_of_writes_sub main_part3_ops1 _ main_part3_ops1_writes h

/-- After item 16, the host stretch `main_part4_ops0`. -/
abbrev W17 : Dev nD → Valuation τ sig (Elt F) := fun c => StableHlo.after main_part4_ops0 (W16 m ρ c)
/-- The stretch leaves a buffer none of its operations writes as it found it. -/
theorem W17_of (c : Dev nD) (r : Ref sig .tc) (h : r ∉ main_part4_ops0_W) :
    W17 m ρ c (Proc.devRef .tc r) = W16 m ρ c (Proc.devRef .tc r) :=
  StableHlo.after_of_writes_sub main_part4_ops0 _ main_part4_ops0_writes h

/-- The contents region 3 is entered from, read at the TensorCore's references. -/
abbrev V17 : (c : Dev nD) → (b : Ref sig .tc) → Buf (Elt F) ((c : Thread nD τ).loc b) := fun c b => W17 m ρ c b
/-- After item 17, region 3: its arrays at what the pipeline leaves (an input as entered, the output's write-backs
    folded), every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- The arrays of region 3's windows, in window order. -/
abbrev region3_W : List (Ref sig .tc) := [main_v196, main_v219, main_v120, main_v173, main_v221, main_v223, main_v225, main_v226]
/-- The region leaves a buffer that is none of its windows' arrays as it found it. -/
theorem W18_of (c : Dev nD) (r : Ref sig .tc) (h : r ∉ region3_W) :
    W18 m ρ c (Proc.devRef .tc r) = W17 m ρ c (Proc.devRef .tc r) :=
  W18_of_ne m ρ c r (by
    intro w e; subst e; revert w; decide)
/-- An input window's array is left as entered. -/
theorem W18_in (c : Dev nD) (w : Fin cfg3.W) (hw : (cfg3.win w).isOut = false) :
    W18 m ρ c (Proc.devRef .tc (Pipeline.arrRef spec3 w)) = W17 m ρ c (Proc.devRef .tc (Pipeline.arrRef spec3 w)) :=
  (W18_arr m ρ c w).trans (((dat3 (V17 m ρ) c).arrAt_in w hw _).trans (A_eq3 (V17 m ρ) c w))
/-- The contents region 3 is left at, read at the TensorCore's references. -/
abbrev V18 : (c : Dev nD) → (b : Ref sig .tc) → Buf (Elt F) ((c : Thread nD τ).loc b) := fun c b => W18 m ρ c b
/-- At region 3's exit each of its arrays holds what the pipeline leaves and every other buffer what it held at
    entry. -/
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After item 18, the host stretch `main_part4_ops1`. -/
abbrev W19 : Dev nD → Valuation τ sig (Elt F) := fun c => StableHlo.after main_part4_ops1 (W18 m ρ c)
/-- The stretch leaves a buffer none of its operations writes as it found it. -/
theorem W19_of (c : Dev nD) (r : Ref sig .tc) (h : r ∉ main_part4_ops1_W) :
    W19 m ρ c (Proc.devRef .tc r) = W18 m ρ c (Proc.devRef .tc r) :=
  StableHlo.after_of_writes_sub main_part4_ops1 _ main_part4_ops1_writes h

/-- After item 19, the host stretch `main_part5_ops0`. -/
abbrev W20 : Dev nD → Valuation τ sig (Elt F) := fun c => StableHlo.after main_part5_ops0 (W19 m ρ c)
/-- The stretch leaves a buffer none of its operations writes as it found it. -/
theorem W20_of (c : Dev nD) (r : Ref sig .tc) (h : r ∉ main_part5_ops0_W) :
    W20 m ρ c (Proc.devRef .tc r) = W19 m ρ c (Proc.devRef .tc r) :=
  StableHlo.after_of_writes_sub main_part5_ops0 _ main_part5_ops0_writes h

/-! ## The arguments end as launched

No host operation writes an argument array; a region reads one through an input window or does not touch it. -/

theorem W20_main_arg0 (c : Dev nD) : W20 m ρ c (Proc.devRef .tc main_arg0) = m ((c : Thread nD τ).loc main_arg0) :=
  (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl

theorem W20_main_arg1 (c : Dev nD) : W20 m ρ c (Proc.devRef .tc main_arg1) = m ((c : Thread nD τ).loc main_arg1) :=
  (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl

theorem W20_main_arg2 (c : Dev nD) : W20 m ρ c (Proc.devRef .tc main_arg2) = m ((c : Thread nD τ).loc main_arg2) :=
  (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl

theorem W20_main_arg3 (c : Dev nD) : W20 m ρ c (Proc.devRef .tc main_arg3) = m ((c : Thread nD τ).loc main_arg3) :=
  (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl

theorem W20_main_arg4 (c : Dev nD) : W20 m ρ c (Proc.devRef .tc main_arg4) = m ((c : Thread nD τ).loc main_arg4) :=
  (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

theorem W20_main_arg5 (c : Dev nD) : W20 m ρ c (Proc.devRef .tc main_arg5) = m ((c : Thread nD τ).loc main_arg5) :=
  (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl

theorem W20_main_arg6 (c : Dev nD) : W20 m ρ c (Proc.devRef .tc main_arg6) = m ((c : Thread nD τ).loc main_arg6) :=
  (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl

theorem W20_main_arg7 (c : Dev nD) : W20 m ρ c (Proc.devRef .tc main_arg7) = m ((c : Thread nD τ).loc main_arg7) :=
  (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl

theorem W20_main_arg8 (c : Dev nD) : W20 m ρ c (Proc.devRef .tc main_arg8) = m ((c : Thread nD τ).loc main_arg8) :=
  (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl

theorem W20_main_arg9 (c : Dev nD) : W20 m ρ c (Proc.devRef .tc main_arg9) = m ((c : Thread nD τ).loc main_arg9) :=
  (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_in m ρ c 1 rfl).trans <| (W4_of m ρ c main_arg9 (by decide)).trans <| (W3_of m ρ c main_arg9 (by decide)).trans <| (W2_of m ρ c main_arg9 (by decide)).trans <| (W1_of m ρ c main_arg9 (by decide)).trans <| rfl

theorem W20_main_arg10 (c : Dev nD) : W20 m ρ c (Proc.devRef .tc main_arg10) = m ((c : Thread nD τ).loc main_arg10) :=
  (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_in m ρ c 2 rfl).trans <| (W4_of m ρ c main_arg10 (by decide)).trans <| (W3_of m ρ c main_arg10 (by decide)).trans <| (W2_of m ρ c main_arg10 (by decide)).trans <| (W1_of m ρ c main_arg10 (by decide)).trans <| rfl

theorem W20_main_arg11 (c : Dev nD) : W20 m ρ c (Proc.devRef .tc main_arg11) = m ((c : Thread nD τ).loc main_arg11) :=
  (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_in m ρ c 1 rfl).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl

theorem W20_main_arg12 (c : Dev nD) : W20 m ρ c (Proc.devRef .tc main_arg12) = m ((c : Thread nD τ).loc main_arg12) :=
  (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_in m ρ c 2 rfl).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl

theorem W20_main_arg13 (c : Dev nD) : W20 m ρ c (Proc.devRef .tc main_arg13) = m ((c : Thread nD τ).loc main_arg13) :=
  (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl

theorem W20_main_arg14 (c : Dev nD) : W20 m ρ c (Proc.devRef .tc main_arg14) = m ((c : Thread nD τ).loc main_arg14) :=
  (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl

theorem W20_main_arg15 (c : Dev nD) : W20 m ρ c (Proc.devRef .tc main_arg15) = m ((c : Thread nD τ).loc main_arg15) :=
  (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl

theorem W20_main_arg16 (c : Dev nD) : W20 m ρ c (Proc.devRef .tc main_arg16) = m ((c : Thread nD τ).loc main_arg16) :=
  (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl

theorem W20_main_arg17 (c : Dev nD) : W20 m ρ c (Proc.devRef .tc main_arg17) = m ((c : Thread nD τ).loc main_arg17) :=
  (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans <| rfl

end Cert.KernelIdeal.Hand

end
-- ==== Proof.KI.Run.lean ====
/- The run of @main from the launch to the return, as twenty segments: each host stretch a segment over the unscoped
   buffers from its boundary's contents, each kernel region a segment whose arrays are split out of the unscoped
   buffers at entry and put back at the exit contents. The thread state between two segments is "every unscoped
   buffer at the boundary's contents, the generator register at some state, nothing owed". From the launch theorem
   over these segments: every weakly fair execution terminates, nothing faulting, and every final state holds in
   every unscoped buffer what the fold of the twenty items from the launch memory holds there; hence the argument
   arrays end as launched, and the result buffer holds the fold's value. -/
import proofs.«111184_j68341519614847_1_alg».proof.Proof.Gen.KernelIdeal.Launch
import proofs.«111184_j68341519614847_1_alg».proof.Proof.Gen.KernelIdeal.Skeleton
import proofs.«111184_j68341519614847_1_alg».proof.Proof.Gen.KernelIdeal.Points
import proofs.«111184_j68341519614847_1_alg».proof.Proof.KI.Bounds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
  | ⟨2, _⟩ => fun c => dat2 (V14 m ρ) c
  | ⟨3, _⟩ => fun c => dat3 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0 over the thread state: entered from every unscoped buffer at `W4`, left at `W5`. Its arrays split out
    of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W11`, left at `W12`. Its arrays split out
    of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W14`, left at `W15`. Its arrays split out
    of the unscoped buffers and put back at the exit contents; the generator register into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V14 m ρ) c).loose
  hwaits := Pipeline.hwaits_of_owed_zero _ _ _ _ L lv 2 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec2 c (V14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V14 m ρ c) (V15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W17`, left at `W18`. Its arrays split out
    of the unscoped buffers and put back at the exit contents; the generator register into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 20 segments in order: a host segment per stretch from its boundary's contents, a region per pallas_call. -/
abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part1_ops2 main_part1_ops2_sub main_part1_ops2_fresh (W6 m ρ)),
    .host (hseg main_part1_ops3 main_part1_ops3_sub main_part1_ops3_fresh (W7 m ρ)),
    .host (hseg main_part1_ops4 main_part1_ops4_sub main_part1_ops4_fresh (W8 m ρ)),
    .host (hseg main_part1_ops5 main_part1_ops5_sub main_part1_ops5_fresh (W9 m ρ)),
    .host (hseg main_part2_ops0 main_part2_ops0_sub main_part2_ops0_fresh (W10 m ρ)),
    .region (reg1 m ρ),
    .host (hseg main_part2_ops1 main_part2_ops1_sub main_part2_ops1_fresh (W12 m ρ)),
    .host (hseg main_part3_ops0 main_part3_ops0_sub main_part3_ops0_fresh (W13 m ρ)),
    .region (reg2 m ρ),
    .host (hseg main_part3_ops1 main_part3_ops1_sub main_part3_ops1_fresh (W15 m ρ)),
    .host (hseg main_part4_ops0 main_part4_ops0_sub main_part4_ops0_fresh (W16 m ρ)),
    .region (reg3 m ρ),
    .host (hseg main_part4_ops1 main_part4_ops1_sub main_part4_ops1_fresh (W18 m ρ)),
    .host (hseg main_part5_ops0 main_part5_ops0_sub main_part5_ops0_fresh (W19 m ρ)) ]
/-- @main is the run of the segments: the chain of its items, and the segments' run against that chain. -/
theorem main_run (c : Dev nD) : main (F := F) c = Pipeline.Seg.run (segs m ρ) := (main_chain_windows c).trans (by chain_rfl)

set_option backward.isDefEq.respectTransparency.types false in
/-- THE RUN: at the compiled mesh, from any memory with zero counters, every weakly fair execution of @main on the
    TensorCores terminates, nothing faulting, and every final state holds in every unscoped buffer what the fold of
    the twenty items from the launch memory holds there (`W20`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- THE FRAME: every weakly fair execution of @main terminates, nothing faulting, and every final state has the
    argument arrays as launched: each is an unscoped buffer, and the fold leaves it at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  OrdCont.mono (θ_run defs (onTc (τ := τ) (main (F := F))) ⟨m, fun _ => 0, ρ⟩) (fun r h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c)⟩) (run_all m ρ)

/-- The same run read at the result buffer as well: the final state holds there what the fold holds, and the
    argument arrays are as launched. -/
theorem result_at : θ_run defs (onTc (τ := τ) (main (F := F))) ⟨m, fun _ => 0, ρ⟩ (fun r => ∀ c : Dev nD,
      r.2.mem ((c.tc : Thread nD τ).loc main_v243) = W20 m ρ c (Proc.devRef .tc main_v243)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  OrdCont.mono (θ_run defs (onTc (τ := τ) (main (F := F))) ⟨m, fun _ => 0, ρ⟩) (fun r h c =>
    ⟨h c _ (mem_uc main_v243 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c)⟩) (run_all m ρ)

end Cert.KernelIdeal.Hand

end
-- ==== Proof.Ref.Basic.lean ====
/- The run of the reference program: what its eight windows share.

   The reference is a straight line of host operations: each writes ONE buffer from the whole contents of its
   operands, so the memory after a line is the fold of the operations' results over the launch contents. Three
   small facts serve every window: (1) a window printed as stretches run one after the other, the last in tail
   position, is the single line of their concatenation; (2) an operation whose one written buffer is in a list
   of references writes inside that list's image, so a reference outside the list keeps its contents through the
   line; (3) the eighteen argument buffers, as a list, to be checked against each window's written buffers. -/
import proofs.«111184_j68341519614847_1_alg».proof.Proof.Gen.ReferenceIdeal
import Idealize.ShloMosaic.Lib.Pipeline.Frame

noncomputable section

namespace Cert.ReferenceIdeal.Hand

open Idealize.ShloMosaic Idealize.ShloMosaic.TcCoe Idealize.SL.Sem

section General

variable {nD' : Nat} {τ' : Topo} {sig' : RefSig} {Val : EltTy → Type} {Λ : Labels}

/-- Stretches run one after the other, ending in the stretch `q` in tail position, are the one line of their
    concatenation: induction on the stretches, each step `seq_append` read right to left. -/
theorem chainK_seq (xs : List (List (HloOp τ' sig' Val))) (q : List (HloOp τ' sig' Val)) :
    (Pipeline.chainK (xs.map StableHlo.seq) (StableHlo.seq q) : Prog (TpuEff nD' τ' sig' Val Λ .tc) PUnit)
      = StableHlo.seq (xs.flatten ++ q) := by
  induction xs with
  | nil => rfl
  | cons x xs ih =>
    rw [List.map_cons, Pipeline.chainK, ih, List.flatten_cons, List.append_assoc, StableHlo.seq_append x]

/-- The one buffer an operation writes, when it is in the list `W`, is in the image of `W`. -/
theorem wsub {W : List (Ref sig' .tc)} {y : Ref sig' .tc} (hy : y ∈ W) :
    ({Proc.devRef .tc y} : Finset (DevRef τ' sig')) ⊆ (W.map (Proc.devRef (τ := τ') .tc)).toFinset :=
  Finset.singleton_subset_iff.mpr (List.mem_toFinset.mpr (List.mem_map_of_mem hy))

/-- Facts about every operation of two lines are facts about every operation of the two in a row. -/
theorem forall_app {p : HloOp τ' sig' Val → Prop} {l₁ l₂ : List (HloOp τ' sig' Val)} (h₁ : l₁.Forall p) (h₂ : l₂.Forall p) :
    (l₁ ++ l₂).Forall p := List.forall_append.mpr ⟨h₁, h₂⟩

end General

open Cert.ReferenceIdeal Cert.ReferenceIdeal.Gen

/-- @main's eighteen argument buffers, in order. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

end Cert.ReferenceIdeal.Hand

end
-- ==== Proof.Ref.Ops0.lean ====
/- Window 0 of the reference's @main, statements 1 … 60 of 433, as a LIST of host operations: each of the
   window's statements in order, a call of a module-local function written as that function's operations over the
   call's operands and its record of buffers (calling is running the body). The window IS the line of that list
   (`main_part0_eq`): cut at each call, the printed window and the stretches agree by unfolding alone, and stretches
   run in a row are the line of their concatenation. Every operation touches TensorCore buffers only (`ops0_sub`),
   determines its result (`ops0_fresh`) and writes one buffer of the list `W0` (`ops0_writes`); no argument of @main
   is in that list, so the window leaves the arguments as they were (`ops0_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretch 0 of window 0: 18 operations. -/
abbrev ops0_0 : List (HloOp τ sig (Elt F)) :=
  [ StableHlo.nullary main_c (fun i => lit0 (S5.rowMajor i)),
    StableHlo.nullary main_c_0 (fun i => lit1 (S6.rowMajor i)),
    StableHlo.nullary main_c_1 (constantI S_ 32 0#32),
    StableHlo.unary main_c_1 main_v0 (broadcastInDim S5 ![] bcast_S_S5 : (⟨S_, .i32⟩ : BufTy).Contents (Elt F) → (⟨S5, .i32⟩ : BufTy).Contents (Elt F)),
    StableHlo.binary main_c main_v0 main_v1 (cmpi .slt : (⟨S5, .i32⟩ : BufTy).Contents (Elt F) → (⟨S5, .i32⟩ : BufTy).Contents (Elt F) → (⟨S5, .i1⟩ : BufTy).Contents (Elt F)),
    StableHlo.nullary main_c_2 (constantI S_ 32 10#32),
    StableHlo.unary main_c_2 main_v2 (broadcastInDim S5 ![] bcast_S_S5 : (⟨S_, .i32⟩ : BufTy).Contents (Elt F) → (⟨S5, .i32⟩ : BufTy).Contents (Elt F)),
    StableHlo.binary main_c main_v2 main_v3 (addi : (⟨S5, .i32⟩ : BufTy).Contents (Elt F) → (⟨S5, .i32⟩ : BufTy).Contents (Elt F) → (⟨S5, .i32⟩ : BufTy).Contents (Elt F)),
    StableHlo.ternary main_v1 main_v3 main_c main_v4 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v4 main_v5 (broadcastInDim S5x1 ![0] bcast_S5_S5x1_0 : (⟨S5, .i32⟩ : BufTy).Contents (Elt F) → (⟨S5x1, .i32⟩ : BufTy).Contents (Elt F)),
    StableHlo.binary main_arg0 main_v5 main_v6 ((fun x i => Host.gather gather_S200000x10_S5x1_S200000x5_0_1_n_n_1_1_2000001 x i) : (⟨S200000x10, .f32⟩ : BufTy).Contents (Elt F) → (⟨S5x1, .i32⟩ : BufTy).Contents (Elt F) → (⟨S200000x5, .f32⟩ : BufTy).Contents (Elt F)),
    StableHlo.unary main_arg6 main_v7 ((extractStridedSlice S1x200x16 ![0, 0, 0] · slices_S5x200x16_S1x200x16_0_0_0) : (⟨S5x200x16, .f32⟩ : BufTy).Contents (Elt F) → (⟨S1x200x16, .f32⟩ : BufTy).Contents (Elt F)),
    StableHlo.reshape main_v7 main_v8 rfl shapeCasts_S1x200x16_S200x16,
    StableHlo.unary main_arg0 main_v9 ((extractStridedSlice S200000x1 ![0, 1] · slices_S200000x10_S200000x1_0_1) : (⟨S200000x10, .f32⟩ : BufTy).Contents (Elt F) → (⟨S200000x1, .f32⟩ : BufTy).Contents (Elt F)),
    StableHlo.reshape main_v9 main_v10 rfl shapeCasts_S200000x1_S200000,
    StableHlo.unary main_v10 main_v11 (fptosi 32 : (⟨S200000, .f32⟩ : BufTy).Contents (Elt F) → (⟨S200000, .i32⟩ : BufTy).Contents (Elt F)),
    StableHlo.nullary main_c_3 (constantI S_ 32 0#32),
    StableHlo.nullary main_c_4 (constantI S_ 32 199#32) ]

/-- Stretch 1 of window 0: 6 operations. -/
abbrev ops0_1 : List (HloOp τ sig (Elt F)) :=
  [ StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S200000, .i32⟩) (broadcastInDim S200000 ![] bcast_S_S200000),
    StableHlo.TRef.binary (.of main_call0_v1 : StableHlo.TRef sig ⟨S200000, .i32⟩) (.of main_v11 : StableHlo.TRef sig ⟨S200000, .i32⟩) (.of main_call0_v2 : StableHlo.TRef sig ⟨S200000, .i32⟩) maxsi,
    StableHlo.TRef.unary (.of main_c_4 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S200000, .i32⟩) (broadcastInDim S200000 ![] bcast_S_S200000),
    StableHlo.TRef.binary (.of main_call0_v4 : StableHlo.TRef sig ⟨S200000, .i32⟩) (.of main_call0_v2 : StableHlo.TRef sig ⟨S200000, .i32⟩) (.of main_v12 : StableHlo.TRef sig ⟨S200000, .i32⟩) minsi ]

/-- Stretch 2 of window 0: 16 operations. -/
abbrev ops0_2 : List (HloOp τ sig (Elt F)) :=
  [ StableHlo.nullary main_c_5 (constantI S_ 32 0#32),
    StableHlo.unary main_c_5 main_v13 (broadcastInDim S200000 ![] bcast_S_S200000 : (⟨S_, .i32⟩ : BufTy).Contents (Elt F) → (⟨S200000, .i32⟩ : BufTy).Contents (Elt F)),
    StableHlo.binary main_v12 main_v13 main_v14 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 200#32),
    StableHlo.unary main_c_6 main_v15 (broadcastInDim S200000 ![] bcast_S_S200000 : (⟨S_, .i32⟩ : BufTy).Contents (Elt F) → (⟨S200000, .i32⟩ : BufTy).Contents (Elt F)),
    StableHlo.binary main_v12 main_v15 main_v16 (addi : (⟨S200000, .i32⟩ : BufTy).Contents (Elt F) → (⟨S200000, .i32⟩ : BufTy).Contents (Elt F) → (⟨S200000, .i32⟩ : BufTy).Contents (Elt F)),
    StableHlo.ternary main_v14 main_v16 main_v12 main_v17 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v17 main_v18 (broadcastInDim S200000x1 ![0] bcast_S200000_S200000x1_0 : (⟨S200000, .i32⟩ : BufTy).Contents (Elt F) → (⟨S200000x1, .i32⟩ : BufTy).Contents (Elt F)),
    StableHlo.binary main_v8 main_v18 main_v19 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v20 ((extractStridedSlice S1x200x16 ![1, 0, 0] · slices_S5x200x16_S1x200x16_1_0_0) : (⟨S5x200x16, .f32⟩ : BufTy).Contents (Elt F) → (⟨S1x200x16, .f32⟩ : BufTy).Contents (Elt F)),
    StableHlo.reshape main_v20 main_v21 rfl shapeCasts_S1x200x16_S200x16,
    StableHlo.unary main_arg0 main_v22 ((extractStridedSlice S200000x1 ![0, 2] · slices_S200000x10_S200000x1_0_2) : (⟨S200000x10, .f32⟩ : BufTy).Contents (Elt F) → (⟨S200000x1, .f32⟩ : BufTy).Contents (Elt F)),
    StableHlo.reshape main_v22 main_v23 rfl shapeCasts_S200000x1_S200000,
    StableHlo.unary main_v23 main_v24 (fptosi 32 : (⟨S200000, .f32⟩ : BufTy).Contents (Elt F) → (⟨S200000, .i32⟩ : BufTy).Contents (Elt F)),
    StableHlo.nullary main_c_7 (constantI S_ 32 0#32),
    StableHlo.nullary main_c_8 (constantI S_ 32 199#32) ]

/-- Stretch 3 of window 0: 6 operations. -/
abbrev ops0_3 : List (HloOp τ sig (Elt F)) :=
  [ StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S200000, .i32⟩) (broadcastInDim S200000 ![] bcast_S_S200000),
    StableHlo.TRef.binary (.of main_call1_v1 : StableHlo.TRef sig ⟨S200000, .i32⟩) (.of main_v24 : StableHlo.TRef sig ⟨S200000, .i32⟩) (.of main_call1_v2 : StableHlo.TRef sig ⟨S200000, .i32⟩) maxsi,
    StableHlo.TRef.unary (.of main_c_8 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S200000, .i32⟩) (broadcastInDim S200000 ![] bcast_S_S200000),
    StableHlo.TRef.binary (.of main_call1_v4 : StableHlo.TRef sig ⟨S200000, .i32⟩) (.of main_call1_v2 : StableHlo.TRef sig ⟨S200000, .i32⟩) (.of main_v25 : StableHlo.TRef sig ⟨S200000, .i32⟩) minsi ]

/-- Stretch 4 of window 0: 16 operations. -/
abbrev ops0_4 : List (HloOp τ sig (Elt F)) :=
  [ StableHlo.nullary main_c_9 (constantI S_ 32 0#32),
    StableHlo.unary main_c_9 main_v26 (broadcastInDim S200000 ![] bcast_S_S200000 : (⟨S_, .i32⟩ : BufTy).Contents (Elt F) → (⟨S200000, .i32⟩ : BufTy).Contents (Elt F)),
    StableHlo.binary main_v25 main_v26 main_v27 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 200#32),
    StableHlo.unary main_c_10 main_v28 (broadcastInDim S200000 ![] bcast_S_S200000 : (⟨S_, .i32⟩ : BufTy).Contents (Elt F) → (⟨S200000, .i32⟩ : BufTy).Contents (Elt F)),
    StableHlo.binary main_v25 main_v28 main_v29 (addi : (⟨S200000, .i32⟩ : BufTy).Contents (Elt F) → (⟨S200000, .i32⟩ : BufTy).Contents (Elt F) → (⟨S200000, .i32⟩ : BufTy).Contents (Elt F)),
    StableHlo.ternary main_v27 main_v29 main_v25 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v30 main_v31 (broadcastInDim S200000x1 ![0] bcast_S200000_S200000x1_0 : (⟨S200000, .i32⟩ : BufTy).Contents (Elt F) → (⟨S200000x1, .i32⟩ : BufTy).Contents (Elt F)),
    StableHlo.binary main_v21 main_v31 main_v32 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v33 ((extractStridedSlice S1x200x16 ![2, 0, 0] · slices_S5x200x16_S1x200x16_2_0_0) : (⟨S5x200x16, .f32⟩ : BufTy).Contents (Elt F) → (⟨S1x200x16, .f32⟩ : BufTy).Contents (Elt F)),
    StableHlo.reshape main_v33 main_v34 rfl shapeCasts_S1x200x16_S200x16,
    StableHlo.unary main_arg0 main_v35 ((extractStridedSlice S200000x1 ![0, 3] · slices_S200000x10_S200000x1_0_3) : (⟨S200000x10, .f32⟩ : BufTy).Contents (Elt F) → (⟨S200000x1, .f32⟩ : BufTy).Contents (Elt F)),
    StableHlo.reshape main_v35 main_v36 rfl shapeCasts_S200000x1_S200000,
    StableHlo.unary main_v36 main_v37 (fptosi 32 : (⟨S200000, .f32⟩ : BufTy).Contents (Elt F) → (⟨S200000, .i32⟩ : BufTy).Contents (Elt F)),
    StableHlo.nullary main_c_11 (constantI S_ 32 0#32),
    StableHlo.nullary main_c_12 (constantI S_ 32 199#32) ]

/-- Stretch 5 of window 0: 6 operations. -/
abbrev ops0_5 : List (HloOp τ sig (Elt F)) :=
  [ StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S200000, .i32⟩) (broadcastInDim S200000 ![] bcast_S_S200000),
    StableHlo.TRef.binary (.of main_call2_v1 : StableHlo.TRef sig ⟨S200000, .i32⟩) (.of main_v37 : StableHlo.TRef sig ⟨S200000, .i32⟩) (.of main_call2_v2 : StableHlo.TRef sig ⟨S200000, .i32⟩) maxsi,
    StableHlo.TRef.unary (.of main_c_12 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S200000, .i32⟩) (broadcastInDim S200000 ![] bcast_S_S200000),
    StableHlo.TRef.binary (.of main_call2_v4 : StableHlo.TRef sig ⟨S200000, .i32⟩) (.of main_call2_v2 : StableHlo.TRef sig ⟨S200000, .i32⟩) (.of main_v38 : StableHlo.TRef sig ⟨S200000, .i32⟩) minsi ]

/-- Stretch 6 of window 0: 7 operations. -/
abbrev ops0_6 : List (HloOp τ sig (Elt F)) :=
  [ StableHlo.nullary main_c_13 (constantI S_ 32 0#32),
    StableHlo.unary main_c_13 main_v39 (broadcastInDim S200000 ![] bcast_S_S200000 : (⟨S_, .i32⟩ : BufTy).Contents (Elt F) → (⟨S200000, .i32⟩ : BufTy).Contents (Elt F)),
    StableHlo.binary main_v38 main_v39 main_v40 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 200#32),
    StableHlo.unary main_c_14 main_v41 (broadcastInDim S200000 ![] bcast_S_S200000 : (⟨S_, .i32⟩ : BufTy).Contents (Elt F) → (⟨S200000, .i32⟩ : BufTy).Contents (Elt F)),
    StableHlo.binary main_v38 main_v41 main_v42 (addi : (⟨S200000, .i32⟩ : BufTy).Contents (Elt F) → (⟨S200000, .i32⟩ : BufTy).Contents (Elt F) → (⟨S200000, .i32⟩ : BufTy).Contents (Elt F)),
    StableHlo.ternary main_v40 main_v42 main_v38 main_v43 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]

set_option maxHeartbeats 40000000 in
/-- Window 0's 75 operations, in order. -/
abbrev ops0 : List (HloOp τ sig (Elt F)) :=
  [ StableHlo.nullary main_c (fun i => lit0 (S5.rowMajor i)),
    StableHlo.nullary main_c_0 (fun i => lit1 (S6.rowMajor i)),
    StableHlo.nullary main_c_1 (constantI S_ 32 0#32),
    StableHlo.unary main_c_1 main_v0 (broadcastInDim S5 ![] bcast_S_S5 : (⟨S_, .i32⟩ : BufTy).Contents (Elt F) → (⟨S5, .i32⟩ : BufTy).Contents (Elt F)),
    StableHlo.binary main_c main_v0 main_v1 (cmpi .slt : (⟨S5, .i32⟩ : BufTy).Contents (Elt F) → (⟨S5, .i32⟩ : BufTy).Contents (Elt F) → (⟨S5, .i1⟩ : BufTy).Contents (Elt F)),
    StableHlo.nullary main_c_2 (constantI S_ 32 10#32),
    StableHlo.unary main_c_2 main_v2 (broadcastInDim S5 ![] bcast_S_S5 : (⟨S_, .i32⟩ : BufTy).Contents (Elt F) → (⟨S5, .i32⟩ : BufTy).Contents (Elt F)),
    StableHlo.binary main_c main_v2 main_v3 (addi : (⟨S5, .i32⟩ : BufTy).Contents (Elt F) → (⟨S5, .i32⟩ : BufTy).Contents (Elt F) → (⟨S5, .i32⟩ : BufTy).Contents (Elt F)),
    StableHlo.ternary main_v1 main_v3 main_c main_v4 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v4 main_v5 (broadcastInDim S5x1 ![0] bcast_S5_S5x1_0 : (⟨S5, .i32⟩ : BufTy).Contents (Elt F) → (⟨S5x1, .i32⟩ : BufTy).Contents (Elt F)),
    StableHlo.binary main_arg0 main_v5 main_v6 ((fun x i => Host.gather gather_S200000x10_S5x1_S200000x5_0_1_n_n_1_1_2000001 x i) : (⟨S200000x10, .f32⟩ : BufTy).Contents (Elt F) → (⟨S5x1, .i32⟩ : BufTy).Contents (Elt F) → (⟨S200000x5, .f32⟩ : BufTy).Contents (Elt F)),
    StableHlo.unary main_arg6 main_v7 ((extractStridedSlice S1x200x16 ![0, 0, 0] · slices_S5x200x16_S1x200x16_0_0_0) : (⟨S5x200x16, .f32⟩ : BufTy).Contents (Elt F) → (⟨S1x200x16, .f32⟩ : BufTy).Contents (Elt F)),
    StableHlo.reshape main_v7 main_v8 rfl shapeCasts_S1x200x16_S200x16,
    StableHlo.unary main_arg0 main_v9 ((extractStridedSlice S200000x1 ![0, 1] · slices_S200000x10_S200000x1_0_1) : (⟨S200000x10, .f32⟩ : BufTy).Contents (Elt F) → (⟨S200000x1, .f32⟩ : BufTy).Contents (Elt F)),
    StableHlo.reshape main_v9 main_v10 rfl shapeCasts_S200000x1_S200000,
    StableHlo.unary main_v10 main_v11 (fptosi 32 : (⟨S200000, .f32⟩ : BufTy).Contents (Elt F) → (⟨S200000, .i32⟩ : BufTy).Contents (Elt F)),
    StableHlo.nullary main_c_3 (constantI S_ 32 0#32),
    StableHlo.nullary main_c_4 (constantI S_ 32 199#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S200000, .i32⟩) (broadcastInDim S200000 ![] bcast_S_S200000),
    StableHlo.TRef.binary (.of main_call0_v1 : StableHlo.TRef sig ⟨S200000, .i32⟩) (.of main_v11 : StableHlo.TRef sig ⟨S200000, .i32⟩) (.of main_call0_v2 : StableHlo.TRef sig ⟨S200000, .i32⟩) maxsi,
    StableHlo.TRef.unary (.of main_c_4 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S200000, .i32⟩) (broadcastInDim S200000 ![] bcast_S_S200000),
    StableHlo.TRef.binary (.of main_call0_v4 : StableHlo.TRef sig ⟨S200000, .i32⟩) (.of main_call0_v2 : StableHlo.TRef sig ⟨S200000, .i32⟩) (.of main_v12 : StableHlo.TRef sig ⟨S200000, .i32⟩) minsi,
    StableHlo.nullary main_c_5 (constantI S_ 32 0#32),
    StableHlo.unary main_c_5 main_v13 (broadcastInDim S200000 ![] bcast_S_S200000 : (⟨S_, .i32⟩ : BufTy).Contents (Elt F) → (⟨S200000, .i32⟩ : BufTy).Contents (Elt F)),
    StableHlo.binary main_v12 main_v13 main_v14 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 200#32),
    StableHlo.unary main_c_6 main_v15 (broadcastInDim S200000 ![] bcast_S_S200000 : (⟨S_, .i32⟩ : BufTy).Contents (Elt F) → (⟨S200000, .i32⟩ : BufTy).Contents (Elt F)),
    StableHlo.binary main_v12 main_v15 main_v16 (addi : (⟨S200000, .i32⟩ : BufTy).Contents (Elt F) → (⟨S200000, .i32⟩ : BufTy).Contents (Elt F) → (⟨S200000, .i32⟩ : BufTy).Contents (Elt F)),
    StableHlo.ternary main_v14 main_v16 main_v12 main_v17 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v17 main_v18 (broadcastInDim S200000x1 ![0] bcast_S200000_S200000x1_0 : (⟨S200000, .i32⟩ : BufTy).Contents (Elt F) → (⟨S200000x1, .i32⟩ : BufTy).Contents (Elt F)),
    StableHlo.binary main_v8 main_v18 main_v19 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v20 ((extractStridedSlice S1x200x16 ![1, 0, 0] · slices_S5x200x16_S1x200x16_1_0_0) : (⟨S5x200x16, .f32⟩ : BufTy).Contents (Elt F) → (⟨S1x200x16, .f32⟩ : BufTy).Contents (Elt F)),
    StableHlo.reshape main_v20 main_v21 rfl shapeCasts_S1x200x16_S200x16,
    StableHlo.unary main_arg0 main_v22 ((extractStridedSlice S200000x1 ![0, 2] · slices_S200000x10_S200000x1_0_2) : (⟨S200000x10, .f32⟩ : BufTy).Contents (Elt F) → (⟨S200000x1, .f32⟩ : BufTy).Contents (Elt F)),
    StableHlo.reshape main_v22 main_v23 rfl shapeCasts_S200000x1_S200000,
    StableHlo.unary main_v23 main_v24 (fptosi 32 : (⟨S200000, .f32⟩ : BufTy).Contents (Elt F) → (⟨S200000, .i32⟩ : BufTy).Contents (Elt F)),
    StableHlo.nullary main_c_7 (constantI S_ 32 0#32),
    StableHlo.nullary main_c_8 (constantI S_ 32 199#32),
    StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S200000, .i32⟩) (broadcastInDim S200000 ![] bcast_S_S200000),
    StableHlo.TRef.binary (.of main_call1_v1 : StableHlo.TRef sig ⟨S200000, .i32⟩) (.of main_v24 : StableHlo.TRef sig ⟨S200000, .i32⟩) (.of main_call1_v2 : StableHlo.TRef sig ⟨S200000, .i32⟩) maxsi,
    StableHlo.TRef.unary (.of main_c_8 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S200000, .i32⟩) (broadcastInDim S200000 ![] bcast_S_S200000),
    StableHlo.TRef.binary (.of main_call1_v4 : StableHlo.TRef sig ⟨S200000, .i32⟩) (.of main_call1_v2 : StableHlo.TRef sig ⟨S200000, .i32⟩) (.of main_v25 : StableHlo.TRef sig ⟨S200000, .i32⟩) minsi,
    StableHlo.nullary main_c_9 (constantI S_ 32 0#32),
    StableHlo.unary main_c_9 main_v26 (broadcastInDim S200000 ![] bcast_S_S200000 : (⟨S_, .i32⟩ : BufTy).Contents (Elt F) → (⟨S200000, .i32⟩ : BufTy).Contents (Elt F)),
    StableHlo.binary main_v25 main_v26 main_v27 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 200#32),
    StableHlo.unary main_c_10 main_v28 (broadcastInDim S200000 ![] bcast_S_S200000 : (⟨S_, .i32⟩ : BufTy).Contents (Elt F) → (⟨S200000, .i32⟩ : BufTy).Contents (Elt F)),
    StableHlo.binary main_v25 main_v28 main_v29 (addi : (⟨S200000, .i32⟩ : BufTy).Contents (Elt F) → (⟨S200000, .i32⟩ : BufTy).Contents (Elt F) → (⟨S200000, .i32⟩ : BufTy).Contents (Elt F)),
    StableHlo.ternary main_v27 main_v29 main_v25 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v30 main_v31 (broadcastInDim S200000x1 ![0] bcast_S200000_S200000x1_0 : (⟨S200000, .i32⟩ : BufTy).Contents (Elt F) → (⟨S200000x1, .i32⟩ : BufTy).Contents (Elt F)),
    StableHlo.binary main_v21 main_v31 main_v32 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v33 ((extractStridedSlice S1x200x16 ![2, 0, 0] · slices_S5x200x16_S1x200x16_2_0_0) : (⟨S5x200x16, .f32⟩ : BufTy).Contents (Elt F) → (⟨S1x200x16, .f32⟩ : BufTy).Contents (Elt F)),
    StableHlo.reshape main_v33 main_v34 rfl shapeCasts_S1x200x16_S200x16,
    StableHlo.unary main_arg0 main_v35 ((extractStridedSlice S200000x1 ![0, 3] · slices_S200000x10_S200000x1_0_3) : (⟨S200000x10, .f32⟩ : BufTy).Contents (Elt F) → (⟨S200000x1, .f32⟩ : BufTy).Contents (Elt F)),
    StableHlo.reshape main_v35 main_v36 rfl shapeCasts_S200000x1_S200000,
    StableHlo.unary main_v36 main_v37 (fptosi 32 : (⟨S200000, .f32⟩ : BufTy).Contents (Elt F) → (⟨S200000, .i32⟩ : BufTy).Contents (Elt F)),
    StableHlo.nullary main_c_11 (constantI S_ 32 0#32),
    StableHlo.nullary main_c_12 (constantI S_ 32 199#32),
    StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S200000, .i32⟩) (broadcastInDim S200000 ![] bcast_S_S200000),
    StableHlo.TRef.binary (.of main_call2_v1 : StableHlo.TRef sig ⟨S200000, .i32⟩) (.of main_v37 : StableHlo.TRef sig ⟨S200000, .i32⟩) (.of main_call2_v2 : StableHlo.TRef sig ⟨S200000, .i32⟩) maxsi,
    StableHlo.TRef.unary (.of main_c_12 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S200000, .i32⟩) (broadcastInDim S200000 ![] bcast_S_S200000),
    StableHlo.TRef.binary (.of main_call2_v4 : StableHlo.TRef sig ⟨S200000, .i32⟩) (.of main_call2_v2 : StableHlo.TRef sig ⟨S200000, .i32⟩) (.of main_v38 : StableHlo.TRef sig ⟨S200000, .i32⟩) minsi,
    StableHlo.nullary main_c_13 (constantI S_ 32 0#32),
    StableHlo.unary main_c_13 main_v39 (broadcastInDim S200000 ![] bcast_S_S200000 : (⟨S_, .i32⟩ : BufTy).Contents (Elt F) → (⟨S200000, .i32⟩ : BufTy).Contents (Elt F)),
    StableHlo.binary main_v38 main_v39 main_v40 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 200#32),
    StableHlo.unary main_c_14 main_v41 (broadcastInDim S200000 ![] bcast_S_S200000 : (⟨S_, .i32⟩ : BufTy).Contents (Elt F) → (⟨S200000, .i32⟩ : BufTy).Contents (Elt F)),
    StableHlo.binary main_v38 main_v41 main_v42 (addi : (⟨S200000, .i32⟩ : BufTy).Contents (Elt F) → (⟨S200000, .i32⟩ : BufTy).Contents (Elt F) → (⟨S200000, .i32⟩ : BufTy).Contents (Elt F)),
    StableHlo.ternary main_v40 main_v42 main_v38 main_v43 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]

/-- The window, cut at its calls: the stretches in a row, the last in tail position. -/
theorem main_part0_chain (c : Dev nD) : main_part0 (F := F) c = (Pipeline.chainK
  [ StableHlo.seq ops0_0,
    StableHlo.seq ops0_1,
    StableHlo.seq ops0_2,
    StableHlo.seq ops0_3,
    StableHlo.seq ops0_4,
    StableHlo.seq ops0_5 ]
  (StableHlo.seq ops0_6) : Prog (TpuEff nD τ sig (Elt F) (Pipeline.Sig Λ₀ (Fin 0) fun p => (pcfgs (F := F) p).Adm) .tc) PUnit) := by
  chain_rfl

/-- The stretches' concatenation is the window's list. -/
theorem ops0_pieces : (ops0 : List (HloOp τ sig (Elt F))) = [ops0_0, ops0_1, ops0_2, ops0_3, ops0_4, ops0_5].flatten ++ ops0_6 := rfl

/-- The window is the line of its operations. -/
theorem main_part0_eq (c : Dev nD) : main_part0 (F := F) c = (StableHlo.seq ops0 : Prog (TpuEff nD τ sig (Elt F) (Pipeline.Sig Λ₀ (Fin 0) fun p => (pcfgs (F := F) p).Adm) .tc) PUnit) := by
  rw [main_part0_chain c, ops0_pieces]
  exact chainK_seq [ops0_0, ops0_1, ops0_2, ops0_3, ops0_4, ops0_5] ops0_6

set_option maxHeartbeats 40000000 in
/-- Each touches TensorCore references only. -/
theorem ops0_sub : (ops0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- Each determines its result: none allocates a buffer without contents. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W0 : List (Ref sig .tc) :=
  [main_c, main_c_0, main_c_1, main_v0, main_v1, main_c_2, main_v2, main_v3, main_v4, main_v5, main_v6, main_v7, main_v8, main_v9, main_v10, main_v11, main_c_3, main_c_4, main_call0_v0, main_call0_v1, main_call0_v2, main_call0_v3, main_call0_v4, main_v12, main_c_5, main_v13, main_v14, main_c_6, main_v15, main_v16, main_v17, main_v18, main_v19, main_v20, main_v21, main_v22, main_v23, main_v24, main_c_7, main_c_8, main_call1_v0, main_call1_v1, main_call1_v2, main_call1_v3, main_call1_v4, main_v25, main_c_9, main_v26, main_v27, main_c_10, main_v28, main_v29, main_v30, main_v31, main_v32, main_v33, main_v34, main_v35, main_v36, main_v37, main_c_11, main_c_12, main_call2_v0, main_call2_v1, main_call2_v2, main_call2_v3, main_call2_v4, main_v38, main_c_13, main_v39, main_v40, main_c_14, main_v41, main_v42, main_v43]

set_option maxHeartbeats 40000000 in
/-- Each writes one buffer, of that list. -/
theorem ops0_writes : (ops0 : List (HloOp τ sig (Elt F))).Forall fun op => op.writes ⊆ (W0.map (Proc.devRef (τ := τ) .tc)).toFinset :=
  ⟨wsub (y := main_c) (by decide), wsub (y := main_c_0) (by decide), wsub (y := main_c_1) (by decide), wsub (y := main_v0) (by decide), wsub (y := main_v1) (by decide), wsub (y := main_c_2) (by decide), wsub (y := main_v2) (by decide), wsub (y := main_v3) (by decide), wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_c_3) (by decide), wsub (y := main_c_4) (by decide), wsub (y := main_call0_v0) (by decide), wsub (y := main_call0_v1) (by decide), wsub (y := main_call0_v2) (by decide), wsub (y := main_call0_v3) (by decide), wsub (y := main_call0_v4) (by decide), wsub (y := main_v12) (by decide), wsub (y := main_c_5) (by decide), wsub (y := main_v13) (by decide), wsub (y := main_v14) (by decide), wsub (y := main_c_6) (by decide), wsub (y := main_v15) (by decide), wsub (y := main_v16) (by decide), wsub (y := main_v17) (by decide), wsub (y := main_v18) (by decide), wsub (y := main_v19) (by decide), wsub (y := main_v20) (by decide), wsub (y := main_v21) (by decide), wsub (y := main_v22) (by decide), wsub (y := main_v23) (by decide), wsub (y := main_v24) (by decide), wsub (y := main_c_7) (by decide), wsub (y := main_c_8) (by decide), wsub (y := main_call1_v0) (by decide), wsub (y := main_call1_v1) (by decide), wsub (y := main_call1_v2) (by decide), wsub (y := main_call1_v3) (by decide), wsub (y := main_call1_v4) (by decide), wsub (y := main_v25) (by decide), wsub (y := main_c_9) (by decide), wsub (y := main_v26) (by decide), wsub (y := main_v27) (by decide), wsub (y := main_c_10) (by decide), wsub (y := main_v28) (by decide), wsub (y := main_v29) (by decide), wsub (y := main_v30) (by decide), wsub (y := main_v31) (by decide), wsub (y := main_v32) (by decide), wsub (y := main_v33) (by decide), wsub (y := main_v34) (by decide), wsub (y := main_v35) (by decide), wsub (y := main_v36) (by decide), wsub (y := main_v37) (by decide), wsub (y := main_c_11) (by decide), wsub (y := main_c_12) (by decide), wsub (y := main_call2_v0) (by decide), wsub (y := main_call2_v1) (by decide), wsub (y := main_call2_v2) (by decide), wsub (y := main_call2_v3) (by decide), wsub (y := main_call2_v4) (by decide), wsub (y := main_v38) (by decide), wsub (y := main_c_13) (by decide), wsub (y := main_v39) (by decide), wsub (y := main_v40) (by decide), wsub (y := main_c_14) (by decide), wsub (y := main_v41) (by decide), wsub (y := main_v42) (by decide), wsub (y := main_v43) (by decide)⟩

/-- No argument of @main is written in the window. -/
theorem args0 : ∀ r ∈ argRefs, r ∉ W0 := by decide

/-- The window leaves each argument's buffer as it was. -/
theorem ops0_keeps (V : Valuation τ sig (Elt F)) {r : Ref sig .tc} (hr : r ∈ argRefs) :
    StableHlo.after ops0 V (Proc.devRef .tc r) = V (Proc.devRef .tc r) :=
  StableHlo.after_of_writes_sub ops0 V ops0_writes (args0 r hr)

end Cert.ReferenceIdeal.Hand

end
-- ==== Proof.Ref.Ops1.lean ====
/- Window 1 of the reference's @main, statements 61 … 120 of 433, as a LIST of host operations: each of the
   window's statements in order, a call of a module-local function written as that function's operations over the
   call's operands and its record of buffers (calling is running the body). The window IS the line of that list
   (`main_part1_eq`): cut at each call, the printed window and the stretches agree by unfolding alone, and stretches
   run in a row are the line of their concatenation. Every operation touches TensorCore buffers only (`ops1_sub`),
   determines its result (`ops1_fresh`) and writes one buffer of the list `W1` (`ops1_writes`); no argument of @main
   is in that list, so the window leaves the arguments as they were (`ops1_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretch 0 of window 1: 9 operations. -/
abbrev ops1_0 : List (HloOp τ sig (Elt F)) :=
  [ StableHlo.unary main_v43 main_v44 (broadcastInDim S200000x1 ![0] bcast_S200000_S200000x1_0 : (⟨S200000, .i32⟩ : BufTy).Contents (Elt F) → (⟨S200000x1, .i32⟩ : BufTy).Contents (Elt F)),
    StableHlo.binary main_v34 main_v44 main_v45 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v46 ((extractStridedSlice S1x200x16 ![3, 0, 0] · slices_S5x200x16_S1x200x16_3_0_0) : (⟨S5x200x16, .f32⟩ : BufTy).Contents (Elt F) → (⟨S1x200x16, .f32⟩ : BufTy).Contents (Elt F)),
    StableHlo.reshape main_v46 main_v47 rfl shapeCasts_S1x200x16_S200x16,
    StableHlo.unary main_arg0 main_v48 ((extractStridedSlice S200000x1 ![0, 4] · slices_S200000x10_S200000x1_0_4) : (⟨S200000x10, .f32⟩ : BufTy).Contents (Elt F) → (⟨S200000x1, .f32⟩ : BufTy).Contents (Elt F)),
    StableHlo.reshape main_v48 main_v49 rfl shapeCasts_S200000x1_S200000,
    StableHlo.unary main_v49 main_v50 (fptosi 32 : (⟨S200000, .f32⟩ : BufTy).Contents (Elt F) → (⟨S200000, .i32⟩ : BufTy).Contents (Elt F)),
    StableHlo.nullary main_c_15 (constantI S_ 32 0#32),
    StableHlo.nullary main_c_16 (constantI S_ 32 199#32) ]

/-- Stretch 1 of window 1: 6 operations. -/
abbrev ops1_1 : List (HloOp τ sig (Elt F)) :=
  [ StableHlo.TRef.unary (.of main_c_15 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S200000, .i32⟩) (broadcastInDim S200000 ![] bcast_S_S200000),
    StableHlo.TRef.binary (.of main_call3_v1 : StableHlo.TRef sig ⟨S200000, .i32⟩) (.of main_v50 : StableHlo.TRef sig ⟨S200000, .i32⟩) (.of main_call3_v2 : StableHlo.TRef sig ⟨S200000, .i32⟩) maxsi,
    StableHlo.TRef.unary (.of main_c_16 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S200000, .i32⟩) (broadcastInDim S200000 ![] bcast_S_S200000),
    StableHlo.TRef.binary (.of main_call3_v4 : StableHlo.TRef sig ⟨S200000, .i32⟩) (.of main_call3_v2 : StableHlo.TRef sig ⟨S200000, .i32⟩) (.of main_v51 : StableHlo.TRef sig ⟨S200000, .i32⟩) minsi ]

/-- Stretch 2 of window 1: 16 operations. -/
abbrev ops1_2 : List (HloOp τ sig (Elt F)) :=
  [ StableHlo.nullary main_c_17 (constantI S_ 32 0#32),
    StableHlo.unary main_c_17 main_v52 (broadcastInDim S200000 ![] bcast_S_S200000 : (⟨S_, .i32⟩ : BufTy).Contents (Elt F) → (⟨S200000, .i32⟩ : BufTy).Contents (Elt F)),
    StableHlo.binary main_v51 main_v52 main_v53 (cmpi .slt : (⟨S200000, .i32⟩ : BufTy).Contents (Elt F) → (⟨S200000, .i32⟩ : BufTy).Contents (Elt F) → (⟨S200000, .i1⟩ : BufTy).Contents (Elt F)),
    StableHlo.nullary main_c_18 (constantI S_ 32 200#32),
    StableHlo.unary main_c_18 main_v54 (broadcastInDim S200000 ![] bcast_S_S200000 : (⟨S_, .i32⟩ : BufTy).Contents (Elt F) → (⟨S200000, .i32⟩ : BufTy).Contents (Elt F)),
    StableHlo.binary main_v51 main_v54 main_v55 (addi : (⟨S200000, .i32⟩ : BufTy).Contents (Elt F) → (⟨S200000, .i32⟩ : BufTy).Contents (Elt F) → (⟨S200000, .i32⟩ : BufTy).Contents (Elt F)),
    StableHlo.ternary main_v53 main_v55 main_v51 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v56 main_v57 (broadcastInDim S200000x1 ![0] bcast_S200000_S200000x1_0 : (⟨S200000, .i32⟩ : BufTy).Contents (Elt F) → (⟨S200000x1, .i32⟩ : BufTy).Contents (Elt F)),
    StableHlo.binary main_v47 main_v57 main_v58 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v59 ((extractStridedSlice S1x200x16 ![4, 0, 0] · slices_S5x200x16_S1x200x16_4_0_0) : (⟨S5x200x16, .f32⟩ : BufTy).Contents (Elt F) → (⟨S1x200x16, .f32⟩ : BufTy).Contents (Elt F)),
    StableHlo.reshape main_v59 main_v60 rfl shapeCasts_S1x200x16_S200x16,
    StableHlo.unary main_arg0 main_v61 ((extractStridedSlice S200000x1 ![0, 5] · slices_S200000x10_S200000x1_0_5) : (⟨S200000x10, .f32⟩ : BufTy).Contents (Elt F) → (⟨S200000x1, .f32⟩ : BufTy).Contents (Elt F)),
    StableHlo.reshape main_v61 main_v62 rfl shapeCasts_S200000x1_S200000,
    StableHlo.unary main_v62 main_v63 (fptosi 32 : (⟨S200000, .f32⟩ : BufTy).Contents (Elt F) → (⟨S200000, .i32⟩ : BufTy).Contents (Elt F)),
    StableHlo.nullary main_c_19 (constantI S_ 32 0#32),
    StableHlo.nullary main_c_20 (constantI S_ 32 199#32) ]

/-- Stretch 3 of window 1: 6 operations. -/
abbrev ops1_3 : List (HloOp τ sig (Elt F)) :=
  [ StableHlo.TRef.unary (.of main_c_19 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S200000, .i32⟩) (broadcastInDim S200000 ![] bcast_S_S200000),
    StableHlo.TRef.binary (.of main_call4_v1 : StableHlo.TRef sig ⟨S200000, .i32⟩) (.of main_v63 : StableHlo.TRef sig ⟨S200000, .i32⟩) (.of main_call4_v2 : StableHlo.TRef sig ⟨S200000, .i32⟩) maxsi,
    StableHlo.TRef.unary (.of main_c_20 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S200000, .i32⟩) (broadcastInDim S200000 ![] bcast_S_S200000),
    StableHlo.TRef.binary (.of main_call4_v4 : StableHlo.TRef sig ⟨S200000, .i32⟩) (.of main_call4_v2 : StableHlo.TRef sig ⟨S200000, .i32⟩) (.of main_v64 : StableHlo.TRef sig ⟨S200000, .i32⟩) minsi ]

/-- Stretch 4 of window 1: 29 operations. -/
abbrev ops1_4 : List (HloOp τ sig (Elt F)) :=
  [ StableHlo.nullary main_c_21 (constantI S_ 32 0#32),
    StableHlo.unary main_c_21 main_v65 (broadcastInDim S200000 ![] bcast_S_S200000 : (⟨S_, .i32⟩ : BufTy).Contents (Elt F) → (⟨S200000, .i32⟩ : BufTy).Contents (Elt F)),
    StableHlo.binary main_v64 main_v65 main_v66 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 200#32),
    StableHlo.unary main_c_22 main_v67 (broadcastInDim S200000 ![] bcast_S_S200000 : (⟨S_, .i32⟩ : BufTy).Contents (Elt F) → (⟨S200000, .i32⟩ : BufTy).Contents (Elt F)),
    StableHlo.binary main_v64 main_v67 main_v68 (addi : (⟨S200000, .i32⟩ : BufTy).Contents (Elt F) → (⟨S200000, .i32⟩ : BufTy).Contents (Elt F) → (⟨S200000, .i32⟩ : BufTy).Contents (Elt F)),
    StableHlo.ternary main_v66 main_v68 main_v64 main_v69 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v69 main_v70 (broadcastInDim S200000x1 ![0] bcast_S200000_S200000x1_0 : (⟨S200000, .i32⟩ : BufTy).Contents (Elt F) → (⟨S200000x1, .i32⟩ : BufTy).Contents (Elt F)),
    StableHlo.binary main_v60 main_v70 main_v71 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.nary ![main_v6, main_v19, main_v32, main_v45, main_v58, main_v71] main_v72 (fun u => concatenate S200000x85 1 [⟨S200000x5, u 0⟩, ⟨S200000x16, u 1⟩, ⟨S200000x16, u 2⟩, ⟨S200000x16, u 3⟩, ⟨S200000x16, u 4⟩, ⟨S200000x16, u 5⟩] concatenates_S200000x5_S200000x16_S200000x16_S200000x16_S200000x16_S200000x16_S200000x85_d1),
    StableHlo.unary main_arg9 main_v73 ((transpose S85x128 [1, 0] · transposes_S128x85_S85x128_1_0) : (⟨S128x85, .f32⟩ : BufTy).Contents (Elt F) → (⟨S85x128, .f32⟩ : BufTy).Contents (Elt F)),
    StableHlo.binary main_v72 main_v73 main_v74 ((fun l r => Host.dotGeneral dot_S200000x85_S85x128_S200000x128_1_0_0_1_n_n none l r) : (⟨S200000x85, .f32⟩ : BufTy).Contents (Elt F) → (⟨S85x128, .f32⟩ : BufTy).Contents (Elt F) → (⟨S200000x128, .f32⟩ : BufTy).Contents (Elt F)),
    StableHlo.unary main_arg10 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S200000x128 ![0, 1] bcast_S1x128_S200000x128_0_1 : (⟨S1x128, .f32⟩ : BufTy).Contents (Elt F) → (⟨S200000x128, .f32⟩ : BufTy).Contents (Elt F)),
    StableHlo.binary main_v74 main_v76 main_v77 (addf : (⟨S200000x128, .f32⟩ : BufTy).Contents (Elt F) → (⟨S200000x128, .f32⟩ : BufTy).Contents (Elt F) → (⟨S200000x128, .f32⟩ : BufTy).Contents (Elt F)),
    StableHlo.nullary main_c_23 (constantI S_ 32 0#32),
    StableHlo.unary main_c_23 main_v78 (broadcastInDim S6 ![] bcast_S_S6 : (⟨S_, .i32⟩ : BufTy).Contents (Elt F) → (⟨S6, .i32⟩ : BufTy).Contents (Elt F)),
    StableHlo.binary main_c_0 main_v78 main_v79 (cmpi .slt : (⟨S6, .i32⟩ : BufTy).Contents (Elt F) → (⟨S6, .i32⟩ : BufTy).Contents (Elt F) → (⟨S6, .i1⟩ : BufTy).Contents (Elt F)),
    StableHlo.nullary main_c_24 (constantI S_ 32 8#32),
    StableHlo.unary main_c_24 main_v80 (broadcastInDim S6 ![] bcast_S_S6 : (⟨S_, .i32⟩ : BufTy).Contents (Elt F) → (⟨S6, .i32⟩ : BufTy).Contents (Elt F)),
    StableHlo.binary main_c_0 main_v80 main_v81 (addi : (⟨S6, .i32⟩ : BufTy).Contents (Elt F) → (⟨S6, .i32⟩ : BufTy).Contents (Elt F) → (⟨S6, .i32⟩ : BufTy).Contents (Elt F)),
    StableHlo.ternary main_v79 main_v81 main_c_0 main_v82 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v82 main_v83 (broadcastInDim S6x1 ![0] bcast_S6_S6x1_0 : (⟨S6, .i32⟩ : BufTy).Contents (Elt F) → (⟨S6x1, .i32⟩ : BufTy).Contents (Elt F)),
    StableHlo.binary main_arg1 main_v83 main_v84 ((fun x i => Host.gather gather_S500000x8_S6x1_S500000x6_0_1_n_n_1_1_5000001 x i) : (⟨S500000x8, .f32⟩ : BufTy).Contents (Elt F) → (⟨S6x1, .i32⟩ : BufTy).Contents (Elt F) → (⟨S500000x6, .f32⟩ : BufTy).Contents (Elt F)),
    StableHlo.unary main_arg1 main_v85 ((extractStridedSlice S500000x1 ![0, 0] · slices_S500000x8_S500000x1_0_0) : (⟨S500000x8, .f32⟩ : BufTy).Contents (Elt F) → (⟨S500000x1, .f32⟩ : BufTy).Contents (Elt F)),
    StableHlo.reshape main_v85 main_v86 rfl shapeCasts_S500000x1_S500000,
    StableHlo.unary main_v86 main_v87 (fptosi 32 : (⟨S500000, .f32⟩ : BufTy).Contents (Elt F) → (⟨S500000, .i32⟩ : BufTy).Contents (Elt F)),
    StableHlo.nullary main_c_25 (constantI S_ 32 0#32),
    StableHlo.nullary main_c_26 (constantI S_ 32 1999#32) ]

/-- Stretch 5 of window 1: 6 operations. -/
abbrev ops1_5 : List (HloOp τ sig (Elt F)) :=
  [ StableHlo.TRef.unary (.of main_c_25 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S500000, .i32⟩) (broadcastInDim S500000 ![] bcast_S_S500000),
    StableHlo.TRef.binary (.of main_call5_v1 : StableHlo.TRef sig ⟨S500000, .i32⟩) (.of main_v87 : StableHlo.TRef sig ⟨S500000, .i32⟩) (.of main_call5_v2 : StableHlo.TRef sig ⟨S500000, .i32⟩) maxsi,
    StableHlo.TRef.unary (.of main_c_26 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S500000, .i32⟩) (broadcastInDim S500000 ![] bcast_S_S500000),
    StableHlo.TRef.binary (.of main_call5_v4 : StableHlo.TRef sig ⟨S500000, .i32⟩) (.of main_call5_v2 : StableHlo.TRef sig ⟨S500000, .i32⟩) (.of main_v88 : StableHlo.TRef sig ⟨S500000, .i32⟩) minsi ]

/-- Stretch 6 of window 1: 3 operations. -/
abbrev ops1_6 : List (HloOp τ sig (Elt F)) :=
  [ StableHlo.nullary main_c_27 (constantI S_ 32 0#32),
    StableHlo.unary main_c_27 main_v89 (broadcastInDim S500000 ![] bcast_S_S500000 : (⟨S_, .i32⟩ : BufTy).Contents (Elt F) → (⟨S500000, .i32⟩ : BufTy).Contents (Elt F)),
    StableHlo.binary main_v88 main_v89 main_v90 (cmpi .slt : (⟨S500000, .i32⟩ : BufTy).Contents (Elt F) → (⟨S500000, .i32⟩ : BufTy).Contents (Elt F) → (⟨S500000, .i1⟩ : BufTy).Contents (Elt F)) ]

set_option maxHeartbeats 40000000 in
/-- Window 1's 75 operations, in order. -/
abbrev ops1 : List (HloOp τ sig (Elt F)) :=
  [ StableHlo.unary main_v43 main_v44 (broadcastInDim S200000x1 ![0] bcast_S200000_S200000x1_0 : (⟨S200000, .i32⟩ : BufTy).Contents (Elt F) → (⟨S200000x1, .i32⟩ : BufTy).Contents (Elt F)),
    StableHlo.binary main_v34 main_v44 main_v45 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v46 ((extractStridedSlice S1x200x16 ![3, 0, 0] · slices_S5x200x16_S1x200x16_3_0_0) : (⟨S5x200x16, .f32⟩ : BufTy).Contents (Elt F) → (⟨S1x200x16, .f32⟩ : BufTy).Contents (Elt F)),
    StableHlo.reshape main_v46 main_v47 rfl shapeCasts_S1x200x16_S200x16,
    StableHlo.unary main_arg0 main_v48 ((extractStridedSlice S200000x1 ![0, 4] · slices_S200000x10_S200000x1_0_4) : (⟨S200000x10, .f32⟩ : BufTy).Contents (Elt F) → (⟨S200000x1, .f32⟩ : BufTy).Contents (Elt F)),
    StableHlo.reshape main_v48 main_v49 rfl shapeCasts_S200000x1_S200000,
    StableHlo.unary main_v49 main_v50 (fptosi 32 : (⟨S200000, .f32⟩ : BufTy).Contents (Elt F) → (⟨S200000, .i32⟩ : BufTy).Contents (Elt F)),
    StableHlo.nullary main_c_15 (constantI S_ 32 0#32),
    StableHlo.nullary main_c_16 (constantI S_ 32 199#32),
    StableHlo.TRef.unary (.of main_c_15 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S200000, .i32⟩) (broadcastInDim S200000 ![] bcast_S_S200000),
    StableHlo.TRef.binary (.of main_call3_v1 : StableHlo.TRef sig ⟨S200000, .i32⟩) (.of main_v50 : StableHlo.TRef sig ⟨S200000, .i32⟩) (.of main_call3_v2 : StableHlo.TRef sig ⟨S200000, .i32⟩) maxsi,
    StableHlo.TRef.unary (.of main_c_16 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S200000, .i32⟩) (broadcastInDim S200000 ![] bcast_S_S200000),
    StableHlo.TRef.binary (.of main_call3_v4 : StableHlo.TRef sig ⟨S200000, .i32⟩) (.of main_call3_v2 : StableHlo.TRef sig ⟨S200000, .i32⟩) (.of main_v51 : StableHlo.TRef sig ⟨S200000, .i32⟩) minsi,
    StableHlo.nullary main_c_17 (constantI S_ 32 0#32),
    StableHlo.unary main_c_17 main_v52 (broadcastInDim S200000 ![] bcast_S_S200000 : (⟨S_, .i32⟩ : BufTy).Contents (Elt F) → (⟨S200000, .i32⟩ : BufTy).Contents (Elt F)),
    StableHlo.binary main_v51 main_v52 main_v53 (cmpi .slt : (⟨S200000, .i32⟩ : BufTy).Contents (Elt F) → (⟨S200000, .i32⟩ : BufTy).Contents (Elt F) → (⟨S200000, .i1⟩ : BufTy).Contents (Elt F)),
    StableHlo.nullary main_c_18 (constantI S_ 32 200#32),
    StableHlo.unary main_c_18 main_v54 (broadcastInDim S200000 ![] bcast_S_S200000 : (⟨S_, .i32⟩ : BufTy).Contents (Elt F) → (⟨S200000, .i32⟩ : BufTy).Contents (Elt F)),
    StableHlo.binary main_v51 main_v54 main_v55 (addi : (⟨S200000, .i32⟩ : BufTy).Contents (Elt F) → (⟨S200000, .i32⟩ : BufTy).Contents (Elt F) → (⟨S200000, .i32⟩ : BufTy).Contents (Elt F)),
    StableHlo.ternary main_v53 main_v55 main_v51 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v56 main_v57 (broadcastInDim S200000x1 ![0] bcast_S200000_S200000x1_0 : (⟨S200000, .i32⟩ : BufTy).Contents (Elt F) → (⟨S200000x1, .i32⟩ : BufTy).Contents (Elt F)),
    StableHlo.binary main_v47 main_v57 main_v58 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v59 ((extractStridedSlice S1x200x16 ![4, 0, 0] · slices_S5x200x16_S1x200x16_4_0_0) : (⟨S5x200x16, .f32⟩ : BufTy).Contents (Elt F) → (⟨S1x200x16, .f32⟩ : BufTy).Contents (Elt F)),
    StableHlo.reshape main_v59 main_v60 rfl shapeCasts_S1x200x16_S200x16,
    StableHlo.unary main_arg0 main_v61 ((extractStridedSlice S200000x1 ![0, 5] · slices_S200000x10_S200000x1_0_5) : (⟨S200000x10, .f32⟩ : BufTy).Contents (Elt F) → (⟨S200000x1, .f32⟩ : BufTy).Contents (Elt F)),
    StableHlo.reshape main_v61 main_v62 rfl shapeCasts_S200000x1_S200000,
    StableHlo.unary main_v62 main_v63 (fptosi 32 : (⟨S200000, .f32⟩ : BufTy).Contents (Elt F) → (⟨S200000, .i32⟩ : BufTy).Contents (Elt F)),
    StableHlo.nullary main_c_19 (constantI S_ 32 0#32),
    StableHlo.nullary main_c_20 (constantI S_ 32 199#32),
    StableHlo.TRef.unary (.of main_c_19 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S200000, .i32⟩) (broadcastInDim S200000 ![] bcast_S_S200000),
    StableHlo.TRef.binary (.of main_call4_v1 : StableHlo.TRef sig ⟨S200000, .i32⟩) (.of main_v63 : StableHlo.TRef sig ⟨S200000, .i32⟩) (.of main_call4_v2 : StableHlo.TRef sig ⟨S200000, .i32⟩) maxsi,
    StableHlo.TRef.unary (.of main_c_20 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S200000, .i32⟩) (broadcastInDim S200000 ![] bcast_S_S200000),
    StableHlo.TRef.binary (.of main_call4_v4 : StableHlo.TRef sig ⟨S200000, .i32⟩) (.of main_call4_v2 : StableHlo.TRef sig ⟨S200000, .i32⟩) (.of main_v64 : StableHlo.TRef sig ⟨S200000, .i32⟩) minsi,
    StableHlo.nullary main_c_21 (constantI S_ 32 0#32),
    StableHlo.unary main_c_21 main_v65 (broadcastInDim S200000 ![] bcast_S_S200000 : (⟨S_, .i32⟩ : BufTy).Contents (Elt F) → (⟨S200000, .i32⟩ : BufTy).Contents (Elt F)),
    StableHlo.binary main_v64 main_v65 main_v66 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 200#32),
    StableHlo.unary main_c_22 main_v67 (broadcastInDim S200000 ![] bcast_S_S200000 : (⟨S_, .i32⟩ : BufTy).Contents (Elt F) → (⟨S200000, .i32⟩ : BufTy).Contents (Elt F)),
    StableHlo.binary main_v64 main_v67 main_v68 (addi : (⟨S200000, .i32⟩ : BufTy).Contents (Elt F) → (⟨S200000, .i32⟩ : BufTy).Contents (Elt F) → (⟨S200000, .i32⟩ : BufTy).Contents (Elt F)),
    StableHlo.ternary main_v66 main_v68 main_v64 main_v69 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v69 main_v70 (broadcastInDim S200000x1 ![0] bcast_S200000_S200000x1_0 : (⟨S200000, .i32⟩ : BufTy).Contents (Elt F) → (⟨S200000x1, .i32⟩ : BufTy).Contents (Elt F)),
    StableHlo.binary main_v60 main_v70 main_v71 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.nary ![main_v6, main_v19, main_v32, main_v45, main_v58, main_v71] main_v72 (fun u => concatenate S200000x85 1 [⟨S200000x5, u 0⟩, ⟨S200000x16, u 1⟩, ⟨S200000x16, u 2⟩, ⟨S200000x16, u 3⟩, ⟨S200000x16, u 4⟩, ⟨S200000x16, u 5⟩] concatenates_S200000x5_S200000x16_S200000x16_S200000x16_S200000x16_S200000x16_S200000x85_d1),
    StableHlo.unary main_arg9 main_v73 ((transpose S85x128 [1, 0] · transposes_S128x85_S85x128_1_0) : (⟨S128x85, .f32⟩ : BufTy).Contents (Elt F) → (⟨S85x128, .f32⟩ : BufTy).Contents (Elt F)),
    StableHlo.binary main_v72 main_v73 main_v74 ((fun l r => Host.dotGeneral dot_S200000x85_S85x128_S200000x128_1_0_0_1_n_n none l r) : (⟨S200000x85, .f32⟩ : BufTy).Contents (Elt F) → (⟨S85x128, .f32⟩ : BufTy).Contents (Elt F) → (⟨S200000x128, .f32⟩ : BufTy).Contents (Elt F)),
    StableHlo.unary main_arg10 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S200000x128 ![0, 1] bcast_S1x128_S200000x128_0_1 : (⟨S1x128, .f32⟩ : BufTy).Contents (Elt F) → (⟨S200000x128, .f32⟩ : BufTy).Contents (Elt F)),
    StableHlo.binary main_v74 main_v76 main_v77 (addf : (⟨S200000x128, .f32⟩ : BufTy).Contents (Elt F) → (⟨S200000x128, .f32⟩ : BufTy).Contents (Elt F) → (⟨S200000x128, .f32⟩ : BufTy).Contents (Elt F)),
    StableHlo.nullary main_c_23 (constantI S_ 32 0#32),
    StableHlo.unary main_c_23 main_v78 (broadcastInDim S6 ![] bcast_S_S6 : (⟨S_, .i32⟩ : BufTy).Contents (Elt F) → (⟨S6, .i32⟩ : BufTy).Contents (Elt F)),
    StableHlo.binary main_c_0 main_v78 main_v79 (cmpi .slt : (⟨S6, .i32⟩ : BufTy).Contents (Elt F) → (⟨S6, .i32⟩ : BufTy).Contents (Elt F) → (⟨S6, .i1⟩ : BufTy).Contents (Elt F)),
    StableHlo.nullary main_c_24 (constantI S_ 32 8#32),
    StableHlo.unary main_c_24 main_v80 (broadcastInDim S6 ![] bcast_S_S6 : (⟨S_, .i32⟩ : BufTy).Contents (Elt F) → (⟨S6, .i32⟩ : BufTy).Contents (Elt F)),
    StableHlo.binary main_c_0 main_v80 main_v81 (addi : (⟨S6, .i32⟩ : BufTy).Contents (Elt F) → (⟨S6, .i32⟩ : BufTy).Contents (Elt F) → (⟨S6, .i32⟩ : BufTy).Contents (Elt F)),
    StableHlo.ternary main_v79 main_v81 main_c_0 main_v82 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v82 main_v83 (broadcastInDim S6x1 ![0] bcast_S6_S6x1_0 : (⟨S6, .i32⟩ : BufTy).Contents (Elt F) → (⟨S6x1, .i32⟩ : BufTy).Contents (Elt F)),
    StableHlo.binary main_arg1 main_v83 main_v84 ((fun x i => Host.gather gather_S500000x8_S6x1_S500000x6_0_1_n_n_1_1_5000001 x i) : (⟨S500000x8, .f32⟩ : BufTy).Contents (Elt F) → (⟨S6x1, .i32⟩ : BufTy).Contents (Elt F) → (⟨S500000x6, .f32⟩ : BufTy).Contents (Elt F)),
    StableHlo.unary main_arg1 main_v85 ((extractStridedSlice S500000x1 ![0, 0] · slices_S500000x8_S500000x1_0_0) : (⟨S500000x8, .f32⟩ : BufTy).Contents (Elt F) → (⟨S500000x1, .f32⟩ : BufTy).Contents (Elt F)),
    StableHlo.reshape main_v85 main_v86 rfl shapeCasts_S500000x1_S500000,
    StableHlo.unary main_v86 main_v87 (fptosi 32 : (⟨S500000, .f32⟩ : BufTy).Contents (Elt F) → (⟨S500000, .i32⟩ : BufTy).Contents (Elt F)),
    StableHlo.nullary main_c_25 (constantI S_ 32 0#32),
    StableHlo.nullary main_c_26 (constantI S_ 32 1999#32),
    StableHlo.TRef.unary (.of main_c_25 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S500000, .i32⟩) (broadcastInDim S500000 ![] bcast_S_S500000),
    StableHlo.TRef.binary (.of main_call5_v1 : StableHlo.TRef sig ⟨S500000, .i32⟩) (.of main_v87 : StableHlo.TRef sig ⟨S500000, .i32⟩) (.of main_call5_v2 : StableHlo.TRef sig ⟨S500000, .i32⟩) maxsi,
    StableHlo.TRef.unary (.of main_c_26 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S500000, .i32⟩) (broadcastInDim S500000 ![] bcast_S_S500000),
    StableHlo.TRef.binary (.of main_call5_v4 : StableHlo.TRef sig ⟨S500000, .i32⟩) (.of main_call5_v2 : StableHlo.TRef sig ⟨S500000, .i32⟩) (.of main_v88 : StableHlo.TRef sig ⟨S500000, .i32⟩) minsi,
    StableHlo.nullary main_c_27 (constantI S_ 32 0#32),
    StableHlo.unary main_c_27 main_v89 (broadcastInDim S500000 ![] bcast_S_S500000 : (⟨S_, .i32⟩ : BufTy).Contents (Elt F) → (⟨S500000, .i32⟩ : BufTy).Contents (Elt F)),
    StableHlo.binary main_v88 main_v89 main_v90 (cmpi .slt : (⟨S500000, .i32⟩ : BufTy).Contents (Elt F) → (⟨S500000, .i32⟩ : BufTy).Contents (Elt F) → (⟨S500000, .i1⟩ : BufTy).Contents (Elt F)) ]

/-- The window, cut at its calls: the stretches in a row, the last in tail position. -/
theorem main_part1_chain (c : Dev nD) : main_part1 (F := F) c = (Pipeline.chainK
  [ StableHlo.seq ops1_0,
    StableHlo.seq ops1_1,
    StableHlo.seq ops1_2,
    StableHlo.seq ops1_3,
    StableHlo.seq ops1_4,
    StableHlo.seq ops1_5 ]
  (StableHlo.seq ops1_6) : Prog (TpuEff nD τ sig (Elt F) (Pipeline.Sig Λ₀ (Fin 0) fun p => (pcfgs (F := F) p).Adm) .tc) PUnit) := by
  chain_rfl

/-- The stretches' concatenation is the window's list. -/
theorem ops1_pieces : (ops1 : List (HloOp τ sig (Elt F))) = [ops1_0, ops1_1, ops1_2, ops1_3, ops1_4, ops1_5].flatten ++ ops1_6 := rfl

/-- The window is the line of its operations. -/
theorem main_part1_eq (c : Dev nD) : main_part1 (F := F) c = (StableHlo.seq ops1 : Prog (TpuEff nD τ sig (Elt F) (Pipeline.Sig Λ₀ (Fin 0) fun p => (pcfgs (F := F) p).Adm) .tc) PUnit) := by
  rw [main_part1_chain c, ops1_pieces]
  exact chainK_seq [ops1_0, ops1_1, ops1_2, ops1_3, ops1_4, ops1_5] ops1_6

set_option maxHeartbeats 40000000 in
/-- Each touches TensorCore references only. -/
theorem ops1_sub : (ops1 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxHeartbeats 40000000 in
/-- Each determines its result: none allocates a buffer without contents. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W1 : List (Ref sig .tc) :=
  [main_v44, main_v45, main_v46, main_v47, main_v48, main_v49, main_v50, main_c_15, main_c_16, main_call3_v0, main_call3_v1, main_call3_v2, main_call3_v3, main_call3_v4, main_v51, main_c_17, main_v52, main_v53, main_c_18, main_v54, main_v55, main_v56, main_v57, main_v58, main_v59, main_v60, main_v61, main_v62, main_v63, main_c_19, main_c_20, main_call4_v0, main_call4_v1, main_call4_v2, main_call4_v3, main_call4_v4, main_v64, main_c_21, main_v65, main_v66, main_c_22, main_v67, main_v68, main_v69, main_v70, main_v71, main_v72, main_v73, main_v74, main_v75, main_v76, main_v77, main_c_23, main_v78, main_v79, main_c_24, main_v80, main_v81, main_v82, main_v83, main_v84, main_v85, main_v86, main_v87, main_c_25, main_c_26, main_call5_v0, main_call5_v1, main_call5_v2, main_call5_v3, main_call5_v4, main_v88, main_c_27, main_v89, main_v90]

set_option maxHeartbeats 40000000 in
/-- Each writes one buffer, of that list. -/
theorem ops1_writes : (ops1 : List (HloOp τ sig (Elt F))).Forall fun op => op.writes ⊆ (W1.map (Proc.devRef (τ := τ) .tc)).toFinset :=
  ⟨wsub (y := main_v44) (by decide), wsub (y := main_v45) (by decide), wsub (y := main_v46) (by decide), wsub (y := main_v47) (by decide), wsub (y := main_v48) (by decide), wsub (y := main_v49) (by decide), wsub (y := main_v50) (by decide), wsub (y := main_c_15) (by decide), wsub (y := main_c_16) (by decide), wsub (y := main_call3_v0) (by decide), wsub (y := main_call3_v1) (by decide), wsub (y := main_call3_v2) (by decide), wsub (y := main_call3_v3) (by decide), wsub (y := main_call3_v4) (by decide), wsub (y := main_v51) (by decide), wsub (y := main_c_17) (by decide), wsub (y := main_v52) (by decide), wsub (y := main_v53) (by decide), wsub (y := main_c_18) (by decide), wsub (y := main_v54) (by decide), wsub (y := main_v55) (by decide), wsub (y := main_v56) (by decide), wsub (y := main_v57) (by decide), wsub (y := main_v58) (by decide), wsub (y := main_v59) (by decide), wsub (y := main_v60) (by decide), wsub (y := main_v61) (by decide), wsub (y := main_v62) (by decide), wsub (y := main_v63) (by decide), wsub (y := main_c_19) (by decide), wsub (y := main_c_20) (by decide), wsub (y := main_call4_v0) (by decide), wsub (y := main_call4_v1) (by decide), wsub (y := main_call4_v2) (by decide), wsub (y := main_call4_v3) (by decide), wsub (y := main_call4_v4) (by decide), wsub (y := main_v64) (by decide), wsub (y := main_c_21) (by decide), wsub (y := main_v65) (by decide), wsub (y := main_v66) (by decide), wsub (y := main_c_22) (by decide), wsub (y := main_v67) (by decide), wsub (y := main_v68) (by decide), wsub (y := main_v69) (by decide), wsub (y := main_v70) (by decide), wsub (y := main_v71) (by decide), wsub (y := main_v72) (by decide), wsub (y := main_v73) (by decide), wsub (y := main_v74) (by decide), wsub (y := main_v75) (by decide), wsub (y := main_v76) (by decide), wsub (y := main_v77) (by decide), wsub (y := main_c_23) (by decide), wsub (y := main_v78) (by decide), wsub (y := main_v79) (by decide), wsub (y := main_c_24) (by decide), wsub (y := main_v80) (by decide), wsub (y := main_v81) (by decide), wsub (y := main_v82) (by decide), wsub (y := main_v83) (by decide), wsub (y := main_v84) (by decide), wsub (y := main_v85) (by decide), wsub (y := main_v86) (by decide), wsub (y := main_v87) (by decide), wsub (y := main_c_25) (by decide), wsub (y := main_c_26) (by decide), wsub (y := main_call5_v0) (by decide), wsub (y := main_call5_v1) (by decide), wsub (y := main_call5_v2) (by decide), wsub (y := main_call5_v3) (by decide), wsub (y := main_call5_v4) (by decide), wsub (y := main_v88) (by decide), wsub (y := main_c_27) (by decide), wsub (y := main_v89) (by decide), wsub (y := main_v90) (by decide)⟩

/-- No argument of @main is written in the window. -/
theorem args1 : ∀ r ∈ argRefs, r ∉ W1 := by decide

/-- The window leaves each argument's buffer as it was. -/
theorem ops1_keeps (V : Valuation τ sig (Elt F)) {r : Ref sig .tc} (hr : r ∈ argRefs) :
    StableHlo.after ops1 V (Proc.devRef .tc r) = V (Proc.devRef .tc r) :=
  StableHlo.after_of_writes_sub ops1 V ops1_writes (args1 r hr)

end Cert.ReferenceIdeal.Hand

end
-- ==== Proof.Ref.Ops2.lean ====
/- Window 2 of the reference's @main, statements 121 … 180 of 433, as a LIST of host operations: each of the
   window's statements in order, a call of a module-local function written as that function's operations over the
   call's operands and its record of buffers (calling is running the body). The window IS the line of that list
   (`main_part2_eq`): cut at each call, the printed window and the stretches agree by unfolding alone, and stretches
   run in a row are the line of their concatenation. Every operation touches TensorCore buffers only (`ops2_sub`),
   determines its result (`ops2_fresh`) and writes one buffer of the list `W2` (`ops2_writes`); no argument of @main
   is in that list, so the window leaves the arguments as they were (`ops2_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretch 0 of window 2: 11 operations. -/
abbrev ops2_0 : List (HloOp τ sig (Elt F)) :=
  [ StableHlo.nullary main_c_28 (constantI S_ 32 2000#32),
    StableHlo.unary main_c_28 main_v91 (broadcastInDim S500000 ![] bcast_S_S500000 : (⟨S_, .i32⟩ : BufTy).Contents (Elt F) → (⟨S500000, .i32⟩ : BufTy).Contents (Elt F)),
    StableHlo.binary main_v88 main_v91 main_v92 (addi : (⟨S500000, .i32⟩ : BufTy).Contents (Elt F) → (⟨S500000, .i32⟩ : BufTy).Contents (Elt F) → (⟨S500000, .i32⟩ : BufTy).Contents (Elt F)),
    StableHlo.ternary main_v90 main_v92 main_v88 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v93 main_v94 (broadcastInDim S500000x1 ![0] bcast_S500000_S500000x1_0 : (⟨S500000, .i32⟩ : BufTy).Contents (Elt F) → (⟨S500000x1, .i32⟩ : BufTy).Contents (Elt F)),
    StableHlo.binary main_arg7 main_v94 main_v95 ((fun x i => Host.gather gather_S2000x16_S500000x1_S500000x16_1_0_n_n_0_1_116 x i) : (⟨S2000x16, .f32⟩ : BufTy).Contents (Elt F) → (⟨S500000x1, .i32⟩ : BufTy).Contents (Elt F) → (⟨S500000x16, .f32⟩ : BufTy).Contents (Elt F)),
    StableHlo.unary main_arg1 main_v96 ((extractStridedSlice S500000x1 ![0, 3] · slices_S500000x8_S500000x1_0_3) : (⟨S500000x8, .f32⟩ : BufTy).Contents (Elt F) → (⟨S500000x1, .f32⟩ : BufTy).Contents (Elt F)),
    StableHlo.reshape main_v96 main_v97 rfl shapeCasts_S500000x1_S500000,
    StableHlo.unary main_v97 main_v98 (fptosi 32 : (⟨S500000, .f32⟩ : BufTy).Contents (Elt F) → (⟨S500000, .i32⟩ : BufTy).Contents (Elt F)),
    StableHlo.nullary main_c_29 (constantI S_ 32 0#32),
    StableHlo.nullary main_c_30 (constantI S_ 32 9#32) ]

/-- Stretch 1 of window 2: 6 operations. -/
abbrev ops2_1 : List (HloOp τ sig (Elt F)) :=
  [ StableHlo.TRef.unary (.of main_c_29 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S500000, .i32⟩) (broadcastInDim S500000 ![] bcast_S_S500000),
    StableHlo.TRef.binary (.of main_call6_v1 : StableHlo.TRef sig ⟨S500000, .i32⟩) (.of main_v98 : StableHlo.TRef sig ⟨S500000, .i32⟩) (.of main_call6_v2 : StableHlo.TRef sig ⟨S500000, .i32⟩) maxsi,
    StableHlo.TRef.unary (.of main_c_30 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S500000, .i32⟩) (broadcastInDim S500000 ![] bcast_S_S500000),
    StableHlo.TRef.binary (.of main_call6_v4 : StableHlo.TRef sig ⟨S500000, .i32⟩) (.of main_call6_v2 : StableHlo.TRef sig ⟨S500000, .i32⟩) (.of main_v99 : StableHlo.TRef sig ⟨S500000, .i32⟩) minsi ]

/-- Stretch 2 of window 2: 48 operations. -/
abbrev ops2_2 : List (HloOp τ sig (Elt F)) :=
  [ StableHlo.nullary main_c_31 (constantI S_ 32 0#32),
    StableHlo.unary main_c_31 main_v100 (broadcastInDim S500000 ![] bcast_S_S500000 : (⟨S_, .i32⟩ : BufTy).Contents (Elt F) → (⟨S500000, .i32⟩ : BufTy).Contents (Elt F)),
    StableHlo.binary main_v99 main_v100 main_v101 (cmpi .slt : (⟨S500000, .i32⟩ : BufTy).Contents (Elt F) → (⟨S500000, .i32⟩ : BufTy).Contents (Elt F) → (⟨S500000, .i1⟩ : BufTy).Contents (Elt F)),
    StableHlo.nullary main_c_32 (constantI S_ 32 10#32),
    StableHlo.unary main_c_32 main_v102 (broadcastInDim S500000 ![] bcast_S_S500000 : (⟨S_, .i32⟩ : BufTy).Contents (Elt F) → (⟨S500000, .i32⟩ : BufTy).Contents (Elt F)),
    StableHlo.binary main_v99 main_v102 main_v103 (addi : (⟨S500000, .i32⟩ : BufTy).Contents (Elt F) → (⟨S500000, .i32⟩ : BufTy).Contents (Elt F) → (⟨S500000, .i32⟩ : BufTy).Contents (Elt F)),
    StableHlo.ternary main_v101 main_v103 main_v99 main_v104 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v104 main_v105 (broadcastInDim S500000x1 ![0] bcast_S500000_S500000x1_0 : (⟨S500000, .i32⟩ : BufTy).Contents (Elt F) → (⟨S500000x1, .i32⟩ : BufTy).Contents (Elt F)),
    StableHlo.binary main_arg8 main_v105 main_v106 ((fun x i => Host.gather gather_S10x4_S500000x1_S500000x4_1_0_n_n_0_1_14 x i) : (⟨S10x4, .f32⟩ : BufTy).Contents (Elt F) → (⟨S500000x1, .i32⟩ : BufTy).Contents (Elt F) → (⟨S500000x4, .f32⟩ : BufTy).Contents (Elt F)),
    StableHlo.nary ![main_v84, main_v95, main_v106] main_v107 (fun u => concatenate S500000x26 1 [⟨S500000x6, u 0⟩, ⟨S500000x16, u 1⟩, ⟨S500000x4, u 2⟩] concatenates_S500000x6_S500000x16_S500000x4_S500000x26_d1),
    StableHlo.unary main_arg11 main_v108 ((transpose S26x128 [1, 0] · transposes_S128x26_S26x128_1_0) : (⟨S128x26, .f32⟩ : BufTy).Contents (Elt F) → (⟨S26x128, .f32⟩ : BufTy).Contents (Elt F)),
    StableHlo.binary main_v107 main_v108 main_v109 ((fun l r => Host.dotGeneral dot_S500000x26_S26x128_S500000x128_1_0_0_1_n_n none l r) : (⟨S500000x26, .f32⟩ : BufTy).Contents (Elt F) → (⟨S26x128, .f32⟩ : BufTy).Contents (Elt F) → (⟨S500000x128, .f32⟩ : BufTy).Contents (Elt F)),
    StableHlo.unary main_arg12 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S500000x128 ![0, 1] bcast_S1x128_S500000x128_0_1 : (⟨S1x128, .f32⟩ : BufTy).Contents (Elt F) → (⟨S500000x128, .f32⟩ : BufTy).Contents (Elt F)),
    StableHlo.binary main_v109 main_v111 main_v112 (addf : (⟨S500000x128, .f32⟩ : BufTy).Contents (Elt F) → (⟨S500000x128, .f32⟩ : BufTy).Contents (Elt F) → (⟨S500000x128, .f32⟩ : BufTy).Contents (Elt F)),
    StableHlo.unary main_arg13 main_v113 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v113 main_v114 rfl shapeCasts_S1x1x128x128_S128x128,
    StableHlo.unary main_arg14 main_v115 ((extractStridedSlice S1x1x128 ![0, 0, 0] · slices_S2x3x128_S1x1x128_0_0_0) : (⟨S2x3x128, .f32⟩ : BufTy).Contents (Elt F) → (⟨S1x1x128, .f32⟩ : BufTy).Contents (Elt F)),
    StableHlo.reshape main_v115 main_v116 rfl shapeCasts_S1x1x128_S128,
    StableHlo.unary main_arg15 main_v117 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v117 main_v118 rfl shapeCasts_S1x1x128x128_S128x128,
    StableHlo.unary main_arg2 main_v119 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v119 main_v120 rfl shapeCasts_S1x800000_S800000,
    StableHlo.unary main_arg2 main_v121 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v121 main_v122 rfl shapeCasts_S1x800000_S800000,
    StableHlo.nullary main_c_33 (constantI S_ 32 0#32),
    StableHlo.unary main_c_33 main_v123 (broadcastInDim S800000 ![] bcast_S_S800000 : (⟨S_, .i32⟩ : BufTy).Contents (Elt F) → (⟨S800000, .i32⟩ : BufTy).Contents (Elt F)),
    StableHlo.binary main_v120 main_v123 main_v124 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 200000#32),
    StableHlo.unary main_c_34 main_v125 (broadcastInDim S800000 ![] bcast_S_S800000 : (⟨S_, .i32⟩ : BufTy).Contents (Elt F) → (⟨S800000, .i32⟩ : BufTy).Contents (Elt F)),
    StableHlo.binary main_v120 main_v125 main_v126 (addi : (⟨S800000, .i32⟩ : BufTy).Contents (Elt F) → (⟨S800000, .i32⟩ : BufTy).Contents (Elt F) → (⟨S800000, .i32⟩ : BufTy).Contents (Elt F)),
    StableHlo.ternary main_v124 main_v126 main_v120 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v127 main_v128 (broadcastInDim S800000x1 ![0] bcast_S800000_S800000x1_0 : (⟨S800000, .i32⟩ : BufTy).Contents (Elt F) → (⟨S800000x1, .i32⟩ : BufTy).Contents (Elt F)),
    StableHlo.binary main_v77 main_v128 main_v129 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v130 (broadcastInDim S200000x128 ![] bcast_S_S200000x128 : (⟨S_, .f32⟩ : BufTy).Contents (Elt F) → (⟨S200000x128, .f32⟩ : BufTy).Contents (Elt F)),
    StableHlo.unary main_v122 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.nullary main_cst_35 (constant S_ .f32 0x3F800000#32),
    StableHlo.unary main_cst_35 main_v133 (broadcastInDim S800000 ![] bcast_S_S800000 : (⟨S_, .f32⟩ : BufTy).Contents (Elt F) → (⟨S800000, .f32⟩ : BufTy).Contents (Elt F)),
    StableHlo.nullary main_cst_36 (constant S_ .f32 0x00000000#32),
    StableHlo.unary main_cst_36 main_v134 (broadcastInDim S200000 ![] bcast_S_S200000 : (⟨S_, .f32⟩ : BufTy).Contents (Elt F) → (⟨S200000, .f32⟩ : BufTy).Contents (Elt F)),
    StableHlo.unary main_v122 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F)),
    StableHlo.nullary main_cst_37 (constant S_ .f32 0x3F800000#32),
    StableHlo.unary main_cst_37 main_v137 (broadcastInDim S200000 ![] bcast_S_S200000 : (⟨S_, .f32⟩ : BufTy).Contents (Elt F) → (⟨S200000, .f32⟩ : BufTy).Contents (Elt F)),
    StableHlo.binary main_v136 main_v137 main_v138 (maximumf : (⟨S200000, .f32⟩ : BufTy).Contents (Elt F) → (⟨S200000, .f32⟩ : BufTy).Contents (Elt F) → (⟨S200000, .f32⟩ : BufTy).Contents (Elt F)),
    StableHlo.unary main_v138 main_v139 (broadcastInDim S200000x1 ![0] bcast_S200000_S200000x1_0 : (⟨S200000, .f32⟩ : BufTy).Contents (Elt F) → (⟨S200000x1, .f32⟩ : BufTy).Contents (Elt F)) ]

set_option maxHeartbeats 40000000 in
/-- Window 2's 65 operations, in order. -/
abbrev ops2 : List (HloOp τ sig (Elt F)) :=
  [ StableHlo.nullary main_c_28 (constantI S_ 32 2000#32),
    StableHlo.unary main_c_28 main_v91 (broadcastInDim S500000 ![] bcast_S_S500000 : (⟨S_, .i32⟩ : BufTy).Contents (Elt F) → (⟨S500000, .i32⟩ : BufTy).Contents (Elt F)),
    StableHlo.binary main_v88 main_v91 main_v92 (addi : (⟨S500000, .i32⟩ : BufTy).Contents (Elt F) → (⟨S500000, .i32⟩ : BufTy).Contents (Elt F) → (⟨S500000, .i32⟩ : BufTy).Contents (Elt F)),
    StableHlo.ternary main_v90 main_v92 main_v88 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v93 main_v94 (broadcastInDim S500000x1 ![0] bcast_S500000_S500000x1_0 : (⟨S500000, .i32⟩ : BufTy).Contents (Elt F) → (⟨S500000x1, .i32⟩ : BufTy).Contents (Elt F)),
    StableHlo.binary main_arg7 main_v94 main_v95 ((fun x i => Host.gather gather_S2000x16_S500000x1_S500000x16_1_0_n_n_0_1_116 x i) : (⟨S2000x16, .f32⟩ : BufTy).Contents (Elt F) → (⟨S500000x1, .i32⟩ : BufTy).Contents (Elt F) → (⟨S500000x16, .f32⟩ : BufTy).Contents (Elt F)),
    StableHlo.unary main_arg1 main_v96 ((extractStridedSlice S500000x1 ![0, 3] · slices_S500000x8_S500000x1_0_3) : (⟨S500000x8, .f32⟩ : BufTy).Contents (Elt F) → (⟨S500000x1, .f32⟩ : BufTy).Contents (Elt F)),
    StableHlo.reshape main_v96 main_v97 rfl shapeCasts_S500000x1_S500000,
    StableHlo.unary main_v97 main_v98 (fptosi 32 : (⟨S500000, .f32⟩ : BufTy).Contents (Elt F) → (⟨S500000, .i32⟩ : BufTy).Contents (Elt F)),
    StableHlo.nullary main_c_29 (constantI S_ 32 0#32),
    StableHlo.nullary main_c_30 (constantI S_ 32 9#32),
    StableHlo.TRef.unary (.of main_c_29 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S500000, .i32⟩) (broadcastInDim S500000 ![] bcast_S_S500000),
    StableHlo.TRef.binary (.of main_call6_v1 : StableHlo.TRef sig ⟨S500000, .i32⟩) (.of main_v98 : StableHlo.TRef sig ⟨S500000, .i32⟩) (.of main_call6_v2 : StableHlo.TRef sig ⟨S500000, .i32⟩) maxsi,
    StableHlo.TRef.unary (.of main_c_30 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S500000, .i32⟩) (broadcastInDim S500000 ![] bcast_S_S500000),
    StableHlo.TRef.binary (.of main_call6_v4 : StableHlo.TRef sig ⟨S500000, .i32⟩) (.of main_call6_v2 : StableHlo.TRef sig ⟨S500000, .i32⟩) (.of main_v99 : StableHlo.TRef sig ⟨S500000, .i32⟩) minsi,
    StableHlo.nullary main_c_31 (constantI S_ 32 0#32),
    StableHlo.unary main_c_31 main_v100 (broadcastInDim S500000 ![] bcast_S_S500000 : (⟨S_, .i32⟩ : BufTy).Contents (Elt F) → (⟨S500000, .i32⟩ : BufTy).Contents (Elt F)),
    StableHlo.binary main_v99 main_v100 main_v101 (cmpi .slt : (⟨S500000, .i32⟩ : BufTy).Contents (Elt F) → (⟨S500000, .i32⟩ : BufTy).Contents (Elt F) → (⟨S500000, .i1⟩ : BufTy).Contents (Elt F)),
    StableHlo.nullary main_c_32 (constantI S_ 32 10#32),
    StableHlo.unary main_c_32 main_v102 (broadcastInDim S500000 ![] bcast_S_S500000 : (⟨S_, .i32⟩ : BufTy).Contents (Elt F) → (⟨S500000, .i32⟩ : BufTy).Contents (Elt F)),
    StableHlo.binary main_v99 main_v102 main_v103 (addi : (⟨S500000, .i32⟩ : BufTy).Contents (Elt F) → (⟨S500000, .i32⟩ : BufTy).Contents (Elt F) → (⟨S500000, .i32⟩ : BufTy).Contents (Elt F)),
    StableHlo.ternary main_v101 main_v103 main_v99 main_v104 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v104 main_v105 (broadcastInDim S500000x1 ![0] bcast_S500000_S500000x1_0 : (⟨S500000, .i32⟩ : BufTy).Contents (Elt F) → (⟨S500000x1, .i32⟩ : BufTy).Contents (Elt F)),
    StableHlo.binary main_arg8 main_v105 main_v106 ((fun x i => Host.gather gather_S10x4_S500000x1_S500000x4_1_0_n_n_0_1_14 x i) : (⟨S10x4, .f32⟩ : BufTy).Contents (Elt F) → (⟨S500000x1, .i32⟩ : BufTy).Contents (Elt F) → (⟨S500000x4, .f32⟩ : BufTy).Contents (Elt F)),
    StableHlo.nary ![main_v84, main_v95, main_v106] main_v107 (fun u => concatenate S500000x26 1 [⟨S500000x6, u 0⟩, ⟨S500000x16, u 1⟩, ⟨S500000x4, u 2⟩] concatenates_S500000x6_S500000x16_S500000x4_S500000x26_d1),
    StableHlo.unary main_arg11 main_v108 ((transpose S26x128 [1, 0] · transposes_S128x26_S26x128_1_0) : (⟨S128x26, .f32⟩ : BufTy).Contents (Elt F) → (⟨S26x128, .f32⟩ : BufTy).Contents (Elt F)),
    StableHlo.binary main_v107 main_v108 main_v109 ((fun l r => Host.dotGeneral dot_S500000x26_S26x128_S500000x128_1_0_0_1_n_n none l r) : (⟨S500000x26, .f32⟩ : BufTy).Contents (Elt F) → (⟨S26x128, .f32⟩ : BufTy).Contents (Elt F) → (⟨S500000x128, .f32⟩ : BufTy).Contents (Elt F)),
    StableHlo.unary main_arg12 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S500000x128 ![0, 1] bcast_S1x128_S500000x128_0_1 : (⟨S1x128, .f32⟩ : BufTy).Contents (Elt F) → (⟨S500000x128, .f32⟩ : BufTy).Contents (Elt F)),
    StableHlo.binary main_v109 main_v111 main_v112 (addf : (⟨S500000x128, .f32⟩ : BufTy).Contents (Elt F) → (⟨S500000x128, .f32⟩ : BufTy).Contents (Elt F) → (⟨S500000x128, .f32⟩ : BufTy).Contents (Elt F)),
    StableHlo.unary main_arg13 main_v113 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v113 main_v114 rfl shapeCasts_S1x1x128x128_S128x128,
    StableHlo.unary main_arg14 main_v115 ((extractStridedSlice S1x1x128 ![0, 0, 0] · slices_S2x3x128_S1x1x128_0_0_0) : (⟨S2x3x128, .f32⟩ : BufTy).Contents (Elt F) → (⟨S1x1x128, .f32⟩ : BufTy).Contents (Elt F)),
    StableHlo.reshape main_v115 main_v116 rfl shapeCasts_S1x1x128_S128,
    StableHlo.unary main_arg15 main_v117 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v117 main_v118 rfl shapeCasts_S1x1x128x128_S128x128,
    StableHlo.unary main_arg2 main_v119 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v119 main_v120 rfl shapeCasts_S1x800000_S800000,
    StableHlo.unary main_arg2 main_v121 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v121 main_v122 rfl shapeCasts_S1x800000_S800000,
    StableHlo.nullary main_c_33 (constantI S_ 32 0#32),
    StableHlo.unary main_c_33 main_v123 (broadcastInDim S800000 ![] bcast_S_S800000 : (⟨S_, .i32⟩ : BufTy).Contents (Elt F) → (⟨S800000, .i32⟩ : BufTy).Contents (Elt F)),
    StableHlo.binary main_v120 main_v123 main_v124 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 200000#32),
    StableHlo.unary main_c_34 main_v125 (broadcastInDim S800000 ![] bcast_S_S800000 : (⟨S_, .i32⟩ : BufTy).Contents (Elt F) → (⟨S800000, .i32⟩ : BufTy).Contents (Elt F)),
    StableHlo.binary main_v120 main_v125 main_v126 (addi : (⟨S800000, .i32⟩ : BufTy).Contents (Elt F) → (⟨S800000, .i32⟩ : BufTy).Contents (Elt F) → (⟨S800000, .i32⟩ : BufTy).Contents (Elt F)),
    StableHlo.ternary main_v124 main_v126 main_v120 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v127 main_v128 (broadcastInDim S800000x1 ![0] bcast_S800000_S800000x1_0 : (⟨S800000, .i32⟩ : BufTy).Contents (Elt F) → (⟨S800000x1, .i32⟩ : BufTy).Contents (Elt F)),
    StableHlo.binary main_v77 main_v128 main_v129 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v130 (broadcastInDim S200000x128 ![] bcast_S_S200000x128 : (⟨S_, .f32⟩ : BufTy).Contents (Elt F) → (⟨S200000x128, .f32⟩ : BufTy).Contents (Elt F)),
    StableHlo.unary main_v122 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.nullary main_cst_35 (constant S_ .f32 0x3F800000#32),
    StableHlo.unary main_cst_35 main_v133 (broadcastInDim S800000 ![] bcast_S_S800000 : (⟨S_, .f32⟩ : BufTy).Contents (Elt F) → (⟨S800000, .f32⟩ : BufTy).Contents (Elt F)),
    StableHlo.nullary main_cst_36 (constant S_ .f32 0x00000000#32),
    StableHlo.unary main_cst_36 main_v134 (broadcastInDim S200000 ![] bcast_S_S200000 : (⟨S_, .f32⟩ : BufTy).Contents (Elt F) → (⟨S200000, .f32⟩ : BufTy).Contents (Elt F)),
    StableHlo.unary main_v122 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F)),
    StableHlo.nullary main_cst_37 (constant S_ .f32 0x3F800000#32),
    StableHlo.unary main_cst_37 main_v137 (broadcastInDim S200000 ![] bcast_S_S200000 : (⟨S_, .f32⟩ : BufTy).Contents (Elt F) → (⟨S200000, .f32⟩ : BufTy).Contents (Elt F)),
    StableHlo.binary main_v136 main_v137 main_v138 (maximumf : (⟨S200000, .f32⟩ : BufTy).Contents (Elt F) → (⟨S200000, .f32⟩ : BufTy).Contents (Elt F) → (⟨S200000, .f32⟩ : BufTy).Contents (Elt F)),
    StableHlo.unary main_v138 main_v139 (broadcastInDim S200000x1 ![0] bcast_S200000_S200000x1_0 : (⟨S200000, .f32⟩ : BufTy).Contents (Elt F) → (⟨S200000x1, .f32⟩ : BufTy).Contents (Elt F)) ]

/-- The window, cut at its calls: the stretches in a row, the last in tail position. -/
theorem main_part2_chain (c : Dev nD) : main_part2 (F := F) c = (Pipeline.chainK
  [ StableHlo.seq ops2_0,
    StableHlo.seq ops2_1 ]
  (StableHlo.seq ops2_2) : Prog (TpuEff nD τ sig (Elt F) (Pipeline.Sig Λ₀ (Fin 0) fun p => (pcfgs (F := F) p).Adm) .tc) PUnit) := by
  chain_rfl

/-- The stretches' concatenation is the window's list. -/
theorem ops2_pieces : (ops2 : List (HloOp τ sig (Elt F))) = [ops2_0, ops2_1].flatten ++ ops2_2 := rfl

/-- The window is the line of its operations. -/
theorem main_part2_eq (c : Dev nD) : main_part2 (F := F) c = (StableHlo.seq ops2 : Prog (TpuEff nD τ sig (Elt F) (Pipeline.Sig Λ₀ (Fin 0) fun p => (pcfgs (F := F) p).Adm) .tc) PUnit) := by
  rw [main_part2_chain c, ops2_pieces]
  exact chainK_seq [ops2_0, ops2_1] ops2_2

set_option maxHeartbeats 40000000 in
/-- Each touches TensorCore references only. -/
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub ..⟩

set_option maxHeartbeats 40000000 in
/-- Each determines its result: none allocates a buffer without contents. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W2 : List (Ref sig .tc) :=
  [main_c_28, main_v91, main_v92, main_v93, main_v94, main_v95, main_v96, main_v97, main_v98, main_c_29, main_c_30, main_call6_v0, main_call6_v1, main_call6_v2, main_call6_v3, main_call6_v4, main_v99, main_c_31, main_v100, main_v101, main_c_32, main_v102, main_v103, main_v104, main_v105, main_v106, main_v107, main_v108, main_v109, main_v110, main_v111, main_v112, main_v113, main_v114, main_v115, main_v116, main_v117, main_v118, main_v119, main_v120, main_v121, main_v122, main_c_33, main_v123, main_v124, main_c_34, main_v125, main_v126, main_v127, main_v128, main_v129, main_cst, main_v130, main_v131, main_v132, main_cst_35, main_v133, main_cst_36, main_v134, main_v135, main_v136, main_cst_37, main_v137, main_v138, main_v139]

set_option maxHeartbeats 40000000 in
/-- Each writes one buffer, of that list. -/
theorem ops2_writes : (ops2 : List (HloOp τ sig (Elt F))).Forall fun op => op.writes ⊆ (W2.map (Proc.devRef (τ := τ) .tc)).toFinset :=
  ⟨wsub (y := main_c_28) (by decide), wsub (y := main_v91) (by decide), wsub (y := main_v92) (by decide), wsub (y := main_v93) (by decide), wsub (y := main_v94) (by decide), wsub (y := main_v95) (by decide), wsub (y := main_v96) (by decide), wsub (y := main_v97) (by decide), wsub (y := main_v98) (by decide), wsub (y := main_c_29) (by decide), wsub (y := main_c_30) (by decide), wsub (y := main_call6_v0) (by decide), wsub (y := main_call6_v1) (by decide), wsub (y := main_call6_v2) (by decide), wsub (y := main_call6_v3) (by decide), wsub (y := main_call6_v4) (by decide), wsub (y := main_v99) (by decide), wsub (y := main_c_31) (by decide), wsub (y := main_v100) (by decide), wsub (y := main_v101) (by decide), wsub (y := main_c_32) (by decide), wsub (y := main_v102) (by decide), wsub (y := main_v103) (by decide), wsub (y := main_v104) (by decide), wsub (y := main_v105) (by decide), wsub (y := main_v106) (by decide), wsub (y := main_v107) (by decide), wsub (y := main_v108) (by decide), wsub (y := main_v109) (by decide), wsub (y := main_v110) (by decide), wsub (y := main_v111) (by decide), wsub (y := main_v112) (by decide), wsub (y := main_v113) (by decide), wsub (y := main_v114) (by decide), wsub (y := main_v115) (by decide), wsub (y := main_v116) (by decide), wsub (y := main_v117) (by decide), wsub (y := main_v118) (by decide), wsub (y := main_v119) (by decide), wsub (y := main_v120) (by decide), wsub (y := main_v121) (by decide), wsub (y := main_v122) (by decide), wsub (y := main_c_33) (by decide), wsub (y := main_v123) (by decide), wsub (y := main_v124) (by decide), wsub (y := main_c_34) (by decide), wsub (y := main_v125) (by decide), wsub (y := main_v126) (by decide), wsub (y := main_v127) (by decide), wsub (y := main_v128) (by decide), wsub (y := main_v129) (by decide), wsub (y := main_cst) (by decide), wsub (y := main_v130) (by decide), wsub (y := main_v131) (by decide), wsub (y := main_v132) (by decide), wsub (y := main_cst_35) (by decide), wsub (y := main_v133) (by decide), wsub (y := main_cst_36) (by decide), wsub (y := main_v134) (by decide), wsub (y := main_v135) (by decide), wsub (y := main_v136) (by decide), wsub (y := main_cst_37) (by decide), wsub (y := main_v137) (by decide), wsub (y := main_v138) (by decide), wsub (y := main_v139) (by decide)⟩

/-- No argument of @main is written in the window. -/
theorem args2 : ∀ r ∈ argRefs, r ∉ W2 := by decide

/-- The window leaves each argument's buffer as it was. -/
theorem ops2_keeps (V : Valuation τ sig (Elt F)) {r : Ref sig .tc} (hr : r ∈ argRefs) :
    StableHlo.after ops2 V (Proc.devRef .tc r) = V (Proc.devRef .tc r) :=
  StableHlo.after_of_writes_sub ops2 V ops2_writes (args2 r hr)

end Cert.ReferenceIdeal.Hand

end
-- ==== Proof.Ref.Ops3.lean ====
/- Window 3 of the reference's @main, statements 181 … 240 of 433, as a LIST of host operations: each of the
   window's statements in order, a call of a module-local function written as that function's operations over the
   call's operands and its record of buffers (calling is running the body). The window IS the line of that list
   (`main_part3_eq`): cut at each call, the printed window and the stretches agree by unfolding alone, and stretches
   run in a row are the line of their concatenation. Every operation touches TensorCore buffers only (`ops3_sub`),
   determines its result (`ops3_fresh`) and writes one buffer of the list `W3` (`ops3_writes`); no argument of @main
   is in that list, so the window leaves the arguments as they were (`ops3_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Window 3's 60 operations, in order. -/
abbrev ops3 : List (HloOp τ sig (Elt F)) :=
  [ StableHlo.unary main_v139 main_v140 (broadcastInDim S200000x128 ![0, 1] bcast_S200000x1_S200000x128_0_1 : (⟨S200000x1, .f32⟩ : BufTy).Contents (Elt F) → (⟨S200000x128, .f32⟩ : BufTy).Contents (Elt F)),
    StableHlo.binary main_v132 main_v140 main_v141 (Host.divf : (⟨S200000x128, .f32⟩ : BufTy).Contents (Elt F) → (⟨S200000x128, .f32⟩ : BufTy).Contents (Elt F) → (⟨S200000x128, .f32⟩ : BufTy).Contents (Elt F)),
    StableHlo.unary main_v114 main_v142 ((transpose S128x128 [1, 0] · transposes_S128x128_S128x128_1_0) : (⟨S128x128, .f32⟩ : BufTy).Contents (Elt F) → (⟨S128x128, .f32⟩ : BufTy).Contents (Elt F)),
    StableHlo.binary main_v141 main_v142 main_v143 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v116 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S200000x128 ![0, 1] bcast_S1x128_S200000x128_0_1 : (⟨S1x128, .f32⟩ : BufTy).Contents (Elt F) → (⟨S200000x128, .f32⟩ : BufTy).Contents (Elt F)),
    StableHlo.binary main_v143 main_v145 main_v146 (addf : (⟨S200000x128, .f32⟩ : BufTy).Contents (Elt F) → (⟨S200000x128, .f32⟩ : BufTy).Contents (Elt F) → (⟨S200000x128, .f32⟩ : BufTy).Contents (Elt F)),
    StableHlo.unary main_v118 main_v147 ((transpose S128x128 [1, 0] · transposes_S128x128_S128x128_1_0) : (⟨S128x128, .f32⟩ : BufTy).Contents (Elt F) → (⟨S128x128, .f32⟩ : BufTy).Contents (Elt F)),
    StableHlo.binary main_v77 main_v147 main_v148 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v146 main_v148 main_v149 (addf : (⟨S200000x128, .f32⟩ : BufTy).Contents (Elt F) → (⟨S200000x128, .f32⟩ : BufTy).Contents (Elt F) → (⟨S200000x128, .f32⟩ : BufTy).Contents (Elt F)),
    StableHlo.unary main_arg13 main_v150 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v150 main_v151 rfl shapeCasts_S1x1x128x128_S128x128,
    StableHlo.unary main_arg14 main_v152 ((extractStridedSlice S1x1x128 ![0, 1, 0] · slices_S2x3x128_S1x1x128_0_1_0) : (⟨S2x3x128, .f32⟩ : BufTy).Contents (Elt F) → (⟨S1x1x128, .f32⟩ : BufTy).Contents (Elt F)),
    StableHlo.reshape main_v152 main_v153 rfl shapeCasts_S1x1x128_S128,
    StableHlo.unary main_arg15 main_v154 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v154 main_v155 rfl shapeCasts_S1x1x128x128_S128x128,
    StableHlo.unary main_arg3 main_v156 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v156 main_v157 rfl shapeCasts_S1x1000000_S1000000,
    StableHlo.unary main_arg3 main_v158 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v158 main_v159 rfl shapeCasts_S1x1000000_S1000000,
    StableHlo.nullary main_c_38 (constantI S_ 32 0#32),
    StableHlo.unary main_c_38 main_v160 (broadcastInDim S1000000 ![] bcast_S_S1000000 : (⟨S_, .i32⟩ : BufTy).Contents (Elt F) → (⟨S1000000, .i32⟩ : BufTy).Contents (Elt F)),
    StableHlo.binary main_v157 main_v160 main_v161 (cmpi .slt : (⟨S1000000, .i32⟩ : BufTy).Contents (Elt F) → (⟨S1000000, .i32⟩ : BufTy).Contents (Elt F) → (⟨S1000000, .i1⟩ : BufTy).Contents (Elt F)),
    StableHlo.nullary main_c_39 (constantI S_ 32 200000#32),
    StableHlo.unary main_c_39 main_v162 (broadcastInDim S1000000 ![] bcast_S_S1000000 : (⟨S_, .i32⟩ : BufTy).Contents (Elt F) → (⟨S1000000, .i32⟩ : BufTy).Contents (Elt F)),
    StableHlo.binary main_v157 main_v162 main_v163 (addi : (⟨S1000000, .i32⟩ : BufTy).Contents (Elt F) → (⟨S1000000, .i32⟩ : BufTy).Contents (Elt F) → (⟨S1000000, .i32⟩ : BufTy).Contents (Elt F)),
    StableHlo.ternary main_v161 main_v163 main_v157 main_v164 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v164 main_v165 (broadcastInDim S1000000x1 ![0] bcast_S1000000_S1000000x1_0 : (⟨S1000000, .i32⟩ : BufTy).Contents (Elt F) → (⟨S1000000x1, .i32⟩ : BufTy).Contents (Elt F)),
    StableHlo.binary main_v77 main_v165 main_v166 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    StableHlo.nullary main_cst_40 (constant S_ .f32 0x00000000#32),
    StableHlo.unary main_cst_40 main_v167 (broadcastInDim S200000x128 ![] bcast_S_S200000x128 : (⟨S_, .f32⟩ : BufTy).Contents (Elt F) → (⟨S200000x128, .f32⟩ : BufTy).Contents (Elt F)),
    StableHlo.unary main_v159 main_v168 (broadcastInDim S1000000x1 ![0] bcast_S1000000_S1000000x1_0 : (⟨S1000000, .i32⟩ : BufTy).Contents (Elt F) → (⟨S1000000x1, .i32⟩ : BufTy).Contents (Elt F)),
    StableHlo.ternary main_v167 main_v168 main_v166 main_v169 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    StableHlo.nullary main_cst_41 (constant S_ .f32 0x3F800000#32),
    StableHlo.unary main_cst_41 main_v170 (broadcastInDim S1000000 ![] bcast_S_S1000000 : (⟨S_, .f32⟩ : BufTy).Contents (Elt F) → (⟨S1000000, .f32⟩ : BufTy).Contents (Elt F)),
    StableHlo.nullary main_cst_42 (constant S_ .f32 0x00000000#32),
    StableHlo.unary main_cst_42 main_v171 (broadcastInDim S200000 ![] bcast_S_S200000 : (⟨S_, .f32⟩ : BufTy).Contents (Elt F) → (⟨S200000, .f32⟩ : BufTy).Contents (Elt F)),
    StableHlo.unary main_v159 main_v172 (broadcastInDim S1000000x1 ![0] bcast_S1000000_S1000000x1_0 : (⟨S1000000, .i32⟩ : BufTy).Contents (Elt F) → (⟨S1000000x1, .i32⟩ : BufTy).Contents (Elt F)),
    StableHlo.ternary main_v171 main_v172 main_v170 main_v173 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    StableHlo.nullary main_cst_43 (constant S_ .f32 0x3F800000#32),
    StableHlo.unary main_cst_43 main_v174 (broadcastInDim S200000 ![] bcast_S_S200000 : (⟨S_, .f32⟩ : BufTy).Contents (Elt F) → (⟨S200000, .f32⟩ : BufTy).Contents (Elt F)),
    StableHlo.binary main_v173 main_v174 main_v175 (maximumf : (⟨S200000, .f32⟩ : BufTy).Contents (Elt F) → (⟨S200000, .f32⟩ : BufTy).Contents (Elt F) → (⟨S200000, .f32⟩ : BufTy).Contents (Elt F)),
    StableHlo.unary main_v175 main_v176 (broadcastInDim S200000x1 ![0] bcast_S200000_S200000x1_0 : (⟨S200000, .f32⟩ : BufTy).Contents (Elt F) → (⟨S200000x1, .f32⟩ : BufTy).Contents (Elt F)),
    StableHlo.unary main_v176 main_v177 (broadcastInDim S200000x128 ![0, 1] bcast_S200000x1_S200000x128_0_1 : (⟨S200000x1, .f32⟩ : BufTy).Contents (Elt F) → (⟨S200000x128, .f32⟩ : BufTy).Contents (Elt F)),
    StableHlo.binary main_v169 main_v177 main_v178 (Host.divf : (⟨S200000x128, .f32⟩ : BufTy).Contents (Elt F) → (⟨S200000x128, .f32⟩ : BufTy).Contents (Elt F) → (⟨S200000x128, .f32⟩ : BufTy).Contents (Elt F)),
    StableHlo.unary main_v151 main_v179 ((transpose S128x128 [1, 0] · transposes_S128x128_S128x128_1_0) : (⟨S128x128, .f32⟩ : BufTy).Contents (Elt F) → (⟨S128x128, .f32⟩ : BufTy).Contents (Elt F)),
    StableHlo.binary main_v178 main_v179 main_v180 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v153 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S200000x128 ![0, 1] bcast_S1x128_S200000x128_0_1 : (⟨S1x128, .f32⟩ : BufTy).Contents (Elt F) → (⟨S200000x128, .f32⟩ : BufTy).Contents (Elt F)),
    StableHlo.binary main_v180 main_v182 main_v183 (addf : (⟨S200000x128, .f32⟩ : BufTy).Contents (Elt F) → (⟨S200000x128, .f32⟩ : BufTy).Contents (Elt F) → (⟨S200000x128, .f32⟩ : BufTy).Contents (Elt F)),
    StableHlo.unary main_v155 main_v184 ((transpose S128x128 [1, 0] · transposes_S128x128_S128x128_1_0) : (⟨S128x128, .f32⟩ : BufTy).Contents (Elt F) → (⟨S128x128, .f32⟩ : BufTy).Contents (Elt F)),
    StableHlo.binary main_v77 main_v184 main_v185 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v183 main_v185 main_v186 (addf : (⟨S200000x128, .f32⟩ : BufTy).Contents (Elt F) → (⟨S200000x128, .f32⟩ : BufTy).Contents (Elt F) → (⟨S200000x128, .f32⟩ : BufTy).Contents (Elt F)),
    StableHlo.binary main_v149 main_v186 main_v187 (addf : (⟨S200000x128, .f32⟩ : BufTy).Contents (Elt F) → (⟨S200000x128, .f32⟩ : BufTy).Contents (Elt F) → (⟨S200000x128, .f32⟩ : BufTy).Contents (Elt F)),
    StableHlo.unary main_arg13 main_v188 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v188 main_v189 rfl shapeCasts_S1x1x128x128_S128x128,
    StableHlo.unary main_arg14 main_v190 ((extractStridedSlice S1x1x128 ![0, 2, 0] · slices_S2x3x128_S1x1x128_0_2_0) : (⟨S2x3x128, .f32⟩ : BufTy).Contents (Elt F) → (⟨S1x1x128, .f32⟩ : BufTy).Contents (Elt F)),
    StableHlo.reshape main_v190 main_v191 rfl shapeCasts_S1x1x128_S128,
    StableHlo.unary main_arg15 main_v192 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v192 main_v193 rfl shapeCasts_S1x1x128x128_S128x128 ]

/-- The window is the line of its operations. -/
theorem main_part3_eq (c : Dev nD) : main_part3 (F := F) c = (StableHlo.seq ops3 : Prog (TpuEff nD τ sig (Elt F) (Pipeline.Sig Λ₀ (Fin 0) fun p => (pcfgs (F := F) p).Adm) .tc) PUnit) := by
  chain_rfl

set_option maxHeartbeats 40000000 in
/-- Each touches TensorCore references only. -/
theorem ops3_sub : (ops3 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub ..⟩

set_option maxHeartbeats 40000000 in
/-- Each determines its result: none allocates a buffer without contents. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W3 : List (Ref sig .tc) :=
  [main_v140, main_v141, main_v142, main_v143, main_v144, main_v145, main_v146, main_v147, main_v148, main_v149, main_v150, main_v151, main_v152, main_v153, main_v154, main_v155, main_v156, main_v157, main_v158, main_v159, main_c_38, main_v160, main_v161, main_c_39, main_v162, main_v163, main_v164, main_v165, main_v166, main_cst_40, main_v167, main_v168, main_v169, main_cst_41, main_v170, main_cst_42, main_v171, main_v172, main_v173, main_cst_43, main_v174, main_v175, main_v176, main_v177, main_v178, main_v179, main_v180, main_v181, main_v182, main_v183, main_v184, main_v185, main_v186, main_v187, main_v188, main_v189, main_v190, main_v191, main_v192, main_v193]

set_option maxHeartbeats 40000000 in
/-- Each writes one buffer, of that list. -/
theorem ops3_writes : (ops3 : List (HloOp τ sig (Elt F))).Forall fun op => op.writes ⊆ (W3.map (Proc.devRef (τ := τ) .tc)).toFinset :=
  ⟨wsub (y := main_v140) (by decide), wsub (y := main_v141) (by decide), wsub (y := main_v142) (by decide), wsub (y := main_v143) (by decide), wsub (y := main_v144) (by decide), wsub (y := main_v145) (by decide), wsub (y := main_v146) (by decide), wsub (y := main_v147) (by decide), wsub (y := main_v148) (by decide), wsub (y := main_v149) (by decide), wsub (y := main_v150) (by decide), wsub (y := main_v151) (by decide), wsub (y := main_v152) (by decide), wsub (y := main_v153) (by decide), wsub (y := main_v154) (by decide), wsub (y := main_v155) (by decide), wsub (y := main_v156) (by decide), wsub (y := main_v157) (by decide), wsub (y := main_v158) (by decide), wsub (y := main_v159) (by decide), wsub (y := main_c_38) (by decide), wsub (y := main_v160) (by decide), wsub (y := main_v161) (by decide), wsub (y := main_c_39) (by decide), wsub (y := main_v162) (by decide), wsub (y := main_v163) (by decide), wsub (y := main_v164) (by decide), wsub (y := main_v165) (by decide), wsub (y := main_v166) (by decide), wsub (y := main_cst_40) (by decide), wsub (y := main_v167) (by decide), wsub (y := main_v168) (by decide), wsub (y := main_v169) (by decide), wsub (y := main_cst_41) (by decide), wsub (y := main_v170) (by decide), wsub (y := main_cst_42) (by decide), wsub (y := main_v171) (by decide), wsub (y := main_v172) (by decide), wsub (y := main_v173) (by decide), wsub (y := main_cst_43) (by decide), wsub (y := main_v174) (by decide), wsub (y := main_v175) (by decide), wsub (y := main_v176) (by decide), wsub (y := main_v177) (by decide), wsub (y := main_v178) (by decide), wsub (y := main_v179) (by decide), wsub (y := main_v180) (by decide), wsub (y := main_v181) (by decide), wsub (y := main_v182) (by decide), wsub (y := main_v183) (by decide), wsub (y := main_v184) (by decide), wsub (y := main_v185) (by decide), wsub (y := main_v186) (by decide), wsub (y := main_v187) (by decide), wsub (y := main_v188) (by decide), wsub (y := main_v189) (by decide), wsub (y := main_v190) (by decide), wsub (y := main_v191) (by decide), wsub (y := main_v192) (by decide), wsub (y := main_v193) (by decide)⟩

/-- No argument of @main is written in the window. -/
theorem args3 : ∀ r ∈ argRefs, r ∉ W3 := by decide

/-- The window leaves each argument's buffer as it was. -/
theorem ops3_keeps (V : Valuation τ sig (Elt F)) {r : Ref sig .tc} (hr : r ∈ argRefs) :
    StableHlo.after ops3 V (Proc.devRef .tc r) = V (Proc.devRef .tc r) :=
  StableHlo.after_of_writes_sub ops3 V ops3_writes (args3 r hr)

end Cert.ReferenceIdeal.Hand

end
-- ==== Proof.Ref.Ops4.lean ====
/- Window 4 of the reference's @main, statements 241 … 300 of 433, as a LIST of host operations: each of the
   window's statements in order, a call of a module-local function written as that function's operations over the
   call's operands and its record of buffers (calling is running the body). The window IS the line of that list
   (`main_part4_eq`): cut at each call, the printed window and the stretches agree by unfolding alone, and stretches
   run in a row are the line of their concatenation. Every operation touches TensorCore buffers only (`ops4_sub`),
   determines its result (`ops4_fresh`) and writes one buffer of the list `W4` (`ops4_writes`); no argument of @main
   is in that list, so the window leaves the arguments as they were (`ops4_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretch 0 of window 4: 38 operations. -/
abbrev ops4_0 : List (HloOp τ sig (Elt F)) :=
  [ StableHlo.unary main_arg4 main_v194 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v194 main_v195 rfl shapeCasts_S1x500000_S500000,
    StableHlo.unary main_arg4 main_v196 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v196 main_v197 rfl shapeCasts_S1x500000_S500000,
    StableHlo.nullary main_c_44 (constantI S_ 32 0#32),
    StableHlo.unary main_c_44 main_v198 (broadcastInDim S500000 ![] bcast_S_S500000 : (⟨S_, .i32⟩ : BufTy).Contents (Elt F) → (⟨S500000, .i32⟩ : BufTy).Contents (Elt F)),
    StableHlo.binary main_v195 main_v198 main_v199 (cmpi .slt : (⟨S500000, .i32⟩ : BufTy).Contents (Elt F) → (⟨S500000, .i32⟩ : BufTy).Contents (Elt F) → (⟨S500000, .i1⟩ : BufTy).Contents (Elt F)),
    StableHlo.nullary main_c_45 (constantI S_ 32 500000#32),
    StableHlo.unary main_c_45 main_v200 (broadcastInDim S500000 ![] bcast_S_S500000 : (⟨S_, .i32⟩ : BufTy).Contents (Elt F) → (⟨S500000, .i32⟩ : BufTy).Contents (Elt F)),
    StableHlo.binary main_v195 main_v200 main_v201 (addi : (⟨S500000, .i32⟩ : BufTy).Contents (Elt F) → (⟨S500000, .i32⟩ : BufTy).Contents (Elt F) → (⟨S500000, .i32⟩ : BufTy).Contents (Elt F)),
    StableHlo.ternary main_v199 main_v201 main_v195 main_v202 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v202 main_v203 (broadcastInDim S500000x1 ![0] bcast_S500000_S500000x1_0 : (⟨S500000, .i32⟩ : BufTy).Contents (Elt F) → (⟨S500000x1, .i32⟩ : BufTy).Contents (Elt F)),
    StableHlo.binary main_v112 main_v203 main_v204 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_46 (constant S_ .f32 0x00000000#32),
    StableHlo.unary main_cst_46 main_v205 (broadcastInDim S200000x128 ![] bcast_S_S200000x128 : (⟨S_, .f32⟩ : BufTy).Contents (Elt F) → (⟨S200000x128, .f32⟩ : BufTy).Contents (Elt F)),
    StableHlo.unary main_v197 main_v206 (broadcastInDim S500000x1 ![0] bcast_S500000_S500000x1_0 : (⟨S500000, .i32⟩ : BufTy).Contents (Elt F) → (⟨S500000x1, .i32⟩ : BufTy).Contents (Elt F)),
    StableHlo.ternary main_v205 main_v206 main_v204 main_v207 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_47 (constant S_ .f32 0x3F800000#32),
    StableHlo.unary main_cst_47 main_v208 (broadcastInDim S500000 ![] bcast_S_S500000 : (⟨S_, .f32⟩ : BufTy).Contents (Elt F) → (⟨S500000, .f32⟩ : BufTy).Contents (Elt F)),
    StableHlo.nullary main_cst_48 (constant S_ .f32 0x00000000#32),
    StableHlo.unary main_cst_48 main_v209 (broadcastInDim S200000 ![] bcast_S_S200000 : (⟨S_, .f32⟩ : BufTy).Contents (Elt F) → (⟨S200000, .f32⟩ : BufTy).Contents (Elt F)),
    StableHlo.unary main_v197 main_v210 (broadcastInDim S500000x1 ![0] bcast_S500000_S500000x1_0 : (⟨S500000, .i32⟩ : BufTy).Contents (Elt F) → (⟨S500000x1, .i32⟩ : BufTy).Contents (Elt F)),
    StableHlo.ternary main_v209 main_v210 main_v208 main_v211 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_49 (constant S_ .f32 0x3F800000#32),
    StableHlo.unary main_cst_49 main_v212 (broadcastInDim S200000 ![] bcast_S_S200000 : (⟨S_, .f32⟩ : BufTy).Contents (Elt F) → (⟨S200000, .f32⟩ : BufTy).Contents (Elt F)),
    StableHlo.binary main_v211 main_v212 main_v213 (maximumf : (⟨S200000, .f32⟩ : BufTy).Contents (Elt F) → (⟨S200000, .f32⟩ : BufTy).Contents (Elt F) → (⟨S200000, .f32⟩ : BufTy).Contents (Elt F)),
    StableHlo.unary main_v213 main_v214 (broadcastInDim S200000x1 ![0] bcast_S200000_S200000x1_0 : (⟨S200000, .f32⟩ : BufTy).Contents (Elt F) → (⟨S200000x1, .f32⟩ : BufTy).Contents (Elt F)),
    StableHlo.unary main_v214 main_v215 (broadcastInDim S200000x128 ![0, 1] bcast_S200000x1_S200000x128_0_1 : (⟨S200000x1, .f32⟩ : BufTy).Contents (Elt F) → (⟨S200000x128, .f32⟩ : BufTy).Contents (Elt F)),
    StableHlo.binary main_v207 main_v215 main_v216 (Host.divf : (⟨S200000x128, .f32⟩ : BufTy).Contents (Elt F) → (⟨S200000x128, .f32⟩ : BufTy).Contents (Elt F) → (⟨S200000x128, .f32⟩ : BufTy).Contents (Elt F)),
    StableHlo.unary main_v189 main_v217 ((transpose S128x128 [1, 0] · transposes_S128x128_S128x128_1_0) : (⟨S128x128, .f32⟩ : BufTy).Contents (Elt F) → (⟨S128x128, .f32⟩ : BufTy).Contents (Elt F)),
    StableHlo.binary main_v216 main_v217 main_v218 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v191 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S200000x128 ![0, 1] bcast_S1x128_S200000x128_0_1 : (⟨S1x128, .f32⟩ : BufTy).Contents (Elt F) → (⟨S200000x128, .f32⟩ : BufTy).Contents (Elt F)),
    StableHlo.binary main_v218 main_v220 main_v221 (addf : (⟨S200000x128, .f32⟩ : BufTy).Contents (Elt F) → (⟨S200000x128, .f32⟩ : BufTy).Contents (Elt F) → (⟨S200000x128, .f32⟩ : BufTy).Contents (Elt F)),
    StableHlo.unary main_v193 main_v222 ((transpose S128x128 [1, 0] · transposes_S128x128_S128x128_1_0) : (⟨S128x128, .f32⟩ : BufTy).Contents (Elt F) → (⟨S128x128, .f32⟩ : BufTy).Contents (Elt F)),
    StableHlo.binary main_v77 main_v222 main_v223 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v221 main_v223 main_v224 (addf : (⟨S200000x128, .f32⟩ : BufTy).Contents (Elt F) → (⟨S200000x128, .f32⟩ : BufTy).Contents (Elt F) → (⟨S200000x128, .f32⟩ : BufTy).Contents (Elt F)),
    StableHlo.binary main_v187 main_v224 main_v225 (addf : (⟨S200000x128, .f32⟩ : BufTy).Contents (Elt F) → (⟨S200000x128, .f32⟩ : BufTy).Contents (Elt F) → (⟨S200000x128, .f32⟩ : BufTy).Contents (Elt F)) ]

/-- Stretch 1 of window 4: 3 operations. -/
abbrev ops4_1 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x128, .f32⟩) (broadcastInDim S200000x128 ![] bcast_S_S200000x128),
    StableHlo.TRef.binary (.of main_v225 : StableHlo.TRef sig ⟨S200000x128, .f32⟩) (.of main_call7_v0 : StableHlo.TRef sig ⟨S200000x128, .f32⟩) (.of main_v226 : StableHlo.TRef sig ⟨S200000x128, .f32⟩) maximumf ]

/-- Stretch 2 of window 4: 21 operations. -/
abbrev ops4_2 : List (HloOp τ sig (Elt F)) :=
  [ StableHlo.unary main_arg13 main_v227 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v227 main_v228 rfl shapeCasts_S1x1x128x128_S128x128,
    StableHlo.unary main_arg14 main_v229 ((extractStridedSlice S1x1x128 ![1, 0, 0] · slices_S2x3x128_S1x1x128_1_0_0) : (⟨S2x3x128, .f32⟩ : BufTy).Contents (Elt F) → (⟨S1x1x128, .f32⟩ : BufTy).Contents (Elt F)),
    StableHlo.reshape main_v229 main_v230 rfl shapeCasts_S1x1x128_S128,
    StableHlo.unary main_arg15 main_v231 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v231 main_v232 rfl shapeCasts_S1x1x128x128_S128x128,
    StableHlo.unary main_arg2 main_v233 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v233 main_v234 rfl shapeCasts_S1x800000_S800000,
    StableHlo.unary main_arg2 main_v235 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v235 main_v236 rfl shapeCasts_S1x800000_S800000,
    StableHlo.nullary main_c_50 (constantI S_ 32 0#32),
    StableHlo.unary main_c_50 main_v237 (broadcastInDim S800000 ![] bcast_S_S800000 : (⟨S_, .i32⟩ : BufTy).Contents (Elt F) → (⟨S800000, .i32⟩ : BufTy).Contents (Elt F)),
    StableHlo.binary main_v234 main_v237 main_v238 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 200000#32),
    StableHlo.unary main_c_51 main_v239 (broadcastInDim S800000 ![] bcast_S_S800000 : (⟨S_, .i32⟩ : BufTy).Contents (Elt F) → (⟨S800000, .i32⟩ : BufTy).Contents (Elt F)),
    StableHlo.binary main_v234 main_v239 main_v240 (addi : (⟨S800000, .i32⟩ : BufTy).Contents (Elt F) → (⟨S800000, .i32⟩ : BufTy).Contents (Elt F) → (⟨S800000, .i32⟩ : BufTy).Contents (Elt F)),
    StableHlo.ternary main_v238 main_v240 main_v234 main_v241 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v241 main_v242 (broadcastInDim S800000x1 ![0] bcast_S800000_S800000x1_0 : (⟨S800000, .i32⟩ : BufTy).Contents (Elt F) → (⟨S800000x1, .i32⟩ : BufTy).Contents (Elt F)),
    StableHlo.binary main_v226 main_v242 main_v243 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst_52 (constant S_ .f32 0x00000000#32),
    StableHlo.unary main_cst_52 main_v244 (broadcastInDim S200000x128 ![] bcast_S_S200000x128 : (⟨S_, .f32⟩ : BufTy).Contents (Elt F) → (⟨S200000x128, .f32⟩ : BufTy).Contents (Elt F)) ]

set_option maxHeartbeats 40000000 in
/-- Window 4's 62 operations, in order. -/
abbrev ops4 : List (HloOp τ sig (Elt F)) :=
  [ StableHlo.unary main_arg4 main_v194 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v194 main_v195 rfl shapeCasts_S1x500000_S500000,
    StableHlo.unary main_arg4 main_v196 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v196 main_v197 rfl shapeCasts_S1x500000_S500000,
    StableHlo.nullary main_c_44 (constantI S_ 32 0#32),
    StableHlo.unary main_c_44 main_v198 (broadcastInDim S500000 ![] bcast_S_S500000 : (⟨S_, .i32⟩ : BufTy).Contents (Elt F) → (⟨S500000, .i32⟩ : BufTy).Contents (Elt F)),
    StableHlo.binary main_v195 main_v198 main_v199 (cmpi .slt : (⟨S500000, .i32⟩ : BufTy).Contents (Elt F) → (⟨S500000, .i32⟩ : BufTy).Contents (Elt F) → (⟨S500000, .i1⟩ : BufTy).Contents (Elt F)),
    StableHlo.nullary main_c_45 (constantI S_ 32 500000#32),
    StableHlo.unary main_c_45 main_v200 (broadcastInDim S500000 ![] bcast_S_S500000 : (⟨S_, .i32⟩ : BufTy).Contents (Elt F) → (⟨S500000, .i32⟩ : BufTy).Contents (Elt F)),
    StableHlo.binary main_v195 main_v200 main_v201 (addi : (⟨S500000, .i32⟩ : BufTy).Contents (Elt F) → (⟨S500000, .i32⟩ : BufTy).Contents (Elt F) → (⟨S500000, .i32⟩ : BufTy).Contents (Elt F)),
    StableHlo.ternary main_v199 main_v201 main_v195 main_v202 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v202 main_v203 (broadcastInDim S500000x1 ![0] bcast_S500000_S500000x1_0 : (⟨S500000, .i32⟩ : BufTy).Contents (Elt F) → (⟨S500000x1, .i32⟩ : BufTy).Contents (Elt F)),
    StableHlo.binary main_v112 main_v203 main_v204 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_46 (constant S_ .f32 0x00000000#32),
    StableHlo.unary main_cst_46 main_v205 (broadcastInDim S200000x128 ![] bcast_S_S200000x128 : (⟨S_, .f32⟩ : BufTy).Contents (Elt F) → (⟨S200000x128, .f32⟩ : BufTy).Contents (Elt F)),
    StableHlo.unary main_v197 main_v206 (broadcastInDim S500000x1 ![0] bcast_S500000_S500000x1_0 : (⟨S500000, .i32⟩ : BufTy).Contents (Elt F) → (⟨S500000x1, .i32⟩ : BufTy).Contents (Elt F)),
    StableHlo.ternary main_v205 main_v206 main_v204 main_v207 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_47 (constant S_ .f32 0x3F800000#32),
    StableHlo.unary main_cst_47 main_v208 (broadcastInDim S500000 ![] bcast_S_S500000 : (⟨S_, .f32⟩ : BufTy).Contents (Elt F) → (⟨S500000, .f32⟩ : BufTy).Contents (Elt F)),
    StableHlo.nullary main_cst_48 (constant S_ .f32 0x00000000#32),
    StableHlo.unary main_cst_48 main_v209 (broadcastInDim S200000 ![] bcast_S_S200000 : (⟨S_, .f32⟩ : BufTy).Contents (Elt F) → (⟨S200000, .f32⟩ : BufTy).Contents (Elt F)),
    StableHlo.unary main_v197 main_v210 (broadcastInDim S500000x1 ![0] bcast_S500000_S500000x1_0 : (⟨S500000, .i32⟩ : BufTy).Contents (Elt F) → (⟨S500000x1, .i32⟩ : BufTy).Contents (Elt F)),
    StableHlo.ternary main_v209 main_v210 main_v208 main_v211 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_49 (constant S_ .f32 0x3F800000#32),
    StableHlo.unary main_cst_49 main_v212 (broadcastInDim S200000 ![] bcast_S_S200000 : (⟨S_, .f32⟩ : BufTy).Contents (Elt F) → (⟨S200000, .f32⟩ : BufTy).Contents (Elt F)),
    StableHlo.binary main_v211 main_v212 main_v213 (maximumf : (⟨S200000, .f32⟩ : BufTy).Contents (Elt F) → (⟨S200000, .f32⟩ : BufTy).Contents (Elt F) → (⟨S200000, .f32⟩ : BufTy).Contents (Elt F)),
    StableHlo.unary main_v213 main_v214 (broadcastInDim S200000x1 ![0] bcast_S200000_S200000x1_0 : (⟨S200000, .f32⟩ : BufTy).Contents (Elt F) → (⟨S200000x1, .f32⟩ : BufTy).Contents (Elt F)),
    StableHlo.unary main_v214 main_v215 (broadcastInDim S200000x128 ![0, 1] bcast_S200000x1_S200000x128_0_1 : (⟨S200000x1, .f32⟩ : BufTy).Contents (Elt F) → (⟨S200000x128, .f32⟩ : BufTy).Contents (Elt F)),
    StableHlo.binary main_v207 main_v215 main_v216 (Host.divf : (⟨S200000x128, .f32⟩ : BufTy).Contents (Elt F) → (⟨S200000x128, .f32⟩ : BufTy).Contents (Elt F) → (⟨S200000x128, .f32⟩ : BufTy).Contents (Elt F)),
    StableHlo.unary main_v189 main_v217 ((transpose S128x128 [1, 0] · transposes_S128x128_S128x128_1_0) : (⟨S128x128, .f32⟩ : BufTy).Contents (Elt F) → (⟨S128x128, .f32⟩ : BufTy).Contents (Elt F)),
    StableHlo.binary main_v216 main_v217 main_v218 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v191 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S200000x128 ![0, 1] bcast_S1x128_S200000x128_0_1 : (⟨S1x128, .f32⟩ : BufTy).Contents (Elt F) → (⟨S200000x128, .f32⟩ : BufTy).Contents (Elt F)),
    StableHlo.binary main_v218 main_v220 main_v221 (addf : (⟨S200000x128, .f32⟩ : BufTy).Contents (Elt F) → (⟨S200000x128, .f32⟩ : BufTy).Contents (Elt F) → (⟨S200000x128, .f32⟩ : BufTy).Contents (Elt F)),
    StableHlo.unary main_v193 main_v222 ((transpose S128x128 [1, 0] · transposes_S128x128_S128x128_1_0) : (⟨S128x128, .f32⟩ : BufTy).Contents (Elt F) → (⟨S128x128, .f32⟩ : BufTy).Contents (Elt F)),
    StableHlo.binary main_v77 main_v222 main_v223 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v221 main_v223 main_v224 (addf : (⟨S200000x128, .f32⟩ : BufTy).Contents (Elt F) → (⟨S200000x128, .f32⟩ : BufTy).Contents (Elt F) → (⟨S200000x128, .f32⟩ : BufTy).Contents (Elt F)),
    StableHlo.binary main_v187 main_v224 main_v225 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x128, .f32⟩) (broadcastInDim S200000x128 ![] bcast_S_S200000x128),
    StableHlo.TRef.binary (.of main_v225 : StableHlo.TRef sig ⟨S200000x128, .f32⟩) (.of main_call7_v0 : StableHlo.TRef sig ⟨S200000x128, .f32⟩) (.of main_v226 : StableHlo.TRef sig ⟨S200000x128, .f32⟩) maximumf,
    StableHlo.unary main_arg13 main_v227 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v227 main_v228 rfl shapeCasts_S1x1x128x128_S128x128,
    StableHlo.unary main_arg14 main_v229 ((extractStridedSlice S1x1x128 ![1, 0, 0] · slices_S2x3x128_S1x1x128_1_0_0) : (⟨S2x3x128, .f32⟩ : BufTy).Contents (Elt F) → (⟨S1x1x128, .f32⟩ : BufTy).Contents (Elt F)),
    StableHlo.reshape main_v229 main_v230 rfl shapeCasts_S1x1x128_S128,
    StableHlo.unary main_arg15 main_v231 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v231 main_v232 rfl shapeCasts_S1x1x128x128_S128x128,
    StableHlo.unary main_arg2 main_v233 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v233 main_v234 rfl shapeCasts_S1x800000_S800000,
    StableHlo.unary main_arg2 main_v235 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v235 main_v236 rfl shapeCasts_S1x800000_S800000,
    StableHlo.nullary main_c_50 (constantI S_ 32 0#32),
    StableHlo.unary main_c_50 main_v237 (broadcastInDim S800000 ![] bcast_S_S800000 : (⟨S_, .i32⟩ : BufTy).Contents (Elt F) → (⟨S800000, .i32⟩ : BufTy).Contents (Elt F)),
    StableHlo.binary main_v234 main_v237 main_v238 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 200000#32),
    StableHlo.unary main_c_51 main_v239 (broadcastInDim S800000 ![] bcast_S_S800000 : (⟨S_, .i32⟩ : BufTy).Contents (Elt F) → (⟨S800000, .i32⟩ : BufTy).Contents (Elt F)),
    StableHlo.binary main_v234 main_v239 main_v240 (addi : (⟨S800000, .i32⟩ : BufTy).Contents (Elt F) → (⟨S800000, .i32⟩ : BufTy).Contents (Elt F) → (⟨S800000, .i32⟩ : BufTy).Contents (Elt F)),
    StableHlo.ternary main_v238 main_v240 main_v234 main_v241 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v241 main_v242 (broadcastInDim S800000x1 ![0] bcast_S800000_S800000x1_0 : (⟨S800000, .i32⟩ : BufTy).Contents (Elt F) → (⟨S800000x1, .i32⟩ : BufTy).Contents (Elt F)),
    StableHlo.binary main_v226 main_v242 main_v243 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst_52 (constant S_ .f32 0x00000000#32),
    StableHlo.unary main_cst_52 main_v244 (broadcastInDim S200000x128 ![] bcast_S_S200000x128 : (⟨S_, .f32⟩ : BufTy).Contents (Elt F) → (⟨S200000x128, .f32⟩ : BufTy).Contents (Elt F)) ]

/-- The window, cut at its calls: the stretches in a row, the last in tail position. -/
theorem main_part4_chain (c : Dev nD) : main_part4 (F := F) c = (Pipeline.chainK
  [ StableHlo.seq ops4_0,
    StableHlo.seq ops4_1 ]
  (StableHlo.seq ops4_2) : Prog (TpuEff nD τ sig (Elt F) (Pipeline.Sig Λ₀ (Fin 0) fun p => (pcfgs (F := F) p).Adm) .tc) PUnit) := by
  chain_rfl

/-- The stretches' concatenation is the window's list. -/
theorem ops4_pieces : (ops4 : List (HloOp τ sig (Elt F))) = [ops4_0, ops4_1].flatten ++ ops4_2 := rfl

/-- The window is the line of its operations. -/
theorem main_part4_eq (c : Dev nD) : main_part4 (F := F) c = (StableHlo.seq ops4 : Prog (TpuEff nD τ sig (Elt F) (Pipeline.Sig Λ₀ (Fin 0) fun p => (pcfgs (F := F) p).Adm) .tc) PUnit) := by
  rw [main_part4_chain c, ops4_pieces]
  exact chainK_seq [ops4_0, ops4_1] ops4_2

set_option maxHeartbeats 40000000 in
/-- Each touches TensorCore references only. -/
theorem ops4_sub : (ops4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub ..⟩

set_option maxHeartbeats 40000000 in
/-- Each determines its result: none allocates a buffer without contents. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W4 : List (Ref sig .tc) :=
  [main_v194, main_v195, main_v196, main_v197, main_c_44, main_v198, main_v199, main_c_45, main_v200, main_v201, main_v202, main_v203, main_v204, main_cst_46, main_v205, main_v206, main_v207, main_cst_47, main_v208, main_cst_48, main_v209, main_v210, main_v211, main_cst_49, main_v212, main_v213, main_v214, main_v215, main_v216, main_v217, main_v218, main_v219, main_v220, main_v221, main_v222, main_v223, main_v224, main_v225, main_call7_cst, main_call7_v0, main_v226, main_v227, main_v228, main_v229, main_v230, main_v231, main_v232, main_v233, main_v234, main_v235, main_v236, main_c_50, main_v237, main_v238, main_c_51, main_v239, main_v240, main_v241, main_v242, main_v243, main_cst_52, main_v244]

set_option maxHeartbeats 40000000 in
/-- Each writes one buffer, of that list. -/
theorem ops4_writes : (ops4 : List (HloOp τ sig (Elt F))).Forall fun op => op.writes ⊆ (W4.map (Proc.devRef (τ := τ) .tc)).toFinset :=
  ⟨wsub (y := main_v194) (by decide), wsub (y := main_v195) (by decide), wsub (y := main_v196) (by decide), wsub (y := main_v197) (by decide), wsub (y := main_c_44) (by decide), wsub (y := main_v198) (by decide), wsub (y := main_v199) (by decide), wsub (y := main_c_45) (by decide), wsub (y := main_v200) (by decide), wsub (y := main_v201) (by decide), wsub (y := main_v202) (by decide), wsub (y := main_v203) (by decide), wsub (y := main_v204) (by decide), wsub (y := main_cst_46) (by decide), wsub (y := main_v205) (by decide), wsub (y := main_v206) (by decide), wsub (y := main_v207) (by decide), wsub (y := main_cst_47) (by decide), wsub (y := main_v208) (by decide), wsub (y := main_cst_48) (by decide), wsub (y := main_v209) (by decide), wsub (y := main_v210) (by decide), wsub (y := main_v211) (by decide), wsub (y := main_cst_49) (by decide), wsub (y := main_v212) (by decide), wsub (y := main_v213) (by decide), wsub (y := main_v214) (by decide), wsub (y := main_v215) (by decide), wsub (y := main_v216) (by decide), wsub (y := main_v217) (by decide), wsub (y := main_v218) (by decide), wsub (y := main_v219) (by decide), wsub (y := main_v220) (by decide), wsub (y := main_v221) (by decide), wsub (y := main_v222) (by decide), wsub (y := main_v223) (by decide), wsub (y := main_v224) (by decide), wsub (y := main_v225) (by decide), wsub (y := main_call7_cst) (by decide), wsub (y := main_call7_v0) (by decide), wsub (y := main_v226) (by decide), wsub (y := main_v227) (by decide), wsub (y := main_v228) (by decide), wsub (y := main_v229) (by decide), wsub (y := main_v230) (by decide), wsub (y := main_v231) (by decide), wsub (y := main_v232) (by decide), wsub (y := main_v233) (by decide), wsub (y := main_v234) (by decide), wsub (y := main_v235) (by decide), wsub (y := main_v236) (by decide), wsub (y := main_c_50) (by decide), wsub (y := main_v237) (by decide), wsub (y := main_v238) (by decide), wsub (y := main_c_51) (by decide), wsub (y := main_v239) (by decide), wsub (y := main_v240) (by decide), wsub (y := main_v241) (by decide), wsub (y := main_v242) (by decide), wsub (y := main_v243) (by decide), wsub (y := main_cst_52) (by decide), wsub (y := main_v244) (by decide)⟩

/-- No argument of @main is written in the window. -/
theorem args4 : ∀ r ∈ argRefs, r ∉ W4 := by decide

/-- The window leaves each argument's buffer as it was. -/
theorem ops4_keeps (V : Valuation τ sig (Elt F)) {r : Ref sig .tc} (hr : r ∈ argRefs) :
    StableHlo.after ops4 V (Proc.devRef .tc r) = V (Proc.devRef .tc r) :=
  StableHlo.after_of_writes_sub ops4 V ops4_writes (args4 r hr)

end Cert.ReferenceIdeal.Hand

end
-- ==== Proof.Ref.Ops5.lean ====
/- Window 5 of the reference's @main, statements 301 … 360 of 433, as a LIST of host operations: each of the
   window's statements in order, a call of a module-local function written as that function's operations over the
   call's operands and its record of buffers (calling is running the body). The window IS the line of that list
   (`main_part5_eq`): cut at each call, the printed window and the stretches agree by unfolding alone, and stretches
   run in a row are the line of their concatenation. Every operation touches TensorCore buffers only (`ops5_sub`),
   determines its result (`ops5_fresh`) and writes one buffer of the list `W5` (`ops5_writes`); no argument of @main
   is in that list, so the window leaves the arguments as they were (`ops5_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Window 5's 60 operations, in order. -/
abbrev ops5 : List (HloOp τ sig (Elt F)) :=
  [ StableHlo.unary main_v236 main_v245 (broadcastInDim S800000x1 ![0] bcast_S800000_S800000x1_0 : (⟨S800000, .i32⟩ : BufTy).Contents (Elt F) → (⟨S800000x1, .i32⟩ : BufTy).Contents (Elt F)),
    StableHlo.ternary main_v244 main_v245 main_v243 main_v246 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.nullary main_cst_53 (constant S_ .f32 0x3F800000#32),
    StableHlo.unary main_cst_53 main_v247 (broadcastInDim S800000 ![] bcast_S_S800000 : (⟨S_, .f32⟩ : BufTy).Contents (Elt F) → (⟨S800000, .f32⟩ : BufTy).Contents (Elt F)),
    StableHlo.nullary main_cst_54 (constant S_ .f32 0x00000000#32),
    StableHlo.unary main_cst_54 main_v248 (broadcastInDim S200000 ![] bcast_S_S200000 : (⟨S_, .f32⟩ : BufTy).Contents (Elt F) → (⟨S200000, .f32⟩ : BufTy).Contents (Elt F)),
    StableHlo.unary main_v236 main_v249 (broadcastInDim S800000x1 ![0] bcast_S800000_S800000x1_0 : (⟨S800000, .i32⟩ : BufTy).Contents (Elt F) → (⟨S800000x1, .i32⟩ : BufTy).Contents (Elt F)),
    StableHlo.ternary main_v248 main_v249 main_v247 main_v250 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F)),
    StableHlo.nullary main_cst_55 (constant S_ .f32 0x3F800000#32),
    StableHlo.unary main_cst_55 main_v251 (broadcastInDim S200000 ![] bcast_S_S200000 : (⟨S_, .f32⟩ : BufTy).Contents (Elt F) → (⟨S200000, .f32⟩ : BufTy).Contents (Elt F)),
    StableHlo.binary main_v250 main_v251 main_v252 (maximumf : (⟨S200000, .f32⟩ : BufTy).Contents (Elt F) → (⟨S200000, .f32⟩ : BufTy).Contents (Elt F) → (⟨S200000, .f32⟩ : BufTy).Contents (Elt F)),
    StableHlo.unary main_v252 main_v253 (broadcastInDim S200000x1 ![0] bcast_S200000_S200000x1_0 : (⟨S200000, .f32⟩ : BufTy).Contents (Elt F) → (⟨S200000x1, .f32⟩ : BufTy).Contents (Elt F)),
    StableHlo.unary main_v253 main_v254 (broadcastInDim S200000x128 ![0, 1] bcast_S200000x1_S200000x128_0_1 : (⟨S200000x1, .f32⟩ : BufTy).Contents (Elt F) → (⟨S200000x128, .f32⟩ : BufTy).Contents (Elt F)),
    StableHlo.binary main_v246 main_v254 main_v255 (Host.divf : (⟨S200000x128, .f32⟩ : BufTy).Contents (Elt F) → (⟨S200000x128, .f32⟩ : BufTy).Contents (Elt F) → (⟨S200000x128, .f32⟩ : BufTy).Contents (Elt F)),
    StableHlo.unary main_v228 main_v256 ((transpose S128x128 [1, 0] · transposes_S128x128_S128x128_1_0) : (⟨S128x128, .f32⟩ : BufTy).Contents (Elt F) → (⟨S128x128, .f32⟩ : BufTy).Contents (Elt F)),
    StableHlo.binary main_v255 main_v256 main_v257 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v230 main_v258 (broadcastInDim S1x128 ![1] bcast_S128_S1x128_1 : (⟨S128, .f32⟩ : BufTy).Contents (Elt F) → (⟨S1x128, .f32⟩ : BufTy).Contents (Elt F)),
    StableHlo.unary main_v258 main_v259 (broadcastInDim S200000x128 ![0, 1] bcast_S1x128_S200000x128_0_1 : (⟨S1x128, .f32⟩ : BufTy).Contents (Elt F) → (⟨S200000x128, .f32⟩ : BufTy).Contents (Elt F)),
    StableHlo.binary main_v257 main_v259 main_v260 (addf : (⟨S200000x128, .f32⟩ : BufTy).Contents (Elt F) → (⟨S200000x128, .f32⟩ : BufTy).Contents (Elt F) → (⟨S200000x128, .f32⟩ : BufTy).Contents (Elt F)),
    StableHlo.unary main_v232 main_v261 ((transpose S128x128 [1, 0] · transposes_S128x128_S128x128_1_0) : (⟨S128x128, .f32⟩ : BufTy).Contents (Elt F) → (⟨S128x128, .f32⟩ : BufTy).Contents (Elt F)),
    StableHlo.binary main_v226 main_v261 main_v262 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v260 main_v262 main_v263 (addf : (⟨S200000x128, .f32⟩ : BufTy).Contents (Elt F) → (⟨S200000x128, .f32⟩ : BufTy).Contents (Elt F) → (⟨S200000x128, .f32⟩ : BufTy).Contents (Elt F)),
    StableHlo.unary main_arg13 main_v264 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v264 main_v265 rfl shapeCasts_S1x1x128x128_S128x128,
    StableHlo.unary main_arg14 main_v266 ((extractStridedSlice S1x1x128 ![1, 1, 0] · slices_S2x3x128_S1x1x128_1_1_0) : (⟨S2x3x128, .f32⟩ : BufTy).Contents (Elt F) → (⟨S1x1x128, .f32⟩ : BufTy).Contents (Elt F)),
    StableHlo.reshape main_v266 main_v267 rfl shapeCasts_S1x1x128_S128,
    StableHlo.unary main_arg15 main_v268 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v268 main_v269 rfl shapeCasts_S1x1x128x128_S128x128,
    StableHlo.unary main_arg3 main_v270 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v270 main_v271 rfl shapeCasts_S1x1000000_S1000000,
    StableHlo.unary main_arg3 main_v272 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v272 main_v273 rfl shapeCasts_S1x1000000_S1000000,
    StableHlo.nullary main_c_56 (constantI S_ 32 0#32),
    StableHlo.unary main_c_56 main_v274 (broadcastInDim S1000000 ![] bcast_S_S1000000 : (⟨S_, .i32⟩ : BufTy).Contents (Elt F) → (⟨S1000000, .i32⟩ : BufTy).Contents (Elt F)),
    StableHlo.binary main_v271 main_v274 main_v275 (cmpi .slt : (⟨S1000000, .i32⟩ : BufTy).Contents (Elt F) → (⟨S1000000, .i32⟩ : BufTy).Contents (Elt F) → (⟨S1000000, .i1⟩ : BufTy).Contents (Elt F)),
    StableHlo.nullary main_c_57 (constantI S_ 32 200000#32),
    StableHlo.unary main_c_57 main_v276 (broadcastInDim S1000000 ![] bcast_S_S1000000 : (⟨S_, .i32⟩ : BufTy).Contents (Elt F) → (⟨S1000000, .i32⟩ : BufTy).Contents (Elt F)),
    StableHlo.binary main_v271 main_v276 main_v277 (addi : (⟨S1000000, .i32⟩ : BufTy).Contents (Elt F) → (⟨S1000000, .i32⟩ : BufTy).Contents (Elt F) → (⟨S1000000, .i32⟩ : BufTy).Contents (Elt F)),
    StableHlo.ternary main_v275 main_v277 main_v271 main_v278 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v278 main_v279 (broadcastInDim S1000000x1 ![0] bcast_S1000000_S1000000x1_0 : (⟨S1000000, .i32⟩ : BufTy).Contents (Elt F) → (⟨S1000000x1, .i32⟩ : BufTy).Contents (Elt F)),
    StableHlo.binary main_v226 main_v279 main_v280 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    StableHlo.nullary main_cst_58 (constant S_ .f32 0x00000000#32),
    StableHlo.unary main_cst_58 main_v281 (broadcastInDim S200000x128 ![] bcast_S_S200000x128 : (⟨S_, .f32⟩ : BufTy).Contents (Elt F) → (⟨S200000x128, .f32⟩ : BufTy).Contents (Elt F)),
    StableHlo.unary main_v273 main_v282 (broadcastInDim S1000000x1 ![0] bcast_S1000000_S1000000x1_0 : (⟨S1000000, .i32⟩ : BufTy).Contents (Elt F) → (⟨S1000000x1, .i32⟩ : BufTy).Contents (Elt F)),
    StableHlo.ternary main_v281 main_v282 main_v280 main_v283 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    StableHlo.nullary main_cst_59 (constant S_ .f32 0x3F800000#32),
    StableHlo.unary main_cst_59 main_v284 (broadcastInDim S1000000 ![] bcast_S_S1000000 : (⟨S_, .f32⟩ : BufTy).Contents (Elt F) → (⟨S1000000, .f32⟩ : BufTy).Contents (Elt F)),
    StableHlo.nullary main_cst_60 (constant S_ .f32 0x00000000#32),
    StableHlo.unary main_cst_60 main_v285 (broadcastInDim S200000 ![] bcast_S_S200000 : (⟨S_, .f32⟩ : BufTy).Contents (Elt F) → (⟨S200000, .f32⟩ : BufTy).Contents (Elt F)),
    StableHlo.unary main_v273 main_v286 (broadcastInDim S1000000x1 ![0] bcast_S1000000_S1000000x1_0 : (⟨S1000000, .i32⟩ : BufTy).Contents (Elt F) → (⟨S1000000x1, .i32⟩ : BufTy).Contents (Elt F)),
    StableHlo.ternary main_v285 main_v286 main_v284 main_v287 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    StableHlo.nullary main_cst_61 (constant S_ .f32 0x3F800000#32),
    StableHlo.unary main_cst_61 main_v288 (broadcastInDim S200000 ![] bcast_S_S200000 : (⟨S_, .f32⟩ : BufTy).Contents (Elt F) → (⟨S200000, .f32⟩ : BufTy).Contents (Elt F)),
    StableHlo.binary main_v287 main_v288 main_v289 (maximumf : (⟨S200000, .f32⟩ : BufTy).Contents (Elt F) → (⟨S200000, .f32⟩ : BufTy).Contents (Elt F) → (⟨S200000, .f32⟩ : BufTy).Contents (Elt F)),
    StableHlo.unary main_v289 main_v290 (broadcastInDim S200000x1 ![0] bcast_S200000_S200000x1_0 : (⟨S200000, .f32⟩ : BufTy).Contents (Elt F) → (⟨S200000x1, .f32⟩ : BufTy).Contents (Elt F)),
    StableHlo.unary main_v290 main_v291 (broadcastInDim S200000x128 ![0, 1] bcast_S200000x1_S200000x128_0_1 : (⟨S200000x1, .f32⟩ : BufTy).Contents (Elt F) → (⟨S200000x128, .f32⟩ : BufTy).Contents (Elt F)),
    StableHlo.binary main_v283 main_v291 main_v292 (Host.divf : (⟨S200000x128, .f32⟩ : BufTy).Contents (Elt F) → (⟨S200000x128, .f32⟩ : BufTy).Contents (Elt F) → (⟨S200000x128, .f32⟩ : BufTy).Contents (Elt F)),
    StableHlo.unary main_v265 main_v293 ((transpose S128x128 [1, 0] · transposes_S128x128_S128x128_1_0) : (⟨S128x128, .f32⟩ : BufTy).Contents (Elt F) → (⟨S128x128, .f32⟩ : BufTy).Contents (Elt F)),
    StableHlo.binary main_v292 main_v293 main_v294 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v267 main_v295 (broadcastInDim S1x128 ![1] bcast_S128_S1x128_1 : (⟨S128, .f32⟩ : BufTy).Contents (Elt F) → (⟨S1x128, .f32⟩ : BufTy).Contents (Elt F)) ]

/-- The window is the line of its operations. -/
theorem main_part5_eq (c : Dev nD) : main_part5 (F := F) c = (StableHlo.seq ops5 : Prog (TpuEff nD τ sig (Elt F) (Pipeline.Sig Λ₀ (Fin 0) fun p => (pcfgs (F := F) p).Adm) .tc) PUnit) := by
  chain_rfl

set_option maxHeartbeats 40000000 in
/-- Each touches TensorCore references only. -/
theorem ops5_sub : (ops5 : List (HloOp τ sig (Elt F))).Forall fun op => op.bufs ⊆ StableHlo.tcRefs τ sig :=
  ⟨StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub ..⟩

set_option maxHeartbeats 40000000 in
/-- Each determines its result: none allocates a buffer without contents. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W5 : List (Ref sig .tc) :=
  [main_v245, main_v246, main_cst_53, main_v247, main_cst_54, main_v248, main_v249, main_v250, main_cst_55, main_v251, main_v252, main_v253, main_v254, main_v255, main_v256, main_v257, main_v258, main_v259, main_v260, main_v261, main_v262, main_v263, main_v264, main_v265, main_v266, main_v267, main_v268, main_v269, main_v270, main_v271, main_v272, main_v273, main_c_56, main_v274, main_v275, main_c_57, main_v276, main_v277, main_v278, main_v279, main_v280, main_cst_58, main_v281, main_v282, main_v283, main_cst_59, main_v284, main_cst_60, main_v285, main_v286, main_v287, main_cst_61, main_v288, main_v289, main_v290, main_v291, main_v292, main_v293, main_v294, main_v295]

set_option maxHeartbeats 40000000 in
/-- Each writes one buffer, of that list. -/
theorem ops5_writes : (ops5 : List (HloOp τ sig (Elt F))).Forall fun op => op.writes ⊆ (W5.map (Proc.devRef (τ := τ) .tc)).toFinset :=
  ⟨wsub (y := main_v245) (by decide), wsub (y := main_v246) (by decide), wsub (y := main_cst_53) (by decide), wsub (y := main_v247) (by decide), wsub (y := main_cst_54) (by decide), wsub (y := main_v248) (by decide), wsub (y := main_v249) (by decide), wsub (y := main_v250) (by decide), wsub (y := main_cst_55) (by decide), wsub (y := main_v251) (by decide), wsub (y := main_v252) (by decide), wsub (y := main_v253) (by decide), wsub (y := main_v254) (by decide), wsub (y := main_v255) (by decide), wsub (y := main_v256) (by decide), wsub (y := main_v257) (by decide), wsub (y := main_v258) (by decide), wsub (y := main_v259) (by decide), wsub (y := main_v260) (by decide), wsub (y := main_v261) (by decide), wsub (y := main_v262) (by decide), wsub (y := main_v263) (by decide), wsub (y := main_v264) (by decide), wsub (y := main_v265) (by decide), wsub (y := main_v266) (by decide), wsub (y := main_v267) (by decide), wsub (y := main_v268) (by decide), wsub (y := main_v269) (by decide), wsub (y := main_v270) (by decide), wsub (y := main_v271) (by decide), wsub (y := main_v272) (by decide), wsub (y := main_v273) (by decide), wsub (y := main_c_56) (by decide), wsub (y := main_v274) (by decide), wsub (y := main_v275) (by decide), wsub (y := main_c_57) (by decide), wsub (y := main_v276) (by decide), wsub (y := main_v277) (by decide), wsub (y := main_v278) (by decide), wsub (y := main_v279) (by decide), wsub (y := main_v280) (by decide), wsub (y := main_cst_58) (by decide), wsub (y := main_v281) (by decide), wsub (y := main_v282) (by decide), wsub (y := main_v283) (by decide), wsub (y := main_cst_59) (by decide), wsub (y := main_v284) (by decide), wsub (y := main_cst_60) (by decide), wsub (y := main_v285) (by decide), wsub (y := main_v286) (by decide), wsub (y := main_v287) (by decide), wsub (y := main_cst_61) (by decide), wsub (y := main_v288) (by decide), wsub (y := main_v289) (by decide), wsub (y := main_v290) (by decide), wsub (y := main_v291) (by decide), wsub (y := main_v292) (by decide), wsub (y := main_v293) (by decide), wsub (y := main_v294) (by decide), wsub (y := main_v295) (by decide)⟩

/-- No argument of @main is written in the window. -/
theorem args5 : ∀ r ∈ argRefs, r ∉ W5 := by decide

/-- The window leaves each argument's buffer as it was. -/
theorem ops5_keeps (V : Valuation τ sig (Elt F)) {r : Ref sig .tc} (hr : r ∈ argRefs) :
    StableHlo.after ops5 V (Proc.devRef .tc r) = V (Proc.devRef .tc r) :=
  StableHlo.after_of_writes_sub ops5 V ops5_writes (args5 r hr)

end Cert.ReferenceIdeal.Hand

end
-- ==== Proof.Ref.Ops6.lean ====
/- Window 6 of the reference's @main, statements 361 … 420 of 433, as a LIST of host operations: each of the
   window's statements in order, a call of a module-local function written as that function's operations over the
   call's operands and its record of buffers (calling is running the body). The window IS the line of that list
   (`main_part6_eq`): cut at each call, the printed window and the stretches agree by unfolding alone, and stretches
   run in a row are the line of their concatenation. Every operation touches TensorCore buffers only (`ops6_sub`),
   determines its result (`ops6_fresh`) and writes one buffer of the list `W6` (`ops6_writes`); no argument of @main
   is in that list, so the window leaves the arguments as they were (`ops6_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Stretch 0 of window 6: 50 operations. -/
abbrev ops6_0 : List (HloOp τ sig (Elt F)) :=
  [ StableHlo.unary main_v295 main_v296 (broadcastInDim S200000x128 ![0, 1] bcast_S1x128_S200000x128_0_1 : (⟨S1x128, .f32⟩ : BufTy).Contents (Elt F) → (⟨S200000x128, .f32⟩ : BufTy).Contents (Elt F)),
    StableHlo.binary main_v294 main_v296 main_v297 (addf : (⟨S200000x128, .f32⟩ : BufTy).Contents (Elt F) → (⟨S200000x128, .f32⟩ : BufTy).Contents (Elt F) → (⟨S200000x128, .f32⟩ : BufTy).Contents (Elt F)),
    StableHlo.unary main_v269 main_v298 ((transpose S128x128 [1, 0] · transposes_S128x128_S128x128_1_0) : (⟨S128x128, .f32⟩ : BufTy).Contents (Elt F) → (⟨S128x128, .f32⟩ : BufTy).Contents (Elt F)),
    StableHlo.binary main_v226 main_v298 main_v299 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v297 main_v299 main_v300 (addf : (⟨S200000x128, .f32⟩ : BufTy).Contents (Elt F) → (⟨S200000x128, .f32⟩ : BufTy).Contents (Elt F) → (⟨S200000x128, .f32⟩ : BufTy).Contents (Elt F)),
    StableHlo.binary main_v263 main_v300 main_v301 (addf : (⟨S200000x128, .f32⟩ : BufTy).Contents (Elt F) → (⟨S200000x128, .f32⟩ : BufTy).Contents (Elt F) → (⟨S200000x128, .f32⟩ : BufTy).Contents (Elt F)),
    StableHlo.unary main_arg13 main_v302 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v302 main_v303 rfl shapeCasts_S1x1x128x128_S128x128,
    StableHlo.unary main_arg14 main_v304 ((extractStridedSlice S1x1x128 ![1, 2, 0] · slices_S2x3x128_S1x1x128_1_2_0) : (⟨S2x3x128, .f32⟩ : BufTy).Contents (Elt F) → (⟨S1x1x128, .f32⟩ : BufTy).Contents (Elt F)),
    StableHlo.reshape main_v304 main_v305 rfl shapeCasts_S1x1x128_S128,
    StableHlo.unary main_arg15 main_v306 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v306 main_v307 rfl shapeCasts_S1x1x128x128_S128x128,
    StableHlo.unary main_arg4 main_v308 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v308 main_v309 rfl shapeCasts_S1x500000_S500000,
    StableHlo.unary main_arg4 main_v310 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v310 main_v311 rfl shapeCasts_S1x500000_S500000,
    StableHlo.nullary main_c_62 (constantI S_ 32 0#32),
    StableHlo.unary main_c_62 main_v312 (broadcastInDim S500000 ![] bcast_S_S500000 : (⟨S_, .i32⟩ : BufTy).Contents (Elt F) → (⟨S500000, .i32⟩ : BufTy).Contents (Elt F)),
    StableHlo.binary main_v309 main_v312 main_v313 (cmpi .slt : (⟨S500000, .i32⟩ : BufTy).Contents (Elt F) → (⟨S500000, .i32⟩ : BufTy).Contents (Elt F) → (⟨S500000, .i1⟩ : BufTy).Contents (Elt F)),
    StableHlo.nullary main_c_63 (constantI S_ 32 500000#32),
    StableHlo.unary main_c_63 main_v314 (broadcastInDim S500000 ![] bcast_S_S500000 : (⟨S_, .i32⟩ : BufTy).Contents (Elt F) → (⟨S500000, .i32⟩ : BufTy).Contents (Elt F)),
    StableHlo.binary main_v309 main_v314 main_v315 (addi : (⟨S500000, .i32⟩ : BufTy).Contents (Elt F) → (⟨S500000, .i32⟩ : BufTy).Contents (Elt F) → (⟨S500000, .i32⟩ : BufTy).Contents (Elt F)),
    StableHlo.ternary main_v313 main_v315 main_v309 main_v316 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v316 main_v317 (broadcastInDim S500000x1 ![0] bcast_S500000_S500000x1_0 : (⟨S500000, .i32⟩ : BufTy).Contents (Elt F) → (⟨S500000x1, .i32⟩ : BufTy).Contents (Elt F)),
    StableHlo.binary main_v112 main_v317 main_v318 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_64 (constant S_ .f32 0x00000000#32),
    StableHlo.unary main_cst_64 main_v319 (broadcastInDim S200000x128 ![] bcast_S_S200000x128 : (⟨S_, .f32⟩ : BufTy).Contents (Elt F) → (⟨S200000x128, .f32⟩ : BufTy).Contents (Elt F)),
    StableHlo.unary main_v311 main_v320 (broadcastInDim S500000x1 ![0] bcast_S500000_S500000x1_0 : (⟨S500000, .i32⟩ : BufTy).Contents (Elt F) → (⟨S500000x1, .i32⟩ : BufTy).Contents (Elt F)),
    StableHlo.ternary main_v319 main_v320 main_v318 main_v321 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_65 (constant S_ .f32 0x3F800000#32),
    StableHlo.unary main_cst_65 main_v322 (broadcastInDim S500000 ![] bcast_S_S500000 : (⟨S_, .f32⟩ : BufTy).Contents (Elt F) → (⟨S500000, .f32⟩ : BufTy).Contents (Elt F)),
    StableHlo.nullary main_cst_66 (constant S_ .f32 0x00000000#32),
    StableHlo.unary main_cst_66 main_v323 (broadcastInDim S200000 ![] bcast_S_S200000 : (⟨S_, .f32⟩ : BufTy).Contents (Elt F) → (⟨S200000, .f32⟩ : BufTy).Contents (Elt F)),
    StableHlo.unary main_v311 main_v324 (broadcastInDim S500000x1 ![0] bcast_S500000_S500000x1_0 : (⟨S500000, .i32⟩ : BufTy).Contents (Elt F) → (⟨S500000x1, .i32⟩ : BufTy).Contents (Elt F)),
    StableHlo.ternary main_v323 main_v324 main_v322 main_v325 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_67 (constant S_ .f32 0x3F800000#32),
    StableHlo.unary main_cst_67 main_v326 (broadcastInDim S200000 ![] bcast_S_S200000 : (⟨S_, .f32⟩ : BufTy).Contents (Elt F) → (⟨S200000, .f32⟩ : BufTy).Contents (Elt F)),
    StableHlo.binary main_v325 main_v326 main_v327 (maximumf : (⟨S200000, .f32⟩ : BufTy).Contents (Elt F) → (⟨S200000, .f32⟩ : BufTy).Contents (Elt F) → (⟨S200000, .f32⟩ : BufTy).Contents (Elt F)),
    StableHlo.unary main_v327 main_v328 (broadcastInDim S200000x1 ![0] bcast_S200000_S200000x1_0 : (⟨S200000, .f32⟩ : BufTy).Contents (Elt F) → (⟨S200000x1, .f32⟩ : BufTy).Contents (Elt F)),
    StableHlo.unary main_v328 main_v329 (broadcastInDim S200000x128 ![0, 1] bcast_S200000x1_S200000x128_0_1 : (⟨S200000x1, .f32⟩ : BufTy).Contents (Elt F) → (⟨S200000x128, .f32⟩ : BufTy).Contents (Elt F)),
    StableHlo.binary main_v321 main_v329 main_v330 (Host.divf : (⟨S200000x128, .f32⟩ : BufTy).Contents (Elt F) → (⟨S200000x128, .f32⟩ : BufTy).Contents (Elt F) → (⟨S200000x128, .f32⟩ : BufTy).Contents (Elt F)),
    StableHlo.unary main_v303 main_v331 ((transpose S128x128 [1, 0] · transposes_S128x128_S128x128_1_0) : (⟨S128x128, .f32⟩ : BufTy).Contents (Elt F) → (⟨S128x128, .f32⟩ : BufTy).Contents (Elt F)),
    StableHlo.binary main_v330 main_v331 main_v332 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v305 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S200000x128 ![0, 1] bcast_S1x128_S200000x128_0_1 : (⟨S1x128, .f32⟩ : BufTy).Contents (Elt F) → (⟨S200000x128, .f32⟩ : BufTy).Contents (Elt F)),
    StableHlo.binary main_v332 main_v334 main_v335 (addf : (⟨S200000x128, .f32⟩ : BufTy).Contents (Elt F) → (⟨S200000x128, .f32⟩ : BufTy).Contents (Elt F) → (⟨S200000x128, .f32⟩ : BufTy).Contents (Elt F)),
    StableHlo.unary main_v307 main_v336 ((transpose S128x128 [1, 0] · transposes_S128x128_S128x128_1_0) : (⟨S128x128, .f32⟩ : BufTy).Contents (Elt F) → (⟨S128x128, .f32⟩ : BufTy).Contents (Elt F)),
    StableHlo.binary main_v226 main_v336 main_v337 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v335 main_v337 main_v338 (addf : (⟨S200000x128, .f32⟩ : BufTy).Contents (Elt F) → (⟨S200000x128, .f32⟩ : BufTy).Contents (Elt F) → (⟨S200000x128, .f32⟩ : BufTy).Contents (Elt F)),
    StableHlo.binary main_v301 main_v338 main_v339 (addf : (⟨S200000x128, .f32⟩ : BufTy).Contents (Elt F) → (⟨S200000x128, .f32⟩ : BufTy).Contents (Elt F) → (⟨S200000x128, .f32⟩ : BufTy).Contents (Elt F)) ]

/-- Stretch 1 of window 6: 3 operations. -/
abbrev ops6_1 : List (HloOp τ sig (Elt F)) :=
  [ StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S200000x128, .f32⟩) (broadcastInDim S200000x128 ![] bcast_S_S200000x128),
    StableHlo.TRef.binary (.of main_v339 : StableHlo.TRef sig ⟨S200000x128, .f32⟩) (.of main_call8_v0 : StableHlo.TRef sig ⟨S200000x128, .f32⟩) (.of main_v340 : StableHlo.TRef sig ⟨S200000x128, .f32⟩) maximumf ]

/-- Stretch 2 of window 6: 9 operations. -/
abbrev ops6_2 : List (HloOp τ sig (Elt F)) :=
  [ StableHlo.nullary main_cst_68 (constant S_ .f32 0x00000000#32),
    StableHlo.unary main_cst_68 main_v341 (broadcastInDim S20000x128 ![] bcast_S_S20000x128 : (⟨S_, .f32⟩ : BufTy).Contents (Elt F) → (⟨S20000x128, .f32⟩ : BufTy).Contents (Elt F)),
    StableHlo.unary main_arg5 main_v342 (broadcastInDim S200000x1 ![0] bcast_S200000_S200000x1_0 : (⟨S200000, .i32⟩ : BufTy).Contents (Elt F) → (⟨S200000x1, .i32⟩ : BufTy).Contents (Elt F)),
    StableHlo.ternary main_v341 main_v342 main_v340 main_v343 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)),
    StableHlo.nullary main_cst_69 (constant S_ .f32 0x3F800000#32),
    StableHlo.unary main_cst_69 main_v344 (broadcastInDim S200000 ![] bcast_S_S200000 : (⟨S_, .f32⟩ : BufTy).Contents (Elt F) → (⟨S200000, .f32⟩ : BufTy).Contents (Elt F)),
    StableHlo.nullary main_cst_70 (constant S_ .f32 0x00000000#32),
    StableHlo.unary main_cst_70 main_v345 (broadcastInDim S20000 ![] bcast_S_S20000 : (⟨S_, .f32⟩ : BufTy).Contents (Elt F) → (⟨S20000, .f32⟩ : BufTy).Contents (Elt F)),
    StableHlo.unary main_arg5 main_v346 (broadcastInDim S200000x1 ![0] bcast_S200000_S200000x1_0 : (⟨S200000, .i32⟩ : BufTy).Contents (Elt F) → (⟨S200000x1, .i32⟩ : BufTy).Contents (Elt F)) ]

set_option maxHeartbeats 40000000 in
/-- Window 6's 62 operations, in order. -/
abbrev ops6 : List (HloOp τ sig (Elt F)) :=
  [ StableHlo.unary main_v295 main_v296 (broadcastInDim S200000x128 ![0, 1] bcast_S1x128_S200000x128_0_1 : (⟨S1x128, .f32⟩ : BufTy).Contents (Elt F) → (⟨S200000x128, .f32⟩ : BufTy).Contents (Elt F)),
    StableHlo.binary main_v294 main_v296 main_v297 (addf : (⟨S200000x128, .f32⟩ : BufTy).Contents (Elt F) → (⟨S200000x128, .f32⟩ : BufTy).Contents (Elt F) → (⟨S200000x128, .f32⟩ : BufTy).Contents (Elt F)),
    StableHlo.unary main_v269 main_v298 ((transpose S128x128 [1, 0] · transposes_S128x128_S128x128_1_0) : (⟨S128x128, .f32⟩ : BufTy).Contents (Elt F) → (⟨S128x128, .f32⟩ : BufTy).Contents (Elt F)),
    StableHlo.binary main_v226 main_v298 main_v299 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v297 main_v299 main_v300 (addf : (⟨S200000x128, .f32⟩ : BufTy).Contents (Elt F) → (⟨S200000x128, .f32⟩ : BufTy).Contents (Elt F) → (⟨S200000x128, .f32⟩ : BufTy).Contents (Elt F)),
    StableHlo.binary main_v263 main_v300 main_v301 (addf : (⟨S200000x128, .f32⟩ : BufTy).Contents (Elt F) → (⟨S200000x128, .f32⟩ : BufTy).Contents (Elt F) → (⟨S200000x128, .f32⟩ : BufTy).Contents (Elt F)),
    StableHlo.unary main_arg13 main_v302 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v302 main_v303 rfl shapeCasts_S1x1x128x128_S128x128,
    StableHlo.unary main_arg14 main_v304 ((extractStridedSlice S1x1x128 ![1, 2, 0] · slices_S2x3x128_S1x1x128_1_2_0) : (⟨S2x3x128, .f32⟩ : BufTy).Contents (Elt F) → (⟨S1x1x128, .f32⟩ : BufTy).Contents (Elt F)),
    StableHlo.reshape main_v304 main_v305 rfl shapeCasts_S1x1x128_S128,
    StableHlo.unary main_arg15 main_v306 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v306 main_v307 rfl shapeCasts_S1x1x128x128_S128x128,
    StableHlo.unary main_arg4 main_v308 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v308 main_v309 rfl shapeCasts_S1x500000_S500000,
    StableHlo.unary main_arg4 main_v310 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v310 main_v311 rfl shapeCasts_S1x500000_S500000,
    StableHlo.nullary main_c_62 (constantI S_ 32 0#32),
    StableHlo.unary main_c_62 main_v312 (broadcastInDim S500000 ![] bcast_S_S500000 : (⟨S_, .i32⟩ : BufTy).Contents (Elt F) → (⟨S500000, .i32⟩ : BufTy).Contents (Elt F)),
    StableHlo.binary main_v309 main_v312 main_v313 (cmpi .slt : (⟨S500000, .i32⟩ : BufTy).Contents (Elt F) → (⟨S500000, .i32⟩ : BufTy).Contents (Elt F) → (⟨S500000, .i1⟩ : BufTy).Contents (Elt F)),
    StableHlo.nullary main_c_63 (constantI S_ 32 500000#32),
    StableHlo.unary main_c_63 main_v314 (broadcastInDim S500000 ![] bcast_S_S500000 : (⟨S_, .i32⟩ : BufTy).Contents (Elt F) → (⟨S500000, .i32⟩ : BufTy).Contents (Elt F)),
    StableHlo.binary main_v309 main_v314 main_v315 (addi : (⟨S500000, .i32⟩ : BufTy).Contents (Elt F) → (⟨S500000, .i32⟩ : BufTy).Contents (Elt F) → (⟨S500000, .i32⟩ : BufTy).Contents (Elt F)),
    StableHlo.ternary main_v313 main_v315 main_v309 main_v316 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v316 main_v317 (broadcastInDim S500000x1 ![0] bcast_S500000_S500000x1_0 : (⟨S500000, .i32⟩ : BufTy).Contents (Elt F) → (⟨S500000x1, .i32⟩ : BufTy).Contents (Elt F)),
    StableHlo.binary main_v112 main_v317 main_v318 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_64 (constant S_ .f32 0x00000000#32),
    StableHlo.unary main_cst_64 main_v319 (broadcastInDim S200000x128 ![] bcast_S_S200000x128 : (⟨S_, .f32⟩ : BufTy).Contents (Elt F) → (⟨S200000x128, .f32⟩ : BufTy).Contents (Elt F)),
    StableHlo.unary main_v311 main_v320 (broadcastInDim S500000x1 ![0] bcast_S500000_S500000x1_0 : (⟨S500000, .i32⟩ : BufTy).Contents (Elt F) → (⟨S500000x1, .i32⟩ : BufTy).Contents (Elt F)),
    StableHlo.ternary main_v319 main_v320 main_v318 main_v321 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_65 (constant S_ .f32 0x3F800000#32),
    StableHlo.unary main_cst_65 main_v322 (broadcastInDim S500000 ![] bcast_S_S500000 : (⟨S_, .f32⟩ : BufTy).Contents (Elt F) → (⟨S500000, .f32⟩ : BufTy).Contents (Elt F)),
    StableHlo.nullary main_cst_66 (constant S_ .f32 0x00000000#32),
    StableHlo.unary main_cst_66 main_v323 (broadcastInDim S200000 ![] bcast_S_S200000 : (⟨S_, .f32⟩ : BufTy).Contents (Elt F) → (⟨S200000, .f32⟩ : BufTy).Contents (Elt F)),
    StableHlo.unary main_v311 main_v324 (broadcastInDim S500000x1 ![0] bcast_S500000_S500000x1_0 : (⟨S500000, .i32⟩ : BufTy).Contents (Elt F) → (⟨S500000x1, .i32⟩ : BufTy).Contents (Elt F)),
    StableHlo.ternary main_v323 main_v324 main_v322 main_v325 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_67 (constant S_ .f32 0x3F800000#32),
    StableHlo.unary main_cst_67 main_v326 (broadcastInDim S200000 ![] bcast_S_S200000 : (⟨S_, .f32⟩ : BufTy).Contents (Elt F) → (⟨S200000, .f32⟩ : BufTy).Contents (Elt F)),
    StableHlo.binary main_v325 main_v326 main_v327 (maximumf : (⟨S200000, .f32⟩ : BufTy).Contents (Elt F) → (⟨S200000, .f32⟩ : BufTy).Contents (Elt F) → (⟨S200000, .f32⟩ : BufTy).Contents (Elt F)),
    StableHlo.unary main_v327 main_v328 (broadcastInDim S200000x1 ![0] bcast_S200000_S200000x1_0 : (⟨S200000, .f32⟩ : BufTy).Contents (Elt F) → (⟨S200000x1, .f32⟩ : BufTy).Contents (Elt F)),
    StableHlo.unary main_v328 main_v329 (broadcastInDim S200000x128 ![0, 1] bcast_S200000x1_S200000x128_0_1 : (⟨S200000x1, .f32⟩ : BufTy).Contents (Elt F) → (⟨S200000x128, .f32⟩ : BufTy).Contents (Elt F)),
    StableHlo.binary main_v321 main_v329 main_v330 (Host.divf : (⟨S200000x128, .f32⟩ : BufTy).Contents (Elt F) → (⟨S200000x128, .f32⟩ : BufTy).Contents (Elt F) → (⟨S200000x128, .f32⟩ : BufTy).Contents (Elt F)),
    StableHlo.unary main_v303 main_v331 ((transpose S128x128 [1, 0] · transposes_S128x128_S128x128_1_0) : (⟨S128x128, .f32⟩ : BufTy).Contents (Elt F) → (⟨S128x128, .f32⟩ : BufTy).Contents (Elt F)),
    StableHlo.binary main_v330 main_v331 main_v332 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v305 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S200000x128 ![0, 1] bcast_S1x128_S200000x128_0_1 : (⟨S1x128, .f32⟩ : BufTy).Contents (Elt F) → (⟨S200000x128, .f32⟩ : BufTy).Contents (Elt F)),
    StableHlo.binary main_v332 main_v334 main_v335 (addf : (⟨S200000x128, .f32⟩ : BufTy).Contents (Elt F) → (⟨S200000x128, .f32⟩ : BufTy).Contents (Elt F) → (⟨S200000x128, .f32⟩ : BufTy).Contents (Elt F)),
    StableHlo.unary main_v307 main_v336 ((transpose S128x128 [1, 0] · transposes_S128x128_S128x128_1_0) : (⟨S128x128, .f32⟩ : BufTy).Contents (Elt F) → (⟨S128x128, .f32⟩ : BufTy).Contents (Elt F)),
    StableHlo.binary main_v226 main_v336 main_v337 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v335 main_v337 main_v338 (addf : (⟨S200000x128, .f32⟩ : BufTy).Contents (Elt F) → (⟨S200000x128, .f32⟩ : BufTy).Contents (Elt F) → (⟨S200000x128, .f32⟩ : BufTy).Contents (Elt F)),
    StableHlo.binary main_v301 main_v338 main_v339 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S200000x128, .f32⟩) (broadcastInDim S200000x128 ![] bcast_S_S200000x128),
    StableHlo.TRef.binary (.of main_v339 : StableHlo.TRef sig ⟨S200000x128, .f32⟩) (.of main_call8_v0 : StableHlo.TRef sig ⟨S200000x128, .f32⟩) (.of main_v340 : StableHlo.TRef sig ⟨S200000x128, .f32⟩) maximumf,
    StableHlo.nullary main_cst_68 (constant S_ .f32 0x00000000#32),
    StableHlo.unary main_cst_68 main_v341 (broadcastInDim S20000x128 ![] bcast_S_S20000x128 : (⟨S_, .f32⟩ : BufTy).Contents (Elt F) → (⟨S20000x128, .f32⟩ : BufTy).Contents (Elt F)),
    StableHlo.unary main_arg5 main_v342 (broadcastInDim S200000x1 ![0] bcast_S200000_S200000x1_0 : (⟨S200000, .i32⟩ : BufTy).Contents (Elt F) → (⟨S200000x1, .i32⟩ : BufTy).Contents (Elt F)),
    StableHlo.ternary main_v341 main_v342 main_v340 main_v343 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)),
    StableHlo.nullary main_cst_69 (constant S_ .f32 0x3F800000#32),
    StableHlo.unary main_cst_69 main_v344 (broadcastInDim S200000 ![] bcast_S_S200000 : (⟨S_, .f32⟩ : BufTy).Contents (Elt F) → (⟨S200000, .f32⟩ : BufTy).Contents (Elt F)),
    StableHlo.nullary main_cst_70 (constant S_ .f32 0x00000000#32),
    StableHlo.unary main_cst_70 main_v345 (broadcastInDim S20000 ![] bcast_S_S20000 : (⟨S_, .f32⟩ : BufTy).Contents (Elt F) → (⟨S20000, .f32⟩ : BufTy).Contents (Elt F)),
    StableHlo.unary main_arg5 main_v346 (broadcastInDim S200000x1 ![0] bcast_S200000_S200000x1_0 : (⟨S200000, .i32⟩ : BufTy).Contents (Elt F) → (⟨S200000x1, .i32⟩ : BufTy).Contents (Elt F)) ]

/-- The window, cut at its calls: the stretches in a row, the last in tail position. -/
theorem main_part6_chain (c : Dev nD) : main_part6 (F := F) c = (Pipeline.chainK
  [ StableHlo.seq ops6_0,
    StableHlo.seq ops6_1 ]
  (StableHlo.seq ops6_2) : Prog (TpuEff nD τ sig (Elt F) (Pipeline.Sig Λ₀ (Fin 0) fun p => (pcfgs (F := F) p).Adm) .tc) PUnit) := by
  chain_rfl

/-- The stretches' concatenation is the window's list. -/
theorem ops6_pieces : (ops6 : List (HloOp τ sig (Elt F))) = [ops6_0, ops6_1].flatten ++ ops6_2 := rfl

/-- The window is the line of its operations. -/
theorem main_part6_eq (c : Dev nD) : main_part6 (F := F) c = (StableHlo.seq ops6 : Prog (TpuEff nD τ sig (Elt F) (Pipeline.Sig Λ₀ (Fin 0) fun p => (pcfgs (F := F) p).Adm) .tc) PUnit) := by
  rw [main_part6_chain c, ops6_pieces]
  exact chainK_seq [ops6_0, ops6_1] ops6_2

set_option maxHeartbeats 40000000 in
/-- Each touches TensorCore references only. -/
theorem ops6_sub : (ops6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub ..⟩

set_option maxHeartbeats 40000000 in
/-- Each determines its result: none allocates a buffer without contents. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev W6 : List (Ref sig .tc) :=
  [main_v296, main_v297, main_v298, main_v299, main_v300, main_v301, main_v302, main_v303, main_v304, main_v305, main_v306, main_v307, main_v308, main_v309, main_v310, main_v311, main_c_62, main_v312, main_v313, main_c_63, main_v314, main_v315, main_v316, main_v317, main_v318, main_cst_64, main_v319, main_v320, main_v321, main_cst_65, main_v322, main_cst_66, main_v323, main_v324, main_v325, main_cst_67, main_v326, main_v327, main_v328, main_v329, main_v330, main_v331, main_v332, main_v333, main_v334, main_v335, main_v336, main_v337, main_v338, main_v339, main_call8_cst, main_call8_v0, main_v340, main_cst_68, main_v341, main_v342, main_v343, main_cst_69, main_v344, main_cst_70, main_v345, main_v346]

set_option maxHeartbeats 40000000 in
/-- Each writes one buffer, of that list. -/
theorem ops6_writes : (ops6 : List (HloOp τ sig (Elt F))).Forall fun op => op.writes ⊆ (W6.map (Proc.devRef (τ := τ) .tc)).toFinset :=
  ⟨wsub (y := main_v296) (by decide), wsub (y := main_v297) (by decide), wsub (y := main_v298) (by decide), wsub (y := main_v299) (by decide), wsub (y := main_v300) (by decide), wsub (y := main_v301) (by decide), wsub (y := main_v302) (by decide), wsub (y := main_v303) (by decide), wsub (y := main_v304) (by decide), wsub (y := main_v305) (by decide), wsub (y := main_v306) (by decide), wsub (y := main_v307) (by decide), wsub (y := main_v308) (by decide), wsub (y := main_v309) (by decide), wsub (y := main_v310) (by decide), wsub (y := main_v311) (by decide), wsub (y := main_c_62) (by decide), wsub (y := main_v312) (by decide), wsub (y := main_v313) (by decide), wsub (y := main_c_63) (by decide), wsub (y := main_v314) (by decide), wsub (y := main_v315) (by decide), wsub (y := main_v316) (by decide), wsub (y := main_v317) (by decide), wsub (y := main_v318) (by decide), wsub (y := main_cst_64) (by decide), wsub (y := main_v319) (by decide), wsub (y := main_v320) (by decide), wsub (y := main_v321) (by decide), wsub (y := main_cst_65) (by decide), wsub (y := main_v322) (by decide), wsub (y := main_cst_66) (by decide), wsub (y := main_v323) (by decide), wsub (y := main_v324) (by decide), wsub (y := main_v325) (by decide), wsub (y := main_cst_67) (by decide), wsub (y := main_v326) (by decide), wsub (y := main_v327) (by decide), wsub (y := main_v328) (by decide), wsub (y := main_v329) (by decide), wsub (y := main_v330) (by decide), wsub (y := main_v331) (by decide), wsub (y := main_v332) (by decide), wsub (y := main_v333) (by decide), wsub (y := main_v334) (by decide), wsub (y := main_v335) (by decide), wsub (y := main_v336) (by decide), wsub (y := main_v337) (by decide), wsub (y := main_v338) (by decide), wsub (y := main_v339) (by decide), wsub (y := main_call8_cst) (by decide), wsub (y := main_call8_v0) (by decide), wsub (y := main_v340) (by decide), wsub (y := main_cst_68) (by decide), wsub (y := main_v341) (by decide), wsub (y := main_v342) (by decide), wsub (y := main_v343) (by decide), wsub (y := main_cst_69) (by decide), wsub (y := main_v344) (by decide), wsub (y := main_cst_70) (by decide), wsub (y := main_v345) (by decide), wsub (y := main_v346) (by decide)⟩

/-- No argument of @main is written in the window. -/
theorem args6 : ∀ r ∈ argRefs, r ∉ W6 := by decide

/-- The window leaves each argument's buffer as it was. -/
theorem ops6_keeps (V : Valuation τ sig (Elt F)) {r : Ref sig .tc} (hr : r ∈ argRefs) :
    StableHlo.after ops6 V (Proc.devRef .tc r) = V (Proc.devRef .tc r) :=
  StableHlo.after_of_writes_sub ops6 V ops6_writes (args6 r hr)

end Cert.ReferenceIdeal.Hand

end
-- ==== Proof.Ref.Ops7.lean ====
/- Window 7 of the reference's @main, statements 421 … 432 of 433, as a LIST of host operations: each of the
   window's statements in order, a call of a module-local function written as that function's operations over the
   call's operands and its record of buffers (calling is running the body). The window IS the line of that list
   (`main_part7_eq`): cut at each call, the printed window and the stretches agree by unfolding alone, and stretches
   run in a row are the line of their concatenation. Every operation touches TensorCore buffers only (`ops7_sub`),
   determines its result (`ops7_fresh`) and writes one buffer of the list `W7` (`ops7_writes`); no argument of @main
   is in that list, so the window leaves the arguments as they were (`ops7_keeps`). -/
import proofs.«111184_j68341519614847_1_alg».proof.Proof.Ref.Basic

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Window 7's 12 operations, in order. -/
abbrev ops7 : List (HloOp τ sig (Elt F)) :=
  [ StableHlo.ternary main_v345 main_v346 main_v344 main_v347 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    StableHlo.nullary main_cst_71 (constant S_ .f32 0x3F800000#32),
    StableHlo.unary main_cst_71 main_v348 (broadcastInDim S20000 ![] bcast_S_S20000 : (⟨S_, .f32⟩ : BufTy).Contents (Elt F) → (⟨S20000, .f32⟩ : BufTy).Contents (Elt F)),
    StableHlo.binary main_v347 main_v348 main_v349 (maximumf : (⟨S20000, .f32⟩ : BufTy).Contents (Elt F) → (⟨S20000, .f32⟩ : BufTy).Contents (Elt F) → (⟨S20000, .f32⟩ : BufTy).Contents (Elt F)),
    StableHlo.unary main_v349 main_v350 (broadcastInDim S20000x1 ![0] bcast_S20000_S20000x1_0 : (⟨S20000, .f32⟩ : BufTy).Contents (Elt F) → (⟨S20000x1, .f32⟩ : BufTy).Contents (Elt F)),
    StableHlo.unary main_v350 main_v351 (broadcastInDim S20000x128 ![0, 1] bcast_S20000x1_S20000x128_0_1 : (⟨S20000x1, .f32⟩ : BufTy).Contents (Elt F) → (⟨S20000x128, .f32⟩ : BufTy).Contents (Elt F)),
    StableHlo.binary main_v343 main_v351 main_v352 (Host.divf : (⟨S20000x128, .f32⟩ : BufTy).Contents (Elt F) → (⟨S20000x128, .f32⟩ : BufTy).Contents (Elt F) → (⟨S20000x128, .f32⟩ : BufTy).Contents (Elt F)),
    StableHlo.unary main_arg16 main_v353 ((transpose S128x1 [1, 0] · transposes_S1x128_S128x1_1_0) : (⟨S1x128, .f32⟩ : BufTy).Contents (Elt F) → (⟨S128x1, .f32⟩ : BufTy).Contents (Elt F)),
    StableHlo.binary main_v352 main_v353 main_v354 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    StableHlo.unary main_arg17 main_v355 (broadcastInDim S1x1 ![1] bcast_S1_S1x1_1 : (⟨S1, .f32⟩ : BufTy).Contents (Elt F) → (⟨S1x1, .f32⟩ : BufTy).Contents (Elt F)),
    StableHlo.unary main_v355 main_v356 (broadcastInDim S20000x1 ![0, 1] bcast_S1x1_S20000x1_0_1 : (⟨S1x1, .f32⟩ : BufTy).Contents (Elt F) → (⟨S20000x1, .f32⟩ : BufTy).Contents (Elt F)),
    StableHlo.binary main_v354 main_v356 main_v357 (addf : (⟨S20000x1, .f32⟩ : BufTy).Contents (Elt F) → (⟨S20000x1, .f32⟩ : BufTy).Contents (Elt F) → (⟨S20000x1, .f32⟩ : BufTy).Contents (Elt F)) ]

/-- The window is the line of its operations. -/
theorem main_part7_eq (c : Dev nD) : main_part7 (F := F) c = (StableHlo.seq ops7 : Prog (TpuEff nD τ sig (Elt F) (Pipeline.Sig Λ₀ (Fin 0) fun p => (pcfgs (F := F) p).Adm) .tc) PUnit) := by
  chain_rfl

set_option maxHeartbeats 40000000 in
/-- Each touches TensorCore references only. -/
theorem ops7_sub : (ops7 : List (HloOp τ sig (Elt F))).Forall fun op => op.bufs ⊆ StableHlo.tcRefs τ sig :=
  ⟨StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

set_option maxHeartbeats 40000000 in
/-- Each determines its result: none allocates a buffer without contents. -/
theorem ops7_fresh : (ops7 : List (HloOp τ sig (Elt F))).Forall fun op => op.fresh = ∅ :=
  ⟨rfl, rfl, rfl, rfl, rfl, rfl, rfl, rfl, rfl, rfl, rfl, rfl⟩

/-- The buffers the window's operations write, in order. -/
abbrev W7 : List (Ref sig .tc) :=
  [main_v347, main_cst_71, main_v348, main_v349, main_v350, main_v351, main_v352, main_v353, main_v354, main_v355, main_v356, main_v357]

set_option maxHeartbeats 40000000 in
/-- Each writes one buffer, of that list. -/
theorem ops7_writes : (ops7 : List (HloOp τ sig (Elt F))).Forall fun op => op.writes ⊆ (W7.map (Proc.devRef (τ := τ) .tc)).toFinset :=
  ⟨wsub (y := main_v347) (by decide), wsub (y := main_cst_71) (by decide), wsub (y := main_v348) (by decide), wsub (y := main_v349) (by decide), wsub (y := main_v350) (by decide), wsub (y := main_v351) (by decide), wsub (y := main_v352) (by decide), wsub (y := main_v353) (by decide), wsub (y := main_v354) (by decide), wsub (y := main_v355) (by decide), wsub (y := main_v356) (by decide), wsub (y := main_v357) (by decide)⟩

/-- No argument of @main is written in the window. -/
theorem args7 : ∀ r ∈ argRefs, r ∉ W7 := by decide

/-- The window leaves each argument's buffer as it was. -/
theorem ops7_keeps (V : Valuation τ sig (Elt F)) {r : Ref sig .tc} (hr : r ∈ argRefs) :
    StableHlo.after ops7 V (Proc.devRef .tc r) = V (Proc.devRef .tc r) :=
  StableHlo.after_of_writes_sub ops7 V ops7_writes (args7 r hr)

end Cert.ReferenceIdeal.Hand

end
-- ==== Proof.Ref.Run.lean ====
/- The run of the reference program: @main as ONE line of host operations, and every execution read back.

   @main runs its eight windows in order and each window is the line of its operations, so @main is the line of the
   eight lists in a row (`main_eq`: `seq` of a concatenation is the two lines one after the other, and sequencing
   is associative). A line of operations, none allocating, over a signature that scopes nothing runs to the end on
   every device from any memory with zero counters, and leaves each TensorCore buffer at the FOLD of the operations'
   results over the launch contents (`run_seq`). The fold over lists in a row is the folds composed
   (`after_upto1` … `after_upto7`, `after_ops`), which is how the result buffer is read window by window; and no
   window writes an argument, so each argument's buffer ends as it was launched (`ops_keeps`). `run` states both:
   the result `main_v357` at the fold, kept folded, and the eighteen arguments unchanged. -/
import proofs.«111184_j68341519614847_1_alg».proof.Proof.Ref.Ops0
import proofs.«111184_j68341519614847_1_alg».proof.Proof.Ref.Ops1
import proofs.«111184_j68341519614847_1_alg».proof.Proof.Ref.Ops2
import proofs.«111184_j68341519614847_1_alg».proof.Proof.Ref.Ops3
import proofs.«111184_j68341519614847_1_alg».proof.Proof.Ref.Ops4
import proofs.«111184_j68341519614847_1_alg».proof.Proof.Ref.Ops5
import proofs.«111184_j68341519614847_1_alg».proof.Proof.Ref.Ops6
import proofs.«111184_j68341519614847_1_alg».proof.Proof.Ref.Ops7

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's 471 operations: the eight windows' lists in a row. -/
abbrev ops : List (HloOp τ sig (Elt F)) :=
  ops0 ++ ops1 ++ ops2 ++ ops3 ++ ops4 ++ ops5 ++ ops6 ++ ops7

/-- @main is the line of its operations: its windows in order, each the line of its list. -/
theorem main_eq (c : Dev nD) : main (F := F) c = StableHlo.seq ops := by
  show (main_part0 (F := F) c >>= fun _ => main_part1 (F := F) c >>= fun _ => main_part2 (F := F) c >>= fun _ =>
    main_part3 (F := F) c >>= fun _ => main_part4 (F := F) c >>= fun _ => main_part5 (F := F) c >>= fun _ =>
    main_part6 (F := F) c >>= fun _ => main_part7 (F := F) c) = _
  rw [main_part0_eq, main_part1_eq, main_part2_eq, main_part3_eq, main_part4_eq, main_part5_eq, main_part6_eq, main_part7_eq]
  simp only [ops, StableHlo.seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ StableHlo.tcRefs τ sig :=
  forall_app (forall_app (forall_app (forall_app (forall_app (forall_app (forall_app ops0_sub ops1_sub) ops2_sub) ops3_sub) ops4_sub) ops5_sub) ops6_sub) ops7_sub

/-- No operation allocates a buffer without contents. -/
theorem ops_fresh : ∀ op ∈ (ops : List (HloOp τ sig (Elt F))), op.fresh = ∅ :=
  List.forall_iff_forall_mem.mp
    (forall_app (forall_app (forall_app (forall_app (forall_app (forall_app (forall_app ops0_fresh ops1_fresh) ops2_fresh) ops3_fresh) ops4_fresh) ops5_fresh) ops6_fresh) ops7_fresh)

/-! ## The fold, window by window -/

/-- The memory after windows 0 … 1 is window 1's fold over the memory after windows 0 … 0. -/
theorem after_upto1 (V : Valuation τ sig (Elt F)) :
    StableHlo.after (ops0 ++ ops1) V = StableHlo.after ops1 (StableHlo.after (ops0) V) :=
  StableHlo.after_append _ _ V

/-- The memory after windows 0 … 2 is window 2's fold over the memory after windows 0 … 1. -/
theorem after_upto2 (V : Valuation τ sig (Elt F)) :
    StableHlo.after (ops0 ++ ops1 ++ ops2) V = StableHlo.after ops2 (StableHlo.after (ops0 ++ ops1) V) :=
  StableHlo.after_append _ _ V

/-- The memory after windows 0 … 3 is window 3's fold over the memory after windows 0 … 2. -/
theorem after_upto3 (V : Valuation τ sig (Elt F)) :
    StableHlo.after (ops0 ++ ops1 ++ ops2 ++ ops3) V = StableHlo.after ops3 (StableHlo.after (ops0 ++ ops1 ++ ops2) V) :=
  StableHlo.after_append _ _ V

/-- The memory after windows 0 … 4 is window 4's fold over the memory after windows 0 … 3. -/
theorem after_upto4 (V : Valuation τ sig (Elt F)) :
    StableHlo.after (ops0 ++ ops1 ++ ops2 ++ ops3 ++ ops4) V = StableHlo.after ops4 (StableHlo.after (ops0 ++ ops1 ++ ops2 ++ ops3) V) :=
  StableHlo.after_append _ _ V

/-- The memory after windows 0 … 5 is window 5's fold over the memory after windows 0 … 4. -/
theorem after_upto5 (V : Valuation τ sig (Elt F)) :
    StableHlo.after (ops0 ++ ops1 ++ ops2 ++ ops3 ++ ops4 ++ ops5) V = StableHlo.after ops5 (StableHlo.after (ops0 ++ ops1 ++ ops2 ++ ops3 ++ ops4) V) :=
  StableHlo.after_append _ _ V

/-- The memory after windows 0 … 6 is window 6's fold over the memory after windows 0 … 5. -/
theorem after_upto6 (V : Valuation τ sig (Elt F)) :
    StableHlo.after (ops0 ++ ops1 ++ ops2 ++ ops3 ++ ops4 ++ ops5 ++ ops6) V = StableHlo.after ops6 (StableHlo.after (ops0 ++ ops1 ++ ops2 ++ ops3 ++ ops4 ++ ops5) V) :=
  StableHlo.after_append _ _ V

/-- The memory after windows 0 … 7 is window 7's fold over the memory after windows 0 … 6. -/
theorem after_upto7 (V : Valuation τ sig (Elt F)) :
    StableHlo.after (ops0 ++ ops1 ++ ops2 ++ ops3 ++ ops4 ++ ops5 ++ ops6 ++ ops7) V = StableHlo.after ops7 (StableHlo.after (ops0 ++ ops1 ++ ops2 ++ ops3 ++ ops4 ++ ops5 ++ ops6) V) :=
  StableHlo.after_append _ _ V

/-- The memory after @main's operations: the eight windows' folds composed, first window innermost. -/
theorem after_ops (V : Valuation τ sig (Elt F)) :
    StableHlo.after ops V = StableHlo.after ops7 (StableHlo.after ops6 (StableHlo.after ops5 (StableHlo.after ops4 (StableHlo.after ops3 (StableHlo.after ops2 (StableHlo.after ops1 (StableHlo.after ops0 V))))))) := by
  simp only [ops, StableHlo.after_append]

/-- No window writes an argument: each argument's buffer is, after the whole line, as it was. -/
theorem ops_keeps (V : Valuation τ sig (Elt F)) {r : Ref sig .tc} (hr : r ∈ argRefs) :
    StableHlo.after ops V (Proc.devRef .tc r) = V (Proc.devRef .tc r) := by
  rw [after_ops, ops7_keeps _ hr, ops6_keeps _ hr, ops5_keeps _ hr, ops4_keeps _ hr, ops3_keeps _ hr, ops2_keeps _ hr,
    ops1_keeps _ hr, ops0_keeps _ hr]

/-! ## The run -/

/-- Every TensorCore buffer after every execution: the fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-- On every device, for any float values, from any memory with zero counters: every weakly fair execution of
    @main terminates with the result buffer at the fold of the operations over the launch contents and each
    argument's buffer unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v357) = StableHlo.after ops (fun b => m (c, b)) (Proc.devRef .tc main_v357)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h c main_v357,
      (h c main_arg0).trans (ops_keeps _ (by decide)),
      (h c main_arg1).trans (ops_keeps _ (by decide)),
      (h c main_arg2).trans (ops_keeps _ (by decide)),
      (h c main_arg3).trans (ops_keeps _ (by decide)),
      (h c main_arg4).trans (ops_keeps _ (by decide)),
      (h c main_arg5).trans (ops_keeps _ (by decide)),
      (h c main_arg6).trans (ops_keeps _ (by decide)),
      (h c main_arg7).trans (ops_keeps _ (by decide)),
      (h c main_arg8).trans (ops_keeps _ (by decide)),
      (h c main_arg9).trans (ops_keeps _ (by decide)),
      (h c main_arg10).trans (ops_keeps _ (by decide)),
      (h c main_arg11).trans (ops_keeps _ (by decide)),
      (h c main_arg12).trans (ops_keeps _ (by decide)),
      (h c main_arg13).trans (ops_keeps _ (by decide)),
      (h c main_arg14).trans (ops_keeps _ (by decide)),
      (h c main_arg15).trans (ops_keeps _ (by decide)),
      (h c main_arg16).trans (ops_keeps _ (by decide)),
      (h c main_arg17).trans (ops_keeps _ (by decide))⟩)
    (run_all m ρ)

end Cert.ReferenceIdeal.Hand

end
-- ==== Proof.Bridge.Spec.lean ====
/-
  The specification's building blocks, index by index on the extended reals.

  `linRows X W b` is the affine map of the rows of X: entry (r, c) is the sum over the features k of X(r, k) · W(c, k),
  plus b(c) — a matrix product with the transposed weight, plus a bias row.

  `sageRows At Ae Ah P Wl Wr bb` is one layer of the three-relation neighbourhood combine: entry (r, c) is
  max(T₀ + T₁ + T₂, 0), where for relation e the term Tₑ is the sum over k of Aₑ(r, k) · Wl(e, c, k), plus the sum over k
  of P(r, k) · Wr(e, c, k), plus bb(e, c): each relation's aggregated neighbours through its own weight, the node's own
  features through the relation's root weight, and the relation's bias.
-/
import Idealize.ShloMosaic.PureOps.Ideal
import Idealize.ShloMosaic.Lib.ValueIdx

noncomputable section

namespace Cert.Bridge

open Idealize.ShloMosaic Idealize.ShloMosaic.ValueIdx

/-- Rows of X through the transposed weight W, plus the bias row b. -/
def linRows {N K : Nat} (X : (⟨2, ![N, K]⟩ : Shape).Idx → EReal) (W : (⟨2, ![128, K]⟩ : Shape).Idx → EReal)
    (b : (⟨1, ![128]⟩ : Shape).Idx → EReal) : (⟨2, ![N, 128]⟩ : Shape).Idx → EReal :=
  fun j => (∑ k : Fin K, X (ix2 (j 0) k) * W (ix2 (j 1) k)) + b (ix1 (j 1))

theorem linRows_apply {N K : Nat} (X : (⟨2, ![N, K]⟩ : Shape).Idx → EReal) (W : (⟨2, ![128, K]⟩ : Shape).Idx → EReal)
    (b : (⟨1, ![128]⟩ : Shape).Idx → EReal) (r : Fin N) (c : Fin 128) :
    linRows X W b (ix2 r c) = (∑ k : Fin K, X (ix2 r k) * W (ix2 c k)) + b (ix1 c) := rfl

/-- One relation's term at (r, c): neighbours through Wl(e), the node through Wr(e), the bias bb(e). -/
def sageTerm {N : Nat} (A P : (⟨2, ![N, 128]⟩ : Shape).Idx → EReal) (Wl Wr : (⟨3, ![3, 128, 128]⟩ : Shape).Idx → EReal)
    (bb : (⟨2, ![3, 128]⟩ : Shape).Idx → EReal) (e : Fin 3) (r : Fin N) (c : Fin 128) : EReal :=
  ((∑ k : Fin 128, A (ix2 r k) * Wl (ix3 e c k)) + (∑ k : Fin 128, P (ix2 r k) * Wr (ix3 e c k))) + bb (ix2 e c)

/-- One layer of the combine, the three relations summed and clamped below at zero. -/
def sageRows {N : Nat} (At Ae Ah P : (⟨2, ![N, 128]⟩ : Shape).Idx → EReal) (Wl Wr : (⟨3, ![3, 128, 128]⟩ : Shape).Idx → EReal)
    (bb : (⟨2, ![3, 128]⟩ : Shape).Idx → EReal) : (⟨2, ![N, 128]⟩ : Shape).Idx → EReal :=
  fun j => max ((sageTerm At P Wl Wr bb 0 (j 0) (j 1) + sageTerm Ae P Wl Wr bb 1 (j 0) (j 1)) + sageTerm Ah P Wl Wr bb 2 (j 0) (j 1))
    (Ideal.ofBits .f32 0x00000000#32)

theorem sageRows_apply {N : Nat} (At Ae Ah P : (⟨2, ![N, 128]⟩ : Shape).Idx → EReal) (Wl Wr : (⟨3, ![3, 128, 128]⟩ : Shape).Idx → EReal)
    (bb : (⟨2, ![3, 128]⟩ : Shape).Idx → EReal) (r : Fin N) (c : Fin 128) :
    sageRows At Ae Ah P Wl Wr bb (ix2 r c)
      = max ((sageTerm At P Wl Wr bb 0 r c + sageTerm Ae P Wl Wr bb 1 r c) + sageTerm Ah P Wl Wr bb 2 r c)
          (Ideal.ofBits .f32 0x00000000#32) := rfl

end Cert.Bridge

end
-- ==== Proof.Bridge.Slabs.lean ====
/-
  The layer weights as both programs cut them out of the stacked arguments.

  The arguments hold, for each of the two layers and each of the three relations, a 128 × 128 neighbour weight, a
  128 × 128 root weight and a bias of 128 entries: arrays [2, 3, 128, 128] and [2, 3, 128].  `slab4 l` and `slab3 l` are
  layer l's part, [3, 128, 128] and [3, 128].  The kernel program cuts a whole layer out at once and reads exactly that
  slab; the reference cuts one relation's matrix (or bias) at a time, which reads the slab at that relation.  A cut
  followed by a cast that only drops unit axes moves no element, so both are statements about coordinates alone.
-/
import Idealize.ShloMosaic.PureOps.Ideal
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

/-- Layer l's three weight matrices. -/
def slab4 (l : Fin 2) (W : (⟨4, ![2, 3, 128, 128]⟩ : Shape).Idx → EReal) : (⟨3, ![3, 128, 128]⟩ : Shape).Idx → EReal :=
  fun j => W (ix4 l (j 0) (j 1) (j 2))

/-- Layer l's three bias rows. -/
def slab3 (l : Fin 2) (b : (⟨3, ![2, 3, 128]⟩ : Shape).Idx → EReal) : (⟨2, ![3, 128]⟩ : Shape).Idx → EReal :=
  fun j => b (ix3 l (j 0) (j 1))

theorem slab4_apply (l : Fin 2) (W : (⟨4, ![2, 3, 128, 128]⟩ : Shape).Idx → EReal) (e : Fin 3) (c k : Fin 128) :
    slab4 l W (ix3 e c k) = W (ix4 l e c k) := rfl

theorem slab3_apply (l : Fin 2) (b : (⟨3, ![2, 3, 128]⟩ : Shape).Idx → EReal) (e : Fin 3) (c : Fin 128) :
    slab3 l b (ix2 e c) = b (ix3 l e c) := rfl

/-- The kernel program's weight stack of layer 0: cut out of the [2, 3, 128, 128] array and cast to [3, 128, 128], it is
    layer 0's slab. -/
theorem kerW_0 (W : (⟨4, ![2, 3, 128, 128]⟩ : Shape).Idx → EReal)
    (hs : (⟨4, ![2, 3, 128, 128]⟩ : Shape).Slices ![0, 0, 0, 0] ⟨4, ![1, 3, 128, 128]⟩)
    (hc : (⟨4, ![1, 3, 128, 128]⟩ : Shape).ShapeCasts ⟨3, ![3, 128, 128]⟩) :
    shapeCast ⟨3, ![3, 128, 128]⟩ (extractStridedSlice ⟨4, ![1, 3, 128, 128]⟩ ![0, 0, 0, 0] W hs) hc = slab4 (0 : Fin 2) W := by
  funext j
  rw [eq_ix3 j]
  exact (shapeCast_1abc_abc_apply _ hc (j 0) (j 1) (j 2)).trans (extractStridedSlice_apply _ W hs _ (ix4 (0 : Fin 2) (j 0) (j 1) (j 2)) (fun a => by
    match a with
    | ⟨0, _⟩ => rfl
    | ⟨1, _⟩ => exact (Nat.zero_add _).symm
    | ⟨2, _⟩ => exact (Nat.zero_add _).symm
    | ⟨3, _⟩ => exact (Nat.zero_add _).symm))

/-- The kernel program's bias stack of layer 0: layer 0's slab of the [2, 3, 128] array. -/
theorem kerB_0 (b : (⟨3, ![2, 3, 128]⟩ : Shape).Idx → EReal)
    (hs : (⟨3, ![2, 3, 128]⟩ : Shape).Slices ![0, 0, 0] ⟨3, ![1, 3, 128]⟩)
    (hc : (⟨3, ![1, 3, 128]⟩ : Shape).ShapeCasts ⟨2, ![3, 128]⟩) :
    shapeCast ⟨2, ![3, 128]⟩ (extractStridedSlice ⟨3, ![1, 3, 128]⟩ ![0, 0, 0] b hs) hc = slab3 (0 : Fin 2) b := by
  funext j
  rw [eq_ix2 j]
  exact (shapeCast_1ab_ab_apply _ hc (j 0) (j 1)).trans (extractStridedSlice_apply _ b hs _ (ix3 (0 : Fin 2) (j 0) (j 1)) (fun a => by
    match a with
    | ⟨0, _⟩ => rfl
    | ⟨1, _⟩ => exact (Nat.zero_add _).symm
    | ⟨2, _⟩ => exact (Nat.zero_add _).symm))

/-- The kernel program's weight stack of layer 1: cut out of the [2, 3, 128, 128] array and cast to [3, 128, 128], it is
    layer 1's slab. -/
theorem kerW_1 (W : (⟨4, ![2, 3, 128, 128]⟩ : Shape).Idx → EReal)
    (hs : (⟨4, ![2, 3, 128, 128]⟩ : Shape).Slices ![1, 0, 0, 0] ⟨4, ![1, 3, 128, 128]⟩)
    (hc : (⟨4, ![1, 3, 128, 128]⟩ : Shape).ShapeCasts ⟨3, ![3, 128, 128]⟩) :
    shapeCast ⟨3, ![3, 128, 128]⟩ (extractStridedSlice ⟨4, ![1, 3, 128, 128]⟩ ![1, 0, 0, 0] W hs) hc = slab4 (1 : Fin 2) W := by
  funext j
  rw [eq_ix3 j]
  exact (shapeCast_1abc_abc_apply _ hc (j 0) (j 1) (j 2)).trans (extractStridedSlice_apply _ W hs _ (ix4 (1 : Fin 2) (j 0) (j 1) (j 2)) (fun a => by
    match a with
    | ⟨0, _⟩ => rfl
    | ⟨1, _⟩ => exact (Nat.zero_add _).symm
    | ⟨2, _⟩ => exact (Nat.zero_add _).symm
    | ⟨3, _⟩ => exact (Nat.zero_add _).symm))

/-- The kernel program's bias stack of layer 1: layer 1's slab of the [2, 3, 128] array. -/
theorem kerB_1 (b : (⟨3, ![2, 3, 128]⟩ : Shape).Idx → EReal)
    (hs : (⟨3, ![2, 3, 128]⟩ : Shape).Slices ![1, 0, 0] ⟨3, ![1, 3, 128]⟩)
    (hc : (⟨3, ![1, 3, 128]⟩ : Shape).ShapeCasts ⟨2, ![3, 128]⟩) :
    shapeCast ⟨2, ![3, 128]⟩ (extractStridedSlice ⟨3, ![1, 3, 128]⟩ ![1, 0, 0] b hs) hc = slab3 (1 : Fin 2) b := by
  funext j
  rw [eq_ix2 j]
  exact (shapeCast_1ab_ab_apply _ hc (j 0) (j 1)).trans (extractStridedSlice_apply _ b hs _ (ix3 (1 : Fin 2) (j 0) (j 1)) (fun a => by
    match a with
    | ⟨0, _⟩ => rfl
    | ⟨1, _⟩ => exact (Nat.zero_add _).symm
    | ⟨2, _⟩ => exact (Nat.zero_add _).symm))

/-- The reference's weight matrix of layer 0, relation 0: cut out of the [2, 3, 128, 128] stack and cast to a matrix, it
    reads at (c, k) the stack at (0, 0, c, k). -/
theorem refW_0_0 {α : Type} (W : (⟨4, ![2, 3, 128, 128]⟩ : Shape).Idx → α)
    (hs : (⟨4, ![2, 3, 128, 128]⟩ : Shape).Slices ![0, 0, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![0, 0, 0, 0] W hs) hc (ix2 c k)
      = W (ix4 (0 : Fin 2) (0 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 0, relation 0: reads at c the [2, 3, 128] stack at (0, 0, c). -/
theorem refB_0_0 {α : Type} (b : (⟨3, ![2, 3, 128]⟩ : Shape).Idx → α)
    (hs : (⟨3, ![2, 3, 128]⟩ : Shape).Slices ![0, 0, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![0, 0, 0] b hs) hc (ix1 c)
      = b (ix3 (0 : Fin 2) (0 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

/-- The reference's weight matrix of layer 0, relation 1: cut out of the [2, 3, 128, 128] stack and cast to a matrix, it
    reads at (c, k) the stack at (0, 1, c, k). -/
theorem refW_0_1 {α : Type} (W : (⟨4, ![2, 3, 128, 128]⟩ : Shape).Idx → α)
    (hs : (⟨4, ![2, 3, 128, 128]⟩ : Shape).Slices ![0, 1, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![0, 1, 0, 0] W hs) hc (ix2 c k)
      = W (ix4 (0 : Fin 2) (1 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 0, relation 1: reads at c the [2, 3, 128] stack at (0, 1, c). -/
theorem refB_0_1 {α : Type} (b : (⟨3, ![2, 3, 128]⟩ : Shape).Idx → α)
    (hs : (⟨3, ![2, 3, 128]⟩ : Shape).Slices ![0, 1, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![0, 1, 0] b hs) hc (ix1 c)
      = b (ix3 (0 : Fin 2) (1 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

/-- The reference's weight matrix of layer 0, relation 2: cut out of the [2, 3, 128, 128] stack and cast to a matrix, it
    reads at (c, k) the stack at (0, 2, c, k). -/
theorem refW_0_2 {α : Type} (W : (⟨4, ![2, 3, 128, 128]⟩ : Shape).Idx → α)
    (hs : (⟨4, ![2, 3, 128, 128]⟩ : Shape).Slices ![0, 2, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![0, 2, 0, 0] W hs) hc (ix2 c k)
      = W (ix4 (0 : Fin 2) (2 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 0, relation 2: reads at c the [2, 3, 128] stack at (0, 2, c). -/
theorem refB_0_2 {α : Type} (b : (⟨3, ![2, 3, 128]⟩ : Shape).Idx → α)
    (hs : (⟨3, ![2, 3, 128]⟩ : Shape).Slices ![0, 2, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![0, 2, 0] b hs) hc (ix1 c)
      = b (ix3 (0 : Fin 2) (2 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

/-- The reference's weight matrix of layer 1, relation 0: cut out of the [2, 3, 128, 128] stack and cast to a matrix, it
    reads at (c, k) the stack at (1, 0, c, k). -/
theorem refW_1_0 {α : Type} (W : (⟨4, ![2, 3, 128, 128]⟩ : Shape).Idx → α)
    (hs : (⟨4, ![2, 3, 128, 128]⟩ : Shape).Slices ![1, 0, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![1, 0, 0, 0] W hs) hc (ix2 c k)
      = W (ix4 (1 : Fin 2) (0 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 1, relation 0: reads at c the [2, 3, 128] stack at (1, 0, c). -/
theorem refB_1_0 {α : Type} (b : (⟨3, ![2, 3, 128]⟩ : Shape).Idx → α)
    (hs : (⟨3, ![2, 3, 128]⟩ : Shape).Slices ![1, 0, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![1, 0, 0] b hs) hc (ix1 c)
      = b (ix3 (1 : Fin 2) (0 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

/-- The reference's weight matrix of layer 1, relation 1: cut out of the [2, 3, 128, 128] stack and cast to a matrix, it
    reads at (c, k) the stack at (1, 1, c, k). -/
theorem refW_1_1 {α : Type} (W : (⟨4, ![2, 3, 128, 128]⟩ : Shape).Idx → α)
    (hs : (⟨4, ![2, 3, 128, 128]⟩ : Shape).Slices ![1, 1, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![1, 1, 0, 0] W hs) hc (ix2 c k)
      = W (ix4 (1 : Fin 2) (1 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 1, relation 1: reads at c the [2, 3, 128] stack at (1, 1, c). -/
theorem refB_1_1 {α : Type} (b : (⟨3, ![2, 3, 128]⟩ : Shape).Idx → α)
    (hs : (⟨3, ![2, 3, 128]⟩ : Shape).Slices ![1, 1, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![1, 1, 0] b hs) hc (ix1 c)
      = b (ix3 (1 : Fin 2) (1 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

/-- The reference's weight matrix of layer 1, relation 2: cut out of the [2, 3, 128, 128] stack and cast to a matrix, it
    reads at (c, k) the stack at (1, 2, c, k). -/
theorem refW_1_2 {α : Type} (W : (⟨4, ![2, 3, 128, 128]⟩ : Shape).Idx → α)
    (hs : (⟨4, ![2, 3, 128, 128]⟩ : Shape).Slices ![1, 2, 0, 0] ⟨4, ![1, 1, 128, 128]⟩)
    (hc : (⟨4, ![1, 1, 128, 128]⟩ : Shape).ShapeCasts ⟨2, ![128, 128]⟩) (c k : Fin 128) :
    shapeCast ⟨2, ![128, 128]⟩ (extractStridedSlice ⟨4, ![1, 1, 128, 128]⟩ ![1, 2, 0, 0] W hs) hc (ix2 c k)
      = W (ix4 (1 : Fin 2) (2 : Fin 3) c k) :=
  (shapeCast_apply _ hc (ix2 c k) (ix4 (0 : Fin 1) (0 : Fin 1) c k) (by
    rw [Shape.rowMajor_val_four, Shape.rowMajor_val_two]
    show (((0 : Nat) * 1 + 0) * 128 + c.val) * 128 + k.val = c.val * 128 + k.val
    omega)).trans (extractStridedSlice_apply _ W hs _ _ (fun a => by
    match a with
    | ⟨0, _⟩ => rfl
    | ⟨1, _⟩ => rfl
    | ⟨2, _⟩ => exact (Nat.zero_add _).symm
    | ⟨3, _⟩ => exact (Nat.zero_add _).symm))

/-- The reference's bias vector of layer 1, relation 2: reads at c the [2, 3, 128] stack at (1, 2, c). -/
theorem refB_1_2 {α : Type} (b : (⟨3, ![2, 3, 128]⟩ : Shape).Idx → α)
    (hs : (⟨3, ![2, 3, 128]⟩ : Shape).Slices ![1, 2, 0] ⟨3, ![1, 1, 128]⟩)
    (hc : (⟨3, ![1, 1, 128]⟩ : Shape).ShapeCasts ⟨1, ![128]⟩) (c : Fin 128) :
    shapeCast ⟨1, ![128]⟩ (extractStridedSlice ⟨3, ![1, 1, 128]⟩ ![1, 2, 0] b hs) hc (ix1 c)
      = b (ix3 (1 : Fin 2) (2 : Fin 3) c) :=
  (shapeCast_apply _ hc (ix1 c) (ix3 (0 : Fin 1) (0 : Fin 1) c) (by
    rw [Shape.rowMajor_val_three, Shape.rowMajor_val_one]
    show ((0 : Nat) * 1 + 0) * 128 + c.val = c.val
    omega)).trans (extractStridedSlice_apply _ b hs _ _ (fun a => by
    match a with
    | ⟨0, _⟩ => rfl
    | ⟨1, _⟩ => rfl
    | ⟨2, _⟩ => exact (Nat.zero_add _).symm))

end Cert.Bridge

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.Bridge.Linear.lean ====
/-
  The encoder's linear layer at one entry, on the extended reals.

  A row tile of 2000 rows of the feature array, multiplied by the transposed weight matrix into a zero accumulator and
  added to the bias row, holds at its entry (p, c) the sum over k of tile(p, k) · W(c, k), plus b(c): rounding the
  operands to a narrower float format changes nothing at the ideal instance, the transposed weight at (k, c) is the
  weight at (c, k), and the bias row broadcast down the tile reads b(c) in every row.  The host's whole product of the
  [N, K] feature array with the transposed weight, plus the bias broadcast to [N, 128], holds at (r, c) the same sum over
  the whole array's row r.  So where the tile's row p is the array's row r the two entries are equal; the sum is compared
  term by term, so nothing needs to be finite.
-/
import proofs.«111184_j68341519614847_1_alg».proof.KernelIdeal
import proofs.«111184_j68341519614847_1_alg».proof.ReferenceIdeal
import proofs.«111184_j68341519614847_1_alg».proof.Proof.Gen.KernelIdeal.Skeleton
import proofs.«111184_j68341519614847_1_alg».proof.Proof.Gen.ReferenceIdeal
import proofs.«111184_j68341519614847_1_alg».proof.Proof.LibPlainDot
import proofs.«111184_j68341519614847_1_alg».proof.Proof.LibUnitAxes
import proofs.«111184_j68341519614847_1_alg».proof.Proof.LibUnitColumns
import Idealize.ShloMosaic.Lib.ValueLayout
import Idealize.ShloMosaic.Lib.ValueIdx
import Idealize.ShloMosaic.Lib.Pipeline.Value
import Idealize.ShloMosaic.PureOps.Ideal.Laws

noncomputable section

namespace Cert.Bridge.Linear

open Idealize.ShloMosaic Idealize.ShloMosaic.ValueIdx

/-- The player encoder's tile: entry (p, c) is the sum over the 85 features of tile(p, k) · W(c, k), plus b(c). -/
theorem tile85_entry (x0 : Vec Ideal Cert.KernelIdeal.S2000x85 .f32) (x1 : Vec Ideal Cert.KernelIdeal.S128x85 .f32)
    (x2 : Vec Ideal Cert.KernelIdeal.S128 .f32) (p : Fin 2000) (c : Fin 128) :
    Cert.KernelIdeal.Gen.k0_pay1 (F := Ideal) x0 x1 x2 (ix2 p c)
      = (∑ k : Fin 85, (x0 (ix2 p k) : EReal) * x1 (ix2 c k)) + x2 (ix1 c) := by
  unfold Cert.KernelIdeal.Gen.k0_pay1
  refine (addf_apply _ _ _).trans ?_
  refine congr (congrArg _ ?_) ?_
  · refine (Cert.LibPlainDot.matmul_zero_apply Cert.KernelIdeal.dot_S2000x85_S85x128_S2000x128_1_0_0_1_n_n rfl rfl rfl rfl
      (fun _ _ => rfl) (fun _ _ => rfl) none _ _ p c).trans ?_
    refine Finset.sum_congr rfl fun k _ => ?_
    refine congr (congrArg _ ?_) ?_
    · exact congrFun (shapeCast_self x0 _) (ix2 p k)
    · exact transpose_ix2_apply (α := Ideal .bf16) _ _ k c
  · exact (broadcastTo_1b_ab_apply _ _ p c).trans (shapeCast_a_1a_apply x2 _ 0 c)

/-- The host's player encoder: entry (r, c) of X · Wᵀ + b is the sum over the 85 features of X(r, k) · W(c, k), plus b(c). -/
theorem host85_entry (X : FVec Ideal Cert.ReferenceIdeal.S200000x85 .f32) (W : FVec Ideal Cert.ReferenceIdeal.S128x85 .f32)
    (b : FVec Ideal Cert.ReferenceIdeal.S128 .f32)
    (hT : Cert.ReferenceIdeal.S128x85.Transposes [1, 0] Cert.ReferenceIdeal.S85x128)
    (hB : Cert.ReferenceIdeal.S1x128.BroadcastsInDim Cert.ReferenceIdeal.S200000x128 ![0, 1])
    (hb : Cert.ReferenceIdeal.S128.BroadcastsInDim Cert.ReferenceIdeal.S1x128 ![1]) (r : Fin 200000) (c : Fin 128) :
    addf (Host.dotGeneral (F := Ideal) Cert.ReferenceIdeal.dot_S200000x85_S85x128_S200000x128_1_0_0_1_n_n none X
          (transpose Cert.ReferenceIdeal.S85x128 [1, 0] W hT))
        (broadcastInDim Cert.ReferenceIdeal.S200000x128 ![0, 1] hB
          (broadcastInDim Cert.ReferenceIdeal.S1x128 ![1] hb b)) (ix2 r c)
      = (∑ k : Fin 85, (X (ix2 r k) : EReal) * W (ix2 c k)) + b (ix1 c) := by
  refine (addf_apply _ _ _).trans ?_
  refine congr (congrArg _ ?_) ?_
  · refine (Cert.LibPlainDot.dotGeneral_apply Cert.ReferenceIdeal.dot_S200000x85_S85x128_S200000x128_1_0_0_1_n_n rfl rfl rfl rfl
      (fun _ _ => rfl) (fun _ _ => rfl) none _ X _ r c).trans ?_
    refine Finset.sum_congr rfl fun k _ => ?_
    exact congrArg _ (transpose_ix2_apply _ _ k c)
  · exact (Cert.LibUnitAxes.broadcastInDim_1b_ab_apply _ _ r c).trans (Cert.LibUnitColumns.broadcastInDim_b_1b_apply b _ 0 c)

/-- The history encoder's tile: entry (p, c) is the sum over the 26 features of tile(p, k) · W(c, k), plus b(c). -/
theorem tile26_entry (x0 : Vec Ideal Cert.KernelIdeal.S2000x26 .f32) (x1 : Vec Ideal Cert.KernelIdeal.S128x26 .f32)
    (x2 : Vec Ideal Cert.KernelIdeal.S128 .f32) (p : Fin 2000) (c : Fin 128) :
    Cert.KernelIdeal.Gen.k1_pay1 (F := Ideal) x0 x1 x2 (ix2 p c)
      = (∑ k : Fin 26, (x0 (ix2 p k) : EReal) * x1 (ix2 c k)) + x2 (ix1 c) := by
  unfold Cert.KernelIdeal.Gen.k1_pay1
  refine (addf_apply _ _ _).trans ?_
  refine congr (congrArg _ ?_) ?_
  · refine (Cert.LibPlainDot.matmul_zero_apply Cert.KernelIdeal.dot_S2000x26_S26x128_S2000x128_1_0_0_1_n_n rfl rfl rfl rfl
      (fun _ _ => rfl) (fun _ _ => rfl) none _ _ p c).trans ?_
    refine Finset.sum_congr rfl fun k _ => ?_
    refine congr (congrArg _ ?_) ?_
    · exact congrFun (shapeCast_self x0 _) (ix2 p k)
    · exact transpose_ix2_apply (α := Ideal .bf16) _ _ k c
  · exact (broadcastTo_1b_ab_apply _ _ p c).trans (shapeCast_a_1a_apply x2 _ 0 c)

/-- The host's history encoder: entry (r, c) of X · Wᵀ + b is the sum over the 26 features of X(r, k) · W(c, k), plus b(c). -/
theorem host26_entry (X : FVec Ideal Cert.ReferenceIdeal.S500000x26 .f32) (W : FVec Ideal Cert.ReferenceIdeal.S128x26 .f32)
    (b : FVec Ideal Cert.ReferenceIdeal.S128 .f32)
    (hT : Cert.ReferenceIdeal.S128x26.Transposes [1, 0] Cert.ReferenceIdeal.S26x128)
    (hB : Cert.ReferenceIdeal.S1x128.BroadcastsInDim Cert.ReferenceIdeal.S500000x128 ![0, 1])
    (hb : Cert.ReferenceIdeal.S128.BroadcastsInDim Cert.ReferenceIdeal.S1x128 ![1]) (r : Fin 500000) (c : Fin 128) :
    addf (Host.dotGeneral (F := Ideal) Cert.ReferenceIdeal.dot_S500000x26_S26x128_S500000x128_1_0_0_1_n_n none X
          (transpose Cert.ReferenceIdeal.S26x128 [1, 0] W hT))
        (broadcastInDim Cert.ReferenceIdeal.S500000x128 ![0, 1] hB
          (broadcastInDim Cert.ReferenceIdeal.S1x128 ![1] hb b)) (ix2 r c)
      = (∑ k : Fin 26, (X (ix2 r k) : EReal) * W (ix2 c k)) + b (ix1 c) := by
  refine (addf_apply _ _ _).trans ?_
  refine congr (congrArg _ ?_) ?_
  · refine (Cert.LibPlainDot.dotGeneral_apply Cert.ReferenceIdeal.dot_S500000x26_S26x128_S500000x128_1_0_0_1_n_n rfl rfl rfl rfl
      (fun _ _ => rfl) (fun _ _ => rfl) none _ X _ r c).trans ?_
    refine Finset.sum_congr rfl fun k _ => ?_
    exact congrArg _ (transpose_ix2_apply _ _ k c)
  · exact (Cert.LibUnitAxes.broadcastInDim_1b_ab_apply _ _ r c).trans (Cert.LibUnitColumns.broadcastInDim_b_1b_apply b _ 0 c)

end Cert.Bridge.Linear

end
-- ==== Proof.Bridge.Final01.lean ====
/- The two encoders' output arrays after their regions, in closed form on the extended reals.
   Region 0 walks the [200000, 85] feature array X in 100 row blocks of 2000; region 1 walks the [500000, 26] array in
   250. At point t the pipeline hands the body rows 2000·t … 2000·t + 1999 of X, the whole weight W and the whole bias b
   (their one block is the array), and writes the body's 2000×128 result back as rows 2000·t … 2000·t + 1999 of the
   output. The body's result at (p, c) is the sum over k of tile(p, k) · W(c, k), plus b(c); so what point t writes back
   is block t of the ONE array function `linRows X W b`, whose entry (r, c) is the sum over k of X(r, k) · W(c, k), plus
   b(c). Row r lies in the block of point r / 2000, so the blocks cover the output, and it ends holding `linRows X W b`. -/
import proofs.«111184_j68341519614847_1_alg».proof.Proof.KI.Region0
import proofs.«111184_j68341519614847_1_alg».proof.Proof.KI.Region1
import proofs.«111184_j68341519614847_1_alg».proof.Proof.Bridge.Spec
import proofs.«111184_j68341519614847_1_alg».proof.Proof.Bridge.Linear
import Idealize.ShloMosaic.Lib.Pipeline.Value
import Idealize.ShloMosaic.Lib.ValueIdx

noncomputable section

namespace Cert.Bridge.Final01

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The all-zero offset of a rank-2 access, and of a rank-1 one. -/
theorem zero2 : (![0, 0] : Fin 2 → Nat) = fun _ => 0 := funext fun a => by fin_cases a <;> rfl
theorem zero1 : (![0] : Fin 1 → Nat) = fun _ => 0 := funext fun a => by fin_cases a <;> rfl

/-! ## Region 0: rows of the [200000, 85] array through the weight, in 100 blocks of 2000 -/

/-- One entry of a tile against the array: when row `p` of the tile is row `r` of X, and the tile's weight and bias are W
    and b at column `c`, the body's result at (p, c) is `linRows X W b` at (r, c). -/
theorem tile85_rows (x0 : Vec Ideal S2000x85 .f32) (x1 : Vec Ideal S128x85 .f32) (x2 : Vec Ideal S128 .f32)
    (X : S200000x85.Idx → EReal) (W : S128x85.Idx → EReal) (b : S128.Idx → EReal)
    (p : Fin 2000) (c : Fin 128) (r : Fin 200000)
    (hX : ∀ k : Fin 85, x0 (ix2 p k) = X (ix2 r k)) (hW : ∀ k : Fin 85, x1 (ix2 c k) = W (ix2 c k))
    (hb : x2 (ix1 c) = b (ix1 c)) :
    k0_pay1 (F := Ideal) x0 x1 x2 (ix2 p c) = linRows X W b (ix2 r c) := by
  refine (Cert.Bridge.Linear.tile85_entry x0 x1 x2 p c).trans ?_
  refine Eq.trans ?_ (linRows_apply X W b r c).symm
  refine congr (congrArg _ (Finset.sum_congr rfl fun k _ => ?_)) hb
  exact congr (congrArg _ (hX k)) (hW k)

/-- The index maps over the grid: the feature window's row block is the output's, which is the point's number; every
    other block coordinate is 0. -/
theorem rowBlock0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_3.index t (0 : Fin 2) ≤ 99 :=
  (by decide +kernel : ∀ t : Fin grid0.N, _)

/-- Every row block of the output is some point's. -/
theorem rowBlock0_onto : ∀ q : Fin 100, ∃ t : Fin cfg0.N, win0_3.index t = ![q.val, 0] :=
  (by decide +kernel : ∀ q : Fin 100, ∃ t : Fin grid0.N, win0_3.index t = ![q.val, 0])

section
variable (V : (c : Dev nD) → (b : Ref sig .tc) → Buf (Elt Ideal) ((c : Thread nD τ).loc b))

/-- The output array of region 0 in closed form: the rows of the feature array through the weight, plus the bias. -/
abbrev enc0 (c : Dev nD) : S200000x128.Idx → EReal :=
  linRows (V c (Pipeline.arrRef spec0 0) : S200000x85.Idx → EReal) (V c (Pipeline.arrRef spec0 1) : S128x85.Idx → EReal)
    (V c (Pipeline.arrRef spec0 2) : S128.Idx → EReal)

/-- What point `t` writes back is block `t` of `enc0`. -/
theorem wrote0 (c : Dev nD) (t : Fin cfg0.N) :
    (dat0 (F := Ideal) V c).flushed 3 t = ((cfg0.win 3).blk t).view.read (Elt Ideal) (enc0 V c) := by
  show (cfg0.win 3).cut (grid0.coords t) ((dat0 V c).after 3 t) = _
  rw [after0_3]
  unfold out0_3
  rw [View.canon_unit_zero zero2]
  simp only [View.ld_unit_zero (S := S2000x85) zero2, View.ld_unit_zero (S := S128x85) zero2, View.ld_unit_zero (S := S128) zero1]
  obtain ⟨e00, e01, e10, e11, e20, e31, e30⟩ := rowBlock0 t
  funext j
  obtain ⟨p, q, rfl⟩ : ∃ (p : Fin 2000) (q : Fin 128), j = ix2 p q := ⟨j 0, j 1, eq_ix2 j⟩
  have hp : p.val < 2000 := p.isLt
  show k0_pay1 (F := Ideal) (iblk0 V c 0 t) (iblk0 V c 1 t) (iblk0 V c 2 t) (ix2 p q)
    = enc0 V c (((cfg0.win 3).blk t).view.emb (ix2 p q))
  -- the block's cell (p, q) is the array's cell (2000 · block + p, q)
  have hcell : ((cfg0.win 3).blk t).view.emb (ix2 p q)
      = (ix2 (⟨win0_3.index t (0 : Fin 2) * 2000 + p.val, by omega⟩ : Fin 200000) q : S200000x128.Idx) := by
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 128 + 1 * q.val = q.val; omega
  refine Eq.trans ?_ (congrArg (enc0 V c) hcell).symm
  refine tile85_rows _ _ _ _ _ _ p q _ (fun k => ?_) (fun k => ?_) ?_
  · -- the feature block's row p is the array's row 2000 · block + p
    show (V c (Pipeline.arrRef spec0 0) : S200000x85.Idx → EReal) (((cfg0.win 0).blk t).view.emb (ix2 p k)) = _
    refine congrArg _ ?_
    funext a; apply Fin.ext
    match a with
    | ⟨0, _⟩ => show win0_0.index t (0 : Fin 2) * 2000 + 1 * p.val = win0_3.index t (0 : Fin 2) * 2000 + p.val; omega
    | ⟨1, _⟩ => show win0_0.index t (1 : Fin 2) * 85 + 1 * k.val = k.val; omega
  · -- the weight's one block is the weight
    show (V c (Pipeline.arrRef spec0 1) : S128x85.Idx → EReal) (((cfg0.win 1).blk t).view.emb (ix2 q k)) = _
    refine congrArg _ ?_
    funext a; apply Fin.ext
    match a with
    | ⟨0, _⟩ => show win0_1.index t (0 : Fin 2) * 128 + 1 * q.val = q.val; omega
    | ⟨1, _⟩ => show win0_1.index t (1 : Fin 2) * 85 + 1 * k.val = k.val; omega
  · -- the bias's one block is the bias
    show (V c (Pipeline.arrRef spec0 2) : S128.Idx → EReal) (((cfg0.win 2).blk t).view.emb (ix1 q)) = _
    refine congrArg _ ?_
    funext a; apply Fin.ext
    match a with
    | ⟨0, _⟩ => show win0_2.index t (0 : Fin 1) * 128 + 1 * q.val = q.val; omega

/-- A cell of the output array is in point `t`'s block iff each coordinate is in the block's range on its axis. -/
theorem mem_rows0 (t : Fin cfg0.N) (i : S200000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v66).slice (win0_3.rect t)).set ↔ _
  rw [View.set_slice_whole, Rect.mem_set_unit]
  exact Iff.rfl

/-- Every cell of the output array is in some point's block: row `r` is in the block of point `r / 2000`. -/
theorem covered0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  obtain ⟨t, ht⟩ := rowBlock0_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_rows0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY of region 0 after its last point: the rows of the feature array through the weight, plus the bias. -/
theorem final0 (c : Dev nD) :
    (dat0 (F := Ideal) V c).arrAt 3 cfg0.N
      = linRows (V c (Pipeline.arrRef spec0 0) : S200000x85.Idx → EReal) (V c (Pipeline.arrRef spec0 1) : S128x85.Idx → EReal)
          (V c (Pipeline.arrRef spec0 2) : S128.Idx → EReal) :=
  (dat0 V c).arrAt_eq_of_cover 3 (enc0 V c) (fun t _ => wrote0 V c t) covered0

end

/-! ## Region 1: rows of the [500000, 26] array through the weight, in 250 blocks of 2000 -/

/-- One entry of a tile against the array: when row `p` of the tile is row `r` of X, and the tile's weight and bias are W
    and b at column `c`, the body's result at (p, c) is `linRows X W b` at (r, c). -/
theorem tile26_rows (x0 : Vec Ideal S2000x26 .f32) (x1 : Vec Ideal S128x26 .f32) (x2 : Vec Ideal S128 .f32)
    (X : S500000x26.Idx → EReal) (W : S128x26.Idx → EReal) (b : S128.Idx → EReal)
    (p : Fin 2000) (c : Fin 128) (r : Fin 500000)
    (hX : ∀ k : Fin 26, x0 (ix2 p k) = X (ix2 r k)) (hW : ∀ k : Fin 26, x1 (ix2 c k) = W (ix2 c k))
    (hb : x2 (ix1 c) = b (ix1 c)) :
    k1_pay1 (F := Ideal) x0 x1 x2 (ix2 p c) = linRows X W b (ix2 r c) := by
  refine (Cert.Bridge.Linear.tile26_entry x0 x1 x2 p c).trans ?_
  refine Eq.trans ?_ (linRows_apply X W b r c).symm
  refine congr (congrArg _ (Finset.sum_congr rfl fun k _ => ?_)) hb
  exact congr (congrArg _ (hX k)) (hW k)

/-- The index maps over the grid: the feature window's row block is the output's, which is the point's number; every
    other block coordinate is 0. -/
theorem rowBlock1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0
    ∧ win1_3.index t (0 : Fin 2) ≤ 249 :=
  (by decide +kernel : ∀ t : Fin grid1.N, _)

/-- Every row block of the output is some point's. -/
theorem rowBlock1_onto : ∀ q : Fin 250, ∃ t : Fin cfg1.N, win1_3.index t = ![q.val, 0] :=
  (by decide +kernel : ∀ q : Fin 250, ∃ t : Fin grid1.N, win1_3.index t = ![q.val, 0])

section
variable (V : (c : Dev nD) → (b : Ref sig .tc) → Buf (Elt Ideal) ((c : Thread nD τ).loc b))

/-- The output array of region 1 in closed form: the rows of the feature array through the weight, plus the bias. -/
abbrev enc1 (c : Dev nD) : S500000x128.Idx → EReal :=
  linRows (V c (Pipeline.arrRef spec1 0) : S500000x26.Idx → EReal) (V c (Pipeline.arrRef spec1 1) : S128x26.Idx → EReal)
    (V c (Pipeline.arrRef spec1 2) : S128.Idx → EReal)

/-- What point `t` writes back is block `t` of `enc1`. -/
theorem wrote1 (c : Dev nD) (t : Fin cfg1.N) :
    (dat1 (F := Ideal) V c).flushed 3 t = ((cfg1.win 3).blk t).view.read (Elt Ideal) (enc1 V c) := by
  show (cfg1.win 3).cut (grid1.coords t) ((dat1 V c).after 3 t) = _
  rw [after1_3]
  unfold out1_3
  rw [View.canon_unit_zero zero2]
  simp only [View.ld_unit_zero (S := S2000x26) zero2, View.ld_unit_zero (S := S128x26) zero2, View.ld_unit_zero (S := S128) zero1]
  obtain ⟨e00, e01, e10, e11, e20, e31, e30⟩ := rowBlock1 t
  funext j
  obtain ⟨p, q, rfl⟩ : ∃ (p : Fin 2000) (q : Fin 128), j = ix2 p q := ⟨j 0, j 1, eq_ix2 j⟩
  have hp : p.val < 2000 := p.isLt
  show k1_pay1 (F := Ideal) (iblk1 V c 0 t) (iblk1 V c 1 t) (iblk1 V c 2 t) (ix2 p q)
    = enc1 V c (((cfg1.win 3).blk t).view.emb (ix2 p q))
  -- the block's cell (p, q) is the array's cell (2000 · block + p, q)
  have hcell : ((cfg1.win 3).blk t).view.emb (ix2 p q)
      = (ix2 (⟨win1_3.index t (0 : Fin 2) * 2000 + p.val, by omega⟩ : Fin 500000) q : S500000x128.Idx) := by
    funext a; apply Fin.ext
    match a with
    | ⟨0, _⟩ => show win1_3.index t (0 : Fin 2) * 2000 + 1 * p.val = win1_3.index t (0 : Fin 2) * 2000 + p.val; omega
    | ⟨1, _⟩ => show win1_3.index t (1 : Fin 2) * 128 + 1 * q.val = q.val; omega
  refine Eq.trans ?_ (congrArg (enc1 V c) hcell).symm
  refine tile26_rows _ _ _ _ _ _ p q _ (fun k => ?_) (fun k => ?_) ?_
  · -- the feature block's row p is the array's row 2000 · block + p
    show (V c (Pipeline.arrRef spec1 0) : S500000x26.Idx → EReal) (((cfg1.win 0).blk t).view.emb (ix2 p k)) = _
    refine congrArg _ ?_
    funext a; apply Fin.ext
    match a with
    | ⟨0, _⟩ => show win1_0.index t (0 : Fin 2) * 2000 + 1 * p.val = win1_3.index t (0 : Fin 2) * 2000 + p.val; omega
    | ⟨1, _⟩ => show win1_0.index t (1 : Fin 2) * 26 + 1 * k.val = k.val; omega
  · -- the weight's one block is the weight
    show (V c (Pipeline.arrRef spec1 1) : S128x26.Idx → EReal) (((cfg1.win 1).blk t).view.emb (ix2 q k)) = _
    refine congrArg _ ?_
    funext a; apply Fin.ext
    match a with
    | ⟨0, _⟩ => show win1_1.index t (0 : Fin 2) * 128 + 1 * q.val = q.val; omega
    | ⟨1, _⟩ => show win1_1.index t (1 : Fin 2) * 26 + 1 * k.val = k.val; omega
  · -- the bias's one block is the bias
    show (V c (Pipeline.arrRef spec1 2) : S128.Idx → EReal) (((cfg1.win 2).blk t).view.emb (ix1 q)) = _
    refine congrArg _ ?_
    funext a; apply Fin.ext
    match a with
    | ⟨0, _⟩ => show win1_2.index t (0 : Fin 1) * 128 + 1 * q.val = q.val; omega

/-- A cell of the output array is in point `t`'s block iff each coordinate is in the block's range on its axis. -/
theorem mem_rows1 (t : Fin cfg1.N) (i : S500000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v97).slice (win1_3.rect t)).set ↔ _
  rw [View.set_slice_whole, Rect.mem_set_unit]
  exact Iff.rfl

/-- Every cell of the output array is in some point's block: row `r` is in the block of point `r / 2000`. -/
theorem covered1 (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  obtain ⟨t, ht⟩ := rowBlock1_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_rows1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE OUTPUT ARRAY of region 1 after its last point: the rows of the feature array through the weight, plus the bias. -/
theorem final1 (c : Dev nD) :
    (dat1 (F := Ideal) V c).arrAt 3 cfg1.N
      = linRows (V c (Pipeline.arrRef spec1 0) : S500000x26.Idx → EReal) (V c (Pipeline.arrRef spec1 1) : S128x26.Idx → EReal)
          (V c (Pipeline.arrRef spec1 2) : S128.Idx → EReal) :=
  (dat1 V c).arrAt_eq_of_cover 3 (enc1 V c) (fun t _ => wrote1 V c t) covered1

end

end Cert.Bridge.Final01

end
-- ==== Proof.Bridge.Sage.lean ====
/-
  One layer of the three-relation neighbourhood combine, at one entry of a row tile, on the extended reals.

  The tile's stored value at (p, c) is max(T₀ + T₁ + T₂, 0).  For relation e the term Tₑ is a product of the relation's
  aggregated-neighbour tile with slab e of the neighbour weights, transposed, plus a product of the node tile with slab e
  of the root weights, transposed, plus row e of the biases broadcast down the tile.  A product with a transposed
  128 × 128 matrix into a zero accumulator reads at (p, c) the sum over k of left(p, k) · matrix(c, k); slab e of a stack
  reads at (c, k) the stack at (e, c, k); rounding an operand to a narrower float format is the identity at the ideal
  instance.  So Tₑ is the specification's `sageTerm` and the entry is the specification's.
-/
import proofs.«111184_j68341519614847_1_alg».proof.KernelIdeal
import proofs.«111184_j68341519614847_1_alg».proof.Proof.Gen.KernelIdeal.Skeleton
import proofs.«111184_j68341519614847_1_alg».proof.Proof.LibPlainDot
import proofs.«111184_j68341519614847_1_alg».proof.Proof.Bridge.Spec
import Idealize.ShloMosaic.Lib.ValueLayout
import Idealize.ShloMosaic.Lib.ValueIdx
import Idealize.ShloMosaic.Lib.Pipeline.Value
import Idealize.ShloMosaic.PureOps.Ideal.Laws

noncomputable section

namespace Cert.Bridge.Sage

open Idealize.ShloMosaic Idealize.ShloMosaic.ValueIdx Cert.Bridge

/-- A tile of 2000 rows times a transposed 128 × 128 matrix, into a zero accumulator: entry (p, c) is the sum over k of
    tile(p, k) · matrix(c, k). -/
theorem mm_apply {φ₁ φ₂ : FTy} (A : FVec Ideal Cert.KernelIdeal.S2000x128 φ₁) (Wm : FVec Ideal Cert.KernelIdeal.S128x128 φ₂)
    (hT : Cert.KernelIdeal.S128x128.Transposes [1, 0] Cert.KernelIdeal.S128x128) (p : Fin 2000) (c : Fin 128) :
    FloatOps.matmul Cert.KernelIdeal.dot_S2000x128_S128x128_S2000x128_1_0_0_1_n_n none A (transpose Cert.KernelIdeal.S128x128 [1, 0] Wm hT)
        (constant Cert.KernelIdeal.S2000x128 .f32 0x00000000#32) (ix2 p c)
      = ∑ k : Fin 128, (A (ix2 p k) : EReal) * Wm (ix2 c k) :=
  (Cert.LibPlainDot.matmul_zero_apply Cert.KernelIdeal.dot_S2000x128_S128x128_S2000x128_1_0_0_1_n_n rfl rfl rfl rfl
    (fun _ _ => rfl) (fun _ _ => rfl) none A _ p c).trans
    (Finset.sum_congr rfl fun k _ => congrArg _ (transpose_ix2_apply Wm hT k c))

/-- Slab 0 of a stack of three 128 × 128 matrices, cast to a matrix, reads at (c, k) the stack at (0, c, k). -/
theorem slab0_apply {α : Type} (W : (⟨3, ![3, 128, 128]⟩ : Shape).Idx → α)
    (hs : (⟨3, ![3, 128, 128]⟩ : Shape).Slices ![0, 0, 0] ⟨3, ![1, 128, 128]⟩)
    (hc : (⟨3, ![1, 128, 128]⟩ : Shape).ShapeCasts ⟨2, ![128, 128]⟩) (c k : Fin 128) :
    shapeCast ⟨2, ![128, 128]⟩ (extractStridedSlice ⟨3, ![1, 128, 128]⟩ ![0, 0, 0] W hs) hc (ix2 c k) = W (ix3 (0 : Fin 3) c k) :=
  (shapeCast_1ab_ab_apply _ hc c k).trans (extractStridedSlice_apply _ W hs _ _ (fun a => by
    match a with
    | ⟨0, _⟩ => rfl
    | ⟨1, _⟩ => exact (Nat.zero_add _).symm
    | ⟨2, _⟩ => exact (Nat.zero_add _).symm))

/-- Row 0 of a stack of three bias rows, squeezed to a vector, put back as a row and broadcast down a tile of B rows,
    reads at (p, c) the stack at (0, c). -/
theorem biasRow0_apply {α : Type} {B : Nat} (bb : (⟨2, ![3, 128]⟩ : Shape).Idx → α)
    (hs : (⟨2, ![3, 128]⟩ : Shape).Slices ![0, 0] ⟨2, ![1, 128]⟩)
    (h1 : (⟨2, ![1, 128]⟩ : Shape).ShapeCasts ⟨1, ![128]⟩) (h2 : (⟨1, ![128]⟩ : Shape).ShapeCasts ⟨2, ![1, 128]⟩)
    (hb : (⟨2, ![1, 128]⟩ : Shape).Broadcasts ⟨2, ![B, 128]⟩) (p : Fin B) (c : Fin 128) :
    broadcastTo ⟨2, ![B, 128]⟩ (shapeCast ⟨2, ![1, 128]⟩ (shapeCast ⟨1, ![128]⟩ (extractStridedSlice ⟨2, ![1, 128]⟩ ![0, 0] bb hs) h1) h2) hb (ix2 p c)
      = bb (ix2 (0 : Fin 3) c) :=
  (broadcastTo_1b_ab_apply _ hb p c).trans ((shapeCast_a_1a_apply _ h2 0 c).trans ((shapeCast_1a_a_apply _ h1 c).trans
    (slice2_axis0_apply 0 bb hs 0 c (0 : Fin 3) rfl)))

/-- Slab 1 of a stack of three 128 × 128 matrices, cast to a matrix, reads at (c, k) the stack at (1, c, k). -/
theorem slab1_apply {α : Type} (W : (⟨3, ![3, 128, 128]⟩ : Shape).Idx → α)
    (hs : (⟨3, ![3, 128, 128]⟩ : Shape).Slices ![1, 0, 0] ⟨3, ![1, 128, 128]⟩)
    (hc : (⟨3, ![1, 128, 128]⟩ : Shape).ShapeCasts ⟨2, ![128, 128]⟩) (c k : Fin 128) :
    shapeCast ⟨2, ![128, 128]⟩ (extractStridedSlice ⟨3, ![1, 128, 128]⟩ ![1, 0, 0] W hs) hc (ix2 c k) = W (ix3 (1 : Fin 3) c k) :=
  (shapeCast_1ab_ab_apply _ hc c k).trans (extractStridedSlice_apply _ W hs _ _ (fun a => by
    match a with
    | ⟨0, _⟩ => rfl
    | ⟨1, _⟩ => exact (Nat.zero_add _).symm
    | ⟨2, _⟩ => exact (Nat.zero_add _).symm))

/-- Row 1 of a stack of three bias rows, squeezed to a vector, put back as a row and broadcast down a tile of B rows,
    reads at (p, c) the stack at (1, c). -/
theorem biasRow1_apply {α : Type} {B : Nat} (bb : (⟨2, ![3, 128]⟩ : Shape).Idx → α)
    (hs : (⟨2, ![3, 128]⟩ : Shape).Slices ![1, 0] ⟨2, ![1, 128]⟩)
    (h1 : (⟨2, ![1, 128]⟩ : Shape).ShapeCasts ⟨1, ![128]⟩) (h2 : (⟨1, ![128]⟩ : Shape).ShapeCasts ⟨2, ![1, 128]⟩)
    (hb : (⟨2, ![1, 128]⟩ : Shape).Broadcasts ⟨2, ![B, 128]⟩) (p : Fin B) (c : Fin 128) :
    broadcastTo ⟨2, ![B, 128]⟩ (shapeCast ⟨2, ![1, 128]⟩ (shapeCast ⟨1, ![128]⟩ (extractStridedSlice ⟨2, ![1, 128]⟩ ![1, 0] bb hs) h1) h2) hb (ix2 p c)
      = bb (ix2 (1 : Fin 3) c) :=
  (broadcastTo_1b_ab_apply _ hb p c).trans ((shapeCast_a_1a_apply _ h2 0 c).trans ((shapeCast_1a_a_apply _ h1 c).trans
    (slice2_axis0_apply 1 bb hs 0 c (1 : Fin 3) rfl)))

/-- Slab 2 of a stack of three 128 × 128 matrices, cast to a matrix, reads at (c, k) the stack at (2, c, k). -/
theorem slab2_apply {α : Type} (W : (⟨3, ![3, 128, 128]⟩ : Shape).Idx → α)
    (hs : (⟨3, ![3, 128, 128]⟩ : Shape).Slices ![2, 0, 0] ⟨3, ![1, 128, 128]⟩)
    (hc : (⟨3, ![1, 128, 128]⟩ : Shape).ShapeCasts ⟨2, ![128, 128]⟩) (c k : Fin 128) :
    shapeCast ⟨2, ![128, 128]⟩ (extractStridedSlice ⟨3, ![1, 128, 128]⟩ ![2, 0, 0] W hs) hc (ix2 c k) = W (ix3 (2 : Fin 3) c k) :=
  (shapeCast_1ab_ab_apply _ hc c k).trans (extractStridedSlice_apply _ W hs _ _ (fun a => by
    match a with
    | ⟨0, _⟩ => rfl
    | ⟨1, _⟩ => exact (Nat.zero_add _).symm
    | ⟨2, _⟩ => exact (Nat.zero_add _).symm))

/-- Row 2 of a stack of three bias rows, squeezed to a vector, put back as a row and broadcast down a tile of B rows,
    reads at (p, c) the stack at (2, c). -/
theorem biasRow2_apply {α : Type} {B : Nat} (bb : (⟨2, ![3, 128]⟩ : Shape).Idx → α)
    (hs : (⟨2, ![3, 128]⟩ : Shape).Slices ![2, 0] ⟨2, ![1, 128]⟩)
    (h1 : (⟨2, ![1, 128]⟩ : Shape).ShapeCasts ⟨1, ![128]⟩) (h2 : (⟨1, ![128]⟩ : Shape).ShapeCasts ⟨2, ![1, 128]⟩)
    (hb : (⟨2, ![1, 128]⟩ : Shape).Broadcasts ⟨2, ![B, 128]⟩) (p : Fin B) (c : Fin 128) :
    broadcastTo ⟨2, ![B, 128]⟩ (shapeCast ⟨2, ![1, 128]⟩ (shapeCast ⟨1, ![128]⟩ (extractStridedSlice ⟨2, ![1, 128]⟩ ![2, 0] bb hs) h1) h2) hb (ix2 p c)
      = bb (ix2 (2 : Fin 3) c) :=
  (broadcastTo_1b_ab_apply _ hb p c).trans ((shapeCast_a_1a_apply _ h2 0 c).trans ((shapeCast_1a_a_apply _ h1 c).trans
    (slice2_axis0_apply 2 bb hs 0 c (2 : Fin 3) rfl)))

/-! ## Region 2's payloads at an entry -/

/-- The tile's whole stored value, from the seven loaded blocks. -/
def pay2 (xt xe xh xp : Vec Ideal Cert.KernelIdeal.S2000x128 .f32) (Wl : Vec Ideal Cert.KernelIdeal.S3x128x128 .f32) (bb : Vec Ideal Cert.KernelIdeal.S3x128 .f32)
    (Wr : Vec Ideal Cert.KernelIdeal.S3x128x128 .f32) : FVec Ideal Cert.KernelIdeal.S2000x128 .f32 :=
  Cert.KernelIdeal.Gen.k2_pay1 (Cert.KernelIdeal.Gen.k2_pay2 xh) (Cert.KernelIdeal.Gen.k2_pay3 xp) (Cert.KernelIdeal.Gen.k2_pay4 Wl) (Cert.KernelIdeal.Gen.k2_pay5 Wr) (Cert.KernelIdeal.Gen.k2_pay6 bb)
    (Cert.KernelIdeal.Gen.k2_pay7 xt xp Wl Wr bb) (Cert.KernelIdeal.Gen.k2_pay8 Wr) (Cert.KernelIdeal.Gen.k2_pay9 xe Wl)

/-- Relation 0's term, computed in the body's first part. -/
theorem pay2_term0 (xt xp : Vec Ideal Cert.KernelIdeal.S2000x128 .f32) (Wl Wr : Vec Ideal Cert.KernelIdeal.S3x128x128 .f32) (bb : Vec Ideal Cert.KernelIdeal.S3x128 .f32)
    (p : Fin 2000) (c : Fin 128) :
    Cert.KernelIdeal.Gen.k2_pay7 (F := Ideal) xt xp Wl Wr bb (ix2 p c) = sageTerm xt xp Wl Wr bb 0 p c := by
  unfold Cert.KernelIdeal.Gen.k2_pay7 sageTerm
  refine (addf_apply _ _ _).trans ?_
  refine congr (congrArg _ ?_) ?_
  · refine (addf_apply _ _ _).trans ?_
    refine congr (congrArg _ ?_) ?_
    · refine (mm_apply _ _ _ p c).trans (Finset.sum_congr rfl fun k _ => ?_)
      refine congr (congrArg _ ?_) ?_
      · exact congrFun (shapeCast_self xt _) (ix2 p k)
      · exact (slab0_apply (α := Ideal .bf16) _ _ _ c k).trans (congrFun (shapeCast_self Wl _) (ix3 0 c k))
    · refine (mm_apply _ _ _ p c).trans (Finset.sum_congr rfl fun k _ => ?_)
      refine congr (congrArg _ ?_) ?_
      · exact congrFun (shapeCast_self xp _) (ix2 p k)
      · exact (slab0_apply (α := Ideal .bf16) _ _ _ c k).trans (congrFun (shapeCast_self Wr _) (ix3 0 c k))
  · exact (biasRow0_apply (α := Ideal .f32) _ _ _ _ _ p c).trans (congrFun (shapeCast_self bb _) (ix2 0 c))

/-- The tile's entry (p, c): the three relations' terms summed, clamped below at zero. -/
theorem pay2_entry (xt xe xh xp : Vec Ideal Cert.KernelIdeal.S2000x128 .f32) (Wl : Vec Ideal Cert.KernelIdeal.S3x128x128 .f32) (bb : Vec Ideal Cert.KernelIdeal.S3x128 .f32)
    (Wr : Vec Ideal Cert.KernelIdeal.S3x128x128 .f32) (p : Fin 2000) (c : Fin 128) :
    pay2 xt xe xh xp Wl bb Wr (ix2 p c)
      = max ((sageTerm xt xp Wl Wr bb 0 p c + sageTerm xe xp Wl Wr bb 1 p c) + sageTerm xh xp Wl Wr bb 2 p c)
          (Ideal.ofBits .f32 0x00000000#32) := by
  unfold pay2 Cert.KernelIdeal.Gen.k2_pay1
  refine (maximumf_apply _ _ _).trans ?_
  refine congr (congrArg _ ?_) rfl
  refine (addf_apply _ _ _).trans ?_
  refine congr (congrArg _ ?_) ?_
  · refine (addf_apply _ _ _).trans ?_
    refine congr (congrArg _ (pay2_term0 xt xp Wl Wr bb p c)) ?_
    -- relation 1
    unfold sageTerm
    refine (addf_apply _ _ _).trans ?_
    refine congr (congrArg _ ?_) ?_
    · refine (addf_apply _ _ _).trans ?_
      refine congr (congrArg _ ?_) ?_
      · unfold Cert.KernelIdeal.Gen.k2_pay9
        refine (mm_apply _ _ _ p c).trans (Finset.sum_congr rfl fun k _ => ?_)
        refine congr (congrArg _ ?_) ?_
        · exact congrFun (shapeCast_self xe _) (ix2 p k)
        · unfold Cert.KernelIdeal.Gen.k2_pay4
          exact (slab1_apply (α := Ideal .bf16) _ _ _ c k).trans (congrFun (shapeCast_self Wl _) (ix3 1 c k))
      · refine (mm_apply _ _ _ p c).trans (Finset.sum_congr rfl fun k _ => ?_)
        refine congr (congrArg _ ?_) ?_
        · unfold Cert.KernelIdeal.Gen.k2_pay3
          exact congrFun (shapeCast_self xp _) (ix2 p k)
        · unfold Cert.KernelIdeal.Gen.k2_pay8 Cert.KernelIdeal.Gen.k2_pay5
          exact (slab1_apply (α := Ideal .bf16) _ _ _ c k).trans (congrFun (shapeCast_self Wr _) (ix3 1 c k))
    · unfold Cert.KernelIdeal.Gen.k2_pay6
      exact (biasRow1_apply (α := Ideal .f32) _ _ _ _ _ p c).trans (congrFun (shapeCast_self bb _) (ix2 1 c))
  · -- relation 2
    unfold sageTerm
    refine (addf_apply _ _ _).trans ?_
    refine congr (congrArg _ ?_) ?_
    · refine (addf_apply _ _ _).trans ?_
      refine congr (congrArg _ ?_) ?_
      · refine (mm_apply _ _ _ p c).trans (Finset.sum_congr rfl fun k _ => ?_)
        refine congr (congrArg _ ?_) ?_
        · unfold Cert.KernelIdeal.Gen.k2_pay2
          exact congrFun (shapeCast_self xh _) (ix2 p k)
        · unfold Cert.KernelIdeal.Gen.k2_pay4
          exact (slab2_apply (α := Ideal .bf16) _ _ _ c k).trans (congrFun (shapeCast_self Wl _) (ix3 2 c k))
      · refine (mm_apply _ _ _ p c).trans (Finset.sum_congr rfl fun k _ => ?_)
        refine congr (congrArg _ ?_) ?_
        · unfold Cert.KernelIdeal.Gen.k2_pay3
          exact congrFun (shapeCast_self xp _) (ix2 p k)
        · unfold Cert.KernelIdeal.Gen.k2_pay5
          exact (slab2_apply (α := Ideal .bf16) _ _ _ c k).trans (congrFun (shapeCast_self Wr _) (ix3 2 c k))
    · unfold Cert.KernelIdeal.Gen.k2_pay6
      exact (biasRow2_apply (α := Ideal .f32) _ _ _ _ _ p c).trans (congrFun (shapeCast_self bb _) (ix2 2 c))

/-! ## Region 3's payloads at an entry -/

/-- The tile's whole stored value, from the seven loaded blocks. -/
def pay3 (xt xe xh xp : Vec Ideal Cert.KernelIdeal.S2000x128 .f32) (Wl : Vec Ideal Cert.KernelIdeal.S3x128x128 .f32) (bb : Vec Ideal Cert.KernelIdeal.S3x128 .f32)
    (Wr : Vec Ideal Cert.KernelIdeal.S3x128x128 .f32) : FVec Ideal Cert.KernelIdeal.S2000x128 .f32 :=
  Cert.KernelIdeal.Gen.k3_pay1 (Cert.KernelIdeal.Gen.k3_pay2 xh) (Cert.KernelIdeal.Gen.k3_pay3 xp) (Cert.KernelIdeal.Gen.k3_pay4 Wl) (Cert.KernelIdeal.Gen.k3_pay5 Wr) (Cert.KernelIdeal.Gen.k3_pay6 bb)
    (Cert.KernelIdeal.Gen.k3_pay7 xt xp Wl Wr bb) (Cert.KernelIdeal.Gen.k3_pay8 Wr) (Cert.KernelIdeal.Gen.k3_pay9 xe Wl)

/-- Relation 0's term, computed in the body's first part. -/
theorem pay3_term0 (xt xp : Vec Ideal Cert.KernelIdeal.S2000x128 .f32) (Wl Wr : Vec Ideal Cert.KernelIdeal.S3x128x128 .f32) (bb : Vec Ideal Cert.KernelIdeal.S3x128 .f32)
    (p : Fin 2000) (c : Fin 128) :
    Cert.KernelIdeal.Gen.k3_pay7 (F := Ideal) xt xp Wl Wr bb (ix2 p c) = sageTerm xt xp Wl Wr bb 0 p c := by
  unfold Cert.KernelIdeal.Gen.k3_pay7 sageTerm
  refine (addf_apply _ _ _).trans ?_
  refine congr (congrArg _ ?_) ?_
  · refine (addf_apply _ _ _).trans ?_
    refine congr (congrArg _ ?_) ?_
    · refine (mm_apply _ _ _ p c).trans (Finset.sum_congr rfl fun k _ => ?_)
      refine congr (congrArg _ ?_) ?_
      · exact congrFun (shapeCast_self xt _) (ix2 p k)
      · exact (slab0_apply (α := Ideal .bf16) _ _ _ c k).trans (congrFun (shapeCast_self Wl _) (ix3 0 c k))
    · refine (mm_apply _ _ _ p c).trans (Finset.sum_congr rfl fun k _ => ?_)
      refine congr (congrArg _ ?_) ?_
      · exact congrFun (shapeCast_self xp _) (ix2 p k)
      · exact (slab0_apply (α := Ideal .bf16) _ _ _ c k).trans (congrFun (shapeCast_self Wr _) (ix3 0 c k))
  · exact (biasRow0_apply (α := Ideal .f32) _ _ _ _ _ p c).trans (congrFun (shapeCast_self bb _) (ix2 0 c))

/-- The tile's entry (p, c): the three relations' terms summed, clamped below at zero. -/
theorem pay3_entry (xt xe xh xp : Vec Ideal Cert.KernelIdeal.S2000x128 .f32) (Wl : Vec Ideal Cert.KernelIdeal.S3x128x128 .f32) (bb : Vec Ideal Cert.KernelIdeal.S3x128 .f32)
    (Wr : Vec Ideal Cert.KernelIdeal.S3x128x128 .f32) (p : Fin 2000) (c : Fin 128) :
    pay3 xt xe xh xp Wl bb Wr (ix2 p c)
      = max ((sageTerm xt xp Wl Wr bb 0 p c + sageTerm xe xp Wl Wr bb 1 p c) + sageTerm xh xp Wl Wr bb 2 p c)
          (Ideal.ofBits .f32 0x00000000#32) := by
  unfold pay3 Cert.KernelIdeal.Gen.k3_pay1
  refine (maximumf_apply _ _ _).trans ?_
  refine congr (congrArg _ ?_) rfl
  refine (addf_apply _ _ _).trans ?_
  refine congr (congrArg _ ?_) ?_
  · refine (addf_apply _ _ _).trans ?_
    refine congr (congrArg _ (pay3_term0 xt xp Wl Wr bb p c)) ?_
    -- relation 1
    unfold sageTerm
    refine (addf_apply _ _ _).trans ?_
    refine congr (congrArg _ ?_) ?_
    · refine (addf_apply _ _ _).trans ?_
      refine congr (congrArg _ ?_) ?_
      · unfold Cert.KernelIdeal.Gen.k3_pay9
        refine (mm_apply _ _ _ p c).trans (Finset.sum_congr rfl fun k _ => ?_)
        refine congr (congrArg _ ?_) ?_
        · exact congrFun (shapeCast_self xe _) (ix2 p k)
        · unfold Cert.KernelIdeal.Gen.k3_pay4
          exact (slab1_apply (α := Ideal .bf16) _ _ _ c k).trans (congrFun (shapeCast_self Wl _) (ix3 1 c k))
      · refine (mm_apply _ _ _ p c).trans (Finset.sum_congr rfl fun k _ => ?_)
        refine congr (congrArg _ ?_) ?_
        · unfold Cert.KernelIdeal.Gen.k3_pay3
          exact congrFun (shapeCast_self xp _) (ix2 p k)
        · unfold Cert.KernelIdeal.Gen.k3_pay8 Cert.KernelIdeal.Gen.k3_pay5
          exact (slab1_apply (α := Ideal .bf16) _ _ _ c k).trans (congrFun (shapeCast_self Wr _) (ix3 1 c k))
    · unfold Cert.KernelIdeal.Gen.k3_pay6
      exact (biasRow1_apply (α := Ideal .f32) _ _ _ _ _ p c).trans (congrFun (shapeCast_self bb _) (ix2 1 c))
  · -- relation 2
    unfold sageTerm
    refine (addf_apply _ _ _).trans ?_
    refine congr (congrArg _ ?_) ?_
    · refine (addf_apply _ _ _).trans ?_
      refine congr (congrArg _ ?_) ?_
      · refine (mm_apply _ _ _ p c).trans (Finset.sum_congr rfl fun k _ => ?_)
        refine congr (congrArg _ ?_) ?_
        · unfold Cert.KernelIdeal.Gen.k3_pay2
          exact congrFun (shapeCast_self xh _) (ix2 p k)
        · unfold Cert.KernelIdeal.Gen.k3_pay4
          exact (slab2_apply (α := Ideal .bf16) _ _ _ c k).trans (congrFun (shapeCast_self Wl _) (ix3 2 c k))
      · refine (mm_apply _ _ _ p c).trans (Finset.sum_congr rfl fun k _ => ?_)
        refine congr (congrArg _ ?_) ?_
        · unfold Cert.KernelIdeal.Gen.k3_pay3
          exact congrFun (shapeCast_self xp _) (ix2 p k)
        · unfold Cert.KernelIdeal.Gen.k3_pay5
          exact (slab2_apply (α := Ideal .bf16) _ _ _ c k).trans (congrFun (shapeCast_self Wr _) (ix3 2 c k))
    · unfold Cert.KernelIdeal.Gen.k3_pay6
      exact (biasRow2_apply (α := Ideal .f32) _ _ _ _ _ p c).trans (congrFun (shapeCast_self bb _) (ix2 2 c))

end Cert.Bridge.Sage

end
-- ==== Proof.Bridge.Final23.lean ====
/- The arrays regions 2 and 3 leave, in closed form on the extended reals.

   Each of the two regions runs the three-relation neighbourhood combine over a grid of 100 row tiles: at tile t the
   body is handed rows [2000·t, 2000·t + 2000) of the three aggregated-neighbour arrays and of the node-feature array
   (all 128 columns), and the three weight arrays whole (their block index is constant over the grid), and it writes
   rows [2000·t, 2000·t + 2000) of the result. Entry (p, c) of the tile it stores is max(T₀ + T₁ + T₂, 0) of the handed
   blocks at row p, column c; since the terms only read row p of the row blocks and the weights whole, that is the
   layer's entry (2000·t + p, c) of the whole arrays as the region finds them. The 100 tiles cover every row (row r is
   in tile r / 2000), so the result array after the region IS the layer of the entry arrays, index by index. -/
import proofs.«111184_j68341519614847_1_alg».proof.Proof.KI.Region2
import proofs.«111184_j68341519614847_1_alg».proof.Proof.KI.Region3
import proofs.«111184_j68341519614847_1_alg».proof.Proof.Bridge.Spec
import proofs.«111184_j68341519614847_1_alg».proof.Proof.Bridge.Sage
import Idealize.ShloMosaic.Lib.Pipeline.Value
import Idealize.ShloMosaic.Lib.ValueIdx

noncomputable section

namespace Cert.Bridge.Final23

open Cert.KernelIdeal Cert.KernelIdeal.Gen Cert.KernelIdeal.Hand Idealize.ShloMosaic Idealize.ShloMosaic.TcCoe Idealize.SL.Sem
open Idealize.ShloMosaic.ValueIdx Cert.Bridge
open Idealize.ShloMosaic.Pipeline (Dat)

/-- The zero offsets of a rank-2 and of a rank-3 whole-buffer access, as constant functions. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Region 2 -/

/-- A stored tile's entry is the layer's entry at the array row the tile's row sits at: when row `p` of each of the
    four row blocks is row `r` of its array and the three weight blocks are the weight arrays, the terms agree sum by
    sum. -/
theorem tile_entry2 (At Ae Ah P : S200000x128.Idx → EReal) (Wl Wr : S3x128x128.Idx → EReal) (bb : S3x128.Idx → EReal)
    (xt xe xh xp : Vec Ideal S2000x128 .f32) (wl : Vec Ideal S3x128x128 .f32) (b : Vec Ideal S3x128 .f32) (wr : Vec Ideal S3x128x128 .f32)
    (p : Fin 2000) (r : Fin 200000) (c : Fin 128)
    (hxt : ∀ k : Fin 128, xt (ix2 p k) = At (ix2 r k)) (hxe : ∀ k : Fin 128, xe (ix2 p k) = Ae (ix2 r k))
    (hxh : ∀ k : Fin 128, xh (ix2 p k) = Ah (ix2 r k)) (hxp : ∀ k : Fin 128, xp (ix2 p k) = P (ix2 r k))
    (hwl : wl = Wl) (hb : b = bb) (hwr : wr = Wr) :
    Sage.pay2 xt xe xh xp wl b wr (ix2 p c) = sageRows At Ae Ah P Wl Wr bb (ix2 r c) := by
  subst hwl hb hwr
  rw [Sage.pay2_entry, sageRows_apply]
  unfold sageTerm
  simp only [hxt, hxe, hxh, hxp]

/-- The printed index maps, decided over the 100 tiles: the four row windows move with the result window down the
    rows and stay at column block 0; the three weight windows stay at block 0; the result's row block is below 100. -/
theorem tile_maps2 : ∀ t : Fin cfg2.N, win2_0.index t (0 : Fin 2) = win2_7.index t (0 : Fin 2)
    ∧ win2_0.index t (1 : Fin 2) = 0
    ∧ win2_1.index t (0 : Fin 2) = win2_7.index t (0 : Fin 2)
    ∧ win2_1.index t (1 : Fin 2) = 0
    ∧ win2_2.index t (0 : Fin 2) = win2_7.index t (0 : Fin 2)
    ∧ win2_2.index t (1 : Fin 2) = 0
    ∧ win2_3.index t (0 : Fin 2) = win2_7.index t (0 : Fin 2)
    ∧ win2_3.index t (1 : Fin 2) = 0
    ∧ win2_4.index t (0 : Fin 3) = 0
    ∧ win2_4.index t (1 : Fin 3) = 0
    ∧ win2_4.index t (2 : Fin 3) = 0
    ∧ win2_5.index t (0 : Fin 2) = 0
    ∧ win2_5.index t (1 : Fin 2) = 0
    ∧ win2_6.index t (0 : Fin 3) = 0
    ∧ win2_6.index t (1 : Fin 3) = 0
    ∧ win2_6.index t (2 : Fin 3) = 0
    ∧ win2_7.index t (0 : Fin 2) ≤ 99
    ∧ win2_7.index t (1 : Fin 2) = 0 :=
  (by decide +kernel : ∀ t : Fin grid2.N, _)

/-- Every row block of the result is SOME tile's. -/
theorem tile_onto2 : ∀ q : Fin 100, ∃ t : Fin cfg2.N, win2_7.index t = ![q.val, 0] :=
  (by decide +kernel : ∀ q : Fin 100, ∃ t : Fin grid2.N, win2_7.index t = ![q.val, 0])

/-- The result window is uncut: what a write-back moves of a staging buffer's contents is the contents. -/
theorem cut_tile2 {α : Type} (t : Fin cfg2.N) (X : S2000x128.Idx → α) : (cfg2.win 7).cut (grid2.coords t) X = X := rfl

/-- Reading tile `t`'s block of an array's contents reads the contents where the block's index sits in the array. -/
theorem read_tile2 (t : Fin cfg2.N) (G : S200000x128.Idx → EReal) (y : S2000x128.Idx) :
    ((cfg2.win 7).blk t).view.read (Elt Ideal) G y = G (((cfg2.win 7).blk t).view.emb y) := rfl

set_option maxHeartbeats 4000000 in
/-- WHAT TILE `t` WRITES BACK is block `t` of the layer of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 7 t = ((cfg2.win 7).blk t).view.read (Elt Ideal) (sageRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) (V c (Pipeline.arrRef spec2 5))) := by
  show (cfg2.win 7).cut (grid2.coords t) ((dat2 (F := Ideal) V c).after 7 t) = _
  rw [after2_7]
  refine (cut_tile2 t _).trans ?_
  unfold out2_7
  rw [View.canon_unit_zero zeros2]
  simp only [View.ld_unit_zero (S := S2000x128) zeros2, View.ld_unit_zero (S := S3x128x128) zeros3, View.ld_unit_zero (S := S3x128) zeros2]
  obtain ⟨a0, a1, b0, b1, c0, c1, d0, d1, l0, l1, l2, s0, s1, r0, r1, r2, o0, o1⟩ := tile_maps2 t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hr : win2_7.index t (0 : Fin 2) * 2000 + 1 * p.val < 200000 := by omega
  have hemb : ((cfg2.win 7).blk t).view.emb (ix2 p q) = ix2 (⟨win2_7.index t (0 : Fin 2) * 2000 + 1 * p.val, hr⟩ : Fin 200000) q := by
    funext a; apply Fin.ext
    match a with
    | ⟨0, _⟩ => rfl
    | ⟨1, _⟩ => show win2_7.index t (1 : Fin 2) * 128 + 1 * q.val = q.val; omega
  refine (tile_entry2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) (V c (Pipeline.arrRef spec2 5))
    (iblk2 V c 0 t) (iblk2 V c 1 t) (iblk2 V c 2 t) (iblk2 V c 3 t) (iblk2 V c 4 t) (iblk2 V c 5 t) (iblk2 V c 6 t)
    p ⟨win2_7.index t (0 : Fin 2) * 2000 + 1 * p.val, hr⟩ q ?_ ?_ ?_ ?_ ?_ ?_ ?_).trans
    ((read_tile2 t (sageRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) (V c (Pipeline.arrRef spec2 5))) (ix2 p q)).trans (congrArg (sageRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) (V c (Pipeline.arrRef spec2 5))) hemb)).symm
  · intro k
    show V c (Pipeline.arrRef spec2 0) (((cfg2.win 0).blk t).view.emb (ix2 p k)) = V c (Pipeline.arrRef spec2 0) (ix2 (⟨win2_7.index t (0 : Fin 2) * 2000 + 1 * p.val, hr⟩ : Fin 200000) k)
    refine congrArg _ ?_
    funext a; apply Fin.ext
    match a with
    | ⟨0, _⟩ => show win2_0.index t (0 : Fin 2) * 2000 + 1 * p.val = win2_7.index t (0 : Fin 2) * 2000 + 1 * p.val; omega
    | ⟨1, _⟩ => show win2_0.index t (1 : Fin 2) * 128 + 1 * k.val = k.val; omega
  · intro k
    show V c (Pipeline.arrRef spec2 1) (((cfg2.win 1).blk t).view.emb (ix2 p k)) = V c (Pipeline.arrRef spec2 1) (ix2 (⟨win2_7.index t (0 : Fin 2) * 2000 + 1 * p.val, hr⟩ : Fin 200000) k)
    refine congrArg _ ?_
    funext a; apply Fin.ext
    match a with
    | ⟨0, _⟩ => show win2_1.index t (0 : Fin 2) * 2000 + 1 * p.val = win2_7.index t (0 : Fin 2) * 2000 + 1 * p.val; omega
    | ⟨1, _⟩ => show win2_1.index t (1 : Fin 2) * 128 + 1 * k.val = k.val; omega
  · intro k
    show V c (Pipeline.arrRef spec2 2) (((cfg2.win 2).blk t).view.emb (ix2 p k)) = V c (Pipeline.arrRef spec2 2) (ix2 (⟨win2_7.index t (0 : Fin 2) * 2000 + 1 * p.val, hr⟩ : Fin 200000) k)
    refine congrArg _ ?_
    funext a; apply Fin.ext
    match a with
    | ⟨0, _⟩ => show win2_2.index t (0 : Fin 2) * 2000 + 1 * p.val = win2_7.index t (0 : Fin 2) * 2000 + 1 * p.val; omega
    | ⟨1, _⟩ => show win2_2.index t (1 : Fin 2) * 128 + 1 * k.val = k.val; omega
  · intro k
    show V c (Pipeline.arrRef spec2 3) (((cfg2.win 3).blk t).view.emb (ix2 p k)) = V c (Pipeline.arrRef spec2 3) (ix2 (⟨win2_7.index t (0 : Fin 2) * 2000 + 1 * p.val, hr⟩ : Fin 200000) k)
    refine congrArg _ ?_
    funext a; apply Fin.ext
    match a with
    | ⟨0, _⟩ => show win2_3.index t (0 : Fin 2) * 2000 + 1 * p.val = win2_7.index t (0 : Fin 2) * 2000 + 1 * p.val; omega
    | ⟨1, _⟩ => show win2_3.index t (1 : Fin 2) * 128 + 1 * k.val = k.val; omega
  · funext y
    show V c (Pipeline.arrRef spec2 4) (((cfg2.win 4).blk t).view.emb y) = V c (Pipeline.arrRef spec2 4) y
    refine congrArg _ ?_
    funext a; apply Fin.ext
    match a with
    | ⟨0, _⟩ => show win2_4.index t (0 : Fin 3) * 3 + 1 * (y 0).val = (y 0).val; omega
    | ⟨1, _⟩ => show win2_4.index t (1 : Fin 3) * 128 + 1 * (y 1).val = (y 1).val; omega
    | ⟨2, _⟩ => show win2_4.index t (2 : Fin 3) * 128 + 1 * (y 2).val = (y 2).val; omega
  · funext y
    show V c (Pipeline.arrRef spec2 5) (((cfg2.win 5).blk t).view.emb y) = V c (Pipeline.arrRef spec2 5) y
    refine congrArg _ ?_
    funext a; apply Fin.ext
    match a with
    | ⟨0, _⟩ => show win2_5.index t (0 : Fin 2) * 3 + 1 * (y 0).val = (y 0).val; omega
    | ⟨1, _⟩ => show win2_5.index t (1 : Fin 2) * 128 + 1 * (y 1).val = (y 1).val; omega
  · funext y
    show V c (Pipeline.arrRef spec2 6) (((cfg2.win 6).blk t).view.emb y) = V c (Pipeline.arrRef spec2 6) y
    refine congrArg _ ?_
    funext a; apply Fin.ext
    match a with
    | ⟨0, _⟩ => show win2_6.index t (0 : Fin 3) * 3 + 1 * (y 0).val = (y 0).val; omega
    | ⟨1, _⟩ => show win2_6.index t (1 : Fin 3) * 128 + 1 * (y 1).val = (y 1).val; omega
    | ⟨2, _⟩ => show win2_6.index t (2 : Fin 3) * 128 + 1 * (y 2).val = (y 2).val; omega

/-- An index of the result array is in tile `t`'s block iff each coordinate is in the block's range on its axis. -/
theorem mem_tile2 (t : Fin cfg2.N) (i : S200000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v173).slice (win2_7.rect t)).set ↔ _
  rw [View.set_slice_whole, Rect.mem_set_unit]
  exact Iff.rfl

/-- Every index of the result array is in some tile's block: row `r` is in tile `r / 2000`. -/
theorem covered2 (i : S200000x128.Idx) :
    ∃ t : Fin cfg2.N, (cfg2.win 7).flush t = true ∧ i ∈ ((cfg2.win 7).blk t).view.set := by
  have hi0 : (i 0).val < 200000 := (i 0).isLt
  have hi1 : (i 1).val < 128 := (i 1).isLt
  obtain ⟨t, ht⟩ := tile_onto2 ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_tile2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- THE RESULT ARRAY after region 2: the layer of the arrays as the region finds them. -/
theorem final2 (V : (c : Dev nD) → (b : Ref sig .tc) → Buf (Elt Ideal) ((c : Thread nD τ).loc b)) (c : Dev nD) :
    (dat2 (F := Ideal) V c).arrAt 7 cfg2.N = Cert.Bridge.sageRows (V c (Pipeline.arrRef spec2 0)) (V c (Pipeline.arrRef spec2 1)) (V c (Pipeline.arrRef spec2 2)) (V c (Pipeline.arrRef spec2 3)) (V c (Pipeline.arrRef spec2 4)) (V c (Pipeline.arrRef spec2 6)) (V c (Pipeline.arrRef spec2 5)) :=
  (dat2 (F := Ideal) V c).arrAt_eq_of_cover 7 _ (fun t _ => flushed2_eq V c t) (fun i => covered2 i)

/-! ## Region 3 -/

/-- A stored tile's entry is the layer's entry at the array row the tile's row sits at: when row `p` of each of the
    four row blocks is row `r` of its array and the three weight blocks are the weight arrays, the terms agree sum by
    sum. -/
theorem tile_entry3 (At Ae Ah P : S200000x128.Idx → EReal) (Wl Wr : S3x128x128.Idx → EReal) (bb : S3x128.Idx → EReal)
    (xt xe xh xp : Vec Ideal S2000x128 .f32) (wl : Vec Ideal S3x128x128 .f32) (b : Vec Ideal S3x128 .f32) (wr : Vec Ideal S3x128x128 .f32)
    (p : Fin 2000) (r : Fin 200000) (c : Fin 128)
    (hxt : ∀ k : Fin 128, xt (ix2 p k) = At (ix2 r k)) (hxe : ∀ k : Fin 128, xe (ix2 p k) = Ae (ix2 r k))
    (hxh : ∀ k : Fin 128, xh (ix2 p k) = Ah (ix2 r k)) (hxp : ∀ k : Fin 128, xp (ix2 p k) = P (ix2 r k))
    (hwl : wl = Wl) (hb : b = bb) (hwr : wr = Wr) :
    Sage.pay3 xt xe xh xp wl b wr (ix2 p c) = sageRows At Ae Ah P Wl Wr bb (ix2 r c) := by
  subst hwl hb hwr
  rw [Sage.pay3_entry, sageRows_apply]
  unfold sageTerm
  simp only [hxt, hxe, hxh, hxp]

/-- The printed index maps, decided over the 100 tiles: the four row windows move with the result window down the
    rows and stay at column block 0; the three weight windows stay at block 0; the result's row block is below 100. -/
theorem tile_maps3 : ∀ t : Fin cfg3.N, win3_0.index t (0 : Fin 2) = win3_7.index t (0 : Fin 2)
    ∧ win3_0.index t (1 : Fin 2) = 0
    ∧ win3_1.index t (0 : Fin 2) = win3_7.index t (0 : Fin 2)
    ∧ win3_1.index t (1 : Fin 2) = 0
    ∧ win3_2.index t (0 : Fin 2) = win3_7.index t (0 : Fin 2)
    ∧ win3_2.index t (1 : Fin 2) = 0
    ∧ win3_3.index t (0 : Fin 2) = win3_7.index t (0 : Fin 2)
    ∧ win3_3.index t (1 : Fin 2) = 0
    ∧ win3_4.index t (0 : Fin 3) = 0
    ∧ win3_4.index t (1 : Fin 3) = 0
    ∧ win3_4.index t (2 : Fin 3) = 0
    ∧ win3_5.index t (0 : Fin 2) = 0
    ∧ win3_5.index t (1 : Fin 2) = 0
    ∧ win3_6.index t (0 : Fin 3) = 0
    ∧ win3_6.index t (1 : Fin 3) = 0
    ∧ win3_6.index t (2 : Fin 3) = 0
    ∧ win3_7.index t (0 : Fin 2) ≤ 99
    ∧ win3_7.index t (1 : Fin 2) = 0 :=
  (by decide +kernel : ∀ t : Fin grid3.N, _)

/-- Every row block of the result is SOME tile's. -/
theorem tile_onto3 : ∀ q : Fin 100, ∃ t : Fin cfg3.N, win3_7.index t = ![q.val, 0] :=
  (by decide +kernel : ∀ q : Fin 100, ∃ t : Fin grid3.N, win3_7.index t = ![q.val, 0])

/-- The result window is uncut: what a write-back moves of a staging buffer's contents is the contents. -/
theorem cut_tile3 {α : Type} (t : Fin cfg3.N) (X : S2000x128.Idx → α) : (cfg3.win 7).cut (grid3.coords t) X = X := rfl

/-- Reading tile `t`'s block of an array's contents reads the contents where the block's index sits in the array. -/
theorem read_tile3 (t : Fin cfg3.N) (G : S200000x128.Idx → EReal) (y : S2000x128.Idx) :
    ((cfg3.win 7).blk t).view.read (Elt Ideal) G y = G (((cfg3.win 7).blk t).view.emb y) := rfl

set_option maxHeartbeats 4000000 in
/-- WHAT TILE `t` WRITES BACK is block `t` of the layer of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 7 t = ((cfg3.win 7).blk t).view.read (Elt Ideal) (sageRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 5))) := by
  show (cfg3.win 7).cut (grid3.coords t) ((dat3 (F := Ideal) V c).after 7 t) = _
  rw [after3_7]
  refine (cut_tile3 t _).trans ?_
  unfold out3_7
  rw [View.canon_unit_zero zeros2]
  simp only [View.ld_unit_zero (S := S2000x128) zeros2, View.ld_unit_zero (S := S3x128x128) zeros3, View.ld_unit_zero (S := S3x128) zeros2]
  obtain ⟨a0, a1, b0, b1, c0, c1, d0, d1, l0, l1, l2, s0, s1, r0, r1, r2, o0, o1⟩ := tile_maps3 t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hr : win3_7.index t (0 : Fin 2) * 2000 + 1 * p.val < 200000 := by omega
  have hemb : ((cfg3.win 7).blk t).view.emb (ix2 p q) = ix2 (⟨win3_7.index t (0 : Fin 2) * 2000 + 1 * p.val, hr⟩ : Fin 200000) q := by
    funext a; apply Fin.ext
    match a with
    | ⟨0, _⟩ => rfl
    | ⟨1, _⟩ => show win3_7.index t (1 : Fin 2) * 128 + 1 * q.val = q.val; omega
  refine (tile_entry3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 5))
    (iblk3 V c 0 t) (iblk3 V c 1 t) (iblk3 V c 2 t) (iblk3 V c 3 t) (iblk3 V c 4 t) (iblk3 V c 5 t) (iblk3 V c 6 t)
    p ⟨win3_7.index t (0 : Fin 2) * 2000 + 1 * p.val, hr⟩ q ?_ ?_ ?_ ?_ ?_ ?_ ?_).trans
    ((read_tile3 t (sageRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 5))) (ix2 p q)).trans (congrArg (sageRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 5))) hemb)).symm
  · intro k
    show V c (Pipeline.arrRef spec3 0) (((cfg3.win 0).blk t).view.emb (ix2 p k)) = V c (Pipeline.arrRef spec3 0) (ix2 (⟨win3_7.index t (0 : Fin 2) * 2000 + 1 * p.val, hr⟩ : Fin 200000) k)
    refine congrArg _ ?_
    funext a; apply Fin.ext
    match a with
    | ⟨0, _⟩ => show win3_0.index t (0 : Fin 2) * 2000 + 1 * p.val = win3_7.index t (0 : Fin 2) * 2000 + 1 * p.val; omega
    | ⟨1, _⟩ => show win3_0.index t (1 : Fin 2) * 128 + 1 * k.val = k.val; omega
  · intro k
    show V c (Pipeline.arrRef spec3 1) (((cfg3.win 1).blk t).view.emb (ix2 p k)) = V c (Pipeline.arrRef spec3 1) (ix2 (⟨win3_7.index t (0 : Fin 2) * 2000 + 1 * p.val, hr⟩ : Fin 200000) k)
    refine congrArg _ ?_
    funext a; apply Fin.ext
    match a with
    | ⟨0, _⟩ => show win3_1.index t (0 : Fin 2) * 2000 + 1 * p.val = win3_7.index t (0 : Fin 2) * 2000 + 1 * p.val; omega
    | ⟨1, _⟩ => show win3_1.index t (1 : Fin 2) * 128 + 1 * k.val = k.val; omega
  · intro k
    show V c (Pipeline.arrRef spec3 2) (((cfg3.win 2).blk t).view.emb (ix2 p k)) = V c (Pipeline.arrRef spec3 2) (ix2 (⟨win3_7.index t (0 : Fin 2) * 2000 + 1 * p.val, hr⟩ : Fin 200000) k)
    refine congrArg _ ?_
    funext a; apply Fin.ext
    match a with
    | ⟨0, _⟩ => show win3_2.index t (0 : Fin 2) * 2000 + 1 * p.val = win3_7.index t (0 : Fin 2) * 2000 + 1 * p.val; omega
    | ⟨1, _⟩ => show win3_2.index t (1 : Fin 2) * 128 + 1 * k.val = k.val; omega
  · intro k
    show V c (Pipeline.arrRef spec3 3) (((cfg3.win 3).blk t).view.emb (ix2 p k)) = V c (Pipeline.arrRef spec3 3) (ix2 (⟨win3_7.index t (0 : Fin 2) * 2000 + 1 * p.val, hr⟩ : Fin 200000) k)
    refine congrArg _ ?_
    funext a; apply Fin.ext
    match a with
    | ⟨0, _⟩ => show win3_3.index t (0 : Fin 2) * 2000 + 1 * p.val = win3_7.index t (0 : Fin 2) * 2000 + 1 * p.val; omega
    | ⟨1, _⟩ => show win3_3.index t (1 : Fin 2) * 128 + 1 * k.val = k.val; omega
  · funext y
    show V c (Pipeline.arrRef spec3 4) (((cfg3.win 4).blk t).view.emb y) = V c (Pipeline.arrRef spec3 4) y
    refine congrArg _ ?_
    funext a; apply Fin.ext
    match a with
    | ⟨0, _⟩ => show win3_4.index t (0 : Fin 3) * 3 + 1 * (y 0).val = (y 0).val; omega
    | ⟨1, _⟩ => show win3_4.index t (1 : Fin 3) * 128 + 1 * (y 1).val = (y 1).val; omega
    | ⟨2, _⟩ => show win3_4.index t (2 : Fin 3) * 128 + 1 * (y 2).val = (y 2).val; omega
  · funext y
    show V c (Pipeline.arrRef spec3 5) (((cfg3.win 5).blk t).view.emb y) = V c (Pipeline.arrRef spec3 5) y
    refine congrArg _ ?_
    funext a; apply Fin.ext
    match a with
    | ⟨0, _⟩ => show win3_5.index t (0 : Fin 2) * 3 + 1 * (y 0).val = (y 0).val; omega
    | ⟨1, _⟩ => show win3_5.index t (1 : Fin 2) * 128 + 1 * (y 1).val = (y 1).val; omega
  · funext y
    show V c (Pipeline.arrRef spec3 6) (((cfg3.win 6).blk t).view.emb y) = V c (Pipeline.arrRef spec3 6) y
    refine congrArg _ ?_
    funext a; apply Fin.ext
    match a with
    | ⟨0, _⟩ => show win3_6.index t (0 : Fin 3) * 3 + 1 * (y 0).val = (y 0).val; omega
    | ⟨1, _⟩ => show win3_6.index t (1 : Fin 3) * 128 + 1 * (y 1).val = (y 1).val; omega
    | ⟨2, _⟩ => show win3_6.index t (2 : Fin 3) * 128 + 1 * (y 2).val = (y 2).val; omega

/-- An index of the result array is in tile `t`'s block iff each coordinate is in the block's range on its axis. -/
theorem mem_tile3 (t : Fin cfg3.N) (i : S200000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v226).slice (win3_7.rect t)).set ↔ _
  rw [View.set_slice_whole, Rect.mem_set_unit]
  exact Iff.rfl

/-- Every index of the result array is in some tile's block: row `r` is in tile `r / 2000`. -/
theorem covered3 (i : S200000x128.Idx) :
    ∃ t : Fin cfg3.N, (cfg3.win 7).flush t = true ∧ i ∈ ((cfg3.win 7).blk t).view.set := by
  have hi0 : (i 0).val < 200000 := (i 0).isLt
  have hi1 : (i 1).val < 128 := (i 1).isLt
  obtain ⟨t, ht⟩ := tile_onto3 ⟨(i 0).val / 2000, by omega⟩
  have q0 : win3_7.index t (0 : Fin 2) = (i 0).val / 2000 := congrFun ht 0
  have q1 : win3_7.index t (1 : Fin 2) = 0 := congrFun ht 1
  refine ⟨t, flush3_7 t, ?_⟩
  rw [mem_tile3]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- THE RESULT ARRAY after region 3: the layer of the arrays as the region finds them. -/
theorem final3 (V : (c : Dev nD) → (b : Ref sig .tc) → Buf (Elt Ideal) ((c : Thread nD τ).loc b)) (c : Dev nD) :
    (dat3 (F := Ideal) V c).arrAt 7 cfg3.N = Cert.Bridge.sageRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 6)) (V c (Pipeline.arrRef spec3 5)) :=
  (dat3 (F := Ideal) V c).arrAt_eq_of_cover 7 _ (fun t _ => flushed3_eq V c t) (fun i => covered3 i)

end Cert.Bridge.Final23

end
-- ==== Proof.Bridge.KSide.lean ====
/- The kernel program's boundary contents at the ideal instance, read where the value argument needs them.
   (A) What each kernel region leaves in its output array is the specification's closed form of the buffers it was
   entered from: the two encoders' outputs are `linRows` of their feature array, weight and bias; the two
   combine layers' outputs are `sageRows` of the three aggregates, the node features and the layer's weights.
   (B) The layer weights the host operations cut for a combine region are the layer's slabs of the stacked weight
   arguments. (C) Buffers nothing writes in between hold at a later boundary what they held at an earlier one: the
   argument arrays hold the launch contents at every boundary, and a region's output is still there when a later
   region reads it. -/
import proofs.«111184_j68341519614847_1_alg».proof.Proof.KI.Bounds
import proofs.«111184_j68341519614847_1_alg».proof.Proof.Bridge.Spec
import proofs.«111184_j68341519614847_1_alg».proof.Proof.Bridge.Slabs
import proofs.«111184_j68341519614847_1_alg».proof.Proof.Bridge.Final01
import proofs.«111184_j68341519614847_1_alg».proof.Proof.Bridge.Final23

set_option maxRecDepth 16384

noncomputable section

namespace Cert.Bridge.KSide

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## (C) The argument arrays at every boundary: the launch contents -/

theorem W0_arg0 : W0 m ρ c (Proc.devRef .tc main_arg0) = m ((c : Thread nD τ).loc main_arg0) := rfl
theorem W1_arg0 : W1 m ρ c (Proc.devRef .tc main_arg0) = m ((c : Thread nD τ).loc main_arg0) := (W1_of m ρ c main_arg0 (by decide)).trans (W0_arg0 m ρ c)
theorem W2_arg0 : W2 m ρ c (Proc.devRef .tc main_arg0) = m ((c : Thread nD τ).loc main_arg0) := (W2_of m ρ c main_arg0 (by decide)).trans (W1_arg0 m ρ c)
theorem W3_arg0 : W3 m ρ c (Proc.devRef .tc main_arg0) = m ((c : Thread nD τ).loc main_arg0) := (W3_of m ρ c main_arg0 (by decide)).trans (W2_arg0 m ρ c)
theorem W4_arg0 : W4 m ρ c (Proc.devRef .tc main_arg0) = m ((c : Thread nD τ).loc main_arg0) := (W4_of m ρ c main_arg0 (by decide)).trans (W3_arg0 m ρ c)
theorem W5_arg0 : W5 m ρ c (Proc.devRef .tc main_arg0) = m ((c : Thread nD τ).loc main_arg0) := (W5_of m ρ c main_arg0 (by decide)).trans (W4_arg0 m ρ c)
theorem W6_arg0 : W6 m ρ c (Proc.devRef .tc main_arg0) = m ((c : Thread nD τ).loc main_arg0) := (W6_of m ρ c main_arg0 (by decide)).trans (W5_arg0 m ρ c)
theorem W7_arg0 : W7 m ρ c (Proc.devRef .tc main_arg0) = m ((c : Thread nD τ).loc main_arg0) := (W7_of m ρ c main_arg0 (by decide)).trans (W6_arg0 m ρ c)
theorem W8_arg0 : W8 m ρ c (Proc.devRef .tc main_arg0) = m ((c : Thread nD τ).loc main_arg0) := (W8_of m ρ c main_arg0 (by decide)).trans (W7_arg0 m ρ c)
theorem W9_arg0 : W9 m ρ c (Proc.devRef .tc main_arg0) = m ((c : Thread nD τ).loc main_arg0) := (W9_of m ρ c main_arg0 (by decide)).trans (W8_arg0 m ρ c)
theorem W10_arg0 : W10 m ρ c (Proc.devRef .tc main_arg0) = m ((c : Thread nD τ).loc main_arg0) := (W10_of m ρ c main_arg0 (by decide)).trans (W9_arg0 m ρ c)
theorem W11_arg0 : W11 m ρ c (Proc.devRef .tc main_arg0) = m ((c : Thread nD τ).loc main_arg0) := (W11_of m ρ c main_arg0 (by decide)).trans (W10_arg0 m ρ c)
theorem W12_arg0 : W12 m ρ c (Proc.devRef .tc main_arg0) = m ((c : Thread nD τ).loc main_arg0) := (W12_of m ρ c main_arg0 (by decide)).trans (W11_arg0 m ρ c)
theorem W13_arg0 : W13 m ρ c (Proc.devRef .tc main_arg0) = m ((c : Thread nD τ).loc main_arg0) := (W13_of m ρ c main_arg0 (by decide)).trans (W12_arg0 m ρ c)
theorem W14_arg0 : W14 m ρ c (Proc.devRef .tc main_arg0) = m ((c : Thread nD τ).loc main_arg0) := (W14_of m ρ c main_arg0 (by decide)).trans (W13_arg0 m ρ c)
theorem W15_arg0 : W15 m ρ c (Proc.devRef .tc main_arg0) = m ((c : Thread nD τ).loc main_arg0) := (W15_of m ρ c main_arg0 (by decide)).trans (W14_arg0 m ρ c)
theorem W16_arg0 : W16 m ρ c (Proc.devRef .tc main_arg0) = m ((c : Thread nD τ).loc main_arg0) := (W16_of m ρ c main_arg0 (by decide)).trans (W15_arg0 m ρ c)
theorem W17_arg0 : W17 m ρ c (Proc.devRef .tc main_arg0) = m ((c : Thread nD τ).loc main_arg0) := (W17_of m ρ c main_arg0 (by decide)).trans (W16_arg0 m ρ c)
theorem W18_arg0 : W18 m ρ c (Proc.devRef .tc main_arg0) = m ((c : Thread nD τ).loc main_arg0) := (W18_of m ρ c main_arg0 (by decide)).trans (W17_arg0 m ρ c)
theorem W19_arg0 : W19 m ρ c (Proc.devRef .tc main_arg0) = m ((c : Thread nD τ).loc main_arg0) := (W19_of m ρ c main_arg0 (by decide)).trans (W18_arg0 m ρ c)
theorem W20_arg0 : W20 m ρ c (Proc.devRef .tc main_arg0) = m ((c : Thread nD τ).loc main_arg0) := (W20_of m ρ c main_arg0 (by decide)).trans (W19_arg0 m ρ c)

theorem W0_arg1 : W0 m ρ c (Proc.devRef .tc main_arg1) = m ((c : Thread nD τ).loc main_arg1) := rfl
theorem W1_arg1 : W1 m ρ c (Proc.devRef .tc main_arg1) = m ((c : Thread nD τ).loc main_arg1) := (W1_of m ρ c main_arg1 (by decide)).trans (W0_arg1 m ρ c)
theorem W2_arg1 : W2 m ρ c (Proc.devRef .tc main_arg1) = m ((c : Thread nD τ).loc main_arg1) := (W2_of m ρ c main_arg1 (by decide)).trans (W1_arg1 m ρ c)
theorem W3_arg1 : W3 m ρ c (Proc.devRef .tc main_arg1) = m ((c : Thread nD τ).loc main_arg1) := (W3_of m ρ c main_arg1 (by decide)).trans (W2_arg1 m ρ c)
theorem W4_arg1 : W4 m ρ c (Proc.devRef .tc main_arg1) = m ((c : Thread nD τ).loc main_arg1) := (W4_of m ρ c main_arg1 (by decide)).trans (W3_arg1 m ρ c)
theorem W5_arg1 : W5 m ρ c (Proc.devRef .tc main_arg1) = m ((c : Thread nD τ).loc main_arg1) := (W5_of m ρ c main_arg1 (by decide)).trans (W4_arg1 m ρ c)
theorem W6_arg1 : W6 m ρ c (Proc.devRef .tc main_arg1) = m ((c : Thread nD τ).loc main_arg1) := (W6_of m ρ c main_arg1 (by decide)).trans (W5_arg1 m ρ c)
theorem W7_arg1 : W7 m ρ c (Proc.devRef .tc main_arg1) = m ((c : Thread nD τ).loc main_arg1) := (W7_of m ρ c main_arg1 (by decide)).trans (W6_arg1 m ρ c)
theorem W8_arg1 : W8 m ρ c (Proc.devRef .tc main_arg1) = m ((c : Thread nD τ).loc main_arg1) := (W8_of m ρ c main_arg1 (by decide)).trans (W7_arg1 m ρ c)
theorem W9_arg1 : W9 m ρ c (Proc.devRef .tc main_arg1) = m ((c : Thread nD τ).loc main_arg1) := (W9_of m ρ c main_arg1 (by decide)).trans (W8_arg1 m ρ c)
theorem W10_arg1 : W10 m ρ c (Proc.devRef .tc main_arg1) = m ((c : Thread nD τ).loc main_arg1) := (W10_of m ρ c main_arg1 (by decide)).trans (W9_arg1 m ρ c)
theorem W11_arg1 : W11 m ρ c (Proc.devRef .tc main_arg1) = m ((c : Thread nD τ).loc main_arg1) := (W11_of m ρ c main_arg1 (by decide)).trans (W10_arg1 m ρ c)
theorem W12_arg1 : W12 m ρ c (Proc.devRef .tc main_arg1) = m ((c : Thread nD τ).loc main_arg1) := (W12_of m ρ c main_arg1 (by decide)).trans (W11_arg1 m ρ c)
theorem W13_arg1 : W13 m ρ c (Proc.devRef .tc main_arg1) = m ((c : Thread nD τ).loc main_arg1) := (W13_of m ρ c main_arg1 (by decide)).trans (W12_arg1 m ρ c)
theorem W14_arg1 : W14 m ρ c (Proc.devRef .tc main_arg1) = m ((c : Thread nD τ).loc main_arg1) := (W14_of m ρ c main_arg1 (by decide)).trans (W13_arg1 m ρ c)
theorem W15_arg1 : W15 m ρ c (Proc.devRef .tc main_arg1) = m ((c : Thread nD τ).loc main_arg1) := (W15_of m ρ c main_arg1 (by decide)).trans (W14_arg1 m ρ c)
theorem W16_arg1 : W16 m ρ c (Proc.devRef .tc main_arg1) = m ((c : Thread nD τ).loc main_arg1) := (W16_of m ρ c main_arg1 (by decide)).trans (W15_arg1 m ρ c)
theorem W17_arg1 : W17 m ρ c (Proc.devRef .tc main_arg1) = m ((c : Thread nD τ).loc main_arg1) := (W17_of m ρ c main_arg1 (by decide)).trans (W16_arg1 m ρ c)
theorem W18_arg1 : W18 m ρ c (Proc.devRef .tc main_arg1) = m ((c : Thread nD τ).loc main_arg1) := (W18_of m ρ c main_arg1 (by decide)).trans (W17_arg1 m ρ c)
theorem W19_arg1 : W19 m ρ c (Proc.devRef .tc main_arg1) = m ((c : Thread nD τ).loc main_arg1) := (W19_of m ρ c main_arg1 (by decide)).trans (W18_arg1 m ρ c)
theorem W20_arg1 : W20 m ρ c (Proc.devRef .tc main_arg1) = m ((c : Thread nD τ).loc main_arg1) := (W20_of m ρ c main_arg1 (by decide)).trans (W19_arg1 m ρ c)

theorem W0_arg2 : W0 m ρ c (Proc.devRef .tc main_arg2) = m ((c : Thread nD τ).loc main_arg2) := rfl
theorem W1_arg2 : W1 m ρ c (Proc.devRef .tc main_arg2) = m ((c : Thread nD τ).loc main_arg2) := (W1_of m ρ c main_arg2 (by decide)).trans (W0_arg2 m ρ c)
theorem W2_arg2 : W2 m ρ c (Proc.devRef .tc main_arg2) = m ((c : Thread nD τ).loc main_arg2) := (W2_of m ρ c main_arg2 (by decide)).trans (W1_arg2 m ρ c)
theorem W3_arg2 : W3 m ρ c (Proc.devRef .tc main_arg2) = m ((c : Thread nD τ).loc main_arg2) := (W3_of m ρ c main_arg2 (by decide)).trans (W2_arg2 m ρ c)
theorem W4_arg2 : W4 m ρ c (Proc.devRef .tc main_arg2) = m ((c : Thread nD τ).loc main_arg2) := (W4_of m ρ c main_arg2 (by decide)).trans (W3_arg2 m ρ c)
theorem W5_arg2 : W5 m ρ c (Proc.devRef .tc main_arg2) = m ((c : Thread nD τ).loc main_arg2) := (W5_of m ρ c main_arg2 (by decide)).trans (W4_arg2 m ρ c)
theorem W6_arg2 : W6 m ρ c (Proc.devRef .tc main_arg2) = m ((c : Thread nD τ).loc main_arg2) := (W6_of m ρ c main_arg2 (by decide)).trans (W5_arg2 m ρ c)
theorem W7_arg2 : W7 m ρ c (Proc.devRef .tc main_arg2) = m ((c : Thread nD τ).loc main_arg2) := (W7_of m ρ c main_arg2 (by decide)).trans (W6_arg2 m ρ c)
theorem W8_arg2 : W8 m ρ c (Proc.devRef .tc main_arg2) = m ((c : Thread nD τ).loc main_arg2) := (W8_of m ρ c main_arg2 (by decide)).trans (W7_arg2 m ρ c)
theorem W9_arg2 : W9 m ρ c (Proc.devRef .tc main_arg2) = m ((c : Thread nD τ).loc main_arg2) := (W9_of m ρ c main_arg2 (by decide)).trans (W8_arg2 m ρ c)
theorem W10_arg2 : W10 m ρ c (Proc.devRef .tc main_arg2) = m ((c : Thread nD τ).loc main_arg2) := (W10_of m ρ c main_arg2 (by decide)).trans (W9_arg2 m ρ c)
theorem W11_arg2 : W11 m ρ c (Proc.devRef .tc main_arg2) = m ((c : Thread nD τ).loc main_arg2) := (W11_of m ρ c main_arg2 (by decide)).trans (W10_arg2 m ρ c)
theorem W12_arg2 : W12 m ρ c (Proc.devRef .tc main_arg2) = m ((c : Thread nD τ).loc main_arg2) := (W12_of m ρ c main_arg2 (by decide)).trans (W11_arg2 m ρ c)
theorem W13_arg2 : W13 m ρ c (Proc.devRef .tc main_arg2) = m ((c : Thread nD τ).loc main_arg2) := (W13_of m ρ c main_arg2 (by decide)).trans (W12_arg2 m ρ c)
theorem W14_arg2 : W14 m ρ c (Proc.devRef .tc main_arg2) = m ((c : Thread nD τ).loc main_arg2) := (W14_of m ρ c main_arg2 (by decide)).trans (W13_arg2 m ρ c)
theorem W15_arg2 : W15 m ρ c (Proc.devRef .tc main_arg2) = m ((c : Thread nD τ).loc main_arg2) := (W15_of m ρ c main_arg2 (by decide)).trans (W14_arg2 m ρ c)
theorem W16_arg2 : W16 m ρ c (Proc.devRef .tc main_arg2) = m ((c : Thread nD τ).loc main_arg2) := (W16_of m ρ c main_arg2 (by decide)).trans (W15_arg2 m ρ c)
theorem W17_arg2 : W17 m ρ c (Proc.devRef .tc main_arg2) = m ((c : Thread nD τ).loc main_arg2) := (W17_of m ρ c main_arg2 (by decide)).trans (W16_arg2 m ρ c)
theorem W18_arg2 : W18 m ρ c (Proc.devRef .tc main_arg2) = m ((c : Thread nD τ).loc main_arg2) := (W18_of m ρ c main_arg2 (by decide)).trans (W17_arg2 m ρ c)
theorem W19_arg2 : W19 m ρ c (Proc.devRef .tc main_arg2) = m ((c : Thread nD τ).loc main_arg2) := (W19_of m ρ c main_arg2 (by decide)).trans (W18_arg2 m ρ c)
theorem W20_arg2 : W20 m ρ c (Proc.devRef .tc main_arg2) = m ((c : Thread nD τ).loc main_arg2) := (W20_of m ρ c main_arg2 (by decide)).trans (W19_arg2 m ρ c)

theorem W0_arg3 : W0 m ρ c (Proc.devRef .tc main_arg3) = m ((c : Thread nD τ).loc main_arg3) := rfl
theorem W1_arg3 : W1 m ρ c (Proc.devRef .tc main_arg3) = m ((c : Thread nD τ).loc main_arg3) := (W1_of m ρ c main_arg3 (by decide)).trans (W0_arg3 m ρ c)
theorem W2_arg3 : W2 m ρ c (Proc.devRef .tc main_arg3) = m ((c : Thread nD τ).loc main_arg3) := (W2_of m ρ c main_arg3 (by decide)).trans (W1_arg3 m ρ c)
theorem W3_arg3 : W3 m ρ c (Proc.devRef .tc main_arg3) = m ((c : Thread nD τ).loc main_arg3) := (W3_of m ρ c main_arg3 (by decide)).trans (W2_arg3 m ρ c)
theorem W4_arg3 : W4 m ρ c (Proc.devRef .tc main_arg3) = m ((c : Thread nD τ).loc main_arg3) := (W4_of m ρ c main_arg3 (by decide)).trans (W3_arg3 m ρ c)
theorem W5_arg3 : W5 m ρ c (Proc.devRef .tc main_arg3) = m ((c : Thread nD τ).loc main_arg3) := (W5_of m ρ c main_arg3 (by decide)).trans (W4_arg3 m ρ c)
theorem W6_arg3 : W6 m ρ c (Proc.devRef .tc main_arg3) = m ((c : Thread nD τ).loc main_arg3) := (W6_of m ρ c main_arg3 (by decide)).trans (W5_arg3 m ρ c)
theorem W7_arg3 : W7 m ρ c (Proc.devRef .tc main_arg3) = m ((c : Thread nD τ).loc main_arg3) := (W7_of m ρ c main_arg3 (by decide)).trans (W6_arg3 m ρ c)
theorem W8_arg3 : W8 m ρ c (Proc.devRef .tc main_arg3) = m ((c : Thread nD τ).loc main_arg3) := (W8_of m ρ c main_arg3 (by decide)).trans (W7_arg3 m ρ c)
theorem W9_arg3 : W9 m ρ c (Proc.devRef .tc main_arg3) = m ((c : Thread nD τ).loc main_arg3) := (W9_of m ρ c main_arg3 (by decide)).trans (W8_arg3 m ρ c)
theorem W10_arg3 : W10 m ρ c (Proc.devRef .tc main_arg3) = m ((c : Thread nD τ).loc main_arg3) := (W10_of m ρ c main_arg3 (by decide)).trans (W9_arg3 m ρ c)
theorem W11_arg3 : W11 m ρ c (Proc.devRef .tc main_arg3) = m ((c : Thread nD τ).loc main_arg3) := (W11_of m ρ c main_arg3 (by decide)).trans (W10_arg3 m ρ c)
theorem W12_arg3 : W12 m ρ c (Proc.devRef .tc main_arg3) = m ((c : Thread nD τ).loc main_arg3) := (W12_of m ρ c main_arg3 (by decide)).trans (W11_arg3 m ρ c)
theorem W13_arg3 : W13 m ρ c (Proc.devRef .tc main_arg3) = m ((c : Thread nD τ).loc main_arg3) := (W13_of m ρ c main_arg3 (by decide)).trans (W12_arg3 m ρ c)
theorem W14_arg3 : W14 m ρ c (Proc.devRef .tc main_arg3) = m ((c : Thread nD τ).loc main_arg3) := (W14_of m ρ c main_arg3 (by decide)).trans (W13_arg3 m ρ c)
theorem W15_arg3 : W15 m ρ c (Proc.devRef .tc main_arg3) = m ((c : Thread nD τ).loc main_arg3) := (W15_of m ρ c main_arg3 (by decide)).trans (W14_arg3 m ρ c)
theorem W16_arg3 : W16 m ρ c (Proc.devRef .tc main_arg3) = m ((c : Thread nD τ).loc main_arg3) := (W16_of m ρ c main_arg3 (by decide)).trans (W15_arg3 m ρ c)
theorem W17_arg3 : W17 m ρ c (Proc.devRef .tc main_arg3) = m ((c : Thread nD τ).loc main_arg3) := (W17_of m ρ c main_arg3 (by decide)).trans (W16_arg3 m ρ c)
theorem W18_arg3 : W18 m ρ c (Proc.devRef .tc main_arg3) = m ((c : Thread nD τ).loc main_arg3) := (W18_of m ρ c main_arg3 (by decide)).trans (W17_arg3 m ρ c)
theorem W19_arg3 : W19 m ρ c (Proc.devRef .tc main_arg3) = m ((c : Thread nD τ).loc main_arg3) := (W19_of m ρ c main_arg3 (by decide)).trans (W18_arg3 m ρ c)
theorem W20_arg3 : W20 m ρ c (Proc.devRef .tc main_arg3) = m ((c : Thread nD τ).loc main_arg3) := (W20_of m ρ c main_arg3 (by decide)).trans (W19_arg3 m ρ c)

theorem W0_arg4 : W0 m ρ c (Proc.devRef .tc main_arg4) = m ((c : Thread nD τ).loc main_arg4) := rfl
theorem W1_arg4 : W1 m ρ c (Proc.devRef .tc main_arg4) = m ((c : Thread nD τ).loc main_arg4) := (W1_of m ρ c main_arg4 (by decide)).trans (W0_arg4 m ρ c)
theorem W2_arg4 : W2 m ρ c (Proc.devRef .tc main_arg4) = m ((c : Thread nD τ).loc main_arg4) := (W2_of m ρ c main_arg4 (by decide)).trans (W1_arg4 m ρ c)
theorem W3_arg4 : W3 m ρ c (Proc.devRef .tc main_arg4) = m ((c : Thread nD τ).loc main_arg4) := (W3_of m ρ c main_arg4 (by decide)).trans (W2_arg4 m ρ c)
theorem W4_arg4 : W4 m ρ c (Proc.devRef .tc main_arg4) = m ((c : Thread nD τ).loc main_arg4) := (W4_of m ρ c main_arg4 (by decide)).trans (W3_arg4 m ρ c)
theorem W5_arg4 : W5 m ρ c (Proc.devRef .tc main_arg4) = m ((c : Thread nD τ).loc main_arg4) := (W5_of m ρ c main_arg4 (by decide)).trans (W4_arg4 m ρ c)
theorem W6_arg4 : W6 m ρ c (Proc.devRef .tc main_arg4) = m ((c : Thread nD τ).loc main_arg4) := (W6_of m ρ c main_arg4 (by decide)).trans (W5_arg4 m ρ c)
theorem W7_arg4 : W7 m ρ c (Proc.devRef .tc main_arg4) = m ((c : Thread nD τ).loc main_arg4) := (W7_of m ρ c main_arg4 (by decide)).trans (W6_arg4 m ρ c)
theorem W8_arg4 : W8 m ρ c (Proc.devRef .tc main_arg4) = m ((c : Thread nD τ).loc main_arg4) := (W8_of m ρ c main_arg4 (by decide)).trans (W7_arg4 m ρ c)
theorem W9_arg4 : W9 m ρ c (Proc.devRef .tc main_arg4) = m ((c : Thread nD τ).loc main_arg4) := (W9_of m ρ c main_arg4 (by decide)).trans (W8_arg4 m ρ c)
theorem W10_arg4 : W10 m ρ c (Proc.devRef .tc main_arg4) = m ((c : Thread nD τ).loc main_arg4) := (W10_of m ρ c main_arg4 (by decide)).trans (W9_arg4 m ρ c)
theorem W11_arg4 : W11 m ρ c (Proc.devRef .tc main_arg4) = m ((c : Thread nD τ).loc main_arg4) := (W11_of m ρ c main_arg4 (by decide)).trans (W10_arg4 m ρ c)
theorem W12_arg4 : W12 m ρ c (Proc.devRef .tc main_arg4) = m ((c : Thread nD τ).loc main_arg4) := (W12_of m ρ c main_arg4 (by decide)).trans (W11_arg4 m ρ c)
theorem W13_arg4 : W13 m ρ c (Proc.devRef .tc main_arg4) = m ((c : Thread nD τ).loc main_arg4) := (W13_of m ρ c main_arg4 (by decide)).trans (W12_arg4 m ρ c)
theorem W14_arg4 : W14 m ρ c (Proc.devRef .tc main_arg4) = m ((c : Thread nD τ).loc main_arg4) := (W14_of m ρ c main_arg4 (by decide)).trans (W13_arg4 m ρ c)
theorem W15_arg4 : W15 m ρ c (Proc.devRef .tc main_arg4) = m ((c : Thread nD τ).loc main_arg4) := (W15_of m ρ c main_arg4 (by decide)).trans (W14_arg4 m ρ c)
theorem W16_arg4 : W16 m ρ c (Proc.devRef .tc main_arg4) = m ((c : Thread nD τ).loc main_arg4) := (W16_of m ρ c main_arg4 (by decide)).trans (W15_arg4 m ρ c)
theorem W17_arg4 : W17 m ρ c (Proc.devRef .tc main_arg4) = m ((c : Thread nD τ).loc main_arg4) := (W17_of m ρ c main_arg4 (by decide)).trans (W16_arg4 m ρ c)
theorem W18_arg4 : W18 m ρ c (Proc.devRef .tc main_arg4) = m ((c : Thread nD τ).loc main_arg4) := (W18_of m ρ c main_arg4 (by decide)).trans (W17_arg4 m ρ c)
theorem W19_arg4 : W19 m ρ c (Proc.devRef .tc main_arg4) = m ((c : Thread nD τ).loc main_arg4) := (W19_of m ρ c main_arg4 (by decide)).trans (W18_arg4 m ρ c)
theorem W20_arg4 : W20 m ρ c (Proc.devRef .tc main_arg4) = m ((c : Thread nD τ).loc main_arg4) := (W20_of m ρ c main_arg4 (by decide)).trans (W19_arg4 m ρ c)

theorem W0_arg5 : W0 m ρ c (Proc.devRef .tc main_arg5) = m ((c : Thread nD τ).loc main_arg5) := rfl
theorem W1_arg5 : W1 m ρ c (Proc.devRef .tc main_arg5) = m ((c : Thread nD τ).loc main_arg5) := (W1_of m ρ c main_arg5 (by decide)).trans (W0_arg5 m ρ c)
theorem W2_arg5 : W2 m ρ c (Proc.devRef .tc main_arg5) = m ((c : Thread nD τ).loc main_arg5) := (W2_of m ρ c main_arg5 (by decide)).trans (W1_arg5 m ρ c)
theorem W3_arg5 : W3 m ρ c (Proc.devRef .tc main_arg5) = m ((c : Thread nD τ).loc main_arg5) := (W3_of m ρ c main_arg5 (by decide)).trans (W2_arg5 m ρ c)
theorem W4_arg5 : W4 m ρ c (Proc.devRef .tc main_arg5) = m ((c : Thread nD τ).loc main_arg5) := (W4_of m ρ c main_arg5 (by decide)).trans (W3_arg5 m ρ c)
theorem W5_arg5 : W5 m ρ c (Proc.devRef .tc main_arg5) = m ((c : Thread nD τ).loc main_arg5) := (W5_of m ρ c main_arg5 (by decide)).trans (W4_arg5 m ρ c)
theorem W6_arg5 : W6 m ρ c (Proc.devRef .tc main_arg5) = m ((c : Thread nD τ).loc main_arg5) := (W6_of m ρ c main_arg5 (by decide)).trans (W5_arg5 m ρ c)
theorem W7_arg5 : W7 m ρ c (Proc.devRef .tc main_arg5) = m ((c : Thread nD τ).loc main_arg5) := (W7_of m ρ c main_arg5 (by decide)).trans (W6_arg5 m ρ c)
theorem W8_arg5 : W8 m ρ c (Proc.devRef .tc main_arg5) = m ((c : Thread nD τ).loc main_arg5) := (W8_of m ρ c main_arg5 (by decide)).trans (W7_arg5 m ρ c)
theorem W9_arg5 : W9 m ρ c (Proc.devRef .tc main_arg5) = m ((c : Thread nD τ).loc main_arg5) := (W9_of m ρ c main_arg5 (by decide)).trans (W8_arg5 m ρ c)
theorem W10_arg5 : W10 m ρ c (Proc.devRef .tc main_arg5) = m ((c : Thread nD τ).loc main_arg5) := (W10_of m ρ c main_arg5 (by decide)).trans (W9_arg5 m ρ c)
theorem W11_arg5 : W11 m ρ c (Proc.devRef .tc main_arg5) = m ((c : Thread nD τ).loc main_arg5) := (W11_of m ρ c main_arg5 (by decide)).trans (W10_arg5 m ρ c)
theorem W12_arg5 : W12 m ρ c (Proc.devRef .tc main_arg5) = m ((c : Thread nD τ).loc main_arg5) := (W12_of m ρ c main_arg5 (by decide)).trans (W11_arg5 m ρ c)
theorem W13_arg5 : W13 m ρ c (Proc.devRef .tc main_arg5) = m ((c : Thread nD τ).loc main_arg5) := (W13_of m ρ c main_arg5 (by decide)).trans (W12_arg5 m ρ c)
theorem W14_arg5 : W14 m ρ c (Proc.devRef .tc main_arg5) = m ((c : Thread nD τ).loc main_arg5) := (W14_of m ρ c main_arg5 (by decide)).trans (W13_arg5 m ρ c)
theorem W15_arg5 : W15 m ρ c (Proc.devRef .tc main_arg5) = m ((c : Thread nD τ).loc main_arg5) := (W15_of m ρ c main_arg5 (by decide)).trans (W14_arg5 m ρ c)
theorem W16_arg5 : W16 m ρ c (Proc.devRef .tc main_arg5) = m ((c : Thread nD τ).loc main_arg5) := (W16_of m ρ c main_arg5 (by decide)).trans (W15_arg5 m ρ c)
theorem W17_arg5 : W17 m ρ c (Proc.devRef .tc main_arg5) = m ((c : Thread nD τ).loc main_arg5) := (W17_of m ρ c main_arg5 (by decide)).trans (W16_arg5 m ρ c)
theorem W18_arg5 : W18 m ρ c (Proc.devRef .tc main_arg5) = m ((c : Thread nD τ).loc main_arg5) := (W18_of m ρ c main_arg5 (by decide)).trans (W17_arg5 m ρ c)
theorem W19_arg5 : W19 m ρ c (Proc.devRef .tc main_arg5) = m ((c : Thread nD τ).loc main_arg5) := (W19_of m ρ c main_arg5 (by decide)).trans (W18_arg5 m ρ c)
theorem W20_arg5 : W20 m ρ c (Proc.devRef .tc main_arg5) = m ((c : Thread nD τ).loc main_arg5) := (W20_of m ρ c main_arg5 (by decide)).trans (W19_arg5 m ρ c)

theorem W0_arg6 : W0 m ρ c (Proc.devRef .tc main_arg6) = m ((c : Thread nD τ).loc main_arg6) := rfl
theorem W1_arg6 : W1 m ρ c (Proc.devRef .tc main_arg6) = m ((c : Thread nD τ).loc main_arg6) := (W1_of m ρ c main_arg6 (by decide)).trans (W0_arg6 m ρ c)
theorem W2_arg6 : W2 m ρ c (Proc.devRef .tc main_arg6) = m ((c : Thread nD τ).loc main_arg6) := (W2_of m ρ c main_arg6 (by decide)).trans (W1_arg6 m ρ c)
theorem W3_arg6 : W3 m ρ c (Proc.devRef .tc main_arg6) = m ((c : Thread nD τ).loc main_arg6) := (W3_of m ρ c main_arg6 (by decide)).trans (W2_arg6 m ρ c)
theorem W4_arg6 : W4 m ρ c (Proc.devRef .tc main_arg6) = m ((c : Thread nD τ).loc main_arg6) := (W4_of m ρ c main_arg6 (by decide)).trans (W3_arg6 m ρ c)
theorem W5_arg6 : W5 m ρ c (Proc.devRef .tc main_arg6) = m ((c : Thread nD τ).loc main_arg6) := (W5_of m ρ c main_arg6 (by decide)).trans (W4_arg6 m ρ c)
theorem W6_arg6 : W6 m ρ c (Proc.devRef .tc main_arg6) = m ((c : Thread nD τ).loc main_arg6) := (W6_of m ρ c main_arg6 (by decide)).trans (W5_arg6 m ρ c)
theorem W7_arg6 : W7 m ρ c (Proc.devRef .tc main_arg6) = m ((c : Thread nD τ).loc main_arg6) := (W7_of m ρ c main_arg6 (by decide)).trans (W6_arg6 m ρ c)
theorem W8_arg6 : W8 m ρ c (Proc.devRef .tc main_arg6) = m ((c : Thread nD τ).loc main_arg6) := (W8_of m ρ c main_arg6 (by decide)).trans (W7_arg6 m ρ c)
theorem W9_arg6 : W9 m ρ c (Proc.devRef .tc main_arg6) = m ((c : Thread nD τ).loc main_arg6) := (W9_of m ρ c main_arg6 (by decide)).trans (W8_arg6 m ρ c)
theorem W10_arg6 : W10 m ρ c (Proc.devRef .tc main_arg6) = m ((c : Thread nD τ).loc main_arg6) := (W10_of m ρ c main_arg6 (by decide)).trans (W9_arg6 m ρ c)
theorem W11_arg6 : W11 m ρ c (Proc.devRef .tc main_arg6) = m ((c : Thread nD τ).loc main_arg6) := (W11_of m ρ c main_arg6 (by decide)).trans (W10_arg6 m ρ c)
theorem W12_arg6 : W12 m ρ c (Proc.devRef .tc main_arg6) = m ((c : Thread nD τ).loc main_arg6) := (W12_of m ρ c main_arg6 (by decide)).trans (W11_arg6 m ρ c)
theorem W13_arg6 : W13 m ρ c (Proc.devRef .tc main_arg6) = m ((c : Thread nD τ).loc main_arg6) := (W13_of m ρ c main_arg6 (by decide)).trans (W12_arg6 m ρ c)
theorem W14_arg6 : W14 m ρ c (Proc.devRef .tc main_arg6) = m ((c : Thread nD τ).loc main_arg6) := (W14_of m ρ c main_arg6 (by decide)).trans (W13_arg6 m ρ c)
theorem W15_arg6 : W15 m ρ c (Proc.devRef .tc main_arg6) = m ((c : Thread nD τ).loc main_arg6) := (W15_of m ρ c main_arg6 (by decide)).trans (W14_arg6 m ρ c)
theorem W16_arg6 : W16 m ρ c (Proc.devRef .tc main_arg6) = m ((c : Thread nD τ).loc main_arg6) := (W16_of m ρ c main_arg6 (by decide)).trans (W15_arg6 m ρ c)
theorem W17_arg6 : W17 m ρ c (Proc.devRef .tc main_arg6) = m ((c : Thread nD τ).loc main_arg6) := (W17_of m ρ c main_arg6 (by decide)).trans (W16_arg6 m ρ c)
theorem W18_arg6 : W18 m ρ c (Proc.devRef .tc main_arg6) = m ((c : Thread nD τ).loc main_arg6) := (W18_of m ρ c main_arg6 (by decide)).trans (W17_arg6 m ρ c)
theorem W19_arg6 : W19 m ρ c (Proc.devRef .tc main_arg6) = m ((c : Thread nD τ).loc main_arg6) := (W19_of m ρ c main_arg6 (by decide)).trans (W18_arg6 m ρ c)
theorem W20_arg6 : W20 m ρ c (Proc.devRef .tc main_arg6) = m ((c : Thread nD τ).loc main_arg6) := (W20_of m ρ c main_arg6 (by decide)).trans (W19_arg6 m ρ c)

theorem W0_arg7 : W0 m ρ c (Proc.devRef .tc main_arg7) = m ((c : Thread nD τ).loc main_arg7) := rfl
theorem W1_arg7 : W1 m ρ c (Proc.devRef .tc main_arg7) = m ((c : Thread nD τ).loc main_arg7) := (W1_of m ρ c main_arg7 (by decide)).trans (W0_arg7 m ρ c)
theorem W2_arg7 : W2 m ρ c (Proc.devRef .tc main_arg7) = m ((c : Thread nD τ).loc main_arg7) := (W2_of m ρ c main_arg7 (by decide)).trans (W1_arg7 m ρ c)
theorem W3_arg7 : W3 m ρ c (Proc.devRef .tc main_arg7) = m ((c : Thread nD τ).loc main_arg7) := (W3_of m ρ c main_arg7 (by decide)).trans (W2_arg7 m ρ c)
theorem W4_arg7 : W4 m ρ c (Proc.devRef .tc main_arg7) = m ((c : Thread nD τ).loc main_arg7) := (W4_of m ρ c main_arg7 (by decide)).trans (W3_arg7 m ρ c)
theorem W5_arg7 : W5 m ρ c (Proc.devRef .tc main_arg7) = m ((c : Thread nD τ).loc main_arg7) := (W5_of m ρ c main_arg7 (by decide)).trans (W4_arg7 m ρ c)
theorem W6_arg7 : W6 m ρ c (Proc.devRef .tc main_arg7) = m ((c : Thread nD τ).loc main_arg7) := (W6_of m ρ c main_arg7 (by decide)).trans (W5_arg7 m ρ c)
theorem W7_arg7 : W7 m ρ c (Proc.devRef .tc main_arg7) = m ((c : Thread nD τ).loc main_arg7) := (W7_of m ρ c main_arg7 (by decide)).trans (W6_arg7 m ρ c)
theorem W8_arg7 : W8 m ρ c (Proc.devRef .tc main_arg7) = m ((c : Thread nD τ).loc main_arg7) := (W8_of m ρ c main_arg7 (by decide)).trans (W7_arg7 m ρ c)
theorem W9_arg7 : W9 m ρ c (Proc.devRef .tc main_arg7) = m ((c : Thread nD τ).loc main_arg7) := (W9_of m ρ c main_arg7 (by decide)).trans (W8_arg7 m ρ c)
theorem W10_arg7 : W10 m ρ c (Proc.devRef .tc main_arg7) = m ((c : Thread nD τ).loc main_arg7) := (W10_of m ρ c main_arg7 (by decide)).trans (W9_arg7 m ρ c)
theorem W11_arg7 : W11 m ρ c (Proc.devRef .tc main_arg7) = m ((c : Thread nD τ).loc main_arg7) := (W11_of m ρ c main_arg7 (by decide)).trans (W10_arg7 m ρ c)
theorem W12_arg7 : W12 m ρ c (Proc.devRef .tc main_arg7) = m ((c : Thread nD τ).loc main_arg7) := (W12_of m ρ c main_arg7 (by decide)).trans (W11_arg7 m ρ c)
theorem W13_arg7 : W13 m ρ c (Proc.devRef .tc main_arg7) = m ((c : Thread nD τ).loc main_arg7) := (W13_of m ρ c main_arg7 (by decide)).trans (W12_arg7 m ρ c)
theorem W14_arg7 : W14 m ρ c (Proc.devRef .tc main_arg7) = m ((c : Thread nD τ).loc main_arg7) := (W14_of m ρ c main_arg7 (by decide)).trans (W13_arg7 m ρ c)
theorem W15_arg7 : W15 m ρ c (Proc.devRef .tc main_arg7) = m ((c : Thread nD τ).loc main_arg7) := (W15_of m ρ c main_arg7 (by decide)).trans (W14_arg7 m ρ c)
theorem W16_arg7 : W16 m ρ c (Proc.devRef .tc main_arg7) = m ((c : Thread nD τ).loc main_arg7) := (W16_of m ρ c main_arg7 (by decide)).trans (W15_arg7 m ρ c)
theorem W17_arg7 : W17 m ρ c (Proc.devRef .tc main_arg7) = m ((c : Thread nD τ).loc main_arg7) := (W17_of m ρ c main_arg7 (by decide)).trans (W16_arg7 m ρ c)
theorem W18_arg7 : W18 m ρ c (Proc.devRef .tc main_arg7) = m ((c : Thread nD τ).loc main_arg7) := (W18_of m ρ c main_arg7 (by decide)).trans (W17_arg7 m ρ c)
theorem W19_arg7 : W19 m ρ c (Proc.devRef .tc main_arg7) = m ((c : Thread nD τ).loc main_arg7) := (W19_of m ρ c main_arg7 (by decide)).trans (W18_arg7 m ρ c)
theorem W20_arg7 : W20 m ρ c (Proc.devRef .tc main_arg7) = m ((c : Thread nD τ).loc main_arg7) := (W20_of m ρ c main_arg7 (by decide)).trans (W19_arg7 m ρ c)

theorem W0_arg8 : W0 m ρ c (Proc.devRef .tc main_arg8) = m ((c : Thread nD τ).loc main_arg8) := rfl
theorem W1_arg8 : W1 m ρ c (Proc.devRef .tc main_arg8) = m ((c : Thread nD τ).loc main_arg8) := (W1_of m ρ c main_arg8 (by decide)).trans (W0_arg8 m ρ c)
theorem W2_arg8 : W2 m ρ c (Proc.devRef .tc main_arg8) = m ((c : Thread nD τ).loc main_arg8) := (W2_of m ρ c main_arg8 (by decide)).trans (W1_arg8 m ρ c)
theorem W3_arg8 : W3 m ρ c (Proc.devRef .tc main_arg8) = m ((c : Thread nD τ).loc main_arg8) := (W3_of m ρ c main_arg8 (by decide)).trans (W2_arg8 m ρ c)
theorem W4_arg8 : W4 m ρ c (Proc.devRef .tc main_arg8) = m ((c : Thread nD τ).loc main_arg8) := (W4_of m ρ c main_arg8 (by decide)).trans (W3_arg8 m ρ c)
theorem W5_arg8 : W5 m ρ c (Proc.devRef .tc main_arg8) = m ((c : Thread nD τ).loc main_arg8) := (W5_of m ρ c main_arg8 (by decide)).trans (W4_arg8 m ρ c)
theorem W6_arg8 : W6 m ρ c (Proc.devRef .tc main_arg8) = m ((c : Thread nD τ).loc main_arg8) := (W6_of m ρ c main_arg8 (by decide)).trans (W5_arg8 m ρ c)
theorem W7_arg8 : W7 m ρ c (Proc.devRef .tc main_arg8) = m ((c : Thread nD τ).loc main_arg8) := (W7_of m ρ c main_arg8 (by decide)).trans (W6_arg8 m ρ c)
theorem W8_arg8 : W8 m ρ c (Proc.devRef .tc main_arg8) = m ((c : Thread nD τ).loc main_arg8) := (W8_of m ρ c main_arg8 (by decide)).trans (W7_arg8 m ρ c)
theorem W9_arg8 : W9 m ρ c (Proc.devRef .tc main_arg8) = m ((c : Thread nD τ).loc main_arg8) := (W9_of m ρ c main_arg8 (by decide)).trans (W8_arg8 m ρ c)
theorem W10_arg8 : W10 m ρ c (Proc.devRef .tc main_arg8) = m ((c : Thread nD τ).loc main_arg8) := (W10_of m ρ c main_arg8 (by decide)).trans (W9_arg8 m ρ c)
theorem W11_arg8 : W11 m ρ c (Proc.devRef .tc main_arg8) = m ((c : Thread nD τ).loc main_arg8) := (W11_of m ρ c main_arg8 (by decide)).trans (W10_arg8 m ρ c)
theorem W12_arg8 : W12 m ρ c (Proc.devRef .tc main_arg8) = m ((c : Thread nD τ).loc main_arg8) := (W12_of m ρ c main_arg8 (by decide)).trans (W11_arg8 m ρ c)
theorem W13_arg8 : W13 m ρ c (Proc.devRef .tc main_arg8) = m ((c : Thread nD τ).loc main_arg8) := (W13_of m ρ c main_arg8 (by decide)).trans (W12_arg8 m ρ c)
theorem W14_arg8 : W14 m ρ c (Proc.devRef .tc main_arg8) = m ((c : Thread nD τ).loc main_arg8) := (W14_of m ρ c main_arg8 (by decide)).trans (W13_arg8 m ρ c)
theorem W15_arg8 : W15 m ρ c (Proc.devRef .tc main_arg8) = m ((c : Thread nD τ).loc main_arg8) := (W15_of m ρ c main_arg8 (by decide)).trans (W14_arg8 m ρ c)
theorem W16_arg8 : W16 m ρ c (Proc.devRef .tc main_arg8) = m ((c : Thread nD τ).loc main_arg8) := (W16_of m ρ c main_arg8 (by decide)).trans (W15_arg8 m ρ c)
theorem W17_arg8 : W17 m ρ c (Proc.devRef .tc main_arg8) = m ((c : Thread nD τ).loc main_arg8) := (W17_of m ρ c main_arg8 (by decide)).trans (W16_arg8 m ρ c)
theorem W18_arg8 : W18 m ρ c (Proc.devRef .tc main_arg8) = m ((c : Thread nD τ).loc main_arg8) := (W18_of m ρ c main_arg8 (by decide)).trans (W17_arg8 m ρ c)
theorem W19_arg8 : W19 m ρ c (Proc.devRef .tc main_arg8) = m ((c : Thread nD τ).loc main_arg8) := (W19_of m ρ c main_arg8 (by decide)).trans (W18_arg8 m ρ c)
theorem W20_arg8 : W20 m ρ c (Proc.devRef .tc main_arg8) = m ((c : Thread nD τ).loc main_arg8) := (W20_of m ρ c main_arg8 (by decide)).trans (W19_arg8 m ρ c)

theorem W0_arg9 : W0 m ρ c (Proc.devRef .tc main_arg9) = m ((c : Thread nD τ).loc main_arg9) := rfl
theorem W1_arg9 : W1 m ρ c (Proc.devRef .tc main_arg9) = m ((c : Thread nD τ).loc main_arg9) := (W1_of m ρ c main_arg9 (by decide)).trans (W0_arg9 m ρ c)
theorem W2_arg9 : W2 m ρ c (Proc.devRef .tc main_arg9) = m ((c : Thread nD τ).loc main_arg9) := (W2_of m ρ c main_arg9 (by decide)).trans (W1_arg9 m ρ c)
theorem W3_arg9 : W3 m ρ c (Proc.devRef .tc main_arg9) = m ((c : Thread nD τ).loc main_arg9) := (W3_of m ρ c main_arg9 (by decide)).trans (W2_arg9 m ρ c)
theorem W4_arg9 : W4 m ρ c (Proc.devRef .tc main_arg9) = m ((c : Thread nD τ).loc main_arg9) := (W4_of m ρ c main_arg9 (by decide)).trans (W3_arg9 m ρ c)
theorem W5_arg9 : W5 m ρ c (Proc.devRef .tc main_arg9) = m ((c : Thread nD τ).loc main_arg9) := (W5_in m ρ c 1 rfl).trans (W4_arg9 m ρ c)
theorem W6_arg9 : W6 m ρ c (Proc.devRef .tc main_arg9) = m ((c : Thread nD τ).loc main_arg9) := (W6_of m ρ c main_arg9 (by decide)).trans (W5_arg9 m ρ c)
theorem W7_arg9 : W7 m ρ c (Proc.devRef .tc main_arg9) = m ((c : Thread nD τ).loc main_arg9) := (W7_of m ρ c main_arg9 (by decide)).trans (W6_arg9 m ρ c)
theorem W8_arg9 : W8 m ρ c (Proc.devRef .tc main_arg9) = m ((c : Thread nD τ).loc main_arg9) := (W8_of m ρ c main_arg9 (by decide)).trans (W7_arg9 m ρ c)
theorem W9_arg9 : W9 m ρ c (Proc.devRef .tc main_arg9) = m ((c : Thread nD τ).loc main_arg9) := (W9_of m ρ c main_arg9 (by decide)).trans (W8_arg9 m ρ c)
theorem W10_arg9 : W10 m ρ c (Proc.devRef .tc main_arg9) = m ((c : Thread nD τ).loc main_arg9) := (W10_of m ρ c main_arg9 (by decide)).trans (W9_arg9 m ρ c)
theorem W11_arg9 : W11 m ρ c (Proc.devRef .tc main_arg9) = m ((c : Thread nD τ).loc main_arg9) := (W11_of m ρ c main_arg9 (by decide)).trans (W10_arg9 m ρ c)
theorem W12_arg9 : W12 m ρ c (Proc.devRef .tc main_arg9) = m ((c : Thread nD τ).loc main_arg9) := (W12_of m ρ c main_arg9 (by decide)).trans (W11_arg9 m ρ c)
theorem W13_arg9 : W13 m ρ c (Proc.devRef .tc main_arg9) = m ((c : Thread nD τ).loc main_arg9) := (W13_of m ρ c main_arg9 (by decide)).trans (W12_arg9 m ρ c)
theorem W14_arg9 : W14 m ρ c (Proc.devRef .tc main_arg9) = m ((c : Thread nD τ).loc main_arg9) := (W14_of m ρ c main_arg9 (by decide)).trans (W13_arg9 m ρ c)
theorem W15_arg9 : W15 m ρ c (Proc.devRef .tc main_arg9) = m ((c : Thread nD τ).loc main_arg9) := (W15_of m ρ c main_arg9 (by decide)).trans (W14_arg9 m ρ c)
theorem W16_arg9 : W16 m ρ c (Proc.devRef .tc main_arg9) = m ((c : Thread nD τ).loc main_arg9) := (W16_of m ρ c main_arg9 (by decide)).trans (W15_arg9 m ρ c)
theorem W17_arg9 : W17 m ρ c (Proc.devRef .tc main_arg9) = m ((c : Thread nD τ).loc main_arg9) := (W17_of m ρ c main_arg9 (by decide)).trans (W16_arg9 m ρ c)
theorem W18_arg9 : W18 m ρ c (Proc.devRef .tc main_arg9) = m ((c : Thread nD τ).loc main_arg9) := (W18_of m ρ c main_arg9 (by decide)).trans (W17_arg9 m ρ c)
theorem W19_arg9 : W19 m ρ c (Proc.devRef .tc main_arg9) = m ((c : Thread nD τ).loc main_arg9) := (W19_of m ρ c main_arg9 (by decide)).trans (W18_arg9 m ρ c)
theorem W20_arg9 : W20 m ρ c (Proc.devRef .tc main_arg9) = m ((c : Thread nD τ).loc main_arg9) := (W20_of m ρ c main_arg9 (by decide)).trans (W19_arg9 m ρ c)

theorem W0_arg10 : W0 m ρ c (Proc.devRef .tc main_arg10) = m ((c : Thread nD τ).loc main_arg10) := rfl
theorem W1_arg10 : W1 m ρ c (Proc.devRef .tc main_arg10) = m ((c : Thread nD τ).loc main_arg10) := (W1_of m ρ c main_arg10 (by decide)).trans (W0_arg10 m ρ c)
theorem W2_arg10 : W2 m ρ c (Proc.devRef .tc main_arg10) = m ((c : Thread nD τ).loc main_arg10) := (W2_of m ρ c main_arg10 (by decide)).trans (W1_arg10 m ρ c)
theorem W3_arg10 : W3 m ρ c (Proc.devRef .tc main_arg10) = m ((c : Thread nD τ).loc main_arg10) := (W3_of m ρ c main_arg10 (by decide)).trans (W2_arg10 m ρ c)
theorem W4_arg10 : W4 m ρ c (Proc.devRef .tc main_arg10) = m ((c : Thread nD τ).loc main_arg10) := (W4_of m ρ c main_arg10 (by decide)).trans (W3_arg10 m ρ c)
theorem W5_arg10 : W5 m ρ c (Proc.devRef .tc main_arg10) = m ((c : Thread nD τ).loc main_arg10) := (W5_in m ρ c 2 rfl).trans (W4_arg10 m ρ c)
theorem W6_arg10 : W6 m ρ c (Proc.devRef .tc main_arg10) = m ((c : Thread nD τ).loc main_arg10) := (W6_of m ρ c main_arg10 (by decide)).trans (W5_arg10 m ρ c)
theorem W7_arg10 : W7 m ρ c (Proc.devRef .tc main_arg10) = m ((c : Thread nD τ).loc main_arg10) := (W7_of m ρ c main_arg10 (by decide)).trans (W6_arg10 m ρ c)
theorem W8_arg10 : W8 m ρ c (Proc.devRef .tc main_arg10) = m ((c : Thread nD τ).loc main_arg10) := (W8_of m ρ c main_arg10 (by decide)).trans (W7_arg10 m ρ c)
theorem W9_arg10 : W9 m ρ c (Proc.devRef .tc main_arg10) = m ((c : Thread nD τ).loc main_arg10) := (W9_of m ρ c main_arg10 (by decide)).trans (W8_arg10 m ρ c)
theorem W10_arg10 : W10 m ρ c (Proc.devRef .tc main_arg10) = m ((c : Thread nD τ).loc main_arg10) := (W10_of m ρ c main_arg10 (by decide)).trans (W9_arg10 m ρ c)
theorem W11_arg10 : W11 m ρ c (Proc.devRef .tc main_arg10) = m ((c : Thread nD τ).loc main_arg10) := (W11_of m ρ c main_arg10 (by decide)).trans (W10_arg10 m ρ c)
theorem W12_arg10 : W12 m ρ c (Proc.devRef .tc main_arg10) = m ((c : Thread nD τ).loc main_arg10) := (W12_of m ρ c main_arg10 (by decide)).trans (W11_arg10 m ρ c)
theorem W13_arg10 : W13 m ρ c (Proc.devRef .tc main_arg10) = m ((c : Thread nD τ).loc main_arg10) := (W13_of m ρ c main_arg10 (by decide)).trans (W12_arg10 m ρ c)
theorem W14_arg10 : W14 m ρ c (Proc.devRef .tc main_arg10) = m ((c : Thread nD τ).loc main_arg10) := (W14_of m ρ c main_arg10 (by decide)).trans (W13_arg10 m ρ c)
theorem W15_arg10 : W15 m ρ c (Proc.devRef .tc main_arg10) = m ((c : Thread nD τ).loc main_arg10) := (W15_of m ρ c main_arg10 (by decide)).trans (W14_arg10 m ρ c)
theorem W16_arg10 : W16 m ρ c (Proc.devRef .tc main_arg10) = m ((c : Thread nD τ).loc main_arg10) := (W16_of m ρ c main_arg10 (by decide)).trans (W15_arg10 m ρ c)
theorem W17_arg10 : W17 m ρ c (Proc.devRef .tc main_arg10) = m ((c : Thread nD τ).loc main_arg10) := (W17_of m ρ c main_arg10 (by decide)).trans (W16_arg10 m ρ c)
theorem W18_arg10 : W18 m ρ c (Proc.devRef .tc main_arg10) = m ((c : Thread nD τ).loc main_arg10) := (W18_of m ρ c main_arg10 (by decide)).trans (W17_arg10 m ρ c)
theorem W19_arg10 : W19 m ρ c (Proc.devRef .tc main_arg10) = m ((c : Thread nD τ).loc main_arg10) := (W19_of m ρ c main_arg10 (by decide)).trans (W18_arg10 m ρ c)
theorem W20_arg10 : W20 m ρ c (Proc.devRef .tc main_arg10) = m ((c : Thread nD τ).loc main_arg10) := (W20_of m ρ c main_arg10 (by decide)).trans (W19_arg10 m ρ c)

theorem W0_arg11 : W0 m ρ c (Proc.devRef .tc main_arg11) = m ((c : Thread nD τ).loc main_arg11) := rfl
theorem W1_arg11 : W1 m ρ c (Proc.devRef .tc main_arg11) = m ((c : Thread nD τ).loc main_arg11) := (W1_of m ρ c main_arg11 (by decide)).trans (W0_arg11 m ρ c)
theorem W2_arg11 : W2 m ρ c (Proc.devRef .tc main_arg11) = m ((c : Thread nD τ).loc main_arg11) := (W2_of m ρ c main_arg11 (by decide)).trans (W1_arg11 m ρ c)
theorem W3_arg11 : W3 m ρ c (Proc.devRef .tc main_arg11) = m ((c : Thread nD τ).loc main_arg11) := (W3_of m ρ c main_arg11 (by decide)).trans (W2_arg11 m ρ c)
theorem W4_arg11 : W4 m ρ c (Proc.devRef .tc main_arg11) = m ((c : Thread nD τ).loc main_arg11) := (W4_of m ρ c main_arg11 (by decide)).trans (W3_arg11 m ρ c)
theorem W5_arg11 : W5 m ρ c (Proc.devRef .tc main_arg11) = m ((c : Thread nD τ).loc main_arg11) := (W5_of m ρ c main_arg11 (by decide)).trans (W4_arg11 m ρ c)
theorem W6_arg11 : W6 m ρ c (Proc.devRef .tc main_arg11) = m ((c : Thread nD τ).loc main_arg11) := (W6_of m ρ c main_arg11 (by decide)).trans (W5_arg11 m ρ c)
theorem W7_arg11 : W7 m ρ c (Proc.devRef .tc main_arg11) = m ((c : Thread nD τ).loc main_arg11) := (W7_of m ρ c main_arg11 (by decide)).trans (W6_arg11 m ρ c)
theorem W8_arg11 : W8 m ρ c (Proc.devRef .tc main_arg11) = m ((c : Thread nD τ).loc main_arg11) := (W8_of m ρ c main_arg11 (by decide)).trans (W7_arg11 m ρ c)
theorem W9_arg11 : W9 m ρ c (Proc.devRef .tc main_arg11) = m ((c : Thread nD τ).loc main_arg11) := (W9_of m ρ c main_arg11 (by decide)).trans (W8_arg11 m ρ c)
theorem W10_arg11 : W10 m ρ c (Proc.devRef .tc main_arg11) = m ((c : Thread nD τ).loc main_arg11) := (W10_of m ρ c main_arg11 (by decide)).trans (W9_arg11 m ρ c)
theorem W11_arg11 : W11 m ρ c (Proc.devRef .tc main_arg11) = m ((c : Thread nD τ).loc main_arg11) := (W11_of m ρ c main_arg11 (by decide)).trans (W10_arg11 m ρ c)
theorem W12_arg11 : W12 m ρ c (Proc.devRef .tc main_arg11) = m ((c : Thread nD τ).loc main_arg11) := (W12_in m ρ c 1 rfl).trans (W11_arg11 m ρ c)
theorem W13_arg11 : W13 m ρ c (Proc.devRef .tc main_arg11) = m ((c : Thread nD τ).loc main_arg11) := (W13_of m ρ c main_arg11 (by decide)).trans (W12_arg11 m ρ c)
theorem W14_arg11 : W14 m ρ c (Proc.devRef .tc main_arg11) = m ((c : Thread nD τ).loc main_arg11) := (W14_of m ρ c main_arg11 (by decide)).trans (W13_arg11 m ρ c)
theorem W15_arg11 : W15 m ρ c (Proc.devRef .tc main_arg11) = m ((c : Thread nD τ).loc main_arg11) := (W15_of m ρ c main_arg11 (by decide)).trans (W14_arg11 m ρ c)
theorem W16_arg11 : W16 m ρ c (Proc.devRef .tc main_arg11) = m ((c : Thread nD τ).loc main_arg11) := (W16_of m ρ c main_arg11 (by decide)).trans (W15_arg11 m ρ c)
theorem W17_arg11 : W17 m ρ c (Proc.devRef .tc main_arg11) = m ((c : Thread nD τ).loc main_arg11) := (W17_of m ρ c main_arg11 (by decide)).trans (W16_arg11 m ρ c)
theorem W18_arg11 : W18 m ρ c (Proc.devRef .tc main_arg11) = m ((c : Thread nD τ).loc main_arg11) := (W18_of m ρ c main_arg11 (by decide)).trans (W17_arg11 m ρ c)
theorem W19_arg11 : W19 m ρ c (Proc.devRef .tc main_arg11) = m ((c : Thread nD τ).loc main_arg11) := (W19_of m ρ c main_arg11 (by decide)).trans (W18_arg11 m ρ c)
theorem W20_arg11 : W20 m ρ c (Proc.devRef .tc main_arg11) = m ((c : Thread nD τ).loc main_arg11) := (W20_of m ρ c main_arg11 (by decide)).trans (W19_arg11 m ρ c)

theorem W0_arg12 : W0 m ρ c (Proc.devRef .tc main_arg12) = m ((c : Thread nD τ).loc main_arg12) := rfl
theorem W1_arg12 : W1 m ρ c (Proc.devRef .tc main_arg12) = m ((c : Thread nD τ).loc main_arg12) := (W1_of m ρ c main_arg12 (by decide)).trans (W0_arg12 m ρ c)
theorem W2_arg12 : W2 m ρ c (Proc.devRef .tc main_arg12) = m ((c : Thread nD τ).loc main_arg12) := (W2_of m ρ c main_arg12 (by decide)).trans (W1_arg12 m ρ c)
theorem W3_arg12 : W3 m ρ c (Proc.devRef .tc main_arg12) = m ((c : Thread nD τ).loc main_arg12) := (W3_of m ρ c main_arg12 (by decide)).trans (W2_arg12 m ρ c)
theorem W4_arg12 : W4 m ρ c (Proc.devRef .tc main_arg12) = m ((c : Thread nD τ).loc main_arg12) := (W4_of m ρ c main_arg12 (by decide)).trans (W3_arg12 m ρ c)
theorem W5_arg12 : W5 m ρ c (Proc.devRef .tc main_arg12) = m ((c : Thread nD τ).loc main_arg12) := (W5_of m ρ c main_arg12 (by decide)).trans (W4_arg12 m ρ c)
theorem W6_arg12 : W6 m ρ c (Proc.devRef .tc main_arg12) = m ((c : Thread nD τ).loc main_arg12) := (W6_of m ρ c main_arg12 (by decide)).trans (W5_arg12 m ρ c)
theorem W7_arg12 : W7 m ρ c (Proc.devRef .tc main_arg12) = m ((c : Thread nD τ).loc main_arg12) := (W7_of m ρ c main_arg12 (by decide)).trans (W6_arg12 m ρ c)
theorem W8_arg12 : W8 m ρ c (Proc.devRef .tc main_arg12) = m ((c : Thread nD τ).loc main_arg12) := (W8_of m ρ c main_arg12 (by decide)).trans (W7_arg12 m ρ c)
theorem W9_arg12 : W9 m ρ c (Proc.devRef .tc main_arg12) = m ((c : Thread nD τ).loc main_arg12) := (W9_of m ρ c main_arg12 (by decide)).trans (W8_arg12 m ρ c)
theorem W10_arg12 : W10 m ρ c (Proc.devRef .tc main_arg12) = m ((c : Thread nD τ).loc main_arg12) := (W10_of m ρ c main_arg12 (by decide)).trans (W9_arg12 m ρ c)
theorem W11_arg12 : W11 m ρ c (Proc.devRef .tc main_arg12) = m ((c : Thread nD τ).loc main_arg12) := (W11_of m ρ c main_arg12 (by decide)).trans (W10_arg12 m ρ c)
theorem W12_arg12 : W12 m ρ c (Proc.devRef .tc main_arg12) = m ((c : Thread nD τ).loc main_arg12) := (W12_in m ρ c 2 rfl).trans (W11_arg12 m ρ c)
theorem W13_arg12 : W13 m ρ c (Proc.devRef .tc main_arg12) = m ((c : Thread nD τ).loc main_arg12) := (W13_of m ρ c main_arg12 (by decide)).trans (W12_arg12 m ρ c)
theorem W14_arg12 : W14 m ρ c (Proc.devRef .tc main_arg12) = m ((c : Thread nD τ).loc main_arg12) := (W14_of m ρ c main_arg12 (by decide)).trans (W13_arg12 m ρ c)
theorem W15_arg12 : W15 m ρ c (Proc.devRef .tc main_arg12) = m ((c : Thread nD τ).loc main_arg12) := (W15_of m ρ c main_arg12 (by decide)).trans (W14_arg12 m ρ c)
theorem W16_arg12 : W16 m ρ c (Proc.devRef .tc main_arg12) = m ((c : Thread nD τ).loc main_arg12) := (W16_of m ρ c main_arg12 (by decide)).trans (W15_arg12 m ρ c)
theorem W17_arg12 : W17 m ρ c (Proc.devRef .tc main_arg12) = m ((c : Thread nD τ).loc main_arg12) := (W17_of m ρ c main_arg12 (by decide)).trans (W16_arg12 m ρ c)
theorem W18_arg12 : W18 m ρ c (Proc.devRef .tc main_arg12) = m ((c : Thread nD τ).loc main_arg12) := (W18_of m ρ c main_arg12 (by decide)).trans (W17_arg12 m ρ c)
theorem W19_arg12 : W19 m ρ c (Proc.devRef .tc main_arg12) = m ((c : Thread nD τ).loc main_arg12) := (W19_of m ρ c main_arg12 (by decide)).trans (W18_arg12 m ρ c)
theorem W20_arg12 : W20 m ρ c (Proc.devRef .tc main_arg12) = m ((c : Thread nD τ).loc main_arg12) := (W20_of m ρ c main_arg12 (by decide)).trans (W19_arg12 m ρ c)

theorem W0_arg13 : W0 m ρ c (Proc.devRef .tc main_arg13) = m ((c : Thread nD τ).loc main_arg13) := rfl
theorem W1_arg13 : W1 m ρ c (Proc.devRef .tc main_arg13) = m ((c : Thread nD τ).loc main_arg13) := (W1_of m ρ c main_arg13 (by decide)).trans (W0_arg13 m ρ c)
theorem W2_arg13 : W2 m ρ c (Proc.devRef .tc main_arg13) = m ((c : Thread nD τ).loc main_arg13) := (W2_of m ρ c main_arg13 (by decide)).trans (W1_arg13 m ρ c)
theorem W3_arg13 : W3 m ρ c (Proc.devRef .tc main_arg13) = m ((c : Thread nD τ).loc main_arg13) := (W3_of m ρ c main_arg13 (by decide)).trans (W2_arg13 m ρ c)
theorem W4_arg13 : W4 m ρ c (Proc.devRef .tc main_arg13) = m ((c : Thread nD τ).loc main_arg13) := (W4_of m ρ c main_arg13 (by decide)).trans (W3_arg13 m ρ c)
theorem W5_arg13 : W5 m ρ c (Proc.devRef .tc main_arg13) = m ((c : Thread nD τ).loc main_arg13) := (W5_of m ρ c main_arg13 (by decide)).trans (W4_arg13 m ρ c)
theorem W6_arg13 : W6 m ρ c (Proc.devRef .tc main_arg13) = m ((c : Thread nD τ).loc main_arg13) := (W6_of m ρ c main_arg13 (by decide)).trans (W5_arg13 m ρ c)
theorem W7_arg13 : W7 m ρ c (Proc.devRef .tc main_arg13) = m ((c : Thread nD τ).loc main_arg13) := (W7_of m ρ c main_arg13 (by decide)).trans (W6_arg13 m ρ c)
theorem W8_arg13 : W8 m ρ c (Proc.devRef .tc main_arg13) = m ((c : Thread nD τ).loc main_arg13) := (W8_of m ρ c main_arg13 (by decide)).trans (W7_arg13 m ρ c)
theorem W9_arg13 : W9 m ρ c (Proc.devRef .tc main_arg13) = m ((c : Thread nD τ).loc main_arg13) := (W9_of m ρ c main_arg13 (by decide)).trans (W8_arg13 m ρ c)
theorem W10_arg13 : W10 m ρ c (Proc.devRef .tc main_arg13) = m ((c : Thread nD τ).loc main_arg13) := (W10_of m ρ c main_arg13 (by decide)).trans (W9_arg13 m ρ c)
theorem W11_arg13 : W11 m ρ c (Proc.devRef .tc main_arg13) = m ((c : Thread nD τ).loc main_arg13) := (W11_of m ρ c main_arg13 (by decide)).trans (W10_arg13 m ρ c)
theorem W12_arg13 : W12 m ρ c (Proc.devRef .tc main_arg13) = m ((c : Thread nD τ).loc main_arg13) := (W12_of m ρ c main_arg13 (by decide)).trans (W11_arg13 m ρ c)
theorem W13_arg13 : W13 m ρ c (Proc.devRef .tc main_arg13) = m ((c : Thread nD τ).loc main_arg13) := (W13_of m ρ c main_arg13 (by decide)).trans (W12_arg13 m ρ c)
theorem W14_arg13 : W14 m ρ c (Proc.devRef .tc main_arg13) = m ((c : Thread nD τ).loc main_arg13) := (W14_of m ρ c main_arg13 (by decide)).trans (W13_arg13 m ρ c)
theorem W15_arg13 : W15 m ρ c (Proc.devRef .tc main_arg13) = m ((c : Thread nD τ).loc main_arg13) := (W15_of m ρ c main_arg13 (by decide)).trans (W14_arg13 m ρ c)
theorem W16_arg13 : W16 m ρ c (Proc.devRef .tc main_arg13) = m ((c : Thread nD τ).loc main_arg13) := (W16_of m ρ c main_arg13 (by decide)).trans (W15_arg13 m ρ c)
theorem W17_arg13 : W17 m ρ c (Proc.devRef .tc main_arg13) = m ((c : Thread nD τ).loc main_arg13) := (W17_of m ρ c main_arg13 (by decide)).trans (W16_arg13 m ρ c)
theorem W18_arg13 : W18 m ρ c (Proc.devRef .tc main_arg13) = m ((c : Thread nD τ).loc main_arg13) := (W18_of m ρ c main_arg13 (by decide)).trans (W17_arg13 m ρ c)
theorem W19_arg13 : W19 m ρ c (Proc.devRef .tc main_arg13) = m ((c : Thread nD τ).loc main_arg13) := (W19_of m ρ c main_arg13 (by decide)).trans (W18_arg13 m ρ c)
theorem W20_arg13 : W20 m ρ c (Proc.devRef .tc main_arg13) = m ((c : Thread nD τ).loc main_arg13) := (W20_of m ρ c main_arg13 (by decide)).trans (W19_arg13 m ρ c)

theorem W0_arg14 : W0 m ρ c (Proc.devRef .tc main_arg14) = m ((c : Thread nD τ).loc main_arg14) := rfl
theorem W1_arg14 : W1 m ρ c (Proc.devRef .tc main_arg14) = m ((c : Thread nD τ).loc main_arg14) := (W1_of m ρ c main_arg14 (by decide)).trans (W0_arg14 m ρ c)
theorem W2_arg14 : W2 m ρ c (Proc.devRef .tc main_arg14) = m ((c : Thread nD τ).loc main_arg14) := (W2_of m ρ c main_arg14 (by decide)).trans (W1_arg14 m ρ c)
theorem W3_arg14 : W3 m ρ c (Proc.devRef .tc main_arg14) = m ((c : Thread nD τ).loc main_arg14) := (W3_of m ρ c main_arg14 (by decide)).trans (W2_arg14 m ρ c)
theorem W4_arg14 : W4 m ρ c (Proc.devRef .tc main_arg14) = m ((c : Thread nD τ).loc main_arg14) := (W4_of m ρ c main_arg14 (by decide)).trans (W3_arg14 m ρ c)
theorem W5_arg14 : W5 m ρ c (Proc.devRef .tc main_arg14) = m ((c : Thread nD τ).loc main_arg14) := (W5_of m ρ c main_arg14 (by decide)).trans (W4_arg14 m ρ c)
theorem W6_arg14 : W6 m ρ c (Proc.devRef .tc main_arg14) = m ((c : Thread nD τ).loc main_arg14) := (W6_of m ρ c main_arg14 (by decide)).trans (W5_arg14 m ρ c)
theorem W7_arg14 : W7 m ρ c (Proc.devRef .tc main_arg14) = m ((c : Thread nD τ).loc main_arg14) := (W7_of m ρ c main_arg14 (by decide)).trans (W6_arg14 m ρ c)
theorem W8_arg14 : W8 m ρ c (Proc.devRef .tc main_arg14) = m ((c : Thread nD τ).loc main_arg14) := (W8_of m ρ c main_arg14 (by decide)).trans (W7_arg14 m ρ c)
theorem W9_arg14 : W9 m ρ c (Proc.devRef .tc main_arg14) = m ((c : Thread nD τ).loc main_arg14) := (W9_of m ρ c main_arg14 (by decide)).trans (W8_arg14 m ρ c)
theorem W10_arg14 : W10 m ρ c (Proc.devRef .tc main_arg14) = m ((c : Thread nD τ).loc main_arg14) := (W10_of m ρ c main_arg14 (by decide)).trans (W9_arg14 m ρ c)
theorem W11_arg14 : W11 m ρ c (Proc.devRef .tc main_arg14) = m ((c : Thread nD τ).loc main_arg14) := (W11_of m ρ c main_arg14 (by decide)).trans (W10_arg14 m ρ c)
theorem W12_arg14 : W12 m ρ c (Proc.devRef .tc main_arg14) = m ((c : Thread nD τ).loc main_arg14) := (W12_of m ρ c main_arg14 (by decide)).trans (W11_arg14 m ρ c)
theorem W13_arg14 : W13 m ρ c (Proc.devRef .tc main_arg14) = m ((c : Thread nD τ).loc main_arg14) := (W13_of m ρ c main_arg14 (by decide)).trans (W12_arg14 m ρ c)
theorem W14_arg14 : W14 m ρ c (Proc.devRef .tc main_arg14) = m ((c : Thread nD τ).loc main_arg14) := (W14_of m ρ c main_arg14 (by decide)).trans (W13_arg14 m ρ c)
theorem W15_arg14 : W15 m ρ c (Proc.devRef .tc main_arg14) = m ((c : Thread nD τ).loc main_arg14) := (W15_of m ρ c main_arg14 (by decide)).trans (W14_arg14 m ρ c)
theorem W16_arg14 : W16 m ρ c (Proc.devRef .tc main_arg14) = m ((c : Thread nD τ).loc main_arg14) := (W16_of m ρ c main_arg14 (by decide)).trans (W15_arg14 m ρ c)
theorem W17_arg14 : W17 m ρ c (Proc.devRef .tc main_arg14) = m ((c : Thread nD τ).loc main_arg14) := (W17_of m ρ c main_arg14 (by decide)).trans (W16_arg14 m ρ c)
theorem W18_arg14 : W18 m ρ c (Proc.devRef .tc main_arg14) = m ((c : Thread nD τ).loc main_arg14) := (W18_of m ρ c main_arg14 (by decide)).trans (W17_arg14 m ρ c)
theorem W19_arg14 : W19 m ρ c (Proc.devRef .tc main_arg14) = m ((c : Thread nD τ).loc main_arg14) := (W19_of m ρ c main_arg14 (by decide)).trans (W18_arg14 m ρ c)
theorem W20_arg14 : W20 m ρ c (Proc.devRef .tc main_arg14) = m ((c : Thread nD τ).loc main_arg14) := (W20_of m ρ c main_arg14 (by decide)).trans (W19_arg14 m ρ c)

theorem W0_arg15 : W0 m ρ c (Proc.devRef .tc main_arg15) = m ((c : Thread nD τ).loc main_arg15) := rfl
theorem W1_arg15 : W1 m ρ c (Proc.devRef .tc main_arg15) = m ((c : Thread nD τ).loc main_arg15) := (W1_of m ρ c main_arg15 (by decide)).trans (W0_arg15 m ρ c)
theorem W2_arg15 : W2 m ρ c (Proc.devRef .tc main_arg15) = m ((c : Thread nD τ).loc main_arg15) := (W2_of m ρ c main_arg15 (by decide)).trans (W1_arg15 m ρ c)
theorem W3_arg15 : W3 m ρ c (Proc.devRef .tc main_arg15) = m ((c : Thread nD τ).loc main_arg15) := (W3_of m ρ c main_arg15 (by decide)).trans (W2_arg15 m ρ c)
theorem W4_arg15 : W4 m ρ c (Proc.devRef .tc main_arg15) = m ((c : Thread nD τ).loc main_arg15) := (W4_of m ρ c main_arg15 (by decide)).trans (W3_arg15 m ρ c)
theorem W5_arg15 : W5 m ρ c (Proc.devRef .tc main_arg15) = m ((c : Thread nD τ).loc main_arg15) := (W5_of m ρ c main_arg15 (by decide)).trans (W4_arg15 m ρ c)
theorem W6_arg15 : W6 m ρ c (Proc.devRef .tc main_arg15) = m ((c : Thread nD τ).loc main_arg15) := (W6_of m ρ c main_arg15 (by decide)).trans (W5_arg15 m ρ c)
theorem W7_arg15 : W7 m ρ c (Proc.devRef .tc main_arg15) = m ((c : Thread nD τ).loc main_arg15) := (W7_of m ρ c main_arg15 (by decide)).trans (W6_arg15 m ρ c)
theorem W8_arg15 : W8 m ρ c (Proc.devRef .tc main_arg15) = m ((c : Thread nD τ).loc main_arg15) := (W8_of m ρ c main_arg15 (by decide)).trans (W7_arg15 m ρ c)
theorem W9_arg15 : W9 m ρ c (Proc.devRef .tc main_arg15) = m ((c : Thread nD τ).loc main_arg15) := (W9_of m ρ c main_arg15 (by decide)).trans (W8_arg15 m ρ c)
theorem W10_arg15 : W10 m ρ c (Proc.devRef .tc main_arg15) = m ((c : Thread nD τ).loc main_arg15) := (W10_of m ρ c main_arg15 (by decide)).trans (W9_arg15 m ρ c)
theorem W11_arg15 : W11 m ρ c (Proc.devRef .tc main_arg15) = m ((c : Thread nD τ).loc main_arg15) := (W11_of m ρ c main_arg15 (by decide)).trans (W10_arg15 m ρ c)
theorem W12_arg15 : W12 m ρ c (Proc.devRef .tc main_arg15) = m ((c : Thread nD τ).loc main_arg15) := (W12_of m ρ c main_arg15 (by decide)).trans (W11_arg15 m ρ c)
theorem W13_arg15 : W13 m ρ c (Proc.devRef .tc main_arg15) = m ((c : Thread nD τ).loc main_arg15) := (W13_of m ρ c main_arg15 (by decide)).trans (W12_arg15 m ρ c)
theorem W14_arg15 : W14 m ρ c (Proc.devRef .tc main_arg15) = m ((c : Thread nD τ).loc main_arg15) := (W14_of m ρ c main_arg15 (by decide)).trans (W13_arg15 m ρ c)
theorem W15_arg15 : W15 m ρ c (Proc.devRef .tc main_arg15) = m ((c : Thread nD τ).loc main_arg15) := (W15_of m ρ c main_arg15 (by decide)).trans (W14_arg15 m ρ c)
theorem W16_arg15 : W16 m ρ c (Proc.devRef .tc main_arg15) = m ((c : Thread nD τ).loc main_arg15) := (W16_of m ρ c main_arg15 (by decide)).trans (W15_arg15 m ρ c)
theorem W17_arg15 : W17 m ρ c (Proc.devRef .tc main_arg15) = m ((c : Thread nD τ).loc main_arg15) := (W17_of m ρ c main_arg15 (by decide)).trans (W16_arg15 m ρ c)
theorem W18_arg15 : W18 m ρ c (Proc.devRef .tc main_arg15) = m ((c : Thread nD τ).loc main_arg15) := (W18_of m ρ c main_arg15 (by decide)).trans (W17_arg15 m ρ c)
theorem W19_arg15 : W19 m ρ c (Proc.devRef .tc main_arg15) = m ((c : Thread nD τ).loc main_arg15) := (W19_of m ρ c main_arg15 (by decide)).trans (W18_arg15 m ρ c)
theorem W20_arg15 : W20 m ρ c (Proc.devRef .tc main_arg15) = m ((c : Thread nD τ).loc main_arg15) := (W20_of m ρ c main_arg15 (by decide)).trans (W19_arg15 m ρ c)

theorem W0_arg16 : W0 m ρ c (Proc.devRef .tc main_arg16) = m ((c : Thread nD τ).loc main_arg16) := rfl
theorem W1_arg16 : W1 m ρ c (Proc.devRef .tc main_arg16) = m ((c : Thread nD τ).loc main_arg16) := (W1_of m ρ c main_arg16 (by decide)).trans (W0_arg16 m ρ c)
theorem W2_arg16 : W2 m ρ c (Proc.devRef .tc main_arg16) = m ((c : Thread nD τ).loc main_arg16) := (W2_of m ρ c main_arg16 (by decide)).trans (W1_arg16 m ρ c)
theorem W3_arg16 : W3 m ρ c (Proc.devRef .tc main_arg16) = m ((c : Thread nD τ).loc main_arg16) := (W3_of m ρ c main_arg16 (by decide)).trans (W2_arg16 m ρ c)
theorem W4_arg16 : W4 m ρ c (Proc.devRef .tc main_arg16) = m ((c : Thread nD τ).loc main_arg16) := (W4_of m ρ c main_arg16 (by decide)).trans (W3_arg16 m ρ c)
theorem W5_arg16 : W5 m ρ c (Proc.devRef .tc main_arg16) = m ((c : Thread nD τ).loc main_arg16) := (W5_of m ρ c main_arg16 (by decide)).trans (W4_arg16 m ρ c)
theorem W6_arg16 : W6 m ρ c (Proc.devRef .tc main_arg16) = m ((c : Thread nD τ).loc main_arg16) := (W6_of m ρ c main_arg16 (by decide)).trans (W5_arg16 m ρ c)
theorem W7_arg16 : W7 m ρ c (Proc.devRef .tc main_arg16) = m ((c : Thread nD τ).loc main_arg16) := (W7_of m ρ c main_arg16 (by decide)).trans (W6_arg16 m ρ c)
theorem W8_arg16 : W8 m ρ c (Proc.devRef .tc main_arg16) = m ((c : Thread nD τ).loc main_arg16) := (W8_of m ρ c main_arg16 (by decide)).trans (W7_arg16 m ρ c)
theorem W9_arg16 : W9 m ρ c (Proc.devRef .tc main_arg16) = m ((c : Thread nD τ).loc main_arg16) := (W9_of m ρ c main_arg16 (by decide)).trans (W8_arg16 m ρ c)
theorem W10_arg16 : W10 m ρ c (Proc.devRef .tc main_arg16) = m ((c : Thread nD τ).loc main_arg16) := (W10_of m ρ c main_arg16 (by decide)).trans (W9_arg16 m ρ c)
theorem W11_arg16 : W11 m ρ c (Proc.devRef .tc main_arg16) = m ((c : Thread nD τ).loc main_arg16) := (W11_of m ρ c main_arg16 (by decide)).trans (W10_arg16 m ρ c)
theorem W12_arg16 : W12 m ρ c (Proc.devRef .tc main_arg16) = m ((c : Thread nD τ).loc main_arg16) := (W12_of m ρ c main_arg16 (by decide)).trans (W11_arg16 m ρ c)
theorem W13_arg16 : W13 m ρ c (Proc.devRef .tc main_arg16) = m ((c : Thread nD τ).loc main_arg16) := (W13_of m ρ c main_arg16 (by decide)).trans (W12_arg16 m ρ c)
theorem W14_arg16 : W14 m ρ c (Proc.devRef .tc main_arg16) = m ((c : Thread nD τ).loc main_arg16) := (W14_of m ρ c main_arg16 (by decide)).trans (W13_arg16 m ρ c)
theorem W15_arg16 : W15 m ρ c (Proc.devRef .tc main_arg16) = m ((c : Thread nD τ).loc main_arg16) := (W15_of m ρ c main_arg16 (by decide)).trans (W14_arg16 m ρ c)
theorem W16_arg16 : W16 m ρ c (Proc.devRef .tc main_arg16) = m ((c : Thread nD τ).loc main_arg16) := (W16_of m ρ c main_arg16 (by decide)).trans (W15_arg16 m ρ c)
theorem W17_arg16 : W17 m ρ c (Proc.devRef .tc main_arg16) = m ((c : Thread nD τ).loc main_arg16) := (W17_of m ρ c main_arg16 (by decide)).trans (W16_arg16 m ρ c)
theorem W18_arg16 : W18 m ρ c (Proc.devRef .tc main_arg16) = m ((c : Thread nD τ).loc main_arg16) := (W18_of m ρ c main_arg16 (by decide)).trans (W17_arg16 m ρ c)
theorem W19_arg16 : W19 m ρ c (Proc.devRef .tc main_arg16) = m ((c : Thread nD τ).loc main_arg16) := (W19_of m ρ c main_arg16 (by decide)).trans (W18_arg16 m ρ c)
theorem W20_arg16 : W20 m ρ c (Proc.devRef .tc main_arg16) = m ((c : Thread nD τ).loc main_arg16) := (W20_of m ρ c main_arg16 (by decide)).trans (W19_arg16 m ρ c)

theorem W0_arg17 : W0 m ρ c (Proc.devRef .tc main_arg17) = m ((c : Thread nD τ).loc main_arg17) := rfl
theorem W1_arg17 : W1 m ρ c (Proc.devRef .tc main_arg17) = m ((c : Thread nD τ).loc main_arg17) := (W1_of m ρ c main_arg17 (by decide)).trans (W0_arg17 m ρ c)
theorem W2_arg17 : W2 m ρ c (Proc.devRef .tc main_arg17) = m ((c : Thread nD τ).loc main_arg17) := (W2_of m ρ c main_arg17 (by decide)).trans (W1_arg17 m ρ c)
theorem W3_arg17 : W3 m ρ c (Proc.devRef .tc main_arg17) = m ((c : Thread nD τ).loc main_arg17) := (W3_of m ρ c main_arg17 (by decide)).trans (W2_arg17 m ρ c)
theorem W4_arg17 : W4 m ρ c (Proc.devRef .tc main_arg17) = m ((c : Thread nD τ).loc main_arg17) := (W4_of m ρ c main_arg17 (by decide)).trans (W3_arg17 m ρ c)
theorem W5_arg17 : W5 m ρ c (Proc.devRef .tc main_arg17) = m ((c : Thread nD τ).loc main_arg17) := (W5_of m ρ c main_arg17 (by decide)).trans (W4_arg17 m ρ c)
theorem W6_arg17 : W6 m ρ c (Proc.devRef .tc main_arg17) = m ((c : Thread nD τ).loc main_arg17) := (W6_of m ρ c main_arg17 (by decide)).trans (W5_arg17 m ρ c)
theorem W7_arg17 : W7 m ρ c (Proc.devRef .tc main_arg17) = m ((c : Thread nD τ).loc main_arg17) := (W7_of m ρ c main_arg17 (by decide)).trans (W6_arg17 m ρ c)
theorem W8_arg17 : W8 m ρ c (Proc.devRef .tc main_arg17) = m ((c : Thread nD τ).loc main_arg17) := (W8_of m ρ c main_arg17 (by decide)).trans (W7_arg17 m ρ c)
theorem W9_arg17 : W9 m ρ c (Proc.devRef .tc main_arg17) = m ((c : Thread nD τ).loc main_arg17) := (W9_of m ρ c main_arg17 (by decide)).trans (W8_arg17 m ρ c)
theorem W10_arg17 : W10 m ρ c (Proc.devRef .tc main_arg17) = m ((c : Thread nD τ).loc main_arg17) := (W10_of m ρ c main_arg17 (by decide)).trans (W9_arg17 m ρ c)
theorem W11_arg17 : W11 m ρ c (Proc.devRef .tc main_arg17) = m ((c : Thread nD τ).loc main_arg17) := (W11_of m ρ c main_arg17 (by decide)).trans (W10_arg17 m ρ c)
theorem W12_arg17 : W12 m ρ c (Proc.devRef .tc main_arg17) = m ((c : Thread nD τ).loc main_arg17) := (W12_of m ρ c main_arg17 (by decide)).trans (W11_arg17 m ρ c)
theorem W13_arg17 : W13 m ρ c (Proc.devRef .tc main_arg17) = m ((c : Thread nD τ).loc main_arg17) := (W13_of m ρ c main_arg17 (by decide)).trans (W12_arg17 m ρ c)
theorem W14_arg17 : W14 m ρ c (Proc.devRef .tc main_arg17) = m ((c : Thread nD τ).loc main_arg17) := (W14_of m ρ c main_arg17 (by decide)).trans (W13_arg17 m ρ c)
theorem W15_arg17 : W15 m ρ c (Proc.devRef .tc main_arg17) = m ((c : Thread nD τ).loc main_arg17) := (W15_of m ρ c main_arg17 (by decide)).trans (W14_arg17 m ρ c)
theorem W16_arg17 : W16 m ρ c (Proc.devRef .tc main_arg17) = m ((c : Thread nD τ).loc main_arg17) := (W16_of m ρ c main_arg17 (by decide)).trans (W15_arg17 m ρ c)
theorem W17_arg17 : W17 m ρ c (Proc.devRef .tc main_arg17) = m ((c : Thread nD τ).loc main_arg17) := (W17_of m ρ c main_arg17 (by decide)).trans (W16_arg17 m ρ c)
theorem W18_arg17 : W18 m ρ c (Proc.devRef .tc main_arg17) = m ((c : Thread nD τ).loc main_arg17) := (W18_of m ρ c main_arg17 (by decide)).trans (W17_arg17 m ρ c)
theorem W19_arg17 : W19 m ρ c (Proc.devRef .tc main_arg17) = m ((c : Thread nD τ).loc main_arg17) := (W19_of m ρ c main_arg17 (by decide)).trans (W18_arg17 m ρ c)
theorem W20_arg17 : W20 m ρ c (Proc.devRef .tc main_arg17) = m ((c : Thread nD τ).loc main_arg17) := (W20_of m ρ c main_arg17 (by decide)).trans (W19_arg17 m ρ c)

/-! ## (C) A region's output, and the hyperedge aggregate, where a later region reads them -/

/-- The first encoder's output is still in its buffer when region 1 has run. -/
theorem W12_v66 : W12 m ρ c (Proc.devRef .tc main_v66) = W5 m ρ c (Proc.devRef .tc main_v66) :=
  (W12_of m ρ c main_v66 (by decide)).trans <| (W11_of m ρ c main_v66 (by decide)).trans <| (W10_of m ρ c main_v66 (by decide)).trans <| (W9_of m ρ c main_v66 (by decide)).trans <| (W8_of m ρ c main_v66 (by decide)).trans <| (W7_of m ρ c main_v66 (by decide)).trans <| (W6_of m ρ c main_v66 (by decide))
/-- … and when region 2 is entered. -/
theorem W14_v66 : W14 m ρ c (Proc.devRef .tc main_v66) = W5 m ρ c (Proc.devRef .tc main_v66) :=
  (W14_of m ρ c main_v66 (by decide)).trans <| (W13_of m ρ c main_v66 (by decide)).trans <| (W12_of m ρ c main_v66 (by decide)).trans <| (W11_of m ρ c main_v66 (by decide)).trans <| (W10_of m ρ c main_v66 (by decide)).trans <| (W9_of m ρ c main_v66 (by decide)).trans <| (W8_of m ρ c main_v66 (by decide)).trans <| (W7_of m ρ c main_v66 (by decide)).trans <| (W6_of m ρ c main_v66 (by decide))
/-- The first combine layer's output is still in its buffer when region 3 is entered. -/
theorem W17_v173 : W17 m ρ c (Proc.devRef .tc main_v173) = W15 m ρ c (Proc.devRef .tc main_v173) :=
  (W17_of m ρ c main_v173 (by decide)).trans <| (W16_of m ρ c main_v173 (by decide))
/-- Region 2 reads the third aggregate and leaves it. -/
theorem W15_v120 : W15 m ρ c (Proc.devRef .tc main_v120) = W14 m ρ c (Proc.devRef .tc main_v120) :=
  (W15_in m ρ c 2 rfl)
/-- … and it is still there when region 3 is entered. -/
theorem W17_v120 : W17 m ρ c (Proc.devRef .tc main_v120) = W14 m ρ c (Proc.devRef .tc main_v120) :=
  (W17_of m ρ c main_v120 (by decide)).trans <| (W16_of m ρ c main_v120 (by decide)).trans <| (W15_in m ρ c 2 rfl)

/-! ## (B) The layer weights the host operations cut -/

/-- Layer 0's neighbour weights, as region 2 finds them: layer 0's slab of the stacked argument. -/
theorem kWl0 : (W14 m ρ c (Proc.devRef .tc main_v168) : S3x128x128.Idx → EReal)
    = slab4 0 (W12 m ρ c (Proc.devRef .tc main_arg13) : S2x3x128x128.Idx → EReal) := by
  show StableHlo.after main_part3_ops0 (StableHlo.after main_part2_ops1 (W12 m ρ c)) _ = _
  generalize W12 m ρ c = V
  after_results_simp
  exact kerW_0 _ _ _
/-- Layer 0's biases. -/
theorem kbb0 : (W14 m ρ c (Proc.devRef .tc main_v170) : S3x128.Idx → EReal)
    = slab3 0 (W12 m ρ c (Proc.devRef .tc main_arg14) : S2x3x128.Idx → EReal) := by
  show StableHlo.after main_part3_ops0 (StableHlo.after main_part2_ops1 (W12 m ρ c)) _ = _
  generalize W12 m ρ c = V
  after_results_simp
  exact kerB_0 _ _ _
/-- Layer 0's root weights. -/
theorem kWr0 : (W14 m ρ c (Proc.devRef .tc main_v172) : S3x128x128.Idx → EReal)
    = slab4 0 (W12 m ρ c (Proc.devRef .tc main_arg15) : S2x3x128x128.Idx → EReal) := by
  show StableHlo.after main_part3_ops0 (StableHlo.after main_part2_ops1 (W12 m ρ c)) _ = _
  generalize W12 m ρ c = V
  after_results_simp
  exact kerW_0 _ _ _
/-- Layer 1's neighbour weights, as region 3 finds them: layer 1's slab of the stacked argument. -/
theorem kWl1 : (W17 m ρ c (Proc.devRef .tc main_v221) : S3x128x128.Idx → EReal)
    = slab4 1 (W15 m ρ c (Proc.devRef .tc main_arg13) : S2x3x128x128.Idx → EReal) := by
  show StableHlo.after main_part4_ops0 (StableHlo.after main_part3_ops1 (W15 m ρ c)) _ = _
  generalize W15 m ρ c = V
  after_results_simp
  exact kerW_1 _ _ _
/-- Layer 1's biases. -/
theorem kbb1 : (W17 m ρ c (Proc.devRef .tc main_v223) : S3x128.Idx → EReal)
    = slab3 1 (W15 m ρ c (Proc.devRef .tc main_arg14) : S2x3x128.Idx → EReal) := by
  show StableHlo.after main_part4_ops0 (StableHlo.after main_part3_ops1 (W15 m ρ c)) _ = _
  generalize W15 m ρ c = V
  after_results_simp
  exact kerB_1 _ _ _
/-- Layer 1's root weights. -/
theorem kWr1 : (W17 m ρ c (Proc.devRef .tc main_v225) : S3x128x128.Idx → EReal)
    = slab4 1 (W15 m ρ c (Proc.devRef .tc main_arg15) : S2x3x128x128.Idx → EReal) := by
  show StableHlo.after main_part4_ops0 (StableHlo.after main_part3_ops1 (W15 m ρ c)) _ = _
  generalize W15 m ρ c = V
  after_results_simp
  exact kerW_1 _ _ _

/-! ## (A) What the encoder regions leave in their output arrays -/

/-- Region 0's output array at its exit: the rows of the feature array it was entered with through the weight, plus
    the bias. -/
theorem kp0 : (W5 m ρ c (Proc.devRef .tc main_v66) : S200000x128.Idx → EReal)
    = linRows (W4 m ρ c (Proc.devRef .tc main_v65) : S200000x85.Idx → EReal)
        (W4 m ρ c (Proc.devRef .tc main_arg9) : S128x85.Idx → EReal)
        (W4 m ρ c (Proc.devRef .tc main_arg10) : S128.Idx → EReal) :=
  (W5_arr m ρ c 3).trans (Cert.Bridge.Final01.final0 (V4 m ρ) c)

/-- Region 1's output array at its exit, likewise. -/
theorem khist : (W12 m ρ c (Proc.devRef .tc main_v97) : S500000x128.Idx → EReal)
    = linRows (W11 m ρ c (Proc.devRef .tc main_v96) : S500000x26.Idx → EReal)
        (W11 m ρ c (Proc.devRef .tc main_arg11) : S128x26.Idx → EReal)
        (W11 m ρ c (Proc.devRef .tc main_arg12) : S128.Idx → EReal) :=
  (W12_arr m ρ c 3).trans (Cert.Bridge.Final01.final1 (V11 m ρ) c)

/-! ## (A) What the combine regions leave in their output arrays -/

/-- Region 2's output array at its exit: one combine layer of the three aggregates, the node features and the
    layer's weights it was entered with. -/
theorem kp1 : (W15 m ρ c (Proc.devRef .tc main_v173) : S200000x128.Idx → EReal)
    = sageRows (W14 m ρ c (Proc.devRef .tc main_v143) : S200000x128.Idx → EReal)
        (W14 m ρ c (Proc.devRef .tc main_v166) : S200000x128.Idx → EReal)
        (W14 m ρ c (Proc.devRef .tc main_v120) : S200000x128.Idx → EReal)
        (W14 m ρ c (Proc.devRef .tc main_v66) : S200000x128.Idx → EReal)
        (W14 m ρ c (Proc.devRef .tc main_v168) : S3x128x128.Idx → EReal)
        (W14 m ρ c (Proc.devRef .tc main_v172) : S3x128x128.Idx → EReal)
        (W14 m ρ c (Proc.devRef .tc main_v170) : S3x128.Idx → EReal) :=
  (W15_arr m ρ c 7).trans (Cert.Bridge.Final23.final2 (V14 m ρ) c)

/-- Region 3's output array at its exit, likewise. -/
theorem kp2 : (W18 m ρ c (Proc.devRef .tc main_v226) : S200000x128.Idx → EReal)
    = sageRows (W17 m ρ c (Proc.devRef .tc main_v196) : S200000x128.Idx → EReal)
        (W17 m ρ c (Proc.devRef .tc main_v219) : S200000x128.Idx → EReal)
        (W17 m ρ c (Proc.devRef .tc main_v120) : S200000x128.Idx → EReal)
        (W17 m ρ c (Proc.devRef .tc main_v173) : S200000x128.Idx → EReal)
        (W17 m ρ c (Proc.devRef .tc main_v221) : S3x128x128.Idx → EReal)
        (W17 m ρ c (Proc.devRef .tc main_v225) : S3x128x128.Idx → EReal)
        (W17 m ρ c (Proc.devRef .tc main_v223) : S3x128.Idx → EReal) :=
  (W18_arr m ρ c 7).trans (Cert.Bridge.Final23.final3 (V17 m ρ) c)

end Cert.Bridge.KSide

end
-- ==== Proof.Ref.Stage0.lean ====
/- Stage 0 of the reference's @main: its operations 1 … 122 of 471 (calls written as the callee's operations over the
   call's buffers), ending with the one that writes `main_v72`. The same operations as the windows', cut where a
   value is complete instead of every sixty statements. Each writes one buffer of the list `stage0_W` (`stage0_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 0's 122 operations, in order. -/
abbrev stage0 : List (HloOp τ sig (Elt F)) :=
  [ StableHlo.nullary main_c (fun i => lit0 (S5.rowMajor i)),
    StableHlo.nullary main_c_0 (fun i => lit1 (S6.rowMajor i)),
    StableHlo.nullary main_c_1 (constantI S_ 32 0#32),
    StableHlo.unary main_c_1 main_v0 (broadcastInDim S5 ![] bcast_S_S5 : (⟨S_, .i32⟩ : BufTy).Contents (Elt F) → (⟨S5, .i32⟩ : BufTy).Contents (Elt F)),
    StableHlo.binary main_c main_v0 main_v1 (cmpi .slt : (⟨S5, .i32⟩ : BufTy).Contents (Elt F) → (⟨S5, .i32⟩ : BufTy).Contents (Elt F) → (⟨S5, .i1⟩ : BufTy).Contents (Elt F)),
    StableHlo.nullary main_c_2 (constantI S_ 32 10#32),
    StableHlo.unary main_c_2 main_v2 (broadcastInDim S5 ![] bcast_S_S5 : (⟨S_, .i32⟩ : BufTy).Contents (Elt F) → (⟨S5, .i32⟩ : BufTy).Contents (Elt F)),
    StableHlo.binary main_c main_v2 main_v3 (addi : (⟨S5, .i32⟩ : BufTy).Contents (Elt F) → (⟨S5, .i32⟩ : BufTy).Contents (Elt F) → (⟨S5, .i32⟩ : BufTy).Contents (Elt F)),
    StableHlo.ternary main_v1 main_v3 main_c main_v4 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v4 main_v5 (broadcastInDim S5x1 ![0] bcast_S5_S5x1_0 : (⟨S5, .i32⟩ : BufTy).Contents (Elt F) → (⟨S5x1, .i32⟩ : BufTy).Contents (Elt F)),
    StableHlo.binary main_arg0 main_v5 main_v6 ((fun x i => Host.gather gather_S200000x10_S5x1_S200000x5_0_1_n_n_1_1_2000001 x i) : (⟨S200000x10, .f32⟩ : BufTy).Contents (Elt F) → (⟨S5x1, .i32⟩ : BufTy).Contents (Elt F) → (⟨S200000x5, .f32⟩ : BufTy).Contents (Elt F)),
    StableHlo.unary main_arg6 main_v7 ((extractStridedSlice S1x200x16 ![0, 0, 0] · slices_S5x200x16_S1x200x16_0_0_0) : (⟨S5x200x16, .f32⟩ : BufTy).Contents (Elt F) → (⟨S1x200x16, .f32⟩ : BufTy).Contents (Elt F)),
    StableHlo.reshape main_v7 main_v8 rfl shapeCasts_S1x200x16_S200x16,
    StableHlo.unary main_arg0 main_v9 ((extractStridedSlice S200000x1 ![0, 1] · slices_S200000x10_S200000x1_0_1) : (⟨S200000x10, .f32⟩ : BufTy).Contents (Elt F) → (⟨S200000x1, .f32⟩ : BufTy).Contents (Elt F)),
    StableHlo.reshape main_v9 main_v10 rfl shapeCasts_S200000x1_S200000,
    StableHlo.unary main_v10 main_v11 (fptosi 32 : (⟨S200000, .f32⟩ : BufTy).Contents (Elt F) → (⟨S200000, .i32⟩ : BufTy).Contents (Elt F)),
    StableHlo.nullary main_c_3 (constantI S_ 32 0#32),
    StableHlo.nullary main_c_4 (constantI S_ 32 199#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S200000, .i32⟩) (broadcastInDim S200000 ![] bcast_S_S200000),
    StableHlo.TRef.binary (.of main_call0_v1 : StableHlo.TRef sig ⟨S200000, .i32⟩) (.of main_v11 : StableHlo.TRef sig ⟨S200000, .i32⟩) (.of main_call0_v2 : StableHlo.TRef sig ⟨S200000, .i32⟩) maxsi,
    StableHlo.TRef.unary (.of main_c_4 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S200000, .i32⟩) (broadcastInDim S200000 ![] bcast_S_S200000),
    StableHlo.TRef.binary (.of main_call0_v4 : StableHlo.TRef sig ⟨S200000, .i32⟩) (.of main_call0_v2 : StableHlo.TRef sig ⟨S200000, .i32⟩) (.of main_v12 : StableHlo.TRef sig ⟨S200000, .i32⟩) minsi,
    StableHlo.nullary main_c_5 (constantI S_ 32 0#32),
    StableHlo.unary main_c_5 main_v13 (broadcastInDim S200000 ![] bcast_S_S200000 : (⟨S_, .i32⟩ : BufTy).Contents (Elt F) → (⟨S200000, .i32⟩ : BufTy).Contents (Elt F)),
    StableHlo.binary main_v12 main_v13 main_v14 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 200#32),
    StableHlo.unary main_c_6 main_v15 (broadcastInDim S200000 ![] bcast_S_S200000 : (⟨S_, .i32⟩ : BufTy).Contents (Elt F) → (⟨S200000, .i32⟩ : BufTy).Contents (Elt F)),
    StableHlo.binary main_v12 main_v15 main_v16 (addi : (⟨S200000, .i32⟩ : BufTy).Contents (Elt F) → (⟨S200000, .i32⟩ : BufTy).Contents (Elt F) → (⟨S200000, .i32⟩ : BufTy).Contents (Elt F)),
    StableHlo.ternary main_v14 main_v16 main_v12 main_v17 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v17 main_v18 (broadcastInDim S200000x1 ![0] bcast_S200000_S200000x1_0 : (⟨S200000, .i32⟩ : BufTy).Contents (Elt F) → (⟨S200000x1, .i32⟩ : BufTy).Contents (Elt F)),
    StableHlo.binary main_v8 main_v18 main_v19 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v20 ((extractStridedSlice S1x200x16 ![1, 0, 0] · slices_S5x200x16_S1x200x16_1_0_0) : (⟨S5x200x16, .f32⟩ : BufTy).Contents (Elt F) → (⟨S1x200x16, .f32⟩ : BufTy).Contents (Elt F)),
    StableHlo.reshape main_v20 main_v21 rfl shapeCasts_S1x200x16_S200x16,
    StableHlo.unary main_arg0 main_v22 ((extractStridedSlice S200000x1 ![0, 2] · slices_S200000x10_S200000x1_0_2) : (⟨S200000x10, .f32⟩ : BufTy).Contents (Elt F) → (⟨S200000x1, .f32⟩ : BufTy).Contents (Elt F)),
    StableHlo.reshape main_v22 main_v23 rfl shapeCasts_S200000x1_S200000,
    StableHlo.unary main_v23 main_v24 (fptosi 32 : (⟨S200000, .f32⟩ : BufTy).Contents (Elt F) → (⟨S200000, .i32⟩ : BufTy).Contents (Elt F)),
    StableHlo.nullary main_c_7 (constantI S_ 32 0#32),
    StableHlo.nullary main_c_8 (constantI S_ 32 199#32),
    StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S200000, .i32⟩) (broadcastInDim S200000 ![] bcast_S_S200000),
    StableHlo.TRef.binary (.of main_call1_v1 : StableHlo.TRef sig ⟨S200000, .i32⟩) (.of main_v24 : StableHlo.TRef sig ⟨S200000, .i32⟩) (.of main_call1_v2 : StableHlo.TRef sig ⟨S200000, .i32⟩) maxsi,
    StableHlo.TRef.unary (.of main_c_8 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S200000, .i32⟩) (broadcastInDim S200000 ![] bcast_S_S200000),
    StableHlo.TRef.binary (.of main_call1_v4 : StableHlo.TRef sig ⟨S200000, .i32⟩) (.of main_call1_v2 : StableHlo.TRef sig ⟨S200000, .i32⟩) (.of main_v25 : StableHlo.TRef sig ⟨S200000, .i32⟩) minsi,
    StableHlo.nullary main_c_9 (constantI S_ 32 0#32),
    StableHlo.unary main_c_9 main_v26 (broadcastInDim S200000 ![] bcast_S_S200000 : (⟨S_, .i32⟩ : BufTy).Contents (Elt F) → (⟨S200000, .i32⟩ : BufTy).Contents (Elt F)),
    StableHlo.binary main_v25 main_v26 main_v27 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 200#32),
    StableHlo.unary main_c_10 main_v28 (broadcastInDim S200000 ![] bcast_S_S200000 : (⟨S_, .i32⟩ : BufTy).Contents (Elt F) → (⟨S200000, .i32⟩ : BufTy).Contents (Elt F)),
    StableHlo.binary main_v25 main_v28 main_v29 (addi : (⟨S200000, .i32⟩ : BufTy).Contents (Elt F) → (⟨S200000, .i32⟩ : BufTy).Contents (Elt F) → (⟨S200000, .i32⟩ : BufTy).Contents (Elt F)),
    StableHlo.ternary main_v27 main_v29 main_v25 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v30 main_v31 (broadcastInDim S200000x1 ![0] bcast_S200000_S200000x1_0 : (⟨S200000, .i32⟩ : BufTy).Contents (Elt F) → (⟨S200000x1, .i32⟩ : BufTy).Contents (Elt F)),
    StableHlo.binary main_v21 main_v31 main_v32 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v33 ((extractStridedSlice S1x200x16 ![2, 0, 0] · slices_S5x200x16_S1x200x16_2_0_0) : (⟨S5x200x16, .f32⟩ : BufTy).Contents (Elt F) → (⟨S1x200x16, .f32⟩ : BufTy).Contents (Elt F)),
    StableHlo.reshape main_v33 main_v34 rfl shapeCasts_S1x200x16_S200x16,
    StableHlo.unary main_arg0 main_v35 ((extractStridedSlice S200000x1 ![0, 3] · slices_S200000x10_S200000x1_0_3) : (⟨S200000x10, .f32⟩ : BufTy).Contents (Elt F) → (⟨S200000x1, .f32⟩ : BufTy).Contents (Elt F)),
    StableHlo.reshape main_v35 main_v36 rfl shapeCasts_S200000x1_S200000,
    StableHlo.unary main_v36 main_v37 (fptosi 32 : (⟨S200000, .f32⟩ : BufTy).Contents (Elt F) → (⟨S200000, .i32⟩ : BufTy).Contents (Elt F)),
    StableHlo.nullary main_c_11 (constantI S_ 32 0#32),
    StableHlo.nullary main_c_12 (constantI S_ 32 199#32),
    StableHlo.TRef.unary (.of main_c_11 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S200000, .i32⟩) (broadcastInDim S200000 ![] bcast_S_S200000),
    StableHlo.TRef.binary (.of main_call2_v1 : StableHlo.TRef sig ⟨S200000, .i32⟩) (.of main_v37 : StableHlo.TRef sig ⟨S200000, .i32⟩) (.of main_call2_v2 : StableHlo.TRef sig ⟨S200000, .i32⟩) maxsi,
    StableHlo.TRef.unary (.of main_c_12 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S200000, .i32⟩) (broadcastInDim S200000 ![] bcast_S_S200000),
    StableHlo.TRef.binary (.of main_call2_v4 : StableHlo.TRef sig ⟨S200000, .i32⟩) (.of main_call2_v2 : StableHlo.TRef sig ⟨S200000, .i32⟩) (.of main_v38 : StableHlo.TRef sig ⟨S200000, .i32⟩) minsi,
    StableHlo.nullary main_c_13 (constantI S_ 32 0#32),
    StableHlo.unary main_c_13 main_v39 (broadcastInDim S200000 ![] bcast_S_S200000 : (⟨S_, .i32⟩ : BufTy).Contents (Elt F) → (⟨S200000, .i32⟩ : BufTy).Contents (Elt F)),
    StableHlo.binary main_v38 main_v39 main_v40 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 200#32),
    StableHlo.unary main_c_14 main_v41 (broadcastInDim S200000 ![] bcast_S_S200000 : (⟨S_, .i32⟩ : BufTy).Contents (Elt F) → (⟨S200000, .i32⟩ : BufTy).Contents (Elt F)),
    StableHlo.binary main_v38 main_v41 main_v42 (addi : (⟨S200000, .i32⟩ : BufTy).Contents (Elt F) → (⟨S200000, .i32⟩ : BufTy).Contents (Elt F) → (⟨S200000, .i32⟩ : BufTy).Contents (Elt F)),
    StableHlo.ternary main_v40 main_v42 main_v38 main_v43 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v43 main_v44 (broadcastInDim S200000x1 ![0] bcast_S200000_S200000x1_0 : (⟨S200000, .i32⟩ : BufTy).Contents (Elt F) → (⟨S200000x1, .i32⟩ : BufTy).Contents (Elt F)),
    StableHlo.binary main_v34 main_v44 main_v45 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v46 ((extractStridedSlice S1x200x16 ![3, 0, 0] · slices_S5x200x16_S1x200x16_3_0_0) : (⟨S5x200x16, .f32⟩ : BufTy).Contents (Elt F) → (⟨S1x200x16, .f32⟩ : BufTy).Contents (Elt F)),
    StableHlo.reshape main_v46 main_v47 rfl shapeCasts_S1x200x16_S200x16,
    StableHlo.unary main_arg0 main_v48 ((extractStridedSlice S200000x1 ![0, 4] · slices_S200000x10_S200000x1_0_4) : (⟨S200000x10, .f32⟩ : BufTy).Contents (Elt F) → (⟨S200000x1, .f32⟩ : BufTy).Contents (Elt F)),
    StableHlo.reshape main_v48 main_v49 rfl shapeCasts_S200000x1_S200000,
    StableHlo.unary main_v49 main_v50 (fptosi 32 : (⟨S200000, .f32⟩ : BufTy).Contents (Elt F) → (⟨S200000, .i32⟩ : BufTy).Contents (Elt F)),
    StableHlo.nullary main_c_15 (constantI S_ 32 0#32),
    StableHlo.nullary main_c_16 (constantI S_ 32 199#32),
    StableHlo.TRef.unary (.of main_c_15 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S200000, .i32⟩) (broadcastInDim S200000 ![] bcast_S_S200000),
    StableHlo.TRef.binary (.of main_call3_v1 : StableHlo.TRef sig ⟨S200000, .i32⟩) (.of main_v50 : StableHlo.TRef sig ⟨S200000, .i32⟩) (.of main_call3_v2 : StableHlo.TRef sig ⟨S200000, .i32⟩) maxsi,
    StableHlo.TRef.unary (.of main_c_16 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S200000, .i32⟩) (broadcastInDim S200000 ![] bcast_S_S200000),
    StableHlo.TRef.binary (.of main_call3_v4 : StableHlo.TRef sig ⟨S200000, .i32⟩) (.of main_call3_v2 : StableHlo.TRef sig ⟨S200000, .i32⟩) (.of main_v51 : StableHlo.TRef sig ⟨S200000, .i32⟩) minsi,
    StableHlo.nullary main_c_17 (constantI S_ 32 0#32),
    StableHlo.unary main_c_17 main_v52 (broadcastInDim S200000 ![] bcast_S_S200000 : (⟨S_, .i32⟩ : BufTy).Contents (Elt F) → (⟨S200000, .i32⟩ : BufTy).Contents (Elt F)),
    StableHlo.binary main_v51 main_v52 main_v53 (cmpi .slt : (⟨S200000, .i32⟩ : BufTy).Contents (Elt F) → (⟨S200000, .i32⟩ : BufTy).Contents (Elt F) → (⟨S200000, .i1⟩ : BufTy).Contents (Elt F)),
    StableHlo.nullary main_c_18 (constantI S_ 32 200#32),
    StableHlo.unary main_c_18 main_v54 (broadcastInDim S200000 ![] bcast_S_S200000 : (⟨S_, .i32⟩ : BufTy).Contents (Elt F) → (⟨S200000, .i32⟩ : BufTy).Contents (Elt F)),
    StableHlo.binary main_v51 main_v54 main_v55 (addi : (⟨S200000, .i32⟩ : BufTy).Contents (Elt F) → (⟨S200000, .i32⟩ : BufTy).Contents (Elt F) → (⟨S200000, .i32⟩ : BufTy).Contents (Elt F)),
    StableHlo.ternary main_v53 main_v55 main_v51 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v56 main_v57 (broadcastInDim S200000x1 ![0] bcast_S200000_S200000x1_0 : (⟨S200000, .i32⟩ : BufTy).Contents (Elt F) → (⟨S200000x1, .i32⟩ : BufTy).Contents (Elt F)),
    StableHlo.binary main_v47 main_v57 main_v58 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.unary main_arg6 main_v59 ((extractStridedSlice S1x200x16 ![4, 0, 0] · slices_S5x200x16_S1x200x16_4_0_0) : (⟨S5x200x16, .f32⟩ : BufTy).Contents (Elt F) → (⟨S1x200x16, .f32⟩ : BufTy).Contents (Elt F)),
    StableHlo.reshape main_v59 main_v60 rfl shapeCasts_S1x200x16_S200x16,
    StableHlo.unary main_arg0 main_v61 ((extractStridedSlice S200000x1 ![0, 5] · slices_S200000x10_S200000x1_0_5) : (⟨S200000x10, .f32⟩ : BufTy).Contents (Elt F) → (⟨S200000x1, .f32⟩ : BufTy).Contents (Elt F)),
    StableHlo.reshape main_v61 main_v62 rfl shapeCasts_S200000x1_S200000,
    StableHlo.unary main_v62 main_v63 (fptosi 32 : (⟨S200000, .f32⟩ : BufTy).Contents (Elt F) → (⟨S200000, .i32⟩ : BufTy).Contents (Elt F)),
    StableHlo.nullary main_c_19 (constantI S_ 32 0#32),
    StableHlo.nullary main_c_20 (constantI S_ 32 199#32),
    StableHlo.TRef.unary (.of main_c_19 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S200000, .i32⟩) (broadcastInDim S200000 ![] bcast_S_S200000),
    StableHlo.TRef.binary (.of main_call4_v1 : StableHlo.TRef sig ⟨S200000, .i32⟩) (.of main_v63 : StableHlo.TRef sig ⟨S200000, .i32⟩) (.of main_call4_v2 : StableHlo.TRef sig ⟨S200000, .i32⟩) maxsi,
    StableHlo.TRef.unary (.of main_c_20 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S200000, .i32⟩) (broadcastInDim S200000 ![] bcast_S_S200000),
    StableHlo.TRef.binary (.of main_call4_v4 : StableHlo.TRef sig ⟨S200000, .i32⟩) (.of main_call4_v2 : StableHlo.TRef sig ⟨S200000, .i32⟩) (.of main_v64 : StableHlo.TRef sig ⟨S200000, .i32⟩) minsi,
    StableHlo.nullary main_c_21 (constantI S_ 32 0#32),
    StableHlo.unary main_c_21 main_v65 (broadcastInDim S200000 ![] bcast_S_S200000 : (⟨S_, .i32⟩ : BufTy).Contents (Elt F) → (⟨S200000, .i32⟩ : BufTy).Contents (Elt F)),
    StableHlo.binary main_v64 main_v65 main_v66 (cmpi .slt : (⟨S200000, .i32⟩ : BufTy).Contents (Elt F) → (⟨S200000, .i32⟩ : BufTy).Contents (Elt F) → (⟨S200000, .i1⟩ : BufTy).Contents (Elt F)),
    StableHlo.nullary main_c_22 (constantI S_ 32 200#32),
    StableHlo.unary main_c_22 main_v67 (broadcastInDim S200000 ![] bcast_S_S200000 : (⟨S_, .i32⟩ : BufTy).Contents (Elt F) → (⟨S200000, .i32⟩ : BufTy).Contents (Elt F)),
    StableHlo.binary main_v64 main_v67 main_v68 (addi : (⟨S200000, .i32⟩ : BufTy).Contents (Elt F) → (⟨S200000, .i32⟩ : BufTy).Contents (Elt F) → (⟨S200000, .i32⟩ : BufTy).Contents (Elt F)),
    StableHlo.ternary main_v66 main_v68 main_v64 main_v69 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v69 main_v70 (broadcastInDim S200000x1 ![0] bcast_S200000_S200000x1_0 : (⟨S200000, .i32⟩ : BufTy).Contents (Elt F) → (⟨S200000x1, .i32⟩ : BufTy).Contents (Elt F)),
    StableHlo.binary main_v60 main_v70 main_v71 ((fun x i => Host.gather gather_S200x16_S200000x1_S200000x16_1_0_n_n_0_1_116 x i) : (⟨S200x16, .f32⟩ : BufTy).Contents (Elt F) → (⟨S200000x1, .i32⟩ : BufTy).Contents (Elt F) → (⟨S200000x16, .f32⟩ : BufTy).Contents (Elt F)),
    StableHlo.nary ![main_v6, main_v19, main_v32, main_v45, main_v58, main_v71] main_v72 (fun u => concatenate S200000x85 1 [⟨S200000x5, u 0⟩, ⟨S200000x16, u 1⟩, ⟨S200000x16, u 2⟩, ⟨S200000x16, u 3⟩, ⟨S200000x16, u 4⟩, ⟨S200000x16, u 5⟩] concatenates_S200000x5_S200000x16_S200000x16_S200000x16_S200000x16_S200000x16_S200000x85_d1) ]

/-- The buffers the stage's operations write, in order. -/
abbrev stage0_W : List (Ref sig .tc) :=
  [main_c, main_c_0, main_c_1, main_v0, main_v1, main_c_2, main_v2, main_v3, main_v4, main_v5, main_v6, main_v7, main_v8, main_v9, main_v10, main_v11, main_c_3, main_c_4, main_call0_v0, main_call0_v1, main_call0_v2, main_call0_v3, main_call0_v4, main_v12, main_c_5, main_v13, main_v14, main_c_6, main_v15, main_v16, main_v17, main_v18, main_v19, main_v20, main_v21, main_v22, main_v23, main_v24, main_c_7, main_c_8, main_call1_v0, main_call1_v1, main_call1_v2, main_call1_v3, main_call1_v4, main_v25, main_c_9, main_v26, main_v27, main_c_10, main_v28, main_v29, main_v30, main_v31, main_v32, main_v33, main_v34, main_v35, main_v36, main_v37, main_c_11, main_c_12, main_call2_v0, main_call2_v1, main_call2_v2, main_call2_v3, main_call2_v4, main_v38, main_c_13, main_v39, main_v40, main_c_14, main_v41, main_v42, main_v43, main_v44, main_v45, main_v46, main_v47, main_v48, main_v49, main_v50, main_c_15, main_c_16, main_call3_v0, main_call3_v1, main_call3_v2, main_call3_v3, main_call3_v4, main_v51, main_c_17, main_v52, main_v53, main_c_18, main_v54, main_v55, main_v56, main_v57, main_v58, main_v59, main_v60, main_v61, main_v62, main_v63, main_c_19, main_c_20, main_call4_v0, main_call4_v1, main_call4_v2, main_call4_v3, main_call4_v4, main_v64, main_c_21, main_v65, main_v66, main_c_22, main_v67, main_v68, main_v69, main_v70, main_v71, main_v72]

set_option maxHeartbeats 40000000 in
/-- Each writes one buffer, of that list. -/
theorem stage0_writes : (stage0 : List (HloOp τ sig (Elt F))).Forall fun op => op.writes ⊆ (stage0_W.map (Proc.devRef (τ := τ) .tc)).toFinset :=
  ⟨wsub (y := main_c) (by decide), wsub (y := main_c_0) (by decide), wsub (y := main_c_1) (by decide), wsub (y := main_v0) (by decide), wsub (y := main_v1) (by decide), wsub (y := main_c_2) (by decide), wsub (y := main_v2) (by decide), wsub (y := main_v3) (by decide), wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_c_3) (by decide), wsub (y := main_c_4) (by decide), wsub (y := main_call0_v0) (by decide), wsub (y := main_call0_v1) (by decide), wsub (y := main_call0_v2) (by decide), wsub (y := main_call0_v3) (by decide), wsub (y := main_call0_v4) (by decide), wsub (y := main_v12) (by decide), wsub (y := main_c_5) (by decide), wsub (y := main_v13) (by decide), wsub (y := main_v14) (by decide), wsub (y := main_c_6) (by decide), wsub (y := main_v15) (by decide), wsub (y := main_v16) (by decide), wsub (y := main_v17) (by decide), wsub (y := main_v18) (by decide), wsub (y := main_v19) (by decide), wsub (y := main_v20) (by decide), wsub (y := main_v21) (by decide), wsub (y := main_v22) (by decide), wsub (y := main_v23) (by decide), wsub (y := main_v24) (by decide), wsub (y := main_c_7) (by decide), wsub (y := main_c_8) (by decide), wsub (y := main_call1_v0) (by decide), wsub (y := main_call1_v1) (by decide), wsub (y := main_call1_v2) (by decide), wsub (y := main_call1_v3) (by decide), wsub (y := main_call1_v4) (by decide), wsub (y := main_v25) (by decide), wsub (y := main_c_9) (by decide), wsub (y := main_v26) (by decide), wsub (y := main_v27) (by decide), wsub (y := main_c_10) (by decide), wsub (y := main_v28) (by decide), wsub (y := main_v29) (by decide), wsub (y := main_v30) (by decide), wsub (y := main_v31) (by decide), wsub (y := main_v32) (by decide), wsub (y := main_v33) (by decide), wsub (y := main_v34) (by decide), wsub (y := main_v35) (by decide), wsub (y := main_v36) (by decide), wsub (y := main_v37) (by decide), wsub (y := main_c_11) (by decide), wsub (y := main_c_12) (by decide), wsub (y := main_call2_v0) (by decide), wsub (y := main_call2_v1) (by decide), wsub (y := main_call2_v2) (by decide), wsub (y := main_call2_v3) (by decide), wsub (y := main_call2_v4) (by decide), wsub (y := main_v38) (by decide), wsub (y := main_c_13) (by decide), wsub (y := main_v39) (by decide), wsub (y := main_v40) (by decide), wsub (y := main_c_14) (by decide), wsub (y := main_v41) (by decide), wsub (y := main_v42) (by decide), wsub (y := main_v43) (by decide), wsub (y := main_v44) (by decide), wsub (y := main_v45) (by decide), wsub (y := main_v46) (by decide), wsub (y := main_v47) (by decide), wsub (y := main_v48) (by decide), wsub (y := main_v49) (by decide), wsub (y := main_v50) (by decide), wsub (y := main_c_15) (by decide), wsub (y := main_c_16) (by decide), wsub (y := main_call3_v0) (by decide), wsub (y := main_call3_v1) (by decide), wsub (y := main_call3_v2) (by decide), wsub (y := main_call3_v3) (by decide), wsub (y := main_call3_v4) (by decide), wsub (y := main_v51) (by decide), wsub (y := main_c_17) (by decide), wsub (y := main_v52) (by decide), wsub (y := main_v53) (by decide), wsub (y := main_c_18) (by decide), wsub (y := main_v54) (by decide), wsub (y := main_v55) (by decide), wsub (y := main_v56) (by decide), wsub (y := main_v57) (by decide), wsub (y := main_v58) (by decide), wsub (y := main_v59) (by decide), wsub (y := main_v60) (by decide), wsub (y := main_v61) (by decide), wsub (y := main_v62) (by decide), wsub (y := main_v63) (by decide), wsub (y := main_c_19) (by decide), wsub (y := main_c_20) (by decide), wsub (y := main_call4_v0) (by decide), wsub (y := main_call4_v1) (by decide), wsub (y := main_call4_v2) (by decide), wsub (y := main_call4_v3) (by decide), wsub (y := main_call4_v4) (by decide), wsub (y := main_v64) (by decide), wsub (y := main_c_21) (by decide), wsub (y := main_v65) (by decide), wsub (y := main_v66) (by decide), wsub (y := main_c_22) (by decide), wsub (y := main_v67) (by decide), wsub (y := main_v68) (by decide), wsub (y := main_v69) (by decide), wsub (y := main_v70) (by decide), wsub (y := main_v71) (by decide), wsub (y := main_v72) (by decide)⟩

end Cert.ReferenceIdeal.Hand

end
-- ==== Proof.Ref.Stage1.lean ====
/- Stage 1 of the reference's @main: its operations 123 … 127 of 471 (calls written as the callee's operations over the
   call's buffers), ending with the one that writes `main_v77`. The same operations as the windows', cut where a
   value is complete instead of every sixty statements. Each writes one buffer of the list `stage1_W` (`stage1_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 1's 5 operations, in order. -/
abbrev stage1 : List (HloOp τ sig (Elt F)) :=
  [ StableHlo.unary main_arg9 main_v73 ((transpose S85x128 [1, 0] · transposes_S128x85_S85x128_1_0) : (⟨S128x85, .f32⟩ : BufTy).Contents (Elt F) → (⟨S85x128, .f32⟩ : BufTy).Contents (Elt F)),
    StableHlo.binary main_v72 main_v73 main_v74 ((fun l r => Host.dotGeneral dot_S200000x85_S85x128_S200000x128_1_0_0_1_n_n none l r) : (⟨S200000x85, .f32⟩ : BufTy).Contents (Elt F) → (⟨S85x128, .f32⟩ : BufTy).Contents (Elt F) → (⟨S200000x128, .f32⟩ : BufTy).Contents (Elt F)),
    StableHlo.unary main_arg10 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S200000x128 ![0, 1] bcast_S1x128_S200000x128_0_1 : (⟨S1x128, .f32⟩ : BufTy).Contents (Elt F) → (⟨S200000x128, .f32⟩ : BufTy).Contents (Elt F)),
    StableHlo.binary main_v74 main_v76 main_v77 (addf : (⟨S200000x128, .f32⟩ : BufTy).Contents (Elt F) → (⟨S200000x128, .f32⟩ : BufTy).Contents (Elt F) → (⟨S200000x128, .f32⟩ : BufTy).Contents (Elt F)) ]

/-- The buffers the stage's operations write, in order. -/
abbrev stage1_W : List (Ref sig .tc) :=
  [main_v73, main_v74, main_v75, main_v76, main_v77]

set_option maxHeartbeats 40000000 in
/-- Each writes one buffer, of that list. -/
theorem stage1_writes : (stage1 : List (HloOp τ sig (Elt F))).Forall fun op => op.writes ⊆ (stage1_W.map (Proc.devRef (τ := τ) .tc)).toFinset :=
  ⟨wsub (y := main_v73) (by decide), wsub (y := main_v74) (by decide), wsub (y := main_v75) (by decide), wsub (y := main_v76) (by decide), wsub (y := main_v77) (by decide)⟩

end Cert.ReferenceIdeal.Hand

end
-- ==== Proof.Ref.Stage2.lean ====
/- Stage 2 of the reference's @main: its operations 128 … 177 of 471 (calls written as the callee's operations over the
   call's buffers), ending with the one that writes `main_v107`. The same operations as the windows', cut where a
   value is complete instead of every sixty statements. Each writes one buffer of the list `stage2_W` (`stage2_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 2's 50 operations, in order. -/
abbrev stage2 : List (HloOp τ sig (Elt F)) :=
  [ StableHlo.nullary main_c_23 (constantI S_ 32 0#32),
    StableHlo.unary main_c_23 main_v78 (broadcastInDim S6 ![] bcast_S_S6 : (⟨S_, .i32⟩ : BufTy).Contents (Elt F) → (⟨S6, .i32⟩ : BufTy).Contents (Elt F)),
    StableHlo.binary main_c_0 main_v78 main_v79 (cmpi .slt : (⟨S6, .i32⟩ : BufTy).Contents (Elt F) → (⟨S6, .i32⟩ : BufTy).Contents (Elt F) → (⟨S6, .i1⟩ : BufTy).Contents (Elt F)),
    StableHlo.nullary main_c_24 (constantI S_ 32 8#32),
    StableHlo.unary main_c_24 main_v80 (broadcastInDim S6 ![] bcast_S_S6 : (⟨S_, .i32⟩ : BufTy).Contents (Elt F) → (⟨S6, .i32⟩ : BufTy).Contents (Elt F)),
    StableHlo.binary main_c_0 main_v80 main_v81 (addi : (⟨S6, .i32⟩ : BufTy).Contents (Elt F) → (⟨S6, .i32⟩ : BufTy).Contents (Elt F) → (⟨S6, .i32⟩ : BufTy).Contents (Elt F)),
    StableHlo.ternary main_v79 main_v81 main_c_0 main_v82 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v82 main_v83 (broadcastInDim S6x1 ![0] bcast_S6_S6x1_0 : (⟨S6, .i32⟩ : BufTy).Contents (Elt F) → (⟨S6x1, .i32⟩ : BufTy).Contents (Elt F)),
    StableHlo.binary main_arg1 main_v83 main_v84 ((fun x i => Host.gather gather_S500000x8_S6x1_S500000x6_0_1_n_n_1_1_5000001 x i) : (⟨S500000x8, .f32⟩ : BufTy).Contents (Elt F) → (⟨S6x1, .i32⟩ : BufTy).Contents (Elt F) → (⟨S500000x6, .f32⟩ : BufTy).Contents (Elt F)),
    StableHlo.unary main_arg1 main_v85 ((extractStridedSlice S500000x1 ![0, 0] · slices_S500000x8_S500000x1_0_0) : (⟨S500000x8, .f32⟩ : BufTy).Contents (Elt F) → (⟨S500000x1, .f32⟩ : BufTy).Contents (Elt F)),
    StableHlo.reshape main_v85 main_v86 rfl shapeCasts_S500000x1_S500000,
    StableHlo.unary main_v86 main_v87 (fptosi 32 : (⟨S500000, .f32⟩ : BufTy).Contents (Elt F) → (⟨S500000, .i32⟩ : BufTy).Contents (Elt F)),
    StableHlo.nullary main_c_25 (constantI S_ 32 0#32),
    StableHlo.nullary main_c_26 (constantI S_ 32 1999#32),
    StableHlo.TRef.unary (.of main_c_25 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S500000, .i32⟩) (broadcastInDim S500000 ![] bcast_S_S500000),
    StableHlo.TRef.binary (.of main_call5_v1 : StableHlo.TRef sig ⟨S500000, .i32⟩) (.of main_v87 : StableHlo.TRef sig ⟨S500000, .i32⟩) (.of main_call5_v2 : StableHlo.TRef sig ⟨S500000, .i32⟩) maxsi,
    StableHlo.TRef.unary (.of main_c_26 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S500000, .i32⟩) (broadcastInDim S500000 ![] bcast_S_S500000),
    StableHlo.TRef.binary (.of main_call5_v4 : StableHlo.TRef sig ⟨S500000, .i32⟩) (.of main_call5_v2 : StableHlo.TRef sig ⟨S500000, .i32⟩) (.of main_v88 : StableHlo.TRef sig ⟨S500000, .i32⟩) minsi,
    StableHlo.nullary main_c_27 (constantI S_ 32 0#32),
    StableHlo.unary main_c_27 main_v89 (broadcastInDim S500000 ![] bcast_S_S500000 : (⟨S_, .i32⟩ : BufTy).Contents (Elt F) → (⟨S500000, .i32⟩ : BufTy).Contents (Elt F)),
    StableHlo.binary main_v88 main_v89 main_v90 (cmpi .slt : (⟨S500000, .i32⟩ : BufTy).Contents (Elt F) → (⟨S500000, .i32⟩ : BufTy).Contents (Elt F) → (⟨S500000, .i1⟩ : BufTy).Contents (Elt F)),
    StableHlo.nullary main_c_28 (constantI S_ 32 2000#32),
    StableHlo.unary main_c_28 main_v91 (broadcastInDim S500000 ![] bcast_S_S500000 : (⟨S_, .i32⟩ : BufTy).Contents (Elt F) → (⟨S500000, .i32⟩ : BufTy).Contents (Elt F)),
    StableHlo.binary main_v88 main_v91 main_v92 (addi : (⟨S500000, .i32⟩ : BufTy).Contents (Elt F) → (⟨S500000, .i32⟩ : BufTy).Contents (Elt F) → (⟨S500000, .i32⟩ : BufTy).Contents (Elt F)),
    StableHlo.ternary main_v90 main_v92 main_v88 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v93 main_v94 (broadcastInDim S500000x1 ![0] bcast_S500000_S500000x1_0 : (⟨S500000, .i32⟩ : BufTy).Contents (Elt F) → (⟨S500000x1, .i32⟩ : BufTy).Contents (Elt F)),
    StableHlo.binary main_arg7 main_v94 main_v95 ((fun x i => Host.gather gather_S2000x16_S500000x1_S500000x16_1_0_n_n_0_1_116 x i) : (⟨S2000x16, .f32⟩ : BufTy).Contents (Elt F) → (⟨S500000x1, .i32⟩ : BufTy).Contents (Elt F) → (⟨S500000x16, .f32⟩ : BufTy).Contents (Elt F)),
    StableHlo.unary main_arg1 main_v96 ((extractStridedSlice S500000x1 ![0, 3] · slices_S500000x8_S500000x1_0_3) : (⟨S500000x8, .f32⟩ : BufTy).Contents (Elt F) → (⟨S500000x1, .f32⟩ : BufTy).Contents (Elt F)),
    StableHlo.reshape main_v96 main_v97 rfl shapeCasts_S500000x1_S500000,
    StableHlo.unary main_v97 main_v98 (fptosi 32 : (⟨S500000, .f32⟩ : BufTy).Contents (Elt F) → (⟨S500000, .i32⟩ : BufTy).Contents (Elt F)),
    StableHlo.nullary main_c_29 (constantI S_ 32 0#32),
    StableHlo.nullary main_c_30 (constantI S_ 32 9#32),
    StableHlo.TRef.unary (.of main_c_29 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S500000, .i32⟩) (broadcastInDim S500000 ![] bcast_S_S500000),
    StableHlo.TRef.binary (.of main_call6_v1 : StableHlo.TRef sig ⟨S500000, .i32⟩) (.of main_v98 : StableHlo.TRef sig ⟨S500000, .i32⟩) (.of main_call6_v2 : StableHlo.TRef sig ⟨S500000, .i32⟩) maxsi,
    StableHlo.TRef.unary (.of main_c_30 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S500000, .i32⟩) (broadcastInDim S500000 ![] bcast_S_S500000),
    StableHlo.TRef.binary (.of main_call6_v4 : StableHlo.TRef sig ⟨S500000, .i32⟩) (.of main_call6_v2 : StableHlo.TRef sig ⟨S500000, .i32⟩) (.of main_v99 : StableHlo.TRef sig ⟨S500000, .i32⟩) minsi,
    StableHlo.nullary main_c_31 (constantI S_ 32 0#32),
    StableHlo.unary main_c_31 main_v100 (broadcastInDim S500000 ![] bcast_S_S500000 : (⟨S_, .i32⟩ : BufTy).Contents (Elt F) → (⟨S500000, .i32⟩ : BufTy).Contents (Elt F)),
    StableHlo.binary main_v99 main_v100 main_v101 (cmpi .slt : (⟨S500000, .i32⟩ : BufTy).Contents (Elt F) → (⟨S500000, .i32⟩ : BufTy).Contents (Elt F) → (⟨S500000, .i1⟩ : BufTy).Contents (Elt F)),
    StableHlo.nullary main_c_32 (constantI S_ 32 10#32),
    StableHlo.unary main_c_32 main_v102 (broadcastInDim S500000 ![] bcast_S_S500000 : (⟨S_, .i32⟩ : BufTy).Contents (Elt F) → (⟨S500000, .i32⟩ : BufTy).Contents (Elt F)),
    StableHlo.binary main_v99 main_v102 main_v103 (addi : (⟨S500000, .i32⟩ : BufTy).Contents (Elt F) → (⟨S500000, .i32⟩ : BufTy).Contents (Elt F) → (⟨S500000, .i32⟩ : BufTy).Contents (Elt F)),
    StableHlo.ternary main_v101 main_v103 main_v99 main_v104 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v104 main_v105 (broadcastInDim S500000x1 ![0] bcast_S500000_S500000x1_0 : (⟨S500000, .i32⟩ : BufTy).Contents (Elt F) → (⟨S500000x1, .i32⟩ : BufTy).Contents (Elt F)),
    StableHlo.binary main_arg8 main_v105 main_v106 ((fun x i => Host.gather gather_S10x4_S500000x1_S500000x4_1_0_n_n_0_1_14 x i) : (⟨S10x4, .f32⟩ : BufTy).Contents (Elt F) → (⟨S500000x1, .i32⟩ : BufTy).Contents (Elt F) → (⟨S500000x4, .f32⟩ : BufTy).Contents (Elt F)),
    StableHlo.nary ![main_v84, main_v95, main_v106] main_v107 (fun u => concatenate S500000x26 1 [⟨S500000x6, u 0⟩, ⟨S500000x16, u 1⟩, ⟨S500000x4, u 2⟩] concatenates_S500000x6_S500000x16_S500000x4_S500000x26_d1) ]

/-- The buffers the stage's operations write, in order. -/
abbrev stage2_W : List (Ref sig .tc) :=
  [main_c_23, main_v78, main_v79, main_c_24, main_v80, main_v81, main_v82, main_v83, main_v84, main_v85, main_v86, main_v87, main_c_25, main_c_26, main_call5_v0, main_call5_v1, main_call5_v2, main_call5_v3, main_call5_v4, main_v88, main_c_27, main_v89, main_v90, main_c_28, main_v91, main_v92, main_v93, main_v94, main_v95, main_v96, main_v97, main_v98, main_c_29, main_c_30, main_call6_v0, main_call6_v1, main_call6_v2, main_call6_v3, main_call6_v4, main_v99, main_c_31, main_v100, main_v101, main_c_32, main_v102, main_v103, main_v104, main_v105, main_v106, main_v107]

set_option maxHeartbeats 40000000 in
/-- Each writes one buffer, of that list. -/
theorem stage2_writes : (stage2 : List (HloOp τ sig (Elt F))).Forall fun op => op.writes ⊆ (stage2_W.map (Proc.devRef (τ := τ) .tc)).toFinset :=
  ⟨wsub (y := main_c_23) (by decide), wsub (y := main_v78) (by decide), wsub (y := main_v79) (by decide), wsub (y := main_c_24) (by decide), wsub (y := main_v80) (by decide), wsub (y := main_v81) (by decide), wsub (y := main_v82) (by decide), wsub (y := main_v83) (by decide), wsub (y := main_v84) (by decide), wsub (y := main_v85) (by decide), wsub (y := main_v86) (by decide), wsub (y := main_v87) (by decide), wsub (y := main_c_25) (by decide), wsub (y := main_c_26) (by decide), wsub (y := main_call5_v0) (by decide), wsub (y := main_call5_v1) (by decide), wsub (y := main_call5_v2) (by decide), wsub (y := main_call5_v3) (by decide), wsub (y := main_call5_v4) (by decide), wsub (y := main_v88) (by decide), wsub (y := main_c_27) (by decide), wsub (y := main_v89) (by decide), wsub (y := main_v90) (by decide), wsub (y := main_c_28) (by decide), wsub (y := main_v91) (by decide), wsub (y := main_v92) (by decide), wsub (y := main_v93) (by decide), wsub (y := main_v94) (by decide), wsub (y := main_v95) (by decide), wsub (y := main_v96) (by decide), wsub (y := main_v97) (by decide), wsub (y := main_v98) (by decide), wsub (y := main_c_29) (by decide), wsub (y := main_c_30) (by decide), wsub (y := main_call6_v0) (by decide), wsub (y := main_call6_v1) (by decide), wsub (y := main_call6_v2) (by decide), wsub (y := main_call6_v3) (by decide), wsub (y := main_call6_v4) (by decide), wsub (y := main_v99) (by decide), wsub (y := main_c_31) (by decide), wsub (y := main_v100) (by decide), wsub (y := main_v101) (by decide), wsub (y := main_c_32) (by decide), wsub (y := main_v102) (by decide), wsub (y := main_v103) (by decide), wsub (y := main_v104) (by decide), wsub (y := main_v105) (by decide), wsub (y := main_v106) (by decide), wsub (y := main_v107) (by decide)⟩

end Cert.ReferenceIdeal.Hand

end
-- ==== Proof.Ref.Stage3.lean ====
/- Stage 3 of the reference's @main: its operations 178 … 182 of 471 (calls written as the callee's operations over the
   call's buffers), ending with the one that writes `main_v112`. The same operations as the windows', cut where a
   value is complete instead of every sixty statements. Each writes one buffer of the list `stage3_W` (`stage3_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 3's 5 operations, in order. -/
abbrev stage3 : List (HloOp τ sig (Elt F)) :=
  [ StableHlo.unary main_arg11 main_v108 ((transpose S26x128 [1, 0] · transposes_S128x26_S26x128_1_0) : (⟨S128x26, .f32⟩ : BufTy).Contents (Elt F) → (⟨S26x128, .f32⟩ : BufTy).Contents (Elt F)),
    StableHlo.binary main_v107 main_v108 main_v109 ((fun l r => Host.dotGeneral dot_S500000x26_S26x128_S500000x128_1_0_0_1_n_n none l r) : (⟨S500000x26, .f32⟩ : BufTy).Contents (Elt F) → (⟨S26x128, .f32⟩ : BufTy).Contents (Elt F) → (⟨S500000x128, .f32⟩ : BufTy).Contents (Elt F)),
    StableHlo.unary main_arg12 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S500000x128 ![0, 1] bcast_S1x128_S500000x128_0_1 : (⟨S1x128, .f32⟩ : BufTy).Contents (Elt F) → (⟨S500000x128, .f32⟩ : BufTy).Contents (Elt F)),
    StableHlo.binary main_v109 main_v111 main_v112 (addf : (⟨S500000x128, .f32⟩ : BufTy).Contents (Elt F) → (⟨S500000x128, .f32⟩ : BufTy).Contents (Elt F) → (⟨S500000x128, .f32⟩ : BufTy).Contents (Elt F)) ]

/-- The buffers the stage's operations write, in order. -/
abbrev stage3_W : List (Ref sig .tc) :=
  [main_v108, main_v109, main_v110, main_v111, main_v112]

set_option maxHeartbeats 40000000 in
/-- Each writes one buffer, of that list. -/
theorem stage3_writes : (stage3 : List (HloOp τ sig (Elt F))).Forall fun op => op.writes ⊆ (stage3_W.map (Proc.devRef (τ := τ) .tc)).toFinset :=
  ⟨wsub (y := main_v108) (by decide), wsub (y := main_v109) (by decide), wsub (y := main_v110) (by decide), wsub (y := main_v111) (by decide), wsub (y := main_v112) (by decide)⟩

end Cert.ReferenceIdeal.Hand

end
-- ==== Proof.Ref.Stage4.lean ====
/- Stage 4 of the reference's @main: its operations 183 … 316 of 471 (calls written as the callee's operations over the
   call's buffers), ending with the one that writes `main_v226`. The same operations as the windows', cut where a
   value is complete instead of every sixty statements. Each writes one buffer of the list `stage4_W` (`stage4_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 4's 134 operations, in order. -/
abbrev stage4 : List (HloOp τ sig (Elt F)) :=
  [ StableHlo.unary main_arg13 main_v113 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v113 main_v114 rfl shapeCasts_S1x1x128x128_S128x128,
    StableHlo.unary main_arg14 main_v115 ((extractStridedSlice S1x1x128 ![0, 0, 0] · slices_S2x3x128_S1x1x128_0_0_0) : (⟨S2x3x128, .f32⟩ : BufTy).Contents (Elt F) → (⟨S1x1x128, .f32⟩ : BufTy).Contents (Elt F)),
    StableHlo.reshape main_v115 main_v116 rfl shapeCasts_S1x1x128_S128,
    StableHlo.unary main_arg15 main_v117 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v117 main_v118 rfl shapeCasts_S1x1x128x128_S128x128,
    StableHlo.unary main_arg2 main_v119 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v119 main_v120 rfl shapeCasts_S1x800000_S800000,
    StableHlo.unary main_arg2 main_v121 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v121 main_v122 rfl shapeCasts_S1x800000_S800000,
    StableHlo.nullary main_c_33 (constantI S_ 32 0#32),
    StableHlo.unary main_c_33 main_v123 (broadcastInDim S800000 ![] bcast_S_S800000 : (⟨S_, .i32⟩ : BufTy).Contents (Elt F) → (⟨S800000, .i32⟩ : BufTy).Contents (Elt F)),
    StableHlo.binary main_v120 main_v123 main_v124 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 200000#32),
    StableHlo.unary main_c_34 main_v125 (broadcastInDim S800000 ![] bcast_S_S800000 : (⟨S_, .i32⟩ : BufTy).Contents (Elt F) → (⟨S800000, .i32⟩ : BufTy).Contents (Elt F)),
    StableHlo.binary main_v120 main_v125 main_v126 (addi : (⟨S800000, .i32⟩ : BufTy).Contents (Elt F) → (⟨S800000, .i32⟩ : BufTy).Contents (Elt F) → (⟨S800000, .i32⟩ : BufTy).Contents (Elt F)),
    StableHlo.ternary main_v124 main_v126 main_v120 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v127 main_v128 (broadcastInDim S800000x1 ![0] bcast_S800000_S800000x1_0 : (⟨S800000, .i32⟩ : BufTy).Contents (Elt F) → (⟨S800000x1, .i32⟩ : BufTy).Contents (Elt F)),
    StableHlo.binary main_v77 main_v128 main_v129 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v130 (broadcastInDim S200000x128 ![] bcast_S_S200000x128 : (⟨S_, .f32⟩ : BufTy).Contents (Elt F) → (⟨S200000x128, .f32⟩ : BufTy).Contents (Elt F)),
    StableHlo.unary main_v122 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.nullary main_cst_35 (constant S_ .f32 0x3F800000#32),
    StableHlo.unary main_cst_35 main_v133 (broadcastInDim S800000 ![] bcast_S_S800000 : (⟨S_, .f32⟩ : BufTy).Contents (Elt F) → (⟨S800000, .f32⟩ : BufTy).Contents (Elt F)),
    StableHlo.nullary main_cst_36 (constant S_ .f32 0x00000000#32),
    StableHlo.unary main_cst_36 main_v134 (broadcastInDim S200000 ![] bcast_S_S200000 : (⟨S_, .f32⟩ : BufTy).Contents (Elt F) → (⟨S200000, .f32⟩ : BufTy).Contents (Elt F)),
    StableHlo.unary main_v122 main_v135 (broadcastInDim S800000x1 ![0] bcast_S800000_S800000x1_0 : (⟨S800000, .i32⟩ : BufTy).Contents (Elt F) → (⟨S800000x1, .i32⟩ : BufTy).Contents (Elt F)),
    StableHlo.ternary main_v134 main_v135 main_v133 main_v136 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F)),
    StableHlo.nullary main_cst_37 (constant S_ .f32 0x3F800000#32),
    StableHlo.unary main_cst_37 main_v137 (broadcastInDim S200000 ![] bcast_S_S200000 : (⟨S_, .f32⟩ : BufTy).Contents (Elt F) → (⟨S200000, .f32⟩ : BufTy).Contents (Elt F)),
    StableHlo.binary main_v136 main_v137 main_v138 (maximumf : (⟨S200000, .f32⟩ : BufTy).Contents (Elt F) → (⟨S200000, .f32⟩ : BufTy).Contents (Elt F) → (⟨S200000, .f32⟩ : BufTy).Contents (Elt F)),
    StableHlo.unary main_v138 main_v139 (broadcastInDim S200000x1 ![0] bcast_S200000_S200000x1_0 : (⟨S200000, .f32⟩ : BufTy).Contents (Elt F) → (⟨S200000x1, .f32⟩ : BufTy).Contents (Elt F)),
    StableHlo.unary main_v139 main_v140 (broadcastInDim S200000x128 ![0, 1] bcast_S200000x1_S200000x128_0_1 : (⟨S200000x1, .f32⟩ : BufTy).Contents (Elt F) → (⟨S200000x128, .f32⟩ : BufTy).Contents (Elt F)),
    StableHlo.binary main_v132 main_v140 main_v141 (Host.divf : (⟨S200000x128, .f32⟩ : BufTy).Contents (Elt F) → (⟨S200000x128, .f32⟩ : BufTy).Contents (Elt F) → (⟨S200000x128, .f32⟩ : BufTy).Contents (Elt F)),
    StableHlo.unary main_v114 main_v142 ((transpose S128x128 [1, 0] · transposes_S128x128_S128x128_1_0) : (⟨S128x128, .f32⟩ : BufTy).Contents (Elt F) → (⟨S128x128, .f32⟩ : BufTy).Contents (Elt F)),
    StableHlo.binary main_v141 main_v142 main_v143 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v116 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S200000x128 ![0, 1] bcast_S1x128_S200000x128_0_1 : (⟨S1x128, .f32⟩ : BufTy).Contents (Elt F) → (⟨S200000x128, .f32⟩ : BufTy).Contents (Elt F)),
    StableHlo.binary main_v143 main_v145 main_v146 (addf : (⟨S200000x128, .f32⟩ : BufTy).Contents (Elt F) → (⟨S200000x128, .f32⟩ : BufTy).Contents (Elt F) → (⟨S200000x128, .f32⟩ : BufTy).Contents (Elt F)),
    StableHlo.unary main_v118 main_v147 ((transpose S128x128 [1, 0] · transposes_S128x128_S128x128_1_0) : (⟨S128x128, .f32⟩ : BufTy).Contents (Elt F) → (⟨S128x128, .f32⟩ : BufTy).Contents (Elt F)),
    StableHlo.binary main_v77 main_v147 main_v148 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v146 main_v148 main_v149 (addf : (⟨S200000x128, .f32⟩ : BufTy).Contents (Elt F) → (⟨S200000x128, .f32⟩ : BufTy).Contents (Elt F) → (⟨S200000x128, .f32⟩ : BufTy).Contents (Elt F)),
    StableHlo.unary main_arg13 main_v150 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v150 main_v151 rfl shapeCasts_S1x1x128x128_S128x128,
    StableHlo.unary main_arg14 main_v152 ((extractStridedSlice S1x1x128 ![0, 1, 0] · slices_S2x3x128_S1x1x128_0_1_0) : (⟨S2x3x128, .f32⟩ : BufTy).Contents (Elt F) → (⟨S1x1x128, .f32⟩ : BufTy).Contents (Elt F)),
    StableHlo.reshape main_v152 main_v153 rfl shapeCasts_S1x1x128_S128,
    StableHlo.unary main_arg15 main_v154 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v154 main_v155 rfl shapeCasts_S1x1x128x128_S128x128,
    StableHlo.unary main_arg3 main_v156 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v156 main_v157 rfl shapeCasts_S1x1000000_S1000000,
    StableHlo.unary main_arg3 main_v158 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v158 main_v159 rfl shapeCasts_S1x1000000_S1000000,
    StableHlo.nullary main_c_38 (constantI S_ 32 0#32),
    StableHlo.unary main_c_38 main_v160 (broadcastInDim S1000000 ![] bcast_S_S1000000 : (⟨S_, .i32⟩ : BufTy).Contents (Elt F) → (⟨S1000000, .i32⟩ : BufTy).Contents (Elt F)),
    StableHlo.binary main_v157 main_v160 main_v161 (cmpi .slt : (⟨S1000000, .i32⟩ : BufTy).Contents (Elt F) → (⟨S1000000, .i32⟩ : BufTy).Contents (Elt F) → (⟨S1000000, .i1⟩ : BufTy).Contents (Elt F)),
    StableHlo.nullary main_c_39 (constantI S_ 32 200000#32),
    StableHlo.unary main_c_39 main_v162 (broadcastInDim S1000000 ![] bcast_S_S1000000 : (⟨S_, .i32⟩ : BufTy).Contents (Elt F) → (⟨S1000000, .i32⟩ : BufTy).Contents (Elt F)),
    StableHlo.binary main_v157 main_v162 main_v163 (addi : (⟨S1000000, .i32⟩ : BufTy).Contents (Elt F) → (⟨S1000000, .i32⟩ : BufTy).Contents (Elt F) → (⟨S1000000, .i32⟩ : BufTy).Contents (Elt F)),
    StableHlo.ternary main_v161 main_v163 main_v157 main_v164 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v164 main_v165 (broadcastInDim S1000000x1 ![0] bcast_S1000000_S1000000x1_0 : (⟨S1000000, .i32⟩ : BufTy).Contents (Elt F) → (⟨S1000000x1, .i32⟩ : BufTy).Contents (Elt F)),
    StableHlo.binary main_v77 main_v165 main_v166 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    StableHlo.nullary main_cst_40 (constant S_ .f32 0x00000000#32),
    StableHlo.unary main_cst_40 main_v167 (broadcastInDim S200000x128 ![] bcast_S_S200000x128 : (⟨S_, .f32⟩ : BufTy).Contents (Elt F) → (⟨S200000x128, .f32⟩ : BufTy).Contents (Elt F)),
    StableHlo.unary main_v159 main_v168 (broadcastInDim S1000000x1 ![0] bcast_S1000000_S1000000x1_0 : (⟨S1000000, .i32⟩ : BufTy).Contents (Elt F) → (⟨S1000000x1, .i32⟩ : BufTy).Contents (Elt F)),
    StableHlo.ternary main_v167 main_v168 main_v166 main_v169 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    StableHlo.nullary main_cst_41 (constant S_ .f32 0x3F800000#32),
    StableHlo.unary main_cst_41 main_v170 (broadcastInDim S1000000 ![] bcast_S_S1000000 : (⟨S_, .f32⟩ : BufTy).Contents (Elt F) → (⟨S1000000, .f32⟩ : BufTy).Contents (Elt F)),
    StableHlo.nullary main_cst_42 (constant S_ .f32 0x00000000#32),
    StableHlo.unary main_cst_42 main_v171 (broadcastInDim S200000 ![] bcast_S_S200000 : (⟨S_, .f32⟩ : BufTy).Contents (Elt F) → (⟨S200000, .f32⟩ : BufTy).Contents (Elt F)),
    StableHlo.unary main_v159 main_v172 (broadcastInDim S1000000x1 ![0] bcast_S1000000_S1000000x1_0 : (⟨S1000000, .i32⟩ : BufTy).Contents (Elt F) → (⟨S1000000x1, .i32⟩ : BufTy).Contents (Elt F)),
    StableHlo.ternary main_v171 main_v172 main_v170 main_v173 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    StableHlo.nullary main_cst_43 (constant S_ .f32 0x3F800000#32),
    StableHlo.unary main_cst_43 main_v174 (broadcastInDim S200000 ![] bcast_S_S200000 : (⟨S_, .f32⟩ : BufTy).Contents (Elt F) → (⟨S200000, .f32⟩ : BufTy).Contents (Elt F)),
    StableHlo.binary main_v173 main_v174 main_v175 (maximumf : (⟨S200000, .f32⟩ : BufTy).Contents (Elt F) → (⟨S200000, .f32⟩ : BufTy).Contents (Elt F) → (⟨S200000, .f32⟩ : BufTy).Contents (Elt F)),
    StableHlo.unary main_v175 main_v176 (broadcastInDim S200000x1 ![0] bcast_S200000_S200000x1_0 : (⟨S200000, .f32⟩ : BufTy).Contents (Elt F) → (⟨S200000x1, .f32⟩ : BufTy).Contents (Elt F)),
    StableHlo.unary main_v176 main_v177 (broadcastInDim S200000x128 ![0, 1] bcast_S200000x1_S200000x128_0_1 : (⟨S200000x1, .f32⟩ : BufTy).Contents (Elt F) → (⟨S200000x128, .f32⟩ : BufTy).Contents (Elt F)),
    StableHlo.binary main_v169 main_v177 main_v178 (Host.divf : (⟨S200000x128, .f32⟩ : BufTy).Contents (Elt F) → (⟨S200000x128, .f32⟩ : BufTy).Contents (Elt F) → (⟨S200000x128, .f32⟩ : BufTy).Contents (Elt F)),
    StableHlo.unary main_v151 main_v179 ((transpose S128x128 [1, 0] · transposes_S128x128_S128x128_1_0) : (⟨S128x128, .f32⟩ : BufTy).Contents (Elt F) → (⟨S128x128, .f32⟩ : BufTy).Contents (Elt F)),
    StableHlo.binary main_v178 main_v179 main_v180 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v153 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S200000x128 ![0, 1] bcast_S1x128_S200000x128_0_1 : (⟨S1x128, .f32⟩ : BufTy).Contents (Elt F) → (⟨S200000x128, .f32⟩ : BufTy).Contents (Elt F)),
    StableHlo.binary main_v180 main_v182 main_v183 (addf : (⟨S200000x128, .f32⟩ : BufTy).Contents (Elt F) → (⟨S200000x128, .f32⟩ : BufTy).Contents (Elt F) → (⟨S200000x128, .f32⟩ : BufTy).Contents (Elt F)),
    StableHlo.unary main_v155 main_v184 ((transpose S128x128 [1, 0] · transposes_S128x128_S128x128_1_0) : (⟨S128x128, .f32⟩ : BufTy).Contents (Elt F) → (⟨S128x128, .f32⟩ : BufTy).Contents (Elt F)),
    StableHlo.binary main_v77 main_v184 main_v185 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v183 main_v185 main_v186 (addf : (⟨S200000x128, .f32⟩ : BufTy).Contents (Elt F) → (⟨S200000x128, .f32⟩ : BufTy).Contents (Elt F) → (⟨S200000x128, .f32⟩ : BufTy).Contents (Elt F)),
    StableHlo.binary main_v149 main_v186 main_v187 (addf : (⟨S200000x128, .f32⟩ : BufTy).Contents (Elt F) → (⟨S200000x128, .f32⟩ : BufTy).Contents (Elt F) → (⟨S200000x128, .f32⟩ : BufTy).Contents (Elt F)),
    StableHlo.unary main_arg13 main_v188 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v188 main_v189 rfl shapeCasts_S1x1x128x128_S128x128,
    StableHlo.unary main_arg14 main_v190 ((extractStridedSlice S1x1x128 ![0, 2, 0] · slices_S2x3x128_S1x1x128_0_2_0) : (⟨S2x3x128, .f32⟩ : BufTy).Contents (Elt F) → (⟨S1x1x128, .f32⟩ : BufTy).Contents (Elt F)),
    StableHlo.reshape main_v190 main_v191 rfl shapeCasts_S1x1x128_S128,
    StableHlo.unary main_arg15 main_v192 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v192 main_v193 rfl shapeCasts_S1x1x128x128_S128x128,
    StableHlo.unary main_arg4 main_v194 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v194 main_v195 rfl shapeCasts_S1x500000_S500000,
    StableHlo.unary main_arg4 main_v196 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v196 main_v197 rfl shapeCasts_S1x500000_S500000,
    StableHlo.nullary main_c_44 (constantI S_ 32 0#32),
    StableHlo.unary main_c_44 main_v198 (broadcastInDim S500000 ![] bcast_S_S500000 : (⟨S_, .i32⟩ : BufTy).Contents (Elt F) → (⟨S500000, .i32⟩ : BufTy).Contents (Elt F)),
    StableHlo.binary main_v195 main_v198 main_v199 (cmpi .slt : (⟨S500000, .i32⟩ : BufTy).Contents (Elt F) → (⟨S500000, .i32⟩ : BufTy).Contents (Elt F) → (⟨S500000, .i1⟩ : BufTy).Contents (Elt F)),
    StableHlo.nullary main_c_45 (constantI S_ 32 500000#32),
    StableHlo.unary main_c_45 main_v200 (broadcastInDim S500000 ![] bcast_S_S500000 : (⟨S_, .i32⟩ : BufTy).Contents (Elt F) → (⟨S500000, .i32⟩ : BufTy).Contents (Elt F)),
    StableHlo.binary main_v195 main_v200 main_v201 (addi : (⟨S500000, .i32⟩ : BufTy).Contents (Elt F) → (⟨S500000, .i32⟩ : BufTy).Contents (Elt F) → (⟨S500000, .i32⟩ : BufTy).Contents (Elt F)),
    StableHlo.ternary main_v199 main_v201 main_v195 main_v202 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v202 main_v203 (broadcastInDim S500000x1 ![0] bcast_S500000_S500000x1_0 : (⟨S500000, .i32⟩ : BufTy).Contents (Elt F) → (⟨S500000x1, .i32⟩ : BufTy).Contents (Elt F)),
    StableHlo.binary main_v112 main_v203 main_v204 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_46 (constant S_ .f32 0x00000000#32),
    StableHlo.unary main_cst_46 main_v205 (broadcastInDim S200000x128 ![] bcast_S_S200000x128 : (⟨S_, .f32⟩ : BufTy).Contents (Elt F) → (⟨S200000x128, .f32⟩ : BufTy).Contents (Elt F)),
    StableHlo.unary main_v197 main_v206 (broadcastInDim S500000x1 ![0] bcast_S500000_S500000x1_0 : (⟨S500000, .i32⟩ : BufTy).Contents (Elt F) → (⟨S500000x1, .i32⟩ : BufTy).Contents (Elt F)),
    StableHlo.ternary main_v205 main_v206 main_v204 main_v207 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_47 (constant S_ .f32 0x3F800000#32),
    StableHlo.unary main_cst_47 main_v208 (broadcastInDim S500000 ![] bcast_S_S500000 : (⟨S_, .f32⟩ : BufTy).Contents (Elt F) → (⟨S500000, .f32⟩ : BufTy).Contents (Elt F)),
    StableHlo.nullary main_cst_48 (constant S_ .f32 0x00000000#32),
    StableHlo.unary main_cst_48 main_v209 (broadcastInDim S200000 ![] bcast_S_S200000 : (⟨S_, .f32⟩ : BufTy).Contents (Elt F) → (⟨S200000, .f32⟩ : BufTy).Contents (Elt F)),
    StableHlo.unary main_v197 main_v210 (broadcastInDim S500000x1 ![0] bcast_S500000_S500000x1_0 : (⟨S500000, .i32⟩ : BufTy).Contents (Elt F) → (⟨S500000x1, .i32⟩ : BufTy).Contents (Elt F)),
    StableHlo.ternary main_v209 main_v210 main_v208 main_v211 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_49 (constant S_ .f32 0x3F800000#32),
    StableHlo.unary main_cst_49 main_v212 (broadcastInDim S200000 ![] bcast_S_S200000 : (⟨S_, .f32⟩ : BufTy).Contents (Elt F) → (⟨S200000, .f32⟩ : BufTy).Contents (Elt F)),
    StableHlo.binary main_v211 main_v212 main_v213 (maximumf : (⟨S200000, .f32⟩ : BufTy).Contents (Elt F) → (⟨S200000, .f32⟩ : BufTy).Contents (Elt F) → (⟨S200000, .f32⟩ : BufTy).Contents (Elt F)),
    StableHlo.unary main_v213 main_v214 (broadcastInDim S200000x1 ![0] bcast_S200000_S200000x1_0 : (⟨S200000, .f32⟩ : BufTy).Contents (Elt F) → (⟨S200000x1, .f32⟩ : BufTy).Contents (Elt F)),
    StableHlo.unary main_v214 main_v215 (broadcastInDim S200000x128 ![0, 1] bcast_S200000x1_S200000x128_0_1 : (⟨S200000x1, .f32⟩ : BufTy).Contents (Elt F) → (⟨S200000x128, .f32⟩ : BufTy).Contents (Elt F)),
    StableHlo.binary main_v207 main_v215 main_v216 (Host.divf : (⟨S200000x128, .f32⟩ : BufTy).Contents (Elt F) → (⟨S200000x128, .f32⟩ : BufTy).Contents (Elt F) → (⟨S200000x128, .f32⟩ : BufTy).Contents (Elt F)),
    StableHlo.unary main_v189 main_v217 ((transpose S128x128 [1, 0] · transposes_S128x128_S128x128_1_0) : (⟨S128x128, .f32⟩ : BufTy).Contents (Elt F) → (⟨S128x128, .f32⟩ : BufTy).Contents (Elt F)),
    StableHlo.binary main_v216 main_v217 main_v218 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v191 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S200000x128 ![0, 1] bcast_S1x128_S200000x128_0_1 : (⟨S1x128, .f32⟩ : BufTy).Contents (Elt F) → (⟨S200000x128, .f32⟩ : BufTy).Contents (Elt F)),
    StableHlo.binary main_v218 main_v220 main_v221 (addf : (⟨S200000x128, .f32⟩ : BufTy).Contents (Elt F) → (⟨S200000x128, .f32⟩ : BufTy).Contents (Elt F) → (⟨S200000x128, .f32⟩ : BufTy).Contents (Elt F)),
    StableHlo.unary main_v193 main_v222 ((transpose S128x128 [1, 0] · transposes_S128x128_S128x128_1_0) : (⟨S128x128, .f32⟩ : BufTy).Contents (Elt F) → (⟨S128x128, .f32⟩ : BufTy).Contents (Elt F)),
    StableHlo.binary main_v77 main_v222 main_v223 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v221 main_v223 main_v224 (addf : (⟨S200000x128, .f32⟩ : BufTy).Contents (Elt F) → (⟨S200000x128, .f32⟩ : BufTy).Contents (Elt F) → (⟨S200000x128, .f32⟩ : BufTy).Contents (Elt F)),
    StableHlo.binary main_v187 main_v224 main_v225 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x128, .f32⟩) (broadcastInDim S200000x128 ![] bcast_S_S200000x128),
    StableHlo.TRef.binary (.of main_v225 : StableHlo.TRef sig ⟨S200000x128, .f32⟩) (.of main_call7_v0 : StableHlo.TRef sig ⟨S200000x128, .f32⟩) (.of main_v226 : StableHlo.TRef sig ⟨S200000x128, .f32⟩) maximumf ]

/-- The buffers the stage's operations write, in order. -/
abbrev stage4_W : List (Ref sig .tc) :=
  [main_v113, main_v114, main_v115, main_v116, main_v117, main_v118, main_v119, main_v120, main_v121, main_v122, main_c_33, main_v123, main_v124, main_c_34, main_v125, main_v126, main_v127, main_v128, main_v129, main_cst, main_v130, main_v131, main_v132, main_cst_35, main_v133, main_cst_36, main_v134, main_v135, main_v136, main_cst_37, main_v137, main_v138, main_v139, main_v140, main_v141, main_v142, main_v143, main_v144, main_v145, main_v146, main_v147, main_v148, main_v149, main_v150, main_v151, main_v152, main_v153, main_v154, main_v155, main_v156, main_v157, main_v158, main_v159, main_c_38, main_v160, main_v161, main_c_39, main_v162, main_v163, main_v164, main_v165, main_v166, main_cst_40, main_v167, main_v168, main_v169, main_cst_41, main_v170, main_cst_42, main_v171, main_v172, main_v173, main_cst_43, main_v174, main_v175, main_v176, main_v177, main_v178, main_v179, main_v180, main_v181, main_v182, main_v183, main_v184, main_v185, main_v186, main_v187, main_v188, main_v189, main_v190, main_v191, main_v192, main_v193, main_v194, main_v195, main_v196, main_v197, main_c_44, main_v198, main_v199, main_c_45, main_v200, main_v201, main_v202, main_v203, main_v204, main_cst_46, main_v205, main_v206, main_v207, main_cst_47, main_v208, main_cst_48, main_v209, main_v210, main_v211, main_cst_49, main_v212, main_v213, main_v214, main_v215, main_v216, main_v217, main_v218, main_v219, main_v220, main_v221, main_v222, main_v223, main_v224, main_v225, main_call7_cst, main_call7_v0, main_v226]

set_option maxHeartbeats 40000000 in
/-- Each writes one buffer, of that list. -/
theorem stage4_writes : (stage4 : List (HloOp τ sig (Elt F))).Forall fun op => op.writes ⊆ (stage4_W.map (Proc.devRef (τ := τ) .tc)).toFinset :=
  ⟨wsub (y := main_v113) (by decide), wsub (y := main_v114) (by decide), wsub (y := main_v115) (by decide), wsub (y := main_v116) (by decide), wsub (y := main_v117) (by decide), wsub (y := main_v118) (by decide), wsub (y := main_v119) (by decide), wsub (y := main_v120) (by decide), wsub (y := main_v121) (by decide), wsub (y := main_v122) (by decide), wsub (y := main_c_33) (by decide), wsub (y := main_v123) (by decide), wsub (y := main_v124) (by decide), wsub (y := main_c_34) (by decide), wsub (y := main_v125) (by decide), wsub (y := main_v126) (by decide), wsub (y := main_v127) (by decide), wsub (y := main_v128) (by decide), wsub (y := main_v129) (by decide), wsub (y := main_cst) (by decide), wsub (y := main_v130) (by decide), wsub (y := main_v131) (by decide), wsub (y := main_v132) (by decide), wsub (y := main_cst_35) (by decide), wsub (y := main_v133) (by decide), wsub (y := main_cst_36) (by decide), wsub (y := main_v134) (by decide), wsub (y := main_v135) (by decide), wsub (y := main_v136) (by decide), wsub (y := main_cst_37) (by decide), wsub (y := main_v137) (by decide), wsub (y := main_v138) (by decide), wsub (y := main_v139) (by decide), wsub (y := main_v140) (by decide), wsub (y := main_v141) (by decide), wsub (y := main_v142) (by decide), wsub (y := main_v143) (by decide), wsub (y := main_v144) (by decide), wsub (y := main_v145) (by decide), wsub (y := main_v146) (by decide), wsub (y := main_v147) (by decide), wsub (y := main_v148) (by decide), wsub (y := main_v149) (by decide), wsub (y := main_v150) (by decide), wsub (y := main_v151) (by decide), wsub (y := main_v152) (by decide), wsub (y := main_v153) (by decide), wsub (y := main_v154) (by decide), wsub (y := main_v155) (by decide), wsub (y := main_v156) (by decide), wsub (y := main_v157) (by decide), wsub (y := main_v158) (by decide), wsub (y := main_v159) (by decide), wsub (y := main_c_38) (by decide), wsub (y := main_v160) (by decide), wsub (y := main_v161) (by decide), wsub (y := main_c_39) (by decide), wsub (y := main_v162) (by decide), wsub (y := main_v163) (by decide), wsub (y := main_v164) (by decide), wsub (y := main_v165) (by decide), wsub (y := main_v166) (by decide), wsub (y := main_cst_40) (by decide), wsub (y := main_v167) (by decide), wsub (y := main_v168) (by decide), wsub (y := main_v169) (by decide), wsub (y := main_cst_41) (by decide), wsub (y := main_v170) (by decide), wsub (y := main_cst_42) (by decide), wsub (y := main_v171) (by decide), wsub (y := main_v172) (by decide), wsub (y := main_v173) (by decide), wsub (y := main_cst_43) (by decide), wsub (y := main_v174) (by decide), wsub (y := main_v175) (by decide), wsub (y := main_v176) (by decide), wsub (y := main_v177) (by decide), wsub (y := main_v178) (by decide), wsub (y := main_v179) (by decide), wsub (y := main_v180) (by decide), wsub (y := main_v181) (by decide), wsub (y := main_v182) (by decide), wsub (y := main_v183) (by decide), wsub (y := main_v184) (by decide), wsub (y := main_v185) (by decide), wsub (y := main_v186) (by decide), wsub (y := main_v187) (by decide), wsub (y := main_v188) (by decide), wsub (y := main_v189) (by decide), wsub (y := main_v190) (by decide), wsub (y := main_v191) (by decide), wsub (y := main_v192) (by decide), wsub (y := main_v193) (by decide), wsub (y := main_v194) (by decide), wsub (y := main_v195) (by decide), wsub (y := main_v196) (by decide), wsub (y := main_v197) (by decide), wsub (y := main_c_44) (by decide), wsub (y := main_v198) (by decide), wsub (y := main_v199) (by decide), wsub (y := main_c_45) (by decide), wsub (y := main_v200) (by decide), wsub (y := main_v201) (by decide), wsub (y := main_v202) (by decide), wsub (y := main_v203) (by decide), wsub (y := main_v204) (by decide), wsub (y := main_cst_46) (by decide), wsub (y := main_v205) (by decide), wsub (y := main_v206) (by decide), wsub (y := main_v207) (by decide), wsub (y := main_cst_47) (by decide), wsub (y := main_v208) (by decide), wsub (y := main_cst_48) (by decide), wsub (y := main_v209) (by decide), wsub (y := main_v210) (by decide), wsub (y := main_v211) (by decide), wsub (y := main_cst_49) (by decide), wsub (y := main_v212) (by decide), wsub (y := main_v213) (by decide), wsub (y := main_v214) (by decide), wsub (y := main_v215) (by decide), wsub (y := main_v216) (by decide), wsub (y := main_v217) (by decide), wsub (y := main_v218) (by decide), wsub (y := main_v219) (by decide), wsub (y := main_v220) (by decide), wsub (y := main_v221) (by decide), wsub (y := main_v222) (by decide), wsub (y := main_v223) (by decide), wsub (y := main_v224) (by decide), wsub (y := main_v225) (by decide), wsub (y := main_call7_cst) (by decide), wsub (y := main_call7_v0) (by decide), wsub (y := main_v226) (by decide)⟩

end Cert.ReferenceIdeal.Hand

end
-- ==== Proof.Ref.Stage5.lean ====
/- Stage 5 of the reference's @main: its operations 317 … 450 of 471 (calls written as the callee's operations over the
   call's buffers), ending with the one that writes `main_v340`. The same operations as the windows', cut where a
   value is complete instead of every sixty statements. Each writes one buffer of the list `stage5_W` (`stage5_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 5's 134 operations, in order. -/
abbrev stage5 : List (HloOp τ sig (Elt F)) :=
  [ StableHlo.unary main_arg13 main_v227 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v227 main_v228 rfl shapeCasts_S1x1x128x128_S128x128,
    StableHlo.unary main_arg14 main_v229 ((extractStridedSlice S1x1x128 ![1, 0, 0] · slices_S2x3x128_S1x1x128_1_0_0) : (⟨S2x3x128, .f32⟩ : BufTy).Contents (Elt F) → (⟨S1x1x128, .f32⟩ : BufTy).Contents (Elt F)),
    StableHlo.reshape main_v229 main_v230 rfl shapeCasts_S1x1x128_S128,
    StableHlo.unary main_arg15 main_v231 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v231 main_v232 rfl shapeCasts_S1x1x128x128_S128x128,
    StableHlo.unary main_arg2 main_v233 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v233 main_v234 rfl shapeCasts_S1x800000_S800000,
    StableHlo.unary main_arg2 main_v235 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v235 main_v236 rfl shapeCasts_S1x800000_S800000,
    StableHlo.nullary main_c_50 (constantI S_ 32 0#32),
    StableHlo.unary main_c_50 main_v237 (broadcastInDim S800000 ![] bcast_S_S800000 : (⟨S_, .i32⟩ : BufTy).Contents (Elt F) → (⟨S800000, .i32⟩ : BufTy).Contents (Elt F)),
    StableHlo.binary main_v234 main_v237 main_v238 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 200000#32),
    StableHlo.unary main_c_51 main_v239 (broadcastInDim S800000 ![] bcast_S_S800000 : (⟨S_, .i32⟩ : BufTy).Contents (Elt F) → (⟨S800000, .i32⟩ : BufTy).Contents (Elt F)),
    StableHlo.binary main_v234 main_v239 main_v240 (addi : (⟨S800000, .i32⟩ : BufTy).Contents (Elt F) → (⟨S800000, .i32⟩ : BufTy).Contents (Elt F) → (⟨S800000, .i32⟩ : BufTy).Contents (Elt F)),
    StableHlo.ternary main_v238 main_v240 main_v234 main_v241 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v241 main_v242 (broadcastInDim S800000x1 ![0] bcast_S800000_S800000x1_0 : (⟨S800000, .i32⟩ : BufTy).Contents (Elt F) → (⟨S800000x1, .i32⟩ : BufTy).Contents (Elt F)),
    StableHlo.binary main_v226 main_v242 main_v243 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    StableHlo.nullary main_cst_52 (constant S_ .f32 0x00000000#32),
    StableHlo.unary main_cst_52 main_v244 (broadcastInDim S200000x128 ![] bcast_S_S200000x128 : (⟨S_, .f32⟩ : BufTy).Contents (Elt F) → (⟨S200000x128, .f32⟩ : BufTy).Contents (Elt F)),
    StableHlo.unary main_v236 main_v245 (broadcastInDim S800000x1 ![0] bcast_S800000_S800000x1_0 : (⟨S800000, .i32⟩ : BufTy).Contents (Elt F) → (⟨S800000x1, .i32⟩ : BufTy).Contents (Elt F)),
    StableHlo.ternary main_v244 main_v245 main_v243 main_v246 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.nullary main_cst_53 (constant S_ .f32 0x3F800000#32),
    StableHlo.unary main_cst_53 main_v247 (broadcastInDim S800000 ![] bcast_S_S800000 : (⟨S_, .f32⟩ : BufTy).Contents (Elt F) → (⟨S800000, .f32⟩ : BufTy).Contents (Elt F)),
    StableHlo.nullary main_cst_54 (constant S_ .f32 0x00000000#32),
    StableHlo.unary main_cst_54 main_v248 (broadcastInDim S200000 ![] bcast_S_S200000 : (⟨S_, .f32⟩ : BufTy).Contents (Elt F) → (⟨S200000, .f32⟩ : BufTy).Contents (Elt F)),
    StableHlo.unary main_v236 main_v249 (broadcastInDim S800000x1 ![0] bcast_S800000_S800000x1_0 : (⟨S800000, .i32⟩ : BufTy).Contents (Elt F) → (⟨S800000x1, .i32⟩ : BufTy).Contents (Elt F)),
    StableHlo.ternary main_v248 main_v249 main_v247 main_v250 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F)),
    StableHlo.nullary main_cst_55 (constant S_ .f32 0x3F800000#32),
    StableHlo.unary main_cst_55 main_v251 (broadcastInDim S200000 ![] bcast_S_S200000 : (⟨S_, .f32⟩ : BufTy).Contents (Elt F) → (⟨S200000, .f32⟩ : BufTy).Contents (Elt F)),
    StableHlo.binary main_v250 main_v251 main_v252 (maximumf : (⟨S200000, .f32⟩ : BufTy).Contents (Elt F) → (⟨S200000, .f32⟩ : BufTy).Contents (Elt F) → (⟨S200000, .f32⟩ : BufTy).Contents (Elt F)),
    StableHlo.unary main_v252 main_v253 (broadcastInDim S200000x1 ![0] bcast_S200000_S200000x1_0 : (⟨S200000, .f32⟩ : BufTy).Contents (Elt F) → (⟨S200000x1, .f32⟩ : BufTy).Contents (Elt F)),
    StableHlo.unary main_v253 main_v254 (broadcastInDim S200000x128 ![0, 1] bcast_S200000x1_S200000x128_0_1 : (⟨S200000x1, .f32⟩ : BufTy).Contents (Elt F) → (⟨S200000x128, .f32⟩ : BufTy).Contents (Elt F)),
    StableHlo.binary main_v246 main_v254 main_v255 (Host.divf : (⟨S200000x128, .f32⟩ : BufTy).Contents (Elt F) → (⟨S200000x128, .f32⟩ : BufTy).Contents (Elt F) → (⟨S200000x128, .f32⟩ : BufTy).Contents (Elt F)),
    StableHlo.unary main_v228 main_v256 ((transpose S128x128 [1, 0] · transposes_S128x128_S128x128_1_0) : (⟨S128x128, .f32⟩ : BufTy).Contents (Elt F) → (⟨S128x128, .f32⟩ : BufTy).Contents (Elt F)),
    StableHlo.binary main_v255 main_v256 main_v257 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v230 main_v258 (broadcastInDim S1x128 ![1] bcast_S128_S1x128_1 : (⟨S128, .f32⟩ : BufTy).Contents (Elt F) → (⟨S1x128, .f32⟩ : BufTy).Contents (Elt F)),
    StableHlo.unary main_v258 main_v259 (broadcastInDim S200000x128 ![0, 1] bcast_S1x128_S200000x128_0_1 : (⟨S1x128, .f32⟩ : BufTy).Contents (Elt F) → (⟨S200000x128, .f32⟩ : BufTy).Contents (Elt F)),
    StableHlo.binary main_v257 main_v259 main_v260 (addf : (⟨S200000x128, .f32⟩ : BufTy).Contents (Elt F) → (⟨S200000x128, .f32⟩ : BufTy).Contents (Elt F) → (⟨S200000x128, .f32⟩ : BufTy).Contents (Elt F)),
    StableHlo.unary main_v232 main_v261 ((transpose S128x128 [1, 0] · transposes_S128x128_S128x128_1_0) : (⟨S128x128, .f32⟩ : BufTy).Contents (Elt F) → (⟨S128x128, .f32⟩ : BufTy).Contents (Elt F)),
    StableHlo.binary main_v226 main_v261 main_v262 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v260 main_v262 main_v263 (addf : (⟨S200000x128, .f32⟩ : BufTy).Contents (Elt F) → (⟨S200000x128, .f32⟩ : BufTy).Contents (Elt F) → (⟨S200000x128, .f32⟩ : BufTy).Contents (Elt F)),
    StableHlo.unary main_arg13 main_v264 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v264 main_v265 rfl shapeCasts_S1x1x128x128_S128x128,
    StableHlo.unary main_arg14 main_v266 ((extractStridedSlice S1x1x128 ![1, 1, 0] · slices_S2x3x128_S1x1x128_1_1_0) : (⟨S2x3x128, .f32⟩ : BufTy).Contents (Elt F) → (⟨S1x1x128, .f32⟩ : BufTy).Contents (Elt F)),
    StableHlo.reshape main_v266 main_v267 rfl shapeCasts_S1x1x128_S128,
    StableHlo.unary main_arg15 main_v268 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v268 main_v269 rfl shapeCasts_S1x1x128x128_S128x128,
    StableHlo.unary main_arg3 main_v270 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v270 main_v271 rfl shapeCasts_S1x1000000_S1000000,
    StableHlo.unary main_arg3 main_v272 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v272 main_v273 rfl shapeCasts_S1x1000000_S1000000,
    StableHlo.nullary main_c_56 (constantI S_ 32 0#32),
    StableHlo.unary main_c_56 main_v274 (broadcastInDim S1000000 ![] bcast_S_S1000000 : (⟨S_, .i32⟩ : BufTy).Contents (Elt F) → (⟨S1000000, .i32⟩ : BufTy).Contents (Elt F)),
    StableHlo.binary main_v271 main_v274 main_v275 (cmpi .slt : (⟨S1000000, .i32⟩ : BufTy).Contents (Elt F) → (⟨S1000000, .i32⟩ : BufTy).Contents (Elt F) → (⟨S1000000, .i1⟩ : BufTy).Contents (Elt F)),
    StableHlo.nullary main_c_57 (constantI S_ 32 200000#32),
    StableHlo.unary main_c_57 main_v276 (broadcastInDim S1000000 ![] bcast_S_S1000000 : (⟨S_, .i32⟩ : BufTy).Contents (Elt F) → (⟨S1000000, .i32⟩ : BufTy).Contents (Elt F)),
    StableHlo.binary main_v271 main_v276 main_v277 (addi : (⟨S1000000, .i32⟩ : BufTy).Contents (Elt F) → (⟨S1000000, .i32⟩ : BufTy).Contents (Elt F) → (⟨S1000000, .i32⟩ : BufTy).Contents (Elt F)),
    StableHlo.ternary main_v275 main_v277 main_v271 main_v278 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v278 main_v279 (broadcastInDim S1000000x1 ![0] bcast_S1000000_S1000000x1_0 : (⟨S1000000, .i32⟩ : BufTy).Contents (Elt F) → (⟨S1000000x1, .i32⟩ : BufTy).Contents (Elt F)),
    StableHlo.binary main_v226 main_v279 main_v280 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    StableHlo.nullary main_cst_58 (constant S_ .f32 0x00000000#32),
    StableHlo.unary main_cst_58 main_v281 (broadcastInDim S200000x128 ![] bcast_S_S200000x128 : (⟨S_, .f32⟩ : BufTy).Contents (Elt F) → (⟨S200000x128, .f32⟩ : BufTy).Contents (Elt F)),
    StableHlo.unary main_v273 main_v282 (broadcastInDim S1000000x1 ![0] bcast_S1000000_S1000000x1_0 : (⟨S1000000, .i32⟩ : BufTy).Contents (Elt F) → (⟨S1000000x1, .i32⟩ : BufTy).Contents (Elt F)),
    StableHlo.ternary main_v281 main_v282 main_v280 main_v283 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    StableHlo.nullary main_cst_59 (constant S_ .f32 0x3F800000#32),
    StableHlo.unary main_cst_59 main_v284 (broadcastInDim S1000000 ![] bcast_S_S1000000 : (⟨S_, .f32⟩ : BufTy).Contents (Elt F) → (⟨S1000000, .f32⟩ : BufTy).Contents (Elt F)),
    StableHlo.nullary main_cst_60 (constant S_ .f32 0x00000000#32),
    StableHlo.unary main_cst_60 main_v285 (broadcastInDim S200000 ![] bcast_S_S200000 : (⟨S_, .f32⟩ : BufTy).Contents (Elt F) → (⟨S200000, .f32⟩ : BufTy).Contents (Elt F)),
    StableHlo.unary main_v273 main_v286 (broadcastInDim S1000000x1 ![0] bcast_S1000000_S1000000x1_0 : (⟨S1000000, .i32⟩ : BufTy).Contents (Elt F) → (⟨S1000000x1, .i32⟩ : BufTy).Contents (Elt F)),
    StableHlo.ternary main_v285 main_v286 main_v284 main_v287 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    StableHlo.nullary main_cst_61 (constant S_ .f32 0x3F800000#32),
    StableHlo.unary main_cst_61 main_v288 (broadcastInDim S200000 ![] bcast_S_S200000 : (⟨S_, .f32⟩ : BufTy).Contents (Elt F) → (⟨S200000, .f32⟩ : BufTy).Contents (Elt F)),
    StableHlo.binary main_v287 main_v288 main_v289 (maximumf : (⟨S200000, .f32⟩ : BufTy).Contents (Elt F) → (⟨S200000, .f32⟩ : BufTy).Contents (Elt F) → (⟨S200000, .f32⟩ : BufTy).Contents (Elt F)),
    StableHlo.unary main_v289 main_v290 (broadcastInDim S200000x1 ![0] bcast_S200000_S200000x1_0 : (⟨S200000, .f32⟩ : BufTy).Contents (Elt F) → (⟨S200000x1, .f32⟩ : BufTy).Contents (Elt F)),
    StableHlo.unary main_v290 main_v291 (broadcastInDim S200000x128 ![0, 1] bcast_S200000x1_S200000x128_0_1 : (⟨S200000x1, .f32⟩ : BufTy).Contents (Elt F) → (⟨S200000x128, .f32⟩ : BufTy).Contents (Elt F)),
    StableHlo.binary main_v283 main_v291 main_v292 (Host.divf : (⟨S200000x128, .f32⟩ : BufTy).Contents (Elt F) → (⟨S200000x128, .f32⟩ : BufTy).Contents (Elt F) → (⟨S200000x128, .f32⟩ : BufTy).Contents (Elt F)),
    StableHlo.unary main_v265 main_v293 ((transpose S128x128 [1, 0] · transposes_S128x128_S128x128_1_0) : (⟨S128x128, .f32⟩ : BufTy).Contents (Elt F) → (⟨S128x128, .f32⟩ : BufTy).Contents (Elt F)),
    StableHlo.binary main_v292 main_v293 main_v294 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v267 main_v295 (broadcastInDim S1x128 ![1] bcast_S128_S1x128_1 : (⟨S128, .f32⟩ : BufTy).Contents (Elt F) → (⟨S1x128, .f32⟩ : BufTy).Contents (Elt F)),
    StableHlo.unary main_v295 main_v296 (broadcastInDim S200000x128 ![0, 1] bcast_S1x128_S200000x128_0_1 : (⟨S1x128, .f32⟩ : BufTy).Contents (Elt F) → (⟨S200000x128, .f32⟩ : BufTy).Contents (Elt F)),
    StableHlo.binary main_v294 main_v296 main_v297 (addf : (⟨S200000x128, .f32⟩ : BufTy).Contents (Elt F) → (⟨S200000x128, .f32⟩ : BufTy).Contents (Elt F) → (⟨S200000x128, .f32⟩ : BufTy).Contents (Elt F)),
    StableHlo.unary main_v269 main_v298 ((transpose S128x128 [1, 0] · transposes_S128x128_S128x128_1_0) : (⟨S128x128, .f32⟩ : BufTy).Contents (Elt F) → (⟨S128x128, .f32⟩ : BufTy).Contents (Elt F)),
    StableHlo.binary main_v226 main_v298 main_v299 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v297 main_v299 main_v300 (addf : (⟨S200000x128, .f32⟩ : BufTy).Contents (Elt F) → (⟨S200000x128, .f32⟩ : BufTy).Contents (Elt F) → (⟨S200000x128, .f32⟩ : BufTy).Contents (Elt F)),
    StableHlo.binary main_v263 main_v300 main_v301 (addf : (⟨S200000x128, .f32⟩ : BufTy).Contents (Elt F) → (⟨S200000x128, .f32⟩ : BufTy).Contents (Elt F) → (⟨S200000x128, .f32⟩ : BufTy).Contents (Elt F)),
    StableHlo.unary main_arg13 main_v302 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v302 main_v303 rfl shapeCasts_S1x1x128x128_S128x128,
    StableHlo.unary main_arg14 main_v304 ((extractStridedSlice S1x1x128 ![1, 2, 0] · slices_S2x3x128_S1x1x128_1_2_0) : (⟨S2x3x128, .f32⟩ : BufTy).Contents (Elt F) → (⟨S1x1x128, .f32⟩ : BufTy).Contents (Elt F)),
    StableHlo.reshape main_v304 main_v305 rfl shapeCasts_S1x1x128_S128,
    StableHlo.unary main_arg15 main_v306 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v306 main_v307 rfl shapeCasts_S1x1x128x128_S128x128,
    StableHlo.unary main_arg4 main_v308 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v308 main_v309 rfl shapeCasts_S1x500000_S500000,
    StableHlo.unary main_arg4 main_v310 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v310 main_v311 rfl shapeCasts_S1x500000_S500000,
    StableHlo.nullary main_c_62 (constantI S_ 32 0#32),
    StableHlo.unary main_c_62 main_v312 (broadcastInDim S500000 ![] bcast_S_S500000 : (⟨S_, .i32⟩ : BufTy).Contents (Elt F) → (⟨S500000, .i32⟩ : BufTy).Contents (Elt F)),
    StableHlo.binary main_v309 main_v312 main_v313 (cmpi .slt : (⟨S500000, .i32⟩ : BufTy).Contents (Elt F) → (⟨S500000, .i32⟩ : BufTy).Contents (Elt F) → (⟨S500000, .i1⟩ : BufTy).Contents (Elt F)),
    StableHlo.nullary main_c_63 (constantI S_ 32 500000#32),
    StableHlo.unary main_c_63 main_v314 (broadcastInDim S500000 ![] bcast_S_S500000 : (⟨S_, .i32⟩ : BufTy).Contents (Elt F) → (⟨S500000, .i32⟩ : BufTy).Contents (Elt F)),
    StableHlo.binary main_v309 main_v314 main_v315 (addi : (⟨S500000, .i32⟩ : BufTy).Contents (Elt F) → (⟨S500000, .i32⟩ : BufTy).Contents (Elt F) → (⟨S500000, .i32⟩ : BufTy).Contents (Elt F)),
    StableHlo.ternary main_v313 main_v315 main_v309 main_v316 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v316 main_v317 (broadcastInDim S500000x1 ![0] bcast_S500000_S500000x1_0 : (⟨S500000, .i32⟩ : BufTy).Contents (Elt F) → (⟨S500000x1, .i32⟩ : BufTy).Contents (Elt F)),
    StableHlo.binary main_v112 main_v317 main_v318 ((fun x i => Host.gather gather_S500000x128_S500000x1_S500000x128_1_0_n_n_0_1_1128 x i) : (⟨S500000x128, .f32⟩ : BufTy).Contents (Elt F) → (⟨S500000x1, .i32⟩ : BufTy).Contents (Elt F) → (⟨S500000x128, .f32⟩ : BufTy).Contents (Elt F)),
    StableHlo.nullary main_cst_64 (constant S_ .f32 0x00000000#32),
    StableHlo.unary main_cst_64 main_v319 (broadcastInDim S200000x128 ![] bcast_S_S200000x128 : (⟨S_, .f32⟩ : BufTy).Contents (Elt F) → (⟨S200000x128, .f32⟩ : BufTy).Contents (Elt F)),
    StableHlo.unary main_v311 main_v320 (broadcastInDim S500000x1 ![0] bcast_S500000_S500000x1_0 : (⟨S500000, .i32⟩ : BufTy).Contents (Elt F) → (⟨S500000x1, .i32⟩ : BufTy).Contents (Elt F)),
    StableHlo.ternary main_v319 main_v320 main_v318 main_v321 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_65 (constant S_ .f32 0x3F800000#32),
    StableHlo.unary main_cst_65 main_v322 (broadcastInDim S500000 ![] bcast_S_S500000 : (⟨S_, .f32⟩ : BufTy).Contents (Elt F) → (⟨S500000, .f32⟩ : BufTy).Contents (Elt F)),
    StableHlo.nullary main_cst_66 (constant S_ .f32 0x00000000#32),
    StableHlo.unary main_cst_66 main_v323 (broadcastInDim S200000 ![] bcast_S_S200000 : (⟨S_, .f32⟩ : BufTy).Contents (Elt F) → (⟨S200000, .f32⟩ : BufTy).Contents (Elt F)),
    StableHlo.unary main_v311 main_v324 (broadcastInDim S500000x1 ![0] bcast_S500000_S500000x1_0 : (⟨S500000, .i32⟩ : BufTy).Contents (Elt F) → (⟨S500000x1, .i32⟩ : BufTy).Contents (Elt F)),
    StableHlo.ternary main_v323 main_v324 main_v322 main_v325 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_67 (constant S_ .f32 0x3F800000#32),
    StableHlo.unary main_cst_67 main_v326 (broadcastInDim S200000 ![] bcast_S_S200000 : (⟨S_, .f32⟩ : BufTy).Contents (Elt F) → (⟨S200000, .f32⟩ : BufTy).Contents (Elt F)),
    StableHlo.binary main_v325 main_v326 main_v327 (maximumf : (⟨S200000, .f32⟩ : BufTy).Contents (Elt F) → (⟨S200000, .f32⟩ : BufTy).Contents (Elt F) → (⟨S200000, .f32⟩ : BufTy).Contents (Elt F)),
    StableHlo.unary main_v327 main_v328 (broadcastInDim S200000x1 ![0] bcast_S200000_S200000x1_0 : (⟨S200000, .f32⟩ : BufTy).Contents (Elt F) → (⟨S200000x1, .f32⟩ : BufTy).Contents (Elt F)),
    StableHlo.unary main_v328 main_v329 (broadcastInDim S200000x128 ![0, 1] bcast_S200000x1_S200000x128_0_1 : (⟨S200000x1, .f32⟩ : BufTy).Contents (Elt F) → (⟨S200000x128, .f32⟩ : BufTy).Contents (Elt F)),
    StableHlo.binary main_v321 main_v329 main_v330 (Host.divf : (⟨S200000x128, .f32⟩ : BufTy).Contents (Elt F) → (⟨S200000x128, .f32⟩ : BufTy).Contents (Elt F) → (⟨S200000x128, .f32⟩ : BufTy).Contents (Elt F)),
    StableHlo.unary main_v303 main_v331 ((transpose S128x128 [1, 0] · transposes_S128x128_S128x128_1_0) : (⟨S128x128, .f32⟩ : BufTy).Contents (Elt F) → (⟨S128x128, .f32⟩ : BufTy).Contents (Elt F)),
    StableHlo.binary main_v330 main_v331 main_v332 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v305 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S200000x128 ![0, 1] bcast_S1x128_S200000x128_0_1 : (⟨S1x128, .f32⟩ : BufTy).Contents (Elt F) → (⟨S200000x128, .f32⟩ : BufTy).Contents (Elt F)),
    StableHlo.binary main_v332 main_v334 main_v335 (addf : (⟨S200000x128, .f32⟩ : BufTy).Contents (Elt F) → (⟨S200000x128, .f32⟩ : BufTy).Contents (Elt F) → (⟨S200000x128, .f32⟩ : BufTy).Contents (Elt F)),
    StableHlo.unary main_v307 main_v336 ((transpose S128x128 [1, 0] · transposes_S128x128_S128x128_1_0) : (⟨S128x128, .f32⟩ : BufTy).Contents (Elt F) → (⟨S128x128, .f32⟩ : BufTy).Contents (Elt F)),
    StableHlo.binary main_v226 main_v336 main_v337 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v335 main_v337 main_v338 (addf : (⟨S200000x128, .f32⟩ : BufTy).Contents (Elt F) → (⟨S200000x128, .f32⟩ : BufTy).Contents (Elt F) → (⟨S200000x128, .f32⟩ : BufTy).Contents (Elt F)),
    StableHlo.binary main_v301 main_v338 main_v339 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S200000x128, .f32⟩) (broadcastInDim S200000x128 ![] bcast_S_S200000x128),
    StableHlo.TRef.binary (.of main_v339 : StableHlo.TRef sig ⟨S200000x128, .f32⟩) (.of main_call8_v0 : StableHlo.TRef sig ⟨S200000x128, .f32⟩) (.of main_v340 : StableHlo.TRef sig ⟨S200000x128, .f32⟩) maximumf ]

/-- The buffers the stage's operations write, in order. -/
abbrev stage5_W : List (Ref sig .tc) :=
  [main_v227, main_v228, main_v229, main_v230, main_v231, main_v232, main_v233, main_v234, main_v235, main_v236, main_c_50, main_v237, main_v238, main_c_51, main_v239, main_v240, main_v241, main_v242, main_v243, main_cst_52, main_v244, main_v245, main_v246, main_cst_53, main_v247, main_cst_54, main_v248, main_v249, main_v250, main_cst_55, main_v251, main_v252, main_v253, main_v254, main_v255, main_v256, main_v257, main_v258, main_v259, main_v260, main_v261, main_v262, main_v263, main_v264, main_v265, main_v266, main_v267, main_v268, main_v269, main_v270, main_v271, main_v272, main_v273, main_c_56, main_v274, main_v275, main_c_57, main_v276, main_v277, main_v278, main_v279, main_v280, main_cst_58, main_v281, main_v282, main_v283, main_cst_59, main_v284, main_cst_60, main_v285, main_v286, main_v287, main_cst_61, main_v288, main_v289, main_v290, main_v291, main_v292, main_v293, main_v294, main_v295, main_v296, main_v297, main_v298, main_v299, main_v300, main_v301, main_v302, main_v303, main_v304, main_v305, main_v306, main_v307, main_v308, main_v309, main_v310, main_v311, main_c_62, main_v312, main_v313, main_c_63, main_v314, main_v315, main_v316, main_v317, main_v318, main_cst_64, main_v319, main_v320, main_v321, main_cst_65, main_v322, main_cst_66, main_v323, main_v324, main_v325, main_cst_67, main_v326, main_v327, main_v328, main_v329, main_v330, main_v331, main_v332, main_v333, main_v334, main_v335, main_v336, main_v337, main_v338, main_v339, main_call8_cst, main_call8_v0, main_v340]

set_option maxHeartbeats 40000000 in
/-- Each writes one buffer, of that list. -/
theorem stage5_writes : (stage5 : List (HloOp τ sig (Elt F))).Forall fun op => op.writes ⊆ (stage5_W.map (Proc.devRef (τ := τ) .tc)).toFinset :=
  ⟨wsub (y := main_v227) (by decide), wsub (y := main_v228) (by decide), wsub (y := main_v229) (by decide), wsub (y := main_v230) (by decide), wsub (y := main_v231) (by decide), wsub (y := main_v232) (by decide), wsub (y := main_v233) (by decide), wsub (y := main_v234) (by decide), wsub (y := main_v235) (by decide), wsub (y := main_v236) (by decide), wsub (y := main_c_50) (by decide), wsub (y := main_v237) (by decide), wsub (y := main_v238) (by decide), wsub (y := main_c_51) (by decide), wsub (y := main_v239) (by decide), wsub (y := main_v240) (by decide), wsub (y := main_v241) (by decide), wsub (y := main_v242) (by decide), wsub (y := main_v243) (by decide), wsub (y := main_cst_52) (by decide), wsub (y := main_v244) (by decide), wsub (y := main_v245) (by decide), wsub (y := main_v246) (by decide), wsub (y := main_cst_53) (by decide), wsub (y := main_v247) (by decide), wsub (y := main_cst_54) (by decide), wsub (y := main_v248) (by decide), wsub (y := main_v249) (by decide), wsub (y := main_v250) (by decide), wsub (y := main_cst_55) (by decide), wsub (y := main_v251) (by decide), wsub (y := main_v252) (by decide), wsub (y := main_v253) (by decide), wsub (y := main_v254) (by decide), wsub (y := main_v255) (by decide), wsub (y := main_v256) (by decide), wsub (y := main_v257) (by decide), wsub (y := main_v258) (by decide), wsub (y := main_v259) (by decide), wsub (y := main_v260) (by decide), wsub (y := main_v261) (by decide), wsub (y := main_v262) (by decide), wsub (y := main_v263) (by decide), wsub (y := main_v264) (by decide), wsub (y := main_v265) (by decide), wsub (y := main_v266) (by decide), wsub (y := main_v267) (by decide), wsub (y := main_v268) (by decide), wsub (y := main_v269) (by decide), wsub (y := main_v270) (by decide), wsub (y := main_v271) (by decide), wsub (y := main_v272) (by decide), wsub (y := main_v273) (by decide), wsub (y := main_c_56) (by decide), wsub (y := main_v274) (by decide), wsub (y := main_v275) (by decide), wsub (y := main_c_57) (by decide), wsub (y := main_v276) (by decide), wsub (y := main_v277) (by decide), wsub (y := main_v278) (by decide), wsub (y := main_v279) (by decide), wsub (y := main_v280) (by decide), wsub (y := main_cst_58) (by decide), wsub (y := main_v281) (by decide), wsub (y := main_v282) (by decide), wsub (y := main_v283) (by decide), wsub (y := main_cst_59) (by decide), wsub (y := main_v284) (by decide), wsub (y := main_cst_60) (by decide), wsub (y := main_v285) (by decide), wsub (y := main_v286) (by decide), wsub (y := main_v287) (by decide), wsub (y := main_cst_61) (by decide), wsub (y := main_v288) (by decide), wsub (y := main_v289) (by decide), wsub (y := main_v290) (by decide), wsub (y := main_v291) (by decide), wsub (y := main_v292) (by decide), wsub (y := main_v293) (by decide), wsub (y := main_v294) (by decide), wsub (y := main_v295) (by decide), wsub (y := main_v296) (by decide), wsub (y := main_v297) (by decide), wsub (y := main_v298) (by decide), wsub (y := main_v299) (by decide), wsub (y := main_v300) (by decide), wsub (y := main_v301) (by decide), wsub (y := main_v302) (by decide), wsub (y := main_v303) (by decide), wsub (y := main_v304) (by decide), wsub (y := main_v305) (by decide), wsub (y := main_v306) (by decide), wsub (y := main_v307) (by decide), wsub (y := main_v308) (by decide), wsub (y := main_v309) (by decide), wsub (y := main_v310) (by decide), wsub (y := main_v311) (by decide), wsub (y := main_c_62) (by decide), wsub (y := main_v312) (by decide), wsub (y := main_v313) (by decide), wsub (y := main_c_63) (by decide), wsub (y := main_v314) (by decide), wsub (y := main_v315) (by decide), wsub (y := main_v316) (by decide), wsub (y := main_v317) (by decide), wsub (y := main_v318) (by decide), wsub (y := main_cst_64) (by decide), wsub (y := main_v319) (by decide), wsub (y := main_v320) (by decide), wsub (y := main_v321) (by decide), wsub (y := main_cst_65) (by decide), wsub (y := main_v322) (by decide), wsub (y := main_cst_66) (by decide), wsub (y := main_v323) (by decide), wsub (y := main_v324) (by decide), wsub (y := main_v325) (by decide), wsub (y := main_cst_67) (by decide), wsub (y := main_v326) (by decide), wsub (y := main_v327) (by decide), wsub (y := main_v328) (by decide), wsub (y := main_v329) (by decide), wsub (y := main_v330) (by decide), wsub (y := main_v331) (by decide), wsub (y := main_v332) (by decide), wsub (y := main_v333) (by decide), wsub (y := main_v334) (by decide), wsub (y := main_v335) (by decide), wsub (y := main_v336) (by decide), wsub (y := main_v337) (by decide), wsub (y := main_v338) (by decide), wsub (y := main_v339) (by decide), wsub (y := main_call8_cst) (by decide), wsub (y := main_call8_v0) (by decide), wsub (y := main_v340) (by decide)⟩

end Cert.ReferenceIdeal.Hand

end
-- ==== Proof.Ref.Stage6.lean ====
/- Stage 6 of the reference's @main: its operations 451 … 471 of 471 (calls written as the callee's operations over the
   call's buffers), ending with the one that writes `main_v357`. The same operations as the windows', cut where a
   value is complete instead of every sixty statements. Each writes one buffer of the list `stage6_W` (`stage6_writes`). -/
import proofs.«111184_j68341519614847_1_alg».proof.Proof.Ref.Basic

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Stage 6's 21 operations, in order. -/
abbrev stage6 : List (HloOp τ sig (Elt F)) :=
  [ StableHlo.nullary main_cst_68 (constant S_ .f32 0x00000000#32),
    StableHlo.unary main_cst_68 main_v341 (broadcastInDim S20000x128 ![] bcast_S_S20000x128 : (⟨S_, .f32⟩ : BufTy).Contents (Elt F) → (⟨S20000x128, .f32⟩ : BufTy).Contents (Elt F)),
    StableHlo.unary main_arg5 main_v342 (broadcastInDim S200000x1 ![0] bcast_S200000_S200000x1_0 : (⟨S200000, .i32⟩ : BufTy).Contents (Elt F) → (⟨S200000x1, .i32⟩ : BufTy).Contents (Elt F)),
    StableHlo.ternary main_v341 main_v342 main_v340 main_v343 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)),
    StableHlo.nullary main_cst_69 (constant S_ .f32 0x3F800000#32),
    StableHlo.unary main_cst_69 main_v344 (broadcastInDim S200000 ![] bcast_S_S200000 : (⟨S_, .f32⟩ : BufTy).Contents (Elt F) → (⟨S200000, .f32⟩ : BufTy).Contents (Elt F)),
    StableHlo.nullary main_cst_70 (constant S_ .f32 0x00000000#32),
    StableHlo.unary main_cst_70 main_v345 (broadcastInDim S20000 ![] bcast_S_S20000 : (⟨S_, .f32⟩ : BufTy).Contents (Elt F) → (⟨S20000, .f32⟩ : BufTy).Contents (Elt F)),
    StableHlo.unary main_arg5 main_v346 (broadcastInDim S200000x1 ![0] bcast_S200000_S200000x1_0 : (⟨S200000, .i32⟩ : BufTy).Contents (Elt F) → (⟨S200000x1, .i32⟩ : BufTy).Contents (Elt F)),
    StableHlo.ternary main_v345 main_v346 main_v344 main_v347 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    StableHlo.nullary main_cst_71 (constant S_ .f32 0x3F800000#32),
    StableHlo.unary main_cst_71 main_v348 (broadcastInDim S20000 ![] bcast_S_S20000 : (⟨S_, .f32⟩ : BufTy).Contents (Elt F) → (⟨S20000, .f32⟩ : BufTy).Contents (Elt F)),
    StableHlo.binary main_v347 main_v348 main_v349 (maximumf : (⟨S20000, .f32⟩ : BufTy).Contents (Elt F) → (⟨S20000, .f32⟩ : BufTy).Contents (Elt F) → (⟨S20000, .f32⟩ : BufTy).Contents (Elt F)),
    StableHlo.unary main_v349 main_v350 (broadcastInDim S20000x1 ![0] bcast_S20000_S20000x1_0 : (⟨S20000, .f32⟩ : BufTy).Contents (Elt F) → (⟨S20000x1, .f32⟩ : BufTy).Contents (Elt F)),
    StableHlo.unary main_v350 main_v351 (broadcastInDim S20000x128 ![0, 1] bcast_S20000x1_S20000x128_0_1 : (⟨S20000x1, .f32⟩ : BufTy).Contents (Elt F) → (⟨S20000x128, .f32⟩ : BufTy).Contents (Elt F)),
    StableHlo.binary main_v343 main_v351 main_v352 (Host.divf : (⟨S20000x128, .f32⟩ : BufTy).Contents (Elt F) → (⟨S20000x128, .f32⟩ : BufTy).Contents (Elt F) → (⟨S20000x128, .f32⟩ : BufTy).Contents (Elt F)),
    StableHlo.unary main_arg16 main_v353 ((transpose S128x1 [1, 0] · transposes_S1x128_S128x1_1_0) : (⟨S1x128, .f32⟩ : BufTy).Contents (Elt F) → (⟨S128x1, .f32⟩ : BufTy).Contents (Elt F)),
    StableHlo.binary main_v352 main_v353 main_v354 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    StableHlo.unary main_arg17 main_v355 (broadcastInDim S1x1 ![1] bcast_S1_S1x1_1 : (⟨S1, .f32⟩ : BufTy).Contents (Elt F) → (⟨S1x1, .f32⟩ : BufTy).Contents (Elt F)),
    StableHlo.unary main_v355 main_v356 (broadcastInDim S20000x1 ![0, 1] bcast_S1x1_S20000x1_0_1 : (⟨S1x1, .f32⟩ : BufTy).Contents (Elt F) → (⟨S20000x1, .f32⟩ : BufTy).Contents (Elt F)),
    StableHlo.binary main_v354 main_v356 main_v357 (addf : (⟨S20000x1, .f32⟩ : BufTy).Contents (Elt F) → (⟨S20000x1, .f32⟩ : BufTy).Contents (Elt F) → (⟨S20000x1, .f32⟩ : BufTy).Contents (Elt F)) ]

/-- The buffers the stage's operations write, in order. -/
abbrev stage6_W : List (Ref sig .tc) :=
  [main_cst_68, main_v341, main_v342, main_v343, main_cst_69, main_v344, main_cst_70, main_v345, main_v346, main_v347, main_cst_71, main_v348, main_v349, main_v350, main_v351, main_v352, main_v353, main_v354, main_v355, main_v356, main_v357]

set_option maxHeartbeats 40000000 in
/-- Each writes one buffer, of that list. -/
theorem stage6_writes : (stage6 : List (HloOp τ sig (Elt F))).Forall fun op => op.writes ⊆ (stage6_W.map (Proc.devRef (τ := τ) .tc)).toFinset :=
  ⟨wsub (y := main_cst_68) (by decide), wsub (y := main_v341) (by decide), wsub (y := main_v342) (by decide), wsub (y := main_v343) (by decide), wsub (y := main_cst_69) (by decide), wsub (y := main_v344) (by decide), wsub (y := main_cst_70) (by decide), wsub (y := main_v345) (by decide), wsub (y := main_v346) (by decide), wsub (y := main_v347) (by decide), wsub (y := main_cst_71) (by decide), wsub (y := main_v348) (by decide), wsub (y := main_v349) (by decide), wsub (y := main_v350) (by decide), wsub (y := main_v351) (by decide), wsub (y := main_v352) (by decide), wsub (y := main_v353) (by decide), wsub (y := main_v354) (by decide), wsub (y := main_v355) (by decide), wsub (y := main_v356) (by decide), wsub (y := main_v357) (by decide)⟩

end Cert.ReferenceIdeal.Hand

end
-- ==== Proof.Ref.Stages.lean ====
/- The reference's @main read STAGE BY STAGE: the same 471 operations as its eight windows', cut after the operations
   that write `main_v72`, `main_v77`, `main_v107`, `main_v112`, `main_v226`, `main_v340` and `main_v357`
   (`ops_eq_stages`: the two cuttings are one list). The memory of a device after @main is then the seven stages'
   folds composed from its launch contents: `N0` the launch contents, `N1` … `N7` the contents after each stage
   (`after_ops_eq`); and a stage leaves every buffer that is not among those its operations write as it found it
   (`N1_of` … `N7_of`), so a value is read at the stage that writes it and carried unchanged through the others. -/
import proofs.«111184_j68341519614847_1_alg».proof.Proof.Ref.Run
import proofs.«111184_j68341519614847_1_alg».proof.Proof.Ref.Stage0
import proofs.«111184_j68341519614847_1_alg».proof.Proof.Ref.Stage1
import proofs.«111184_j68341519614847_1_alg».proof.Proof.Ref.Stage2
import proofs.«111184_j68341519614847_1_alg».proof.Proof.Ref.Stage3
import proofs.«111184_j68341519614847_1_alg».proof.Proof.Ref.Stage4
import proofs.«111184_j68341519614847_1_alg».proof.Proof.Ref.Stage5
import proofs.«111184_j68341519614847_1_alg».proof.Proof.Ref.Stage6

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The windows' lists in a row and the stages' lists in a row are the same list of operations. -/
theorem ops_eq_stages : (ops : List (HloOp τ sig (Elt F))) = stage0 ++ stage1 ++ stage2 ++ stage3 ++ stage4 ++ stage5 ++ stage6 := by
  chain_rfl

variable (m : (ℓ : Loc nD τ sig) → Buf (Elt F) ℓ)

/-! ## The buffer contents at each stage boundary -/

/-- Device `c`'s buffers at launch. -/
abbrev N0 (c : Dev nD) : Valuation τ sig (Elt F) := fun b => m (c, b)

/-- After stage 0. -/
abbrev N1 (c : Dev nD) : Valuation τ sig (Elt F) := StableHlo.after stage0 (N0 m c)
/-- The stage leaves a buffer none of its operations writes as it found it. -/
theorem N1_of (c : Dev nD) (r : Ref sig .tc) (h : r ∉ stage0_W) :
    N1 m c (Proc.devRef .tc r) = N0 m c (Proc.devRef .tc r) :=
  StableHlo.after_of_writes_sub stage0 _ stage0_writes h

/-- After stage 1. -/
abbrev N2 (c : Dev nD) : Valuation τ sig (Elt F) := StableHlo.after stage1 (N1 m c)
/-- The stage leaves a buffer none of its operations writes as it found it. -/
theorem N2_of (c : Dev nD) (r : Ref sig .tc) (h : r ∉ stage1_W) :
    N2 m c (Proc.devRef .tc r) = N1 m c (Proc.devRef .tc r) :=
  StableHlo.after_of_writes_sub stage1 _ stage1_writes h

/-- After stage 2. -/
abbrev N3 (c : Dev nD) : Valuation τ sig (Elt F) := StableHlo.after stage2 (N2 m c)
/-- The stage leaves a buffer none of its operations writes as it found it. -/
theorem N3_of (c : Dev nD) (r : Ref sig .tc) (h : r ∉ stage2_W) :
    N3 m c (Proc.devRef .tc r) = N2 m c (Proc.devRef .tc r) :=
  StableHlo.after_of_writes_sub stage2 _ stage2_writes h

/-- After stage 3. -/
abbrev N4 (c : Dev nD) : Valuation τ sig (Elt F) := StableHlo.after stage3 (N3 m c)
/-- The stage leaves a buffer none of its operations writes as it found it. -/
theorem N4_of (c : Dev nD) (r : Ref sig .tc) (h : r ∉ stage3_W) :
    N4 m c (Proc.devRef .tc r) = N3 m c (Proc.devRef .tc r) :=
  StableHlo.after_of_writes_sub stage3 _ stage3_writes h

/-- After stage 4. -/
abbrev N5 (c : Dev nD) : Valuation τ sig (Elt F) := StableHlo.after stage4 (N4 m c)
/-- The stage leaves a buffer none of its operations writes as it found it. -/
theorem N5_of (c : Dev nD) (r : Ref sig .tc) (h : r ∉ stage4_W) :
    N5 m c (Proc.devRef .tc r) = N4 m c (Proc.devRef .tc r) :=
  StableHlo.after_of_writes_sub stage4 _ stage4_writes h

/-- After stage 5. -/
abbrev N6 (c : Dev nD) : Valuation τ sig (Elt F) := StableHlo.after stage5 (N5 m c)
/-- The stage leaves a buffer none of its operations writes as it found it. -/
theorem N6_of (c : Dev nD) (r : Ref sig .tc) (h : r ∉ stage5_W) :
    N6 m c (Proc.devRef .tc r) = N5 m c (Proc.devRef .tc r) :=
  StableHlo.after_of_writes_sub stage5 _ stage5_writes h

/-- After stage 6. -/
abbrev N7 (c : Dev nD) : Valuation τ sig (Elt F) := StableHlo.after stage6 (N6 m c)
/-- The stage leaves a buffer none of its operations writes as it found it. -/
theorem N7_of (c : Dev nD) (r : Ref sig .tc) (h : r ∉ stage6_W) :
    N7 m c (Proc.devRef .tc r) = N6 m c (Proc.devRef .tc r) :=
  StableHlo.after_of_writes_sub stage6 _ stage6_writes h

/-- The memory after @main's operations is the memory after the last stage. -/
theorem after_ops_eq (c : Dev nD) : StableHlo.after ops (N0 m c) = N7 m c := by
  rw [ops_eq_stages]
  simp only [StableHlo.after_append]

end Cert.ReferenceIdeal.Hand

end
-- ==== Proof.Bridge.HostLayer.lean ====
/-
  One layer of the reference, at one entry, on the extended reals.

  For each relation e the reference forms (Aₑ · Wlₑᵀ + bₑ) + P · Wrₑᵀ over whole arrays, sums the three relations and
  clamps below at zero.  At the entry (r, c) a whole product with a transposed 128 × 128 matrix is the sum over k of
  left(r, k) · matrix(c, k), and a bias vector broadcast to all rows reads bₑ(c).  The specification's term is
  (Aₑ · Wlₑᵀ + P · Wrₑᵀ) + bₑ: the same three summands in another grouping, and addition of extended reals is commutative
  and associative, so the two agree with no finiteness assumption.  The encoder's host form X · Wᵀ + b is the
  specification's affine map of rows, entry by entry.
-/
import proofs.«111184_j68341519614847_1_alg».proof.ReferenceIdeal
import proofs.«111184_j68341519614847_1_alg».proof.Proof.Gen.ReferenceIdeal
import proofs.«111184_j68341519614847_1_alg».proof.Proof.LibPlainDot
import proofs.«111184_j68341519614847_1_alg».proof.Proof.LibUnitAxes
import proofs.«111184_j68341519614847_1_alg».proof.Proof.LibUnitColumns
import proofs.«111184_j68341519614847_1_alg».proof.Proof.Bridge.Spec
import proofs.«111184_j68341519614847_1_alg».proof.Proof.Bridge.Linear
import Idealize.ShloMosaic.Lib.ValueLayout
import Idealize.ShloMosaic.Lib.ValueIdx
import Idealize.ShloMosaic.Lib.Pipeline.Value
import Idealize.ShloMosaic.PureOps.Ideal.Laws

noncomputable section

namespace Cert.Bridge.HostLayer

open Idealize.ShloMosaic Idealize.ShloMosaic.ValueIdx Cert.Bridge

/-- The whole product of the [200000, 128] array A with a transposed 128 × 128 matrix, at (r, c). -/
theorem dotT_apply (A : FVec Ideal Cert.ReferenceIdeal.S200000x128 .f32) (Wm : FVec Ideal Cert.ReferenceIdeal.S128x128 .f32)
    (hT : Cert.ReferenceIdeal.S128x128.Transposes [1, 0] Cert.ReferenceIdeal.S128x128) (r : Fin 200000) (c : Fin 128) :
    Host.dotGeneral (F := Ideal) Cert.ReferenceIdeal.dot_S200000x128_S128x128_S200000x128_1_0_0_1_n_n none A
        (transpose Cert.ReferenceIdeal.S128x128 [1, 0] Wm hT) (ix2 r c)
      = ∑ k : Fin 128, (A (ix2 r k) : EReal) * Wm (ix2 c k) :=
  (Cert.LibPlainDot.dotGeneral_apply Cert.ReferenceIdeal.dot_S200000x128_S128x128_S200000x128_1_0_0_1_n_n rfl rfl rfl rfl
    (fun _ _ => rfl) (fun _ _ => rfl) none _ A _ r c).trans
    (Finset.sum_congr rfl fun k _ => congrArg _ (transpose_ix2_apply Wm hT k c))

/-- One relation's term as the reference groups it, at (r, c). -/
theorem hostTerm_entry (A P : FVec Ideal Cert.ReferenceIdeal.S200000x128 .f32) (Wle Wre : FVec Ideal Cert.ReferenceIdeal.S128x128 .f32)
    (be : FVec Ideal Cert.ReferenceIdeal.S128 .f32)
    (hT : Cert.ReferenceIdeal.S128x128.Transposes [1, 0] Cert.ReferenceIdeal.S128x128)
    (hB : Cert.ReferenceIdeal.S1x128.BroadcastsInDim Cert.ReferenceIdeal.S200000x128 ![0, 1]) (hb : Cert.ReferenceIdeal.S128.BroadcastsInDim Cert.ReferenceIdeal.S1x128 ![1])
    (r : Fin 200000) (c : Fin 128) :
    addf (addf (Host.dotGeneral (F := Ideal) Cert.ReferenceIdeal.dot_S200000x128_S128x128_S200000x128_1_0_0_1_n_n none A
            (transpose Cert.ReferenceIdeal.S128x128 [1, 0] Wle hT))
          (broadcastInDim Cert.ReferenceIdeal.S200000x128 ![0, 1] hB (broadcastInDim Cert.ReferenceIdeal.S1x128 ![1] hb be)))
        (Host.dotGeneral (F := Ideal) Cert.ReferenceIdeal.dot_S200000x128_S128x128_S200000x128_1_0_0_1_n_n none P
            (transpose Cert.ReferenceIdeal.S128x128 [1, 0] Wre hT)) (ix2 r c)
      = ((∑ k : Fin 128, (A (ix2 r k) : EReal) * Wle (ix2 c k)) + be (ix1 c))
          + ∑ k : Fin 128, (P (ix2 r k) : EReal) * Wre (ix2 c k) := by
  refine (addf_apply _ _ _).trans ?_
  refine congr (congrArg _ ?_) (dotT_apply P Wre hT r c)
  refine (addf_apply _ _ _).trans ?_
  refine congr (congrArg _ (dotT_apply A Wle hT r c)) ?_
  exact (Cert.LibUnitAxes.broadcastInDim_1b_ab_apply _ _ r c).trans (Cert.LibUnitColumns.broadcastInDim_b_1b_apply be _ 0 c)

/-- The reference's grouping of a relation's term is the specification's, when the relation's matrices and bias are the
    layer's slabs at that relation. -/
theorem hostTerm_eq_sageTerm (A P : FVec Ideal Cert.ReferenceIdeal.S200000x128 .f32) (Wle Wre : FVec Ideal Cert.ReferenceIdeal.S128x128 .f32)
    (be : FVec Ideal Cert.ReferenceIdeal.S128 .f32) (Wl Wr : (⟨3, ![3, 128, 128]⟩ : Shape).Idx → EReal) (bb : (⟨2, ![3, 128]⟩ : Shape).Idx → EReal)
    (e : Fin 3) (hl : ∀ c k : Fin 128, (Wle (ix2 c k) : EReal) = Wl (ix3 e c k)) (hr : ∀ c k : Fin 128, (Wre (ix2 c k) : EReal) = Wr (ix3 e c k))
    (hbe : ∀ c : Fin 128, (be (ix1 c) : EReal) = bb (ix2 e c))
    (hT : Cert.ReferenceIdeal.S128x128.Transposes [1, 0] Cert.ReferenceIdeal.S128x128)
    (hB : Cert.ReferenceIdeal.S1x128.BroadcastsInDim Cert.ReferenceIdeal.S200000x128 ![0, 1]) (hb : Cert.ReferenceIdeal.S128.BroadcastsInDim Cert.ReferenceIdeal.S1x128 ![1])
    (r : Fin 200000) (c : Fin 128) :
    addf (addf (Host.dotGeneral (F := Ideal) Cert.ReferenceIdeal.dot_S200000x128_S128x128_S200000x128_1_0_0_1_n_n none A
            (transpose Cert.ReferenceIdeal.S128x128 [1, 0] Wle hT))
          (broadcastInDim Cert.ReferenceIdeal.S200000x128 ![0, 1] hB (broadcastInDim Cert.ReferenceIdeal.S1x128 ![1] hb be)))
        (Host.dotGeneral (F := Ideal) Cert.ReferenceIdeal.dot_S200000x128_S128x128_S200000x128_1_0_0_1_n_n none P
            (transpose Cert.ReferenceIdeal.S128x128 [1, 0] Wre hT)) (ix2 r c)
      = sageTerm A P Wl Wr bb e r c := by
  rw [hostTerm_entry A P Wle Wre be hT hB hb r c]
  unfold sageTerm
  rw [add_right_comm, hbe c]
  refine congr (congrArg _ (congr (congrArg _ ?_) ?_)) rfl
  · exact Finset.sum_congr rfl fun k _ => by rw [hl c k]
  · exact Finset.sum_congr rfl fun k _ => by rw [hr c k]

/-- The reference's layer: the three relations' terms summed and clamped below at zero, is the specification's layer. -/
theorem hostLayer_eq (S0 S1 S2 : FVec Ideal Cert.ReferenceIdeal.S200000x128 .f32) (A0 A1 A2 P : FVec Ideal Cert.ReferenceIdeal.S200000x128 .f32)
    (Wl Wr : (⟨3, ![3, 128, 128]⟩ : Shape).Idx → EReal) (bb : (⟨2, ![3, 128]⟩ : Shape).Idx → EReal)
    (h0 : ∀ (r : Fin 200000) (c : Fin 128), (S0 (ix2 r c) : EReal) = sageTerm A0 P Wl Wr bb 0 r c)
    (h1 : ∀ (r : Fin 200000) (c : Fin 128), (S1 (ix2 r c) : EReal) = sageTerm A1 P Wl Wr bb 1 r c)
    (h2 : ∀ (r : Fin 200000) (c : Fin 128), (S2 (ix2 r c) : EReal) = sageTerm A2 P Wl Wr bb 2 r c)
    (hZ : Cert.ReferenceIdeal.S_.BroadcastsInDim Cert.ReferenceIdeal.S200000x128 ![]) :
    maximumf (addf (addf S0 S1) S2) (broadcastInDim Cert.ReferenceIdeal.S200000x128 ![] hZ (constant (F := Ideal) Cert.ReferenceIdeal.S_ .f32 0x00000000#32))
      = sageRows A0 A1 A2 P Wl Wr bb := by
  funext j
  rw [eq_ix2 j]
  refine (maximumf_apply _ _ _).trans ?_
  refine congr (congrArg _ ?_) ?_
  · refine (addf_apply _ _ _).trans ?_
    refine congr (congrArg _ ?_) (h2 _ _)
    exact (addf_apply _ _ _).trans (congr (congrArg _ (h0 _ _)) (h1 _ _))
  · exact (Cert.LibUnitAxes.broadcastInDim_scalar_apply _ hZ _).trans (constant_apply _ _)

/-- The player encoder's host form is the specification's affine map of rows. -/
theorem hostLin85_eq (X : FVec Ideal Cert.ReferenceIdeal.S200000x85 .f32) (W : FVec Ideal Cert.ReferenceIdeal.S128x85 .f32) (b : FVec Ideal Cert.ReferenceIdeal.S128 .f32)
    (hT : Cert.ReferenceIdeal.S128x85.Transposes [1, 0] Cert.ReferenceIdeal.S85x128)
    (hB : Cert.ReferenceIdeal.S1x128.BroadcastsInDim Cert.ReferenceIdeal.S200000x128 ![0, 1]) (hb : Cert.ReferenceIdeal.S128.BroadcastsInDim Cert.ReferenceIdeal.S1x128 ![1]) :
    addf (Host.dotGeneral (F := Ideal) Cert.ReferenceIdeal.dot_S200000x85_S85x128_S200000x128_1_0_0_1_n_n none X
          (transpose Cert.ReferenceIdeal.S85x128 [1, 0] W hT))
        (broadcastInDim Cert.ReferenceIdeal.S200000x128 ![0, 1] hB (broadcastInDim Cert.ReferenceIdeal.S1x128 ![1] hb b))
      = linRows X W b := by
  funext j
  rw [eq_ix2 j]
  exact Cert.Bridge.Linear.host85_entry X W b hT hB hb (j 0) (j 1)

/-- The history encoder's host form is the specification's affine map of rows. -/
theorem hostLin26_eq (X : FVec Ideal Cert.ReferenceIdeal.S500000x26 .f32) (W : FVec Ideal Cert.ReferenceIdeal.S128x26 .f32) (b : FVec Ideal Cert.ReferenceIdeal.S128 .f32)
    (hT : Cert.ReferenceIdeal.S128x26.Transposes [1, 0] Cert.ReferenceIdeal.S26x128)
    (hB : Cert.ReferenceIdeal.S1x128.BroadcastsInDim Cert.ReferenceIdeal.S500000x128 ![0, 1]) (hb : Cert.ReferenceIdeal.S128.BroadcastsInDim Cert.ReferenceIdeal.S1x128 ![1]) :
    addf (Host.dotGeneral (F := Ideal) Cert.ReferenceIdeal.dot_S500000x26_S26x128_S500000x128_1_0_0_1_n_n none X
          (transpose Cert.ReferenceIdeal.S26x128 [1, 0] W hT))
        (broadcastInDim Cert.ReferenceIdeal.S500000x128 ![0, 1] hB (broadcastInDim Cert.ReferenceIdeal.S1x128 ![1] hb b))
      = linRows X W b := by
  funext j
  rw [eq_ix2 j]
  exact Cert.Bridge.Linear.host26_entry X W b hT hB hb (j 0) (j 1)

end Cert.Bridge.HostLayer

end
-- ==== Proof.Bridge.RSide.lean ====
/- The reference's own stages in closed form on the extended reals: the memory after a stage, read at the buffer the
   stage completes, as a function of the memory before it.
   The player encoder's stage transposes the weight, multiplies the feature array by it, broadcasts the bias to every row
   and adds: the affine map of rows `linRows`. The history encoder's stage is the same on its own arrays. A layer's stage
   forms, for each of the three relations, (Aₑ · Wlₑᵀ + bₑ) + P · Wrₑᵀ from the relation's segment mean Aₑ, the previous
   layer's output P and the relation's cuts of the stacked weights and biases, sums the three and clamps below at zero:
   the specification's `sageRows` of the same means, with the stacked weights' slabs of that layer. -/
import proofs.«111184_j68341519614847_1_alg».proof.Proof.Ref.Stages
import proofs.«111184_j68341519614847_1_alg».proof.Proof.Bridge.Spec
import proofs.«111184_j68341519614847_1_alg».proof.Proof.Bridge.Slabs
import proofs.«111184_j68341519614847_1_alg».proof.Proof.Bridge.HostLayer
import Idealize.ShloMosaic.Lib.ValueIdx

noncomputable section

namespace Cert.Bridge.RSide

open Cert.ReferenceIdeal Cert.ReferenceIdeal.Gen Cert.ReferenceIdeal.Hand
open Idealize.ShloMosaic Idealize.ShloMosaic.TcCoe Idealize.SL.Sem Idealize.ShloMosaic.ValueIdx
open Cert.Bridge Cert.Bridge.HostLayer

variable (m : (ℓ : Loc nD τ sig) → Buf (Elt Ideal) ℓ)

/-! ## A value carried through a typed reference is the value -/

/-- Contents moved to a typed reference's buffer and read back are the contents. -/
theorem ofBuf_toBuf {T : BufTy} (x : StableHlo.TRef sig T) (v : T.Contents (Elt Ideal)) : x.ofBuf (x.toBuf v) = v := by
  obtain ⟨r, h, hd, hu⟩ := x
  subst h
  rfl

/-- At the buffer of a layer's summed terms, and at the layer's output buffer, the transport is the identity: the buffers are
    [200000, 128] f32 arrays. -/
theorem ofBuf_main_v225 (h1 h2 h3) (v : main_v225.ty.Contents (Elt Ideal)) :
    ((StableHlo.TRef.of main_v225 h1 h2 h3 : StableHlo.TRef sig ⟨S200000x128, .f32⟩).ofBuf v : S200000x128.Idx → EReal) = v := rfl
theorem toBuf_main_v226 (h1 h2 h3) (v : (⟨S200000x128, .f32⟩ : BufTy).Contents (Elt Ideal)) :
    ((StableHlo.TRef.of main_v226 h1 h2 h3 : StableHlo.TRef sig ⟨S200000x128, .f32⟩).toBuf v : S200000x128.Idx → EReal) = v := rfl

/-- At the buffer of a layer's summed terms, and at the layer's output buffer, the transport is the identity: the buffers are
    [200000, 128] f32 arrays. -/
theorem ofBuf_main_v339 (h1 h2 h3) (v : main_v339.ty.Contents (Elt Ideal)) :
    ((StableHlo.TRef.of main_v339 h1 h2 h3 : StableHlo.TRef sig ⟨S200000x128, .f32⟩).ofBuf v : S200000x128.Idx → EReal) = v := rfl
theorem toBuf_main_v340 (h1 h2 h3) (v : (⟨S200000x128, .f32⟩ : BufTy).Contents (Elt Ideal)) :
    ((StableHlo.TRef.of main_v340 h1 h2 h3 : StableHlo.TRef sig ⟨S200000x128, .f32⟩).toBuf v : S200000x128.Idx → EReal) = v := rfl

/-! ## A layer as the reference writes it, over variables -/

/-- Layer 1 as the reference writes it, over any three relation inputs A0, A1, A2, any previous output P and any stacked
    weights and biases: each relation's matrix and bias cut out of the stacks at (0, e), the three terms
    (Aₑ · Wlₑᵀ + bₑ) + P · Wrₑᵀ summed in order and clamped below at zero, is the specification's layer with layer 1's slabs. -/
theorem layer1Form (A0 A1 A2 P : FVec Ideal S200000x128 .f32) (Wl Wr : FVec Ideal S2x3x128x128 .f32) (bb : FVec Ideal S2x3x128 .f32) :
    maximumf
      (addf
        (addf
          (addf
          (addf
            (Host.dotGeneral dot_S200000x128_S128x128_S200000x128_1_0_0_1_n_n none A0
              (transpose S128x128 [1, 0]
              (fun i => shapeCast S128x128 (extractStridedSlice S1x1x128x128 ![0, 0, 0, 0] Wl slices_S2x3x128x128_S1x1x128x128_0_0_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![0, 0, 0] bb slices_S2x3x128_S1x1x128_0_0_0) shapeCasts_S1x1x128_S128 i))))
          (Host.dotGeneral dot_S200000x128_S128x128_S200000x128_1_0_0_1_n_n none P
            (transpose S128x128 [1, 0]
              (fun i => shapeCast S128x128 (extractStridedSlice S1x1x128x128 ![0, 0, 0, 0] Wr slices_S2x3x128x128_S1x1x128x128_0_0_0_0) shapeCasts_S1x1x128x128_S128x128 i)
              transposes_S128x128_S128x128_1_0)))
          (addf
          (addf
            (Host.dotGeneral dot_S200000x128_S128x128_S200000x128_1_0_0_1_n_n none A1
              (transpose S128x128 [1, 0]
              (fun i => shapeCast S128x128 (extractStridedSlice S1x1x128x128 ![0, 1, 0, 0] Wl slices_S2x3x128x128_S1x1x128x128_0_1_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![0, 1, 0] bb slices_S2x3x128_S1x1x128_0_1_0) shapeCasts_S1x1x128_S128 i))))
          (Host.dotGeneral dot_S200000x128_S128x128_S200000x128_1_0_0_1_n_n none P
            (transpose S128x128 [1, 0]
              (fun i => shapeCast S128x128 (extractStridedSlice S1x1x128x128 ![0, 1, 0, 0] Wr slices_S2x3x128x128_S1x1x128x128_0_1_0_0) shapeCasts_S1x1x128x128_S128x128 i)
              transposes_S128x128_S128x128_1_0))))
        (addf
          (addf
            (Host.dotGeneral dot_S200000x128_S128x128_S200000x128_1_0_0_1_n_n none A2
              (transpose S128x128 [1, 0]
              (fun i => shapeCast S128x128 (extractStridedSlice S1x1x128x128 ![0, 2, 0, 0] Wl slices_S2x3x128x128_S1x1x128x128_0_2_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![0, 2, 0] bb slices_S2x3x128_S1x1x128_0_2_0) shapeCasts_S1x1x128_S128 i))))
          (Host.dotGeneral dot_S200000x128_S128x128_S200000x128_1_0_0_1_n_n none P
            (transpose S128x128 [1, 0]
              (fun i => shapeCast S128x128 (extractStridedSlice S1x1x128x128 ![0, 2, 0, 0] Wr slices_S2x3x128x128_S1x1x128x128_0_2_0_0) shapeCasts_S1x1x128x128_S128x128 i)
              transposes_S128x128_S128x128_1_0))))
      (broadcastInDim S200000x128 ![] bcast_S_S200000x128 (constant (F := Ideal) S_ .f32 0x00000000#32))
      = sageRows A0 A1 A2 P (slab4 0 Wl) (slab4 0 Wr) (slab3 0 bb) :=
  hostLayer_eq _ _ _ A0 A1 A2 P (slab4 0 Wl) (slab4 0 Wr) (slab3 0 bb)
    (fun r c => hostTerm_eq_sageTerm A0 P _ _ _ _ _ _ 0 (fun c k => refW_0_0 Wl _ _ c k) (fun c k => refW_0_0 Wr _ _ c k)
      (fun c => refB_0_0 bb _ _ c) _ _ _ r c)
    (fun r c => hostTerm_eq_sageTerm A1 P _ _ _ _ _ _ 1 (fun c k => refW_0_1 Wl _ _ c k) (fun c k => refW_0_1 Wr _ _ c k)
      (fun c => refB_0_1 bb _ _ c) _ _ _ r c)
    (fun r c => hostTerm_eq_sageTerm A2 P _ _ _ _ _ _ 2 (fun c k => refW_0_2 Wl _ _ c k) (fun c k => refW_0_2 Wr _ _ c k)
      (fun c => refB_0_2 bb _ _ c) _ _ _ r c)
    bcast_S_S200000x128

/-- Layer 2 as the reference writes it, over any three relation inputs A0, A1, A2, any previous output P and any stacked
    weights and biases: each relation's matrix and bias cut out of the stacks at (1, e), the three terms
    (Aₑ · Wlₑᵀ + bₑ) + P · Wrₑᵀ summed in order and clamped below at zero, is the specification's layer with layer 2's slabs. -/
theorem layer2Form (A0 A1 A2 P : FVec Ideal S200000x128 .f32) (Wl Wr : FVec Ideal S2x3x128x128 .f32) (bb : FVec Ideal S2x3x128 .f32) :
    maximumf
      (addf
        (addf
          (addf
          (addf
            (Host.dotGeneral dot_S200000x128_S128x128_S200000x128_1_0_0_1_n_n none A0
              (transpose S128x128 [1, 0]
              (fun i => shapeCast S128x128 (extractStridedSlice S1x1x128x128 ![1, 0, 0, 0] Wl slices_S2x3x128x128_S1x1x128x128_1_0_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![1, 0, 0] bb slices_S2x3x128_S1x1x128_1_0_0) shapeCasts_S1x1x128_S128 i))))
          (Host.dotGeneral dot_S200000x128_S128x128_S200000x128_1_0_0_1_n_n none P
            (transpose S128x128 [1, 0]
              (fun i => shapeCast S128x128 (extractStridedSlice S1x1x128x128 ![1, 0, 0, 0] Wr slices_S2x3x128x128_S1x1x128x128_1_0_0_0) shapeCasts_S1x1x128x128_S128x128 i)
              transposes_S128x128_S128x128_1_0)))
          (addf
          (addf
            (Host.dotGeneral dot_S200000x128_S128x128_S200000x128_1_0_0_1_n_n none A1
              (transpose S128x128 [1, 0]
              (fun i => shapeCast S128x128 (extractStridedSlice S1x1x128x128 ![1, 1, 0, 0] Wl slices_S2x3x128x128_S1x1x128x128_1_1_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![1, 1, 0] bb slices_S2x3x128_S1x1x128_1_1_0) shapeCasts_S1x1x128_S128 i))))
          (Host.dotGeneral dot_S200000x128_S128x128_S200000x128_1_0_0_1_n_n none P
            (transpose S128x128 [1, 0]
              (fun i => shapeCast S128x128 (extractStridedSlice S1x1x128x128 ![1, 1, 0, 0] Wr slices_S2x3x128x128_S1x1x128x128_1_1_0_0) shapeCasts_S1x1x128x128_S128x128 i)
              transposes_S128x128_S128x128_1_0))))
        (addf
          (addf
            (Host.dotGeneral dot_S200000x128_S128x128_S200000x128_1_0_0_1_n_n none A2
              (transpose S128x128 [1, 0]
              (fun i => shapeCast S128x128 (extractStridedSlice S1x1x128x128 ![1, 2, 0, 0] Wl slices_S2x3x128x128_S1x1x128x128_1_2_0_0) shapeCasts_S1x1x128x128_S128x128 i)
              transposes_S128x128_S128x128_1_0))
            (broadcastInDim S200000x128 ![0, 1] bcast_S1x128_S200000x128_0_1
              (broadcastInDim S1x128 ![1] bcast_S128_S1x128_1
                (fun i => shapeCast S128 (extractStridedSlice S1x1x128 ![1, 2, 0] bb slices_S2x3x128_S1x1x128_1_2_0) shapeCasts_S1x1x128_S128 i))))
          (Host.dotGeneral dot_S200000x128_S128x128_S200000x128_1_0_0_1_n_n none P
            (transpose S128x128 [1, 0]
              (fun i => shapeCast S128x128 (extractStridedSlice S1x1x128x128 ![1, 2, 0, 0] Wr slices_S2x3x128x128_S1x1x128x128_1_2_0_0) shapeCasts_S1x1x128x128_S128x128 i)
              transposes_S128x128_S128x128_1_0))))
      (broadcastInDim S200000x128 ![] bcast_S_S200000x128 (constant (F := Ideal) S_ .f32 0x00000000#32))
      = sageRows A0 A1 A2 P (slab4 1 Wl) (slab4 1 Wr) (slab3 1 bb) :=
  hostLayer_eq _ _ _ A0 A1 A2 P (slab4 1 Wl) (slab4 1 Wr) (slab3 1 bb)
    (fun r c => hostTerm_eq_sageTerm A0 P _ _ _ _ _ _ 0 (fun c k => refW_1_0 Wl _ _ c k) (fun c k => refW_1_0 Wr _ _ c k)
      (fun c => refB_1_0 bb _ _ c) _ _ _ r c)
    (fun r c => hostTerm_eq_sageTerm A1 P _ _ _ _ _ _ 1 (fun c k => refW_1_1 Wl _ _ c k) (fun c k => refW_1_1 Wr _ _ c k)
      (fun c => refB_1_1 bb _ _ c) _ _ _ r c)
    (fun r c => hostTerm_eq_sageTerm A2 P _ _ _ _ _ _ 2 (fun c k => refW_1_2 Wl _ _ c k) (fun c k => refW_1_2 Wr _ _ c k)
      (fun c => refB_1_2 bb _ _ c) _ _ _ r c)
    bcast_S_S200000x128

/-! ## The stages -/

/-- The player encoder's stage: its output is the rows of the feature array through the weight, plus the bias. -/
theorem rp0 (c : Dev nD) :
    (N2 m c (Proc.devRef .tc main_v77) : S200000x128.Idx → EReal)
      = linRows (N1 m c (Proc.devRef .tc main_v72) : S200000x85.Idx → EReal) (N1 m c (Proc.devRef .tc main_arg9) : S128x85.Idx → EReal)
          (N1 m c (Proc.devRef .tc main_arg10) : S128.Idx → EReal) := by
  show StableHlo.after stage1 (N1 m c) _ = _
  generalize N1 m c = V
  after_results_simp
  exact hostLin85_eq _ _ _ _ _ _

/-- The history encoder's stage: its output is the rows of the history array through its weight, plus its bias. -/
theorem rhist (c : Dev nD) :
    (N4 m c (Proc.devRef .tc main_v112) : S500000x128.Idx → EReal)
      = linRows (N3 m c (Proc.devRef .tc main_v107) : S500000x26.Idx → EReal) (N3 m c (Proc.devRef .tc main_arg11) : S128x26.Idx → EReal)
          (N3 m c (Proc.devRef .tc main_arg12) : S128.Idx → EReal) := by
  show StableHlo.after stage3 (N3 m c) _ = _
  generalize N3 m c = V
  after_results_simp
  exact hostLin26_eq _ _ _ _ _ _

set_option maxHeartbeats 4000000 in
/-- Layer 1's stage: its output is the specification's layer of the stage's own three segment means and the previous
    layer's output, with layer 1's slabs of the stacked weights and biases. -/
theorem rp1 (c : Dev nD) :
    (N5 m c (Proc.devRef .tc main_v226) : S200000x128.Idx → EReal)
      = sageRows (N5 m c (Proc.devRef .tc main_v141) : S200000x128.Idx → EReal) (N5 m c (Proc.devRef .tc main_v178) : S200000x128.Idx → EReal)
          (N5 m c (Proc.devRef .tc main_v216) : S200000x128.Idx → EReal) (N4 m c (Proc.devRef .tc main_v77) : S200000x128.Idx → EReal)
          (slab4 0 (N4 m c (Proc.devRef .tc main_arg13))) (slab4 0 (N4 m c (Proc.devRef .tc main_arg15)))
          (slab3 0 (N4 m c (Proc.devRef .tc main_arg14))) := by
  show (StableHlo.after stage4 (N4 m c) (Proc.devRef .tc main_v226) : S200000x128.Idx → EReal)
    = sageRows (StableHlo.after stage4 (N4 m c) (Proc.devRef .tc main_v141) : S200000x128.Idx → EReal) (StableHlo.after stage4 (N4 m c) (Proc.devRef .tc main_v178) : S200000x128.Idx → EReal)
        (StableHlo.after stage4 (N4 m c) (Proc.devRef .tc main_v216) : S200000x128.Idx → EReal) _ _ _ _
  generalize N4 m c = V
  after_results_simp
  simp only [ofBuf_toBuf]
  rw [toBuf_main_v226, ofBuf_main_v225]
  exact layer1Form _ _ _ _ _ _ _

set_option maxHeartbeats 4000000 in
/-- Layer 2's stage: its output is the specification's layer of the stage's own three segment means and the previous
    layer's output, with layer 2's slabs of the stacked weights and biases. -/
theorem rp2 (c : Dev nD) :
    (N6 m c (Proc.devRef .tc main_v340) : S200000x128.Idx → EReal)
      = sageRows (N6 m c (Proc.devRef .tc main_v255) : S200000x128.Idx → EReal) (N6 m c (Proc.devRef .tc main_v292) : S200000x128.Idx → EReal)
          (N6 m c (Proc.devRef .tc main_v330) : S200000x128.Idx → EReal) (N5 m c (Proc.devRef .tc main_v226) : S200000x128.Idx → EReal)
          (slab4 1 (N5 m c (Proc.devRef .tc main_arg13))) (slab4 1 (N5 m c (Proc.devRef .tc main_arg15)))
          (slab3 1 (N5 m c (Proc.devRef .tc main_arg14))) := by
  show (StableHlo.after stage5 (N5 m c) (Proc.devRef .tc main_v340) : S200000x128.Idx → EReal)
    = sageRows (StableHlo.after stage5 (N5 m c) (Proc.devRef .tc main_v255) : S200000x128.Idx → EReal) (StableHlo.after stage5 (N5 m c) (Proc.devRef .tc main_v292) : S200000x128.Idx → EReal)
        (StableHlo.after stage5 (N5 m c) (Proc.devRef .tc main_v330) : S200000x128.Idx → EReal) _ _ _ _
  generalize N5 m c = V
  after_results_simp
  simp only [ofBuf_toBuf]
  rw [toBuf_main_v340, ofBuf_main_v339]
  exact layer2Form _ _ _ _ _ _ _

end Cert.Bridge.RSide

end
-- ==== Proof.Bridge.Concat.lean ====
/-
  The two feature concatenations of each program, read at their result: the concatenation of the pieces, each piece the
  contents of its own buffer.  (The operation reads its operands through a family indexed by position; at a literal
  position the family is the buffer at that position.)
-/
import proofs.«111184_j68341519614847_1_alg».proof.KernelIdeal
import proofs.«111184_j68341519614847_1_alg».proof.ReferenceIdeal
import proofs.«111184_j68341519614847_1_alg».proof.Proof.Gen.KernelIdeal
import proofs.«111184_j68341519614847_1_alg».proof.Proof.Gen.ReferenceIdeal
import Idealize.ShloMosaic.Lib.StableHlo.Run
import Idealize.ShloMosaic.PureOps.Ideal

noncomputable section

namespace Cert.Bridge.ConcatK
open Idealize.ShloMosaic Idealize.ShloMosaic.TcCoe Idealize.SL.Sem Idealize.ShloMosaic.StableHlo
open Cert.KernelIdeal Cert.KernelIdeal.Gen

/-- The concatenation written at `main_v65`, each piece read at its own buffer. -/
theorem featP_result (F : Valuation τ sig (Elt Ideal)) :
    (StableHlo.nary ![main_v6, main_v20, main_v31, main_v42, main_v53, main_v64] main_v65 (fun u => concatenate S200000x85 1 [⟨S200000x5, u 0⟩, ⟨S200000x16, u 1⟩, ⟨S200000x16, u 2⟩, ⟨S200000x16, u 3⟩, ⟨S200000x16, u 4⟩, ⟨S200000x16, u 5⟩] concatenates_S200000x5_S200000x16_S200000x16_S200000x16_S200000x16_S200000x16_S200000x85_d1) : HloOp τ sig (Elt Ideal)).result F (no_index (Proc.devRef .tc main_v65))
      = concatenate S200000x85 1 [⟨S200000x5, F (Proc.devRef .tc main_v6)⟩, ⟨S200000x16, F (Proc.devRef .tc main_v20)⟩, ⟨S200000x16, F (Proc.devRef .tc main_v31)⟩, ⟨S200000x16, F (Proc.devRef .tc main_v42)⟩, ⟨S200000x16, F (Proc.devRef .tc main_v53)⟩, ⟨S200000x16, F (Proc.devRef .tc main_v64)⟩] concatenates_S200000x5_S200000x16_S200000x16_S200000x16_S200000x16_S200000x16_S200000x85_d1 := by
  rw [StableHlo.nary_result]
  rfl

/-- The concatenation written at `main_v96`, each piece read at its own buffer. -/
theorem featH_result (F : Valuation τ sig (Elt Ideal)) :
    (StableHlo.nary ![main_v73, main_v88, main_v95] main_v96 (fun u => concatenate S500000x26 1 [⟨S500000x6, u 0⟩, ⟨S500000x16, u 1⟩, ⟨S500000x4, u 2⟩] concatenates_S500000x6_S500000x16_S500000x4_S500000x26_d1) : HloOp τ sig (Elt Ideal)).result F (no_index (Proc.devRef .tc main_v96))
      = concatenate S500000x26 1 [⟨S500000x6, F (Proc.devRef .tc main_v73)⟩, ⟨S500000x16, F (Proc.devRef .tc main_v88)⟩, ⟨S500000x4, F (Proc.devRef .tc main_v95)⟩] concatenates_S500000x6_S500000x16_S500000x4_S500000x26_d1 := by
  rw [StableHlo.nary_result]
  rfl

end Cert.Bridge.ConcatK

namespace Cert.Bridge.ConcatR
open Idealize.ShloMosaic Idealize.ShloMosaic.TcCoe Idealize.SL.Sem Idealize.ShloMosaic.StableHlo
open Cert.ReferenceIdeal Cert.ReferenceIdeal.Gen

/-- The concatenation written at `main_v72`, each piece read at its own buffer. -/
theorem featP_result (F : Valuation τ sig (Elt Ideal)) :
    (StableHlo.nary ![main_v6, main_v19, main_v32, main_v45, main_v58, main_v71] main_v72 (fun u => concatenate S200000x85 1 [⟨S200000x5, u 0⟩, ⟨S200000x16, u 1⟩, ⟨S200000x16, u 2⟩, ⟨S200000x16, u 3⟩, ⟨S200000x16, u 4⟩, ⟨S200000x16, u 5⟩] concatenates_S200000x5_S200000x16_S200000x16_S200000x16_S200000x16_S200000x16_S200000x85_d1) : HloOp τ sig (Elt Ideal)).result F (no_index (Proc.devRef .tc main_v72))
      = concatenate S200000x85 1 [⟨S200000x5, F (Proc.devRef .tc main_v6)⟩, ⟨S200000x16, F (Proc.devRef .tc main_v19)⟩, ⟨S200000x16, F (Proc.devRef .tc main_v32)⟩, ⟨S200000x16, F (Proc.devRef .tc main_v45)⟩, ⟨S200000x16, F (Proc.devRef .tc main_v58)⟩, ⟨S200000x16, F (Proc.devRef .tc main_v71)⟩] concatenates_S200000x5_S200000x16_S200000x16_S200000x16_S200000x16_S200000x16_S200000x85_d1 := by
  rw [StableHlo.nary_result]
  rfl

/-- The concatenation written at `main_v107`, each piece read at its own buffer. -/
theorem featH_result (F : Valuation τ sig (Elt Ideal)) :
    (StableHlo.nary ![main_v84, main_v95, main_v106] main_v107 (fun u => concatenate S500000x26 1 [⟨S500000x6, u 0⟩, ⟨S500000x16, u 1⟩, ⟨S500000x4, u 2⟩] concatenates_S500000x6_S500000x16_S500000x4_S500000x26_d1) : HloOp τ sig (Elt Ideal)).result F (no_index (Proc.devRef .tc main_v107))
      = concatenate S500000x26 1 [⟨S500000x6, F (Proc.devRef .tc main_v84)⟩, ⟨S500000x16, F (Proc.devRef .tc main_v95)⟩, ⟨S500000x4, F (Proc.devRef .tc main_v106)⟩] concatenates_S500000x6_S500000x16_S500000x4_S500000x26_d1 := by
  rw [StableHlo.nary_result]
  rfl

end Cert.Bridge.ConcatR

end
-- ==== Proof.Bridge.Eval.lean ====
/-
  The one-pass evaluation of a line of host operations (each operation's result at its own buffer, what was there at
  any other), with the two programs' feature concatenations read piece by piece at their own buffers.
-/
import proofs.«111184_j68341519614847_1_alg».proof.Proof.Bridge.Concat
import Idealize.ShloMosaic.Lib.StableHlo.Run

/-- One pass over a line of host operations of either program. -/
macro "eval_line" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Bridge.ConcatK.featP_result, Cert.Bridge.ConcatK.featH_result, Cert.Bridge.ConcatR.featP_result, Cert.Bridge.ConcatR.featH_result,
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.Bridge.Joint.lean ====
/-
  Host chains the two programs share, buffer against buffer.

  Each statement takes the contents of a stretch's input buffers in the kernel program equal to the contents of the
  corresponding buffers of the reference, and concludes that an output buffer of the stretch holds the same array in both:
  the two stretches apply the same host operations (a segment mean over one relation's edges: gather the source rows,
  scatter-add them by destination, divide by the clamped in-degree; or the pooling and the classifier at the end) to
  those inputs, so evaluating both sides operation by operation gives one and the same term.
-/
import proofs.«111184_j68341519614847_1_alg».proof.Proof.KI.Bounds
import proofs.«111184_j68341519614847_1_alg».proof.Proof.Ref.Stages
import proofs.«111184_j68341519614847_1_alg».proof.Proof.Bridge.Eval
import Idealize.ShloMosaic.PureOps.Ideal

noncomputable section

namespace Cert.Bridge.Joint

open Idealize.ShloMosaic Idealize.ShloMosaic.TcCoe Idealize.SL.Sem Idealize.ShloMosaic.StableHlo

set_option maxHeartbeats 8000000 in
/-- The pooled classifier output, from the last layer's node features. -/
theorem tail (V : Valuation Cert.KernelIdeal.τ Cert.KernelIdeal.sig (Elt Ideal)) (N : Valuation Cert.ReferenceIdeal.τ Cert.ReferenceIdeal.sig (Elt Ideal))
    (hp : V (Proc.devRef .tc Cert.KernelIdeal.main_v226) = N (Proc.devRef .tc Cert.ReferenceIdeal.main_v340))
    (h5 : V (Proc.devRef .tc Cert.KernelIdeal.main_arg5) = N (Proc.devRef .tc Cert.ReferenceIdeal.main_arg5))
    (h16 : V (Proc.devRef .tc Cert.KernelIdeal.main_arg16) = N (Proc.devRef .tc Cert.ReferenceIdeal.main_arg16))
    (h17 : V (Proc.devRef .tc Cert.KernelIdeal.main_arg17) = N (Proc.devRef .tc Cert.ReferenceIdeal.main_arg17)) :
    StableHlo.after Cert.KernelIdeal.Gen.main_part5_ops0 (StableHlo.after Cert.KernelIdeal.Gen.main_part4_ops1 V) (Proc.devRef .tc Cert.KernelIdeal.main_v243)
      = StableHlo.after Cert.ReferenceIdeal.Hand.stage6 N (Proc.devRef .tc Cert.ReferenceIdeal.main_v357) := by
  eval_line
  rw [hp, h5, h16, h17]
  rfl

set_option maxHeartbeats 8000000 in
/-- Layer 1's mean over teammate edges. -/
theorem aggT1 (V : Valuation Cert.KernelIdeal.τ Cert.KernelIdeal.sig (Elt Ideal)) (N : Valuation Cert.ReferenceIdeal.τ Cert.ReferenceIdeal.sig (Elt Ideal))
    (hp : V (Proc.devRef .tc Cert.KernelIdeal.main_v66) = N (Proc.devRef .tc Cert.ReferenceIdeal.main_v77))
    (he : V (Proc.devRef .tc Cert.KernelIdeal.main_arg2) = N (Proc.devRef .tc Cert.ReferenceIdeal.main_arg2)) :
    StableHlo.after Cert.KernelIdeal.Gen.main_part3_ops0 (StableHlo.after Cert.KernelIdeal.Gen.main_part2_ops1 V) (Proc.devRef .tc Cert.KernelIdeal.main_v143)
      = StableHlo.after Cert.ReferenceIdeal.Hand.stage4 N (Proc.devRef .tc Cert.ReferenceIdeal.main_v141) := by
  eval_line
  rw [hp, he]
  rfl

set_option maxHeartbeats 8000000 in
/-- Layer 1's mean over enemy edges. -/
theorem aggE1 (V : Valuation Cert.KernelIdeal.τ Cert.KernelIdeal.sig (Elt Ideal)) (N : Valuation Cert.ReferenceIdeal.τ Cert.ReferenceIdeal.sig (Elt Ideal))
    (hp : V (Proc.devRef .tc Cert.KernelIdeal.main_v66) = N (Proc.devRef .tc Cert.ReferenceIdeal.main_v77))
    (he : V (Proc.devRef .tc Cert.KernelIdeal.main_arg3) = N (Proc.devRef .tc Cert.ReferenceIdeal.main_arg3)) :
    StableHlo.after Cert.KernelIdeal.Gen.main_part3_ops0 (StableHlo.after Cert.KernelIdeal.Gen.main_part2_ops1 V) (Proc.devRef .tc Cert.KernelIdeal.main_v166)
      = StableHlo.after Cert.ReferenceIdeal.Hand.stage4 N (Proc.devRef .tc Cert.ReferenceIdeal.main_v178) := by
  eval_line
  rw [hp, he]
  rfl

set_option maxHeartbeats 8000000 in
/-- The mean over history edges, as layer 1 of the reference computes it. -/
theorem aggH1 (V : Valuation Cert.KernelIdeal.τ Cert.KernelIdeal.sig (Elt Ideal)) (N : Valuation Cert.ReferenceIdeal.τ Cert.ReferenceIdeal.sig (Elt Ideal))
    (hh : V (Proc.devRef .tc Cert.KernelIdeal.main_v97) = N (Proc.devRef .tc Cert.ReferenceIdeal.main_v112))
    (he : V (Proc.devRef .tc Cert.KernelIdeal.main_arg4) = N (Proc.devRef .tc Cert.ReferenceIdeal.main_arg4)) :
    StableHlo.after Cert.KernelIdeal.Gen.main_part3_ops0 (StableHlo.after Cert.KernelIdeal.Gen.main_part2_ops1 V) (Proc.devRef .tc Cert.KernelIdeal.main_v120)
      = StableHlo.after Cert.ReferenceIdeal.Hand.stage4 N (Proc.devRef .tc Cert.ReferenceIdeal.main_v216) := by
  eval_line
  rw [hh, he]
  rfl

set_option maxHeartbeats 8000000 in
/-- The mean over history edges, as layer 2 of the reference computes it again. -/
theorem aggH2 (V : Valuation Cert.KernelIdeal.τ Cert.KernelIdeal.sig (Elt Ideal)) (N : Valuation Cert.ReferenceIdeal.τ Cert.ReferenceIdeal.sig (Elt Ideal))
    (hh : V (Proc.devRef .tc Cert.KernelIdeal.main_v97) = N (Proc.devRef .tc Cert.ReferenceIdeal.main_v112))
    (he : V (Proc.devRef .tc Cert.KernelIdeal.main_arg4) = N (Proc.devRef .tc Cert.ReferenceIdeal.main_arg4)) :
    StableHlo.after Cert.KernelIdeal.Gen.main_part3_ops0 (StableHlo.after Cert.KernelIdeal.Gen.main_part2_ops1 V) (Proc.devRef .tc Cert.KernelIdeal.main_v120)
      = StableHlo.after Cert.ReferenceIdeal.Hand.stage5 N (Proc.devRef .tc Cert.ReferenceIdeal.main_v330) := by
  eval_line
  rw [hh, he]
  rfl

set_option maxHeartbeats 8000000 in
/-- Layer 2's mean over teammate edges. -/
theorem aggT2 (V : Valuation Cert.KernelIdeal.τ Cert.KernelIdeal.sig (Elt Ideal)) (N : Valuation Cert.ReferenceIdeal.τ Cert.ReferenceIdeal.sig (Elt Ideal))
    (hp : V (Proc.devRef .tc Cert.KernelIdeal.main_v173) = N (Proc.devRef .tc Cert.ReferenceIdeal.main_v226))
    (he : V (Proc.devRef .tc Cert.KernelIdeal.main_arg2) = N (Proc.devRef .tc Cert.ReferenceIdeal.main_arg2)) :
    StableHlo.after Cert.KernelIdeal.Gen.main_part4_ops0 (StableHlo.after Cert.KernelIdeal.Gen.main_part3_ops1 V) (Proc.devRef .tc Cert.KernelIdeal.main_v196)
      = StableHlo.after Cert.ReferenceIdeal.Hand.stage5 N (Proc.devRef .tc Cert.ReferenceIdeal.main_v255) := by
  eval_line
  rw [hp, he]
  rfl

set_option maxHeartbeats 8000000 in
/-- Layer 2's mean over enemy edges. -/
theorem aggE2 (V : Valuation Cert.KernelIdeal.τ Cert.KernelIdeal.sig (Elt Ideal)) (N : Valuation Cert.ReferenceIdeal.τ Cert.ReferenceIdeal.sig (Elt Ideal))
    (hp : V (Proc.devRef .tc Cert.KernelIdeal.main_v173) = N (Proc.devRef .tc Cert.ReferenceIdeal.main_v226))
    (he : V (Proc.devRef .tc Cert.KernelIdeal.main_arg3) = N (Proc.devRef .tc Cert.ReferenceIdeal.main_arg3)) :
    StableHlo.after Cert.KernelIdeal.Gen.main_part4_ops0 (StableHlo.after Cert.KernelIdeal.Gen.main_part3_ops1 V) (Proc.devRef .tc Cert.KernelIdeal.main_v219)
      = StableHlo.after Cert.ReferenceIdeal.Hand.stage5 N (Proc.devRef .tc Cert.ReferenceIdeal.main_v292) := by
  eval_line
  rw [hp, he]
  rfl

end Cert.Bridge.Joint

end
-- ==== Proof.Bridge.ConcatCongr.lean ====
/-
  Two concatenations of pieces of the same shapes are equal when the pieces are equal, piece by piece (the side condition
  of a concatenation speaks of the pieces' shapes only).
-/
import Idealize.ShloMosaic.PureOps.ShapeOps

noncomputable section

namespace Cert.Bridge

open Idealize.ShloMosaic

/-- Two concatenations of six pieces of the same shapes are equal when the pieces are. -/
theorem concat6_congr {α : Type} (t : Shape) (a : Fin t.rank) (S0 S1 S2 S3 S4 S5 : Shape)
    (x0 y0 : S0.Idx → α) (x1 y1 : S1.Idx → α) (x2 y2 : S2.Idx → α) (x3 y3 : S3.Idx → α) (x4 y4 : S4.Idx → α) (x5 y5 : S5.Idx → α)
    (h : Shape.Concatenates (([⟨S0, x0⟩, ⟨S1, x1⟩, ⟨S2, x2⟩, ⟨S3, x3⟩, ⟨S4, x4⟩, ⟨S5, x5⟩] : List ((s : Shape) × (s.Idx → α))).map (·.1)) t a)
    (h' : Shape.Concatenates (([⟨S0, y0⟩, ⟨S1, y1⟩, ⟨S2, y2⟩, ⟨S3, y3⟩, ⟨S4, y4⟩, ⟨S5, y5⟩] : List ((s : Shape) × (s.Idx → α))).map (·.1)) t a)
    (e0 : x0 = y0) (e1 : x1 = y1) (e2 : x2 = y2) (e3 : x3 = y3) (e4 : x4 = y4) (e5 : x5 = y5) :
    concatenate t a [⟨S0, x0⟩, ⟨S1, x1⟩, ⟨S2, x2⟩, ⟨S3, x3⟩, ⟨S4, x4⟩, ⟨S5, x5⟩] h
      = concatenate t a [⟨S0, y0⟩, ⟨S1, y1⟩, ⟨S2, y2⟩, ⟨S3, y3⟩, ⟨S4, y4⟩, ⟨S5, y5⟩] h' := by
  subst e0 e1 e2 e3 e4 e5; rfl

/-- Two concatenations of three pieces of the same shapes are equal when the pieces are. -/
theorem concat3_congr {α : Type} (t : Shape) (a : Fin t.rank) (S0 S1 S2 : Shape)
    (x0 y0 : S0.Idx → α) (x1 y1 : S1.Idx → α) (x2 y2 : S2.Idx → α)
    (h : Shape.Concatenates (([⟨S0, x0⟩, ⟨S1, x1⟩, ⟨S2, x2⟩] : List ((s : Shape) × (s.Idx → α))).map (·.1)) t a)
    (h' : Shape.Concatenates (([⟨S0, y0⟩, ⟨S1, y1⟩, ⟨S2, y2⟩] : List ((s : Shape) × (s.Idx → α))).map (·.1)) t a)
    (e0 : x0 = y0) (e1 : x1 = y1) (e2 : x2 = y2) :
    concatenate t a [⟨S0, x0⟩, ⟨S1, x1⟩, ⟨S2, x2⟩] h = concatenate t a [⟨S0, y0⟩, ⟨S1, y1⟩, ⟨S2, y2⟩] h' := by
  subst e0 e1 e2; rfl

end Cert.Bridge

end
-- ==== Proof.LibColumnVector.lean ====
/-
  A column [a, 1] seen as a vector [a] moves no element: entry p of the vector is the column's entry (p, 0).
-/
import Idealize.ShloMosaic.Lib.Pipeline.Value
import Idealize.ShloMosaic.Lib.ValueIdx
import Idealize.ShloMosaic.Lib.ValueLayout

noncomputable section

namespace Cert.LibColumnVector

open Idealize.ShloMosaic Idealize.ShloMosaic.ValueIdx

variable {α : Type}

/-- Casting a column [a, 1] to a vector [a]: entry p is the column at (p, 0). -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h (ix1 p) (ix2 p (0 : Fin 1)) (by
    rw [Shape.rowMajor_val_two, Shape.rowMajor_val_one]
    show p.val * 1 + 0 = p.val
    omega)

end Cert.LibColumnVector

end
-- ==== Proof.Bridge.ClipCol.lean ====
/-
  The five identifier columns of the player features.

  The kernel program converts the block of columns 1 … 5 to integers and clips it to [lo, hi] as a whole, then cuts out one
  column; the reference cuts the column out of the features first, then converts and clips it.  Conversion and clipping
  act entry by entry, so both give, at row r, the clipped conversion of the feature at (r, 1 + k).
-/
import proofs.«111184_j68341519614847_1_alg».proof.Proof.LibUnitAxes
import proofs.«111184_j68341519614847_1_alg».proof.Proof.LibColumnVector
import Idealize.ShloMosaic.PureOps.Ideal
import Idealize.ShloMosaic.Lib.ValueIdx
import Idealize.ShloMosaic.Lib.ValueLayout
import Idealize.ShloMosaic.Lib.Pipeline.Value

noncomputable section

namespace Cert.Bridge.ClipCol

open Idealize.ShloMosaic Idealize.ShloMosaic.ValueIdx

/-- Column 0 of the five clipped identifier columns: cutting the column out after converting and clipping the whole
    [200000, 5] block gives the vector obtained by cutting column 1 of the features first, then converting and clipping. -/
theorem clipCol0 (a : (⟨2, ![200000, 10]⟩ : Shape).Idx → EReal) (lo hi : BitVec 32)
    (hs5 : (⟨2, ![200000, 10]⟩ : Shape).Slices ![0, 1] ⟨2, ![200000, 5]⟩)
    (hsk : (⟨2, ![200000, 5]⟩ : Shape).Slices ![0, 0] ⟨2, ![200000, 1]⟩)
    (hc : (⟨2, ![200000, 1]⟩ : Shape).ShapeCasts ⟨1, ![200000]⟩)
    (hs1 : (⟨2, ![200000, 10]⟩ : Shape).Slices ![0, 1] ⟨2, ![200000, 1]⟩)
    (hb5 : (⟨0, ![]⟩ : Shape).BroadcastsInDim ⟨2, ![200000, 5]⟩ ![]) (hb1 : (⟨0, ![]⟩ : Shape).BroadcastsInDim ⟨1, ![200000]⟩ ![]) :
    shapeCast ⟨1, ![200000]⟩ (extractStridedSlice ⟨2, ![200000, 1]⟩ ![0, 0]
        (minsi (broadcastInDim ⟨2, ![200000, 5]⟩ ![] hb5 (constantI ⟨0, ![]⟩ 32 hi))
          (maxsi (broadcastInDim ⟨2, ![200000, 5]⟩ ![] hb5 (constantI ⟨0, ![]⟩ 32 lo))
            (fptosi (F := Ideal) (φ := .f32) 32 (extractStridedSlice ⟨2, ![200000, 5]⟩ ![0, 1] a hs5)))) hsk) hc
      = minsi (broadcastInDim ⟨1, ![200000]⟩ ![] hb1 (constantI ⟨0, ![]⟩ 32 hi))
          (maxsi (broadcastInDim ⟨1, ![200000]⟩ ![] hb1 (constantI ⟨0, ![]⟩ 32 lo))
            (fptosi (F := Ideal) (φ := .f32) 32 (shapeCast ⟨1, ![200000]⟩ (extractStridedSlice ⟨2, ![200000, 1]⟩ ![0, 1] a hs1) hc))) := by
  funext r
  rw [eq_ix1 r]
  refine (Cert.LibColumnVector.shapeCast_a1_a_apply _ hc (r 0)).trans ?_
  refine (slice2_axis1_apply 0 _ hsk (r 0) 0 (0 : Fin 5) rfl).trans ?_
  refine congr (congrArg IntOp.minsi ?_) (congr (congrArg IntOp.maxsi ?_) (congrArg (FloatOps.fptosi 32) ?_))
  · exact (Cert.LibUnitAxes.broadcastInDim_scalar_apply _ hb5 _).trans (Cert.LibUnitAxes.broadcastInDim_scalar_apply _ hb1 _).symm
  · exact (Cert.LibUnitAxes.broadcastInDim_scalar_apply _ hb5 _).trans (Cert.LibUnitAxes.broadcastInDim_scalar_apply _ hb1 _).symm
  · exact (slice2_axis1_apply 1 a hs5 (r 0) (0 : Fin 5) (1 : Fin 10) rfl).trans
      ((Cert.LibColumnVector.shapeCast_a1_a_apply _ hc (r 0)).trans (slice2_axis1_apply 1 a hs1 (r 0) 0 (1 : Fin 10) rfl)).symm

/-- Column 1 of the five clipped identifier columns: cutting the column out after converting and clipping the whole
    [200000, 5] block gives the vector obtained by cutting column 2 of the features first, then converting and clipping. -/
theorem clipCol1 (a : (⟨2, ![200000, 10]⟩ : Shape).Idx → EReal) (lo hi : BitVec 32)
    (hs5 : (⟨2, ![200000, 10]⟩ : Shape).Slices ![0, 1] ⟨2, ![200000, 5]⟩)
    (hsk : (⟨2, ![200000, 5]⟩ : Shape).Slices ![0, 1] ⟨2, ![200000, 1]⟩)
    (hc : (⟨2, ![200000, 1]⟩ : Shape).ShapeCasts ⟨1, ![200000]⟩)
    (hs1 : (⟨2, ![200000, 10]⟩ : Shape).Slices ![0, 2] ⟨2, ![200000, 1]⟩)
    (hb5 : (⟨0, ![]⟩ : Shape).BroadcastsInDim ⟨2, ![200000, 5]⟩ ![]) (hb1 : (⟨0, ![]⟩ : Shape).BroadcastsInDim ⟨1, ![200000]⟩ ![]) :
    shapeCast ⟨1, ![200000]⟩ (extractStridedSlice ⟨2, ![200000, 1]⟩ ![0, 1]
        (minsi (broadcastInDim ⟨2, ![200000, 5]⟩ ![] hb5 (constantI ⟨0, ![]⟩ 32 hi))
          (maxsi (broadcastInDim ⟨2, ![200000, 5]⟩ ![] hb5 (constantI ⟨0, ![]⟩ 32 lo))
            (fptosi (F := Ideal) (φ := .f32) 32 (extractStridedSlice ⟨2, ![200000, 5]⟩ ![0, 1] a hs5)))) hsk) hc
      = minsi (broadcastInDim ⟨1, ![200000]⟩ ![] hb1 (constantI ⟨0, ![]⟩ 32 hi))
          (maxsi (broadcastInDim ⟨1, ![200000]⟩ ![] hb1 (constantI ⟨0, ![]⟩ 32 lo))
            (fptosi (F := Ideal) (φ := .f32) 32 (shapeCast ⟨1, ![200000]⟩ (extractStridedSlice ⟨2, ![200000, 1]⟩ ![0, 2] a hs1) hc))) := by
  funext r
  rw [eq_ix1 r]
  refine (Cert.LibColumnVector.shapeCast_a1_a_apply _ hc (r 0)).trans ?_
  refine (slice2_axis1_apply 1 _ hsk (r 0) 0 (1 : Fin 5) rfl).trans ?_
  refine congr (congrArg IntOp.minsi ?_) (congr (congrArg IntOp.maxsi ?_) (congrArg (FloatOps.fptosi 32) ?_))
  · exact (Cert.LibUnitAxes.broadcastInDim_scalar_apply _ hb5 _).trans (Cert.LibUnitAxes.broadcastInDim_scalar_apply _ hb1 _).symm
  · exact (Cert.LibUnitAxes.broadcastInDim_scalar_apply _ hb5 _).trans (Cert.LibUnitAxes.broadcastInDim_scalar_apply _ hb1 _).symm
  · exact (slice2_axis1_apply 1 a hs5 (r 0) (1 : Fin 5) (2 : Fin 10) rfl).trans
      ((Cert.LibColumnVector.shapeCast_a1_a_apply _ hc (r 0)).trans (slice2_axis1_apply 2 a hs1 (r 0) 0 (2 : Fin 10) rfl)).symm

/-- Column 2 of the five clipped identifier columns: cutting the column out after converting and clipping the whole
    [200000, 5] block gives the vector obtained by cutting column 3 of the features first, then converting and clipping. -/
theorem clipCol2 (a : (⟨2, ![200000, 10]⟩ : Shape).Idx → EReal) (lo hi : BitVec 32)
    (hs5 : (⟨2, ![200000, 10]⟩ : Shape).Slices ![0, 1] ⟨2, ![200000, 5]⟩)
    (hsk : (⟨2, ![200000, 5]⟩ : Shape).Slices ![0, 2] ⟨2, ![200000, 1]⟩)
    (hc : (⟨2, ![200000, 1]⟩ : Shape).ShapeCasts ⟨1, ![200000]⟩)
    (hs1 : (⟨2, ![200000, 10]⟩ : Shape).Slices ![0, 3] ⟨2, ![200000, 1]⟩)
    (hb5 : (⟨0, ![]⟩ : Shape).BroadcastsInDim ⟨2, ![200000, 5]⟩ ![]) (hb1 : (⟨0, ![]⟩ : Shape).BroadcastsInDim ⟨1, ![200000]⟩ ![]) :
    shapeCast ⟨1, ![200000]⟩ (extractStridedSlice ⟨2, ![200000, 1]⟩ ![0, 2]
        (minsi (broadcastInDim ⟨2, ![200000, 5]⟩ ![] hb5 (constantI ⟨0, ![]⟩ 32 hi))
          (maxsi (broadcastInDim ⟨2, ![200000, 5]⟩ ![] hb5 (constantI ⟨0, ![]⟩ 32 lo))
            (fptosi (F := Ideal) (φ := .f32) 32 (extractStridedSlice ⟨2, ![200000, 5]⟩ ![0, 1] a hs5)))) hsk) hc
      = minsi (broadcastInDim ⟨1, ![200000]⟩ ![] hb1 (constantI ⟨0, ![]⟩ 32 hi))
          (maxsi (broadcastInDim ⟨1, ![200000]⟩ ![] hb1 (constantI ⟨0, ![]⟩ 32 lo))
            (fptosi (F := Ideal) (φ := .f32) 32 (shapeCast ⟨1, ![200000]⟩ (extractStridedSlice ⟨2, ![200000, 1]⟩ ![0, 3] a hs1) hc))) := by
  funext r
  rw [eq_ix1 r]
  refine (Cert.LibColumnVector.shapeCast_a1_a_apply _ hc (r 0)).trans ?_
  refine (slice2_axis1_apply 2 _ hsk (r 0) 0 (2 : Fin 5) rfl).trans ?_
  refine congr (congrArg IntOp.minsi ?_) (congr (congrArg IntOp.maxsi ?_) (congrArg (FloatOps.fptosi 32) ?_))
  · exact (Cert.LibUnitAxes.broadcastInDim_scalar_apply _ hb5 _).trans (Cert.LibUnitAxes.broadcastInDim_scalar_apply _ hb1 _).symm
  · exact (Cert.LibUnitAxes.broadcastInDim_scalar_apply _ hb5 _).trans (Cert.LibUnitAxes.broadcastInDim_scalar_apply _ hb1 _).symm
  · exact (slice2_axis1_apply 1 a hs5 (r 0) (2 : Fin 5) (3 : Fin 10) rfl).trans
      ((Cert.LibColumnVector.shapeCast_a1_a_apply _ hc (r 0)).trans (slice2_axis1_apply 3 a hs1 (r 0) 0 (3 : Fin 10) rfl)).symm

/-- Column 3 of the five clipped identifier columns: cutting the column out after converting and clipping the whole
    [200000, 5] block gives the vector obtained by cutting column 4 of the features first, then converting and clipping. -/
theorem clipCol3 (a : (⟨2, ![200000, 10]⟩ : Shape).Idx → EReal) (lo hi : BitVec 32)
    (hs5 : (⟨2, ![200000, 10]⟩ : Shape).Slices ![0, 1] ⟨2, ![200000, 5]⟩)
    (hsk : (⟨2, ![200000, 5]⟩ : Shape).Slices ![0, 3] ⟨2, ![200000, 1]⟩)
    (hc : (⟨2, ![200000, 1]⟩ : Shape).ShapeCasts ⟨1, ![200000]⟩)
    (hs1 : (⟨2, ![200000, 10]⟩ : Shape).Slices ![0, 4] ⟨2, ![200000, 1]⟩)
    (hb5 : (⟨0, ![]⟩ : Shape).BroadcastsInDim ⟨2, ![200000, 5]⟩ ![]) (hb1 : (⟨0, ![]⟩ : Shape).BroadcastsInDim ⟨1, ![200000]⟩ ![]) :
    shapeCast ⟨1, ![200000]⟩ (extractStridedSlice ⟨2, ![200000, 1]⟩ ![0, 3]
        (minsi (broadcastInDim ⟨2, ![200000, 5]⟩ ![] hb5 (constantI ⟨0, ![]⟩ 32 hi))
          (maxsi (broadcastInDim ⟨2, ![200000, 5]⟩ ![] hb5 (constantI ⟨0, ![]⟩ 32 lo))
            (fptosi (F := Ideal) (φ := .f32) 32 (extractStridedSlice ⟨2, ![200000, 5]⟩ ![0, 1] a hs5)))) hsk) hc
      = minsi (broadcastInDim ⟨1, ![200000]⟩ ![] hb1 (constantI ⟨0, ![]⟩ 32 hi))
          (maxsi (broadcastInDim ⟨1, ![200000]⟩ ![] hb1 (constantI ⟨0, ![]⟩ 32 lo))
            (fptosi (F := Ideal) (φ := .f32) 32 (shapeCast ⟨1, ![200000]⟩ (extractStridedSlice ⟨2, ![200000, 1]⟩ ![0, 4] a hs1) hc))) := by
  funext r
  rw [eq_ix1 r]
  refine (Cert.LibColumnVector.shapeCast_a1_a_apply _ hc (r 0)).trans ?_
  refine (slice2_axis1_apply 3 _ hsk (r 0) 0 (3 : Fin 5) rfl).trans ?_
  refine congr (congrArg IntOp.minsi ?_) (congr (congrArg IntOp.maxsi ?_) (congrArg (FloatOps.fptosi 32) ?_))
  · exact (Cert.LibUnitAxes.broadcastInDim_scalar_apply _ hb5 _).trans (Cert.LibUnitAxes.broadcastInDim_scalar_apply _ hb1 _).symm
  · exact (Cert.LibUnitAxes.broadcastInDim_scalar_apply _ hb5 _).trans (Cert.LibUnitAxes.broadcastInDim_scalar_apply _ hb1 _).symm
  · exact (slice2_axis1_apply 1 a hs5 (r 0) (3 : Fin 5) (4 : Fin 10) rfl).trans
      ((Cert.LibColumnVector.shapeCast_a1_a_apply _ hc (r 0)).trans (slice2_axis1_apply 4 a hs1 (r 0) 0 (4 : Fin 10) rfl)).symm

/-- Column 4 of the five clipped identifier columns: cutting the column out after converting and clipping the whole
    [200000, 5] block gives the vector obtained by cutting column 5 of the features first, then converting and clipping. -/
theorem clipCol4 (a : (⟨2, ![200000, 10]⟩ : Shape).Idx → EReal) (lo hi : BitVec 32)
    (hs5 : (⟨2, ![200000, 10]⟩ : Shape).Slices ![0, 1] ⟨2, ![200000, 5]⟩)
    (hsk : (⟨2, ![200000, 5]⟩ : Shape).Slices ![0, 4] ⟨2, ![200000, 1]⟩)
    (hc : (⟨2, ![200000, 1]⟩ : Shape).ShapeCasts ⟨1, ![200000]⟩)
    (hs1 : (⟨2, ![200000, 10]⟩ : Shape).Slices ![0, 5] ⟨2, ![200000, 1]⟩)
    (hb5 : (⟨0, ![]⟩ : Shape).BroadcastsInDim ⟨2, ![200000, 5]⟩ ![]) (hb1 : (⟨0, ![]⟩ : Shape).BroadcastsInDim ⟨1, ![200000]⟩ ![]) :
    shapeCast ⟨1, ![200000]⟩ (extractStridedSlice ⟨2, ![200000, 1]⟩ ![0, 4]
        (minsi (broadcastInDim ⟨2, ![200000, 5]⟩ ![] hb5 (constantI ⟨0, ![]⟩ 32 hi))
          (maxsi (broadcastInDim ⟨2, ![200000, 5]⟩ ![] hb5 (constantI ⟨0, ![]⟩ 32 lo))
            (fptosi (F := Ideal) (φ := .f32) 32 (extractStridedSlice ⟨2, ![200000, 5]⟩ ![0, 1] a hs5)))) hsk) hc
      = minsi (broadcastInDim ⟨1, ![200000]⟩ ![] hb1 (constantI ⟨0, ![]⟩ 32 hi))
          (maxsi (broadcastInDim ⟨1, ![200000]⟩ ![] hb1 (constantI ⟨0, ![]⟩ 32 lo))
            (fptosi (F := Ideal) (φ := .f32) 32 (shapeCast ⟨1, ![200000]⟩ (extractStridedSlice ⟨2, ![200000, 1]⟩ ![0, 5] a hs1) hc))) := by
  funext r
  rw [eq_ix1 r]
  refine (Cert.LibColumnVector.shapeCast_a1_a_apply _ hc (r 0)).trans ?_
  refine (slice2_axis1_apply 4 _ hsk (r 0) 0 (4 : Fin 5) rfl).trans ?_
  refine congr (congrArg IntOp.minsi ?_) (congr (congrArg IntOp.maxsi ?_) (congrArg (FloatOps.fptosi 32) ?_))
  · exact (Cert.LibUnitAxes.broadcastInDim_scalar_apply _ hb5 _).trans (Cert.LibUnitAxes.broadcastInDim_scalar_apply _ hb1 _).symm
  · exact (Cert.LibUnitAxes.broadcastInDim_scalar_apply _ hb5 _).trans (Cert.LibUnitAxes.broadcastInDim_scalar_apply _ hb1 _).symm
  · exact (slice2_axis1_apply 1 a hs5 (r 0) (4 : Fin 5) (5 : Fin 10) rfl).trans
      ((Cert.LibColumnVector.shapeCast_a1_a_apply _ hc (r 0)).trans (slice2_axis1_apply 5 a hs1 (r 0) 0 (5 : Fin 10) rfl)).symm

end Cert.Bridge.ClipCol

end
-- ==== Proof.Bridge.JointFeatP.lean ====
/-
  The player features, kernel program against reference.

  Both programs concatenate, for every player, the five continuous features with five embedding rows of sixteen entries,
  one per identifier column.  The continuous part and the embedding tables are read the same way.  The identifier columns
  reach the embedding lookup along two routes — the kernel program converts and clips the block of the five columns and
  then cuts a column, the reference cuts a column and then converts and clips it — which give the same vector of row
  numbers (the conversion and the clip act entry by entry).  So the six pieces agree one by one, and so do the
  concatenations.
-/
import proofs.«111184_j68341519614847_1_alg».proof.Proof.KI.Bounds
import proofs.«111184_j68341519614847_1_alg».proof.Proof.Ref.Stages
import proofs.«111184_j68341519614847_1_alg».proof.Proof.Bridge.Eval
import proofs.«111184_j68341519614847_1_alg».proof.Proof.Bridge.ConcatCongr
import proofs.«111184_j68341519614847_1_alg».proof.Proof.Bridge.ClipCol
import Idealize.ShloMosaic.PureOps.Ideal

noncomputable section

namespace Cert.Bridge.JointFeatP

open Idealize.ShloMosaic Idealize.ShloMosaic.TcCoe Idealize.SL.Sem Idealize.ShloMosaic.StableHlo

set_option maxHeartbeats 32000000 in
/-- The [200000, 85] player feature array is the same in both programs. -/
theorem featP (V : Valuation Cert.KernelIdeal.τ Cert.KernelIdeal.sig (Elt Ideal)) (N : Valuation Cert.ReferenceIdeal.τ Cert.ReferenceIdeal.sig (Elt Ideal))
    (h0 : V (Proc.devRef .tc Cert.KernelIdeal.main_arg0) = N (Proc.devRef .tc Cert.ReferenceIdeal.main_arg0)) (h6 : V (Proc.devRef .tc Cert.KernelIdeal.main_arg6) = N (Proc.devRef .tc Cert.ReferenceIdeal.main_arg6)) :
    StableHlo.after Cert.KernelIdeal.Gen.main_part1_ops0 (StableHlo.after Cert.KernelIdeal.Gen.main_part0_ops2 (StableHlo.after Cert.KernelIdeal.Gen.main_part0_ops1 (StableHlo.after Cert.KernelIdeal.Gen.main_part0_ops0 V))) (Proc.devRef .tc Cert.KernelIdeal.main_v65)
      = StableHlo.after Cert.ReferenceIdeal.Hand.stage0 N (Proc.devRef .tc Cert.ReferenceIdeal.main_v72) := by
  simp only [StableHlo.after_cons, StableHlo.after_nil]
  rw [Cert.Bridge.ConcatK.featP_result, Cert.Bridge.ConcatR.featP_result]
  refine Cert.Bridge.concat6_congr _ _ _ _ _ _ _ _ _ _ _ _ _ _ _ _ _ _ _ _ _ _ ?_ ?_ ?_ ?_ ?_ ?_
  · -- the five continuous features
    eval_line
    rw [h0]
    rfl
  · -- piece 1: rows of embedding table 0 selected by identifier column 0
    eval_line
    generalize hK : (fun i => shapeCast Cert.KernelIdeal.main_v13.ty.shape (extractStridedSlice (s := Cert.KernelIdeal.S200000x5) (α := BitVec 32) Cert.KernelIdeal.S200000x1 ![0, 0] _ _) _ i) = iK
    generalize hR : ((StableHlo.TRef.of Cert.ReferenceIdeal.main_v12 _ _ _).toBuf _) = iR
    have e : iK = iR := by
      subst hK hR
      rw [h0]
      exact Cert.Bridge.ClipCol.clipCol0 (N (Proc.devRef .tc Cert.ReferenceIdeal.main_arg0)) 0#32 199#32 Cert.KernelIdeal.Gen.slices_S200000x10_S200000x5_0_1
        Cert.KernelIdeal.Gen.slices_S200000x5_S200000x1_0_0 Cert.KernelIdeal.Gen.shapeCasts_S200000x1_S200000 Cert.ReferenceIdeal.Gen.slices_S200000x10_S200000x1_0_1
        Cert.KernelIdeal.Gen.bcast_S_S200000x5 Cert.ReferenceIdeal.Gen.bcast_S_S200000
    subst e
    rw [h6]
    rfl
  · -- piece 2: rows of embedding table 1 selected by identifier column 1
    eval_line
    generalize hK : (fun i => shapeCast Cert.KernelIdeal.main_v24.ty.shape (extractStridedSlice (s := Cert.KernelIdeal.S200000x5) (α := BitVec 32) Cert.KernelIdeal.S200000x1 ![0, 1] _ _) _ i) = iK
    generalize hR : ((StableHlo.TRef.of Cert.ReferenceIdeal.main_v25 _ _ _).toBuf _) = iR
    have e : iK = iR := by
      subst hK hR
      rw [h0]
      exact Cert.Bridge.ClipCol.clipCol1 (N (Proc.devRef .tc Cert.ReferenceIdeal.main_arg0)) 0#32 199#32 Cert.KernelIdeal.Gen.slices_S200000x10_S200000x5_0_1
        Cert.KernelIdeal.Gen.slices_S200000x5_S200000x1_0_1 Cert.KernelIdeal.Gen.shapeCasts_S200000x1_S200000 Cert.ReferenceIdeal.Gen.slices_S200000x10_S200000x1_0_2
        Cert.KernelIdeal.Gen.bcast_S_S200000x5 Cert.ReferenceIdeal.Gen.bcast_S_S200000
    subst e
    rw [h6]
    rfl
  · -- piece 3: rows of embedding table 2 selected by identifier column 2
    eval_line
    generalize hK : (fun i => shapeCast Cert.KernelIdeal.main_v35.ty.shape (extractStridedSlice (s := Cert.KernelIdeal.S200000x5) (α := BitVec 32) Cert.KernelIdeal.S200000x1 ![0, 2] _ _) _ i) = iK
    generalize hR : ((StableHlo.TRef.of Cert.ReferenceIdeal.main_v38 _ _ _).toBuf _) = iR
    have e : iK = iR := by
      subst hK hR
      rw [h0]
      exact Cert.Bridge.ClipCol.clipCol2 (N (Proc.devRef .tc Cert.ReferenceIdeal.main_arg0)) 0#32 199#32 Cert.KernelIdeal.Gen.slices_S200000x10_S200000x5_0_1
        Cert.KernelIdeal.Gen.slices_S200000x5_S200000x1_0_2 Cert.KernelIdeal.Gen.shapeCasts_S200000x1_S200000 Cert.ReferenceIdeal.Gen.slices_S200000x10_S200000x1_0_3
        Cert.KernelIdeal.Gen.bcast_S_S200000x5 Cert.ReferenceIdeal.Gen.bcast_S_S200000
    subst e
    rw [h6]
    rfl
  · -- piece 4: rows of embedding table 3 selected by identifier column 3
    eval_line
    generalize hK : (fun i => shapeCast Cert.KernelIdeal.main_v46.ty.shape (extractStridedSlice (s := Cert.KernelIdeal.S200000x5) (α := BitVec 32) Cert.KernelIdeal.S200000x1 ![0, 3] _ _) _ i) = iK
    generalize hR : ((StableHlo.TRef.of Cert.ReferenceIdeal.main_v51 _ _ _).toBuf _) = iR
    have e : iK = iR := by
      subst hK hR
      rw [h0]
      exact Cert.Bridge.ClipCol.clipCol3 (N (Proc.devRef .tc Cert.ReferenceIdeal.main_arg0)) 0#32 199#32 Cert.KernelIdeal.Gen.slices_S200000x10_S200000x5_0_1
        Cert.KernelIdeal.Gen.slices_S200000x5_S200000x1_0_3 Cert.KernelIdeal.Gen.shapeCasts_S200000x1_S200000 Cert.ReferenceIdeal.Gen.slices_S200000x10_S200000x1_0_4
        Cert.KernelIdeal.Gen.bcast_S_S200000x5 Cert.ReferenceIdeal.Gen.bcast_S_S200000
    subst e
    rw [h6]
    rfl
  · -- piece 5: rows of embedding table 4 selected by identifier column 4
    eval_line
    generalize hK : (fun i => shapeCast Cert.KernelIdeal.main_v57.ty.shape (extractStridedSlice (s := Cert.KernelIdeal.S200000x5) (α := BitVec 32) Cert.KernelIdeal.S200000x1 ![0, 4] _ _) _ i) = iK
    generalize hR : ((StableHlo.TRef.of Cert.ReferenceIdeal.main_v64 _ _ _).toBuf _) = iR
    have e : iK = iR := by
      subst hK hR
      rw [h0]
      exact Cert.Bridge.ClipCol.clipCol4 (N (Proc.devRef .tc Cert.ReferenceIdeal.main_arg0)) 0#32 199#32 Cert.KernelIdeal.Gen.slices_S200000x10_S200000x5_0_1
        Cert.KernelIdeal.Gen.slices_S200000x5_S200000x1_0_4 Cert.KernelIdeal.Gen.shapeCasts_S200000x1_S200000 Cert.ReferenceIdeal.Gen.slices_S200000x10_S200000x1_0_5
        Cert.KernelIdeal.Gen.bcast_S_S200000x5 Cert.ReferenceIdeal.Gen.bcast_S_S200000
    subst e
    rw [h6]
    rfl

end Cert.Bridge.JointFeatP

end
-- ==== Proof.Bridge.JointFeatH.lean ====
/-
  The history features, kernel program against reference.

  Both programs build the [500000, 26] history feature array the same way: six columns of the history array picked by
  a constant column list, sixteen columns gathered from the hero table at a clipped, wrapped column of the history
  array, and four columns gathered from the outcome table at another clipped, wrapped column — concatenated along the
  feature axis. Given the same history array, the same two tables and the same column list in both programs' memories,
  the three pieces are the same arrays, and so is the concatenation.
-/
import proofs.«111184_j68341519614847_1_alg».proof.Proof.KI.Bounds
import proofs.«111184_j68341519614847_1_alg».proof.Proof.Ref.Stages
import proofs.«111184_j68341519614847_1_alg».proof.Proof.Bridge.Eval
import proofs.«111184_j68341519614847_1_alg».proof.Proof.Bridge.ConcatCongr
import Idealize.ShloMosaic.PureOps.Ideal

noncomputable section

namespace Cert.Bridge.JointFeatH

open Idealize.ShloMosaic Idealize.ShloMosaic.TcCoe Idealize.SL.Sem Idealize.ShloMosaic.StableHlo

set_option maxHeartbeats 8000000 in
/-- The history feature array, from the history array, the two tables and the column list. -/
theorem featH (V : Valuation Cert.KernelIdeal.τ Cert.KernelIdeal.sig (Elt Ideal)) (N : Valuation Cert.ReferenceIdeal.τ Cert.ReferenceIdeal.sig (Elt Ideal))
    (h1 : V (Proc.devRef .tc Cert.KernelIdeal.main_arg1) = N (Proc.devRef .tc Cert.ReferenceIdeal.main_arg1))
    (h7 : V (Proc.devRef .tc Cert.KernelIdeal.main_arg7) = N (Proc.devRef .tc Cert.ReferenceIdeal.main_arg7))
    (h8 : V (Proc.devRef .tc Cert.KernelIdeal.main_arg8) = N (Proc.devRef .tc Cert.ReferenceIdeal.main_arg8))
    (hc : V (Proc.devRef .tc Cert.KernelIdeal.main_c_0) = N (Proc.devRef .tc Cert.ReferenceIdeal.main_c_0)) :
    StableHlo.after Cert.KernelIdeal.Gen.main_part2_ops0 (StableHlo.after Cert.KernelIdeal.Gen.main_part1_ops5 (StableHlo.after Cert.KernelIdeal.Gen.main_part1_ops4 (StableHlo.after Cert.KernelIdeal.Gen.main_part1_ops3 (StableHlo.after Cert.KernelIdeal.Gen.main_part1_ops2 (StableHlo.after Cert.KernelIdeal.Gen.main_part1_ops1 V))))) (Proc.devRef .tc Cert.KernelIdeal.main_v96)
      = StableHlo.after Cert.ReferenceIdeal.Hand.stage2 N (Proc.devRef .tc Cert.ReferenceIdeal.main_v107) := by
  simp only [StableHlo.after_cons, StableHlo.after_nil]
  rw [Cert.Bridge.ConcatK.featH_result, Cert.Bridge.ConcatR.featH_result]
  refine Cert.Bridge.concat3_congr _ _ _ _ _ _ _ _ _ _ _ _ _ ?_ ?_ ?_
  · eval_line
    rw [h1, hc]
    rfl
  · eval_line
    rw [h1, h7]
    rfl
  · eval_line
    rw [h1, h8]
    rfl

/-! ## The column list in both memories

Each program writes the constant column list [1, 2, 4, 5, 6, 7] once, among its first operations, and nothing writes
its buffer afterwards; the two programs' literals are the same six words. -/

/-- The two programs' column lists are the same six words. -/
theorem lit1_eq : Cert.KernelIdeal.lit1 = Cert.ReferenceIdeal.lit1 := by
  funext i; fin_cases i <;> rfl

/-- The kernel program's column list when region 0 has run: the literal. -/
theorem c0_K (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.W5 m ρ c (Proc.devRef .tc Cert.KernelIdeal.main_c_0)
      = fun i => Cert.KernelIdeal.lit1 (Cert.KernelIdeal.S6.rowMajor i) := by
  refine (Cert.KernelIdeal.Hand.W5_of m ρ c Cert.KernelIdeal.main_c_0 (by decide)).trans ?_
  refine (Cert.KernelIdeal.Hand.W4_of m ρ c Cert.KernelIdeal.main_c_0 (by decide)).trans ?_
  refine (Cert.KernelIdeal.Hand.W3_of m ρ c Cert.KernelIdeal.main_c_0 (by decide)).trans ?_
  refine (Cert.KernelIdeal.Hand.W2_of m ρ c Cert.KernelIdeal.main_c_0 (by decide)).trans ?_
  show StableHlo.after Cert.KernelIdeal.Gen.main_part0_ops0 (Cert.KernelIdeal.Hand.W0 m ρ c) _ = _
  generalize Cert.KernelIdeal.Hand.W0 m ρ c = V
  eval_line
  rfl

/-- The reference's column list after its stage 1: the literal. -/
theorem c0_R (m : (ℓ : Loc Cert.ReferenceIdeal.nD Cert.ReferenceIdeal.τ Cert.ReferenceIdeal.sig) → Buf (Elt Ideal) ℓ)
    (c : Dev Cert.ReferenceIdeal.nD) :
    Cert.ReferenceIdeal.Hand.N2 m c (Proc.devRef .tc Cert.ReferenceIdeal.main_c_0)
      = fun i => Cert.ReferenceIdeal.lit1 (Cert.ReferenceIdeal.S6.rowMajor i) := by
  refine (Cert.ReferenceIdeal.Hand.N2_of m c Cert.ReferenceIdeal.main_c_0 (by decide)).trans ?_
  show StableHlo.after Cert.ReferenceIdeal.Hand.stage0 (Cert.ReferenceIdeal.Hand.N0 m c) _ = _
  generalize Cert.ReferenceIdeal.Hand.N0 m c = V
  eval_line
  rfl

/-- The column list is the same array in the two memories. -/
theorem c0_eq (mK : (ℓ : Loc Cert.KernelIdeal.nD Cert.KernelIdeal.τ Cert.KernelIdeal.sig) → Buf (Elt Ideal) ℓ)
    (ρ : Dev Cert.KernelIdeal.nD → PrngReg) (cK : Dev Cert.KernelIdeal.nD)
    (mR : (ℓ : Loc Cert.ReferenceIdeal.nD Cert.ReferenceIdeal.τ Cert.ReferenceIdeal.sig) → Buf (Elt Ideal) ℓ)
    (cR : Dev Cert.ReferenceIdeal.nD) :
    Cert.KernelIdeal.Hand.W5 mK ρ cK (Proc.devRef .tc Cert.KernelIdeal.main_c_0)
      = Cert.ReferenceIdeal.Hand.N2 mR cR (Proc.devRef .tc Cert.ReferenceIdeal.main_c_0) := by
  rw [c0_K, c0_R, lit1_eq]

end Cert.Bridge.JointFeatH

end
-- ==== Proof.Ref.Keeps.lean ====
/- What the stage boundaries hold at buffers no stage in between writes. No stage writes an argument of @main, so at every
   boundary `N0` … `N7` each argument's buffer holds the launch contents (`Nj_argN`: at `N0` by definition, at each later boundary
   from the one before, the argument not being among the buffers the stage writes). A value of @main is written once, in the
   stage its cut names: `main_v77` in stage 1 and `main_v112` in stage 3, so the later boundaries hold them as boundaries 2 and 4 do. -/
import proofs.«111184_j68341519614847_1_alg».proof.Proof.Ref.Stages

noncomputable section

namespace Cert.ReferenceIdeal.Hand

open Cert.ReferenceIdeal Cert.ReferenceIdeal.Gen Idealize.ShloMosaic Idealize.ShloMosaic.TcCoe Idealize.SL.Sem

variable {F : FTy → Type} [FloatOps F]

variable (m : (ℓ : Loc nD τ sig) → Buf (Elt F) ℓ) (c : Dev nD)

/-! ## The argument arrays at every boundary: the launch contents -/

theorem N0_arg0 : N0 m c (Proc.devRef .tc main_arg0) = m ((c : Thread nD τ).loc main_arg0) := rfl
theorem N1_arg0 : N1 m c (Proc.devRef .tc main_arg0) = m ((c : Thread nD τ).loc main_arg0) := (N1_of m c main_arg0 (by decide)).trans (N0_arg0 m c)
theorem N2_arg0 : N2 m c (Proc.devRef .tc main_arg0) = m ((c : Thread nD τ).loc main_arg0) := (N2_of m c main_arg0 (by decide)).trans (N1_arg0 m c)
theorem N3_arg0 : N3 m c (Proc.devRef .tc main_arg0) = m ((c : Thread nD τ).loc main_arg0) := (N3_of m c main_arg0 (by decide)).trans (N2_arg0 m c)
theorem N4_arg0 : N4 m c (Proc.devRef .tc main_arg0) = m ((c : Thread nD τ).loc main_arg0) := (N4_of m c main_arg0 (by decide)).trans (N3_arg0 m c)
theorem N5_arg0 : N5 m c (Proc.devRef .tc main_arg0) = m ((c : Thread nD τ).loc main_arg0) := (N5_of m c main_arg0 (by decide)).trans (N4_arg0 m c)
theorem N6_arg0 : N6 m c (Proc.devRef .tc main_arg0) = m ((c : Thread nD τ).loc main_arg0) := (N6_of m c main_arg0 (by decide)).trans (N5_arg0 m c)
theorem N7_arg0 : N7 m c (Proc.devRef .tc main_arg0) = m ((c : Thread nD τ).loc main_arg0) := (N7_of m c main_arg0 (by decide)).trans (N6_arg0 m c)

theorem N0_arg1 : N0 m c (Proc.devRef .tc main_arg1) = m ((c : Thread nD τ).loc main_arg1) := rfl
theorem N1_arg1 : N1 m c (Proc.devRef .tc main_arg1) = m ((c : Thread nD τ).loc main_arg1) := (N1_of m c main_arg1 (by decide)).trans (N0_arg1 m c)
theorem N2_arg1 : N2 m c (Proc.devRef .tc main_arg1) = m ((c : Thread nD τ).loc main_arg1) := (N2_of m c main_arg1 (by decide)).trans (N1_arg1 m c)
theorem N3_arg1 : N3 m c (Proc.devRef .tc main_arg1) = m ((c : Thread nD τ).loc main_arg1) := (N3_of m c main_arg1 (by decide)).trans (N2_arg1 m c)
theorem N4_arg1 : N4 m c (Proc.devRef .tc main_arg1) = m ((c : Thread nD τ).loc main_arg1) := (N4_of m c main_arg1 (by decide)).trans (N3_arg1 m c)
theorem N5_arg1 : N5 m c (Proc.devRef .tc main_arg1) = m ((c : Thread nD τ).loc main_arg1) := (N5_of m c main_arg1 (by decide)).trans (N4_arg1 m c)
theorem N6_arg1 : N6 m c (Proc.devRef .tc main_arg1) = m ((c : Thread nD τ).loc main_arg1) := (N6_of m c main_arg1 (by decide)).trans (N5_arg1 m c)
theorem N7_arg1 : N7 m c (Proc.devRef .tc main_arg1) = m ((c : Thread nD τ).loc main_arg1) := (N7_of m c main_arg1 (by decide)).trans (N6_arg1 m c)

theorem N0_arg2 : N0 m c (Proc.devRef .tc main_arg2) = m ((c : Thread nD τ).loc main_arg2) := rfl
theorem N1_arg2 : N1 m c (Proc.devRef .tc main_arg2) = m ((c : Thread nD τ).loc main_arg2) := (N1_of m c main_arg2 (by decide)).trans (N0_arg2 m c)
theorem N2_arg2 : N2 m c (Proc.devRef .tc main_arg2) = m ((c : Thread nD τ).loc main_arg2) := (N2_of m c main_arg2 (by decide)).trans (N1_arg2 m c)
theorem N3_arg2 : N3 m c (Proc.devRef .tc main_arg2) = m ((c : Thread nD τ).loc main_arg2) := (N3_of m c main_arg2 (by decide)).trans (N2_arg2 m c)
theorem N4_arg2 : N4 m c (Proc.devRef .tc main_arg2) = m ((c : Thread nD τ).loc main_arg2) := (N4_of m c main_arg2 (by decide)).trans (N3_arg2 m c)
theorem N5_arg2 : N5 m c (Proc.devRef .tc main_arg2) = m ((c : Thread nD τ).loc main_arg2) := (N5_of m c main_arg2 (by decide)).trans (N4_arg2 m c)
theorem N6_arg2 : N6 m c (Proc.devRef .tc main_arg2) = m ((c : Thread nD τ).loc main_arg2) := (N6_of m c main_arg2 (by decide)).trans (N5_arg2 m c)
theorem N7_arg2 : N7 m c (Proc.devRef .tc main_arg2) = m ((c : Thread nD τ).loc main_arg2) := (N7_of m c main_arg2 (by decide)).trans (N6_arg2 m c)

theorem N0_arg3 : N0 m c (Proc.devRef .tc main_arg3) = m ((c : Thread nD τ).loc main_arg3) := rfl
theorem N1_arg3 : N1 m c (Proc.devRef .tc main_arg3) = m ((c : Thread nD τ).loc main_arg3) := (N1_of m c main_arg3 (by decide)).trans (N0_arg3 m c)
theorem N2_arg3 : N2 m c (Proc.devRef .tc main_arg3) = m ((c : Thread nD τ).loc main_arg3) := (N2_of m c main_arg3 (by decide)).trans (N1_arg3 m c)
theorem N3_arg3 : N3 m c (Proc.devRef .tc main_arg3) = m ((c : Thread nD τ).loc main_arg3) := (N3_of m c main_arg3 (by decide)).trans (N2_arg3 m c)
theorem N4_arg3 : N4 m c (Proc.devRef .tc main_arg3) = m ((c : Thread nD τ).loc main_arg3) := (N4_of m c main_arg3 (by decide)).trans (N3_arg3 m c)
theorem N5_arg3 : N5 m c (Proc.devRef .tc main_arg3) = m ((c : Thread nD τ).loc main_arg3) := (N5_of m c main_arg3 (by decide)).trans (N4_arg3 m c)
theorem N6_arg3 : N6 m c (Proc.devRef .tc main_arg3) = m ((c : Thread nD τ).loc main_arg3) := (N6_of m c main_arg3 (by decide)).trans (N5_arg3 m c)
theorem N7_arg3 : N7 m c (Proc.devRef .tc main_arg3) = m ((c : Thread nD τ).loc main_arg3) := (N7_of m c main_arg3 (by decide)).trans (N6_arg3 m c)

theorem N0_arg4 : N0 m c (Proc.devRef .tc main_arg4) = m ((c : Thread nD τ).loc main_arg4) := rfl
theorem N1_arg4 : N1 m c (Proc.devRef .tc main_arg4) = m ((c : Thread nD τ).loc main_arg4) := (N1_of m c main_arg4 (by decide)).trans (N0_arg4 m c)
theorem N2_arg4 : N2 m c (Proc.devRef .tc main_arg4) = m ((c : Thread nD τ).loc main_arg4) := (N2_of m c main_arg4 (by decide)).trans (N1_arg4 m c)
theorem N3_arg4 : N3 m c (Proc.devRef .tc main_arg4) = m ((c : Thread nD τ).loc main_arg4) := (N3_of m c main_arg4 (by decide)).trans (N2_arg4 m c)
theorem N4_arg4 : N4 m c (Proc.devRef .tc main_arg4) = m ((c : Thread nD τ).loc main_arg4) := (N4_of m c main_arg4 (by decide)).trans (N3_arg4 m c)
theorem N5_arg4 : N5 m c (Proc.devRef .tc main_arg4) = m ((c : Thread nD τ).loc main_arg4) := (N5_of m c main_arg4 (by decide)).trans (N4_arg4 m c)
theorem N6_arg4 : N6 m c (Proc.devRef .tc main_arg4) = m ((c : Thread nD τ).loc main_arg4) := (N6_of m c main_arg4 (by decide)).trans (N5_arg4 m c)
theorem N7_arg4 : N7 m c (Proc.devRef .tc main_arg4) = m ((c : Thread nD τ).loc main_arg4) := (N7_of m c main_arg4 (by decide)).trans (N6_arg4 m c)

theorem N0_arg5 : N0 m c (Proc.devRef .tc main_arg5) = m ((c : Thread nD τ).loc main_arg5) := rfl
theorem N1_arg5 : N1 m c (Proc.devRef .tc main_arg5) = m ((c : Thread nD τ).loc main_arg5) := (N1_of m c main_arg5 (by decide)).trans (N0_arg5 m c)
theorem N2_arg5 : N2 m c (Proc.devRef .tc main_arg5) = m ((c : Thread nD τ).loc main_arg5) := (N2_of m c main_arg5 (by decide)).trans (N1_arg5 m c)
theorem N3_arg5 : N3 m c (Proc.devRef .tc main_arg5) = m ((c : Thread nD τ).loc main_arg5) := (N3_of m c main_arg5 (by decide)).trans (N2_arg5 m c)
theorem N4_arg5 : N4 m c (Proc.devRef .tc main_arg5) = m ((c : Thread nD τ).loc main_arg5) := (N4_of m c main_arg5 (by decide)).trans (N3_arg5 m c)
theorem N5_arg5 : N5 m c (Proc.devRef .tc main_arg5) = m ((c : Thread nD τ).loc main_arg5) := (N5_of m c main_arg5 (by decide)).trans (N4_arg5 m c)
theorem N6_arg5 : N6 m c (Proc.devRef .tc main_arg5) = m ((c : Thread nD τ).loc main_arg5) := (N6_of m c main_arg5 (by decide)).trans (N5_arg5 m c)
theorem N7_arg5 : N7 m c (Proc.devRef .tc main_arg5) = m ((c : Thread nD τ).loc main_arg5) := (N7_of m c main_arg5 (by decide)).trans (N6_arg5 m c)

theorem N0_arg6 : N0 m c (Proc.devRef .tc main_arg6) = m ((c : Thread nD τ).loc main_arg6) := rfl
theorem N1_arg6 : N1 m c (Proc.devRef .tc main_arg6) = m ((c : Thread nD τ).loc main_arg6) := (N1_of m c main_arg6 (by decide)).trans (N0_arg6 m c)
theorem N2_arg6 : N2 m c (Proc.devRef .tc main_arg6) = m ((c : Thread nD τ).loc main_arg6) := (N2_of m c main_arg6 (by decide)).trans (N1_arg6 m c)
theorem N3_arg6 : N3 m c (Proc.devRef .tc main_arg6) = m ((c : Thread nD τ).loc main_arg6) := (N3_of m c main_arg6 (by decide)).trans (N2_arg6 m c)
theorem N4_arg6 : N4 m c (Proc.devRef .tc main_arg6) = m ((c : Thread nD τ).loc main_arg6) := (N4_of m c main_arg6 (by decide)).trans (N3_arg6 m c)
theorem N5_arg6 : N5 m c (Proc.devRef .tc main_arg6) = m ((c : Thread nD τ).loc main_arg6) := (N5_of m c main_arg6 (by decide)).trans (N4_arg6 m c)
theorem N6_arg6 : N6 m c (Proc.devRef .tc main_arg6) = m ((c : Thread nD τ).loc main_arg6) := (N6_of m c main_arg6 (by decide)).trans (N5_arg6 m c)
theorem N7_arg6 : N7 m c (Proc.devRef .tc main_arg6) = m ((c : Thread nD τ).loc main_arg6) := (N7_of m c main_arg6 (by decide)).trans (N6_arg6 m c)

theorem N0_arg7 : N0 m c (Proc.devRef .tc main_arg7) = m ((c : Thread nD τ).loc main_arg7) := rfl
theorem N1_arg7 : N1 m c (Proc.devRef .tc main_arg7) = m ((c : Thread nD τ).loc main_arg7) := (N1_of m c main_arg7 (by decide)).trans (N0_arg7 m c)
theorem N2_arg7 : N2 m c (Proc.devRef .tc main_arg7) = m ((c : Thread nD τ).loc main_arg7) := (N2_of m c main_arg7 (by decide)).trans (N1_arg7 m c)
theorem N3_arg7 : N3 m c (Proc.devRef .tc main_arg7) = m ((c : Thread nD τ).loc main_arg7) := (N3_of m c main_arg7 (by decide)).trans (N2_arg7 m c)
theorem N4_arg7 : N4 m c (Proc.devRef .tc main_arg7) = m ((c : Thread nD τ).loc main_arg7) := (N4_of m c main_arg7 (by decide)).trans (N3_arg7 m c)
theorem N5_arg7 : N5 m c (Proc.devRef .tc main_arg7) = m ((c : Thread nD τ).loc main_arg7) := (N5_of m c main_arg7 (by decide)).trans (N4_arg7 m c)
theorem N6_arg7 : N6 m c (Proc.devRef .tc main_arg7) = m ((c : Thread nD τ).loc main_arg7) := (N6_of m c main_arg7 (by decide)).trans (N5_arg7 m c)
theorem N7_arg7 : N7 m c (Proc.devRef .tc main_arg7) = m ((c : Thread nD τ).loc main_arg7) := (N7_of m c main_arg7 (by decide)).trans (N6_arg7 m c)

theorem N0_arg8 : N0 m c (Proc.devRef .tc main_arg8) = m ((c : Thread nD τ).loc main_arg8) := rfl
theorem N1_arg8 : N1 m c (Proc.devRef .tc main_arg8) = m ((c : Thread nD τ).loc main_arg8) := (N1_of m c main_arg8 (by decide)).trans (N0_arg8 m c)
theorem N2_arg8 : N2 m c (Proc.devRef .tc main_arg8) = m ((c : Thread nD τ).loc main_arg8) := (N2_of m c main_arg8 (by decide)).trans (N1_arg8 m c)
theorem N3_arg8 : N3 m c (Proc.devRef .tc main_arg8) = m ((c : Thread nD τ).loc main_arg8) := (N3_of m c main_arg8 (by decide)).trans (N2_arg8 m c)
theorem N4_arg8 : N4 m c (Proc.devRef .tc main_arg8) = m ((c : Thread nD τ).loc main_arg8) := (N4_of m c main_arg8 (by decide)).trans (N3_arg8 m c)
theorem N5_arg8 : N5 m c (Proc.devRef .tc main_arg8) = m ((c : Thread nD τ).loc main_arg8) := (N5_of m c main_arg8 (by decide)).trans (N4_arg8 m c)
theorem N6_arg8 : N6 m c (Proc.devRef .tc main_arg8) = m ((c : Thread nD τ).loc main_arg8) := (N6_of m c main_arg8 (by decide)).trans (N5_arg8 m c)
theorem N7_arg8 : N7 m c (Proc.devRef .tc main_arg8) = m ((c : Thread nD τ).loc main_arg8) := (N7_of m c main_arg8 (by decide)).trans (N6_arg8 m c)

theorem N0_arg9 : N0 m c (Proc.devRef .tc main_arg9) = m ((c : Thread nD τ).loc main_arg9) := rfl
theorem N1_arg9 : N1 m c (Proc.devRef .tc main_arg9) = m ((c : Thread nD τ).loc main_arg9) := (N1_of m c main_arg9 (by decide)).trans (N0_arg9 m c)
theorem N2_arg9 : N2 m c (Proc.devRef .tc main_arg9) = m ((c : Thread nD τ).loc main_arg9) := (N2_of m c main_arg9 (by decide)).trans (N1_arg9 m c)
theorem N3_arg9 : N3 m c (Proc.devRef .tc main_arg9) = m ((c : Thread nD τ).loc main_arg9) := (N3_of m c main_arg9 (by decide)).trans (N2_arg9 m c)
theorem N4_arg9 : N4 m c (Proc.devRef .tc main_arg9) = m ((c : Thread nD τ).loc main_arg9) := (N4_of m c main_arg9 (by decide)).trans (N3_arg9 m c)
theorem N5_arg9 : N5 m c (Proc.devRef .tc main_arg9) = m ((c : Thread nD τ).loc main_arg9) := (N5_of m c main_arg9 (by decide)).trans (N4_arg9 m c)
theorem N6_arg9 : N6 m c (Proc.devRef .tc main_arg9) = m ((c : Thread nD τ).loc main_arg9) := (N6_of m c main_arg9 (by decide)).trans (N5_arg9 m c)
theorem N7_arg9 : N7 m c (Proc.devRef .tc main_arg9) = m ((c : Thread nD τ).loc main_arg9) := (N7_of m c main_arg9 (by decide)).trans (N6_arg9 m c)

theorem N0_arg10 : N0 m c (Proc.devRef .tc main_arg10) = m ((c : Thread nD τ).loc main_arg10) := rfl
theorem N1_arg10 : N1 m c (Proc.devRef .tc main_arg10) = m ((c : Thread nD τ).loc main_arg10) := (N1_of m c main_arg10 (by decide)).trans (N0_arg10 m c)
theorem N2_arg10 : N2 m c (Proc.devRef .tc main_arg10) = m ((c : Thread nD τ).loc main_arg10) := (N2_of m c main_arg10 (by decide)).trans (N1_arg10 m c)
theorem N3_arg10 : N3 m c (Proc.devRef .tc main_arg10) = m ((c : Thread nD τ).loc main_arg10) := (N3_of m c main_arg10 (by decide)).trans (N2_arg10 m c)
theorem N4_arg10 : N4 m c (Proc.devRef .tc main_arg10) = m ((c : Thread nD τ).loc main_arg10) := (N4_of m c main_arg10 (by decide)).trans (N3_arg10 m c)
theorem N5_arg10 : N5 m c (Proc.devRef .tc main_arg10) = m ((c : Thread nD τ).loc main_arg10) := (N5_of m c main_arg10 (by decide)).trans (N4_arg10 m c)
theorem N6_arg10 : N6 m c (Proc.devRef .tc main_arg10) = m ((c : Thread nD τ).loc main_arg10) := (N6_of m c main_arg10 (by decide)).trans (N5_arg10 m c)
theorem N7_arg10 : N7 m c (Proc.devRef .tc main_arg10) = m ((c : Thread nD τ).loc main_arg10) := (N7_of m c main_arg10 (by decide)).trans (N6_arg10 m c)

theorem N0_arg11 : N0 m c (Proc.devRef .tc main_arg11) = m ((c : Thread nD τ).loc main_arg11) := rfl
theorem N1_arg11 : N1 m c (Proc.devRef .tc main_arg11) = m ((c : Thread nD τ).loc main_arg11) := (N1_of m c main_arg11 (by decide)).trans (N0_arg11 m c)
theorem N2_arg11 : N2 m c (Proc.devRef .tc main_arg11) = m ((c : Thread nD τ).loc main_arg11) := (N2_of m c main_arg11 (by decide)).trans (N1_arg11 m c)
theorem N3_arg11 : N3 m c (Proc.devRef .tc main_arg11) = m ((c : Thread nD τ).loc main_arg11) := (N3_of m c main_arg11 (by decide)).trans (N2_arg11 m c)
theorem N4_arg11 : N4 m c (Proc.devRef .tc main_arg11) = m ((c : Thread nD τ).loc main_arg11) := (N4_of m c main_arg11 (by decide)).trans (N3_arg11 m c)
theorem N5_arg11 : N5 m c (Proc.devRef .tc main_arg11) = m ((c : Thread nD τ).loc main_arg11) := (N5_of m c main_arg11 (by decide)).trans (N4_arg11 m c)
theorem N6_arg11 : N6 m c (Proc.devRef .tc main_arg11) = m ((c : Thread nD τ).loc main_arg11) := (N6_of m c main_arg11 (by decide)).trans (N5_arg11 m c)
theorem N7_arg11 : N7 m c (Proc.devRef .tc main_arg11) = m ((c : Thread nD τ).loc main_arg11) := (N7_of m c main_arg11 (by decide)).trans (N6_arg11 m c)

theorem N0_arg12 : N0 m c (Proc.devRef .tc main_arg12) = m ((c : Thread nD τ).loc main_arg12) := rfl
theorem N1_arg12 : N1 m c (Proc.devRef .tc main_arg12) = m ((c : Thread nD τ).loc main_arg12) := (N1_of m c main_arg12 (by decide)).trans (N0_arg12 m c)
theorem N2_arg12 : N2 m c (Proc.devRef .tc main_arg12) = m ((c : Thread nD τ).loc main_arg12) := (N2_of m c main_arg12 (by decide)).trans (N1_arg12 m c)
theorem N3_arg12 : N3 m c (Proc.devRef .tc main_arg12) = m ((c : Thread nD τ).loc main_arg12) := (N3_of m c main_arg12 (by decide)).trans (N2_arg12 m c)
theorem N4_arg12 : N4 m c (Proc.devRef .tc main_arg12) = m ((c : Thread nD τ).loc main_arg12) := (N4_of m c main_arg12 (by decide)).trans (N3_arg12 m c)
theorem N5_arg12 : N5 m c (Proc.devRef .tc main_arg12) = m ((c : Thread nD τ).loc main_arg12) := (N5_of m c main_arg12 (by decide)).trans (N4_arg12 m c)
theorem N6_arg12 : N6 m c (Proc.devRef .tc main_arg12) = m ((c : Thread nD τ).loc main_arg12) := (N6_of m c main_arg12 (by decide)).trans (N5_arg12 m c)
theorem N7_arg12 : N7 m c (Proc.devRef .tc main_arg12) = m ((c : Thread nD τ).loc main_arg12) := (N7_of m c main_arg12 (by decide)).trans (N6_arg12 m c)

theorem N0_arg13 : N0 m c (Proc.devRef .tc main_arg13) = m ((c : Thread nD τ).loc main_arg13) := rfl
theorem N1_arg13 : N1 m c (Proc.devRef .tc main_arg13) = m ((c : Thread nD τ).loc main_arg13) := (N1_of m c main_arg13 (by decide)).trans (N0_arg13 m c)
theorem N2_arg13 : N2 m c (Proc.devRef .tc main_arg13) = m ((c : Thread nD τ).loc main_arg13) := (N2_of m c main_arg13 (by decide)).trans (N1_arg13 m c)
theorem N3_arg13 : N3 m c (Proc.devRef .tc main_arg13) = m ((c : Thread nD τ).loc main_arg13) := (N3_of m c main_arg13 (by decide)).trans (N2_arg13 m c)
theorem N4_arg13 : N4 m c (Proc.devRef .tc main_arg13) = m ((c : Thread nD τ).loc main_arg13) := (N4_of m c main_arg13 (by decide)).trans (N3_arg13 m c)
theorem N5_arg13 : N5 m c (Proc.devRef .tc main_arg13) = m ((c : Thread nD τ).loc main_arg13) := (N5_of m c main_arg13 (by decide)).trans (N4_arg13 m c)
theorem N6_arg13 : N6 m c (Proc.devRef .tc main_arg13) = m ((c : Thread nD τ).loc main_arg13) := (N6_of m c main_arg13 (by decide)).trans (N5_arg13 m c)
theorem N7_arg13 : N7 m c (Proc.devRef .tc main_arg13) = m ((c : Thread nD τ).loc main_arg13) := (N7_of m c main_arg13 (by decide)).trans (N6_arg13 m c)

theorem N0_arg14 : N0 m c (Proc.devRef .tc main_arg14) = m ((c : Thread nD τ).loc main_arg14) := rfl
theorem N1_arg14 : N1 m c (Proc.devRef .tc main_arg14) = m ((c : Thread nD τ).loc main_arg14) := (N1_of m c main_arg14 (by decide)).trans (N0_arg14 m c)
theorem N2_arg14 : N2 m c (Proc.devRef .tc main_arg14) = m ((c : Thread nD τ).loc main_arg14) := (N2_of m c main_arg14 (by decide)).trans (N1_arg14 m c)
theorem N3_arg14 : N3 m c (Proc.devRef .tc main_arg14) = m ((c : Thread nD τ).loc main_arg14) := (N3_of m c main_arg14 (by decide)).trans (N2_arg14 m c)
theorem N4_arg14 : N4 m c (Proc.devRef .tc main_arg14) = m ((c : Thread nD τ).loc main_arg14) := (N4_of m c main_arg14 (by decide)).trans (N3_arg14 m c)
theorem N5_arg14 : N5 m c (Proc.devRef .tc main_arg14) = m ((c : Thread nD τ).loc main_arg14) := (N5_of m c main_arg14 (by decide)).trans (N4_arg14 m c)
theorem N6_arg14 : N6 m c (Proc.devRef .tc main_arg14) = m ((c : Thread nD τ).loc main_arg14) := (N6_of m c main_arg14 (by decide)).trans (N5_arg14 m c)
theorem N7_arg14 : N7 m c (Proc.devRef .tc main_arg14) = m ((c : Thread nD τ).loc main_arg14) := (N7_of m c main_arg14 (by decide)).trans (N6_arg14 m c)

theorem N0_arg15 : N0 m c (Proc.devRef .tc main_arg15) = m ((c : Thread nD τ).loc main_arg15) := rfl
theorem N1_arg15 : N1 m c (Proc.devRef .tc main_arg15) = m ((c : Thread nD τ).loc main_arg15) := (N1_of m c main_arg15 (by decide)).trans (N0_arg15 m c)
theorem N2_arg15 : N2 m c (Proc.devRef .tc main_arg15) = m ((c : Thread nD τ).loc main_arg15) := (N2_of m c main_arg15 (by decide)).trans (N1_arg15 m c)
theorem N3_arg15 : N3 m c (Proc.devRef .tc main_arg15) = m ((c : Thread nD τ).loc main_arg15) := (N3_of m c main_arg15 (by decide)).trans (N2_arg15 m c)
theorem N4_arg15 : N4 m c (Proc.devRef .tc main_arg15) = m ((c : Thread nD τ).loc main_arg15) := (N4_of m c main_arg15 (by decide)).trans (N3_arg15 m c)
theorem N5_arg15 : N5 m c (Proc.devRef .tc main_arg15) = m ((c : Thread nD τ).loc main_arg15) := (N5_of m c main_arg15 (by decide)).trans (N4_arg15 m c)
theorem N6_arg15 : N6 m c (Proc.devRef .tc main_arg15) = m ((c : Thread nD τ).loc main_arg15) := (N6_of m c main_arg15 (by decide)).trans (N5_arg15 m c)
theorem N7_arg15 : N7 m c (Proc.devRef .tc main_arg15) = m ((c : Thread nD τ).loc main_arg15) := (N7_of m c main_arg15 (by decide)).trans (N6_arg15 m c)

theorem N0_arg16 : N0 m c (Proc.devRef .tc main_arg16) = m ((c : Thread nD τ).loc main_arg16) := rfl
theorem N1_arg16 : N1 m c (Proc.devRef .tc main_arg16) = m ((c : Thread nD τ).loc main_arg16) := (N1_of m c main_arg16 (by decide)).trans (N0_arg16 m c)
theorem N2_arg16 : N2 m c (Proc.devRef .tc main_arg16) = m ((c : Thread nD τ).loc main_arg16) := (N2_of m c main_arg16 (by decide)).trans (N1_arg16 m c)
theorem N3_arg16 : N3 m c (Proc.devRef .tc main_arg16) = m ((c : Thread nD τ).loc main_arg16) := (N3_of m c main_arg16 (by decide)).trans (N2_arg16 m c)
theorem N4_arg16 : N4 m c (Proc.devRef .tc main_arg16) = m ((c : Thread nD τ).loc main_arg16) := (N4_of m c main_arg16 (by decide)).trans (N3_arg16 m c)
theorem N5_arg16 : N5 m c (Proc.devRef .tc main_arg16) = m ((c : Thread nD τ).loc main_arg16) := (N5_of m c main_arg16 (by decide)).trans (N4_arg16 m c)
theorem N6_arg16 : N6 m c (Proc.devRef .tc main_arg16) = m ((c : Thread nD τ).loc main_arg16) := (N6_of m c main_arg16 (by decide)).trans (N5_arg16 m c)
theorem N7_arg16 : N7 m c (Proc.devRef .tc main_arg16) = m ((c : Thread nD τ).loc main_arg16) := (N7_of m c main_arg16 (by decide)).trans (N6_arg16 m c)

theorem N0_arg17 : N0 m c (Proc.devRef .tc main_arg17) = m ((c : Thread nD τ).loc main_arg17) := rfl
theorem N1_arg17 : N1 m c (Proc.devRef .tc main_arg17) = m ((c : Thread nD τ).loc main_arg17) := (N1_of m c main_arg17 (by decide)).trans (N0_arg17 m c)
theorem N2_arg17 : N2 m c (Proc.devRef .tc main_arg17) = m ((c : Thread nD τ).loc main_arg17) := (N2_of m c main_arg17 (by decide)).trans (N1_arg17 m c)
theorem N3_arg17 : N3 m c (Proc.devRef .tc main_arg17) = m ((c : Thread nD τ).loc main_arg17) := (N3_of m c main_arg17 (by decide)).trans (N2_arg17 m c)
theorem N4_arg17 : N4 m c (Proc.devRef .tc main_arg17) = m ((c : Thread nD τ).loc main_arg17) := (N4_of m c main_arg17 (by decide)).trans (N3_arg17 m c)
theorem N5_arg17 : N5 m c (Proc.devRef .tc main_arg17) = m ((c : Thread nD τ).loc main_arg17) := (N5_of m c main_arg17 (by decide)).trans (N4_arg17 m c)
theorem N6_arg17 : N6 m c (Proc.devRef .tc main_arg17) = m ((c : Thread nD τ).loc main_arg17) := (N6_of m c main_arg17 (by decide)).trans (N5_arg17 m c)
theorem N7_arg17 : N7 m c (Proc.devRef .tc main_arg17) = m ((c : Thread nD τ).loc main_arg17) := (N7_of m c main_arg17 (by decide)).trans (N6_arg17 m c)

/-! ## `main_v77` and `main_v112` at the later boundaries -/

theorem N4_v77 : N4 m c (Proc.devRef .tc main_v77) = N2 m c (Proc.devRef .tc main_v77) :=
  ((N4_of m c main_v77 (by decide)).trans (N3_of m c main_v77 (by decide)))
theorem N5_v112 : N5 m c (Proc.devRef .tc main_v112) = N4 m c (Proc.devRef .tc main_v112) :=
  (N5_of m c main_v112 (by decide))
theorem N5_v77 : N5 m c (Proc.devRef .tc main_v77) = N2 m c (Proc.devRef .tc main_v77) :=
  (((N5_of m c main_v77 (by decide)).trans (N4_of m c main_v77 (by decide))).trans (N3_of m c main_v77 (by decide)))
theorem N6_v112 : N6 m c (Proc.devRef .tc main_v112) = N4 m c (Proc.devRef .tc main_v112) :=
  ((N6_of m c main_v112 (by decide)).trans (N5_of m c main_v112 (by decide)))

end Cert.ReferenceIdeal.Hand

end
-- ==== Proof.Bridge.Assemble.lean ====
/-
  The two programs' results are the same array.

  Walking both programs stage by stage from the arguments: the player and history features agree; each encoder's output
  is the specification's affine map of rows of those features (a row-tiled product in the kernel program, one whole product
  in the reference); each layer's output is the specification's three-relation combine of the segment means of the previous
  layer's output, of the history encoding's segment mean, and of the layer's slab of the weights — the segment means being
  the same host chains applied to equal inputs —; and the pooled classifier output is the same host chain applied to the
  last layer's output.  Each step rewrites one buffer's contents; the argument arrays are never written by either program.
-/
import proofs.«111184_j68341519614847_1_alg».proof.Proof.Bridge.KSide
import proofs.«111184_j68341519614847_1_alg».proof.Proof.Bridge.RSide
import proofs.«111184_j68341519614847_1_alg».proof.Proof.Bridge.Joint
import proofs.«111184_j68341519614847_1_alg».proof.Proof.Bridge.JointFeatP
import proofs.«111184_j68341519614847_1_alg».proof.Proof.Bridge.JointFeatH
import proofs.«111184_j68341519614847_1_alg».proof.Proof.Ref.Keeps

noncomputable section

namespace Cert.Bridge.Assemble

open Idealize.ShloMosaic Idealize.ShloMosaic.TcCoe Idealize.SL.Sem Idealize.ShloMosaic.StableHlo Cert.Bridge

set_option maxHeartbeats 4000000 in
/-- From memories that agree on the eighteen arguments, the reference's result buffer after its whole line of operations
    holds what the kernel program's result buffer holds at its last boundary. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    StableHlo.after (Cert.ReferenceIdeal.Hand.ops (F := Ideal)) (fun b => m' (c, b)) (Proc.devRef .tc Cert.ReferenceIdeal.main_v357)
      = Cert.KernelIdeal.Hand.W20 (F := Ideal) m ρ c (Proc.devRef .tc Cert.KernelIdeal.main_v243) := by
  have a_0_0_0 : Cert.KernelIdeal.Hand.W0 (F := Ideal) m ρ c (Proc.devRef .tc Cert.KernelIdeal.main_arg0) = Cert.ReferenceIdeal.Hand.N0 (F := Ideal) m' c (Proc.devRef .tc Cert.ReferenceIdeal.main_arg0) :=
    (Cert.Bridge.KSide.W0_arg0 m ρ c).trans (((Cert.ReferenceIdeal.Hand.N0_arg0 (F := Ideal) m' c).trans hag.1).symm)
  have a_0_0_6 : Cert.KernelIdeal.Hand.W0 (F := Ideal) m ρ c (Proc.devRef .tc Cert.KernelIdeal.main_arg6) = Cert.ReferenceIdeal.Hand.N0 (F := Ideal) m' c (Proc.devRef .tc Cert.ReferenceIdeal.main_arg6) :=
    (Cert.Bridge.KSide.W0_arg6 m ρ c).trans (((Cert.ReferenceIdeal.Hand.N0_arg6 (F := Ideal) m' c).trans hag.2.2.2.2.2.2.1).symm)
  have a_4_1_9 : Cert.KernelIdeal.Hand.W4 (F := Ideal) m ρ c (Proc.devRef .tc Cert.KernelIdeal.main_arg9) = Cert.ReferenceIdeal.Hand.N1 (F := Ideal) m' c (Proc.devRef .tc Cert.ReferenceIdeal.main_arg9) :=
    (Cert.Bridge.KSide.W4_arg9 m ρ c).trans (((Cert.ReferenceIdeal.Hand.N1_arg9 (F := Ideal) m' c).trans hag.2.2.2.2.2.2.2.2.2.1).symm)
  have a_4_1_10 : Cert.KernelIdeal.Hand.W4 (F := Ideal) m ρ c (Proc.devRef .tc Cert.KernelIdeal.main_arg10) = Cert.ReferenceIdeal.Hand.N1 (F := Ideal) m' c (Proc.devRef .tc Cert.ReferenceIdeal.main_arg10) :=
    (Cert.Bridge.KSide.W4_arg10 m ρ c).trans (((Cert.ReferenceIdeal.Hand.N1_arg10 (F := Ideal) m' c).trans hag.2.2.2.2.2.2.2.2.2.2.1).symm)
  have a_5_2_1 : Cert.KernelIdeal.Hand.W5 (F := Ideal) m ρ c (Proc.devRef .tc Cert.KernelIdeal.main_arg1) = Cert.ReferenceIdeal.Hand.N2 (F := Ideal) m' c (Proc.devRef .tc Cert.ReferenceIdeal.main_arg1) :=
    (Cert.Bridge.KSide.W5_arg1 m ρ c).trans (((Cert.ReferenceIdeal.Hand.N2_arg1 (F := Ideal) m' c).trans hag.2.1).symm)
  have a_5_2_7 : Cert.KernelIdeal.Hand.W5 (F := Ideal) m ρ c (Proc.devRef .tc Cert.KernelIdeal.main_arg7) = Cert.ReferenceIdeal.Hand.N2 (F := Ideal) m' c (Proc.devRef .tc Cert.ReferenceIdeal.main_arg7) :=
    (Cert.Bridge.KSide.W5_arg7 m ρ c).trans (((Cert.ReferenceIdeal.Hand.N2_arg7 (F := Ideal) m' c).trans hag.2.2.2.2.2.2.2.1).symm)
  have a_5_2_8 : Cert.KernelIdeal.Hand.W5 (F := Ideal) m ρ c (Proc.devRef .tc Cert.KernelIdeal.main_arg8) = Cert.ReferenceIdeal.Hand.N2 (F := Ideal) m' c (Proc.devRef .tc Cert.ReferenceIdeal.main_arg8) :=
    (Cert.Bridge.KSide.W5_arg8 m ρ c).trans (((Cert.ReferenceIdeal.Hand.N2_arg8 (F := Ideal) m' c).trans hag.2.2.2.2.2.2.2.2.1).symm)
  have a_11_3_11 : Cert.KernelIdeal.Hand.W11 (F := Ideal) m ρ c (Proc.devRef .tc Cert.KernelIdeal.main_arg11) = Cert.ReferenceIdeal.Hand.N3 (F := Ideal) m' c (Proc.devRef .tc Cert.ReferenceIdeal.main_arg11) :=
    (Cert.Bridge.KSide.W11_arg11 m ρ c).trans (((Cert.ReferenceIdeal.Hand.N3_arg11 (F := Ideal) m' c).trans hag.2.2.2.2.2.2.2.2.2.2.2.1).symm)
  have a_11_3_12 : Cert.KernelIdeal.Hand.W11 (F := Ideal) m ρ c (Proc.devRef .tc Cert.KernelIdeal.main_arg12) = Cert.ReferenceIdeal.Hand.N3 (F := Ideal) m' c (Proc.devRef .tc Cert.ReferenceIdeal.main_arg12) :=
    (Cert.Bridge.KSide.W11_arg12 m ρ c).trans (((Cert.ReferenceIdeal.Hand.N3_arg12 (F := Ideal) m' c).trans hag.2.2.2.2.2.2.2.2.2.2.2.2.1).symm)
  have a_12_4_2 : Cert.KernelIdeal.Hand.W12 (F := Ideal) m ρ c (Proc.devRef .tc Cert.KernelIdeal.main_arg2) = Cert.ReferenceIdeal.Hand.N4 (F := Ideal) m' c (Proc.devRef .tc Cert.ReferenceIdeal.main_arg2) :=
    (Cert.Bridge.KSide.W12_arg2 m ρ c).trans (((Cert.ReferenceIdeal.Hand.N4_arg2 (F := Ideal) m' c).trans hag.2.2.1).symm)
  have a_12_4_3 : Cert.KernelIdeal.Hand.W12 (F := Ideal) m ρ c (Proc.devRef .tc Cert.KernelIdeal.main_arg3) = Cert.ReferenceIdeal.Hand.N4 (F := Ideal) m' c (Proc.devRef .tc Cert.ReferenceIdeal.main_arg3) :=
    (Cert.Bridge.KSide.W12_arg3 m ρ c).trans (((Cert.ReferenceIdeal.Hand.N4_arg3 (F := Ideal) m' c).trans hag.2.2.2.1).symm)
  have a_12_4_4 : Cert.KernelIdeal.Hand.W12 (F := Ideal) m ρ c (Proc.devRef .tc Cert.KernelIdeal.main_arg4) = Cert.ReferenceIdeal.Hand.N4 (F := Ideal) m' c (Proc.devRef .tc Cert.ReferenceIdeal.main_arg4) :=
    (Cert.Bridge.KSide.W12_arg4 m ρ c).trans (((Cert.ReferenceIdeal.Hand.N4_arg4 (F := Ideal) m' c).trans hag.2.2.2.2.1).symm)
  have a_12_4_13 : Cert.KernelIdeal.Hand.W12 (F := Ideal) m ρ c (Proc.devRef .tc Cert.KernelIdeal.main_arg13) = Cert.ReferenceIdeal.Hand.N4 (F := Ideal) m' c (Proc.devRef .tc Cert.ReferenceIdeal.main_arg13) :=
    (Cert.Bridge.KSide.W12_arg13 m ρ c).trans (((Cert.ReferenceIdeal.Hand.N4_arg13 (F := Ideal) m' c).trans hag.2.2.2.2.2.2.2.2.2.2.2.2.2.1).symm)
  have a_12_4_14 : Cert.KernelIdeal.Hand.W12 (F := Ideal) m ρ c (Proc.devRef .tc Cert.KernelIdeal.main_arg14) = Cert.ReferenceIdeal.Hand.N4 (F := Ideal) m' c (Proc.devRef .tc Cert.ReferenceIdeal.main_arg14) :=
    (Cert.Bridge.KSide.W12_arg14 m ρ c).trans (((Cert.ReferenceIdeal.Hand.N4_arg14 (F := Ideal) m' c).trans hag.2.2.2.2.2.2.2.2.2.2.2.2.2.2.1).symm)
  have a_12_4_15 : Cert.KernelIdeal.Hand.W12 (F := Ideal) m ρ c (Proc.devRef .tc Cert.KernelIdeal.main_arg15) = Cert.ReferenceIdeal.Hand.N4 (F := Ideal) m' c (Proc.devRef .tc Cert.ReferenceIdeal.main_arg15) :=
    (Cert.Bridge.KSide.W12_arg15 m ρ c).trans (((Cert.ReferenceIdeal.Hand.N4_arg15 (F := Ideal) m' c).trans hag.2.2.2.2.2.2.2.2.2.2.2.2.2.2.2.1).symm)
  have a_12_5_4 : Cert.KernelIdeal.Hand.W12 (F := Ideal) m ρ c (Proc.devRef .tc Cert.KernelIdeal.main_arg4) = Cert.ReferenceIdeal.Hand.N5 (F := Ideal) m' c (Proc.devRef .tc Cert.ReferenceIdeal.main_arg4) :=
    (Cert.Bridge.KSide.W12_arg4 m ρ c).trans (((Cert.ReferenceIdeal.Hand.N5_arg4 (F := Ideal) m' c).trans hag.2.2.2.2.1).symm)
  have a_15_5_2 : Cert.KernelIdeal.Hand.W15 (F := Ideal) m ρ c (Proc.devRef .tc Cert.KernelIdeal.main_arg2) = Cert.ReferenceIdeal.Hand.N5 (F := Ideal) m' c (Proc.devRef .tc Cert.ReferenceIdeal.main_arg2) :=
    (Cert.Bridge.KSide.W15_arg2 m ρ c).trans (((Cert.ReferenceIdeal.Hand.N5_arg2 (F := Ideal) m' c).trans hag.2.2.1).symm)
  have a_15_5_3 : Cert.KernelIdeal.Hand.W15 (F := Ideal) m ρ c (Proc.devRef .tc Cert.KernelIdeal.main_arg3) = Cert.ReferenceIdeal.Hand.N5 (F := Ideal) m' c (Proc.devRef .tc Cert.ReferenceIdeal.main_arg3) :=
    (Cert.Bridge.KSide.W15_arg3 m ρ c).trans (((Cert.ReferenceIdeal.Hand.N5_arg3 (F := Ideal) m' c).trans hag.2.2.2.1).symm)
  have a_15_5_13 : Cert.KernelIdeal.Hand.W15 (F := Ideal) m ρ c (Proc.devRef .tc Cert.KernelIdeal.main_arg13) = Cert.ReferenceIdeal.Hand.N5 (F := Ideal) m' c (Proc.devRef .tc Cert.ReferenceIdeal.main_arg13) :=
    (Cert.Bridge.KSide.W15_arg13 m ρ c).trans (((Cert.ReferenceIdeal.Hand.N5_arg13 (F := Ideal) m' c).trans hag.2.2.2.2.2.2.2.2.2.2.2.2.2.1).symm)
  have a_15_5_14 : Cert.KernelIdeal.Hand.W15 (F := Ideal) m ρ c (Proc.devRef .tc Cert.KernelIdeal.main_arg14) = Cert.ReferenceIdeal.Hand.N5 (F := Ideal) m' c (Proc.devRef .tc Cert.ReferenceIdeal.main_arg14) :=
    (Cert.Bridge.KSide.W15_arg14 m ρ c).trans (((Cert.ReferenceIdeal.Hand.N5_arg14 (F := Ideal) m' c).trans hag.2.2.2.2.2.2.2.2.2.2.2.2.2.2.1).symm)
  have a_15_5_15 : Cert.KernelIdeal.Hand.W15 (F := Ideal) m ρ c (Proc.devRef .tc Cert.KernelIdeal.main_arg15) = Cert.ReferenceIdeal.Hand.N5 (F := Ideal) m' c (Proc.devRef .tc Cert.ReferenceIdeal.main_arg15) :=
    (Cert.Bridge.KSide.W15_arg15 m ρ c).trans (((Cert.ReferenceIdeal.Hand.N5_arg15 (F := Ideal) m' c).trans hag.2.2.2.2.2.2.2.2.2.2.2.2.2.2.2.1).symm)
  have a_18_6_5 : Cert.KernelIdeal.Hand.W18 (F := Ideal) m ρ c (Proc.devRef .tc Cert.KernelIdeal.main_arg5) = Cert.ReferenceIdeal.Hand.N6 (F := Ideal) m' c (Proc.devRef .tc Cert.ReferenceIdeal.main_arg5) :=
    (Cert.Bridge.KSide.W18_arg5 m ρ c).trans (((Cert.ReferenceIdeal.Hand.N6_arg5 (F := Ideal) m' c).trans hag.2.2.2.2.2.1).symm)
  have a_18_6_16 : Cert.KernelIdeal.Hand.W18 (F := Ideal) m ρ c (Proc.devRef .tc Cert.KernelIdeal.main_arg16) = Cert.ReferenceIdeal.Hand.N6 (F := Ideal) m' c (Proc.devRef .tc Cert.ReferenceIdeal.main_arg16) :=
    (Cert.Bridge.KSide.W18_arg16 m ρ c).trans (((Cert.ReferenceIdeal.Hand.N6_arg16 (F := Ideal) m' c).trans hag.2.2.2.2.2.2.2.2.2.2.2.2.2.2.2.2.1).symm)
  have a_18_6_17 : Cert.KernelIdeal.Hand.W18 (F := Ideal) m ρ c (Proc.devRef .tc Cert.KernelIdeal.main_arg17) = Cert.ReferenceIdeal.Hand.N6 (F := Ideal) m' c (Proc.devRef .tc Cert.ReferenceIdeal.main_arg17) :=
    (Cert.Bridge.KSide.W18_arg17 m ρ c).trans (((Cert.ReferenceIdeal.Hand.N6_arg17 (F := Ideal) m' c).trans hag.2.2.2.2.2.2.2.2.2.2.2.2.2.2.2.2.2).symm)
  -- the player features, then the player encoder
  have hF : Cert.KernelIdeal.Hand.W4 (F := Ideal) m ρ c (Proc.devRef .tc Cert.KernelIdeal.main_v65) = Cert.ReferenceIdeal.Hand.N1 (F := Ideal) m' c (Proc.devRef .tc Cert.ReferenceIdeal.main_v72) :=
    Cert.Bridge.JointFeatP.featP (Cert.KernelIdeal.Hand.W0 (F := Ideal) m ρ c) (Cert.ReferenceIdeal.Hand.N0 (F := Ideal) m' c) a_0_0_0 a_0_0_6
  have hp0 : Cert.KernelIdeal.Hand.W5 (F := Ideal) m ρ c (Proc.devRef .tc Cert.KernelIdeal.main_v66) = Cert.ReferenceIdeal.Hand.N2 (F := Ideal) m' c (Proc.devRef .tc Cert.ReferenceIdeal.main_v77) := by
    refine (Cert.Bridge.KSide.kp0 m ρ c).trans (Eq.trans ?_ (Cert.Bridge.RSide.rp0 m' c).symm)
    rw [hF, a_4_1_9, a_4_1_10]
  -- the history features, then the history encoder
  have hG : Cert.KernelIdeal.Hand.W11 (F := Ideal) m ρ c (Proc.devRef .tc Cert.KernelIdeal.main_v96) = Cert.ReferenceIdeal.Hand.N3 (F := Ideal) m' c (Proc.devRef .tc Cert.ReferenceIdeal.main_v107) :=
    Cert.Bridge.JointFeatH.featH (Cert.KernelIdeal.Hand.W5 (F := Ideal) m ρ c) (Cert.ReferenceIdeal.Hand.N2 (F := Ideal) m' c) a_5_2_1 a_5_2_7 a_5_2_8
      (Cert.Bridge.JointFeatH.c0_eq m ρ c m' c)
  have hh : Cert.KernelIdeal.Hand.W12 (F := Ideal) m ρ c (Proc.devRef .tc Cert.KernelIdeal.main_v97) = Cert.ReferenceIdeal.Hand.N4 (F := Ideal) m' c (Proc.devRef .tc Cert.ReferenceIdeal.main_v112) := by
    refine (Cert.Bridge.KSide.khist m ρ c).trans (Eq.trans ?_ (Cert.Bridge.RSide.rhist m' c).symm)
    rw [hG, a_11_3_11, a_11_3_12]
  -- the encoder outputs where layer 1 reads them
  have hp0' : Cert.KernelIdeal.Hand.W12 (F := Ideal) m ρ c (Proc.devRef .tc Cert.KernelIdeal.main_v66) = Cert.ReferenceIdeal.Hand.N4 (F := Ideal) m' c (Proc.devRef .tc Cert.ReferenceIdeal.main_v77) :=
    (Cert.Bridge.KSide.W12_v66 m ρ c).trans (hp0.trans (Cert.ReferenceIdeal.Hand.N4_v77 (F := Ideal) m' c).symm)
  -- layer 1
  have hT1 : Cert.KernelIdeal.Hand.W14 (F := Ideal) m ρ c (Proc.devRef .tc Cert.KernelIdeal.main_v143) = Cert.ReferenceIdeal.Hand.N5 (F := Ideal) m' c (Proc.devRef .tc Cert.ReferenceIdeal.main_v141) := Cert.Bridge.Joint.aggT1 (Cert.KernelIdeal.Hand.W12 (F := Ideal) m ρ c) (Cert.ReferenceIdeal.Hand.N4 (F := Ideal) m' c) hp0' a_12_4_2
  have hE1 : Cert.KernelIdeal.Hand.W14 (F := Ideal) m ρ c (Proc.devRef .tc Cert.KernelIdeal.main_v166) = Cert.ReferenceIdeal.Hand.N5 (F := Ideal) m' c (Proc.devRef .tc Cert.ReferenceIdeal.main_v178) := Cert.Bridge.Joint.aggE1 (Cert.KernelIdeal.Hand.W12 (F := Ideal) m ρ c) (Cert.ReferenceIdeal.Hand.N4 (F := Ideal) m' c) hp0' a_12_4_3
  have hH1 : Cert.KernelIdeal.Hand.W14 (F := Ideal) m ρ c (Proc.devRef .tc Cert.KernelIdeal.main_v120) = Cert.ReferenceIdeal.Hand.N5 (F := Ideal) m' c (Proc.devRef .tc Cert.ReferenceIdeal.main_v216) := Cert.Bridge.Joint.aggH1 (Cert.KernelIdeal.Hand.W12 (F := Ideal) m ρ c) (Cert.ReferenceIdeal.Hand.N4 (F := Ideal) m' c) hh a_12_4_4
  have hp1 : Cert.KernelIdeal.Hand.W15 (F := Ideal) m ρ c (Proc.devRef .tc Cert.KernelIdeal.main_v173) = Cert.ReferenceIdeal.Hand.N5 (F := Ideal) m' c (Proc.devRef .tc Cert.ReferenceIdeal.main_v226) := by
    refine (Cert.Bridge.KSide.kp1 m ρ c).trans (Eq.trans ?_ (Cert.Bridge.RSide.rp1 m' c).symm)
    rw [hT1, hE1, hH1, Cert.Bridge.KSide.W14_v66 m ρ c, ← Cert.Bridge.KSide.W12_v66 m ρ c, hp0', Cert.Bridge.KSide.kWl0 m ρ c, Cert.Bridge.KSide.kWr0 m ρ c, Cert.Bridge.KSide.kbb0 m ρ c, a_12_4_13, a_12_4_14, a_12_4_15]
  -- layer 2
  have hT2 : Cert.KernelIdeal.Hand.W17 (F := Ideal) m ρ c (Proc.devRef .tc Cert.KernelIdeal.main_v196) = Cert.ReferenceIdeal.Hand.N6 (F := Ideal) m' c (Proc.devRef .tc Cert.ReferenceIdeal.main_v255) := Cert.Bridge.Joint.aggT2 (Cert.KernelIdeal.Hand.W15 (F := Ideal) m ρ c) (Cert.ReferenceIdeal.Hand.N5 (F := Ideal) m' c) hp1 a_15_5_2
  have hE2 : Cert.KernelIdeal.Hand.W17 (F := Ideal) m ρ c (Proc.devRef .tc Cert.KernelIdeal.main_v219) = Cert.ReferenceIdeal.Hand.N6 (F := Ideal) m' c (Proc.devRef .tc Cert.ReferenceIdeal.main_v292) := Cert.Bridge.Joint.aggE2 (Cert.KernelIdeal.Hand.W15 (F := Ideal) m ρ c) (Cert.ReferenceIdeal.Hand.N5 (F := Ideal) m' c) hp1 a_15_5_3
  have hh5 : Cert.KernelIdeal.Hand.W12 (F := Ideal) m ρ c (Proc.devRef .tc Cert.KernelIdeal.main_v97) = Cert.ReferenceIdeal.Hand.N5 (F := Ideal) m' c (Proc.devRef .tc Cert.ReferenceIdeal.main_v112) := hh.trans (Cert.ReferenceIdeal.Hand.N5_v112 (F := Ideal) m' c).symm
  have hH2 : Cert.KernelIdeal.Hand.W17 (F := Ideal) m ρ c (Proc.devRef .tc Cert.KernelIdeal.main_v120) = Cert.ReferenceIdeal.Hand.N6 (F := Ideal) m' c (Proc.devRef .tc Cert.ReferenceIdeal.main_v330) :=
    (Cert.Bridge.KSide.W17_v120 m ρ c).trans (Cert.Bridge.Joint.aggH2 (Cert.KernelIdeal.Hand.W12 (F := Ideal) m ρ c) (Cert.ReferenceIdeal.Hand.N5 (F := Ideal) m' c) hh5 a_12_5_4)
  have hp2 : Cert.KernelIdeal.Hand.W18 (F := Ideal) m ρ c (Proc.devRef .tc Cert.KernelIdeal.main_v226) = Cert.ReferenceIdeal.Hand.N6 (F := Ideal) m' c (Proc.devRef .tc Cert.ReferenceIdeal.main_v340) := by
    refine (Cert.Bridge.KSide.kp2 m ρ c).trans (Eq.trans ?_ (Cert.Bridge.RSide.rp2 m' c).symm)
    rw [hT2, hE2, hH2, Cert.Bridge.KSide.W17_v173 m ρ c, hp1, Cert.Bridge.KSide.kWl1 m ρ c, Cert.Bridge.KSide.kWr1 m ρ c, Cert.Bridge.KSide.kbb1 m ρ c, a_15_5_13, a_15_5_14, a_15_5_15]
  -- the pooled classifier output
  have hout : Cert.KernelIdeal.Hand.W20 (F := Ideal) m ρ c (Proc.devRef .tc Cert.KernelIdeal.main_v243) = Cert.ReferenceIdeal.Hand.N7 (F := Ideal) m' c (Proc.devRef .tc Cert.ReferenceIdeal.main_v357) :=
    Cert.Bridge.Joint.tail (Cert.KernelIdeal.Hand.W18 (F := Ideal) m ρ c) (Cert.ReferenceIdeal.Hand.N6 (F := Ideal) m' c) hp2 a_18_6_5 a_18_6_16 a_18_6_17
  exact (congrFun (Cert.ReferenceIdeal.Hand.after_ops_eq (F := Ideal) m' c) _).trans hout.symm

end Cert.Bridge.Assemble

end
-- ==== Proof.lean ====
/- The proof of `Cert.Claim`.

   The kernel program is four row-tiled regions (two encoder products, two three-relation layer combines) among host
   operations; the reference is one line of host operations.  Each frame claim is the program's run: every weakly fair
   execution ends, nothing faults, and the argument arrays are never written (Proof/K/Run.lean for the word-level program,
   Proof/KI/Run.lean for its idealization, Proof/Ref/Run.lean for the reference).  The idealization rewrote nothing, so
   `preserves` is `True`.  For `algebraic`, the idealized kernel program's result is read off its run at the last
   boundary, and the reference's result buffer is shown to hold the same array (Proof/Bridge/Assemble.lean): on the extended
   reals both programs compute the same function of the arguments, stage by stage, the only regrouping being
   (A + b) + B = (A + B) + b inside each relation's term; no finiteness of the inputs is used. -/
import proofs.«111184_j68341519614847_1_alg».proof.Defs
import proofs.«111184_j68341519614847_1_alg».proof.Proof.Gen.Kernel
import proofs.«111184_j68341519614847_1_alg».proof.Proof.Gen.KernelIdeal
import proofs.«111184_j68341519614847_1_alg».proof.Proof.Gen.ReferenceIdeal
import proofs.«111184_j68341519614847_1_alg».proof.Proof.Gen.Pre_finite_inputs
import proofs.«111184_j68341519614847_1_alg».proof.Proof.K.Run
import proofs.«111184_j68341519614847_1_alg».proof.Proof.KI.Run
import proofs.«111184_j68341519614847_1_alg».proof.Proof.Ref.Run
import proofs.«111184_j68341519614847_1_alg».proof.Proof.Bridge.Assemble
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the same result array, from memories that agree on the arguments. -/
theorem algebraic : Cert.algebraic_KernelIdeal_ReferenceIdeal := fun m ρ m' ρ' _ hagree =>
  ⟨fun c => Cert.KernelIdeal.Hand.W20 (F := Ideal) m ρ c (Proc.devRef .tc Cert.KernelIdeal.main_v243),
    Cert.KernelIdeal.Hand.result_at m ρ,
    (θ_run Cert.ReferenceIdeal.defs _ _).mono
      (fun _ h c => ⟨(h c).1.trans (Cert.Bridge.Assemble.value_eq m ρ m' c (hagree c)), (h c).2⟩)
      (Cert.ReferenceIdeal.Hand.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
